-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384 : Shape := ⟨1, ![16384]⟩
abbrev S1000000x64 : Shape := ⟨2, ![1000000, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x128 .f32) (main_arg1 : IVec S16384 32) (main_arg2 : FVec F S1000000x64 .f32) (main_arg3 : FVec F S1000000x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg3
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 999999#32
  fn_part1 (F := F) main_arg1 main_v13 main_v15 main_c_5
-- ==== Kernel.lean ====
abbrev S16384x128 : Shape := ⟨2, ![16384, 128]⟩
abbrev S16384 : Shape := ⟨1, ![16384]⟩
abbrev S1000000x64 : Shape := ⟨2, ![1000000, 64]⟩
abbrev S528 : Shape := ⟨1, ![528]⟩
abbrev S64x128 : Shape := ⟨2, ![64, 128]⟩
abbrev S64x64 : Shape := ⟨2, ![64, 64]⟩
abbrev S_ : Shape := ⟨0, ![]⟩
abbrev S512 : Shape := ⟨1, ![512]⟩
abbrev S16 : Shape := ⟨1, ![16]⟩
abbrev S1 : Shape := ⟨1, ![1]⟩
abbrev S1x64 : Shape := ⟨2, ![1, 64]⟩
abbrev S1x16 : Shape := ⟨2, ![1, 16]⟩

abbrev nBuf : Table → Nat
  | .hbm => 5
  | .local .scVector .vmem => 9
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S16384x128, .f32⟩
  | .local .scVector .vmem, ⟨0, _⟩ => ⟨S528, .i32⟩
  | .local .scVector .vmem, ⟨1, _⟩ => ⟨S64x128, .f32⟩
  | .local .scVector .vmem, ⟨2, _⟩ => ⟨S64x128, .f32⟩
  | .local .scVector .vmem, ⟨3, _⟩ => ⟨S64x64, .f32⟩
  | .local .scVector .vmem, ⟨4, _⟩ => ⟨S64x64, .f32⟩
  | .local .scVector .vmem, ⟨5, _⟩ => ⟨S64x64, .f32⟩
  | .local .scVector .vmem, ⟨6, _⟩ => ⟨S64x64, .f32⟩
  | .local .scVector .vmem, ⟨7, _⟩ => ⟨S64x128, .f32⟩
  | .local .scVector .vmem, ⟨8, _⟩ => ⟨S64x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v3 : BitVec 32 := Scalar.muli v1 c512_i32_0
  let v4 : BitVec 32 := Scalar.addi v3 c0_i32
  let c0_i32_1 : BitVec 32 := 0#32
  ![v4.toNat, 0]
@[reducible] def k0_t1_loop : Scf.Loop 32 :=
  let c0_i32_4 : BitVec 32 := 0#32
  let c64_i32 : BitVec 32 := 64#32
  let v7 : BitVec 32 := Scalar.addi c0_i32_4 c64_i32
  let c1_i32 : BitVec 32 := 1#32
  ⟨c0_i32_4, v7, c1_i32⟩
def k0_off3 (k0_t1 : Fin k0_t1_loop.trips) : Fin 1 → Nat :=
  let c0_i32_207 : BitVec 32 := 0#32
  let c0_i32_4 : BitVec 32 := 0#32
  let c1_i32 : BitVec 32 := 1#32
  let arg24 : BitVec 32 := Scf.iv c0_i32_4 c1_i32 k0_t1
  let v123 : BitVec 32 := Scalar.addi c0_i32_207 arg24
  let v124 : Index := Scalar.indexCast v123
  ![v124.toNat]
def k0_off4 (k0_t1 : Fin k0_t1_loop.trips) : Fin 2 → Nat :=
  let c0_i32_4 : BitVec 32 := 0#32
  let c1_i32 : BitVec 32 := 1#32
  let arg24 : BitVec 32 := Scf.iv c0_i32_4 c1_i32 k0_t1
  let c0_i32_208 : BitVec 32 := 0#32
  ![arg24.toNat, 0]
def k0_off5 (v128 : BitVec 32) : Fin 2 → Nat :=
  let c0_i32_209 : BitVec 32 := 0#32
  ![v128.toNat, 0]

def k0_chk1 (v128 : BitVec 32) : Prop :=
  (∀ a, (k0_off5 v128) a + S1x64.size a ≤ S1000000x64.size a)
instance k0_chk1.dec : ∀ (v128 : BitVec 32), Decidable (k0_chk1 v128) := fun v128 => decidable_of_iff' _ (Iff.of_eq (k0_chk1.eq_1 v128))
theorem k0_off5_inb : ∀ (v128 : BitVec 32) (k0_hw1 : k0_chk1 v128), ∀ a, (k0_off5 v128) a + S1x64.size a ≤ S1000000x64.size a := fun v128 k0_hw1 => k0_hw1

def k0_off6 (k0_t1 : Fin k0_t1_loop.trips) : Fin 2 → Nat :=
  let c0_i32_4 : BitVec 32 := 0#32
  let c1_i32 : BitVec 32 := 1#32
  let arg24 : BitVec 32 := Scf.iv c0_i32_4 c1_i32 k0_t1
  let c0_i32_210 : BitVec 32 := 0#32
  ![arg24.toNat, 0]
@[reducible] def k0_t2_loop : Scf.Loop 32 :=
  let c0_i32_11 : BitVec 32 := 0#32
  let c64_i32_12 : BitVec 32 := 64#32
  let v12 : BitVec 32 := Scalar.addi c0_i32_11 c64_i32_12
  let c1_i32_13 : BitVec 32 := 1#32
  ⟨c0_i32_11, v12, c1_i32_13⟩
def k0_off7 (k0_t2 : Fin k0_t2_loop.trips) : Fin 1 → Nat :=
  let c64_i32_207 : BitVec 32 := 64#32
  let c0_i32_11 : BitVec 32 := 0#32
  let c1_i32_13 : BitVec 32 := 1#32
  let arg24 : BitVec 32 := Scf.iv c0_i32_11 c1_i32_13 k0_t2
  let v123 : BitVec 32 := Scalar.addi c64_i32_207 arg24
  let v124 : Index := Scalar.indexCast v123
  ![v124.toNat]
def k0_off8 (k0_t2 : Fin k0_t2_loop.trips) : Fin 2 → Nat :=
  let c0_i32_11 : BitVec 32 := 0#32
  let c1_i32_13 : BitVec 32 := 1#32
  let arg24 : BitVec 32 := Scf.iv c0_i32_11 c1_i32_13 k0_t2
  let c0_i32_208 : BitVec 32 := 0#32
  ![arg24.toNat, 0]
def k0_off9 (v128 : BitVec 32) : Fin 2 → Nat :=
  let c0_i32_209 : BitVec 32 := 0#32
  ![v128.toNat, 0]

def k0_chk2 (v128 : BitVec 32) : Prop :=
  (∀ a, (k0_off9 v128) a + S1x64.size a ≤ S1000000x64.size a)
instance k0_chk2.dec : ∀ (v128 : BitVec 32), Decidable (k0_chk2 v128) := fun v128 => decidable_of_iff' _ (Iff.of_eq (k0_chk2.eq_1 v128))
theorem k0_off9_inb : ∀ (v128 : BitVec 32) (k0_hw2 : k0_chk2 v128), ∀ a, (k0_off9 v128) a + S1x64.size a ≤ S1000000x64.size a := fun v128 k0_hw2 => k0_hw2

def k0_off10 (k0_t2 : Fin k0_t2_loop.trips) : Fin 2 → Nat :=
  let c0_i32_11 : BitVec 32 := 0#32
  let c1_i32_13 : BitVec 32 := 1#32
  let arg24 : BitVec 32 := Scf.iv c0_i32_11 c1_i32_13 k0_t2
  let c0_i32_210 : BitVec 32 := 0#32
  ![arg24.toNat, 0]
@[reducible] def k0_t3_loop : Scf.Loop 32 :=
  let c0_i32_18 : BitVec 32 := 0#32
  let c64_i32_19 : BitVec 32 := 64#32
  let v15 : BitVec 32 := Scalar.addi c0_i32_18 c64_i32_19
  let c1_i32_20 : BitVec 32 := 1#32
  ⟨c0_i32_18, v15, c1_i32_20⟩
def k0_off11 (k0_t3 : Fin k0_t3_loop.trips) : Fin 2 → Nat :=
  let c0_i32_18 : BitVec 32 := 0#32
  let c1_i32_20 : BitVec 32 := 1#32
  let arg24 : BitVec 32 := Scf.iv c0_i32_18 c1_i32_20 k0_t3
  let c0_i32_207 : BitVec 32 := 0#32
  ![arg24.toNat, 0]
@[reducible] def k0_t4_loop : Scf.Loop 32 :=
  let c0_i32_23 : BitVec 32 := 0#32
  let c64_i32_24 : BitVec 32 := 64#32
  let v16 : BitVec 32 := Scalar.addi c0_i32_23 c64_i32_24
  let c1_i32_25 : BitVec 32 := 1#32
  ⟨c0_i32_23, v16, c1_i32_25⟩
def k0_off12 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v123 : Index := Scalar.indexCast arg24
  let c0 : Index := 0#32
  ![v123.toNat, 0]
def k0_off13 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v126 : Index := Scalar.indexCast arg24
  let c64 : Index := 64#32
  ![v126.toNat, 64]
def k0_off14 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v129 : Index := Scalar.indexCast arg24
  let c0_207 : Index := 0#32
  ![v129.toNat, 0]
def k0_off15 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v149 : Index := Scalar.indexCast arg24
  let c16 : Index := 16#32
  ![v149.toNat, 16]
def k0_off16 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v152 : Index := Scalar.indexCast arg24
  let c80 : Index := 80#32
  ![v152.toNat, 80]
def k0_off17 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v155 : Index := Scalar.indexCast arg24
  let c16_211 : Index := 16#32
  ![v155.toNat, 16]
def k0_off18 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v175 : Index := Scalar.indexCast arg24
  let c32 : Index := 32#32
  ![v175.toNat, 32]
def k0_off19 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v178 : Index := Scalar.indexCast arg24
  let c96 : Index := 96#32
  ![v178.toNat, 96]
def k0_off20 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v181 : Index := Scalar.indexCast arg24
  let c32_215 : Index := 32#32
  ![v181.toNat, 32]
def k0_off21 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v201 : Index := Scalar.indexCast arg24
  let c48 : Index := 48#32
  ![v201.toNat, 48]
def k0_off22 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v204 : Index := Scalar.indexCast arg24
  let c112 : Index := 112#32
  ![v204.toNat, 112]
def k0_off23 (k0_t4 : Fin k0_t4_loop.trips) : Fin 2 → Nat :=
  let c0_i32_23 : BitVec 32 := 0#32
  let c1_i32_25 : BitVec 32 := 1#32
  let arg24 : BitVec 32 := Scf.iv c0_i32_23 c1_i32_25 k0_t4
  let v207 : Index := Scalar.indexCast arg24
  let c48_219 : Index := 48#32
  ![v207.toNat, 48]
@[reducible] def k0_t5_loop : Scf.Loop 32 :=
  let c0_i32_35 : BitVec 32 := 0#32
  let c64_i32_36 : BitVec 32 := 64#32
  let v25 : BitVec 32 := Scalar.addi c0_i32_35 c64_i32_36
  let c1_i32_37 : BitVec 32 := 1#32
  ⟨c0_i32_35, v25, c1_i32_37⟩
def k0_off24 (k0_t5 : Fin k0_t5_loop.trips) : Fin 1 → Nat :=
  let c128_i32_207 : BitVec 32 := 128#32
  let c0_i32_35 : BitVec 32 := 0#32
  let c1_i32_37 : BitVec 32 := 1#32
  let arg24 : BitVec 32 := Scf.iv c0_i32_35 c1_i32_37 k0_t5
  let v123 : BitVec 32 := Scalar.addi c128_i32_207 arg24
  let v124 : Index := Scalar.indexCast v123
  ![v124.toNat]
def k0_off25 (k0_t5 : Fin k0_t5_loop.trips) : Fin 2 → Nat :=
  let c0_i32_35 : BitVec 32 := 0#32
  let c1_i32_37 : BitVec 32 := 1#32
  let arg24 : BitVec 32 := Scf.iv c0_i32_35 c1_i32_37 k0_t5
  let c0_i32_208 : BitVec 32 := 0#32
  ![arg24.toNat, 0]
def k0_off26 (v128 : BitVec 32) : Fin 2 → Nat :=
  let c0_i32_209 : BitVec 32 := 0#32
  ![v128.toNat, 0]

def k0_chk3 (v128 : BitVec 32) : Prop :=
  (∀ a, (k0_off26 v128) a + S1x64.size a ≤ S1000000x64.size a)
instance k0_chk3.dec : ∀ (v128 : BitVec 32), Decidable (k0_chk3 v128) := fun v128 => decidable_of_iff' _ (Iff.of_eq (k0_chk3.eq_1 v128))
theorem k0_off26_inb : ∀ (v128 : BitVec 32) (k0_hw3 : k0_chk3 v128), ∀ a, (k0_off26 v128) a + S1x64.size a ≤ S1000000x64.size a := fun v128 k0_hw3 => k0_hw3

def k0_off27 (k0_t5 : Fin k0_t5_loop.trips) : Fin 2 → Nat :=
  let c0_i32_35 : BitVec 32 := 0#32
  let c1_i32_37 : BitVec 32 := 1#32
  let arg24 : BitVec 32 := Scf.iv c0_i32_35 c1_i32_37 k0_t5
  let c0_i32_210 : BitVec 32 := 0#32
  ![arg24.toNat, 0]
@[reducible] def k0_t6_loop : Scf.Loop 32 :=
  let c0_i32_42 : BitVec 32 := 0#32
  let c64_i32_43 : BitVec 32 := 64#32
  let v28 : BitVec 32 := Scalar.addi c0_i32_42 c64_i32_43
  let c1_i32_44 : BitVec 32 := 1#32
  ⟨c0_i32_42, v28, c1_i32_44⟩
def k0_off28 (k0_t6 : Fin k0_t6_loop.trips) : Fin 2 → Nat :=
  let c0_i32_42 : BitVec 32 := 0#32
  let c1_i32_44 : BitVec 32 := 1#32
  let arg24 : BitVec 32 := Scf.iv c0_i32_42 c1_i32_44 k0_t6
  let c0_i32_207 : BitVec 32 := 0#32
  ![arg24.toNat, 0]
@[reducible] def k0_t7_loop : Scf.Loop 32 :=
  let c0_i32_47 : BitVec 32 := 0#32
  let c64_i32_48 : BitVec 32 := 64#32
  let v29 : BitVec 32 := Scalar.addi c0_i32_47 c64_i32_48
  let c1_i32_49 : BitVec 32 := 1#32
  ⟨c0_i32_47, v29, c1_i32_49⟩
def k0_off29 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v123 : Index := Scalar.indexCast arg24
  let c0 : Index := 0#32
  ![v123.toNat, 0]
def k0_off30 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v126 : Index := Scalar.indexCast arg24
  let c64 : Index := 64#32
  ![v126.toNat, 64]
def k0_off31 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v129 : Index := Scalar.indexCast arg24
  let c0_207 : Index := 0#32
  ![v129.toNat, 0]
def k0_off32 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v149 : Index := Scalar.indexCast arg24
  let c16 : Index := 16#32
  ![v149.toNat, 16]
def k0_off33 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v152 : Index := Scalar.indexCast arg24
  let c80 : Index := 80#32
  ![v152.toNat, 80]
def k0_off34 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v155 : Index := Scalar.indexCast arg24
  let c16_211 : Index := 16#32
  ![v155.toNat, 16]
def k0_off35 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v175 : Index := Scalar.indexCast arg24
  let c32 : Index := 32#32
  ![v175.toNat, 32]
def k0_off36 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v178 : Index := Scalar.indexCast arg24
  let c96 : Index := 96#32
  ![v178.toNat, 96]
def k0_off37 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v181 : Index := Scalar.indexCast arg24
  let c32_215 : Index := 32#32
  ![v181.toNat, 32]
def k0_off38 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v201 : Index := Scalar.indexCast arg24
  let c48 : Index := 48#32
  ![v201.toNat, 48]
def k0_off39 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v204 : Index := Scalar.indexCast arg24
  let c112 : Index := 112#32
  ![v204.toNat, 112]
def k0_off40 (k0_t7 : Fin k0_t7_loop.trips) : Fin 2 → Nat :=
  let c0_i32_47 : BitVec 32 := 0#32
  let c1_i32_49 : BitVec 32 := 1#32
  let arg24 : BitVec 32 := Scf.iv c0_i32_47 c1_i32_49 k0_t7
  let v207 : Index := Scalar.indexCast arg24
  let c48_219 : Index := 48#32
  ![v207.toNat, 48]
@[reducible] def k0_t8_loop : Scf.Loop 32 :=
  let c0_i32_59 : BitVec 32 := 0#32
  let c64_i32_60 : BitVec 32 := 64#32
  let v38 : BitVec 32 := Scalar.addi c0_i32_59 c64_i32_60
  let c1_i32_61 : BitVec 32 := 1#32
  ⟨c0_i32_59, v38, c1_i32_61⟩
def k0_off41 (k0_t8 : Fin k0_t8_loop.trips) : Fin 1 → Nat :=
  let c192_i32_207 : BitVec 32 := 192#32
  let c0_i32_59 : BitVec 32 := 0#32
  let c1_i32_61 : BitVec 32 := 1#32
  let arg24 : BitVec 32 := Scf.iv c0_i32_59 c1_i32_61 k0_t8
  let v123 : BitVec 32 := Scalar.addi c192_i32_207 arg24
  let v124 : Index := Scalar.indexCast v123
  ![v124.toNat]
def k0_off42 (k0_t8 : Fin k0_t8_loop.trips) : Fin 2 → Nat :=
  let c0_i32_59 : BitVec 32 := 0#32
  let c1_i32_61 : BitVec 32 := 1#32
  let arg24 : BitVec 32 := Scf.iv c0_i32_59 c1_i32_61 k0_t8
  let c0_i32_208 : BitVec 32 := 0#32
  ![arg24.toNat, 0]
def k0_off43 (v128 : BitVec 32) : Fin 2 → Nat :=
  let c0_i32_209 : BitVec 32 := 0#32
  ![v128.toNat, 0]

def k0_chk4 (v128 : BitVec 32) : Prop :=
  (∀ a, (k0_off43 v128) a + S1x64.size a ≤ S1000000x64.size a)
instance k0_chk4.dec : ∀ (v128 : BitVec 32), Decidable (k0_chk4 v128) := fun v128 => decidable_of_iff' _ (Iff.of_eq (k0_chk4.eq_1 v128))
theorem k0_off43_inb : ∀ (v128 : BitVec 32) (k0_hw4 : k0_chk4 v128), ∀ a, (k0_off43 v128) a + S1x64.size a ≤ S1000000x64.size a := fun v128 k0_hw4 => k0_hw4

def k0_off44 (k0_t8 : Fin k0_t8_loop.trips) : Fin 2 → Nat :=
  let c0_i32_59 : BitVec 32 := 0#32
  let c1_i32_61 : BitVec 32 := 1#32
  let arg24 : BitVec 32 := Scf.iv c0_i32_59 c1_i32_61 k0_t8
  let c0_i32_210 : BitVec 32 := 0#32
  ![arg24.toNat, 0]
@[reducible] def k0_t9_loop : Scf.Loop 32 :=
  let c0_i32_66 : BitVec 32 := 0#32
  let c64_i32_67 : BitVec 32 := 64#32
  let v41 : BitVec 32 := Scalar.addi c0_i32_66 c64_i32_67
  let c1_i32_68 : BitVec 32 := 1#32
  ⟨c0_i32_66, v41, c1_i32_68⟩
def k0_off45 (k0_t9 : Fin k0_t9_loop.trips) : Fin 2 → Nat :=
  let c0_i32_66 : BitVec 32 := 0#32
  let c1_i32_68 : BitVec 32 := 1#32
  let arg24 : BitVec 32 := Scf.iv c0_i32_66 c1_i32_68 k0_t9
  let c0_i32_207 : BitVec 32 := 0#32
  ![arg24.toNat, 0]
@[reducible] def k0_t10_loop : Scf.Loop 32 :=
  let c0_i32_73 : BitVec 32 := 0#32
  let c64_i32_74 : BitVec 32 := 64#32
  let v44 : BitVec 32 := Scalar.addi c0_i32_73 c64_i32_74
  let c1_i32_75 : BitVec 32 := 1#32
  ⟨c0_i32_73, v44, c1_i32_75⟩
def k0_off46 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v123 : Index := Scalar.indexCast arg24
  let c0 : Index := 0#32
  ![v123.toNat, 0]
def k0_off47 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v126 : Index := Scalar.indexCast arg24
  let c64 : Index := 64#32
  ![v126.toNat, 64]
def k0_off48 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v129 : Index := Scalar.indexCast arg24
  let c0_207 : Index := 0#32
  ![v129.toNat, 0]
def k0_off49 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v149 : Index := Scalar.indexCast arg24
  let c16 : Index := 16#32
  ![v149.toNat, 16]
def k0_off50 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v152 : Index := Scalar.indexCast arg24
  let c80 : Index := 80#32
  ![v152.toNat, 80]
def k0_off51 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v155 : Index := Scalar.indexCast arg24
  let c16_211 : Index := 16#32
  ![v155.toNat, 16]
def k0_off52 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v175 : Index := Scalar.indexCast arg24
  let c32 : Index := 32#32
  ![v175.toNat, 32]
def k0_off53 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v178 : Index := Scalar.indexCast arg24
  let c96 : Index := 96#32
  ![v178.toNat, 96]
def k0_off54 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v181 : Index := Scalar.indexCast arg24
  let c32_215 : Index := 32#32
  ![v181.toNat, 32]
def k0_off55 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v201 : Index := Scalar.indexCast arg24
  let c48 : Index := 48#32
  ![v201.toNat, 48]
def k0_off56 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v204 : Index := Scalar.indexCast arg24
  let c112 : Index := 112#32
  ![v204.toNat, 112]
def k0_off57 (k0_t10 : Fin k0_t10_loop.trips) : Fin 2 → Nat :=
  let c0_i32_73 : BitVec 32 := 0#32
  let c1_i32_75 : BitVec 32 := 1#32
  let arg24 : BitVec 32 := Scf.iv c0_i32_73 c1_i32_75 k0_t10
  let v207 : Index := Scalar.indexCast arg24
  let c48_219 : Index := 48#32
  ![v207.toNat, 48]
@[reducible] def k0_t11_loop : Scf.Loop 32 :=
  let c0_i32_85 : BitVec 32 := 0#32
  let c64_i32_86 : BitVec 32 := 64#32
  let v53 : BitVec 32 := Scalar.addi c0_i32_85 c64_i32_86
  let c1_i32_87 : BitVec 32 := 1#32
  ⟨c0_i32_85, v53, c1_i32_87⟩
def k0_off58 (k0_t11 : Fin k0_t11_loop.trips) : Fin 1 → Nat :=
  let c256_i32_207 : BitVec 32 := 256#32
  let c0_i32_85 : BitVec 32 := 0#32
  let c1_i32_87 : BitVec 32 := 1#32
  let arg24 : BitVec 32 := Scf.iv c0_i32_85 c1_i32_87 k0_t11
  let v123 : BitVec 32 := Scalar.addi c256_i32_207 arg24
  let v124 : Index := Scalar.indexCast v123
  ![v124.toNat]
def k0_off59 (k0_t11 : Fin k0_t11_loop.trips) : Fin 2 → Nat :=
  let c0_i32_85 : BitVec 32 := 0#32
  let c1_i32_87 : BitVec 32 := 1#32
  let arg24 : BitVec 32 := Scf.iv c0_i32_85 c1_i32_87 k0_t11
  let c0_i32_208 : BitVec 32 := 0#32
  ![arg24.toNat, 0]
def k0_off60 (v128 : BitVec 32) : Fin 2 → Nat :=
  let c0_i32_209 : BitVec 32 := 0#32
  ![v128.toNat, 0]

def k0_chk5 (v128 : BitVec 32) : Prop :=
  (∀ a, (k0_off60 v128) a + S1x64.size a ≤ S1000000x64.size a)
instance k0_chk5.dec : ∀ (v128 : BitVec 32), Decidable (k0_chk5 v128) := fun v128 => decidable_of_iff' _ (Iff.of_eq (k0_chk5.eq_1 v128))
theorem k0_off60_inb : ∀ (v128 : BitVec 32) (k0_hw5 : k0_chk5 v128), ∀ a, (k0_off60 v128) a + S1x64.size a ≤ S1000000x64.size a := fun v128 k0_hw5 => k0_hw5

def k0_off61 (k0_t11 : Fin k0_t11_loop.trips) : Fin 2 → Nat :=
  let c0_i32_85 : BitVec 32 := 0#32
  let c1_i32_87 : BitVec 32 := 1#32
  let arg24 : BitVec 32 := Scf.iv c0_i32_85 c1_i32_87 k0_t11
  let c0_i32_210 : BitVec 32 := 0#32
  ![arg24.toNat, 0]
@[reducible] def k0_t12_loop : Scf.Loop 32 :=
  let c0_i32_92 : BitVec 32 := 0#32
  let c64_i32_93 : BitVec 32 := 64#32
  let v56 : BitVec 32 := Scalar.addi c0_i32_92 c64_i32_93
  let c1_i32_94 : BitVec 32 := 1#32
  ⟨c0_i32_92, v56, c1_i32_94⟩
def k0_off62 (k0_t12 : Fin k0_t12_loop.trips) : Fin 2 → Nat :=
  let c0_i32_92 : BitVec 32 := 0#32
  let c1_i32_94 : BitVec 32 := 1#32
  let arg24 : BitVec 32 := Scf.iv c0_i32_92 c1_i32_94 k0_t12
  let c0_i32_207 : BitVec 32 := 0#32
  ![arg24.toNat, 0]
@[reducible] def k0_t13_loop : Scf.Loop 32 :=
  let c0_i32_99 : BitVec 32 := 0#32
  let c64_i32_100 : BitVec 32 := 64#32
  let v59 : BitVec 32 := Scalar.addi c0_i32_99 c64_i32_100
  let c1_i32_101 : BitVec 32 := 1#32
  ⟨c0_i32_99, v59, c1_i32_101⟩
def k0_off63 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v123 : Index := Scalar.indexCast arg24
  let c0 : Index := 0#32
  ![v123.toNat, 0]
def k0_off64 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v126 : Index := Scalar.indexCast arg24
  let c64 : Index := 64#32
  ![v126.toNat, 64]
def k0_off65 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v129 : Index := Scalar.indexCast arg24
  let c0_207 : Index := 0#32
  ![v129.toNat, 0]
def k0_off66 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v149 : Index := Scalar.indexCast arg24
  let c16 : Index := 16#32
  ![v149.toNat, 16]
def k0_off67 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v152 : Index := Scalar.indexCast arg24
  let c80 : Index := 80#32
  ![v152.toNat, 80]
def k0_off68 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v155 : Index := Scalar.indexCast arg24
  let c16_211 : Index := 16#32
  ![v155.toNat, 16]
def k0_off69 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v175 : Index := Scalar.indexCast arg24
  let c32 : Index := 32#32
  ![v175.toNat, 32]
def k0_off70 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v178 : Index := Scalar.indexCast arg24
  let c96 : Index := 96#32
  ![v178.toNat, 96]
def k0_off71 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v181 : Index := Scalar.indexCast arg24
  let c32_215 : Index := 32#32
  ![v181.toNat, 32]
def k0_off72 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v201 : Index := Scalar.indexCast arg24
  let c48 : Index := 48#32
  ![v201.toNat, 48]
def k0_off73 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v204 : Index := Scalar.indexCast arg24
  let c112 : Index := 112#32
  ![v204.toNat, 112]
def k0_off74 (k0_t13 : Fin k0_t13_loop.trips) : Fin 2 → Nat :=
  let c0_i32_99 : BitVec 32 := 0#32
  let c1_i32_101 : BitVec 32 := 1#32
  let arg24 : BitVec 32 := Scf.iv c0_i32_99 c1_i32_101 k0_t13
  let v207 : Index := Scalar.indexCast arg24
  let c48_219 : Index := 48#32
  ![v207.toNat, 48]
@[reducible] def k0_t14_loop : Scf.Loop 32 :=
  let c0_i32_111 : BitVec 32 := 0#32
  let c64_i32_112 : BitVec 32 := 64#32
  let v68 : BitVec 32 := Scalar.addi c0_i32_111 c64_i32_112
  let c1_i32_113 : BitVec 32 := 1#32
  ⟨c0_i32_111, v68, c1_i32_113⟩
def k0_off75 (k0_t14 : Fin k0_t14_loop.trips) : Fin 1 → Nat :=
  let c320_i32_207 : BitVec 32 := 320#32
  let c0_i32_111 : BitVec 32 := 0#32
  let c1_i32_113 : BitVec 32 := 1#32
  let arg24 : BitVec 32 := Scf.iv c0_i32_111 c1_i32_113 k0_t14
  let v123 : BitVec 32 := Scalar.addi c320_i32_207 arg24
  let v124 : Index := Scalar.indexCast v123
  ![v124.toNat]
def k0_off76 (k0_t14 : Fin k0_t14_loop.trips) : Fin 2 → Nat :=
  let c0_i32_111 : BitVec 32 := 0#32
  let c1_i32_113 : BitVec 32 := 1#32
  let arg24 : BitVec 32 := Scf.iv c0_i32_111 c1_i32_113 k0_t14
  let c0_i32_208 : BitVec 32 := 0#32
  ![arg24.toNat, 0]
def k0_off77 (v128 : BitVec 32) : Fin 2 → Nat :=
  let c0_i32_209 : BitVec 32 := 0#32
  ![v128.toNat, 0]

def k0_chk6 (v128 : BitVec 32) : Prop :=
  (∀ a, (k0_off77 v128) a + S1x64.size a ≤ S1000000x64.size a)
instance k0_chk6.dec : ∀ (v128 : BitVec 32), Decidable (k0_chk6 v128) := fun v128 => decidable_of_iff' _ (Iff.of_eq (k0_chk6.eq_1 v128))
theorem k0_off77_inb : ∀ (v128 : BitVec 32) (k0_hw6 : k0_chk6 v128), ∀ a, (k0_off77 v128) a + S1x64.size a ≤ S1000000x64.size a := fun v128 k0_hw6 => k0_hw6

def k0_off78 (k0_t14 : Fin k0_t14_loop.trips) : Fin 2 → Nat :=
  let c0_i32_111 : BitVec 32 := 0#32
  let c1_i32_113 : BitVec 32 := 1#32
  let arg24 : BitVec 32 := Scf.iv c0_i32_111 c1_i32_113 k0_t14
  let c0_i32_210 : BitVec 32 := 0#32
  ![arg24.toNat, 0]
@[reducible] def k0_t15_loop : Scf.Loop 32 :=
  let c0_i32_118 : BitVec 32 := 0#32
  let c64_i32_119 : BitVec 32 := 64#32
  let v71 : BitVec 32 := Scalar.addi c0_i32_118 c64_i32_119
  let c1_i32_120 : BitVec 32 := 1#32
  ⟨c0_i32_118, v71, c1_i32_120⟩
def k0_off79 (k0_t15 : Fin k0_t15_loop.trips) : Fin 2 → Nat :=
  let c0_i32_118 : BitVec 32 := 0#32
  let c1_i32_120 : BitVec 32 := 1#32
  let arg24 : BitVec 32 := Scf.iv c0_i32_118 c1_i32_120 k0_t15
  let c0_i32_207 : BitVec 32 := 0#32
  ![arg24.toNat, 0]
@[reducible] def k0_t16_loop : Scf.Loop 32 :=
  let c0_i32_125 : BitVec 32 := 0#32
  let c64_i32_126 : BitVec 32 := 64#32
  let v74 : BitVec 32 := Scalar.addi c0_i32_125 c64_i32_126
  let c1_i32_127 : BitVec 32 := 1#32
  ⟨c0_i32_125, v74, c1_i32_127⟩
def k0_off80 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v123 : Index := Scalar.indexCast arg24
  let c0 : Index := 0#32
  ![v123.toNat, 0]
def k0_off81 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v126 : Index := Scalar.indexCast arg24
  let c64 : Index := 64#32
  ![v126.toNat, 64]
def k0_off82 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v129 : Index := Scalar.indexCast arg24
  let c0_207 : Index := 0#32
  ![v129.toNat, 0]
def k0_off83 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v149 : Index := Scalar.indexCast arg24
  let c16 : Index := 16#32
  ![v149.toNat, 16]
def k0_off84 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v152 : Index := Scalar.indexCast arg24
  let c80 : Index := 80#32
  ![v152.toNat, 80]
def k0_off85 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v155 : Index := Scalar.indexCast arg24
  let c16_211 : Index := 16#32
  ![v155.toNat, 16]
def k0_off86 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v175 : Index := Scalar.indexCast arg24
  let c32 : Index := 32#32
  ![v175.toNat, 32]
def k0_off87 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v178 : Index := Scalar.indexCast arg24
  let c96 : Index := 96#32
  ![v178.toNat, 96]
def k0_off88 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v181 : Index := Scalar.indexCast arg24
  let c32_215 : Index := 32#32
  ![v181.toNat, 32]
def k0_off89 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v201 : Index := Scalar.indexCast arg24
  let c48 : Index := 48#32
  ![v201.toNat, 48]
def k0_off90 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v204 : Index := Scalar.indexCast arg24
  let c112 : Index := 112#32
  ![v204.toNat, 112]
def k0_off91 (k0_t16 : Fin k0_t16_loop.trips) : Fin 2 → Nat :=
  let c0_i32_125 : BitVec 32 := 0#32
  let c1_i32_127 : BitVec 32 := 1#32
  let arg24 : BitVec 32 := Scf.iv c0_i32_125 c1_i32_127 k0_t16
  let v207 : Index := Scalar.indexCast arg24
  let c48_219 : Index := 48#32
  ![v207.toNat, 48]
@[reducible] def k0_t17_loop : Scf.Loop 32 :=
  let c0_i32_137 : BitVec 32 := 0#32
  let c64_i32_138 : BitVec 32 := 64#32
  let v83 : BitVec 32 := Scalar.addi c0_i32_137 c64_i32_138
  let c1_i32_139 : BitVec 32 := 1#32
  ⟨c0_i32_137, v83, c1_i32_139⟩
def k0_off92 (k0_t17 : Fin k0_t17_loop.trips) : Fin 1 → Nat :=
  let c384_i32_207 : BitVec 32 := 384#32
  let c0_i32_137 : BitVec 32 := 0#32
  let c1_i32_139 : BitVec 32 := 1#32
  let arg24 : BitVec 32 := Scf.iv c0_i32_137 c1_i32_139 k0_t17
  let v123 : BitVec 32 := Scalar.addi c384_i32_207 arg24
  let v124 : Index := Scalar.indexCast v123
  ![v124.toNat]
def k0_off93 (k0_t17 : Fin k0_t17_loop.trips) : Fin 2 → Nat :=
  let c0_i32_137 : BitVec 32 := 0#32
  let c1_i32_139 : BitVec 32 := 1#32
  let arg24 : BitVec 32 := Scf.iv c0_i32_137 c1_i32_139 k0_t17
  let c0_i32_208 : BitVec 32 := 0#32
  ![arg24.toNat, 0]
def k0_off94 (v128 : BitVec 32) : Fin 2 → Nat :=
  let c0_i32_209 : BitVec 32 := 0#32
  ![v128.toNat, 0]

def k0_chk7 (v128 : BitVec 32) : Prop :=
  (∀ a, (k0_off94 v128) a + S1x64.size a ≤ S1000000x64.size a)
instance k0_chk7.dec : ∀ (v128 : BitVec 32), Decidable (k0_chk7 v128) := fun v128 => decidable_of_iff' _ (Iff.of_eq (k0_chk7.eq_1 v128))
theorem k0_off94_inb : ∀ (v128 : BitVec 32) (k0_hw7 : k0_chk7 v128), ∀ a, (k0_off94 v128) a + S1x64.size a ≤ S1000000x64.size a := fun v128 k0_hw7 => k0_hw7

def k0_off95 (k0_t17 : Fin k0_t17_loop.trips) : Fin 2 → Nat :=
  let c0_i32_137 : BitVec 32 := 0#32
  let c1_i32_139 : BitVec 32 := 1#32
  let arg24 : BitVec 32 := Scf.iv c0_i32_137 c1_i32_139 k0_t17
  let c0_i32_210 : BitVec 32 := 0#32
  ![arg24.toNat, 0]
@[reducible] def k0_t18_loop : Scf.Loop 32 :=
  let c0_i32_144 : BitVec 32 := 0#32
  let c64_i32_145 : BitVec 32 := 64#32
  let v86 : BitVec 32 := Scalar.addi c0_i32_144 c64_i32_145
  let c1_i32_146 : BitVec 32 := 1#32
  ⟨c0_i32_144, v86, c1_i32_146⟩
def k0_off96 (k0_t18 : Fin k0_t18_loop.trips) : Fin 2 → Nat :=
  let c0_i32_144 : BitVec 32 := 0#32
  let c1_i32_146 : BitVec 32 := 1#32
  let arg24 : BitVec 32 := Scf.iv c0_i32_144 c1_i32_146 k0_t18
  let c0_i32_207 : BitVec 32 := 0#32
  ![arg24.toNat, 0]
@[reducible] def k0_t19_loop : Scf.Loop 32 :=
  let c0_i32_151 : BitVec 32 := 0#32
  let c64_i32_152 : BitVec 32 := 64#32
  let v89 : BitVec 32 := Scalar.addi c0_i32_151 c64_i32_152
  let c1_i32_153 : BitVec 32 := 1#32
  ⟨c0_i32_151, v89, c1_i32_153⟩
def k0_off97 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v123 : Index := Scalar.indexCast arg24
  let c0 : Index := 0#32
  ![v123.toNat, 0]
def k0_off98 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v126 : Index := Scalar.indexCast arg24
  let c64 : Index := 64#32
  ![v126.toNat, 64]
def k0_off99 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v129 : Index := Scalar.indexCast arg24
  let c0_207 : Index := 0#32
  ![v129.toNat, 0]
def k0_off100 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v149 : Index := Scalar.indexCast arg24
  let c16 : Index := 16#32
  ![v149.toNat, 16]
def k0_off101 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v152 : Index := Scalar.indexCast arg24
  let c80 : Index := 80#32
  ![v152.toNat, 80]
def k0_off102 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v155 : Index := Scalar.indexCast arg24
  let c16_211 : Index := 16#32
  ![v155.toNat, 16]
def k0_off103 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v175 : Index := Scalar.indexCast arg24
  let c32 : Index := 32#32
  ![v175.toNat, 32]
def k0_off104 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v178 : Index := Scalar.indexCast arg24
  let c96 : Index := 96#32
  ![v178.toNat, 96]
def k0_off105 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v181 : Index := Scalar.indexCast arg24
  let c32_215 : Index := 32#32
  ![v181.toNat, 32]
def k0_off106 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v201 : Index := Scalar.indexCast arg24
  let c48 : Index := 48#32
  ![v201.toNat, 48]
def k0_off107 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v204 : Index := Scalar.indexCast arg24
  let c112 : Index := 112#32
  ![v204.toNat, 112]
def k0_off108 (k0_t19 : Fin k0_t19_loop.trips) : Fin 2 → Nat :=
  let c0_i32_151 : BitVec 32 := 0#32
  let c1_i32_153 : BitVec 32 := 1#32
  let arg24 : BitVec 32 := Scf.iv c0_i32_151 c1_i32_153 k0_t19
  let v207 : Index := Scalar.indexCast arg24
  let c48_219 : Index := 48#32
  ![v207.toNat, 48]
@[reducible] def k0_t20_loop : Scf.Loop 32 :=
  let c0_i32_163 : BitVec 32 := 0#32
  let c64_i32_164 : BitVec 32 := 64#32
  let v98 : BitVec 32 := Scalar.addi c0_i32_163 c64_i32_164
  let c1_i32_165 : BitVec 32 := 1#32
  ⟨c0_i32_163, v98, c1_i32_165⟩
def k0_off109 (k0_t20 : Fin k0_t20_loop.trips) : Fin 1 → Nat :=
  let c448_i32_207 : BitVec 32 := 448#32
  let c0_i32_163 : BitVec 32 := 0#32
  let c1_i32_165 : BitVec 32 := 1#32
  let arg24 : BitVec 32 := Scf.iv c0_i32_163 c1_i32_165 k0_t20
  let v123 : BitVec 32 := Scalar.addi c448_i32_207 arg24
  let v124 : Index := Scalar.indexCast v123
  ![v124.toNat]
def k0_off110 (k0_t20 : Fin k0_t20_loop.trips) : Fin 2 → Nat :=
  let c0_i32_163 : BitVec 32 := 0#32
  let c1_i32_165 : BitVec 32 := 1#32
  let arg24 : BitVec 32 := Scf.iv c0_i32_163 c1_i32_165 k0_t20
  let c0_i32_208 : BitVec 32 := 0#32
  ![arg24.toNat, 0]
def k0_off111 (v128 : BitVec 32) : Fin 2 → Nat :=
  let c0_i32_209 : BitVec 32 := 0#32
  ![v128.toNat, 0]

def k0_chk8 (v128 : BitVec 32) : Prop :=
  (∀ a, (k0_off111 v128) a + S1x64.size a ≤ S1000000x64.size a)
instance k0_chk8.dec : ∀ (v128 : BitVec 32), Decidable (k0_chk8 v128) := fun v128 => decidable_of_iff' _ (Iff.of_eq (k0_chk8.eq_1 v128))
theorem k0_off111_inb : ∀ (v128 : BitVec 32) (k0_hw8 : k0_chk8 v128), ∀ a, (k0_off111 v128) a + S1x64.size a ≤ S1000000x64.size a := fun v128 k0_hw8 => k0_hw8

def k0_off112 (k0_t20 : Fin k0_t20_loop.trips) : Fin 2 → Nat :=
  let c0_i32_163 : BitVec 32 := 0#32
  let c1_i32_165 : BitVec 32 := 1#32
  let arg24 : BitVec 32 := Scf.iv c0_i32_163 c1_i32_165 k0_t20
  let c0_i32_210 : BitVec 32 := 0#32
  ![arg24.toNat, 0]
@[reducible] def k0_t21_loop : Scf.Loop 32 :=
  let c0_i32_170 : BitVec 32 := 0#32
  let c64_i32_171 : BitVec 32 := 64#32
  let v101 : BitVec 32 := Scalar.addi c0_i32_170 c64_i32_171
  let c1_i32_172 : BitVec 32 := 1#32
  ⟨c0_i32_170, v101, c1_i32_172⟩
def k0_off113 (k0_t21 : Fin k0_t21_loop.trips) : Fin 2 → Nat :=
  let c0_i32_170 : BitVec 32 := 0#32
  let c1_i32_172 : BitVec 32 := 1#32
  let arg24 : BitVec 32 := Scf.iv c0_i32_170 c1_i32_172 k0_t21
  let c0_i32_207 : BitVec 32 := 0#32
  ![arg24.toNat, 0]
@[reducible] def k0_t22_loop : Scf.Loop 32 :=
  let c0_i32_177 : BitVec 32 := 0#32
  let c64_i32_178 : BitVec 32 := 64#32
  let v104 : BitVec 32 := Scalar.addi c0_i32_177 c64_i32_178
  let c1_i32_179 : BitVec 32 := 1#32
  ⟨c0_i32_177, v104, c1_i32_179⟩
def k0_off114 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v123 : Index := Scalar.indexCast arg24
  let c0 : Index := 0#32
  ![v123.toNat, 0]
def k0_off115 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v126 : Index := Scalar.indexCast arg24
  let c64 : Index := 64#32
  ![v126.toNat, 64]
def k0_off116 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v129 : Index := Scalar.indexCast arg24
  let c0_207 : Index := 0#32
  ![v129.toNat, 0]
def k0_off117 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v149 : Index := Scalar.indexCast arg24
  let c16 : Index := 16#32
  ![v149.toNat, 16]
def k0_off118 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v152 : Index := Scalar.indexCast arg24
  let c80 : Index := 80#32
  ![v152.toNat, 80]
def k0_off119 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v155 : Index := Scalar.indexCast arg24
  let c16_211 : Index := 16#32
  ![v155.toNat, 16]
def k0_off120 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v175 : Index := Scalar.indexCast arg24
  let c32 : Index := 32#32
  ![v175.toNat, 32]
def k0_off121 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v178 : Index := Scalar.indexCast arg24
  let c96 : Index := 96#32
  ![v178.toNat, 96]
def k0_off122 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v181 : Index := Scalar.indexCast arg24
  let c32_215 : Index := 32#32
  ![v181.toNat, 32]
def k0_off123 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v201 : Index := Scalar.indexCast arg24
  let c48 : Index := 48#32
  ![v201.toNat, 48]
def k0_off124 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v204 : Index := Scalar.indexCast arg24
  let c112 : Index := 112#32
  ![v204.toNat, 112]
def k0_off125 (k0_t22 : Fin k0_t22_loop.trips) : Fin 2 → Nat :=
  let c0_i32_177 : BitVec 32 := 0#32
  let c1_i32_179 : BitVec 32 := 1#32
  let arg24 : BitVec 32 := Scf.iv c0_i32_177 c1_i32_179 k0_t22
  let v207 : Index := Scalar.indexCast arg24
  let c48_219 : Index := 48#32
  ![v207.toNat, 48]
@[reducible] def k0_t23_loop : Scf.Loop 32 :=
  let c0_i32_188 : BitVec 32 := 0#32
  let c64_i32_189 : BitVec 32 := 64#32
  let v111 : BitVec 32 := Scalar.addi c0_i32_188 c64_i32_189
  let c1_i32_190 : BitVec 32 := 1#32
  ⟨c0_i32_188, v111, c1_i32_190⟩
def k0_off126 (k0_t23 : Fin k0_t23_loop.trips) : Fin 2 → Nat :=
  let c0_i32_188 : BitVec 32 := 0#32
  let c1_i32_190 : BitVec 32 := 1#32
  let arg24 : BitVec 32 := Scf.iv c0_i32_188 c1_i32_190 k0_t23
  let c0_i32_207 : BitVec 32 := 0#32
  ![arg24.toNat, 0]
@[reducible] def k0_t24_loop : Scf.Loop 32 :=
  let c0_i32_195 : BitVec 32 := 0#32
  let c64_i32_196 : BitVec 32 := 64#32
  let v114 : BitVec 32 := Scalar.addi c0_i32_195 c64_i32_196
  let c1_i32_197 : BitVec 32 := 1#32
  ⟨c0_i32_195, v114, c1_i32_197⟩
def k0_off127 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v123 : Index := Scalar.indexCast arg24
  let c0 : Index := 0#32
  ![v123.toNat, 0]
def k0_off128 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v126 : Index := Scalar.indexCast arg24
  let c64 : Index := 64#32
  ![v126.toNat, 64]
def k0_off129 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v129 : Index := Scalar.indexCast arg24
  let c0_207 : Index := 0#32
  ![v129.toNat, 0]
def k0_off130 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v149 : Index := Scalar.indexCast arg24
  let c16 : Index := 16#32
  ![v149.toNat, 16]
def k0_off131 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v152 : Index := Scalar.indexCast arg24
  let c80 : Index := 80#32
  ![v152.toNat, 80]
def k0_off132 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v155 : Index := Scalar.indexCast arg24
  let c16_211 : Index := 16#32
  ![v155.toNat, 16]
def k0_off133 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v175 : Index := Scalar.indexCast arg24
  let c32 : Index := 32#32
  ![v175.toNat, 32]
def k0_off134 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v178 : Index := Scalar.indexCast arg24
  let c96 : Index := 96#32
  ![v178.toNat, 96]
def k0_off135 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v181 : Index := Scalar.indexCast arg24
  let c32_215 : Index := 32#32
  ![v181.toNat, 32]
def k0_off136 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v201 : Index := Scalar.indexCast arg24
  let c48 : Index := 48#32
  ![v201.toNat, 48]
def k0_off137 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v204 : Index := Scalar.indexCast arg24
  let c112 : Index := 112#32
  ![v204.toNat, 112]
def k0_off138 (k0_t24 : Fin k0_t24_loop.trips) : Fin 2 → Nat :=
  let c0_i32_195 : BitVec 32 := 0#32
  let c1_i32_197 : BitVec 32 := 1#32
  let arg24 : BitVec 32 := Scf.iv c0_i32_195 c1_i32_197 k0_t24
  let v207 : Index := Scalar.indexCast arg24
  let c48_219 : Index := 48#32
  ![v207.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S528_S512_0 : ∀ a, (![0] : Fin 1 → Nat) a + S512.size a ≤ S528.size a
  h_S16 : 0 < S16.numel
  shapeCasts_S16_S16 : S16.ShapeCasts S16
  slices_S16_o0_S1 : S16.Slices ![0] S1
  inpos_S1_p0 : ∀ a, (![0] : Fin 1 → Nat) a < S1.size a
  inb_S1000000x64_S1x64_0_0 : ∀ a, (![0, 0] : Fin 2 → Nat) a + S1x64.size a ≤ S1000000x64.size a
  h_S1x16 : 0 < S1x16.numel
  shapeCasts_S1x16_S16 : S1x16.ShapeCasts S16
  shapeCasts_S16_S1x16 : S16.ShapeCasts S1x16
  hcc0_scratch9 : 0 + S_.numel ≤ 9
  hcc0_scratch10 : 1 + S_.numel ≤ 9
  hcc0_scratch11 : 2 + S_.numel ≤ 9
  hcc0_scratch12 : 3 + S_.numel ≤ 9
  hcc0_scratch13 : 4 + S_.numel ≤ 9
  hcc0_scratch14 : 5 + S_.numel ≤ 9
  hcc0_scratch15 : 6 + S_.numel ≤ 9
  hcc0_scratch16 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 8), ∀ a, (k0_off2 i (BitVec.ofNat 32 (64 * r.val))) a + S64x128.size a ≤ S16384x128.size a
  k0_t1_ok : k0_t1_loop.OK
  k0_off3_inb : ∀ k0_t1 : Fin k0_t1_loop.trips, ∀ a, (k0_off3 k0_t1) a + S16.size a ≤ S528.size a
  k0_off4_inb : ∀ k0_t1 : Fin k0_t1_loop.trips, ∀ a, (k0_off4 k0_t1) a + S1x64.size a ≤ S64x64.size a
  k0_off6_inb : ∀ k0_t1 : Fin k0_t1_loop.trips, ∀ a, (k0_off6 k0_t1) a + S1x64.size a ≤ S64x64.size a
  k0_t2_ok : k0_t2_loop.OK
  k0_off7_inb : ∀ k0_t2 : Fin k0_t2_loop.trips, ∀ a, (k0_off7 k0_t2) a + S16.size a ≤ S528.size a
  k0_off8_inb : ∀ k0_t2 : Fin k0_t2_loop.trips, ∀ a, (k0_off8 k0_t2) a + S1x64.size a ≤ S64x64.size a
  k0_off10_inb : ∀ k0_t2 : Fin k0_t2_loop.trips, ∀ a, (k0_off10 k0_t2) a + S1x64.size a ≤ S64x64.size a
  k0_t3_ok : k0_t3_loop.OK
  k0_off11_inb : ∀ k0_t3 : Fin k0_t3_loop.trips, ∀ a, (k0_off11 k0_t3) a + S1x64.size a ≤ S64x64.size a
  k0_t4_ok : k0_t4_loop.OK
  k0_off12_inb : ∀ k0_t4 : Fin k0_t4_loop.trips, ∀ a, (k0_off12 k0_t4) a + S1x16.size a ≤ S64x128.size a
  k0_off13_inb : ∀ k0_t4 : Fin k0_t4_loop.trips, ∀ a, (k0_off13 k0_t4) a + S1x16.size a ≤ S64x128.size a
  k0_off14_inb : ∀ k0_t4 : Fin k0_t4_loop.trips, ∀ a, (k0_off14 k0_t4) a + S1x16.size a ≤ S64x64.size a
  k0_off15_inb : ∀ k0_t4 : Fin k0_t4_loop.trips, ∀ a, (k0_off15 k0_t4) a + S1x16.size a ≤ S64x128.size a
  k0_off16_inb : ∀ k0_t4 : Fin k0_t4_loop.trips, ∀ a, (k0_off16 k0_t4) a + S1x16.size a ≤ S64x128.size a
  k0_off17_inb : ∀ k0_t4 : Fin k0_t4_loop.trips, ∀ a, (k0_off17 k0_t4) a + S1x16.size a ≤ S64x64.size a
  k0_off18_inb : ∀ k0_t4 : Fin k0_t4_loop.trips, ∀ a, (k0_off18 k0_t4) a + S1x16.size a ≤ S64x128.size a
  k0_off19_inb : ∀ k0_t4 : Fin k0_t4_loop.trips, ∀ a, (k0_off19 k0_t4) a + S1x16.size a ≤ S64x128.size a
  k0_off20_inb : ∀ k0_t4 : Fin k0_t4_loop.trips, ∀ a, (k0_off20 k0_t4) a + S1x16.size a ≤ S64x64.size a
  k0_off21_inb : ∀ k0_t4 : Fin k0_t4_loop.trips, ∀ a, (k0_off21 k0_t4) a + S1x16.size a ≤ S64x128.size a
  k0_off22_inb : ∀ k0_t4 : Fin k0_t4_loop.trips, ∀ a, (k0_off22 k0_t4) a + S1x16.size a ≤ S64x128.size a
  k0_off23_inb : ∀ k0_t4 : Fin k0_t4_loop.trips, ∀ a, (k0_off23 k0_t4) a + S1x16.size a ≤ S64x64.size a
  k0_t5_ok : k0_t5_loop.OK
  k0_off24_inb : ∀ k0_t5 : Fin k0_t5_loop.trips, ∀ a, (k0_off24 k0_t5) a + S16.size a ≤ S528.size a
  k0_off25_inb : ∀ k0_t5 : Fin k0_t5_loop.trips, ∀ a, (k0_off25 k0_t5) a + S1x64.size a ≤ S64x64.size a
  k0_off27_inb : ∀ k0_t5 : Fin k0_t5_loop.trips, ∀ a, (k0_off27 k0_t5) a + S1x64.size a ≤ S64x64.size a
  k0_t6_ok : k0_t6_loop.OK
  k0_off28_inb : ∀ k0_t6 : Fin k0_t6_loop.trips, ∀ a, (k0_off28 k0_t6) a + S1x64.size a ≤ S64x64.size a
  k0_t7_ok : k0_t7_loop.OK
  k0_off29_inb : ∀ k0_t7 : Fin k0_t7_loop.trips, ∀ a, (k0_off29 k0_t7) a + S1x16.size a ≤ S64x128.size a
  k0_off30_inb : ∀ k0_t7 : Fin k0_t7_loop.trips, ∀ a, (k0_off30 k0_t7) a + S1x16.size a ≤ S64x128.size a
  k0_off31_inb : ∀ k0_t7 : Fin k0_t7_loop.trips, ∀ a, (k0_off31 k0_t7) a + S1x16.size a ≤ S64x64.size a
  k0_off32_inb : ∀ k0_t7 : Fin k0_t7_loop.trips, ∀ a, (k0_off32 k0_t7) a + S1x16.size a ≤ S64x128.size a
  k0_off33_inb : ∀ k0_t7 : Fin k0_t7_loop.trips, ∀ a, (k0_off33 k0_t7) a + S1x16.size a ≤ S64x128.size a
  k0_off34_inb : ∀ k0_t7 : Fin k0_t7_loop.trips, ∀ a, (k0_off34 k0_t7) a + S1x16.size a ≤ S64x64.size a
  k0_off35_inb : ∀ k0_t7 : Fin k0_t7_loop.trips, ∀ a, (k0_off35 k0_t7) a + S1x16.size a ≤ S64x128.size a
  k0_off36_inb : ∀ k0_t7 : Fin k0_t7_loop.trips, ∀ a, (k0_off36 k0_t7) a + S1x16.size a ≤ S64x128.size a
  k0_off37_inb : ∀ k0_t7 : Fin k0_t7_loop.trips, ∀ a, (k0_off37 k0_t7) a + S1x16.size a ≤ S64x64.size a
  k0_off38_inb : ∀ k0_t7 : Fin k0_t7_loop.trips, ∀ a, (k0_off38 k0_t7) a + S1x16.size a ≤ S64x128.size a
  k0_off39_inb : ∀ k0_t7 : Fin k0_t7_loop.trips, ∀ a, (k0_off39 k0_t7) a + S1x16.size a ≤ S64x128.size a
  k0_off40_inb : ∀ k0_t7 : Fin k0_t7_loop.trips, ∀ a, (k0_off40 k0_t7) a + S1x16.size a ≤ S64x64.size a
  k0_t8_ok : k0_t8_loop.OK
  k0_off41_inb : ∀ k0_t8 : Fin k0_t8_loop.trips, ∀ a, (k0_off41 k0_t8) a + S16.size a ≤ S528.size a
  k0_off42_inb : ∀ k0_t8 : Fin k0_t8_loop.trips, ∀ a, (k0_off42 k0_t8) a + S1x64.size a ≤ S64x64.size a
  k0_off44_inb : ∀ k0_t8 : Fin k0_t8_loop.trips, ∀ a, (k0_off44 k0_t8) a + S1x64.size a ≤ S64x64.size a
  k0_t9_ok : k0_t9_loop.OK
  k0_off45_inb : ∀ k0_t9 : Fin k0_t9_loop.trips, ∀ a, (k0_off45 k0_t9) a + S1x64.size a ≤ S64x64.size a
  k0_t10_ok : k0_t10_loop.OK
  k0_off46_inb : ∀ k0_t10 : Fin k0_t10_loop.trips, ∀ a, (k0_off46 k0_t10) a + S1x16.size a ≤ S64x128.size a
  k0_off47_inb : ∀ k0_t10 : Fin k0_t10_loop.trips, ∀ a, (k0_off47 k0_t10) a + S1x16.size a ≤ S64x128.size a
  k0_off48_inb : ∀ k0_t10 : Fin k0_t10_loop.trips, ∀ a, (k0_off48 k0_t10) a + S1x16.size a ≤ S64x64.size a
  k0_off49_inb : ∀ k0_t10 : Fin k0_t10_loop.trips, ∀ a, (k0_off49 k0_t10) a + S1x16.size a ≤ S64x128.size a
  k0_off50_inb : ∀ k0_t10 : Fin k0_t10_loop.trips, ∀ a, (k0_off50 k0_t10) a + S1x16.size a ≤ S64x128.size a
  k0_off51_inb : ∀ k0_t10 : Fin k0_t10_loop.trips, ∀ a, (k0_off51 k0_t10) a + S1x16.size a ≤ S64x64.size a
  k0_off52_inb : ∀ k0_t10 : Fin k0_t10_loop.trips, ∀ a, (k0_off52 k0_t10) a + S1x16.size a ≤ S64x128.size a
  k0_off53_inb : ∀ k0_t10 : Fin k0_t10_loop.trips, ∀ a, (k0_off53 k0_t10) a + S1x16.size a ≤ S64x128.size a
  k0_off54_inb : ∀ k0_t10 : Fin k0_t10_loop.trips, ∀ a, (k0_off54 k0_t10) a + S1x16.size a ≤ S64x64.size a
  k0_off55_inb : ∀ k0_t10 : Fin k0_t10_loop.trips, ∀ a, (k0_off55 k0_t10) a + S1x16.size a ≤ S64x128.size a
  k0_off56_inb : ∀ k0_t10 : Fin k0_t10_loop.trips, ∀ a, (k0_off56 k0_t10) a + S1x16.size a ≤ S64x128.size a
  k0_off57_inb : ∀ k0_t10 : Fin k0_t10_loop.trips, ∀ a, (k0_off57 k0_t10) a + S1x16.size a ≤ S64x64.size a
  k0_t11_ok : k0_t11_loop.OK
  k0_off58_inb : ∀ k0_t11 : Fin k0_t11_loop.trips, ∀ a, (k0_off58 k0_t11) a + S16.size a ≤ S528.size a
  k0_off59_inb : ∀ k0_t11 : Fin k0_t11_loop.trips, ∀ a, (k0_off59 k0_t11) a + S1x64.size a ≤ S64x64.size a
  k0_off61_inb : ∀ k0_t11 : Fin k0_t11_loop.trips, ∀ a, (k0_off61 k0_t11) a + S1x64.size a ≤ S64x64.size a
  k0_t12_ok : k0_t12_loop.OK
  k0_off62_inb : ∀ k0_t12 : Fin k0_t12_loop.trips, ∀ a, (k0_off62 k0_t12) a + S1x64.size a ≤ S64x64.size a
  k0_t13_ok : k0_t13_loop.OK
  k0_off63_inb : ∀ k0_t13 : Fin k0_t13_loop.trips, ∀ a, (k0_off63 k0_t13) a + S1x16.size a ≤ S64x128.size a
  k0_off64_inb : ∀ k0_t13 : Fin k0_t13_loop.trips, ∀ a, (k0_off64 k0_t13) a + S1x16.size a ≤ S64x128.size a
  k0_off65_inb : ∀ k0_t13 : Fin k0_t13_loop.trips, ∀ a, (k0_off65 k0_t13) a + S1x16.size a ≤ S64x64.size a
  k0_off66_inb : ∀ k0_t13 : Fin k0_t13_loop.trips, ∀ a, (k0_off66 k0_t13) a + S1x16.size a ≤ S64x128.size a
  k0_off67_inb : ∀ k0_t13 : Fin k0_t13_loop.trips, ∀ a, (k0_off67 k0_t13) a + S1x16.size a ≤ S64x128.size a
  k0_off68_inb : ∀ k0_t13 : Fin k0_t13_loop.trips, ∀ a, (k0_off68 k0_t13) a + S1x16.size a ≤ S64x64.size a
  k0_off69_inb : ∀ k0_t13 : Fin k0_t13_loop.trips, ∀ a, (k0_off69 k0_t13) a + S1x16.size a ≤ S64x128.size a
  k0_off70_inb : ∀ k0_t13 : Fin k0_t13_loop.trips, ∀ a, (k0_off70 k0_t13) a + S1x16.size a ≤ S64x128.size a
  k0_off71_inb : ∀ k0_t13 : Fin k0_t13_loop.trips, ∀ a, (k0_off71 k0_t13) a + S1x16.size a ≤ S64x64.size a
  k0_off72_inb : ∀ k0_t13 : Fin k0_t13_loop.trips, ∀ a, (k0_off72 k0_t13) a + S1x16.size a ≤ S64x128.size a
  k0_off73_inb : ∀ k0_t13 : Fin k0_t13_loop.trips, ∀ a, (k0_off73 k0_t13) a + S1x16.size a ≤ S64x128.size a
  k0_off74_inb : ∀ k0_t13 : Fin k0_t13_loop.trips, ∀ a, (k0_off74 k0_t13) a + S1x16.size a ≤ S64x64.size a
  k0_t14_ok : k0_t14_loop.OK
  k0_off75_inb : ∀ k0_t14 : Fin k0_t14_loop.trips, ∀ a, (k0_off75 k0_t14) a + S16.size a ≤ S528.size a
  k0_off76_inb : ∀ k0_t14 : Fin k0_t14_loop.trips, ∀ a, (k0_off76 k0_t14) a + S1x64.size a ≤ S64x64.size a
  k0_off78_inb : ∀ k0_t14 : Fin k0_t14_loop.trips, ∀ a, (k0_off78 k0_t14) a + S1x64.size a ≤ S64x64.size a
  k0_t15_ok : k0_t15_loop.OK
  k0_off79_inb : ∀ k0_t15 : Fin k0_t15_loop.trips, ∀ a, (k0_off79 k0_t15) a + S1x64.size a ≤ S64x64.size a
  k0_t16_ok : k0_t16_loop.OK
  k0_off80_inb : ∀ k0_t16 : Fin k0_t16_loop.trips, ∀ a, (k0_off80 k0_t16) a + S1x16.size a ≤ S64x128.size a
  k0_off81_inb : ∀ k0_t16 : Fin k0_t16_loop.trips, ∀ a, (k0_off81 k0_t16) a + S1x16.size a ≤ S64x128.size a
  k0_off82_inb : ∀ k0_t16 : Fin k0_t16_loop.trips, ∀ a, (k0_off82 k0_t16) a + S1x16.size a ≤ S64x64.size a
  k0_off83_inb : ∀ k0_t16 : Fin k0_t16_loop.trips, ∀ a, (k0_off83 k0_t16) a + S1x16.size a ≤ S64x128.size a
  k0_off84_inb : ∀ k0_t16 : Fin k0_t16_loop.trips, ∀ a, (k0_off84 k0_t16) a + S1x16.size a ≤ S64x128.size a
  k0_off85_inb : ∀ k0_t16 : Fin k0_t16_loop.trips, ∀ a, (k0_off85 k0_t16) a + S1x16.size a ≤ S64x64.size a
  k0_off86_inb : ∀ k0_t16 : Fin k0_t16_loop.trips, ∀ a, (k0_off86 k0_t16) a + S1x16.size a ≤ S64x128.size a
  k0_off87_inb : ∀ k0_t16 : Fin k0_t16_loop.trips, ∀ a, (k0_off87 k0_t16) a + S1x16.size a ≤ S64x128.size a
  k0_off88_inb : ∀ k0_t16 : Fin k0_t16_loop.trips, ∀ a, (k0_off88 k0_t16) a + S1x16.size a ≤ S64x64.size a
  k0_off89_inb : ∀ k0_t16 : Fin k0_t16_loop.trips, ∀ a, (k0_off89 k0_t16) a + S1x16.size a ≤ S64x128.size a
  k0_off90_inb : ∀ k0_t16 : Fin k0_t16_loop.trips, ∀ a, (k0_off90 k0_t16) a + S1x16.size a ≤ S64x128.size a
  k0_off91_inb : ∀ k0_t16 : Fin k0_t16_loop.trips, ∀ a, (k0_off91 k0_t16) a + S1x16.size a ≤ S64x64.size a
  k0_t17_ok : k0_t17_loop.OK
  k0_off92_inb : ∀ k0_t17 : Fin k0_t17_loop.trips, ∀ a, (k0_off92 k0_t17) a + S16.size a ≤ S528.size a
  k0_off93_inb : ∀ k0_t17 : Fin k0_t17_loop.trips, ∀ a, (k0_off93 k0_t17) a + S1x64.size a ≤ S64x64.size a
  k0_off95_inb : ∀ k0_t17 : Fin k0_t17_loop.trips, ∀ a, (k0_off95 k0_t17) a + S1x64.size a ≤ S64x64.size a
  k0_t18_ok : k0_t18_loop.OK
  k0_off96_inb : ∀ k0_t18 : Fin k0_t18_loop.trips, ∀ a, (k0_off96 k0_t18) a + S1x64.size a ≤ S64x64.size a
  k0_t19_ok : k0_t19_loop.OK
  k0_off97_inb : ∀ k0_t19 : Fin k0_t19_loop.trips, ∀ a, (k0_off97 k0_t19) a + S1x16.size a ≤ S64x128.size a
  k0_off98_inb : ∀ k0_t19 : Fin k0_t19_loop.trips, ∀ a, (k0_off98 k0_t19) a + S1x16.size a ≤ S64x128.size a
  k0_off99_inb : ∀ k0_t19 : Fin k0_t19_loop.trips, ∀ a, (k0_off99 k0_t19) a + S1x16.size a ≤ S64x64.size a
  k0_off100_inb : ∀ k0_t19 : Fin k0_t19_loop.trips, ∀ a, (k0_off100 k0_t19) a + S1x16.size a ≤ S64x128.size a
  k0_off101_inb : ∀ k0_t19 : Fin k0_t19_loop.trips, ∀ a, (k0_off101 k0_t19) a + S1x16.size a ≤ S64x128.size a
  k0_off102_inb : ∀ k0_t19 : Fin k0_t19_loop.trips, ∀ a, (k0_off102 k0_t19) a + S1x16.size a ≤ S64x64.size a
  k0_off103_inb : ∀ k0_t19 : Fin k0_t19_loop.trips, ∀ a, (k0_off103 k0_t19) a + S1x16.size a ≤ S64x128.size a
  k0_off104_inb : ∀ k0_t19 : Fin k0_t19_loop.trips, ∀ a, (k0_off104 k0_t19) a + S1x16.size a ≤ S64x128.size a
  k0_off105_inb : ∀ k0_t19 : Fin k0_t19_loop.trips, ∀ a, (k0_off105 k0_t19) a + S1x16.size a ≤ S64x64.size a
  k0_off106_inb : ∀ k0_t19 : Fin k0_t19_loop.trips, ∀ a, (k0_off106 k0_t19) a + S1x16.size a ≤ S64x128.size a
  k0_off107_inb : ∀ k0_t19 : Fin k0_t19_loop.trips, ∀ a, (k0_off107 k0_t19) a + S1x16.size a ≤ S64x128.size a
  k0_off108_inb : ∀ k0_t19 : Fin k0_t19_loop.trips, ∀ a, (k0_off108 k0_t19) a + S1x16.size a ≤ S64x64.size a
  k0_t20_ok : k0_t20_loop.OK
  k0_off109_inb : ∀ k0_t20 : Fin k0_t20_loop.trips, ∀ a, (k0_off109 k0_t20) a + S16.size a ≤ S528.size a
  k0_off110_inb : ∀ k0_t20 : Fin k0_t20_loop.trips, ∀ a, (k0_off110 k0_t20) a + S1x64.size a ≤ S64x64.size a
  k0_off112_inb : ∀ k0_t20 : Fin k0_t20_loop.trips, ∀ a, (k0_off112 k0_t20) a + S1x64.size a ≤ S64x64.size a
  k0_t21_ok : k0_t21_loop.OK
  k0_off113_inb : ∀ k0_t21 : Fin k0_t21_loop.trips, ∀ a, (k0_off113 k0_t21) a + S1x64.size a ≤ S64x64.size a
  k0_t22_ok : k0_t22_loop.OK
  k0_off114_inb : ∀ k0_t22 : Fin k0_t22_loop.trips, ∀ a, (k0_off114 k0_t22) a + S1x16.size a ≤ S64x128.size a
  k0_off115_inb : ∀ k0_t22 : Fin k0_t22_loop.trips, ∀ a, (k0_off115 k0_t22) a + S1x16.size a ≤ S64x128.size a
  k0_off116_inb : ∀ k0_t22 : Fin k0_t22_loop.trips, ∀ a, (k0_off116 k0_t22) a + S1x16.size a ≤ S64x64.size a
  k0_off117_inb : ∀ k0_t22 : Fin k0_t22_loop.trips, ∀ a, (k0_off117 k0_t22) a + S1x16.size a ≤ S64x128.size a
  k0_off118_inb : ∀ k0_t22 : Fin k0_t22_loop.trips, ∀ a, (k0_off118 k0_t22) a + S1x16.size a ≤ S64x128.size a
  k0_off119_inb : ∀ k0_t22 : Fin k0_t22_loop.trips, ∀ a, (k0_off119 k0_t22) a + S1x16.size a ≤ S64x64.size a
  k0_off120_inb : ∀ k0_t22 : Fin k0_t22_loop.trips, ∀ a, (k0_off120 k0_t22) a + S1x16.size a ≤ S64x128.size a
  k0_off121_inb : ∀ k0_t22 : Fin k0_t22_loop.trips, ∀ a, (k0_off121 k0_t22) a + S1x16.size a ≤ S64x128.size a
  k0_off122_inb : ∀ k0_t22 : Fin k0_t22_loop.trips, ∀ a, (k0_off122 k0_t22) a + S1x16.size a ≤ S64x64.size a
  k0_off123_inb : ∀ k0_t22 : Fin k0_t22_loop.trips, ∀ a, (k0_off123 k0_t22) a + S1x16.size a ≤ S64x128.size a
  k0_off124_inb : ∀ k0_t22 : Fin k0_t22_loop.trips, ∀ a, (k0_off124 k0_t22) a + S1x16.size a ≤ S64x128.size a
  k0_off125_inb : ∀ k0_t22 : Fin k0_t22_loop.trips, ∀ a, (k0_off125 k0_t22) a + S1x16.size a ≤ S64x64.size a
  k0_t23_ok : k0_t23_loop.OK
  k0_off126_inb : ∀ k0_t23 : Fin k0_t23_loop.trips, ∀ a, (k0_off126 k0_t23) a + S1x64.size a ≤ S64x64.size a
  k0_t24_ok : k0_t24_loop.OK
  k0_off127_inb : ∀ k0_t24 : Fin k0_t24_loop.trips, ∀ a, (k0_off127 k0_t24) a + S1x16.size a ≤ S64x128.size a
  k0_off128_inb : ∀ k0_t24 : Fin k0_t24_loop.trips, ∀ a, (k0_off128 k0_t24) a + S1x16.size a ≤ S64x128.size a
  k0_off129_inb : ∀ k0_t24 : Fin k0_t24_loop.trips, ∀ a, (k0_off129 k0_t24) a + S1x16.size a ≤ S64x64.size a
  k0_off130_inb : ∀ k0_t24 : Fin k0_t24_loop.trips, ∀ a, (k0_off130 k0_t24) a + S1x16.size a ≤ S64x128.size a
  k0_off131_inb : ∀ k0_t24 : Fin k0_t24_loop.trips, ∀ a, (k0_off131 k0_t24) a + S1x16.size a ≤ S64x128.size a
  k0_off132_inb : ∀ k0_t24 : Fin k0_t24_loop.trips, ∀ a, (k0_off132 k0_t24) a + S1x16.size a ≤ S64x64.size a
  k0_off133_inb : ∀ k0_t24 : Fin k0_t24_loop.trips, ∀ a, (k0_off133 k0_t24) a + S1x16.size a ≤ S64x128.size a
  k0_off134_inb : ∀ k0_t24 : Fin k0_t24_loop.trips, ∀ a, (k0_off134 k0_t24) a + S1x16.size a ≤ S64x128.size a
  k0_off135_inb : ∀ k0_t24 : Fin k0_t24_loop.trips, ∀ a, (k0_off135 k0_t24) a + S1x16.size a ≤ S64x64.size a
  k0_off136_inb : ∀ k0_t24 : Fin k0_t24_loop.trips, ∀ a, (k0_off136 k0_t24) a + S1x16.size a ≤ S64x128.size a
  k0_off137_inb : ∀ k0_t24 : Fin k0_t24_loop.trips, ∀ a, (k0_off137 k0_t24) a + S1x16.size a ≤ S64x128.size a
  k0_off138_inb : ∀ k0_t24 : Fin k0_t24_loop.trips, ∀ a, (k0_off138 k0_t24) a + S1x16.size a ≤ S64x64.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0

class Facts : Prop extends Facts₀ where

variable [Facts]
-- ==== ReferenceIdeal.lean ====
abbrev S16384x128 : Shape := ⟨2, ![16384, 128]⟩
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S16384x64, .f32⟩
  | .hbm, ⟨57, _⟩ => ⟨S16384x64, .f32⟩
  | .hbm, ⟨58, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  slices_S16384x128_S16384x64_0_0 : S16384x128.Slices ![0, 0] S16384x64
  slices_S16384x128_S16384x64_0_64 : S16384x128.Slices ![0, 64] S16384x64
  concatenates_S16384x64_S16384x64_S16384x128_d1 : Shape.Concatenates [S16384x64, S16384x64] S16384x128 1
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  The function both programs compute, index by index.

  The batch has 16384 rows of 128 floats; row n is read as a complex vector of 64 entries, real parts in columns
  0..63 and imaginary parts in columns 64..127. Row n is multiplied, entry by entry, by the complex vector whose real
  and imaginary parts are row idx[n] of the two tables:
      out[n, k]      = e[n, k] * re[r, k] - e[n, 64 + k] * im[r, k]
      out[n, 64 + k] = e[n, k] * im[r, k] + e[n, 64 + k] * re[r, k]        (r = idx[n], k < 64).
  The row number is the word idx[n] read as a natural number and folded into the table's extent, so that the function
  is total; for words in range (the only ones either program meets under the precondition) the fold is the identity.
  Stated over any float instance: the products, the difference and the sum are the instance's vector-unit operations.
-/
import Idealize.ShloMosaic.PureOps
import Idealize.ShloMosaic.Lib.ValueIdx

noncomputable section

namespace Cert.Spec

open Idealize.ShloMosaic Idealize.ShloMosaic.ValueIdx

/-- The batch and the result: 16384 rows of 128. -/
abbrev SE : Shape := ⟨2, ![16384, 128]⟩
/-- The row numbers: one word per batch row. -/
abbrev SI : Shape := ⟨1, ![16384]⟩
/-- A table: a million rows of 64. -/
abbrev ST : Shape := ⟨2, ![1000000, 64]⟩

variable {F : FTy → Type} [FloatOps F]

/-- The table row a word names: its value as a natural number, folded below a million. -/
def rowOf (w : BitVec 32) : Fin 1000000 := ⟨w.toNat % 1000000, Nat.mod_lt _ (by decide)⟩

theorem rowOf_val_of_lt {w : BitVec 32} (h : w.toNat < 1000000) : (rowOf w).val = w.toNat := Nat.mod_eq_of_lt h

/-- Entry (n, k) of the batch's real half. -/
def eRe (emb : SE.Idx → F .f32) (n : Fin 16384) (k : Fin 64) : F .f32 := emb (ix2 n (⟨k.val, by omega⟩ : Fin 128))
/-- Entry (n, k) of the batch's imaginary half. -/
def eIm (emb : SE.Idx → F .f32) (n : Fin 16384) (k : Fin 64) : F .f32 := emb (ix2 n (⟨64 + k.val, by omega⟩ : Fin 128))
/-- Entry k of the table row that batch row n names. -/
def tRow (idx : SI.Idx → BitVec 32) (t : ST.Idx → F .f32) (n : Fin 16384) (k : Fin 64) : F .f32 := t (ix2 (rowOf (idx (ix1 n))) k)

/-- The real part of the product at (n, k). -/
def outRe (emb : SE.Idx → F .f32) (idx : SI.Idx → BitVec 32) (re im : ST.Idx → F .f32) (n : Fin 16384) (k : Fin 64) : F .f32 :=
  FloatOps.subf (FloatOps.mulf (eRe emb n k) (tRow idx re n k)) (FloatOps.mulf (eIm emb n k) (tRow idx im n k))
/-- The imaginary part of the product at (n, k). -/
def outIm (emb : SE.Idx → F .f32) (idx : SI.Idx → BitVec 32) (re im : ST.Idx → F .f32) (n : Fin 16384) (k : Fin 64) : F .f32 :=
  FloatOps.addf (FloatOps.mulf (eRe emb n k) (tRow idx im n k)) (FloatOps.mulf (eIm emb n k) (tRow idx re n k))

/-- The result array: real parts in columns 0..63, imaginary parts in columns 64..127. -/
def G (emb : SE.Idx → F .f32) (idx : SI.Idx → BitVec 32) (re im : ST.Idx → F .f32) : SE.Idx → F .f32 := fun i =>
  if h : (i 1).val < 64 then outRe emb idx re im ⟨(i 0).val, idx2_lt0 i⟩ ⟨(i 1).val, h⟩
  else outIm emb idx re im ⟨(i 0).val, idx2_lt0 i⟩ ⟨(i 1).val - 64, by have := idx2_lt1 i; omega⟩

theorem G_lo (emb : SE.Idx → F .f32) (idx : SI.Idx → BitVec 32) (re im : ST.Idx → F .f32) (n : Fin 16384) (k : Fin 64) :
    G emb idx re im (ix2 n (⟨k.val, by omega⟩ : Fin 128)) = outRe emb idx re im n k := by
  unfold G; exact dif_pos k.isLt

theorem G_hi (emb : SE.Idx → F .f32) (idx : SI.Idx → BitVec 32) (re im : ST.Idx → F .f32) (n : Fin 16384) (k : Fin 64) :
    G emb idx re im (ix2 n (⟨64 + k.val, by omega⟩ : Fin 128)) = outIm emb idx re im n k := by
  unfold G
  have h : ¬ (64 + k.val) < 64 := by omega
  rw [dif_neg (by exact h)]
  congr 1; exact Fin.ext (by show 64 + k.val - 64 = k.val; omega)

end Cert.Spec

end
-- ==== Proof.KI.Common.lean ====
/-
  The setting shared by the kernel's frame and value proof: the program as the launch theorem sees it, the ghost
  state (the launch handshakes' rounds beside the transfers' counters), the arrays as locations of a device, how the
  call's operands are divided — every read-only array by SHARES (one half per SparseCore, a sixteenth of that per
  tile), the result array by CHUNKS of 64 rows (tile (c, s) owns rows 1024·s + 512·c + 64·k …, k < 8) — and what
  the handshakes carry: on the way in the result array at its launch contents, on the way back at the
  specification's function of the launch contents of the four arguments.
-/
import proofs.«204629_g89326729822651_cont_sun_m_635_33_alg».proof.KernelIdeal
import proofs.«204629_g89326729822651_cont_sun_m_635_33_alg».proof.Proof.Gen.KernelIdeal
import proofs.«204629_g89326729822651_cont_sun_m_635_33_alg».proof.Proof.Gen.KernelIdeal.Skeleton
import proofs.«204629_g89326729822651_cont_sun_m_635_33_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The batch, the row numbers, the two tables (the arguments) and the result, as locations of device `d`. -/
abbrev eLoc (d : Dev nD) : Loc nD τ sig := (SparseCore.T d).loc main_arg0
abbrev iLoc (d : Dev nD) : Loc nD τ sig := (SparseCore.T d).loc main_arg1
abbrev rLoc (d : Dev nD) : Loc nD τ sig := (SparseCore.T d).loc main_arg2
abbrev gLoc (d : Dev nD) : Loc nD τ sig := (SparseCore.T d).loc main_arg3
abbrev oLoc (d : Dev nD) : Loc nD τ sig := (SparseCore.T d).loc main_v0

/-! ## Shares: a share halved `n` times has `2 ^ n` leaves -/

/-- Leaf `i` of the depth-`n` halving of the share `q`: the left half holds the first `2 ^ (n - 1)` leaves. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by have h2 : 2 ^ (n + 1) = 2 ^ n * 2 := Nat.pow_succ _ _; have := i.isLt; omega⟩

/-- The leaves of depth `n + 1` are those of the two halves, side by side. -/
def halves (n : ℕ) : Fin (2 ^ n) ⊕ Fin (2 ^ n) ≃ Fin (2 ^ (n + 1)) := finSumFinEquiv.trans (finCongr (by have h2 : 2 ^ (n + 1) = 2 ^ n * 2 := Nat.pow_succ _ _; omega))

omit m ρ in
theorem halves_inl (n : ℕ) (i : Fin (2 ^ n)) : (halves n (Sum.inl i)).val = i.val := by simp [halves]
omit m ρ in
theorem halves_inr (n : ℕ) (i : Fin (2 ^ n)) : (halves n (Sum.inr i)).val = 2 ^ n + i.val := by simp [halves]; omega

omit m ρ in
theorem leaf_inl (n : ℕ) (q : PosShare TreeShare) (i : Fin (2 ^ n)) : leaf (n + 1) q (halves n (Sum.inl i)) = leaf n q.left i := by
  have h : (halves n (Sum.inl i)).val < 2 ^ n := by rw [halves_inl]; exact i.isLt
  have e : (⟨(halves n (Sum.inl i)).val, h⟩ : Fin (2 ^ n)) = i := Fin.ext (halves_inl n i)
  rw [leaf, dif_pos h, e]
omit m ρ in
theorem leaf_inr (n : ℕ) (q : PosShare TreeShare) (i : Fin (2 ^ n)) : leaf (n + 1) q (halves n (Sum.inr i)) = leaf n q.right i := by
  have h : ¬ (halves n (Sum.inr i)).val < 2 ^ n := by rw [halves_inr]; omega
  have e : (⟨(halves n (Sum.inr i)).val - 2 ^ n, by have := (halves n (Sum.inr i)).isLt; have h2 : 2 ^ (n + 1) = 2 ^ n * 2 := Nat.pow_succ _ _; omega⟩ : Fin (2 ^ n)) = i :=
    Fin.ext (by simp only [halves_inr]; omega)
  rw [leaf, dif_neg h, e]

omit m ρ in
/-- A points-to at a share is the points-to at each of its leaves, together. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and tile `(c, s)`'s. -/
abbrev cq (c : Fin 2) : PosShare TreeShare := leaf 1 fullShare c
abbrev tq (c : Fin 2) (s : Fin 16) : PosShare TreeShare := leaf 4 (cq c) s

/-! ## The result array's chunks: 64 rows each, eight to a tile -/

omit m ρ in
theorem chunk_inb (c : Fin 2) (s : Fin 16) (k : Fin 8) :
    ∀ a, (![1024 * s.val + 512 * c.val + 64 * k.val, 0] : Fin 2 → Nat) a + S64x128.size a ≤ S16384x128.size a := by
  have := c.isLt; have := s.isLt; have := k.isLt
  intro a; fin_cases a <;> simp <;> omega

abbrev chunkRect (c : Fin 2) (s : Fin 16) (k : Fin 8) : Rect S16384x128 :=
  Rect.unit (s := S16384x128) ![1024 * s.val + 512 * c.val + 64 * k.val, 0] S64x128.size (chunk_inb c s k)
abbrev chunkSet (c : Fin 2) (s : Fin 16) (k : Fin 8) : Finset S16384x128.Idx :=
  ((Memref.whole main_v0_scv : Memref sig .scVector .hbm S16384x128 .f32).view.slice (chunkRect c s k)).set

variable [FloatOps F]

/-! ## The result, and what the handshakes carry -/

/-- The specification's function of the four arguments' launch contents. -/
def Gm (d : Dev nD) : Buf (Elt F) (oLoc d) := Cert.Spec.G (F := F) (m (eLoc d)) (m (iLoc d)) (m (rLoc d)) (m (gLoc d))

/-- The four arguments at share `q`, at their launch contents. -/
abbrev argsAt (d : Dev nD) (q : PosShare TreeShare) : sProp 𝕄 :=
  iprop((eLoc d ↦{q} m (eLoc d)) ∗ (iLoc d ↦{q} m (iLoc d)) ∗ (rLoc d ↦{q} m (rLoc d)) ∗ (gLoc d ↦{q} m (gLoc d)))

/-- Tile `(c, s)`'s eight chunks of the result array, holding `f`. -/
abbrev chunksAt (d : Dev nD) (c : Fin 2) (s : Fin 16) (f : Buf (Elt F) (oLoc d)) : sProp 𝕄 :=
  bigSep Finset.univ fun k : Fin 8 => oLoc d ↦[chunkSet c s k]{fullShare} f

/-- What a tile is handed and hands back: its share of the arguments, its chunks of the result at `f`. -/
abbrev tileIn (d : Dev nD) (c : Fin 2) (s : Fin 16) (f : Buf (Elt F) (oLoc d)) : sProp 𝕄 :=
  iprop(argsAt m d (tq c s) ∗ chunksAt d c s f)
/-- What a SparseCore is handed and hands back. -/
abbrev coreIn (d : Dev nD) (c : Fin 2) (f : Buf (Elt F) (oLoc d)) : sProp 𝕄 :=
  iprop(argsAt m d (cq c) ∗ bigSep Finset.univ fun s : Fin 16 => chunksAt d c s f)

/-- The one call's payloads: in, the result array at its launch contents; back, at the specification's function. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (Gm m d)
  go := fun q d c i => match q with | 0 => tileIn m d (Fin.cast nCore_zero c) (Fin.cast nSub_zero i) (m (oLoc d))
  td := fun q d c i => match q with | 0 => tileIn m d (Fin.cast nCore_zero c) (Fin.cast nSub_zero i) (Gm m d)
  x := fun _ _ => iprop(emp)

instance P_storable : (P (F := F) m).IsStorable where
  st q d c := match q with
    | 0 => (inferInstance : BI.Storable (upEmb : UEmb _ 𝕄) (coreIn m d (Fin.cast nCore_zero c) (m (oLoc d))))
  dn q d c := match q with
    | 0 => (inferInstance : BI.Storable (upEmb : UEmb _ 𝕄) (coreIn m d (Fin.cast nCore_zero c) (Gm m d)))
  go q d c i := match q with
    | 0 => (inferInstance : BI.Storable (upEmb : UEmb _ 𝕄) (tileIn m d (Fin.cast nCore_zero c) (Fin.cast nSub_zero i) (m (oLoc d))))
  td q d c i := match q with
    | 0 => (inferInstance : BI.Storable (upEmb : UEmb _ 𝕄) (tileIn m d (Fin.cast nCore_zero c) (Fin.cast nSub_zero i) (Gm m d)))

/-- What the proof asks of the launch memory: every row number names a row of the tables. -/
def PreOK : Prop := ∀ (d : Dev nD) (j : S16384.Idx), (m (iLoc d) j).toNat < 1000000

/-! ## A tile's coordinates -/

abbrev cV (L : grid0.Coords) : Fin τ.nSC := (L 0).castLE hcore0
abbrev jV (L : grid0.Coords) : Fin τ.nSub := (L 1).castLE hsub0
omit m ρ [FloatOps F] in
theorem bound_zero : grid0.bound 0 = 2 := rfl
omit m ρ [FloatOps F] in
theorem bound_one : grid0.bound 1 = 16 := rfl
abbrev cL (L : grid0.Coords) : Fin 2 := Fin.cast bound_zero (L 0)
abbrev sL (L : grid0.Coords) : Fin 16 := Fin.cast bound_one (L 1)

end Cert.Proof.KI

end
-- ==== Proof.KI.Own.lean ====
/-
  A tile's own semaphores and scratch buffers, named one by one: the nine DMA semaphores (all at zero) and the nine
  scratch buffers (each at some contents) are split off the collections the launch hands the tile.
-/
import proofs.«204629_g89326729822651_cont_sun_m_635_33_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The cell of DMA semaphore `sm` on the tile at `L`. -/
abbrev cellOf (sm : DmaSem sig) : GSem nD τ sig := (V d (cV L) (jV L), SemLoc.dma sm)

theorem cellOf_ne {a b : DmaSem sig} (h : a ≠ b) : cellOf d L a ≠ cellOf d L b :=
  fun e => h (SemLoc.dma.inj (Prod.mk.inj e).2)

theorem cellOf_mem (sm : DmaSem sig) (h : (SemLoc.dma sm : SemLoc sig).isScoped .scVector = true) :
    cellOf d L sm ∈ ownCells (V d (cV L) (jV L)) := (mem_ownCells (g := cellOf d L sm)).mpr ⟨rfl, h⟩

/-- The scratch buffer `b` of the tile at `L`, as a buffer of the device. -/
abbrev refOf (b : Ref sig .scVector) : DevRef τ sig := (Proc.scVector (cV L) (jV L)).devRef b

theorem refOf_ne {a b : Ref sig .scVector} (h : a ≠ b) : refOf L a ≠ refOf L b :=
  fun e => h (Proc.devRef_injective _ e)

theorem refOf_mem (b : Ref sig .scVector) (h : (refOf L b).owner = Owner.proc (Proc.scVector (cV L) (jV L))) : refOf L b ∈ ownRefs (τ := τ) (sig := sig) (.scVector (cV L) (jV L)) :=
  SparseCore.Cfg.mem_ownRefs_of_owner (p := Proc.scVector (cV L) (jV L)) (b := refOf L b) h

/-- What is left of the tile's own cells once the nine DMA semaphores are named. -/
abbrev restCells : Finset (GSem nD τ sig) :=
  ((((((((((ownCells (V d (cV L) (jV L))).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scratch14.sem)).erase (cellOf d L cc0_scratch15.sem)).erase (cellOf d L cc0_scratch16.sem)).erase (cellOf d L cc0_scoped0.sem))

theorem ownSems0_V :
    (ownSems0 (V d (cV L) (jV L)) : sProp 𝕄)
      = iprop(semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
          ∗ bigSep (restCells d L) fun g => semVal g 0) := by
  unfold SparseCore.Cfg.ownSems0 restCells
  rw [SparseCore.bigSep_erase' (cellOf_mem d L cc0_scratch9.sem (by decide)),
    SparseCore.bigSep_erase' (Finset.mem_erase.mpr ⟨cellOf_ne d L (by decide), cellOf_mem d L cc0_scratch10.sem (by decide)⟩),
    SparseCore.bigSep_erase' (Finset.mem_erase.mpr ⟨cellOf_ne d L (by decide), Finset.mem_erase.mpr ⟨cellOf_ne d L (by decide), cellOf_mem d L cc0_scratch11.sem (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_mem d L cc0_scratch12.sem (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch13.sem (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch14.sem (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch15.sem (by decide)⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch16.sem (by decide)⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scoped0.sem (by decide)⟩⟩⟩⟩⟩⟩⟩⟩)]

/-- What is left of the tile's own buffers once the nine scratch buffers are named. -/
abbrev restRefs : Finset (DevRef τ sig) :=
  ((((((((((ownRefs (τ := τ) (sig := sig) (.scVector (cV L) (jV L))).erase (refOf L cc0_scratch0)).erase (refOf L cc0_scratch1)).erase (refOf L cc0_scratch2)).erase (refOf L cc0_scratch3)).erase (refOf L cc0_scratch4)).erase (refOf L cc0_scratch5)).erase (refOf L cc0_scratch6)).erase (refOf L cc0_scratch7)).erase (refOf L cc0_scratch8))

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep (restRefs L) fun b => iprop(∃ f, ((d, b) : Loc nD τ sig) ↦{fullShare} f)) := by
  unfold SparseCore.Cfg.ownBufs restRefs
  rw [SparseCore.bigSep_erase' (refOf_mem L cc0_scratch0 rfl),
    SparseCore.bigSep_erase' (Finset.mem_erase.mpr ⟨refOf_ne L (by decide), refOf_mem L cc0_scratch1 rfl⟩),
    SparseCore.bigSep_erase' (Finset.mem_erase.mpr ⟨refOf_ne L (by decide), Finset.mem_erase.mpr ⟨refOf_ne L (by decide), refOf_mem L cc0_scratch2 rfl⟩⟩),
    SparseCore.bigSep_erase' (Finset.mem_erase.mpr ⟨refOf_ne L (by decide), Finset.mem_erase.mpr ⟨refOf_ne L (by decide), Finset.mem_erase.mpr ⟨refOf_ne L (by decide), refOf_mem L cc0_scratch3 rfl⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch4 rfl⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch5 rfl⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch6 rfl⟩⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch7 rfl⟩⟩⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch8 rfl⟩⟩⟩⟩⟩⟩⟩⟩)]

end Cert.Proof.KI

end
-- ==== Proof.KI.Rows.lean ====
import proofs.«204629_g89326729822651_cont_sun_m_635_33_alg».proof.Proof.KI.Own

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)

/-! ## The tile, its rows of the batch, the table rows they name -/

/-- The tile's thread. -/
abbrev thr : Thread nD τ := V d (cV L) (jV L)

/-- The tile's first batch row. -/
def R0 : ℕ := 1024 * (L 1).val + 512 * (L 0).val

omit m d in
theorem R0_le : R0 L + 512 ≤ 16384 := by
  have h1 : (L 1).val < 16 := (L 1).isLt
  have h0 : (L 0).val < 2 := (L 0).isLt
  unfold R0; omega

/-- Batch row `R0 + j`, for `j < 512`. -/
def rowN (j : Fin 512) : Fin 16384 := ⟨R0 L + j.val, by have := R0_le L; have := j.isLt; omega⟩

/-- The row-number word of the tile's `j`-th batch row. -/
def idxW (j : Fin 512) : BitVec 32 := m (iLoc d) (ValueIdx.ix1 (rowN L j))

/-- The table row that word names (under the precondition, its value). -/
def tRowOf (j : Fin 512) : Fin 1000000 := Cert.Spec.rowOf (idxW m d L j)

/-- Position `i` of chunk `c` among the tile's 512 rows. -/
def posOf (c : Fin 8) (i : Fin 64) : Fin 512 := ⟨64 * c.val + i.val, by have := c.isLt; have := i.isLt; omega⟩

/-- The index scratch holds the tile's 512 row numbers in its first 512 words. -/
def IdxHolds (fI : Buf (Elt F) ((thr d L).loc cc0_scratch0)) : Prop :=
  ∀ j : Fin 512, fI (ValueIdx.ix1 (⟨j.val, by have := j.isLt; omega⟩ : Fin 528)) = idxW m d L j

/-! ## Rows of a 64 × 64 scratch, rows of a table -/

omit m d L in
theorem row_inb (t : Fin 64) : ∀ a, (![t.val, 0] : Fin 2 → Nat) a + S1x64.size a ≤ S64x64.size a := by
  have := t.isLt; intro a; fin_cases a <;> simp <;> omega
/-- Row `t` of a 64 × 64 scratch. -/
abbrev rowRect (t : Fin 64) : Rect S64x64 := Rect.unit (s := S64x64) ![t.val, 0] S1x64.size (row_inb t)

omit m d L in
theorem trow_inb (r : Fin 1000000) : ∀ a, (![r.val, 0] : Fin 2 → Nat) a + S1x64.size a ≤ S1000000x64.size a := by
  have := r.isLt; intro a; fin_cases a <;> simp <;> omega
/-- Row `r` of a table. -/
abbrev trowRect (r : Fin 1000000) : Rect S1000000x64 := Rect.unit (s := S1000000x64) ![r.val, 0] S1x64.size (trow_inb r)

/-- Row `t` of the scratch `b3`, as a set of its indices (the four 64 × 64 scratches have the same index type). -/
abbrev rowSet (t : Fin 64) : Finset S64x64.Idx := ((b3).view.slice (rowRect t)).set
/-- Row `r` of a table, as a set of its indices. -/
abbrev trowSet (r : Fin 1000000) : Finset S1000000x64.Idx := ((rW).view.slice (trowRect r)).set

/-- One row's transfer credit. -/
abbrev NR : ℕ := ((b3).slice (rowRect 0) (fun _ => rfl)).view.amount (SemLoc.dma (sig := sig) cc0_scratch11.sem)

/-! ## What a chunk's gathers leave: row `i` of the scratch is the named row of the table -/

variable [FloatOps F]

/-- The gathered rows of a table `tb` for chunk `c`: entry (i, k) is the table at (the row batch row 64c + i names, k). -/
def gathered (tb : S1000000x64.Idx → F .f32) (c : Fin 8) : S64x64.Idx → F .f32 := fun y =>
  tb (ValueIdx.ix2 (tRowOf m d L (posOf c ⟨(y 0).val, ValueIdx.idx2_lt0 y⟩)) (⟨(y 1).val, ValueIdx.idx2_lt1 y⟩ : Fin 64))

/-- The batch rows of chunk `c`: entry (i, j) is the batch at (row 64c + i of the tile, j). -/
def embChunk (c : Fin 8) : S64x128.Idx → F .f32 := fun y =>
  (m (eLoc d) : S16384x128.Idx → F .f32) (ValueIdx.ix2 (rowN L (posOf c ⟨(y 0).val, ValueIdx.idx2_lt0 y⟩)) (⟨(y 1).val, ValueIdx.idx2_lt1 y⟩ : Fin 128))

/-- The result rows of chunk `c`: entry (i, j) is the specification at (row 64c + i of the tile, j). -/
def outChunk (c : Fin 8) : S64x128.Idx → F .f32 := fun y =>
  (Gm m d : S16384x128.Idx → F .f32) (ValueIdx.ix2 (rowN L (posOf c ⟨(y 0).val, ValueIdx.idx2_lt0 y⟩)) (⟨(y 1).val, ValueIdx.idx2_lt1 y⟩ : Fin 128))

/-! ## The two buffer sets (chunks alternate between them) and a batch's deliveries

Parity 0 gathers into scratches 3 (real parts) and 5 (imaginary parts) on semaphores 11 and 13; parity 1 into scratches 4
and 6 on semaphores 12 and 14. A chunk's 64 row copies from one table are one batch on one semaphore; copy `t` delivers
row `t` of the scratch at the gathered contents and gives back the share of the table row it read. Copy `t` of a batch
working with the share `q` of a table uses that share's leaf `t` (of 64): two batch rows may name one table row. -/

abbrev lq (q : PosShare TreeShare) (t : Fin 64) : PosShare TreeShare := leaf 6 q t

/-- Parity 0, real parts. -/
def DR0 (c : Fin 8) (q : PosShare TreeShare) (t : Fin 64) : sProp 𝕄 :=
  iprop(((thr d L).loc cc0_scratch3 ↦[rowSet t]{fullShare} gathered m d L (m (rLoc d)) c)
    ∗ (rLoc d ↦[trowSet (tRowOf m d L (posOf c t))]{lq q t} m (rLoc d)))
/-- Parity 0, imaginary parts. -/
def DI0 (c : Fin 8) (q : PosShare TreeShare) (t : Fin 64) : sProp 𝕄 :=
  iprop(((thr d L).loc cc0_scratch5 ↦[rowSet t]{fullShare} gathered m d L (m (gLoc d)) c)
    ∗ (gLoc d ↦[trowSet (tRowOf m d L (posOf c t))]{lq q t} m (gLoc d)))
/-- Parity 1, real parts. -/
def DR1 (c : Fin 8) (q : PosShare TreeShare) (t : Fin 64) : sProp 𝕄 :=
  iprop(((thr d L).loc cc0_scratch4 ↦[rowSet t]{fullShare} gathered m d L (m (rLoc d)) c)
    ∗ (rLoc d ↦[trowSet (tRowOf m d L (posOf c t))]{lq q t} m (rLoc d)))
/-- Parity 1, imaginary parts. -/
def DI1 (c : Fin 8) (q : PosShare TreeShare) (t : Fin 64) : sProp 𝕄 :=
  iprop(((thr d L).loc cc0_scratch6 ↦[rowSet t]{fullShare} gathered m d L (m (gLoc d)) c)
    ∗ (gLoc d ↦[trowSet (tRowOf m d L (posOf c t))]{lq q t} m (gLoc d)))

instance DR0_storable (c : Fin 8) (q : PosShare TreeShare) (t : Fin 64) : BI.Storable (upEmb : UEmb _ 𝕄) (DR0 m d L c q t) := by unfold DR0; infer_instance
instance DI0_storable (c : Fin 8) (q : PosShare TreeShare) (t : Fin 64) : BI.Storable (upEmb : UEmb _ 𝕄) (DI0 m d L c q t) := by unfold DI0; infer_instance
instance DR1_storable (c : Fin 8) (q : PosShare TreeShare) (t : Fin 64) : BI.Storable (upEmb : UEmb _ 𝕄) (DR1 m d L c q t) := by unfold DR1; infer_instance
instance DI1_storable (c : Fin 8) (q : PosShare TreeShare) (t : Fin 64) : BI.Storable (upEmb : UEmb _ 𝕄) (DI1 m d L c q t) := by unfold DI1; infer_instance

/-- What copy `t` leaves outside the table row it reads, of its leaf of the two tables' shares: kept until the batch is drained. -/
def remOf (c : Fin 8) (q : PosShare TreeShare) (t : Fin 64) : sProp 𝕄 :=
  iprop((rLoc d ↦[Finset.univ \ trowSet (tRowOf m d L (posOf c t))]{lq q t} m (rLoc d))
    ∗ (gLoc d ↦[Finset.univ \ trowSet (tRowOf m d L (posOf c t))]{lq q t} m (gLoc d)))

/-- The two batches of a chunk at parity 0, with `k` copies issued and `u` units consumed. -/
abbrev batches0 (c : Fin 8) (q : PosShare TreeShare) (k u : ℕ) : sProp 𝕄 :=
  iprop(Transfers.Batch countersEmb (thr d L) (.dma cc0_scratch11.sem) (default : HIx 1) NR (DR0 m d L c q) k u
    ∗ Transfers.Batch countersEmb (thr d L) (.dma cc0_scratch13.sem) (default : HIx 1) NR (DI0 m d L c q) k u)
/-- The two batches of a chunk at parity 1. -/
abbrev batches1 (c : Fin 8) (q : PosShare TreeShare) (k u : ℕ) : sProp 𝕄 :=
  iprop(Transfers.Batch countersEmb (thr d L) (.dma cc0_scratch12.sem) (default : HIx 1) NR (DR1 m d L c q) k u
    ∗ Transfers.Batch countersEmb (thr d L) (.dma cc0_scratch14.sem) (default : HIx 1) NR (DI1 m d L c q) k u)

end Cert.Proof.KI

end
-- ==== Proof.KI.Invs.lean ====
import proofs.«204629_g89326729822651_cont_sun_m_635_33_alg».proof.Proof.KI.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

/-! ## Parity 0 -/

/-- Issuing a chunk's gathers, before copy `k`: the index scratch, the two batches with `k` issued, for each copy still
    to issue its leaf of the tables' shares and its row of the two scratches, for each copy issued what it left of its leaf. -/
def fireInv0 (c : Fin 8) (q : PosShare TreeShare) (fI : Buf (Elt F) ((thr d L).loc cc0_scratch0))
    (fr : Buf (Elt F) ((thr d L).loc cc0_scratch3)) (fi : Buf (Elt F) ((thr d L).loc cc0_scratch5)) (k : ℕ) (_ : PUnit) : sProp 𝕄 :=
  iprop(((b0).view.loc (thr d L) ↦{fullShare} fI)
    ∗ batches0 m d L c q k 0
    ∗ (bigSep (Transfers.pending (n := 64) k) fun t => iprop((rLoc d ↦{lq q t} m (rLoc d)) ∗ (gLoc d ↦{lq q t} m (gLoc d))
        ∗ ((thr d L).loc cc0_scratch3 ↦[rowSet t]{fullShare} fr) ∗ ((thr d L).loc cc0_scratch5 ↦[rowSet t]{fullShare} fi)))
    ∗ bigSep (Transfers.issued (m := 64) k) (remOf m d L c q))

/-- Draining a chunk's gathers, after `k` waits on each of the two semaphores: while `k < 64` the two batches with
    `k` rows' units consumed; at 64 every delivery and the two counters at zero. The waits are recorded beside what the
    tile owes the launch. -/
def drainInv0 (c : Fin 8) (q : PosShare TreeShare) (O : CellTallies nD τ sig (HIx 1)) (W : Waits sig (HIx 1)) (k : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ (if k < 64 then batches0 m d L c q 64 (k * NR)
       else iprop(bigSep Finset.univ (DR0 m d L c q) ∗ bigSep Finset.univ (DI0 m d L c q)
          ∗ semVal (thr d L, SemLoc.dma cc0_scratch11.sem) 0 ∗ semVal (thr d L, SemLoc.dma cc0_scratch13.sem) 0)))

/-- Computing a chunk, before row `k`: the chunk of the batch, the gathered rows of the two tables, and the result
    scratch whose rows below `k` already hold the specification's. -/
def computeInv0 (c : Fin 8) (k : ℕ) (_ : PUnit) : sProp 𝕄 :=
  iprop(((b1).view.loc (thr d L) ↦{fullShare} embChunk m d L c)
    ∗ ((b3).view.loc (thr d L) ↦{fullShare} gathered m d L (m (rLoc d)) c)
    ∗ ((b5).view.loc (thr d L) ↦{fullShare} gathered m d L (m (gLoc d)) c)
    ∗ ∃ fo : S64x128.Idx → F .f32, ((b7).view.loc (thr d L) ↦{fullShare} fo)
        ∗ ⌜∀ y : S64x128.Idx, (y 0).val < k → fo y = outChunk m d L c y⌝)

/-! ## Parity 1 -/

/-- Issuing a chunk's gathers, before copy `k`: the index scratch, the two batches with `k` issued, for each copy still
    to issue its leaf of the tables' shares and its row of the two scratches, for each copy issued what it left of its leaf. -/
def fireInv1 (c : Fin 8) (q : PosShare TreeShare) (fI : Buf (Elt F) ((thr d L).loc cc0_scratch0))
    (fr : Buf (Elt F) ((thr d L).loc cc0_scratch4)) (fi : Buf (Elt F) ((thr d L).loc cc0_scratch6)) (k : ℕ) (_ : PUnit) : sProp 𝕄 :=
  iprop(((b0).view.loc (thr d L) ↦{fullShare} fI)
    ∗ batches1 m d L c q k 0
    ∗ (bigSep (Transfers.pending (n := 64) k) fun t => iprop((rLoc d ↦{lq q t} m (rLoc d)) ∗ (gLoc d ↦{lq q t} m (gLoc d))
        ∗ ((thr d L).loc cc0_scratch4 ↦[rowSet t]{fullShare} fr) ∗ ((thr d L).loc cc0_scratch6 ↦[rowSet t]{fullShare} fi)))
    ∗ bigSep (Transfers.issued (m := 64) k) (remOf m d L c q))

/-- Draining a chunk's gathers, after `k` waits on each of the two semaphores: while `k < 64` the two batches with
    `k` rows' units consumed; at 64 every delivery and the two counters at zero. The waits are recorded beside what the
    tile owes the launch. -/
def drainInv1 (c : Fin 8) (q : PosShare TreeShare) (O : CellTallies nD τ sig (HIx 1)) (W : Waits sig (HIx 1)) (k : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ (if k < 64 then batches1 m d L c q 64 (k * NR)
       else iprop(bigSep Finset.univ (DR1 m d L c q) ∗ bigSep Finset.univ (DI1 m d L c q)
          ∗ semVal (thr d L, SemLoc.dma cc0_scratch12.sem) 0 ∗ semVal (thr d L, SemLoc.dma cc0_scratch14.sem) 0)))

/-- Computing a chunk, before row `k`: the chunk of the batch, the gathered rows of the two tables, and the result
    scratch whose rows below `k` already hold the specification's. -/
def computeInv1 (c : Fin 8) (k : ℕ) (_ : PUnit) : sProp 𝕄 :=
  iprop(((b2).view.loc (thr d L) ↦{fullShare} embChunk m d L c)
    ∗ ((b4).view.loc (thr d L) ↦{fullShare} gathered m d L (m (rLoc d)) c)
    ∗ ((b6).view.loc (thr d L) ↦{fullShare} gathered m d L (m (gLoc d)) c)
    ∗ ∃ fo : S64x128.Idx → F .f32, ((b8).view.loc (thr d L) ↦{fullShare} fo)
        ∗ ⌜∀ y : S64x128.Idx, (y 0).val < k → fo y = outChunk m d L c y⌝)

end Cert.Proof.KI

end
-- ==== Proof.KI.Join.lean ====
/-
  Joining what a drained chunk's row copies hand back.

  A 64 × 64 scratch whole is its 64 rows, together; a points-to at a share is the points-to at the share's 64 leaves,
  together. Copy `t` of a chunk delivers row `t` of a scratch and gives back, at leaf `t` of the table's share, the
  table row it read; what that leaf holds outside that row was kept aside. All 64 copies of the two tables' batches
  together with what was kept aside are therefore the two scratches whole at the gathered rows and the two tables at
  the share the chunk started from.
-/
import proofs.«204629_g89326729822651_cont_sun_m_635_33_alg».proof.Proof.KI.Invs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)

/-! ## A scratch's rows -/

omit m d L in
theorem rowSet_eq (t : Fin 64) : rowSet t = (rowRect t).set := by
  show ((View.whole (cc0_scratch3 : Ref sig .scVector)).slice (rowRect t)).set = _
  rw [View.set_slice]; exact Finset.map_refl

omit m d L in
/-- An index is in row `t` when its first coordinate is `t`. -/
theorem mem_rowSet {t : Fin 64} {i : S64x64.Idx} : i ∈ rowSet t ↔ (i 0).val = t.val := by
  rw [rowSet_eq, Rect.mem_set_unit]
  constructor
  · intro h
    have h0 : t.val ≤ (i 0).val ∧ (i 0).val < t.val + 1 := h 0
    omega
  · intro h a
    have h1 : (i 1).val < 64 := (i 1).isLt
    match a with
    | ⟨0, _⟩ => show t.val ≤ (i 0).val ∧ (i 0).val < t.val + 1; omega
    | ⟨1, _⟩ => show 0 ≤ (i 1).val ∧ (i 1).val < 0 + 64; omega

omit m d L in
theorem rows_disjoint : ∀ t ∈ (Finset.univ : Finset (Fin 64)), ∀ t' ∈ (Finset.univ : Finset (Fin 64)), t ≠ t' →
    Disjoint (rowSet t) (rowSet t') := by
  intro t _ t' _ h
  exact Finset.disjoint_left.mpr fun i hi hi' => h (Fin.ext ((mem_rowSet.mp hi).symm.trans (mem_rowSet.mp hi')))

omit m d L in
theorem rows_cover : (Finset.univ : Finset (Fin 64)).biUnion rowSet = Finset.univ := by
  ext i
  simp only [Finset.mem_biUnion, Finset.mem_univ, true_and, iff_true]
  exact ⟨⟨(i 0).val, (i 0).isLt⟩, mem_rowSet.mpr rfl⟩

omit m in
/-- A buffer whole is a pairwise disjoint, covering family of its parts, together. -/
theorem parts_split {T : Type} [Fintype T] (ℓ : Loc nD τ sig) (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f : Buf (Elt F) ℓ) :
    (ℓ ↦{q} f : sProp 𝕄) = bigSep Finset.univ fun t : T => ℓ ↦[K t]{q} f := by
  have h : (ℓ ↦[(Finset.univ : Finset T).biUnion K]{q} f : sProp 𝕄) = bigSep (Finset.univ : Finset T) fun t => ℓ ↦[K t]{q} f :=
    pointsTo_biUnion (ℓ := ℓ) Finset.univ K hd
  rw [hc] at h
  exact h

omit m in
/-- THE ROWS OF A SCRATCH: each of the four 64 × 64 scratches whole is its 64 rows, together. -/
theorem rows_split3 (f : Buf (Elt F) ((thr d L).loc cc0_scratch3)) :
    ((thr d L).loc cc0_scratch3 ↦{fullShare} f : sProp 𝕄) = bigSep Finset.univ fun t : Fin 64 => (thr d L).loc cc0_scratch3 ↦[rowSet t]{fullShare} f :=
  parts_split ((thr d L).loc cc0_scratch3) rowSet rows_disjoint rows_cover fullShare f
omit m in
@[inherit_doc rows_split3]
theorem rows_split4 (f : Buf (Elt F) ((thr d L).loc cc0_scratch4)) :
    ((thr d L).loc cc0_scratch4 ↦{fullShare} f : sProp 𝕄) = bigSep Finset.univ fun t : Fin 64 => (thr d L).loc cc0_scratch4 ↦[rowSet t]{fullShare} f :=
  parts_split ((thr d L).loc cc0_scratch4) rowSet rows_disjoint rows_cover fullShare f
omit m in
@[inherit_doc rows_split3]
theorem rows_split5 (f : Buf (Elt F) ((thr d L).loc cc0_scratch5)) :
    ((thr d L).loc cc0_scratch5 ↦{fullShare} f : sProp 𝕄) = bigSep Finset.univ fun t : Fin 64 => (thr d L).loc cc0_scratch5 ↦[rowSet t]{fullShare} f :=
  parts_split ((thr d L).loc cc0_scratch5) rowSet rows_disjoint rows_cover fullShare f
omit m in
@[inherit_doc rows_split3]
theorem rows_split6 (f : Buf (Elt F) ((thr d L).loc cc0_scratch6)) :
    ((thr d L).loc cc0_scratch6 ↦{fullShare} f : sProp 𝕄) = bigSep Finset.univ fun t : Fin 64 => (thr d L).loc cc0_scratch6 ↦[rowSet t]{fullShare} f :=
  parts_split ((thr d L).loc cc0_scratch6) rowSet rows_disjoint rows_cover fullShare f

/-! ## A share's 64 leaves -/

omit m d L in
/-- THE LEAVES OF A SHARE: a points-to at a share is the points-to at each of its 64 leaves, together. -/
theorem leaves64 (ℓ : Loc nD τ sig) (I : Finset (Idx ℓ)) (f : Buf (Elt F) ℓ) (q : PosShare TreeShare) :
    (ℓ ↦[I]{q} f : sProp 𝕄) = bigSep Finset.univ fun t : Fin 64 => ℓ ↦[I]{lq q t} f :=
  pointsTo_leaves I f 6 q

omit m d L in
/-- Copy `t`'s part `K t` of a buffer at leaf `t`, for every `t`, together with what each leaf holds outside its part:
    the buffer at the share. -/
theorem leaves_join (ℓ : Loc nD τ sig) (f : Buf (Elt F) ℓ) (q : PosShare TreeShare) (K : Fin 64 → Finset (Idx ℓ)) :
    (iprop(bigSep Finset.univ (fun t : Fin 64 => ℓ ↦[K t]{lq q t} f) ∗ bigSep Finset.univ (fun t : Fin 64 => ℓ ↦[Finset.univ \ K t]{lq q t} f)) : sProp 𝕄)
      = (ℓ ↦{q} f : sProp 𝕄) := by
  refine (bigSep_sep Finset.univ (fun t : Fin 64 => (ℓ ↦[K t]{lq q t} f : sProp 𝕄)) (fun t : Fin 64 => (ℓ ↦[Finset.univ \ K t]{lq q t} f : sProp 𝕄))).symm.trans ?_
  rw [leaves64 ℓ Finset.univ f q]
  refine bigSep_congr fun t _ => ?_
  have h : (ℓ ↦[Finset.univ]{lq q t} f : sProp 𝕄) ⊣⊢ iprop((ℓ ↦[K t]{lq q t} f) ∗ ℓ ↦[Finset.univ \ K t]{lq q t} f) :=
    pointsTo_split_subset (Finset.subset_univ (K t))
  exact (BI.equiv_iff.mp ⟨h.1, h.2⟩).symm

variable [FloatOps F]

/-! ## A drained chunk's deliveries, joined -/

/-- Parity 0: the 64 deliveries of each table's batch and what was kept aside are the two scratches whole at the
    gathered rows and the two tables at the chunk's share. -/
theorem deliv_join0 (c : Fin 8) (q : PosShare TreeShare) :
    iprop(bigSep Finset.univ (DR0 m d L c q) ∗ bigSep Finset.univ (DI0 m d L c q) ∗ bigSep Finset.univ (remOf m d L c q))
      ⊢ iprop(((b3).view.loc (thr d L) ↦{fullShare} gathered m d L (m (rLoc d)) c)
          ∗ ((b5).view.loc (thr d L) ↦{fullShare} gathered m d L (m (gLoc d)) c)
          ∗ ((rW).view.loc (thr d L) ↦{q} m (rLoc d)) ∗ ((gW).view.loc (thr d L) ↦{q} m (gLoc d))) := by
  have eR : bigSep Finset.univ (DR0 m d L c q)
      = iprop(bigSep Finset.univ (fun t : Fin 64 => (thr d L).loc cc0_scratch3 ↦[rowSet t]{fullShare} gathered m d L (m (rLoc d)) c)
          ∗ bigSep Finset.univ (fun t : Fin 64 => rLoc d ↦[trowSet (tRowOf m d L (posOf c t))]{lq q t} m (rLoc d))) :=
    (bigSep_congr fun t _ => by unfold DR0; rfl).trans (bigSep_sep _ _ _)
  have eI : bigSep Finset.univ (DI0 m d L c q)
      = iprop(bigSep Finset.univ (fun t : Fin 64 => (thr d L).loc cc0_scratch5 ↦[rowSet t]{fullShare} gathered m d L (m (gLoc d)) c)
          ∗ bigSep Finset.univ (fun t : Fin 64 => gLoc d ↦[trowSet (tRowOf m d L (posOf c t))]{lq q t} m (gLoc d))) :=
    (bigSep_congr fun t _ => by unfold DI0; rfl).trans (bigSep_sep _ _ _)
  have eM : bigSep Finset.univ (remOf m d L c q)
      = iprop(bigSep Finset.univ (fun t : Fin 64 => rLoc d ↦[Finset.univ \ trowSet (tRowOf m d L (posOf c t))]{lq q t} m (rLoc d))
          ∗ bigSep Finset.univ (fun t : Fin 64 => gLoc d ↦[Finset.univ \ trowSet (tRowOf m d L (posOf c t))]{lq q t} m (gLoc d))) :=
    (bigSep_congr fun t _ => by unfold remOf; rfl).trans (bigSep_sep _ _ _)
  rw [eR, eI, eM]
  iintro ⟨⟨H3, HR1⟩, ⟨H5, HG1⟩, HR2, HG2⟩
  isplitl [H3]; · iapply (Entails.of_eq (rows_split3 d L _).symm); iexact H3
  isplitl [H5]; · iapply (Entails.of_eq (rows_split5 d L _).symm); iexact H5
  isplitl [HR1 HR2]
  · iapply (Entails.of_eq (leaves_join (rLoc d) (m (rLoc d)) q fun t => trowSet (tRowOf m d L (posOf c t))))
    isplitl [HR1] <;> iassumption
  · iapply (Entails.of_eq (leaves_join (gLoc d) (m (gLoc d)) q fun t => trowSet (tRowOf m d L (posOf c t))))
    isplitl [HG1] <;> iassumption

/-- Parity 1: the 64 deliveries of each table's batch and what was kept aside are the two scratches whole at the
    gathered rows and the two tables at the chunk's share. -/
theorem deliv_join1 (c : Fin 8) (q : PosShare TreeShare) :
    iprop(bigSep Finset.univ (DR1 m d L c q) ∗ bigSep Finset.univ (DI1 m d L c q) ∗ bigSep Finset.univ (remOf m d L c q))
      ⊢ iprop(((b4).view.loc (thr d L) ↦{fullShare} gathered m d L (m (rLoc d)) c)
          ∗ ((b6).view.loc (thr d L) ↦{fullShare} gathered m d L (m (gLoc d)) c)
          ∗ ((rW).view.loc (thr d L) ↦{q} m (rLoc d)) ∗ ((gW).view.loc (thr d L) ↦{q} m (gLoc d))) := by
  have eR : bigSep Finset.univ (DR1 m d L c q)
      = iprop(bigSep Finset.univ (fun t : Fin 64 => (thr d L).loc cc0_scratch4 ↦[rowSet t]{fullShare} gathered m d L (m (rLoc d)) c)
          ∗ bigSep Finset.univ (fun t : Fin 64 => rLoc d ↦[trowSet (tRowOf m d L (posOf c t))]{lq q t} m (rLoc d))) :=
    (bigSep_congr fun t _ => by unfold DR1; rfl).trans (bigSep_sep _ _ _)
  have eI : bigSep Finset.univ (DI1 m d L c q)
      = iprop(bigSep Finset.univ (fun t : Fin 64 => (thr d L).loc cc0_scratch6 ↦[rowSet t]{fullShare} gathered m d L (m (gLoc d)) c)
          ∗ bigSep Finset.univ (fun t : Fin 64 => gLoc d ↦[trowSet (tRowOf m d L (posOf c t))]{lq q t} m (gLoc d))) :=
    (bigSep_congr fun t _ => by unfold DI1; rfl).trans (bigSep_sep _ _ _)
  have eM : bigSep Finset.univ (remOf m d L c q)
      = iprop(bigSep Finset.univ (fun t : Fin 64 => rLoc d ↦[Finset.univ \ trowSet (tRowOf m d L (posOf c t))]{lq q t} m (rLoc d))
          ∗ bigSep Finset.univ (fun t : Fin 64 => gLoc d ↦[Finset.univ \ trowSet (tRowOf m d L (posOf c t))]{lq q t} m (gLoc d))) :=
    (bigSep_congr fun t _ => by unfold remOf; rfl).trans (bigSep_sep _ _ _)
  rw [eR, eI, eM]
  iintro ⟨⟨H4, HR1⟩, ⟨H6, HG1⟩, HR2, HG2⟩
  isplitl [H4]; · iapply (Entails.of_eq (rows_split4 d L _).symm); iexact H4
  isplitl [H6]; · iapply (Entails.of_eq (rows_split6 d L _).symm); iexact H6
  isplitl [HR1 HR2]
  · iapply (Entails.of_eq (leaves_join (rLoc d) (m (rLoc d)) q fun t => trowSet (tRowOf m d L (posOf c t))))
    isplitl [HR1] <;> iassumption
  · iapply (Entails.of_eq (leaves_join (gLoc d) (m (gLoc d)) q fun t => trowSet (tRowOf m d L (posOf c t))))
    isplitl [HG1] <;> iassumption

end Cert.Proof.KI

end
-- ==== Proof.KI.Edges.lean ====
/-
  The loop invariants at their ends: what the tile holds when a loop is entered gives the invariant at trip 0, and the
  invariant after the last trip gives what the run goes on with. Pure separation logic: no program step.
-/
import proofs.«204629_g89326729822651_cont_sun_m_635_33_alg».proof.Proof.KI.Invs
import proofs.«204629_g89326729822651_cont_sun_m_635_33_alg».proof.Proof.KI.Join

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

/-! ## Parity 0 -/

omit [FloatOps F] in
/-- Entering the issue loop: the two batches allocated from their counters at zero, the tables' shares cut into the 64
    copies' leaves and the two scratches into their rows, nothing issued yet. -/
theorem fire_entry0 (c : Fin 8) (q : PosShare TreeShare) (fI : Buf (Elt F) ((thr d L).loc cc0_scratch0))
    (fr : Buf (Elt F) ((thr d L).loc cc0_scratch3)) (fi : Buf (Elt F) ((thr d L).loc cc0_scratch5)) :
    iprop(((b0).view.loc (thr d L) ↦{fullShare} fI) ∗ ((rW).view.loc (thr d L) ↦{q} m (rLoc d)) ∗ ((gW).view.loc (thr d L) ↦{q} m (gLoc d))
        ∗ ((b3).view.loc (thr d L) ↦{fullShare} fr) ∗ ((b5).view.loc (thr d L) ↦{fullShare} fi)
        ∗ semVal (thr d L, SemLoc.dma cc0_scratch11.sem) 0 ∗ semVal (thr d L, SemLoc.dma cc0_scratch13.sem) 0)
      ⊢ |={Set.univ}=> fireInv0 m d L c q fI fr fi 0 () := by
  unfold fireInv0
  rw [Transfers.pending_zero, Transfers.issued_zero, bigSep_empty, bigSep_sep', bigSep_sep', bigSep_sep',
    ← leaves64 (rLoc d) Finset.univ (m (rLoc d)) q, ← leaves64 (gLoc d) Finset.univ (m (gLoc d)) q, ← rows_split3 d L fr, ← rows_split5 d L fi]
  show iprop(((b0).view.loc (thr d L) ↦{fullShare} fI) ∗ (rLoc d ↦{q} m (rLoc d)) ∗ (gLoc d ↦{q} m (gLoc d))
        ∗ ((thr d L).loc cc0_scratch3 ↦{fullShare} fr) ∗ ((thr d L).loc cc0_scratch5 ↦{fullShare} fi)
        ∗ semVal (thr d L, SemLoc.dma cc0_scratch11.sem) 0 ∗ semVal (thr d L, SemLoc.dma cc0_scratch13.sem) 0) ⊢ _
  iintro ⟨HI, Hr, Hg, H3, H5, Hs1, Hs2⟩
  imod (Transfers.batch_alloc' countersEmb (thr d L) (default : HIx 1) NR (DR0 m d L c q) (sm := .dma cc0_scratch11.sem) (E := Set.univ)) $$ Hs1 with HB1
  imod (Transfers.batch_alloc' countersEmb (thr d L) (default : HIx 1) NR (DI0 m d L c q) (sm := .dma cc0_scratch13.sem) (E := Set.univ)) $$ Hs2 with HB2
  imodintro
  isplitl [HI]; · iexact HI
  isplitl [HB1 HB2]
  · isplitl [HB1]; · iexact HB1
    iexact HB2
  isplitl [Hr Hg H3 H5]
  · isplitl [Hr]; · iexact Hr
    isplitl [Hg]; · iexact Hg
    isplitl [H3]; · iexact H3
    iexact H5
  iempintro

omit [FloatOps F] in
/-- Leaving the issue loop: every copy issued, what each left of its leaf kept for the drain. -/
theorem fire_exit0 (c : Fin 8) (q : PosShare TreeShare) (fI : Buf (Elt F) ((thr d L).loc cc0_scratch0))
    (fr : Buf (Elt F) ((thr d L).loc cc0_scratch3)) (fi : Buf (Elt F) ((thr d L).loc cc0_scratch5)) :
    fireInv0 m d L c q fI fr fi 64 ()
      ⊢ iprop(((b0).view.loc (thr d L) ↦{fullShare} fI) ∗ batches0 m d L c q 64 0 ∗ bigSep Finset.univ (remOf m d L c q)) := by
  unfold fireInv0
  rw [Transfers.issued_all (m := 64) (k := 64) rfl]
  iintro ⟨HI, HB, -, Hrem⟩
  isplitl [HI]; · iexact HI
  isplitl [HB]; · iexact HB
  iexact Hrem

omit [FloatOps F] in
/-- Entering the drain loop: nothing consumed yet. -/
theorem drain_entry0 (c : Fin 8) (q : PosShare TreeShare) (O : CellTallies nD τ sig (HIx 1)) (W W' : Waits sig (HIx 1))
    (hW : ∀ p ∈ W', p ∈ W ∨ p.2 = none) :
    iprop(Transfers.MayWaits (thr d L) (default : HIx 1) O ∗ owes (thr d L) O W' ∗ batches0 m d L c q 64 0)
      ⊢ drainInv0 m d L c q O W 0 () := by
  unfold drainInv0
  rw [if_pos (show (0 : ℕ) < 64 by decide), Nat.zero_mul]
  iintro ⟨Hmw, HO, HB⟩
  isplitl [Hmw]; · iexact Hmw
  isplitl [HO]
  · iexists W'; isplitr
    · ipureintro; exact hW
    · iexact HO
  iexact HB

omit [FloatOps F] in
/-- Leaving the drain loop: every delivery in hand, the two counters at zero. -/
theorem drain_exit0 (c : Fin 8) (q : PosShare TreeShare) (O : CellTallies nD τ sig (HIx 1)) (W : Waits sig (HIx 1)) :
    drainInv0 m d L c q O W 64 ()
      ⊢ iprop((∃ W', ⌜∀ p ∈ W', p ∈ W ∨ p.2 = none⌝ ∗ owes (thr d L) O W') ∗ bigSep Finset.univ (DR0 m d L c q) ∗ bigSep Finset.univ (DI0 m d L c q)
          ∗ semVal (thr d L, SemLoc.dma cc0_scratch11.sem) 0 ∗ semVal (thr d L, SemLoc.dma cc0_scratch13.sem) 0) := by
  unfold drainInv0
  rw [if_neg (show ¬ (64 : ℕ) < 64 by decide)]
  iintro ⟨-, HO, HD⟩
  isplitl [HO]; · iexact HO
  iexact HD

/-- Entering the compute loop: no row done yet. -/
theorem compute_entry0 (c : Fin 8) (fo : S64x128.Idx → F .f32) :
    iprop(((b1).view.loc (thr d L) ↦{fullShare} embChunk m d L c) ∗ ((b3).view.loc (thr d L) ↦{fullShare} gathered m d L (m (rLoc d)) c)
        ∗ ((b5).view.loc (thr d L) ↦{fullShare} gathered m d L (m (gLoc d)) c) ∗ ((b7).view.loc (thr d L) ↦{fullShare} fo))
      ⊢ computeInv0 m d L c 0 () := by
  unfold computeInv0
  iintro ⟨H1, H3, H5, H7⟩
  isplitl [H1]; · iexact H1
  isplitl [H3]; · iexact H3
  isplitl [H5]; · iexact H5
  iexists fo
  isplitl [H7]; · iexact H7
  ipureintro
  exact fun y hy => absurd hy (Nat.not_lt_zero _)

/-- Leaving the compute loop: every row done, the result scratch holds the chunk of the specification. -/
theorem compute_exit0 (c : Fin 8) :
    computeInv0 m d L c 64 ()
      ⊢ iprop(((b1).view.loc (thr d L) ↦{fullShare} embChunk m d L c) ∗ ((b3).view.loc (thr d L) ↦{fullShare} gathered m d L (m (rLoc d)) c)
          ∗ ((b5).view.loc (thr d L) ↦{fullShare} gathered m d L (m (gLoc d)) c) ∗ ((b7).view.loc (thr d L) ↦{fullShare} outChunk m d L c)) := by
  unfold computeInv0
  iintro ⟨H1, H3, H5, %fo, H7, %hfo⟩
  have e : fo = outChunk m d L c := funext fun y => hfo y (ValueIdx.idx2_lt0 y)
  subst e
  isplitl [H1]; · iexact H1
  isplitl [H3]; · iexact H3
  isplitl [H5]; · iexact H5
  iexact H7

/-! ## Parity 1 -/

omit [FloatOps F] in
/-- Entering the issue loop: the two batches allocated from their counters at zero, the tables' shares cut into the 64
    copies' leaves and the two scratches into their rows, nothing issued yet. -/
theorem fire_entry1 (c : Fin 8) (q : PosShare TreeShare) (fI : Buf (Elt F) ((thr d L).loc cc0_scratch0))
    (fr : Buf (Elt F) ((thr d L).loc cc0_scratch4)) (fi : Buf (Elt F) ((thr d L).loc cc0_scratch6)) :
    iprop(((b0).view.loc (thr d L) ↦{fullShare} fI) ∗ ((rW).view.loc (thr d L) ↦{q} m (rLoc d)) ∗ ((gW).view.loc (thr d L) ↦{q} m (gLoc d))
        ∗ ((b4).view.loc (thr d L) ↦{fullShare} fr) ∗ ((b6).view.loc (thr d L) ↦{fullShare} fi)
        ∗ semVal (thr d L, SemLoc.dma cc0_scratch12.sem) 0 ∗ semVal (thr d L, SemLoc.dma cc0_scratch14.sem) 0)
      ⊢ |={Set.univ}=> fireInv1 m d L c q fI fr fi 0 () := by
  unfold fireInv1
  rw [Transfers.pending_zero, Transfers.issued_zero, bigSep_empty, bigSep_sep', bigSep_sep', bigSep_sep',
    ← leaves64 (rLoc d) Finset.univ (m (rLoc d)) q, ← leaves64 (gLoc d) Finset.univ (m (gLoc d)) q, ← rows_split4 d L fr, ← rows_split6 d L fi]
  show iprop(((b0).view.loc (thr d L) ↦{fullShare} fI) ∗ (rLoc d ↦{q} m (rLoc d)) ∗ (gLoc d ↦{q} m (gLoc d))
        ∗ ((thr d L).loc cc0_scratch4 ↦{fullShare} fr) ∗ ((thr d L).loc cc0_scratch6 ↦{fullShare} fi)
        ∗ semVal (thr d L, SemLoc.dma cc0_scratch12.sem) 0 ∗ semVal (thr d L, SemLoc.dma cc0_scratch14.sem) 0) ⊢ _
  iintro ⟨HI, Hr, Hg, H3, H5, Hs1, Hs2⟩
  imod (Transfers.batch_alloc' countersEmb (thr d L) (default : HIx 1) NR (DR1 m d L c q) (sm := .dma cc0_scratch12.sem) (E := Set.univ)) $$ Hs1 with HB1
  imod (Transfers.batch_alloc' countersEmb (thr d L) (default : HIx 1) NR (DI1 m d L c q) (sm := .dma cc0_scratch14.sem) (E := Set.univ)) $$ Hs2 with HB2
  imodintro
  isplitl [HI]; · iexact HI
  isplitl [HB1 HB2]
  · isplitl [HB1]; · iexact HB1
    iexact HB2
  isplitl [Hr Hg H3 H5]
  · isplitl [Hr]; · iexact Hr
    isplitl [Hg]; · iexact Hg
    isplitl [H3]; · iexact H3
    iexact H5
  iempintro

omit [FloatOps F] in
/-- Leaving the issue loop: every copy issued, what each left of its leaf kept for the drain. -/
theorem fire_exit1 (c : Fin 8) (q : PosShare TreeShare) (fI : Buf (Elt F) ((thr d L).loc cc0_scratch0))
    (fr : Buf (Elt F) ((thr d L).loc cc0_scratch4)) (fi : Buf (Elt F) ((thr d L).loc cc0_scratch6)) :
    fireInv1 m d L c q fI fr fi 64 ()
      ⊢ iprop(((b0).view.loc (thr d L) ↦{fullShare} fI) ∗ batches1 m d L c q 64 0 ∗ bigSep Finset.univ (remOf m d L c q)) := by
  unfold fireInv1
  rw [Transfers.issued_all (m := 64) (k := 64) rfl]
  iintro ⟨HI, HB, -, Hrem⟩
  isplitl [HI]; · iexact HI
  isplitl [HB]; · iexact HB
  iexact Hrem

omit [FloatOps F] in
/-- Entering the drain loop: nothing consumed yet. -/
theorem drain_entry1 (c : Fin 8) (q : PosShare TreeShare) (O : CellTallies nD τ sig (HIx 1)) (W W' : Waits sig (HIx 1))
    (hW : ∀ p ∈ W', p ∈ W ∨ p.2 = none) :
    iprop(Transfers.MayWaits (thr d L) (default : HIx 1) O ∗ owes (thr d L) O W' ∗ batches1 m d L c q 64 0)
      ⊢ drainInv1 m d L c q O W 0 () := by
  unfold drainInv1
  rw [if_pos (show (0 : ℕ) < 64 by decide), Nat.zero_mul]
  iintro ⟨Hmw, HO, HB⟩
  isplitl [Hmw]; · iexact Hmw
  isplitl [HO]
  · iexists W'; isplitr
    · ipureintro; exact hW
    · iexact HO
  iexact HB

omit [FloatOps F] in
/-- Leaving the drain loop: every delivery in hand, the two counters at zero. -/
theorem drain_exit1 (c : Fin 8) (q : PosShare TreeShare) (O : CellTallies nD τ sig (HIx 1)) (W : Waits sig (HIx 1)) :
    drainInv1 m d L c q O W 64 ()
      ⊢ iprop((∃ W', ⌜∀ p ∈ W', p ∈ W ∨ p.2 = none⌝ ∗ owes (thr d L) O W') ∗ bigSep Finset.univ (DR1 m d L c q) ∗ bigSep Finset.univ (DI1 m d L c q)
          ∗ semVal (thr d L, SemLoc.dma cc0_scratch12.sem) 0 ∗ semVal (thr d L, SemLoc.dma cc0_scratch14.sem) 0) := by
  unfold drainInv1
  rw [if_neg (show ¬ (64 : ℕ) < 64 by decide)]
  iintro ⟨-, HO, HD⟩
  isplitl [HO]; · iexact HO
  iexact HD

/-- Entering the compute loop: no row done yet. -/
theorem compute_entry1 (c : Fin 8) (fo : S64x128.Idx → F .f32) :
    iprop(((b2).view.loc (thr d L) ↦{fullShare} embChunk m d L c) ∗ ((b4).view.loc (thr d L) ↦{fullShare} gathered m d L (m (rLoc d)) c)
        ∗ ((b6).view.loc (thr d L) ↦{fullShare} gathered m d L (m (gLoc d)) c) ∗ ((b8).view.loc (thr d L) ↦{fullShare} fo))
      ⊢ computeInv1 m d L c 0 () := by
  unfold computeInv1
  iintro ⟨H1, H3, H5, H7⟩
  isplitl [H1]; · iexact H1
  isplitl [H3]; · iexact H3
  isplitl [H5]; · iexact H5
  iexists fo
  isplitl [H7]; · iexact H7
  ipureintro
  exact fun y hy => absurd hy (Nat.not_lt_zero _)

/-- Leaving the compute loop: every row done, the result scratch holds the chunk of the specification. -/
theorem compute_exit1 (c : Fin 8) :
    computeInv1 m d L c 64 ()
      ⊢ iprop(((b2).view.loc (thr d L) ↦{fullShare} embChunk m d L c) ∗ ((b4).view.loc (thr d L) ↦{fullShare} gathered m d L (m (rLoc d)) c)
          ∗ ((b6).view.loc (thr d L) ↦{fullShare} gathered m d L (m (gLoc d)) c) ∗ ((b8).view.loc (thr d L) ↦{fullShare} outChunk m d L c)) := by
  unfold computeInv1
  iintro ⟨H1, H3, H5, %fo, H7, %hfo⟩
  have e : fo = outChunk m d L c := funext fun y => hfo y (ValueIdx.idx2_lt0 y)
  subst e
  isplitl [H1]; · iexact H1
  isplitl [H3]; · iexact H3
  isplitl [H5]; · iexact H5
  iexact H7

end Cert.Proof.KI

end
-- ==== Proof.KI.Landing.lean ====
/-
  What a plain copy leaves where it lands. The copy's payload is the source slice read off the source's contents;
  the destination after the copy is that payload written through the destination's view. Entry by entry:
  the index scratch's first 512 words are the tile's 512 row numbers; a batch scratch holds the chunk's 64 batch rows;
  the result array's chunk, after the result scratch at the chunk of the specification has been copied out, holds the
  specification's function there. And a tile's eight chunks, one by one.
-/
import proofs.«204629_g89326729822651_cont_sun_m_635_33_alg».proof.Proof.KI.Invs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

open Idealize.ShloMosaic.ValueIdx

/-! ## The index scratch -/

/-- After the 512-word copy into its first 512 words, word `j` of the index scratch is the tile's `j`-th row number. -/
theorem idx_landed (f0 : Buf (Elt F) ((thr d L).loc cc0_scratch0)) {off : Fin 1 → Nat} (hoff : off = ![R0 L])
    (inb : ∀ a, off a + S512.size a ≤ S16384.size a) (pay : S512.Idx → BitVec 32)
    (hpay : pay = ((iW).slice (Rect.unit (s := S16384) off S512.size inb) (fun _ => rfl)).view.read (Elt F) (m (iLoc d))) :
    IdxHolds m d L ((b0).view.writes (Elt F) f0 [⟨Rect.unit (s := S528) ![0] S512.size inb_S528_S512_0, pay⟩]) := by
  subst hoff hpay
  intro j
  have e1 : (ix1 (⟨j.val, by have := j.isLt; omega⟩ : Fin 528) : S528.Idx)
      = (Rect.unit (s := S528) ![0] S512.size inb_S528_S512_0).emb (ix1 j) := by
    funext a; apply Fin.ext
    match a with
    | ⟨0, _⟩ => show j.val = 0 + 1 * j.val; omega
  rw [e1]
  refine (View.read_writes_cons_emb (b0).view f0 (Rect.unit (s := S528) ![0] S512.size inb_S528_S512_0) _ [] (ix1 j)).trans ?_
  unfold idxW
  show (m (iLoc d)) _ = (m (iLoc d)) _
  congr 1
  funext a; apply Fin.ext
  match a with
  | ⟨0, _⟩ => show R0 L + 1 * j.val = R0 L + j.val; omega

/-! ## The batch scratches -/

/-- Entry `y` of the batch's 64 rows from row `R0 + 64 c` on is the chunk's. -/
theorem chunk_read (c : Fin 8) (inb : ∀ a, (![R0 L + 64 * c.val, 0] : Fin 2 → ℕ) a + S64x128.size a ≤ S16384x128.size a) :
    ((eW).slice (Rect.unit (s := S16384x128) ![R0 L + 64 * c.val, 0] S64x128.size inb) (fun _ => rfl)).view.read (Elt F) (m (eLoc d))
      = embChunk m d L c := by
  funext y
  unfold embChunk
  show (m (eLoc d)) _ = (m (eLoc d)) _
  congr 1
  funext a; apply Fin.ext
  match a with
  | ⟨0, _⟩ => show R0 L + 64 * c.val + 1 * (y 0).val = R0 L + (64 * c.val + (y 0).val); omega
  | ⟨1, _⟩ => show 0 + 1 * (y 1).val = (y 1).val; omega

/-- After the chunk's copy, the parity-0 batch scratch holds the chunk's 64 batch rows. -/
theorem emb_landed1 (c : Fin 8) (f1 : Buf (Elt F) ((thr d L).loc cc0_scratch1)) {off : Fin 2 → Nat} (hoff : off = ![R0 L + 64 * c.val, 0])
    (inb : ∀ a, off a + S64x128.size a ≤ S16384x128.size a) (pay : S64x128.Idx → F .f32)
    (hpay : pay = ((eW).slice (Rect.unit (s := S16384x128) off S64x128.size inb) (fun _ => rfl)).view.read (Elt F) (m (eLoc d))) :
    View.write (Elt F) (b1).view f1 pay Finset.univ = embChunk m d L c := by
  subst hoff hpay
  rw [chunk_read]
  exact View.write_whole_univ (Val := Elt F) cc0_scratch1 f1 _

/-- After the chunk's copy, the parity-1 batch scratch holds the chunk's 64 batch rows. -/
theorem emb_landed2 (c : Fin 8) (f1 : Buf (Elt F) ((thr d L).loc cc0_scratch2)) {off : Fin 2 → Nat} (hoff : off = ![R0 L + 64 * c.val, 0])
    (inb : ∀ a, off a + S64x128.size a ≤ S16384x128.size a) (pay : S64x128.Idx → F .f32)
    (hpay : pay = ((eW).slice (Rect.unit (s := S16384x128) off S64x128.size inb) (fun _ => rfl)).view.read (Elt F) (m (eLoc d))) :
    View.write (Elt F) (b2).view f1 pay Finset.univ = embChunk m d L c := by
  subst hoff hpay
  rw [chunk_read]
  exact View.write_whole_univ (Val := Elt F) cc0_scratch2 f1 _

/-! ## The result array's chunks -/

omit m d [FloatOps F] in
/-- The 64 rows of the result array from row `R0 + 64 k` on are the tile's chunk `k`. -/
theorem set_chunk (k : Fin 8) {off : Fin 2 → Nat} (hoff : off = ![R0 L + 64 * k.val, 0]) (inb : ∀ a, off a + S64x128.size a ≤ S16384x128.size a) :
    ((oW).slice (Rect.unit (s := S16384x128) off S64x128.size inb) (fun _ => rfl)).view.set = chunkSet (cL L) (sL L) k := by
  subst hoff; rfl

/-- On the chunk, the chunk of the specification written through the chunk's view is the specification's function. -/
theorem out_written (k : Fin 8) (g : Buf (Elt F) (oLoc d)) (inb : ∀ a, (![R0 L + 64 * k.val, 0] : Fin 2 → ℕ) a + S64x128.size a ≤ S16384x128.size a) :
    ∀ i ∈ chunkSet (cL L) (sL L) k,
      View.write (Elt F) ((oW).slice (Rect.unit (s := S16384x128) ![R0 L + 64 * k.val, 0] S64x128.size inb) (fun _ => rfl)).view g (outChunk m d L k) Finset.univ i
        = Gm m d i := by
  intro i hi
  rw [← set_chunk L k rfl inb] at hi
  obtain ⟨y, -, rfl⟩ := Finset.mem_map.mp hi
  rw [View.write_emb_of_mem _ _ (Finset.mem_univ y)]
  unfold outChunk
  show (Gm m d) _ = (Gm m d) _
  congr 1
  funext a; apply Fin.ext
  match a with
  | ⟨0, _⟩ => show R0 L + (64 * k.val + (y 0).val) = R0 L + 64 * k.val + 1 * (y 0).val; omega
  | ⟨1, _⟩ => show (y 1).val = 0 + 1 * (y 1).val; omega

/-- After the parity-0 result scratch, at the chunk of the specification, has been copied out, the result array's
    chunk holds the specification's function. -/
theorem out_landed7 (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        View.write (Elt F) ((oW).slice (Rect.unit (s := S16384x128) off S64x128.size inb) (fun _ => rfl)).view g pay Finset.univ : sProp 𝕄)
      = (oLoc d ↦[chunkSet (cL L) (sL L) k]{fullShare} Gm m d) := by
  subst hoff hpay
  rw [set_chunk L k rfl inb]
  exact pointsTo_congr (out_written m d L k g inb)

/-- The same for the parity-1 result scratch. -/
theorem out_landed8 (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        View.write (Elt F) ((oW).slice (Rect.unit (s := S16384x128) off S64x128.size inb) (fun _ => rfl)).view g pay Finset.univ : sProp 𝕄)
      = (oLoc d ↦[chunkSet (cL L) (sL L) k]{fullShare} Gm m d) := by
  subst hoff hpay
  rw [set_chunk L k rfl inb]
  exact pointsTo_congr (out_written m d L k g inb)

/-- The same with the chunk restated as one listed write, covering the slice, over arbitrary prior contents: on the
    chunk the prior contents do not matter. -/
theorem out_landed7J [∀ e, Nonempty (Elt F e)] (k : Fin 8) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) ((oW).slice (Rect.unit (s := S16384x128) off S64x128.size inb) (fun _ => rfl)).view.junk
          [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view ((oW).slice (Rect.unit (s := S16384x128) off S64x128.size inb) (fun _ => rfl)).view.junk [] pay
  exact (congrArg (fun g => (oLoc d ↦[((oW).slice (Rect.unit (s := S16384x128) off S64x128.size inb) (fun _ => rfl)).view.set]{fullShare} g : sProp 𝕄)) e.symm).trans
    (out_landed7 m d L k ((oW).slice (Rect.unit (s := S16384x128) off S64x128.size inb) (fun _ => rfl)).view.junk hoff inb pay hpay)

/-- The same with the chunk restated as one listed write, covering the slice, over arbitrary prior contents: on the
    chunk the prior contents do not matter. -/
theorem out_landed8J [∀ e, Nonempty (Elt F e)] (k : Fin 8) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) ((oW).slice (Rect.unit (s := S16384x128) off S64x128.size inb) (fun _ => rfl)).view.junk
          [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view ((oW).slice (Rect.unit (s := S16384x128) off S64x128.size inb) (fun _ => rfl)).view.junk [] pay
  exact (congrArg (fun g => (oLoc d ↦[((oW).slice (Rect.unit (s := S16384x128) off S64x128.size inb) (fun _ => rfl)).view.set]{fullShare} g : sProp 𝕄)) e.symm).trans
    (out_landed8 m d L k ((oW).slice (Rect.unit (s := S16384x128) off S64x128.size inb) (fun _ => rfl)).view.junk hoff inb pay hpay)

omit m [FloatOps F] in
/-- A tile's eight chunks, one by one. -/
theorem chunks_split (f : Buf (Elt F) (oLoc d)) :
    (chunksAt d (cL L) (sL L) f : sProp 𝕄)
      = iprop((oLoc d ↦[chunkSet (cL L) (sL L) 0]{fullShare} f) ∗ (oLoc d ↦[chunkSet (cL L) (sL L) 1]{fullShare} f)
          ∗ (oLoc d ↦[chunkSet (cL L) (sL L) 2]{fullShare} f) ∗ (oLoc d ↦[chunkSet (cL L) (sL L) 3]{fullShare} f)
          ∗ (oLoc d ↦[chunkSet (cL L) (sL L) 4]{fullShare} f) ∗ (oLoc d ↦[chunkSet (cL L) (sL L) 5]{fullShare} f)
          ∗ (oLoc d ↦[chunkSet (cL L) (sL L) 6]{fullShare} f) ∗ (oLoc d ↦[chunkSet (cL L) (sL L) 7]{fullShare} f)) :=
  Idealize.SL.BI.bigSep_univ_eq_bigSepL [0, 1, 2, 3, 4, 5, 6, 7] (by decide) (by decide)
    (fun k : Fin 8 => (oLoc d ↦[chunkSet (cL L) (sL L) k]{fullShare} f : sProp 𝕄))

end Cert.Proof.KI

end
-- ==== Proof.KI.BodyLemmas.lean ====
/-
  Small facts the tile's run uses between its loops: each array and scratch restated as the program addresses it, each
  result chunk as the program slices it, the closed form of the chunks' offsets, and the bookkeeping of the waits
  recorded beside what the tile owes the launch (every wait the tile makes is at the launch's index `none`).
-/
import proofs.«204629_g89326729822651_cont_sun_m_635_33_alg».proof.Proof.KI.Edges
import proofs.«204629_g89326729822651_cont_sun_m_635_33_alg».proof.Proof.KI.Landing

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)

section Pts
theorem pts_e (q : PosShare TreeShare) (f : Buf (Elt F) (eLoc d)) : ((eW).view.loc (thr d L) ↦{q} f : sProp 𝕄) = eLoc d ↦{q} f := rfl
theorem pts_i (q : PosShare TreeShare) (f : Buf (Elt F) (iLoc d)) : ((iW).view.loc (thr d L) ↦{q} f : sProp 𝕄) = iLoc d ↦{q} f := rfl
theorem pts_r (q : PosShare TreeShare) (f : Buf (Elt F) (rLoc d)) : ((rW).view.loc (thr d L) ↦{q} f : sProp 𝕄) = rLoc d ↦{q} f := rfl
theorem pts_g (q : PosShare TreeShare) (f : Buf (Elt F) (gLoc d)) : ((gW).view.loc (thr d L) ↦{q} f : sProp 𝕄) = gLoc d ↦{q} f := rfl
theorem pts_b0 (f : Buf (Elt F) ((thr d L).loc cc0_scratch0)) : ((b0).view.loc (thr d L) ↦{fullShare} f : sProp 𝕄) = (thr d L).loc cc0_scratch0 ↦{fullShare} f := rfl
theorem pts_b1 (f : Buf (Elt F) ((thr d L).loc cc0_scratch1)) : ((b1).view.loc (thr d L) ↦{fullShare} f : sProp 𝕄) = (thr d L).loc cc0_scratch1 ↦{fullShare} f := rfl
theorem pts_b2 (f : Buf (Elt F) ((thr d L).loc cc0_scratch2)) : ((b2).view.loc (thr d L) ↦{fullShare} f : sProp 𝕄) = (thr d L).loc cc0_scratch2 ↦{fullShare} f := rfl
theorem pts_b3 (f : Buf (Elt F) ((thr d L).loc cc0_scratch3)) : ((b3).view.loc (thr d L) ↦{fullShare} f : sProp 𝕄) = (thr d L).loc cc0_scratch3 ↦{fullShare} f := rfl
theorem pts_b4 (f : Buf (Elt F) ((thr d L).loc cc0_scratch4)) : ((b4).view.loc (thr d L) ↦{fullShare} f : sProp 𝕄) = (thr d L).loc cc0_scratch4 ↦{fullShare} f := rfl
theorem pts_b5 (f : Buf (Elt F) ((thr d L).loc cc0_scratch5)) : ((b5).view.loc (thr d L) ↦{fullShare} f : sProp 𝕄) = (thr d L).loc cc0_scratch5 ↦{fullShare} f := rfl
theorem pts_b6 (f : Buf (Elt F) ((thr d L).loc cc0_scratch6)) : ((b6).view.loc (thr d L) ↦{fullShare} f : sProp 𝕄) = (thr d L).loc cc0_scratch6 ↦{fullShare} f := rfl
theorem pts_b7 (f : Buf (Elt F) ((thr d L).loc cc0_scratch7)) : ((b7).view.loc (thr d L) ↦{fullShare} f : sProp 𝕄) = (thr d L).loc cc0_scratch7 ↦{fullShare} f := rfl
theorem pts_b8 (f : Buf (Elt F) ((thr d L).loc cc0_scratch8)) : ((b8).view.loc (thr d L) ↦{fullShare} f : sProp 𝕄) = (thr d L).loc cc0_scratch8 ↦{fullShare} f := rfl
end Pts

theorem lt8_0 : (0 : ℕ) < 8 := by decide
theorem lt8_1 : (1 : ℕ) < 8 := by decide
theorem lt8_2 : (2 : ℕ) < 8 := by decide
theorem lt8_3 : (3 : ℕ) < 8 := by decide
theorem lt8_4 : (4 : ℕ) < 8 := by decide
theorem lt8_5 : (5 : ℕ) < 8 := by decide
theorem lt8_6 : (6 : ℕ) < 8 := by decide
theorem lt8_7 : (7 : ℕ) < 8 := by decide

/-- The offsets of chunk `k` of the tile, as the program computes them, in closed form. -/
theorem hoff2 (k : Fin 8) : k0_off2 L (BitVec.ofNat 32 (64 * k.val)) = ![R0 L + 64 * k.val, 0] := by
  rw [k0_off2_eq L k]; rfl

/-- Result chunk 0 of the tile, held by exactly the elements of the program's slice of it. -/
theorem pts_c0 (f : Buf (Elt F) (oLoc d)) :
    ((((oW).slice (Rect.unit (s := S16384x128) (k0_off2 L 0#32) S64x128.size (k0_off2_inb L 0)) (fun _ => rfl)).view.loc (thr d L))
        ↦[((oW).slice (Rect.unit (s := S16384x128) (k0_off2 L 0#32) S64x128.size (k0_off2_inb L 0)) (fun _ => rfl)).view.set]{fullShare} f : sProp 𝕄)
      = (oLoc d ↦[chunkSet (cL L) (sL L) 0]{fullShare} f) := by
  exact congrArg (fun S => (oLoc d ↦[S]{fullShare} f : sProp 𝕄)) (set_chunk L 0 (hoff2 L 0) (k0_off2_inb L 0))

/-- Result chunk 1 of the tile, held by exactly the elements of the program's slice of it. -/
theorem pts_c1 (f : Buf (Elt F) (oLoc d)) :
    ((((oW).slice (Rect.unit (s := S16384x128) (k0_off2 L 64#32) S64x128.size (k0_off2_inb L 1)) (fun _ => rfl)).view.loc (thr d L))
        ↦[((oW).slice (Rect.unit (s := S16384x128) (k0_off2 L 64#32) S64x128.size (k0_off2_inb L 1)) (fun _ => rfl)).view.set]{fullShare} f : sProp 𝕄)
      = (oLoc d ↦[chunkSet (cL L) (sL L) 1]{fullShare} f) := by
  exact congrArg (fun S => (oLoc d ↦[S]{fullShare} f : sProp 𝕄)) (set_chunk L 1 (hoff2 L 1) (k0_off2_inb L 1))

/-- Result chunk 2 of the tile, held by exactly the elements of the program's slice of it. -/
theorem pts_c2 (f : Buf (Elt F) (oLoc d)) :
    ((((oW).slice (Rect.unit (s := S16384x128) (k0_off2 L 128#32) S64x128.size (k0_off2_inb L 2)) (fun _ => rfl)).view.loc (thr d L))
        ↦[((oW).slice (Rect.unit (s := S16384x128) (k0_off2 L 128#32) S64x128.size (k0_off2_inb L 2)) (fun _ => rfl)).view.set]{fullShare} f : sProp 𝕄)
      = (oLoc d ↦[chunkSet (cL L) (sL L) 2]{fullShare} f) := by
  exact congrArg (fun S => (oLoc d ↦[S]{fullShare} f : sProp 𝕄)) (set_chunk L 2 (hoff2 L 2) (k0_off2_inb L 2))

/-- Result chunk 3 of the tile, held by exactly the elements of the program's slice of it. -/
theorem pts_c3 (f : Buf (Elt F) (oLoc d)) :
    ((((oW).slice (Rect.unit (s := S16384x128) (k0_off2 L 192#32) S64x128.size (k0_off2_inb L 3)) (fun _ => rfl)).view.loc (thr d L))
        ↦[((oW).slice (Rect.unit (s := S16384x128) (k0_off2 L 192#32) S64x128.size (k0_off2_inb L 3)) (fun _ => rfl)).view.set]{fullShare} f : sProp 𝕄)
      = (oLoc d ↦[chunkSet (cL L) (sL L) 3]{fullShare} f) := by
  exact congrArg (fun S => (oLoc d ↦[S]{fullShare} f : sProp 𝕄)) (set_chunk L 3 (hoff2 L 3) (k0_off2_inb L 3))

/-- Result chunk 4 of the tile, held by exactly the elements of the program's slice of it. -/
theorem pts_c4 (f : Buf (Elt F) (oLoc d)) :
    ((((oW).slice (Rect.unit (s := S16384x128) (k0_off2 L 256#32) S64x128.size (k0_off2_inb L 4)) (fun _ => rfl)).view.loc (thr d L))
        ↦[((oW).slice (Rect.unit (s := S16384x128) (k0_off2 L 256#32) S64x128.size (k0_off2_inb L 4)) (fun _ => rfl)).view.set]{fullShare} f : sProp 𝕄)
      = (oLoc d ↦[chunkSet (cL L) (sL L) 4]{fullShare} f) := by
  exact congrArg (fun S => (oLoc d ↦[S]{fullShare} f : sProp 𝕄)) (set_chunk L 4 (hoff2 L 4) (k0_off2_inb L 4))

/-- Result chunk 5 of the tile, held by exactly the elements of the program's slice of it. -/
theorem pts_c5 (f : Buf (Elt F) (oLoc d)) :
    ((((oW).slice (Rect.unit (s := S16384x128) (k0_off2 L 320#32) S64x128.size (k0_off2_inb L 5)) (fun _ => rfl)).view.loc (thr d L))
        ↦[((oW).slice (Rect.unit (s := S16384x128) (k0_off2 L 320#32) S64x128.size (k0_off2_inb L 5)) (fun _ => rfl)).view.set]{fullShare} f : sProp 𝕄)
      = (oLoc d ↦[chunkSet (cL L) (sL L) 5]{fullShare} f) := by
  exact congrArg (fun S => (oLoc d ↦[S]{fullShare} f : sProp 𝕄)) (set_chunk L 5 (hoff2 L 5) (k0_off2_inb L 5))

/-- Result chunk 6 of the tile, held by exactly the elements of the program's slice of it. -/
theorem pts_c6 (f : Buf (Elt F) (oLoc d)) :
    ((((oW).slice (Rect.unit (s := S16384x128) (k0_off2 L 384#32) S64x128.size (k0_off2_inb L 6)) (fun _ => rfl)).view.loc (thr d L))
        ↦[((oW).slice (Rect.unit (s := S16384x128) (k0_off2 L 384#32) S64x128.size (k0_off2_inb L 6)) (fun _ => rfl)).view.set]{fullShare} f : sProp 𝕄)
      = (oLoc d ↦[chunkSet (cL L) (sL L) 6]{fullShare} f) := by
  exact congrArg (fun S => (oLoc d ↦[S]{fullShare} f : sProp 𝕄)) (set_chunk L 6 (hoff2 L 6) (k0_off2_inb L 6))

/-- Result chunk 7 of the tile, held by exactly the elements of the program's slice of it. -/
theorem pts_c7 (f : Buf (Elt F) (oLoc d)) :
    ((((oW).slice (Rect.unit (s := S16384x128) (k0_off2 L 448#32) S64x128.size (k0_off2_inb L 7)) (fun _ => rfl)).view.loc (thr d L))
        ↦[((oW).slice (Rect.unit (s := S16384x128) (k0_off2 L 448#32) S64x128.size (k0_off2_inb L 7)) (fun _ => rfl)).view.set]{fullShare} f : sProp 𝕄)
      = (oLoc d ↦[chunkSet (cL L) (sL L) 7]{fullShare} f) := by
  exact congrArg (fun S => (oLoc d ↦[S]{fullShare} f : sProp 𝕄)) (set_chunk L 7 (hoff2 L 7) (k0_off2_inb L 7))

/-- A wait at the launch's index `none` keeps the recorded waits within what the launch allows. -/
theorem okW_ins {W Wc : Waits sig (HIx 1)} (s : SemLoc sig) (h : ∀ p ∈ Wc, p ∈ W ∨ p.2 = none) :
    ∀ p ∈ insert (s, (default : HIx 1)) Wc, p ∈ W ∨ p.2 = none := by
  intro p hp
  rcases Finset.mem_insert.mp hp with rfl | hp
  · exact .inr rfl
  · exact h p hp

variable [FloatOps F]

/-- The drain invariant's entry from the packed record of waits. -/
theorem drain_entryX0 (c : Fin 8) (q : PosShare TreeShare) (O : CellTallies nD τ sig (HIx 1)) (W : Waits sig (HIx 1)) :
    iprop(Transfers.MayWaits (thr d L) (default : HIx 1) O ∗ (∃ W', ⌜∀ p ∈ W', p ∈ W ∨ p.2 = none⌝ ∗ owes (thr d L) O W') ∗ batches0 m d L c q 64 0)
      ⊢ drainInv0 m d L c q O W 0 () := by
  iintro ⟨Hmw, ⟨%W', %hW, HO⟩, HB⟩
  iapply (drain_entry0 m d L c q O W W' hW)
  isplitl [Hmw]; · iexact Hmw
  isplitl [HO]; · iexact HO
  iexact HB
theorem drain_entryX1 (c : Fin 8) (q : PosShare TreeShare) (O : CellTallies nD τ sig (HIx 1)) (W : Waits sig (HIx 1)) :
    iprop(Transfers.MayWaits (thr d L) (default : HIx 1) O ∗ (∃ W', ⌜∀ p ∈ W', p ∈ W ∨ p.2 = none⌝ ∗ owes (thr d L) O W') ∗ batches1 m d L c q 64 0)
      ⊢ drainInv1 m d L c q O W 0 () := by
  iintro ⟨Hmw, ⟨%W', %hW, HO⟩, HB⟩
  iapply (drain_entry1 m d L c q O W W' hW)
  isplitl [Hmw]; · iexact Hmw
  isplitl [HO]; · iexact HO
  iexact HB

/-- The three exits at any trip count equal to 64 and any unit. -/
theorem fire_exit0' (c : Fin 8) (q : PosShare TreeShare) (fI : Buf (Elt F) ((thr d L).loc cc0_scratch0))
    (fr : Buf (Elt F) ((thr d L).loc cc0_scratch3)) (fi : Buf (Elt F) ((thr d L).loc cc0_scratch5)) (n : ℕ) (hn : n = 64) (a : PUnit) :
    fireInv0 m d L c q fI fr fi n a
      ⊢ iprop(((b0).view.loc (thr d L) ↦{fullShare} fI) ∗ batches0 m d L c q 64 0 ∗ bigSep Finset.univ (remOf m d L c q)) := by
  subst hn; cases a; exact fire_exit0 m d L c q fI fr fi
theorem drain_exit0' (c : Fin 8) (q : PosShare TreeShare) (O : CellTallies nD τ sig (HIx 1)) (W : Waits sig (HIx 1)) (n : ℕ) (hn : n = 64) (a : PUnit) :
    drainInv0 m d L c q O W n a
      ⊢ iprop((∃ W', ⌜∀ p ∈ W', p ∈ W ∨ p.2 = none⌝ ∗ owes (thr d L) O W') ∗ bigSep Finset.univ (DR0 m d L c q) ∗ bigSep Finset.univ (DI0 m d L c q)
          ∗ semVal (thr d L, SemLoc.dma cc0_scratch11.sem) 0 ∗ semVal (thr d L, SemLoc.dma cc0_scratch13.sem) 0) := by
  subst hn; cases a; exact drain_exit0 m d L c q O W
theorem compute_exit0' (c : Fin 8) (n : ℕ) (hn : n = 64) (a : PUnit) :
    computeInv0 m d L c n a
      ⊢ iprop(((b1).view.loc (thr d L) ↦{fullShare} embChunk m d L c) ∗ ((b3).view.loc (thr d L) ↦{fullShare} gathered m d L (m (rLoc d)) c)
          ∗ ((b5).view.loc (thr d L) ↦{fullShare} gathered m d L (m (gLoc d)) c) ∗ ((b7).view.loc (thr d L) ↦{fullShare} outChunk m d L c)) := by
  subst hn; cases a; exact compute_exit0 m d L c

/-- The three exits at any trip count equal to 64 and any unit. -/
theorem fire_exit1' (c : Fin 8) (q : PosShare TreeShare) (fI : Buf (Elt F) ((thr d L).loc cc0_scratch0))
    (fr : Buf (Elt F) ((thr d L).loc cc0_scratch4)) (fi : Buf (Elt F) ((thr d L).loc cc0_scratch6)) (n : ℕ) (hn : n = 64) (a : PUnit) :
    fireInv1 m d L c q fI fr fi n a
      ⊢ iprop(((b0).view.loc (thr d L) ↦{fullShare} fI) ∗ batches1 m d L c q 64 0 ∗ bigSep Finset.univ (remOf m d L c q)) := by
  subst hn; cases a; exact fire_exit1 m d L c q fI fr fi
theorem drain_exit1' (c : Fin 8) (q : PosShare TreeShare) (O : CellTallies nD τ sig (HIx 1)) (W : Waits sig (HIx 1)) (n : ℕ) (hn : n = 64) (a : PUnit) :
    drainInv1 m d L c q O W n a
      ⊢ iprop((∃ W', ⌜∀ p ∈ W', p ∈ W ∨ p.2 = none⌝ ∗ owes (thr d L) O W') ∗ bigSep Finset.univ (DR1 m d L c q) ∗ bigSep Finset.univ (DI1 m d L c q)
          ∗ semVal (thr d L, SemLoc.dma cc0_scratch12.sem) 0 ∗ semVal (thr d L, SemLoc.dma cc0_scratch14.sem) 0) := by
  subst hn; cases a; exact drain_exit1 m d L c q O W
theorem compute_exit1' (c : Fin 8) (n : ℕ) (hn : n = 64) (a : PUnit) :
    computeInv1 m d L c n a
      ⊢ iprop(((b2).view.loc (thr d L) ↦{fullShare} embChunk m d L c) ∗ ((b4).view.loc (thr d L) ↦{fullShare} gathered m d L (m (rLoc d)) c)
          ∗ ((b6).view.loc (thr d L) ↦{fullShare} gathered m d L (m (gLoc d)) c) ∗ ((b8).view.loc (thr d L) ↦{fullShare} outChunk m d L c)) := by
  subst hn; cases a; exact compute_exit1 m d L c

/-- A result chunk left as one listed write covering the slice over any prior contents: on the chunk it holds the
    specification's function (the prior contents lie outside what the points-to speaks of). -/
theorem out_landed7W (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) g [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view g [] pay
  exact (congrArg (fun g => (oLoc d ↦[((oW).slice (Rect.unit (s := S16384x128) off S64x128.size inb) (fun _ => rfl)).view.set]{fullShare} g : sProp 𝕄)) e.symm).trans
    (out_landed7 m d L k g hoff inb pay hpay)

/-- A result chunk left as one listed write covering the slice over any prior contents: on the chunk it holds the
    specification's function (the prior contents lie outside what the points-to speaks of). -/
theorem out_landed8W (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) g [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view g [] pay
  exact (congrArg (fun g => (oLoc d ↦[((oW).slice (Rect.unit (s := S16384x128) off S64x128.size inb) (fun _ => rfl)).view.set]{fullShare} g : sProp 𝕄)) e.symm).trans
    (out_landed8 m d L k g hoff inb pay hpay)

/-! Every loop of the body has 64 trips. -/
theorem trips_t1 : Scf.trips k0_t1_loop.lb k0_t1_loop.ub k0_t1_loop.st = 64 := by decide +kernel
theorem trips_t2 : Scf.trips k0_t2_loop.lb k0_t2_loop.ub k0_t2_loop.st = 64 := by decide +kernel
theorem trips_t3 : Scf.trips k0_t3_loop.lb k0_t3_loop.ub k0_t3_loop.st = 64 := by decide +kernel
theorem trips_t4 : Scf.trips k0_t4_loop.lb k0_t4_loop.ub k0_t4_loop.st = 64 := by decide +kernel
theorem trips_t5 : Scf.trips k0_t5_loop.lb k0_t5_loop.ub k0_t5_loop.st = 64 := by decide +kernel
theorem trips_t6 : Scf.trips k0_t6_loop.lb k0_t6_loop.ub k0_t6_loop.st = 64 := by decide +kernel
theorem trips_t7 : Scf.trips k0_t7_loop.lb k0_t7_loop.ub k0_t7_loop.st = 64 := by decide +kernel
theorem trips_t8 : Scf.trips k0_t8_loop.lb k0_t8_loop.ub k0_t8_loop.st = 64 := by decide +kernel
theorem trips_t9 : Scf.trips k0_t9_loop.lb k0_t9_loop.ub k0_t9_loop.st = 64 := by decide +kernel
theorem trips_t10 : Scf.trips k0_t10_loop.lb k0_t10_loop.ub k0_t10_loop.st = 64 := by decide +kernel
theorem trips_t11 : Scf.trips k0_t11_loop.lb k0_t11_loop.ub k0_t11_loop.st = 64 := by decide +kernel
theorem trips_t12 : Scf.trips k0_t12_loop.lb k0_t12_loop.ub k0_t12_loop.st = 64 := by decide +kernel
theorem trips_t13 : Scf.trips k0_t13_loop.lb k0_t13_loop.ub k0_t13_loop.st = 64 := by decide +kernel
theorem trips_t14 : Scf.trips k0_t14_loop.lb k0_t14_loop.ub k0_t14_loop.st = 64 := by decide +kernel
theorem trips_t15 : Scf.trips k0_t15_loop.lb k0_t15_loop.ub k0_t15_loop.st = 64 := by decide +kernel
theorem trips_t16 : Scf.trips k0_t16_loop.lb k0_t16_loop.ub k0_t16_loop.st = 64 := by decide +kernel
theorem trips_t17 : Scf.trips k0_t17_loop.lb k0_t17_loop.ub k0_t17_loop.st = 64 := by decide +kernel
theorem trips_t18 : Scf.trips k0_t18_loop.lb k0_t18_loop.ub k0_t18_loop.st = 64 := by decide +kernel
theorem trips_t19 : Scf.trips k0_t19_loop.lb k0_t19_loop.ub k0_t19_loop.st = 64 := by decide +kernel
theorem trips_t20 : Scf.trips k0_t20_loop.lb k0_t20_loop.ub k0_t20_loop.st = 64 := by decide +kernel
theorem trips_t21 : Scf.trips k0_t21_loop.lb k0_t21_loop.ub k0_t21_loop.st = 64 := by decide +kernel
theorem trips_t22 : Scf.trips k0_t22_loop.lb k0_t22_loop.ub k0_t22_loop.st = 64 := by decide +kernel
theorem trips_t23 : Scf.trips k0_t23_loop.lb k0_t23_loop.ub k0_t23_loop.st = 64 := by decide +kernel
theorem trips_t24 : Scf.trips k0_t24_loop.lb k0_t24_loop.ub k0_t24_loop.st = 64 := by decide +kernel

end Cert.Proof.KI

end
-- ==== Proof.KI.FireLemmas.lean ====
/-
  Facts about one row copy of a chunk's gathers: the row of the scratch and the row of the table as the program
  slices them are the rows the batch's deliveries speak of, and what the copy delivers — the scratch row rewritten
  with the table row read — is the delivery stated for it: on that row the rewritten contents are the gathered
  function (entry (t, k) is the table at (the row the t-th batch row names, k)).
-/
import proofs.«204629_g89326729822651_cont_sun_m_635_33_alg».proof.Proof.KI.Invs
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

/-- A rule applied by hand leaves its continuation applied to the returned value. -/
theorem ret_bind' {E : Type → Type} {α β : Type} (a : α) (k : α → Prog E β) : (Prog.ret a).bind k = k a := rfl

theorem set_row_b3 (t : Fin 64) {off : Fin 2 → Nat} (h : off = ![t.val, 0]) (inb : ∀ a, off a + S1x64.size a ≤ S64x64.size a) :
    ((b3).slice (Rect.unit (s := S64x64) off S1x64.size inb) (fun _ => rfl)).view.set = rowSet t := by
  subst h; rfl

theorem set_row_b4 (t : Fin 64) {off : Fin 2 → Nat} (h : off = ![t.val, 0]) (inb : ∀ a, off a + S1x64.size a ≤ S64x64.size a) :
    ((b4).slice (Rect.unit (s := S64x64) off S1x64.size inb) (fun _ => rfl)).view.set = rowSet t := by
  subst h; rfl

theorem set_row_b5 (t : Fin 64) {off : Fin 2 → Nat} (h : off = ![t.val, 0]) (inb : ∀ a, off a + S1x64.size a ≤ S64x64.size a) :
    ((b5).slice (Rect.unit (s := S64x64) off S1x64.size inb) (fun _ => rfl)).view.set = rowSet t := by
  subst h; rfl

theorem set_row_b6 (t : Fin 64) {off : Fin 2 → Nat} (h : off = ![t.val, 0]) (inb : ∀ a, off a + S1x64.size a ≤ S64x64.size a) :
    ((b6).slice (Rect.unit (s := S64x64) off S1x64.size inb) (fun _ => rfl)).view.set = rowSet t := by
  subst h; rfl

theorem set_trow_r (r : Fin 1000000) {off : Fin 2 → Nat} (h : off = ![r.val, 0]) (inb : ∀ a, off a + S1x64.size a ≤ S1000000x64.size a) :
    ((rW).slice (Rect.unit (s := S1000000x64) off S1x64.size inb) (fun _ => rfl)).view.set = trowSet r := by
  subst h; rfl

theorem set_trow_g (r : Fin 1000000) {off : Fin 2 → Nat} (h : off = ![r.val, 0]) (inb : ∀ a, off a + S1x64.size a ≤ S1000000x64.size a) :
    ((gW).slice (Rect.unit (s := S1000000x64) off S1x64.size inb) (fun _ => rfl)).view.set = trowSet r := by
  subst h; rfl

theorem deliv_R0 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch3)) :
    iprop(((((b3).slice (Rect.unit (s := S64x64) offD S1x64.size inbD) (fun _ => rfl)).view.loc (thr d L))
            ↦[((b3).slice (Rect.unit (s := S64x64) offD S1x64.size inbD) (fun _ => rfl)).view.set]{fullShare}
              (((b3).slice (Rect.unit (s := S64x64) offD S1x64.size inbD) (fun _ => rfl)).view.write (Elt F) fd
                (ReadAs.same.apply (((rW).slice (Rect.unit (s := S1000000x64) offS S1x64.size inbS) (fun _ => rfl)).view.read (Elt F) (m (rLoc d)))) Finset.univ))
        ∗ ((((rW).slice (Rect.unit (s := S1000000x64) offS S1x64.size inbS) (fun _ => rfl)).view.loc (thr d L))
            ↦[((rW).slice (Rect.unit (s := S1000000x64) offS S1x64.size inbS) (fun _ => rfl)).view.set]{lq q t} m (rLoc d)))
      ⊢ DR0 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DR0
  rw [set_row_b3 t hoffD inbD, set_trow_r (tRowOf m d L (posOf c t)) hoffS' inbS]
  subst hoffD
  have h : ∀ i ∈ rowSet t,
      (View.write (Elt F) ((b3).slice (Rect.unit (s := S64x64) ![t.val, 0] S1x64.size inbD) (fun _ => rfl)).view fd
        (ReadAs.same.apply (View.read (Elt F) ((rW).slice (Rect.unit (s := S1000000x64) offS S1x64.size inbS) (fun _ => rfl)).view (m (rLoc d)))) Finset.univ) i
        = gathered m d L (m (rLoc d)) c i := by
    intro i hi
    obtain ⟨y, rfl⟩ := View.exists_emb_of_mem_set ((b3).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (rLoc d)) _ = (m (rLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_I0 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch5)) :
    iprop(((((b5).slice (Rect.unit (s := S64x64) offD S1x64.size inbD) (fun _ => rfl)).view.loc (thr d L))
            ↦[((b5).slice (Rect.unit (s := S64x64) offD S1x64.size inbD) (fun _ => rfl)).view.set]{fullShare}
              (((b5).slice (Rect.unit (s := S64x64) offD S1x64.size inbD) (fun _ => rfl)).view.write (Elt F) fd
                (ReadAs.same.apply (((gW).slice (Rect.unit (s := S1000000x64) offS S1x64.size inbS) (fun _ => rfl)).view.read (Elt F) (m (gLoc d)))) Finset.univ))
        ∗ ((((gW).slice (Rect.unit (s := S1000000x64) offS S1x64.size inbS) (fun _ => rfl)).view.loc (thr d L))
            ↦[((gW).slice (Rect.unit (s := S1000000x64) offS S1x64.size inbS) (fun _ => rfl)).view.set]{lq q t} m (gLoc d)))
      ⊢ DI0 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DI0
  rw [set_row_b5 t hoffD inbD, set_trow_g (tRowOf m d L (posOf c t)) hoffS' inbS]
  subst hoffD
  have h : ∀ i ∈ rowSet t,
      (View.write (Elt F) ((b5).slice (Rect.unit (s := S64x64) ![t.val, 0] S1x64.size inbD) (fun _ => rfl)).view fd
        (ReadAs.same.apply (View.read (Elt F) ((gW).slice (Rect.unit (s := S1000000x64) offS S1x64.size inbS) (fun _ => rfl)).view (m (gLoc d)))) Finset.univ) i
        = gathered m d L (m (gLoc d)) c i := by
    intro i hi
    obtain ⟨y, rfl⟩ := View.exists_emb_of_mem_set ((b5).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (gLoc d)) _ = (m (gLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_R1 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch4)) :
    iprop(((((b4).slice (Rect.unit (s := S64x64) offD S1x64.size inbD) (fun _ => rfl)).view.loc (thr d L))
            ↦[((b4).slice (Rect.unit (s := S64x64) offD S1x64.size inbD) (fun _ => rfl)).view.set]{fullShare}
              (((b4).slice (Rect.unit (s := S64x64) offD S1x64.size inbD) (fun _ => rfl)).view.write (Elt F) fd
                (ReadAs.same.apply (((rW).slice (Rect.unit (s := S1000000x64) offS S1x64.size inbS) (fun _ => rfl)).view.read (Elt F) (m (rLoc d)))) Finset.univ))
        ∗ ((((rW).slice (Rect.unit (s := S1000000x64) offS S1x64.size inbS) (fun _ => rfl)).view.loc (thr d L))
            ↦[((rW).slice (Rect.unit (s := S1000000x64) offS S1x64.size inbS) (fun _ => rfl)).view.set]{lq q t} m (rLoc d)))
      ⊢ DR1 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DR1
  rw [set_row_b4 t hoffD inbD, set_trow_r (tRowOf m d L (posOf c t)) hoffS' inbS]
  subst hoffD
  have h : ∀ i ∈ rowSet t,
      (View.write (Elt F) ((b4).slice (Rect.unit (s := S64x64) ![t.val, 0] S1x64.size inbD) (fun _ => rfl)).view fd
        (ReadAs.same.apply (View.read (Elt F) ((rW).slice (Rect.unit (s := S1000000x64) offS S1x64.size inbS) (fun _ => rfl)).view (m (rLoc d)))) Finset.univ) i
        = gathered m d L (m (rLoc d)) c i := by
    intro i hi
    obtain ⟨y, rfl⟩ := View.exists_emb_of_mem_set ((b4).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (rLoc d)) _ = (m (rLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_I1 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch6)) :
    iprop(((((b6).slice (Rect.unit (s := S64x64) offD S1x64.size inbD) (fun _ => rfl)).view.loc (thr d L))
            ↦[((b6).slice (Rect.unit (s := S64x64) offD S1x64.size inbD) (fun _ => rfl)).view.set]{fullShare}
              (((b6).slice (Rect.unit (s := S64x64) offD S1x64.size inbD) (fun _ => rfl)).view.write (Elt F) fd
                (ReadAs.same.apply (((gW).slice (Rect.unit (s := S1000000x64) offS S1x64.size inbS) (fun _ => rfl)).view.read (Elt F) (m (gLoc d)))) Finset.univ))
        ∗ ((((gW).slice (Rect.unit (s := S1000000x64) offS S1x64.size inbS) (fun _ => rfl)).view.loc (thr d L))
            ↦[((gW).slice (Rect.unit (s := S1000000x64) offS S1x64.size inbS) (fun _ => rfl)).view.set]{lq q t} m (gLoc d)))
      ⊢ DI1 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DI1
  rw [set_row_b6 t hoffD inbD, set_trow_g (tRowOf m d L (posOf c t)) hoffS' inbS]
  subst hoffD
  have h : ∀ i ∈ rowSet t,
      (View.write (Elt F) ((b6).slice (Rect.unit (s := S64x64) ![t.val, 0] S1x64.size inbD) (fun _ => rfl)).view fd
        (ReadAs.same.apply (View.read (Elt F) ((gW).slice (Rect.unit (s := S1000000x64) offS S1x64.size inbS) (fun _ => rfl)).view (m (gLoc d)))) Finset.univ) i
        = gathered m d L (m (gLoc d)) c i := by
    intro i hi
    obtain ⟨y, rfl⟩ := View.exists_emb_of_mem_set ((b6).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (gLoc d)) _ = (m (gLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

/-- The table row the program slices at the loaded word is the row the batch row names. -/
theorem trow_of_word_r (c : Fin 8) (t : Fin 64) (v : BitVec 32) (hv : v = idxW m d L (posOf c t)) (hlt : v.toNat < 1000000)
    {offS : Fin 2 → Nat} (hoffS : offS = ![v.toNat, 0]) (inbS : ∀ a, offS a + S1x64.size a ≤ S1000000x64.size a) :
    ((rW).slice (Rect.unit (s := S1000000x64) offS S1x64.size inbS) (fun _ => rfl)).view.set = trowSet (tRowOf m d L (posOf c t)) := by
  have hr : (tRowOf m d L (posOf c t)).val = v.toNat := by
    unfold tRowOf; rw [← hv]; exact Cert.Spec.rowOf_val_of_lt hlt
  exact set_trow_r (tRowOf m d L (posOf c t)) (by rw [hr]; exact hoffS) inbS

/-- The table row the program slices at the loaded word is the row the batch row names. -/
theorem trow_of_word_g (c : Fin 8) (t : Fin 64) (v : BitVec 32) (hv : v = idxW m d L (posOf c t)) (hlt : v.toNat < 1000000)
    {offS : Fin 2 → Nat} (hoffS : offS = ![v.toNat, 0]) (inbS : ∀ a, offS a + S1x64.size a ≤ S1000000x64.size a) :
    ((gW).slice (Rect.unit (s := S1000000x64) offS S1x64.size inbS) (fun _ => rfl)).view.set = trowSet (tRowOf m d L (posOf c t)) := by
  have hr : (tRowOf m d L (posOf c t)).val = v.toNat := by
    unfold tRowOf; rw [← hv]; exact Cert.Spec.rowOf_val_of_lt hlt
  exact set_trow_g (tRowOf m d L (posOf c t)) (by rw [hr]; exact hoffS) inbS

/-- A word below a million passes the program's check of the table row it names. -/
theorem chk_of_lt (v : BitVec 32) (hlt : v.toNat < 1000000) : ∀ a, (![v.toNat, 0] : Fin 2 → Nat) a + S1x64.size a ≤ S1000000x64.size a := by
  intro a; fin_cases a
  · show v.toNat + 1 ≤ 1000000; omega
  · show 0 + 64 ≤ 64; omega

end Cert.Proof.KI

end
-- ==== Proof.KI.Fire.lean ====
/-
  The issue loops of the eight chunks, one trip at a symbolic row `k`: the chunk's `k`-th row number is loaded from
  the index scratch, is in range, and names the table row both copies read; each copy is the `k`-th of its batch.
-/
import proofs.«204629_g89326729822651_cont_sun_m_635_33_alg».proof.Proof.KI.FireLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

set_option maxHeartbeats 4000000 in
/-- Trip `k` of chunk 0's issue loop: the word loaded is the chunk's `k`-th row number, in range by the
    precondition; the two row copies are the batches' `k`-th, each delivering what the batch states for it. -/
theorem fire_region_t1 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (k : Fin k0_t1_loop.trips) :
    fireInv0 m d L (⟨0, by decide⟩ : Fin 8) q fI fr fi k.val ()
      ⊢ wp frame (wpE (defs₀ (F := F)) 𝒱₀ (thr d L) none) Set.univ
          (k0_t1_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => fireInv0 m d L (⟨0, by decide⟩ : Fin 8) q fI fr fi (k.val + 1) acc) := by
  have hk : k.val < 64 := lt_of_lt_of_le k.isLt k0_t1_abs.2.1
  unfold k0_t1_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t1.sl.v128 d L fI k = idxW m d L (posOf (⟨0, by decide⟩ : Fin 8) ⟨k.val, hk⟩) := by
    refine Eq.trans ?_ (hI (posOf (⟨0, by decide⟩ : Fin 8) ⟨k.val, hk⟩))
    unfold fire_region_t1.sl.v128 k0_pay187 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off3_eq k
    fin_cases a
    show (k0_off3 k) 0 + 1 * 0 = 64 * 0 + k.val
    rw [h3]; show k.val + 1 * 0 = _; omega
  have hlt : (fire_region_t1.sl.v128 d L fI k).toNat < 1000000 := by
    rw [hv]; exact hpre d _
  have hchk : k0_chk1 (fire_region_t1.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off5 (fire_region_t1.sl.v128 d L fI k)) S1x64.size (k0_off5_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off6 k) S1x64.size (k0_off6_inb k)) (fun _ => rfl)).view.loc (thr d L)
          ↦[((b3).slice (Rect.unit (s := S64x64) (k0_off6 k) S1x64.size (k0_off6_inb k)) (fun _ => rfl)).view.set]{fullShare} fr
      from by rw [set_row_b3 ⟨k.val, hk⟩ (k0_off6_eq k) (k0_off6_inb k)])) $$ Hdr
  sl_exec
  iapply (Transfers.wp_dmaBatch countersEmb 𝒱₀ (thr d L) none
      (src := (rW).slice (Rect.unit (s := S1000000x64) (k0_off5 (fire_region_t1.sl.v128 d L fI k)) S1x64.size (k0_off5_inb _ hchk)) (fun _ => rfl))
      (dst := (b3).slice (Rect.unit (s := S64x64) (k0_off6 k) S1x64.size (k0_off6_inb k)) (fun _ => rfl))
      (default : HIx 1) NR rfl subset_rfl (D := DR0 m d L (⟨0, by decide⟩ : Fin 8) q) (j := k.val) (u := 0) hk (Nat.zero_le _)
      (deliv_R0 m d L (⟨0, by decide⟩ : Fin 8) q ⟨k.val, hk⟩ _ hv hlt (k0_off6_eq k) (k0_off6_inb k) rfl (k0_off5_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off5 (fire_region_t1.sl.v128 d L fI k)) S1x64.size (k0_off5_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off6 k) S1x64.size (k0_off6_inb k)) (fun _ => rfl)).view.loc (thr d L)
          ↦[((b5).slice (Rect.unit (s := S64x64) (k0_off6 k) S1x64.size (k0_off6_inb k)) (fun _ => rfl)).view.set]{fullShare} fi
      from by rw [set_row_b5 ⟨k.val, hk⟩ (k0_off6_eq k) (k0_off6_inb k)])) $$ Hdi
  iapply (Transfers.wp_dmaBatch countersEmb 𝒱₀ (thr d L) none
      (src := (gW).slice (Rect.unit (s := S1000000x64) (k0_off5 (fire_region_t1.sl.v128 d L fI k)) S1x64.size (k0_off5_inb _ hchk)) (fun _ => rfl))
      (dst := (b5).slice (Rect.unit (s := S64x64) (k0_off6 k) S1x64.size (k0_off6_inb k)) (fun _ => rfl))
      (default : HIx 1) NR rfl subset_rfl (D := DI0 m d L (⟨0, by decide⟩ : Fin 8) q) (j := k.val) (u := 0) hk (Nat.zero_le _)
      (deliv_I0 m d L (⟨0, by decide⟩ : Fin 8) q ⟨k.val, hk⟩ _ hv hlt (k0_off6_eq k) (k0_off6_inb k) rfl (k0_off5_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨0, by decide⟩ : Fin 8) q)
      = iprop(remOf m d L (⟨0, by decide⟩ : Fin 8) q ⟨k.val, hk⟩ ∗ bigSep (Transfers.issued (m := 64) k.val) (remOf m d L (⟨0, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨0, by decide⟩ : Fin 8) ⟨k.val, hk⟩ _ hv hlt rfl (k0_off5_inb _ hchk)
    have eG := trow_of_word_g m d L (⟨0, by decide⟩ : Fin 8) ⟨k.val, hk⟩ _ hv hlt rfl (k0_off5_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 1's issue loop: the word loaded is the (64·1 + k)-th, i.e. the chunk's `k`-th row number, in range by the
    precondition; the two row copies are the batches' `k`-th, each delivering what the batch states for it. -/
theorem fire_region_t2 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (k : Fin k0_t2_loop.trips) :
    fireInv1 m d L (⟨1, by decide⟩ : Fin 8) q fI fr fi k.val ()
      ⊢ wp frame (wpE (defs₀ (F := F)) 𝒱₀ (thr d L) none) Set.univ
          (k0_t2_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => fireInv1 m d L (⟨1, by decide⟩ : Fin 8) q fI fr fi (k.val + 1) acc) := by
  have hk : k.val < 64 := lt_of_lt_of_le k.isLt k0_t2_abs.2.1
  unfold k0_t2_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t2.sl.v128 d L fI k = idxW m d L (posOf (⟨1, by decide⟩ : Fin 8) ⟨k.val, hk⟩) := by
    refine Eq.trans ?_ (hI (posOf (⟨1, by decide⟩ : Fin 8) ⟨k.val, hk⟩))
    unfold fire_region_t2.sl.v128 k0_pay188 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off7_eq k
    fin_cases a
    show (k0_off7 k) 0 + 1 * 0 = 64 * 1 + k.val
    rw [h3]; show k.val + 64 + 1 * 0 = _; omega
  have hlt : (fire_region_t2.sl.v128 d L fI k).toNat < 1000000 := by
    rw [hv]; exact hpre d _
  have hchk : k0_chk2 (fire_region_t2.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off9 (fire_region_t2.sl.v128 d L fI k)) S1x64.size (k0_off9_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off10 k) S1x64.size (k0_off10_inb k)) (fun _ => rfl)).view.loc (thr d L)
          ↦[((b4).slice (Rect.unit (s := S64x64) (k0_off10 k) S1x64.size (k0_off10_inb k)) (fun _ => rfl)).view.set]{fullShare} fr
      from by rw [set_row_b4 ⟨k.val, hk⟩ (k0_off10_eq k) (k0_off10_inb k)])) $$ Hdr
  sl_exec
  iapply (Transfers.wp_dmaBatch countersEmb 𝒱₀ (thr d L) none
      (src := (rW).slice (Rect.unit (s := S1000000x64) (k0_off9 (fire_region_t2.sl.v128 d L fI k)) S1x64.size (k0_off9_inb _ hchk)) (fun _ => rfl))
      (dst := (b4).slice (Rect.unit (s := S64x64) (k0_off10 k) S1x64.size (k0_off10_inb k)) (fun _ => rfl))
      (default : HIx 1) NR rfl subset_rfl (D := DR1 m d L (⟨1, by decide⟩ : Fin 8) q) (j := k.val) (u := 0) hk (Nat.zero_le _)
      (deliv_R1 m d L (⟨1, by decide⟩ : Fin 8) q ⟨k.val, hk⟩ _ hv hlt (k0_off10_eq k) (k0_off10_inb k) rfl (k0_off9_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off9 (fire_region_t2.sl.v128 d L fI k)) S1x64.size (k0_off9_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off10 k) S1x64.size (k0_off10_inb k)) (fun _ => rfl)).view.loc (thr d L)
          ↦[((b6).slice (Rect.unit (s := S64x64) (k0_off10 k) S1x64.size (k0_off10_inb k)) (fun _ => rfl)).view.set]{fullShare} fi
      from by rw [set_row_b6 ⟨k.val, hk⟩ (k0_off10_eq k) (k0_off10_inb k)])) $$ Hdi
  iapply (Transfers.wp_dmaBatch countersEmb 𝒱₀ (thr d L) none
      (src := (gW).slice (Rect.unit (s := S1000000x64) (k0_off9 (fire_region_t2.sl.v128 d L fI k)) S1x64.size (k0_off9_inb _ hchk)) (fun _ => rfl))
      (dst := (b6).slice (Rect.unit (s := S64x64) (k0_off10 k) S1x64.size (k0_off10_inb k)) (fun _ => rfl))
      (default : HIx 1) NR rfl subset_rfl (D := DI1 m d L (⟨1, by decide⟩ : Fin 8) q) (j := k.val) (u := 0) hk (Nat.zero_le _)
      (deliv_I1 m d L (⟨1, by decide⟩ : Fin 8) q ⟨k.val, hk⟩ _ hv hlt (k0_off10_eq k) (k0_off10_inb k) rfl (k0_off9_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨1, by decide⟩ : Fin 8) q)
      = iprop(remOf m d L (⟨1, by decide⟩ : Fin 8) q ⟨k.val, hk⟩ ∗ bigSep (Transfers.issued (m := 64) k.val) (remOf m d L (⟨1, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨1, by decide⟩ : Fin 8) ⟨k.val, hk⟩ _ hv hlt rfl (k0_off9_inb _ hchk)
    have eG := trow_of_word_g m d L (⟨1, by decide⟩ : Fin 8) ⟨k.val, hk⟩ _ hv hlt rfl (k0_off9_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 2's issue loop: the word loaded is the (64·2 + k)-th, i.e. the chunk's `k`-th row number, in range by the
    precondition; the two row copies are the batches' `k`-th, each delivering what the batch states for it. -/
theorem fire_region_t5 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (c0_i32_18 : BitVec 32) (k : Fin k0_t5_loop.trips) :
    fireInv0 m d L (⟨2, by decide⟩ : Fin 8) q fI fr fi k.val ()
      ⊢ wp frame (wpE (defs₀ (F := F)) 𝒱₀ (thr d L) none) Set.univ
          (k0_t5_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => fireInv0 m d L (⟨2, by decide⟩ : Fin 8) q fI fr fi (k.val + 1) acc) := by
  have hk : k.val < 64 := lt_of_lt_of_le k.isLt k0_t5_abs.2.1
  unfold k0_t5_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t5.sl.v128 d L fI k = idxW m d L (posOf (⟨2, by decide⟩ : Fin 8) ⟨k.val, hk⟩) := by
    refine Eq.trans ?_ (hI (posOf (⟨2, by decide⟩ : Fin 8) ⟨k.val, hk⟩))
    unfold fire_region_t5.sl.v128 k0_pay191 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off24_eq k
    fin_cases a
    show (k0_off24 k) 0 + 1 * 0 = 64 * 2 + k.val
    rw [h3]; show k.val + 128 + 1 * 0 = _; omega
  have hlt : (fire_region_t5.sl.v128 d L fI k).toNat < 1000000 := by
    rw [hv]; exact hpre d _
  have hchk : k0_chk3 (fire_region_t5.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off26 (fire_region_t5.sl.v128 d L fI k)) S1x64.size (k0_off26_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off27 k) S1x64.size (k0_off27_inb k)) (fun _ => rfl)).view.loc (thr d L)
          ↦[((b3).slice (Rect.unit (s := S64x64) (k0_off27 k) S1x64.size (k0_off27_inb k)) (fun _ => rfl)).view.set]{fullShare} fr
      from by rw [set_row_b3 ⟨k.val, hk⟩ (k0_off27_eq k) (k0_off27_inb k)])) $$ Hdr
  sl_exec
  iapply (Transfers.wp_dmaBatch countersEmb 𝒱₀ (thr d L) none
      (src := (rW).slice (Rect.unit (s := S1000000x64) (k0_off26 (fire_region_t5.sl.v128 d L fI k)) S1x64.size (k0_off26_inb _ hchk)) (fun _ => rfl))
      (dst := (b3).slice (Rect.unit (s := S64x64) (k0_off27 k) S1x64.size (k0_off27_inb k)) (fun _ => rfl))
      (default : HIx 1) NR rfl subset_rfl (D := DR0 m d L (⟨2, by decide⟩ : Fin 8) q) (j := k.val) (u := 0) hk (Nat.zero_le _)
      (deliv_R0 m d L (⟨2, by decide⟩ : Fin 8) q ⟨k.val, hk⟩ _ hv hlt (k0_off27_eq k) (k0_off27_inb k) rfl (k0_off26_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off26 (fire_region_t5.sl.v128 d L fI k)) S1x64.size (k0_off26_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off27 k) S1x64.size (k0_off27_inb k)) (fun _ => rfl)).view.loc (thr d L)
          ↦[((b5).slice (Rect.unit (s := S64x64) (k0_off27 k) S1x64.size (k0_off27_inb k)) (fun _ => rfl)).view.set]{fullShare} fi
      from by rw [set_row_b5 ⟨k.val, hk⟩ (k0_off27_eq k) (k0_off27_inb k)])) $$ Hdi
  iapply (Transfers.wp_dmaBatch countersEmb 𝒱₀ (thr d L) none
      (src := (gW).slice (Rect.unit (s := S1000000x64) (k0_off26 (fire_region_t5.sl.v128 d L fI k)) S1x64.size (k0_off26_inb _ hchk)) (fun _ => rfl))
      (dst := (b5).slice (Rect.unit (s := S64x64) (k0_off27 k) S1x64.size (k0_off27_inb k)) (fun _ => rfl))
      (default : HIx 1) NR rfl subset_rfl (D := DI0 m d L (⟨2, by decide⟩ : Fin 8) q) (j := k.val) (u := 0) hk (Nat.zero_le _)
      (deliv_I0 m d L (⟨2, by decide⟩ : Fin 8) q ⟨k.val, hk⟩ _ hv hlt (k0_off27_eq k) (k0_off27_inb k) rfl (k0_off26_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨2, by decide⟩ : Fin 8) q)
      = iprop(remOf m d L (⟨2, by decide⟩ : Fin 8) q ⟨k.val, hk⟩ ∗ bigSep (Transfers.issued (m := 64) k.val) (remOf m d L (⟨2, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨2, by decide⟩ : Fin 8) ⟨k.val, hk⟩ _ hv hlt rfl (k0_off26_inb _ hchk)
    have eG := trow_of_word_g m d L (⟨2, by decide⟩ : Fin 8) ⟨k.val, hk⟩ _ hv hlt rfl (k0_off26_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 3's issue loop: the word loaded is the (64·3 + k)-th, i.e. the chunk's `k`-th row number, in range by the
    precondition; the two row copies are the batches' `k`-th, each delivering what the batch states for it. -/
theorem fire_region_t8 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t8_loop.trips) :
    fireInv1 m d L (⟨3, by decide⟩ : Fin 8) q fI fr fi k.val ()
      ⊢ wp frame (wpE (defs₀ (F := F)) 𝒱₀ (thr d L) none) Set.univ
          (k0_t8_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨3, by decide⟩ : Fin 8) q fI fr fi (k.val + 1) acc) := by
  have hk : k.val < 64 := lt_of_lt_of_le k.isLt k0_t8_abs.2.1
  unfold k0_t8_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t8.sl.v128 d L fI k = idxW m d L (posOf (⟨3, by decide⟩ : Fin 8) ⟨k.val, hk⟩) := by
    refine Eq.trans ?_ (hI (posOf (⟨3, by decide⟩ : Fin 8) ⟨k.val, hk⟩))
    unfold fire_region_t8.sl.v128 k0_pay194 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off41_eq k
    fin_cases a
    show (k0_off41 k) 0 + 1 * 0 = 64 * 3 + k.val
    rw [h3]; show k.val + 192 + 1 * 0 = _; omega
  have hlt : (fire_region_t8.sl.v128 d L fI k).toNat < 1000000 := by
    rw [hv]; exact hpre d _
  have hchk : k0_chk4 (fire_region_t8.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off43 (fire_region_t8.sl.v128 d L fI k)) S1x64.size (k0_off43_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off44 k) S1x64.size (k0_off44_inb k)) (fun _ => rfl)).view.loc (thr d L)
          ↦[((b4).slice (Rect.unit (s := S64x64) (k0_off44 k) S1x64.size (k0_off44_inb k)) (fun _ => rfl)).view.set]{fullShare} fr
      from by rw [set_row_b4 ⟨k.val, hk⟩ (k0_off44_eq k) (k0_off44_inb k)])) $$ Hdr
  sl_exec
  iapply (Transfers.wp_dmaBatch countersEmb 𝒱₀ (thr d L) none
      (src := (rW).slice (Rect.unit (s := S1000000x64) (k0_off43 (fire_region_t8.sl.v128 d L fI k)) S1x64.size (k0_off43_inb _ hchk)) (fun _ => rfl))
      (dst := (b4).slice (Rect.unit (s := S64x64) (k0_off44 k) S1x64.size (k0_off44_inb k)) (fun _ => rfl))
      (default : HIx 1) NR rfl subset_rfl (D := DR1 m d L (⟨3, by decide⟩ : Fin 8) q) (j := k.val) (u := 0) hk (Nat.zero_le _)
      (deliv_R1 m d L (⟨3, by decide⟩ : Fin 8) q ⟨k.val, hk⟩ _ hv hlt (k0_off44_eq k) (k0_off44_inb k) rfl (k0_off43_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off43 (fire_region_t8.sl.v128 d L fI k)) S1x64.size (k0_off43_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off44 k) S1x64.size (k0_off44_inb k)) (fun _ => rfl)).view.loc (thr d L)
          ↦[((b6).slice (Rect.unit (s := S64x64) (k0_off44 k) S1x64.size (k0_off44_inb k)) (fun _ => rfl)).view.set]{fullShare} fi
      from by rw [set_row_b6 ⟨k.val, hk⟩ (k0_off44_eq k) (k0_off44_inb k)])) $$ Hdi
  iapply (Transfers.wp_dmaBatch countersEmb 𝒱₀ (thr d L) none
      (src := (gW).slice (Rect.unit (s := S1000000x64) (k0_off43 (fire_region_t8.sl.v128 d L fI k)) S1x64.size (k0_off43_inb _ hchk)) (fun _ => rfl))
      (dst := (b6).slice (Rect.unit (s := S64x64) (k0_off44 k) S1x64.size (k0_off44_inb k)) (fun _ => rfl))
      (default : HIx 1) NR rfl subset_rfl (D := DI1 m d L (⟨3, by decide⟩ : Fin 8) q) (j := k.val) (u := 0) hk (Nat.zero_le _)
      (deliv_I1 m d L (⟨3, by decide⟩ : Fin 8) q ⟨k.val, hk⟩ _ hv hlt (k0_off44_eq k) (k0_off44_inb k) rfl (k0_off43_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨3, by decide⟩ : Fin 8) q)
      = iprop(remOf m d L (⟨3, by decide⟩ : Fin 8) q ⟨k.val, hk⟩ ∗ bigSep (Transfers.issued (m := 64) k.val) (remOf m d L (⟨3, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨3, by decide⟩ : Fin 8) ⟨k.val, hk⟩ _ hv hlt rfl (k0_off43_inb _ hchk)
    have eG := trow_of_word_g m d L (⟨3, by decide⟩ : Fin 8) ⟨k.val, hk⟩ _ hv hlt rfl (k0_off43_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 4's issue loop: the word loaded is the (64·4 + k)-th, i.e. the chunk's `k`-th row number, in range by the
    precondition; the two row copies are the batches' `k`-th, each delivering what the batch states for it. -/
theorem fire_region_t11 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (k : Fin k0_t11_loop.trips) :
    fireInv0 m d L (⟨4, by decide⟩ : Fin 8) q fI fr fi k.val ()
      ⊢ wp frame (wpE (defs₀ (F := F)) 𝒱₀ (thr d L) none) Set.univ
          (k0_t11_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv0 m d L (⟨4, by decide⟩ : Fin 8) q fI fr fi (k.val + 1) acc) := by
  have hk : k.val < 64 := lt_of_lt_of_le k.isLt k0_t11_abs.2.1
  unfold k0_t11_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t11.sl.v128 d L fI k = idxW m d L (posOf (⟨4, by decide⟩ : Fin 8) ⟨k.val, hk⟩) := by
    refine Eq.trans ?_ (hI (posOf (⟨4, by decide⟩ : Fin 8) ⟨k.val, hk⟩))
    unfold fire_region_t11.sl.v128 k0_pay197 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off58_eq k
    fin_cases a
    show (k0_off58 k) 0 + 1 * 0 = 64 * 4 + k.val
    rw [h3]; show k.val + 256 + 1 * 0 = _; omega
  have hlt : (fire_region_t11.sl.v128 d L fI k).toNat < 1000000 := by
    rw [hv]; exact hpre d _
  have hchk : k0_chk5 (fire_region_t11.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off60 (fire_region_t11.sl.v128 d L fI k)) S1x64.size (k0_off60_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off61 k) S1x64.size (k0_off61_inb k)) (fun _ => rfl)).view.loc (thr d L)
          ↦[((b3).slice (Rect.unit (s := S64x64) (k0_off61 k) S1x64.size (k0_off61_inb k)) (fun _ => rfl)).view.set]{fullShare} fr
      from by rw [set_row_b3 ⟨k.val, hk⟩ (k0_off61_eq k) (k0_off61_inb k)])) $$ Hdr
  sl_exec
  iapply (Transfers.wp_dmaBatch countersEmb 𝒱₀ (thr d L) none
      (src := (rW).slice (Rect.unit (s := S1000000x64) (k0_off60 (fire_region_t11.sl.v128 d L fI k)) S1x64.size (k0_off60_inb _ hchk)) (fun _ => rfl))
      (dst := (b3).slice (Rect.unit (s := S64x64) (k0_off61 k) S1x64.size (k0_off61_inb k)) (fun _ => rfl))
      (default : HIx 1) NR rfl subset_rfl (D := DR0 m d L (⟨4, by decide⟩ : Fin 8) q) (j := k.val) (u := 0) hk (Nat.zero_le _)
      (deliv_R0 m d L (⟨4, by decide⟩ : Fin 8) q ⟨k.val, hk⟩ _ hv hlt (k0_off61_eq k) (k0_off61_inb k) rfl (k0_off60_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off60 (fire_region_t11.sl.v128 d L fI k)) S1x64.size (k0_off60_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off61 k) S1x64.size (k0_off61_inb k)) (fun _ => rfl)).view.loc (thr d L)
          ↦[((b5).slice (Rect.unit (s := S64x64) (k0_off61 k) S1x64.size (k0_off61_inb k)) (fun _ => rfl)).view.set]{fullShare} fi
      from by rw [set_row_b5 ⟨k.val, hk⟩ (k0_off61_eq k) (k0_off61_inb k)])) $$ Hdi
  iapply (Transfers.wp_dmaBatch countersEmb 𝒱₀ (thr d L) none
      (src := (gW).slice (Rect.unit (s := S1000000x64) (k0_off60 (fire_region_t11.sl.v128 d L fI k)) S1x64.size (k0_off60_inb _ hchk)) (fun _ => rfl))
      (dst := (b5).slice (Rect.unit (s := S64x64) (k0_off61 k) S1x64.size (k0_off61_inb k)) (fun _ => rfl))
      (default : HIx 1) NR rfl subset_rfl (D := DI0 m d L (⟨4, by decide⟩ : Fin 8) q) (j := k.val) (u := 0) hk (Nat.zero_le _)
      (deliv_I0 m d L (⟨4, by decide⟩ : Fin 8) q ⟨k.val, hk⟩ _ hv hlt (k0_off61_eq k) (k0_off61_inb k) rfl (k0_off60_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨4, by decide⟩ : Fin 8) q)
      = iprop(remOf m d L (⟨4, by decide⟩ : Fin 8) q ⟨k.val, hk⟩ ∗ bigSep (Transfers.issued (m := 64) k.val) (remOf m d L (⟨4, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨4, by decide⟩ : Fin 8) ⟨k.val, hk⟩ _ hv hlt rfl (k0_off60_inb _ hchk)
    have eG := trow_of_word_g m d L (⟨4, by decide⟩ : Fin 8) ⟨k.val, hk⟩ _ hv hlt rfl (k0_off60_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 5's issue loop: the word loaded is the (64·5 + k)-th, i.e. the chunk's `k`-th row number, in range by the
    precondition; the two row copies are the batches' `k`-th, each delivering what the batch states for it. -/
theorem fire_region_t14 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t14_loop.trips) :
    fireInv1 m d L (⟨5, by decide⟩ : Fin 8) q fI fr fi k.val ()
      ⊢ wp frame (wpE (defs₀ (F := F)) 𝒱₀ (thr d L) none) Set.univ
          (k0_t14_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨5, by decide⟩ : Fin 8) q fI fr fi (k.val + 1) acc) := by
  have hk : k.val < 64 := lt_of_lt_of_le k.isLt k0_t14_abs.2.1
  unfold k0_t14_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t14.sl.v128 d L fI k = idxW m d L (posOf (⟨5, by decide⟩ : Fin 8) ⟨k.val, hk⟩) := by
    refine Eq.trans ?_ (hI (posOf (⟨5, by decide⟩ : Fin 8) ⟨k.val, hk⟩))
    unfold fire_region_t14.sl.v128 k0_pay200 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off75_eq k
    fin_cases a
    show (k0_off75 k) 0 + 1 * 0 = 64 * 5 + k.val
    rw [h3]; show k.val + 320 + 1 * 0 = _; omega
  have hlt : (fire_region_t14.sl.v128 d L fI k).toNat < 1000000 := by
    rw [hv]; exact hpre d _
  have hchk : k0_chk6 (fire_region_t14.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off77 (fire_region_t14.sl.v128 d L fI k)) S1x64.size (k0_off77_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off78 k) S1x64.size (k0_off78_inb k)) (fun _ => rfl)).view.loc (thr d L)
          ↦[((b4).slice (Rect.unit (s := S64x64) (k0_off78 k) S1x64.size (k0_off78_inb k)) (fun _ => rfl)).view.set]{fullShare} fr
      from by rw [set_row_b4 ⟨k.val, hk⟩ (k0_off78_eq k) (k0_off78_inb k)])) $$ Hdr
  sl_exec
  iapply (Transfers.wp_dmaBatch countersEmb 𝒱₀ (thr d L) none
      (src := (rW).slice (Rect.unit (s := S1000000x64) (k0_off77 (fire_region_t14.sl.v128 d L fI k)) S1x64.size (k0_off77_inb _ hchk)) (fun _ => rfl))
      (dst := (b4).slice (Rect.unit (s := S64x64) (k0_off78 k) S1x64.size (k0_off78_inb k)) (fun _ => rfl))
      (default : HIx 1) NR rfl subset_rfl (D := DR1 m d L (⟨5, by decide⟩ : Fin 8) q) (j := k.val) (u := 0) hk (Nat.zero_le _)
      (deliv_R1 m d L (⟨5, by decide⟩ : Fin 8) q ⟨k.val, hk⟩ _ hv hlt (k0_off78_eq k) (k0_off78_inb k) rfl (k0_off77_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off77 (fire_region_t14.sl.v128 d L fI k)) S1x64.size (k0_off77_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off78 k) S1x64.size (k0_off78_inb k)) (fun _ => rfl)).view.loc (thr d L)
          ↦[((b6).slice (Rect.unit (s := S64x64) (k0_off78 k) S1x64.size (k0_off78_inb k)) (fun _ => rfl)).view.set]{fullShare} fi
      from by rw [set_row_b6 ⟨k.val, hk⟩ (k0_off78_eq k) (k0_off78_inb k)])) $$ Hdi
  iapply (Transfers.wp_dmaBatch countersEmb 𝒱₀ (thr d L) none
      (src := (gW).slice (Rect.unit (s := S1000000x64) (k0_off77 (fire_region_t14.sl.v128 d L fI k)) S1x64.size (k0_off77_inb _ hchk)) (fun _ => rfl))
      (dst := (b6).slice (Rect.unit (s := S64x64) (k0_off78 k) S1x64.size (k0_off78_inb k)) (fun _ => rfl))
      (default : HIx 1) NR rfl subset_rfl (D := DI1 m d L (⟨5, by decide⟩ : Fin 8) q) (j := k.val) (u := 0) hk (Nat.zero_le _)
      (deliv_I1 m d L (⟨5, by decide⟩ : Fin 8) q ⟨k.val, hk⟩ _ hv hlt (k0_off78_eq k) (k0_off78_inb k) rfl (k0_off77_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨5, by decide⟩ : Fin 8) q)
      = iprop(remOf m d L (⟨5, by decide⟩ : Fin 8) q ⟨k.val, hk⟩ ∗ bigSep (Transfers.issued (m := 64) k.val) (remOf m d L (⟨5, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨5, by decide⟩ : Fin 8) ⟨k.val, hk⟩ _ hv hlt rfl (k0_off77_inb _ hchk)
    have eG := trow_of_word_g m d L (⟨5, by decide⟩ : Fin 8) ⟨k.val, hk⟩ _ hv hlt rfl (k0_off77_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 6's issue loop: the word loaded is the (64·6 + k)-th, i.e. the chunk's `k`-th row number, in range by the
    precondition; the two row copies are the batches' `k`-th, each delivering what the batch states for it. -/
theorem fire_region_t17 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (k : Fin k0_t17_loop.trips) :
    fireInv0 m d L (⟨6, by decide⟩ : Fin 8) q fI fr fi k.val ()
      ⊢ wp frame (wpE (defs₀ (F := F)) 𝒱₀ (thr d L) none) Set.univ
          (k0_t17_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv0 m d L (⟨6, by decide⟩ : Fin 8) q fI fr fi (k.val + 1) acc) := by
  have hk : k.val < 64 := lt_of_lt_of_le k.isLt k0_t17_abs.2.1
  unfold k0_t17_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t17.sl.v128 d L fI k = idxW m d L (posOf (⟨6, by decide⟩ : Fin 8) ⟨k.val, hk⟩) := by
    refine Eq.trans ?_ (hI (posOf (⟨6, by decide⟩ : Fin 8) ⟨k.val, hk⟩))
    unfold fire_region_t17.sl.v128 k0_pay203 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off92_eq k
    fin_cases a
    show (k0_off92 k) 0 + 1 * 0 = 64 * 6 + k.val
    rw [h3]; show k.val + 384 + 1 * 0 = _; omega
  have hlt : (fire_region_t17.sl.v128 d L fI k).toNat < 1000000 := by
    rw [hv]; exact hpre d _
  have hchk : k0_chk7 (fire_region_t17.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off94 (fire_region_t17.sl.v128 d L fI k)) S1x64.size (k0_off94_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off95 k) S1x64.size (k0_off95_inb k)) (fun _ => rfl)).view.loc (thr d L)
          ↦[((b3).slice (Rect.unit (s := S64x64) (k0_off95 k) S1x64.size (k0_off95_inb k)) (fun _ => rfl)).view.set]{fullShare} fr
      from by rw [set_row_b3 ⟨k.val, hk⟩ (k0_off95_eq k) (k0_off95_inb k)])) $$ Hdr
  sl_exec
  iapply (Transfers.wp_dmaBatch countersEmb 𝒱₀ (thr d L) none
      (src := (rW).slice (Rect.unit (s := S1000000x64) (k0_off94 (fire_region_t17.sl.v128 d L fI k)) S1x64.size (k0_off94_inb _ hchk)) (fun _ => rfl))
      (dst := (b3).slice (Rect.unit (s := S64x64) (k0_off95 k) S1x64.size (k0_off95_inb k)) (fun _ => rfl))
      (default : HIx 1) NR rfl subset_rfl (D := DR0 m d L (⟨6, by decide⟩ : Fin 8) q) (j := k.val) (u := 0) hk (Nat.zero_le _)
      (deliv_R0 m d L (⟨6, by decide⟩ : Fin 8) q ⟨k.val, hk⟩ _ hv hlt (k0_off95_eq k) (k0_off95_inb k) rfl (k0_off94_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off94 (fire_region_t17.sl.v128 d L fI k)) S1x64.size (k0_off94_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off95 k) S1x64.size (k0_off95_inb k)) (fun _ => rfl)).view.loc (thr d L)
          ↦[((b5).slice (Rect.unit (s := S64x64) (k0_off95 k) S1x64.size (k0_off95_inb k)) (fun _ => rfl)).view.set]{fullShare} fi
      from by rw [set_row_b5 ⟨k.val, hk⟩ (k0_off95_eq k) (k0_off95_inb k)])) $$ Hdi
  iapply (Transfers.wp_dmaBatch countersEmb 𝒱₀ (thr d L) none
      (src := (gW).slice (Rect.unit (s := S1000000x64) (k0_off94 (fire_region_t17.sl.v128 d L fI k)) S1x64.size (k0_off94_inb _ hchk)) (fun _ => rfl))
      (dst := (b5).slice (Rect.unit (s := S64x64) (k0_off95 k) S1x64.size (k0_off95_inb k)) (fun _ => rfl))
      (default : HIx 1) NR rfl subset_rfl (D := DI0 m d L (⟨6, by decide⟩ : Fin 8) q) (j := k.val) (u := 0) hk (Nat.zero_le _)
      (deliv_I0 m d L (⟨6, by decide⟩ : Fin 8) q ⟨k.val, hk⟩ _ hv hlt (k0_off95_eq k) (k0_off95_inb k) rfl (k0_off94_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨6, by decide⟩ : Fin 8) q)
      = iprop(remOf m d L (⟨6, by decide⟩ : Fin 8) q ⟨k.val, hk⟩ ∗ bigSep (Transfers.issued (m := 64) k.val) (remOf m d L (⟨6, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨6, by decide⟩ : Fin 8) ⟨k.val, hk⟩ _ hv hlt rfl (k0_off94_inb _ hchk)
    have eG := trow_of_word_g m d L (⟨6, by decide⟩ : Fin 8) ⟨k.val, hk⟩ _ hv hlt rfl (k0_off94_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 7's issue loop: the word loaded is the (64·7 + k)-th, i.e. the chunk's `k`-th row number, in range by the
    precondition; the two row copies are the batches' `k`-th, each delivering what the batch states for it. -/
theorem fire_region_t20 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t20_loop.trips) :
    fireInv1 m d L (⟨7, by decide⟩ : Fin 8) q fI fr fi k.val ()
      ⊢ wp frame (wpE (defs₀ (F := F)) 𝒱₀ (thr d L) none) Set.univ
          (k0_t20_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨7, by decide⟩ : Fin 8) q fI fr fi (k.val + 1) acc) := by
  have hk : k.val < 64 := lt_of_lt_of_le k.isLt k0_t20_abs.2.1
  unfold k0_t20_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t20.sl.v128 d L fI k = idxW m d L (posOf (⟨7, by decide⟩ : Fin 8) ⟨k.val, hk⟩) := by
    refine Eq.trans ?_ (hI (posOf (⟨7, by decide⟩ : Fin 8) ⟨k.val, hk⟩))
    unfold fire_region_t20.sl.v128 k0_pay206 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off109_eq k
    fin_cases a
    show (k0_off109 k) 0 + 1 * 0 = 64 * 7 + k.val
    rw [h3]; show k.val + 448 + 1 * 0 = _; omega
  have hlt : (fire_region_t20.sl.v128 d L fI k).toNat < 1000000 := by
    rw [hv]; exact hpre d _
  have hchk : k0_chk8 (fire_region_t20.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off111 (fire_region_t20.sl.v128 d L fI k)) S1x64.size (k0_off111_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off112 k) S1x64.size (k0_off112_inb k)) (fun _ => rfl)).view.loc (thr d L)
          ↦[((b4).slice (Rect.unit (s := S64x64) (k0_off112 k) S1x64.size (k0_off112_inb k)) (fun _ => rfl)).view.set]{fullShare} fr
      from by rw [set_row_b4 ⟨k.val, hk⟩ (k0_off112_eq k) (k0_off112_inb k)])) $$ Hdr
  sl_exec
  iapply (Transfers.wp_dmaBatch countersEmb 𝒱₀ (thr d L) none
      (src := (rW).slice (Rect.unit (s := S1000000x64) (k0_off111 (fire_region_t20.sl.v128 d L fI k)) S1x64.size (k0_off111_inb _ hchk)) (fun _ => rfl))
      (dst := (b4).slice (Rect.unit (s := S64x64) (k0_off112 k) S1x64.size (k0_off112_inb k)) (fun _ => rfl))
      (default : HIx 1) NR rfl subset_rfl (D := DR1 m d L (⟨7, by decide⟩ : Fin 8) q) (j := k.val) (u := 0) hk (Nat.zero_le _)
      (deliv_R1 m d L (⟨7, by decide⟩ : Fin 8) q ⟨k.val, hk⟩ _ hv hlt (k0_off112_eq k) (k0_off112_inb k) rfl (k0_off111_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off111 (fire_region_t20.sl.v128 d L fI k)) S1x64.size (k0_off111_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off112 k) S1x64.size (k0_off112_inb k)) (fun _ => rfl)).view.loc (thr d L)
          ↦[((b6).slice (Rect.unit (s := S64x64) (k0_off112 k) S1x64.size (k0_off112_inb k)) (fun _ => rfl)).view.set]{fullShare} fi
      from by rw [set_row_b6 ⟨k.val, hk⟩ (k0_off112_eq k) (k0_off112_inb k)])) $$ Hdi
  iapply (Transfers.wp_dmaBatch countersEmb 𝒱₀ (thr d L) none
      (src := (gW).slice (Rect.unit (s := S1000000x64) (k0_off111 (fire_region_t20.sl.v128 d L fI k)) S1x64.size (k0_off111_inb _ hchk)) (fun _ => rfl))
      (dst := (b6).slice (Rect.unit (s := S64x64) (k0_off112 k) S1x64.size (k0_off112_inb k)) (fun _ => rfl))
      (default : HIx 1) NR rfl subset_rfl (D := DI1 m d L (⟨7, by decide⟩ : Fin 8) q) (j := k.val) (u := 0) hk (Nat.zero_le _)
      (deliv_I1 m d L (⟨7, by decide⟩ : Fin 8) q ⟨k.val, hk⟩ _ hv hlt (k0_off112_eq k) (k0_off112_inb k) rfl (k0_off111_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨7, by decide⟩ : Fin 8) q)
      = iprop(remOf m d L (⟨7, by decide⟩ : Fin 8) q ⟨k.val, hk⟩ ∗ bigSep (Transfers.issued (m := 64) k.val) (remOf m d L (⟨7, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨7, by decide⟩ : Fin 8) ⟨k.val, hk⟩ _ hv hlt rfl (k0_off111_inb _ hchk)
    have eG := trow_of_word_g m d L (⟨7, by decide⟩ : Fin 8) ⟨k.val, hk⟩ _ hv hlt rfl (k0_off111_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

end Cert.Proof.KI

end
-- ==== Proof.KI.Drain.lean ====
/-
  Draining a chunk's row copies.

  A chunk's 64 row copies from one table are one batch on one semaphore; the drain is a counted loop of 64 trips, each
  waiting one row's credit on each of the chunk's two semaphores. A wait that is not a batch's last consumes one row's
  units and returns nothing; the last returns every delivery and leaves the counter at zero. One trip therefore takes
  the two batches from `k` rows' units consumed to `k + 1`, and at the 64th to all deliveries.
-/
import proofs.«204629_g89326729822651_cont_sun_m_635_33_alg».proof.Proof.KI.Invs
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

/-- A rule applied by hand leaves its continuation applied to the returned value. -/
theorem ret_bind' {E : Type → Type} {α β : Type} (a : α) (k : α → Prog E β) : (Prog.ret a).bind k = k a := rfl

omit [FloatOps F] in
theorem units_lt {k N : ℕ} (hN : 0 < N) (hk : k + 1 < 64) : k * N + N < N * 64 := by nlinarith
omit [FloatOps F] in
theorem units_eq {k N : ℕ} (hk : ¬ k + 1 < 64) (hk' : k < 64) : k * N + N = N * 64 := by
  obtain rfl : k = 63 := by omega
  omega
omit [FloatOps F] in
theorem units_succ (k N : ℕ) : k * N + N = (k + 1) * N := (Nat.succ_mul k N).symm

omit m in
/-- ONE TRIP OF A DRAIN: two waits of one row's credit, one on each of the chunk's two semaphores, from the two batches
    with `k` rows' units consumed. -/
theorem drain_trip (semA semB : DmaSem sig) (DA DB : Fin 64 → sProp 𝕄)
    (srcA : Memref sig .scVector .hbm S1x64 .f32) (dstA : Memref sig .scVector .vmem S1x64 .f32)
    (srcB : Memref sig .scVector .hbm S1x64 .f32) (dstB : Memref sig .scVector .vmem S1x64 .f32)
    (hsA : srcA.view.WordExact) (hdA : dstA.view.WordExact) (hsB : srcB.view.WordExact) (hdB : dstB.view.WordExact)
    (hA : dstA.view.dmaCredit = NR) (hB : dstB.view.dmaCredit = NR)
    (O : CellTallies nD τ sig (HIx 1)) (W : Waits sig (HIx 1)) (k : ℕ) (hk : k < 64) :
    iprop(Transfers.MayWaits (thr d L) (default : HIx 1) O
        ∗ (∃ W', ⌜∀ p ∈ W', p ∈ W ∨ p.2 = none⌝ ∗ owes (thr d L) O W')
        ∗ iprop(Transfers.Batch countersEmb (thr d L) (.dma semA) (default : HIx 1) NR DA 64 (k * NR)
          ∗ Transfers.Batch countersEmb (thr d L) (.dma semB) (default : HIx 1) NR DB 64 (k * NR)))
      ⊢ wp frame (wpE (defs₀ (F := F)) 𝒱₀ (thr d L) none) Set.univ
          (do
            Prog.lift (.waitDma2 semA srcA dstA hsA hdA)
            Prog.lift (.waitDma2 semB srcB dstB hsB hdB)
            pure ⟨⟩ : Prog (TpuEff nD τ sig (Elt F) Λ₀ (.scVector ((L 0).castLE hcore0) ((L 1).castLE hsub0))) Unit)
          (fun _ => iprop(Transfers.MayWaits (thr d L) (default : HIx 1) O
            ∗ (∃ W', ⌜∀ p ∈ W', p ∈ W ∨ p.2 = none⌝ ∗ owes (thr d L) O W')
            ∗ (if k + 1 < 64 then iprop(Transfers.Batch countersEmb (thr d L) (.dma semA) (default : HIx 1) NR DA 64 ((k + 1) * NR)
                  ∗ Transfers.Batch countersEmb (thr d L) (.dma semB) (default : HIx 1) NR DB 64 ((k + 1) * NR))
               else iprop(bigSep Finset.univ DA ∗ bigSep Finset.univ DB
                  ∗ semVal (thr d L, SemLoc.dma semA) 0 ∗ semVal (thr d L, SemLoc.dma semB) 0)))) := by
  have hNR : 0 < NR := View.dmaCredit_pos _ (by decide)
  iintro ⟨#Hmw, ⟨%W', %hW', HO⟩, HBA, HBB⟩
  have hWW : ∀ p ∈ insert (SemLoc.dma semB, (default : HIx 1)) (insert (SemLoc.dma semA, (default : HIx 1)) W'), p ∈ W ∨ p.2 = none := by
    intro p hp
    rcases Finset.mem_insert.1 hp with rfl | hp
    · exact Or.inr rfl
    rcases Finset.mem_insert.1 hp with rfl | hp
    · exact Or.inr rfl
    exact hW' p hp
  by_cases hlast : k + 1 < 64
  · iapply (Transfers.wp_waitBatchO countersEmb 𝒱₀ (thr d L) none (default : HIx 1) hA (D := DA) (u := k * NR) (units_lt hNR hlast) (O := O) (W := W')) $$ [HBA HO]
    · isplitl [HBA]; · iexact HBA
      isplitl [HO]; · iexact HO
      iapply (Transfers.MayWaits.elim (SemLoc.dma semA)) $$ Hmw
    iintro ⟨HBA, HO⟩
    simp only [ret_bind']
    iapply (Transfers.wp_waitBatchO countersEmb 𝒱₀ (thr d L) none (default : HIx 1) hB (D := DB) (u := k * NR) (units_lt hNR hlast) (O := O) (W := insert (SemLoc.dma semA, (default : HIx 1)) W')) $$ [HBB HO]
    · isplitl [HBB]; · iexact HBB
      isplitl [HO]; · iexact HO
      iapply (Transfers.MayWaits.elim (SemLoc.dma semB)) $$ Hmw
    iintro ⟨HBB, HO⟩
    simp only [ret_bind']
    sl_step
    rw [if_pos hlast, ← units_succ]
    isplitr; · iexact Hmw
    isplitl [HO]; · iexists _; isplitr; · ipureintro; exact hWW
                    iexact HO
    isplitl [HBA]; · iexact HBA
    iexact HBB
  · iapply (Transfers.wp_waitBatchLastO countersEmb 𝒱₀ (thr d L) none (default : HIx 1) hA hNR (D := DA) (u := k * NR) (units_eq hlast hk) (O := O) (W := W')) $$ [HBA HO]
    · isplitl [HBA]; · iexact HBA
      isplitl [HO]; · iexact HO
      iapply (Transfers.MayWaits.elim (SemLoc.dma semA)) $$ Hmw
    iintro ⟨HDA, HvA, HO⟩
    simp only [ret_bind']
    iapply (Transfers.wp_waitBatchLastO countersEmb 𝒱₀ (thr d L) none (default : HIx 1) hB hNR (D := DB) (u := k * NR) (units_eq hlast hk) (O := O) (W := insert (SemLoc.dma semA, (default : HIx 1)) W')) $$ [HBB HO]
    · isplitl [HBB]; · iexact HBB
      isplitl [HO]; · iexact HO
      iapply (Transfers.MayWaits.elim (SemLoc.dma semB)) $$ Hmw
    iintro ⟨HDB, HvB, HO⟩
    simp only [ret_bind']
    sl_step
    rw [if_neg hlast]
    isplitr; · iexact Hmw
    isplitl [HO]; · iexists _; isplitr; · ipureintro; exact hWW
                    iexact HO
    isplitl [HDA]; · iexact HDA
    isplitl [HDB]; · iexact HDB
    isplitl [HvA]; · iexact HvA
    iexact HvB

/-! ## One row's credit

A wait names a row of a scratch; whichever row of whichever of the four 64 × 64 scratches, its credit is one row's. -/

omit m d L [FloatOps F] in
theorem credit3 (off : Fin 2 → Nat) (inb : ∀ a, off a + S1x64.size a ≤ S64x64.size a) :
    ((b3).slice (Rect.unit (s := S64x64) off S1x64.size inb) (fun _ => rfl)).view.dmaCredit = NR := rfl
omit m d L [FloatOps F] in
theorem credit4 (off : Fin 2 → Nat) (inb : ∀ a, off a + S1x64.size a ≤ S64x64.size a) :
    ((b4).slice (Rect.unit (s := S64x64) off S1x64.size inb) (fun _ => rfl)).view.dmaCredit = NR := rfl
omit m d L [FloatOps F] in
theorem credit5 (off : Fin 2 → Nat) (inb : ∀ a, off a + S1x64.size a ≤ S64x64.size a) :
    ((b5).slice (Rect.unit (s := S64x64) off S1x64.size inb) (fun _ => rfl)).view.dmaCredit = NR := rfl
omit m d L [FloatOps F] in
theorem credit6 (off : Fin 2 → Nat) (inb : ∀ a, off a + S1x64.size a ≤ S64x64.size a) :
    ((b6).slice (Rect.unit (s := S64x64) off S1x64.size inb) (fun _ => rfl)).view.dmaCredit = NR := rfl

/-! ## The eight drain loops -/

/-- One trip of the drain of chunk 0: the invariant after `k` trips gives the invariant after `k + 1`. -/
theorem drain_region_t3 (q : PosShare TreeShare) (O : CellTallies nD τ sig (HIx 1)) (W : Waits sig (HIx 1)) (k : Fin k0_t3_loop.trips) (v1 c0_i32_18 : BitVec 32) :
    drainInv0 m d L (⟨0, by decide⟩ : Fin 8) q O W k.val ()
      ⊢ wp frame (wpE (defs₀ (F := F)) 𝒱₀ (thr d L) none) Set.univ
          (k0_t3_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => drainInv0 m d L (⟨0, by decide⟩ : Fin 8) q O W (k.val + 1) acc) := by
  have hk : k.val < 64 := lt_of_lt_of_le k.isLt k0_t3_abs.2.1
  unfold drainInv0 k0_t3_body
  rw [if_pos hk]
  exact drain_trip (F := F) d L cc0_scratch11.sem cc0_scratch13.sem (DR0 m d L (⟨0, by decide⟩ : Fin 8) q) (DI0 m d L (⟨0, by decide⟩ : Fin 8) q)
    ((rW).slice (Rect.unit (s := S1000000x64) ![0, 0] S1x64.size inb_S1000000x64_S1x64_0_0) (fun _ => rfl))
    ((b3).slice (Rect.unit (s := S64x64) (k0_off11 k) S1x64.size (k0_off11_inb k)) (fun _ => rfl))
    ((gW).slice (Rect.unit (s := S1000000x64) ![0, 0] S1x64.size inb_S1000000x64_S1x64_0_0) (fun _ => rfl))
    ((b5).slice (Rect.unit (s := S64x64) (k0_off11 k) S1x64.size (k0_off11_inb k)) (fun _ => rfl))
    (View.wordExact_bits rfl) (View.wordExact_bits rfl) (View.wordExact_bits rfl) (View.wordExact_bits rfl)
    (credit3 _ _) (credit5 _ _) O W k.val hk

/-- One trip of the drain of chunk 1: the invariant after `k` trips gives the invariant after `k + 1`. -/
theorem drain_region_t6 (q : PosShare TreeShare) (O : CellTallies nD τ sig (HIx 1)) (W : Waits sig (HIx 1)) (k : Fin k0_t6_loop.trips) (v1 c0_i32_18 : BitVec 32) :
    drainInv1 m d L (⟨1, by decide⟩ : Fin 8) q O W k.val ()
      ⊢ wp frame (wpE (defs₀ (F := F)) 𝒱₀ (thr d L) none) Set.univ
          (k0_t6_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => drainInv1 m d L (⟨1, by decide⟩ : Fin 8) q O W (k.val + 1) acc) := by
  have hk : k.val < 64 := lt_of_lt_of_le k.isLt k0_t6_abs.2.1
  unfold drainInv1 k0_t6_body
  rw [if_pos hk]
  exact drain_trip (F := F) d L cc0_scratch12.sem cc0_scratch14.sem (DR1 m d L (⟨1, by decide⟩ : Fin 8) q) (DI1 m d L (⟨1, by decide⟩ : Fin 8) q)
    ((rW).slice (Rect.unit (s := S1000000x64) ![0, 0] S1x64.size inb_S1000000x64_S1x64_0_0) (fun _ => rfl))
    ((b4).slice (Rect.unit (s := S64x64) (k0_off28 k) S1x64.size (k0_off28_inb k)) (fun _ => rfl))
    ((gW).slice (Rect.unit (s := S1000000x64) ![0, 0] S1x64.size inb_S1000000x64_S1x64_0_0) (fun _ => rfl))
    ((b6).slice (Rect.unit (s := S64x64) (k0_off28 k) S1x64.size (k0_off28_inb k)) (fun _ => rfl))
    (View.wordExact_bits rfl) (View.wordExact_bits rfl) (View.wordExact_bits rfl) (View.wordExact_bits rfl)
    (credit4 _ _) (credit6 _ _) O W k.val hk

/-- One trip of the drain of chunk 2: the invariant after `k` trips gives the invariant after `k + 1`. -/
theorem drain_region_t9 (q : PosShare TreeShare) (O : CellTallies nD τ sig (HIx 1)) (W : Waits sig (HIx 1)) (k : Fin k0_t9_loop.trips) (v1 : BitVec 32) :
    drainInv0 m d L (⟨2, by decide⟩ : Fin 8) q O W k.val ()
      ⊢ wp frame (wpE (defs₀ (F := F)) 𝒱₀ (thr d L) none) Set.univ
          (k0_t9_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨2, by decide⟩ : Fin 8) q O W (k.val + 1) acc) := by
  have hk : k.val < 64 := lt_of_lt_of_le k.isLt k0_t9_abs.2.1
  unfold drainInv0 k0_t9_body
  rw [if_pos hk]
  exact drain_trip (F := F) d L cc0_scratch11.sem cc0_scratch13.sem (DR0 m d L (⟨2, by decide⟩ : Fin 8) q) (DI0 m d L (⟨2, by decide⟩ : Fin 8) q)
    ((rW).slice (Rect.unit (s := S1000000x64) ![0, 0] S1x64.size inb_S1000000x64_S1x64_0_0) (fun _ => rfl))
    ((b3).slice (Rect.unit (s := S64x64) (k0_off45 k) S1x64.size (k0_off45_inb k)) (fun _ => rfl))
    ((gW).slice (Rect.unit (s := S1000000x64) ![0, 0] S1x64.size inb_S1000000x64_S1x64_0_0) (fun _ => rfl))
    ((b5).slice (Rect.unit (s := S64x64) (k0_off45 k) S1x64.size (k0_off45_inb k)) (fun _ => rfl))
    (View.wordExact_bits rfl) (View.wordExact_bits rfl) (View.wordExact_bits rfl) (View.wordExact_bits rfl)
    (credit3 _ _) (credit5 _ _) O W k.val hk

/-- One trip of the drain of chunk 3: the invariant after `k` trips gives the invariant after `k + 1`. -/
theorem drain_region_t12 (q : PosShare TreeShare) (O : CellTallies nD τ sig (HIx 1)) (W : Waits sig (HIx 1)) (k : Fin k0_t12_loop.trips) (v1 : BitVec 32) :
    drainInv1 m d L (⟨3, by decide⟩ : Fin 8) q O W k.val ()
      ⊢ wp frame (wpE (defs₀ (F := F)) 𝒱₀ (thr d L) none) Set.univ
          (k0_t12_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv1 m d L (⟨3, by decide⟩ : Fin 8) q O W (k.val + 1) acc) := by
  have hk : k.val < 64 := lt_of_lt_of_le k.isLt k0_t12_abs.2.1
  unfold drainInv1 k0_t12_body
  rw [if_pos hk]
  exact drain_trip (F := F) d L cc0_scratch12.sem cc0_scratch14.sem (DR1 m d L (⟨3, by decide⟩ : Fin 8) q) (DI1 m d L (⟨3, by decide⟩ : Fin 8) q)
    ((rW).slice (Rect.unit (s := S1000000x64) ![0, 0] S1x64.size inb_S1000000x64_S1x64_0_0) (fun _ => rfl))
    ((b4).slice (Rect.unit (s := S64x64) (k0_off62 k) S1x64.size (k0_off62_inb k)) (fun _ => rfl))
    ((gW).slice (Rect.unit (s := S1000000x64) ![0, 0] S1x64.size inb_S1000000x64_S1x64_0_0) (fun _ => rfl))
    ((b6).slice (Rect.unit (s := S64x64) (k0_off62 k) S1x64.size (k0_off62_inb k)) (fun _ => rfl))
    (View.wordExact_bits rfl) (View.wordExact_bits rfl) (View.wordExact_bits rfl) (View.wordExact_bits rfl)
    (credit4 _ _) (credit6 _ _) O W k.val hk

/-- One trip of the drain of chunk 4: the invariant after `k` trips gives the invariant after `k + 1`. -/
theorem drain_region_t15 (q : PosShare TreeShare) (O : CellTallies nD τ sig (HIx 1)) (W : Waits sig (HIx 1)) (k : Fin k0_t15_loop.trips) (v1 : BitVec 32) :
    drainInv0 m d L (⟨4, by decide⟩ : Fin 8) q O W k.val ()
      ⊢ wp frame (wpE (defs₀ (F := F)) 𝒱₀ (thr d L) none) Set.univ
          (k0_t15_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨4, by decide⟩ : Fin 8) q O W (k.val + 1) acc) := by
  have hk : k.val < 64 := lt_of_lt_of_le k.isLt k0_t15_abs.2.1
  unfold drainInv0 k0_t15_body
  rw [if_pos hk]
  exact drain_trip (F := F) d L cc0_scratch11.sem cc0_scratch13.sem (DR0 m d L (⟨4, by decide⟩ : Fin 8) q) (DI0 m d L (⟨4, by decide⟩ : Fin 8) q)
    ((rW).slice (Rect.unit (s := S1000000x64) ![0, 0] S1x64.size inb_S1000000x64_S1x64_0_0) (fun _ => rfl))
    ((b3).slice (Rect.unit (s := S64x64) (k0_off79 k) S1x64.size (k0_off79_inb k)) (fun _ => rfl))
    ((gW).slice (Rect.unit (s := S1000000x64) ![0, 0] S1x64.size inb_S1000000x64_S1x64_0_0) (fun _ => rfl))
    ((b5).slice (Rect.unit (s := S64x64) (k0_off79 k) S1x64.size (k0_off79_inb k)) (fun _ => rfl))
    (View.wordExact_bits rfl) (View.wordExact_bits rfl) (View.wordExact_bits rfl) (View.wordExact_bits rfl)
    (credit3 _ _) (credit5 _ _) O W k.val hk

/-- One trip of the drain of chunk 5: the invariant after `k` trips gives the invariant after `k + 1`. -/
theorem drain_region_t18 (q : PosShare TreeShare) (O : CellTallies nD τ sig (HIx 1)) (W : Waits sig (HIx 1)) (k : Fin k0_t18_loop.trips) (v1 : BitVec 32) :
    drainInv1 m d L (⟨5, by decide⟩ : Fin 8) q O W k.val ()
      ⊢ wp frame (wpE (defs₀ (F := F)) 𝒱₀ (thr d L) none) Set.univ
          (k0_t18_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv1 m d L (⟨5, by decide⟩ : Fin 8) q O W (k.val + 1) acc) := by
  have hk : k.val < 64 := lt_of_lt_of_le k.isLt k0_t18_abs.2.1
  unfold drainInv1 k0_t18_body
  rw [if_pos hk]
  exact drain_trip (F := F) d L cc0_scratch12.sem cc0_scratch14.sem (DR1 m d L (⟨5, by decide⟩ : Fin 8) q) (DI1 m d L (⟨5, by decide⟩ : Fin 8) q)
    ((rW).slice (Rect.unit (s := S1000000x64) ![0, 0] S1x64.size inb_S1000000x64_S1x64_0_0) (fun _ => rfl))
    ((b4).slice (Rect.unit (s := S64x64) (k0_off96 k) S1x64.size (k0_off96_inb k)) (fun _ => rfl))
    ((gW).slice (Rect.unit (s := S1000000x64) ![0, 0] S1x64.size inb_S1000000x64_S1x64_0_0) (fun _ => rfl))
    ((b6).slice (Rect.unit (s := S64x64) (k0_off96 k) S1x64.size (k0_off96_inb k)) (fun _ => rfl))
    (View.wordExact_bits rfl) (View.wordExact_bits rfl) (View.wordExact_bits rfl) (View.wordExact_bits rfl)
    (credit4 _ _) (credit6 _ _) O W k.val hk

/-- One trip of the drain of chunk 6: the invariant after `k` trips gives the invariant after `k + 1`. -/
theorem drain_region_t21 (q : PosShare TreeShare) (O : CellTallies nD τ sig (HIx 1)) (W : Waits sig (HIx 1)) (k : Fin k0_t21_loop.trips) (v1 : BitVec 32) :
    drainInv0 m d L (⟨6, by decide⟩ : Fin 8) q O W k.val ()
      ⊢ wp frame (wpE (defs₀ (F := F)) 𝒱₀ (thr d L) none) Set.univ
          (k0_t21_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨6, by decide⟩ : Fin 8) q O W (k.val + 1) acc) := by
  have hk : k.val < 64 := lt_of_lt_of_le k.isLt k0_t21_abs.2.1
  unfold drainInv0 k0_t21_body
  rw [if_pos hk]
  exact drain_trip (F := F) d L cc0_scratch11.sem cc0_scratch13.sem (DR0 m d L (⟨6, by decide⟩ : Fin 8) q) (DI0 m d L (⟨6, by decide⟩ : Fin 8) q)
    ((rW).slice (Rect.unit (s := S1000000x64) ![0, 0] S1x64.size inb_S1000000x64_S1x64_0_0) (fun _ => rfl))
    ((b3).slice (Rect.unit (s := S64x64) (k0_off113 k) S1x64.size (k0_off113_inb k)) (fun _ => rfl))
    ((gW).slice (Rect.unit (s := S1000000x64) ![0, 0] S1x64.size inb_S1000000x64_S1x64_0_0) (fun _ => rfl))
    ((b5).slice (Rect.unit (s := S64x64) (k0_off113 k) S1x64.size (k0_off113_inb k)) (fun _ => rfl))
    (View.wordExact_bits rfl) (View.wordExact_bits rfl) (View.wordExact_bits rfl) (View.wordExact_bits rfl)
    (credit3 _ _) (credit5 _ _) O W k.val hk

/-- One trip of the drain of chunk 7: the invariant after `k` trips gives the invariant after `k + 1`. -/
theorem drain_region_t23 (q : PosShare TreeShare) (O : CellTallies nD τ sig (HIx 1)) (W : Waits sig (HIx 1)) (k : Fin k0_t23_loop.trips) :
    drainInv1 m d L (⟨7, by decide⟩ : Fin 8) q O W k.val ()
      ⊢ wp frame (wpE (defs₀ (F := F)) 𝒱₀ (thr d L) none) Set.univ
          (k0_t23_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => drainInv1 m d L (⟨7, by decide⟩ : Fin 8) q O W (k.val + 1) acc) := by
  have hk : k.val < 64 := lt_of_lt_of_le k.isLt k0_t23_abs.2.1
  unfold drainInv1 k0_t23_body
  rw [if_pos hk]
  exact drain_trip (F := F) d L cc0_scratch12.sem cc0_scratch14.sem (DR1 m d L (⟨7, by decide⟩ : Fin 8) q) (DI1 m d L (⟨7, by decide⟩ : Fin 8) q)
    ((rW).slice (Rect.unit (s := S1000000x64) ![0, 0] S1x64.size inb_S1000000x64_S1x64_0_0) (fun _ => rfl))
    ((b4).slice (Rect.unit (s := S64x64) (k0_off126 k) S1x64.size (k0_off126_inb k)) (fun _ => rfl))
    ((gW).slice (Rect.unit (s := S1000000x64) ![0, 0] S1x64.size inb_S1000000x64_S1x64_0_0) (fun _ => rfl))
    ((b6).slice (Rect.unit (s := S64x64) (k0_off126 k) S1x64.size (k0_off126_inb k)) (fun _ => rfl))
    (View.wordExact_bits rfl) (View.wordExact_bits rfl) (View.wordExact_bits rfl) (View.wordExact_bits rfl)
    (credit4 _ _) (credit6 _ _) O W k.val hk

end Cert.Proof.KI

end
-- ==== Proof.KI.ComputeLib.lean ====
/-
  One row of the product, piece by piece. A trip of a compute loop stores eight pieces of 16 lanes into row k of the
  result scratch: at columns j0 .. j0 + 15 the real parts e[k, j]·re[k, j] − e[k, 64 + j]·im[k, j] and at columns
  64 + j0 .. the imaginary parts e[k, j]·im[k, j] + e[k, 64 + j]·re[k, j]. Read through the scratches' contents as
  functions of the launch memory these are the specification's entries of the chunk's row k; the eight pieces cover the
  row, and rows below k are left as they were.
-/
import proofs.«204629_g89326729822651_cont_sun_m_635_33_alg».proof.Proof.KI.Rows
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

open Idealize.ShloMosaic.ValueIdx

/-! ## The two payloads, at an index -/

omit m d L in
/-- The real-part payload of one piece, from the four loaded pieces. -/
def payRe (a b c d : S1x16.Idx → F .f32) : S1x16.Idx → F .f32 :=
  shapeCast S1x16 (subf (mulf (shapeCast S16 a shapeCasts_S1x16_S16) (shapeCast S16 c shapeCasts_S1x16_S16))
    (mulf (shapeCast S16 b shapeCasts_S1x16_S16) (shapeCast S16 d shapeCasts_S1x16_S16))) shapeCasts_S16_S1x16
omit m d L in
/-- The imaginary-part payload of one piece. -/
def payIm (a b c d : S1x16.Idx → F .f32) : S1x16.Idx → F .f32 :=
  shapeCast S1x16 (addf (mulf (shapeCast S16 a shapeCasts_S1x16_S16) (shapeCast S16 d shapeCasts_S1x16_S16))
    (mulf (shapeCast S16 b shapeCasts_S1x16_S16) (shapeCast S16 c shapeCasts_S1x16_S16))) shapeCasts_S16_S1x16

omit m d L in
theorem payRe_apply (a b c d : S1x16.Idx → F .f32) (x : S1x16.Idx) :
    payRe a b c d x = FloatOps.subf (FloatOps.mulf (a x) (c x)) (FloatOps.mulf (b x) (d x)) := by
  unfold payRe
  show FloatOps.subf (FloatOps.mulf (a (Shape.reshapeEquiv _ (Shape.reshapeEquiv _ x))) (c (Shape.reshapeEquiv _ (Shape.reshapeEquiv _ x))))
      (FloatOps.mulf (b (Shape.reshapeEquiv _ (Shape.reshapeEquiv _ x))) (d (Shape.reshapeEquiv _ (Shape.reshapeEquiv _ x)))) = _
  simp only [Shape.reshapeEquiv_reshapeEquiv, Shape.reshapeEquiv_self]
omit m d L in
theorem payIm_apply (a b c d : S1x16.Idx → F .f32) (x : S1x16.Idx) :
    payIm a b c d x = FloatOps.addf (FloatOps.mulf (a x) (d x)) (FloatOps.mulf (b x) (c x)) := by
  unfold payIm
  show FloatOps.addf (FloatOps.mulf (a (Shape.reshapeEquiv _ (Shape.reshapeEquiv _ x))) (d (Shape.reshapeEquiv _ (Shape.reshapeEquiv _ x))))
      (FloatOps.mulf (b (Shape.reshapeEquiv _ (Shape.reshapeEquiv _ x))) (c (Shape.reshapeEquiv _ (Shape.reshapeEquiv _ x)))) = _
  simp only [Shape.reshapeEquiv_reshapeEquiv, Shape.reshapeEquiv_self]

/-! ## Indices by their coordinates -/

omit m d L [FloatOps F] in
/-- A function of a rank-2 index depends on the two coordinates' values only. -/
theorem apply_idx2_congr {α : Type} {n0 n1 : ℕ} (G : (⟨2, ![n0, n1]⟩ : Shape).Idx → α) (y y' : (⟨2, ![n0, n1]⟩ : Shape).Idx)
    (h0 : (y 0).val = (y' 0).val) (h1 : (y 1).val = (y' 1).val) : G y = G y' := by
  congr 1; funext a
  match a with
  | ⟨0, _⟩ => exact Fin.ext h0
  | ⟨1, _⟩ => exact Fin.ext h1

/-! ## The specification's entries of a chunk through the scratches' contents -/

omit [FloatOps F] in
theorem posOf_eta (c : Fin 8) (i : Fin 64) (h : i.val < 64) : posOf c ⟨i.val, h⟩ = posOf c i := rfl

/-- Column `j < 64` of row `i` of the chunk's result: the real part. -/
theorem outChunk_lo (c : Fin 8) (i j : Fin 64) :
    outChunk m d L c (ix2 i (⟨j.val, by omega⟩ : Fin 128))
      = FloatOps.subf (FloatOps.mulf (embChunk m d L c (ix2 i (⟨j.val, by omega⟩ : Fin 128))) (gathered m d L (m (rLoc d)) c (ix2 i j)))
          (FloatOps.mulf (embChunk m d L c (ix2 i (⟨64 + j.val, by omega⟩ : Fin 128))) (gathered m d L (m (gLoc d)) c (ix2 i j))) := by
  unfold outChunk Gm
  exact Cert.Spec.G_lo _ _ _ _ (rowN L (posOf c i)) j

/-- Column `64 + j` of row `i` of the chunk's result: the imaginary part. -/
theorem outChunk_hi (c : Fin 8) (i j : Fin 64) :
    outChunk m d L c (ix2 i (⟨64 + j.val, by omega⟩ : Fin 128))
      = FloatOps.addf (FloatOps.mulf (embChunk m d L c (ix2 i (⟨j.val, by omega⟩ : Fin 128))) (gathered m d L (m (gLoc d)) c (ix2 i j)))
          (FloatOps.mulf (embChunk m d L c (ix2 i (⟨64 + j.val, by omega⟩ : Fin 128))) (gathered m d L (m (rLoc d)) c (ix2 i j))) := by
  unfold outChunk Gm
  exact Cert.Spec.G_hi _ _ _ _ (rowN L (posOf c i)) j

/-! ## A loaded or stored piece of 16 lanes of row `r` at column `c` -/

omit m d L [FloatOps F] in
/-- Entry `x` of the piece of 1 × 16 at `(r, c)` is the array's entry `(r, c + x)`. -/
theorem at_unit {α : Type} {n0 n1 : ℕ} (G : (⟨2, ![n0, n1]⟩ : Shape).Idx → α) (r c : ℕ)
    (inb : ∀ a, (![r, c] : Fin 2 → ℕ) a + S1x16.size a ≤ (⟨2, ![n0, n1]⟩ : Shape).size a) (x : S1x16.Idx)
    (i : Fin n0) (j : Fin n1) (hi : i.val = r) (hj : j.val = c + (x 1).val) :
    G ((Rect.unit (s := ⟨2, ![n0, n1]⟩) ![r, c] S1x16.size inb).emb x) = G (ix2 i j) := by
  have hx0 : (x 0).val < 1 := (x 0).isLt
  refine apply_idx2_congr G _ _ ?_ ?_
  · show r + 1 * (x 0).val = i.val
    omega
  · show c + 1 * (x 1).val = j.val
    omega

omit m d L in
/-- The real-part piece at column `col` of row `k`: from the four loaded pieces, the result's entries there. -/
theorem piece_re (E : S64x128.Idx → F .f32) (R I : S64x64.Idx → F .f32) (out : S64x128.Idx → F .f32)
    (hlo : ∀ (i j : Fin 64), out (ix2 i (⟨j.val, by omega⟩ : Fin 128))
      = FloatOps.subf (FloatOps.mulf (E (ix2 i (⟨j.val, by omega⟩ : Fin 128))) (R (ix2 i j)))
          (FloatOps.mulf (E (ix2 i (⟨64 + j.val, by omega⟩ : Fin 128))) (I (ix2 i j))))
    (k col : ℕ) (hk : k < 64) (hcol : col + 16 ≤ 64)
    (oEl oEh oO oR oI : Fin 2 → ℕ)
    (inbEl : ∀ a, oEl a + S1x16.size a ≤ S64x128.size a) (inbEh : ∀ a, oEh a + S1x16.size a ≤ S64x128.size a)
    (inbO : ∀ a, oO a + S1x16.size a ≤ S64x128.size a)
    (inbR : ∀ a, oR a + S1x16.size a ≤ S64x64.size a) (inbI : ∀ a, oI a + S1x16.size a ≤ S64x64.size a)
    (eEl : oEl = ![k, col]) (eEh : oEh = ![k, 64 + col]) (eO : oO = ![k, col]) (eR : oR = ![k, col]) (eI : oI = ![k, col])
    (a b c e : S1x16.Idx → F .f32)
    (ha : ∀ x, a x = E ((Rect.unit (s := S64x128) oEl S1x16.size inbEl).emb x))
    (hb : ∀ x, b x = E ((Rect.unit (s := S64x128) oEh S1x16.size inbEh).emb x))
    (hc : ∀ x, c x = R ((Rect.unit (s := S64x64) oR S1x16.size inbR).emb x))
    (he : ∀ x, e x = I ((Rect.unit (s := S64x64) oI S1x16.size inbI).emb x)) :
    ∀ x, payRe a b c e x = out ((Rect.unit (s := S64x128) oO S1x16.size inbO).emb x) := by
  subst eEl eEh eO eR eI
  intro x
  have hx1 : (x 1).val < 16 := (x 1).isLt
  rw [payRe_apply, ha, hb, hc, he,
    at_unit E k col _ x ⟨k, hk⟩ (⟨(⟨col + (x 1).val, by omega⟩ : Fin 64).val, by omega⟩ : Fin 128) rfl rfl,
    at_unit E k (64 + col) _ x ⟨k, hk⟩ (⟨64 + (⟨col + (x 1).val, by omega⟩ : Fin 64).val, by omega⟩ : Fin 128) rfl (by show 64 + (col + (x 1).val) = _; omega),
    at_unit R k col _ x ⟨k, hk⟩ (⟨col + (x 1).val, by omega⟩ : Fin 64) rfl rfl,
    at_unit I k col _ x ⟨k, hk⟩ (⟨col + (x 1).val, by omega⟩ : Fin 64) rfl rfl,
    at_unit out k col _ x ⟨k, hk⟩ (⟨(⟨col + (x 1).val, by omega⟩ : Fin 64).val, by omega⟩ : Fin 128) rfl rfl]
  exact (hlo ⟨k, hk⟩ ⟨col + (x 1).val, by omega⟩).symm

omit m d L in
/-- The imaginary-part piece at column `64 + col` of row `k`. -/
theorem piece_im (E : S64x128.Idx → F .f32) (R I : S64x64.Idx → F .f32) (out : S64x128.Idx → F .f32)
    (hhi : ∀ (i j : Fin 64), out (ix2 i (⟨64 + j.val, by omega⟩ : Fin 128))
      = FloatOps.addf (FloatOps.mulf (E (ix2 i (⟨j.val, by omega⟩ : Fin 128))) (I (ix2 i j)))
          (FloatOps.mulf (E (ix2 i (⟨64 + j.val, by omega⟩ : Fin 128))) (R (ix2 i j))))
    (k col : ℕ) (hk : k < 64) (hcol : col + 16 ≤ 64)
    (oEl oEh oO oR oI : Fin 2 → ℕ)
    (inbEl : ∀ a, oEl a + S1x16.size a ≤ S64x128.size a) (inbEh : ∀ a, oEh a + S1x16.size a ≤ S64x128.size a)
    (inbO : ∀ a, oO a + S1x16.size a ≤ S64x128.size a)
    (inbR : ∀ a, oR a + S1x16.size a ≤ S64x64.size a) (inbI : ∀ a, oI a + S1x16.size a ≤ S64x64.size a)
    (eEl : oEl = ![k, col]) (eEh : oEh = ![k, 64 + col]) (eO : oO = ![k, 64 + col]) (eR : oR = ![k, col]) (eI : oI = ![k, col])
    (a b c e : S1x16.Idx → F .f32)
    (ha : ∀ x, a x = E ((Rect.unit (s := S64x128) oEl S1x16.size inbEl).emb x))
    (hb : ∀ x, b x = E ((Rect.unit (s := S64x128) oEh S1x16.size inbEh).emb x))
    (hc : ∀ x, c x = R ((Rect.unit (s := S64x64) oR S1x16.size inbR).emb x))
    (he : ∀ x, e x = I ((Rect.unit (s := S64x64) oI S1x16.size inbI).emb x)) :
    ∀ x, payIm a b c e x = out ((Rect.unit (s := S64x128) oO S1x16.size inbO).emb x) := by
  subst eEl eEh eO eR eI
  intro x
  have hx1 : (x 1).val < 16 := (x 1).isLt
  rw [payIm_apply, ha, hb, hc, he,
    at_unit E k col _ x ⟨k, hk⟩ (⟨(⟨col + (x 1).val, by omega⟩ : Fin 64).val, by omega⟩ : Fin 128) rfl rfl,
    at_unit E k (64 + col) _ x ⟨k, hk⟩ (⟨64 + (⟨col + (x 1).val, by omega⟩ : Fin 64).val, by omega⟩ : Fin 128) rfl (by show 64 + (col + (x 1).val) = _; omega),
    at_unit R k col _ x ⟨k, hk⟩ (⟨col + (x 1).val, by omega⟩ : Fin 64) rfl rfl,
    at_unit I k col _ x ⟨k, hk⟩ (⟨col + (x 1).val, by omega⟩ : Fin 64) rfl rfl,
    at_unit out k (64 + col) _ x ⟨k, hk⟩ (⟨64 + (⟨col + (x 1).val, by omega⟩ : Fin 64).val, by omega⟩ : Fin 128) rfl (by show 64 + (col + (x 1).val) = _; omega)]
  exact (hhi ⟨k, hk⟩ ⟨col + (x 1).val, by omega⟩).symm

/-! ## Eight pieces of row `k`: the rows below stay, row `k` is covered -/

omit m d L [FloatOps F] in
/-- After eight pieces of 1 × 16 written into row `k` at columns that cover 0 .. 127, each holding `out` there,
    over contents that hold `out` on the rows below `k`, the contents hold `out` on the rows below `k + 1`. -/
theorem row_done {sg : RefSig} {κ : Kind} {sp : Space} (v : View sg κ sp S64x128 .f32) (fo : v.ty.Contents (Elt F)) (out : S64x128.Idx → F .f32) (k : ℕ)
    (c1 c2 c3 c4 c5 c6 c7 c8 : ℕ)
    (hcov : ∀ j < 128, (c1 ≤ j ∧ j < c1 + 16) ∨ (c2 ≤ j ∧ j < c2 + 16) ∨ (c3 ≤ j ∧ j < c3 + 16) ∨ (c4 ≤ j ∧ j < c4 + 16)
      ∨ (c5 ≤ j ∧ j < c5 + 16) ∨ (c6 ≤ j ∧ j < c6 + 16) ∨ (c7 ≤ j ∧ j < c7 + 16) ∨ (c8 ≤ j ∧ j < c8 + 16))
    (o1 o2 o3 o4 o5 o6 o7 o8 : Fin 2 → ℕ)
    (i1 : ∀ a, o1 a + S1x16.size a ≤ S64x128.size a) (i2 : ∀ a, o2 a + S1x16.size a ≤ S64x128.size a)
    (i3 : ∀ a, o3 a + S1x16.size a ≤ S64x128.size a) (i4 : ∀ a, o4 a + S1x16.size a ≤ S64x128.size a)
    (i5 : ∀ a, o5 a + S1x16.size a ≤ S64x128.size a) (i6 : ∀ a, o6 a + S1x16.size a ≤ S64x128.size a)
    (i7 : ∀ a, o7 a + S1x16.size a ≤ S64x128.size a) (i8 : ∀ a, o8 a + S1x16.size a ≤ S64x128.size a)
    (e1 : o1 = ![k, c1]) (e2 : o2 = ![k, c2]) (e3 : o3 = ![k, c3]) (e4 : o4 = ![k, c4])
    (e5 : o5 = ![k, c5]) (e6 : o6 = ![k, c6]) (e7 : o7 = ![k, c7]) (e8 : o8 = ![k, c8])
    (w1 : (Rect.unit (s := S64x128) o1 S1x16.size i1).shape.Idx → F .f32) (w2 : (Rect.unit (s := S64x128) o2 S1x16.size i2).shape.Idx → F .f32)
    (w3 : (Rect.unit (s := S64x128) o3 S1x16.size i3).shape.Idx → F .f32) (w4 : (Rect.unit (s := S64x128) o4 S1x16.size i4).shape.Idx → F .f32)
    (w5 : (Rect.unit (s := S64x128) o5 S1x16.size i5).shape.Idx → F .f32) (w6 : (Rect.unit (s := S64x128) o6 S1x16.size i6).shape.Idx → F .f32)
    (w7 : (Rect.unit (s := S64x128) o7 S1x16.size i7).shape.Idx → F .f32) (w8 : (Rect.unit (s := S64x128) o8 S1x16.size i8).shape.Idx → F .f32)
    (h1 : ∀ x, w1 x = out ((Rect.unit (s := S64x128) o1 S1x16.size i1).emb x)) (h2 : ∀ x, w2 x = out ((Rect.unit (s := S64x128) o2 S1x16.size i2).emb x))
    (h3 : ∀ x, w3 x = out ((Rect.unit (s := S64x128) o3 S1x16.size i3).emb x)) (h4 : ∀ x, w4 x = out ((Rect.unit (s := S64x128) o4 S1x16.size i4).emb x))
    (h5 : ∀ x, w5 x = out ((Rect.unit (s := S64x128) o5 S1x16.size i5).emb x)) (h6 : ∀ x, w6 x = out ((Rect.unit (s := S64x128) o6 S1x16.size i6).emb x))
    (h7 : ∀ x, w7 x = out ((Rect.unit (s := S64x128) o7 S1x16.size i7).emb x)) (h8 : ∀ x, w8 x = out ((Rect.unit (s := S64x128) o8 S1x16.size i8).emb x))
    (hprev : ∀ y : S64x128.Idx, (y 0).val < k → v.read (Elt F) fo y = out y) :
    ∀ y : S64x128.Idx, (y 0).val < k + 1 →
      v.read (Elt F) (v.writes (Elt F) fo [⟨Rect.unit (s := S64x128) o1 S1x16.size i1, w1⟩, ⟨Rect.unit (s := S64x128) o2 S1x16.size i2, w2⟩,
        ⟨Rect.unit (s := S64x128) o3 S1x16.size i3, w3⟩, ⟨Rect.unit (s := S64x128) o4 S1x16.size i4, w4⟩,
        ⟨Rect.unit (s := S64x128) o5 S1x16.size i5, w5⟩, ⟨Rect.unit (s := S64x128) o6 S1x16.size i6, w6⟩,
        ⟨Rect.unit (s := S64x128) o7 S1x16.size i7, w7⟩, ⟨Rect.unit (s := S64x128) o8 S1x16.size i8, w8⟩]) y = out y := by
  subst e1 e2 e3 e4 e5 e6 e7 e8
  intro y hy
  have hy1 : (y 1).val < 128 := (y 1).isLt
  have hmem : ∀ (c : ℕ) (inb : ∀ a, (![k, c] : Fin 2 → ℕ) a + S1x16.size a ≤ S64x128.size a),
      y ∈ (Rect.unit (s := S64x128) ![k, c] S1x16.size inb).set ↔ (y 0).val = k ∧ c ≤ (y 1).val ∧ (y 1).val < c + 16 := by
    intro c inb
    rw [Rect.mem_set_unit]
    constructor
    · intro h
      have h0 := h 0; have h1 := h 1
      simp at h0 h1
      omega
    · intro h a
      match a with
      | ⟨0, _⟩ => simp; omega
      | ⟨1, _⟩ => simp; omega
  by_cases hlt : (y 0).val < k
  · rw [View.read_writes_apply_of_forall_not_mem]
    · exact hprev y hlt
    · intro p hp
      simp only [List.mem_cons, List.not_mem_nil, or_false] at hp
      rcases hp with rfl | rfl | rfl | rfl | rfl | rfl | rfl | rfl <;> (rw [hmem]; omega)
  · refine View.read_writes_apply_of_pieces v fo out _ ?_ y ?_
    · intro p hp
      simp only [List.mem_cons, List.not_mem_nil, or_false] at hp
      rcases hp with rfl | rfl | rfl | rfl | rfl | rfl | rfl | rfl
      · exact h1
      · exact h2
      · exact h3
      · exact h4
      · exact h5
      · exact h6
      · exact h7
      · exact h8
    · have hk : (y 0).val = k := by omega
      rcases hcov (y 1).val hy1 with h | h | h | h | h | h | h | h
      · exact ⟨_, List.mem_cons_self, (hmem c1 i1).mpr ⟨hk, h⟩⟩
      · exact ⟨_, List.mem_cons_of_mem _ List.mem_cons_self, (hmem c2 i2).mpr ⟨hk, h⟩⟩
      · exact ⟨_, List.mem_cons_of_mem _ (List.mem_cons_of_mem _ List.mem_cons_self), (hmem c3 i3).mpr ⟨hk, h⟩⟩
      · exact ⟨_, List.mem_cons_of_mem _ (List.mem_cons_of_mem _ (List.mem_cons_of_mem _ List.mem_cons_self)), (hmem c4 i4).mpr ⟨hk, h⟩⟩
      · exact ⟨_, List.mem_cons_of_mem _ (List.mem_cons_of_mem _ (List.mem_cons_of_mem _ (List.mem_cons_of_mem _ List.mem_cons_self))), (hmem c5 i5).mpr ⟨hk, h⟩⟩
      · exact ⟨_, List.mem_cons_of_mem _ (List.mem_cons_of_mem _ (List.mem_cons_of_mem _ (List.mem_cons_of_mem _ (List.mem_cons_of_mem _ List.mem_cons_self)))), (hmem c6 i6).mpr ⟨hk, h⟩⟩
      · exact ⟨_, List.mem_cons_of_mem _ (List.mem_cons_of_mem _ (List.mem_cons_of_mem _ (List.mem_cons_of_mem _ (List.mem_cons_of_mem _ (List.mem_cons_of_mem _ List.mem_cons_self))))), (hmem c7 i7).mpr ⟨hk, h⟩⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (hmem c8 i8).mpr ⟨hk, h⟩⟩

end Cert.Proof.KI

end
-- ==== Proof.KI.Compute0.lean ====
/-
  The compute loops of the chunks at buffer parity 0 (chunks 0, 2, 4, 6): one trip at a symbolic row `k`. The trip's
  sixteen loads read pieces of row k of the chunk of the batch and of the two gathered scratches, its eight stores
  write row k of the result scratch, eight pieces of 16 lanes; each stored piece is the specification's entries of
  that row there, and the rows below k are untouched.
-/
import proofs.«204629_g89326729822651_cont_sun_m_635_33_alg».proof.Proof.KI.Invs
import proofs.«204629_g89326729822651_cont_sun_m_635_33_alg».proof.Proof.KI.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

set_option maxHeartbeats 4000000 in
/-- One trip of chunk 0's compute loop: row `k` of the result scratch is filled with the specification's row. -/
theorem compute_region_t4 (k : Fin k0_t4_loop.trips) (v1 c0 : BitVec 32) :
    computeInv0 m d L (⟨0, by decide⟩ : Fin 8) k.val ()
      ⊢ wp frame (wpE (defs₀ (F := F)) 𝒱₀ (thr d L) none) Set.univ
          (k0_t4_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0 k ())
          (fun acc => computeInv0 m d L (⟨0, by decide⟩ : Fin 8) (k.val + 1) acc) := by
  unfold k0_t4_body
  rw [k0_part1_eq_skeleton, k0_part2_eq_skeleton]
  unfold k0_part1_skel k0_part2_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t4_abs.2.1
  exact row_done (b7).view fo (outChunk m d L (⟨0, by decide⟩ : Fin 8)) k.val 112 48 96 32 80 16 64 0 (by intro j hj; omega)
    (k0_off22 k) (k0_off21 k) (k0_off19 k) (k0_off18 k) (k0_off16 k) (k0_off15 k) (k0_off13 k) (k0_off12 k)
    (k0_off22_inb k) (k0_off21_inb k) (k0_off19_inb k) (k0_off18_inb k) (k0_off16_inb k) (k0_off15_inb k) (k0_off13_inb k) (k0_off12_inb k)
    (k0_off22_eq k) (k0_off21_eq k) (k0_off19_eq k) (k0_off18_eq k) (k0_off16_eq k) (k0_off15_eq k) (k0_off13_eq k) (k0_off12_eq k)
    _ _ _ _ _ _ _ _
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 48 hk (by omega)
      (k0_off21 k) (k0_off22 k) (k0_off22 k) (k0_off23 k) (k0_off23 k) (k0_off21_inb k) (k0_off22_inb k) (k0_off22_inb k) (k0_off23_inb k) (k0_off23_inb k)
      (k0_off21_eq k) (k0_off22_eq k) (k0_off22_eq k) (k0_off23_eq k) (k0_off23_eq k)
      (View.readAt (Elt F) (b1).view (Rect.unit (s := S64x128) (k0_off21 k) S1x16.size (k0_off21_inb k)).toLoadRect (embChunk m d L (⟨0, by decide⟩ : Fin 8))) (View.readAt (Elt F) (b1).view (Rect.unit (s := S64x128) (k0_off22 k) S1x16.size (k0_off22_inb k)).toLoadRect (embChunk m d L (⟨0, by decide⟩ : Fin 8)))
      (View.readAt (Elt F) (b3).view (Rect.unit (s := S64x64) (k0_off23 k) S1x16.size (k0_off23_inb k)).toLoadRect (gathered m d L (m (rLoc d)) (⟨0, by decide⟩ : Fin 8))) (View.readAt (Elt F) (b5).view (Rect.unit (s := S64x64) (k0_off23 k) S1x16.size (k0_off23_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 48 hk (by omega)
      (k0_off21 k) (k0_off22 k) (k0_off21 k) (k0_off23 k) (k0_off23 k) (k0_off21_inb k) (k0_off22_inb k) (k0_off21_inb k) (k0_off23_inb k) (k0_off23_inb k)
      (k0_off21_eq k) (k0_off22_eq k) (k0_off21_eq k) (k0_off23_eq k) (k0_off23_eq k)
      (View.readAt (Elt F) (b1).view (Rect.unit (s := S64x128) (k0_off21 k) S1x16.size (k0_off21_inb k)).toLoadRect (embChunk m d L (⟨0, by decide⟩ : Fin 8))) (View.readAt (Elt F) (b1).view (Rect.unit (s := S64x128) (k0_off22 k) S1x16.size (k0_off22_inb k)).toLoadRect (embChunk m d L (⟨0, by decide⟩ : Fin 8)))
      (View.readAt (Elt F) (b3).view (Rect.unit (s := S64x64) (k0_off23 k) S1x16.size (k0_off23_inb k)).toLoadRect (gathered m d L (m (rLoc d)) (⟨0, by decide⟩ : Fin 8))) (View.readAt (Elt F) (b5).view (Rect.unit (s := S64x64) (k0_off23 k) S1x16.size (k0_off23_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 32 hk (by omega)
      (k0_off18 k) (k0_off19 k) (k0_off19 k) (k0_off20 k) (k0_off20 k) (k0_off18_inb k) (k0_off19_inb k) (k0_off19_inb k) (k0_off20_inb k) (k0_off20_inb k)
      (k0_off18_eq k) (k0_off19_eq k) (k0_off19_eq k) (k0_off20_eq k) (k0_off20_eq k)
      (View.readAt (Elt F) (b1).view (Rect.unit (s := S64x128) (k0_off18 k) S1x16.size (k0_off18_inb k)).toLoadRect (embChunk m d L (⟨0, by decide⟩ : Fin 8))) (View.readAt (Elt F) (b1).view (Rect.unit (s := S64x128) (k0_off19 k) S1x16.size (k0_off19_inb k)).toLoadRect (embChunk m d L (⟨0, by decide⟩ : Fin 8)))
      (View.readAt (Elt F) (b3).view (Rect.unit (s := S64x64) (k0_off20 k) S1x16.size (k0_off20_inb k)).toLoadRect (gathered m d L (m (rLoc d)) (⟨0, by decide⟩ : Fin 8))) (View.readAt (Elt F) (b5).view (Rect.unit (s := S64x64) (k0_off20 k) S1x16.size (k0_off20_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 32 hk (by omega)
      (k0_off18 k) (k0_off19 k) (k0_off18 k) (k0_off20 k) (k0_off20 k) (k0_off18_inb k) (k0_off19_inb k) (k0_off18_inb k) (k0_off20_inb k) (k0_off20_inb k)
      (k0_off18_eq k) (k0_off19_eq k) (k0_off18_eq k) (k0_off20_eq k) (k0_off20_eq k)
      (View.readAt (Elt F) (b1).view (Rect.unit (s := S64x128) (k0_off18 k) S1x16.size (k0_off18_inb k)).toLoadRect (embChunk m d L (⟨0, by decide⟩ : Fin 8))) (View.readAt (Elt F) (b1).view (Rect.unit (s := S64x128) (k0_off19 k) S1x16.size (k0_off19_inb k)).toLoadRect (embChunk m d L (⟨0, by decide⟩ : Fin 8)))
      (View.readAt (Elt F) (b3).view (Rect.unit (s := S64x64) (k0_off20 k) S1x16.size (k0_off20_inb k)).toLoadRect (gathered m d L (m (rLoc d)) (⟨0, by decide⟩ : Fin 8))) (View.readAt (Elt F) (b5).view (Rect.unit (s := S64x64) (k0_off20 k) S1x16.size (k0_off20_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 16 hk (by omega)
      (k0_off15 k) (k0_off16 k) (k0_off16 k) (k0_off17 k) (k0_off17 k) (k0_off15_inb k) (k0_off16_inb k) (k0_off16_inb k) (k0_off17_inb k) (k0_off17_inb k)
      (k0_off15_eq k) (k0_off16_eq k) (k0_off16_eq k) (k0_off17_eq k) (k0_off17_eq k)
      (View.readAt (Elt F) (b1).view (Rect.unit (s := S64x128) (k0_off15 k) S1x16.size (k0_off15_inb k)).toLoadRect (embChunk m d L (⟨0, by decide⟩ : Fin 8))) (View.readAt (Elt F) (b1).view (Rect.unit (s := S64x128) (k0_off16 k) S1x16.size (k0_off16_inb k)).toLoadRect (embChunk m d L (⟨0, by decide⟩ : Fin 8)))
      (View.readAt (Elt F) (b3).view (Rect.unit (s := S64x64) (k0_off17 k) S1x16.size (k0_off17_inb k)).toLoadRect (gathered m d L (m (rLoc d)) (⟨0, by decide⟩ : Fin 8))) (View.readAt (Elt F) (b5).view (Rect.unit (s := S64x64) (k0_off17 k) S1x16.size (k0_off17_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 16 hk (by omega)
      (k0_off15 k) (k0_off16 k) (k0_off15 k) (k0_off17 k) (k0_off17 k) (k0_off15_inb k) (k0_off16_inb k) (k0_off15_inb k) (k0_off17_inb k) (k0_off17_inb k)
      (k0_off15_eq k) (k0_off16_eq k) (k0_off15_eq k) (k0_off17_eq k) (k0_off17_eq k)
      (View.readAt (Elt F) (b1).view (Rect.unit (s := S64x128) (k0_off15 k) S1x16.size (k0_off15_inb k)).toLoadRect (embChunk m d L (⟨0, by decide⟩ : Fin 8))) (View.readAt (Elt F) (b1).view (Rect.unit (s := S64x128) (k0_off16 k) S1x16.size (k0_off16_inb k)).toLoadRect (embChunk m d L (⟨0, by decide⟩ : Fin 8)))
      (View.readAt (Elt F) (b3).view (Rect.unit (s := S64x64) (k0_off17 k) S1x16.size (k0_off17_inb k)).toLoadRect (gathered m d L (m (rLoc d)) (⟨0, by decide⟩ : Fin 8))) (View.readAt (Elt F) (b5).view (Rect.unit (s := S64x64) (k0_off17 k) S1x16.size (k0_off17_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 0 hk (by omega)
      (k0_off12 k) (k0_off13 k) (k0_off13 k) (k0_off14 k) (k0_off14 k) (k0_off12_inb k) (k0_off13_inb k) (k0_off13_inb k) (k0_off14_inb k) (k0_off14_inb k)
      (k0_off12_eq k) (k0_off13_eq k) (k0_off13_eq k) (k0_off14_eq k) (k0_off14_eq k)
      (View.readAt (Elt F) (b1).view (Rect.unit (s := S64x128) (k0_off12 k) S1x16.size (k0_off12_inb k)).toLoadRect (embChunk m d L (⟨0, by decide⟩ : Fin 8))) (View.readAt (Elt F) (b1).view (Rect.unit (s := S64x128) (k0_off13 k) S1x16.size (k0_off13_inb k)).toLoadRect (embChunk m d L (⟨0, by decide⟩ : Fin 8)))
      (View.readAt (Elt F) (b3).view (Rect.unit (s := S64x64) (k0_off14 k) S1x16.size (k0_off14_inb k)).toLoadRect (gathered m d L (m (rLoc d)) (⟨0, by decide⟩ : Fin 8))) (View.readAt (Elt F) (b5).view (Rect.unit (s := S64x64) (k0_off14 k) S1x16.size (k0_off14_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 0 hk (by omega)
      (k0_off12 k) (k0_off13 k) (k0_off12 k) (k0_off14 k) (k0_off14 k) (k0_off12_inb k) (k0_off13_inb k) (k0_off12_inb k) (k0_off14_inb k) (k0_off14_inb k)
      (k0_off12_eq k) (k0_off13_eq k) (k0_off12_eq k) (k0_off14_eq k) (k0_off14_eq k)
      (View.readAt (Elt F) (b1).view (Rect.unit (s := S64x128) (k0_off12 k) S1x16.size (k0_off12_inb k)).toLoadRect (embChunk m d L (⟨0, by decide⟩ : Fin 8))) (View.readAt (Elt F) (b1).view (Rect.unit (s := S64x128) (k0_off13 k) S1x16.size (k0_off13_inb k)).toLoadRect (embChunk m d L (⟨0, by decide⟩ : Fin 8)))
      (View.readAt (Elt F) (b3).view (Rect.unit (s := S64x64) (k0_off14 k) S1x16.size (k0_off14_inb k)).toLoadRect (gathered m d L (m (rLoc d)) (⟨0, by decide⟩ : Fin 8))) (View.readAt (Elt F) (b5).view (Rect.unit (s := S64x64) (k0_off14 k) S1x16.size (k0_off14_inb k)).toLoadRect (gathered m d L (m (gLoc d)) (⟨0, by decide⟩ : Fin 8)))
      (fun _ => rfl) (fun _ => rfl) (fun _ => rfl) (fun _ => rfl))
    hfo

set_option maxHeartbeats 4000000 in
/-- One trip of chunk 2's compute loop: row `k` of the result scratch is filled with the specification's row. -/
theorem compute_region_t10 (k : Fin k0_t10_loop.trips) (v1 : BitVec 32) :
    computeInv0 m d L (⟨2, by decide⟩ : Fin 8) k.val ()
      ⊢ wp frame (wpE (defs₀ (F := F)) 𝒱₀ (thr d L) none) Set.univ
          (k0_t10_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨2, by decide⟩ : Fin 8) (k.val + 1) acc) := by
  unfold k0_t10_body
  rw [k0_part5_eq_skeleton, k0_part6_eq_skeleton]
  unfold k0_part5_skel k0_part6_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t10_abs.2.1
  exact row_done (b7).view fo (outChunk m d L (⟨2, by decide⟩ : Fin 8)) k.val 112 48 96 32 80 16 64 0 (by intro j hj; omega)
    (k0_off56 k) (k0_off55 k) (k0_off53 k) (k0_off52 k) (k0_off50 k) (k0_off49 k) (k0_off47 k) (k0_off46 k)
    (k0_off56_inb k) (k0_off55_inb k) (k0_off53_inb k) (k0_off52_inb k) (k0_off50_inb k) (k0_off49_inb k) (k0_off47_inb k) (k0_off46_inb k)
    (k0_off56_eq k) (k0_off55_eq k) (k0_off53_eq k) (k0_off52_eq k) (k0_off50_eq k) (k0_off49_eq k) (k0_off47_eq k) (k0_off46_eq k)
    _ _ _ _ _ _ _ _
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 48 hk (by omega)
      (k0_off55 k) (k0_off56 k) (k0_off56 k) (k0_off57 k) (k0_off57 k) (k0_off55_inb k) (k0_off56_inb k) (k0_off56_inb k) (k0_off57_inb k) (k0_off57_inb k)
      (k0_off55_eq k) (k0_off56_eq k) (k0_off56_eq k) (k0_off57_eq k) (k0_off57_eq k)
      (View.readAt (Elt F) (b1).view (Rect.unit (s := S64x128) (k0_off55 k) S1x16.size (k0_off55_inb k)).toLoadRect (embChunk m d L (⟨2, by decide⟩ : Fin 8))) (View.readAt (Elt F) (b1).view (Rect.unit (s := S64x128) (k0_off56 k) S1x16.size (k0_off56_inb k)).toLoadRect (embChunk m d L (⟨2, by decide⟩ : Fin 8)))
      (View.readAt (Elt F) (b3).view (Rect.unit (s := S64x64) (k0_off57 k) S1x16.size (k0_off57_inb k)).toLoadRect (gathered m d L (m (rLoc d)) (⟨2, by decide⟩ : Fin 8))) (View.readAt (Elt F) (b5).view (Rect.unit (s := S64x64) (k0_off57 k) S1x16.size (k0_off57_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 48 hk (by omega)
      (k0_off55 k) (k0_off56 k) (k0_off55 k) (k0_off57 k) (k0_off57 k) (k0_off55_inb k) (k0_off56_inb k) (k0_off55_inb k) (k0_off57_inb k) (k0_off57_inb k)
      (k0_off55_eq k) (k0_off56_eq k) (k0_off55_eq k) (k0_off57_eq k) (k0_off57_eq k)
      (View.readAt (Elt F) (b1).view (Rect.unit (s := S64x128) (k0_off55 k) S1x16.size (k0_off55_inb k)).toLoadRect (embChunk m d L (⟨2, by decide⟩ : Fin 8))) (View.readAt (Elt F) (b1).view (Rect.unit (s := S64x128) (k0_off56 k) S1x16.size (k0_off56_inb k)).toLoadRect (embChunk m d L (⟨2, by decide⟩ : Fin 8)))
      (View.readAt (Elt F) (b3).view (Rect.unit (s := S64x64) (k0_off57 k) S1x16.size (k0_off57_inb k)).toLoadRect (gathered m d L (m (rLoc d)) (⟨2, by decide⟩ : Fin 8))) (View.readAt (Elt F) (b5).view (Rect.unit (s := S64x64) (k0_off57 k) S1x16.size (k0_off57_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 32 hk (by omega)
      (k0_off52 k) (k0_off53 k) (k0_off53 k) (k0_off54 k) (k0_off54 k) (k0_off52_inb k) (k0_off53_inb k) (k0_off53_inb k) (k0_off54_inb k) (k0_off54_inb k)
      (k0_off52_eq k) (k0_off53_eq k) (k0_off53_eq k) (k0_off54_eq k) (k0_off54_eq k)
      (View.readAt (Elt F) (b1).view (Rect.unit (s := S64x128) (k0_off52 k) S1x16.size (k0_off52_inb k)).toLoadRect (embChunk m d L (⟨2, by decide⟩ : Fin 8))) (View.readAt (Elt F) (b1).view (Rect.unit (s := S64x128) (k0_off53 k) S1x16.size (k0_off53_inb k)).toLoadRect (embChunk m d L (⟨2, by decide⟩ : Fin 8)))
      (View.readAt (Elt F) (b3).view (Rect.unit (s := S64x64) (k0_off54 k) S1x16.size (k0_off54_inb k)).toLoadRect (gathered m d L (m (rLoc d)) (⟨2, by decide⟩ : Fin 8))) (View.readAt (Elt F) (b5).view (Rect.unit (s := S64x64) (k0_off54 k) S1x16.size (k0_off54_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 32 hk (by omega)
      (k0_off52 k) (k0_off53 k) (k0_off52 k) (k0_off54 k) (k0_off54 k) (k0_off52_inb k) (k0_off53_inb k) (k0_off52_inb k) (k0_off54_inb k) (k0_off54_inb k)
      (k0_off52_eq k) (k0_off53_eq k) (k0_off52_eq k) (k0_off54_eq k) (k0_off54_eq k)
      (View.readAt (Elt F) (b1).view (Rect.unit (s := S64x128) (k0_off52 k) S1x16.size (k0_off52_inb k)).toLoadRect (embChunk m d L (⟨2, by decide⟩ : Fin 8))) (View.readAt (Elt F) (b1).view (Rect.unit (s := S64x128) (k0_off53 k) S1x16.size (k0_off53_inb k)).toLoadRect (embChunk m d L (⟨2, by decide⟩ : Fin 8)))
      (View.readAt (Elt F) (b3).view (Rect.unit (s := S64x64) (k0_off54 k) S1x16.size (k0_off54_inb k)).toLoadRect (gathered m d L (m (rLoc d)) (⟨2, by decide⟩ : Fin 8))) (View.readAt (Elt F) (b5).view (Rect.unit (s := S64x64) (k0_off54 k) S1x16.size (k0_off54_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 16 hk (by omega)
      (k0_off49 k) (k0_off50 k) (k0_off50 k) (k0_off51 k) (k0_off51 k) (k0_off49_inb k) (k0_off50_inb k) (k0_off50_inb k) (k0_off51_inb k) (k0_off51_inb k)
      (k0_off49_eq k) (k0_off50_eq k) (k0_off50_eq k) (k0_off51_eq k) (k0_off51_eq k)
      (View.readAt (Elt F) (b1).view (Rect.unit (s := S64x128) (k0_off49 k) S1x16.size (k0_off49_inb k)).toLoadRect (embChunk m d L (⟨2, by decide⟩ : Fin 8))) (View.readAt (Elt F) (b1).view (Rect.unit (s := S64x128) (k0_off50 k) S1x16.size (k0_off50_inb k)).toLoadRect (embChunk m d L (⟨2, by decide⟩ : Fin 8)))
      (View.readAt (Elt F) (b3).view (Rect.unit (s := S64x64) (k0_off51 k) S1x16.size (k0_off51_inb k)).toLoadRect (gathered m d L (m (rLoc d)) (⟨2, by decide⟩ : Fin 8))) (View.readAt (Elt F) (b5).view (Rect.unit (s := S64x64) (k0_off51 k) S1x16.size (k0_off51_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 16 hk (by omega)
      (k0_off49 k) (k0_off50 k) (k0_off49 k) (k0_off51 k) (k0_off51 k) (k0_off49_inb k) (k0_off50_inb k) (k0_off49_inb k) (k0_off51_inb k) (k0_off51_inb k)
      (k0_off49_eq k) (k0_off50_eq k) (k0_off49_eq k) (k0_off51_eq k) (k0_off51_eq k)
      (View.readAt (Elt F) (b1).view (Rect.unit (s := S64x128) (k0_off49 k) S1x16.size (k0_off49_inb k)).toLoadRect (embChunk m d L (⟨2, by decide⟩ : Fin 8))) (View.readAt (Elt F) (b1).view (Rect.unit (s := S64x128) (k0_off50 k) S1x16.size (k0_off50_inb k)).toLoadRect (embChunk m d L (⟨2, by decide⟩ : Fin 8)))
      (View.readAt (Elt F) (b3).view (Rect.unit (s := S64x64) (k0_off51 k) S1x16.size (k0_off51_inb k)).toLoadRect (gathered m d L (m (rLoc d)) (⟨2, by decide⟩ : Fin 8))) (View.readAt (Elt F) (b5).view (Rect.unit (s := S64x64) (k0_off51 k) S1x16.size (k0_off51_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 0 hk (by omega)
      (k0_off46 k) (k0_off47 k) (k0_off47 k) (k0_off48 k) (k0_off48 k) (k0_off46_inb k) (k0_off47_inb k) (k0_off47_inb k) (k0_off48_inb k) (k0_off48_inb k)
      (k0_off46_eq k) (k0_off47_eq k) (k0_off47_eq k) (k0_off48_eq k) (k0_off48_eq k)
      (View.readAt (Elt F) (b1).view (Rect.unit (s := S64x128) (k0_off46 k) S1x16.size (k0_off46_inb k)).toLoadRect (embChunk m d L (⟨2, by decide⟩ : Fin 8))) (View.readAt (Elt F) (b1).view (Rect.unit (s := S64x128) (k0_off47 k) S1x16.size (k0_off47_inb k)).toLoadRect (embChunk m d L (⟨2, by decide⟩ : Fin 8)))
      (View.readAt (Elt F) (b3).view (Rect.unit (s := S64x64) (k0_off48 k) S1x16.size (k0_off48_inb k)).toLoadRect (gathered m d L (m (rLoc d)) (⟨2, by decide⟩ : Fin 8))) (View.readAt (Elt F) (b5).view (Rect.unit (s := S64x64) (k0_off48 k) S1x16.size (k0_off48_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 0 hk (by omega)
      (k0_off46 k) (k0_off47 k) (k0_off46 k) (k0_off48 k) (k0_off48 k) (k0_off46_inb k) (k0_off47_inb k) (k0_off46_inb k) (k0_off48_inb k) (k0_off48_inb k)
      (k0_off46_eq k) (k0_off47_eq k) (k0_off46_eq k) (k0_off48_eq k) (k0_off48_eq k)
      (View.readAt (Elt F) (b1).view (Rect.unit (s := S64x128) (k0_off46 k) S1x16.size (k0_off46_inb k)).toLoadRect (embChunk m d L (⟨2, by decide⟩ : Fin 8))) (View.readAt (Elt F) (b1).view (Rect.unit (s := S64x128) (k0_off47 k) S1x16.size (k0_off47_inb k)).toLoadRect (embChunk m d L (⟨2, by decide⟩ : Fin 8)))
      (View.readAt (Elt F) (b3).view (Rect.unit (s := S64x64) (k0_off48 k) S1x16.size (k0_off48_inb k)).toLoadRect (gathered m d L (m (rLoc d)) (⟨2, by decide⟩ : Fin 8))) (View.readAt (Elt F) (b5).view (Rect.unit (s := S64x64) (k0_off48 k) S1x16.size (k0_off48_inb k)).toLoadRect (gathered m d L (m (gLoc d)) (⟨2, by decide⟩ : Fin 8)))
      (fun _ => rfl) (fun _ => rfl) (fun _ => rfl) (fun _ => rfl))
    hfo

set_option maxHeartbeats 4000000 in
/-- One trip of chunk 4's compute loop: row `k` of the result scratch is filled with the specification's row. -/
theorem compute_region_t16 (k : Fin k0_t16_loop.trips) (v1 : BitVec 32) :
    computeInv0 m d L (⟨4, by decide⟩ : Fin 8) k.val ()
      ⊢ wp frame (wpE (defs₀ (F := F)) 𝒱₀ (thr d L) none) Set.univ
          (k0_t16_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨4, by decide⟩ : Fin 8) (k.val + 1) acc) := by
  unfold k0_t16_body
  rw [k0_part9_eq_skeleton, k0_part10_eq_skeleton]
  unfold k0_part9_skel k0_part10_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t16_abs.2.1
  exact row_done (b7).view fo (outChunk m d L (⟨4, by decide⟩ : Fin 8)) k.val 112 48 96 32 80 16 64 0 (by intro j hj; omega)
    (k0_off90 k) (k0_off89 k) (k0_off87 k) (k0_off86 k) (k0_off84 k) (k0_off83 k) (k0_off81 k) (k0_off80 k)
    (k0_off90_inb k) (k0_off89_inb k) (k0_off87_inb k) (k0_off86_inb k) (k0_off84_inb k) (k0_off83_inb k) (k0_off81_inb k) (k0_off80_inb k)
    (k0_off90_eq k) (k0_off89_eq k) (k0_off87_eq k) (k0_off86_eq k) (k0_off84_eq k) (k0_off83_eq k) (k0_off81_eq k) (k0_off80_eq k)
    _ _ _ _ _ _ _ _
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 48 hk (by omega)
      (k0_off89 k) (k0_off90 k) (k0_off90 k) (k0_off91 k) (k0_off91 k) (k0_off89_inb k) (k0_off90_inb k) (k0_off90_inb k) (k0_off91_inb k) (k0_off91_inb k)
      (k0_off89_eq k) (k0_off90_eq k) (k0_off90_eq k) (k0_off91_eq k) (k0_off91_eq k)
      (View.readAt (Elt F) (b1).view (Rect.unit (s := S64x128) (k0_off89 k) S1x16.size (k0_off89_inb k)).toLoadRect (embChunk m d L (⟨4, by decide⟩ : Fin 8))) (View.readAt (Elt F) (b1).view (Rect.unit (s := S64x128) (k0_off90 k) S1x16.size (k0_off90_inb k)).toLoadRect (embChunk m d L (⟨4, by decide⟩ : Fin 8)))
      (View.readAt (Elt F) (b3).view (Rect.unit (s := S64x64) (k0_off91 k) S1x16.size (k0_off91_inb k)).toLoadRect (gathered m d L (m (rLoc d)) (⟨4, by decide⟩ : Fin 8))) (View.readAt (Elt F) (b5).view (Rect.unit (s := S64x64) (k0_off91 k) S1x16.size (k0_off91_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 48 hk (by omega)
      (k0_off89 k) (k0_off90 k) (k0_off89 k) (k0_off91 k) (k0_off91 k) (k0_off89_inb k) (k0_off90_inb k) (k0_off89_inb k) (k0_off91_inb k) (k0_off91_inb k)
      (k0_off89_eq k) (k0_off90_eq k) (k0_off89_eq k) (k0_off91_eq k) (k0_off91_eq k)
      (View.readAt (Elt F) (b1).view (Rect.unit (s := S64x128) (k0_off89 k) S1x16.size (k0_off89_inb k)).toLoadRect (embChunk m d L (⟨4, by decide⟩ : Fin 8))) (View.readAt (Elt F) (b1).view (Rect.unit (s := S64x128) (k0_off90 k) S1x16.size (k0_off90_inb k)).toLoadRect (embChunk m d L (⟨4, by decide⟩ : Fin 8)))
      (View.readAt (Elt F) (b3).view (Rect.unit (s := S64x64) (k0_off91 k) S1x16.size (k0_off91_inb k)).toLoadRect (gathered m d L (m (rLoc d)) (⟨4, by decide⟩ : Fin 8))) (View.readAt (Elt F) (b5).view (Rect.unit (s := S64x64) (k0_off91 k) S1x16.size (k0_off91_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 32 hk (by omega)
      (k0_off86 k) (k0_off87 k) (k0_off87 k) (k0_off88 k) (k0_off88 k) (k0_off86_inb k) (k0_off87_inb k) (k0_off87_inb k) (k0_off88_inb k) (k0_off88_inb k)
      (k0_off86_eq k) (k0_off87_eq k) (k0_off87_eq k) (k0_off88_eq k) (k0_off88_eq k)
      (View.readAt (Elt F) (b1).view (Rect.unit (s := S64x128) (k0_off86 k) S1x16.size (k0_off86_inb k)).toLoadRect (embChunk m d L (⟨4, by decide⟩ : Fin 8))) (View.readAt (Elt F) (b1).view (Rect.unit (s := S64x128) (k0_off87 k) S1x16.size (k0_off87_inb k)).toLoadRect (embChunk m d L (⟨4, by decide⟩ : Fin 8)))
      (View.readAt (Elt F) (b3).view (Rect.unit (s := S64x64) (k0_off88 k) S1x16.size (k0_off88_inb k)).toLoadRect (gathered m d L (m (rLoc d)) (⟨4, by decide⟩ : Fin 8))) (View.readAt (Elt F) (b5).view (Rect.unit (s := S64x64) (k0_off88 k) S1x16.size (k0_off88_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 32 hk (by omega)
      (k0_off86 k) (k0_off87 k) (k0_off86 k) (k0_off88 k) (k0_off88 k) (k0_off86_inb k) (k0_off87_inb k) (k0_off86_inb k) (k0_off88_inb k) (k0_off88_inb k)
      (k0_off86_eq k) (k0_off87_eq k) (k0_off86_eq k) (k0_off88_eq k) (k0_off88_eq k)
      (View.readAt (Elt F) (b1).view (Rect.unit (s := S64x128) (k0_off86 k) S1x16.size (k0_off86_inb k)).toLoadRect (embChunk m d L (⟨4, by decide⟩ : Fin 8))) (View.readAt (Elt F) (b1).view (Rect.unit (s := S64x128) (k0_off87 k) S1x16.size (k0_off87_inb k)).toLoadRect (embChunk m d L (⟨4, by decide⟩ : Fin 8)))
      (View.readAt (Elt F) (b3).view (Rect.unit (s := S64x64) (k0_off88 k) S1x16.size (k0_off88_inb k)).toLoadRect (gathered m d L (m (rLoc d)) (⟨4, by decide⟩ : Fin 8))) (View.readAt (Elt F) (b5).view (Rect.unit (s := S64x64) (k0_off88 k) S1x16.size (k0_off88_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 16 hk (by omega)
      (k0_off83 k) (k0_off84 k) (k0_off84 k) (k0_off85 k) (k0_off85 k) (k0_off83_inb k) (k0_off84_inb k) (k0_off84_inb k) (k0_off85_inb k) (k0_off85_inb k)
      (k0_off83_eq k) (k0_off84_eq k) (k0_off84_eq k) (k0_off85_eq k) (k0_off85_eq k)
      (View.readAt (Elt F) (b1).view (Rect.unit (s := S64x128) (k0_off83 k) S1x16.size (k0_off83_inb k)).toLoadRect (embChunk m d L (⟨4, by decide⟩ : Fin 8))) (View.readAt (Elt F) (b1).view (Rect.unit (s := S64x128) (k0_off84 k) S1x16.size (k0_off84_inb k)).toLoadRect (embChunk m d L (⟨4, by decide⟩ : Fin 8)))
      (View.readAt (Elt F) (b3).view (Rect.unit (s := S64x64) (k0_off85 k) S1x16.size (k0_off85_inb k)).toLoadRect (gathered m d L (m (rLoc d)) (⟨4, by decide⟩ : Fin 8))) (View.readAt (Elt F) (b5).view (Rect.unit (s := S64x64) (k0_off85 k) S1x16.size (k0_off85_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 16 hk (by omega)
      (k0_off83 k) (k0_off84 k) (k0_off83 k) (k0_off85 k) (k0_off85 k) (k0_off83_inb k) (k0_off84_inb k) (k0_off83_inb k) (k0_off85_inb k) (k0_off85_inb k)
      (k0_off83_eq k) (k0_off84_eq k) (k0_off83_eq k) (k0_off85_eq k) (k0_off85_eq k)
      (View.readAt (Elt F) (b1).view (Rect.unit (s := S64x128) (k0_off83 k) S1x16.size (k0_off83_inb k)).toLoadRect (embChunk m d L (⟨4, by decide⟩ : Fin 8))) (View.readAt (Elt F) (b1).view (Rect.unit (s := S64x128) (k0_off84 k) S1x16.size (k0_off84_inb k)).toLoadRect (embChunk m d L (⟨4, by decide⟩ : Fin 8)))
      (View.readAt (Elt F) (b3).view (Rect.unit (s := S64x64) (k0_off85 k) S1x16.size (k0_off85_inb k)).toLoadRect (gathered m d L (m (rLoc d)) (⟨4, by decide⟩ : Fin 8))) (View.readAt (Elt F) (b5).view (Rect.unit (s := S64x64) (k0_off85 k) S1x16.size (k0_off85_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 0 hk (by omega)
      (k0_off80 k) (k0_off81 k) (k0_off81 k) (k0_off82 k) (k0_off82 k) (k0_off80_inb k) (k0_off81_inb k) (k0_off81_inb k) (k0_off82_inb k) (k0_off82_inb k)
      (k0_off80_eq k) (k0_off81_eq k) (k0_off81_eq k) (k0_off82_eq k) (k0_off82_eq k)
      (View.readAt (Elt F) (b1).view (Rect.unit (s := S64x128) (k0_off80 k) S1x16.size (k0_off80_inb k)).toLoadRect (embChunk m d L (⟨4, by decide⟩ : Fin 8))) (View.readAt (Elt F) (b1).view (Rect.unit (s := S64x128) (k0_off81 k) S1x16.size (k0_off81_inb k)).toLoadRect (embChunk m d L (⟨4, by decide⟩ : Fin 8)))
      (View.readAt (Elt F) (b3).view (Rect.unit (s := S64x64) (k0_off82 k) S1x16.size (k0_off82_inb k)).toLoadRect (gathered m d L (m (rLoc d)) (⟨4, by decide⟩ : Fin 8))) (View.readAt (Elt F) (b5).view (Rect.unit (s := S64x64) (k0_off82 k) S1x16.size (k0_off82_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 0 hk (by omega)
      (k0_off80 k) (k0_off81 k) (k0_off80 k) (k0_off82 k) (k0_off82 k) (k0_off80_inb k) (k0_off81_inb k) (k0_off80_inb k) (k0_off82_inb k) (k0_off82_inb k)
      (k0_off80_eq k) (k0_off81_eq k) (k0_off80_eq k) (k0_off82_eq k) (k0_off82_eq k)
      (View.readAt (Elt F) (b1).view (Rect.unit (s := S64x128) (k0_off80 k) S1x16.size (k0_off80_inb k)).toLoadRect (embChunk m d L (⟨4, by decide⟩ : Fin 8))) (View.readAt (Elt F) (b1).view (Rect.unit (s := S64x128) (k0_off81 k) S1x16.size (k0_off81_inb k)).toLoadRect (embChunk m d L (⟨4, by decide⟩ : Fin 8)))
      (View.readAt (Elt F) (b3).view (Rect.unit (s := S64x64) (k0_off82 k) S1x16.size (k0_off82_inb k)).toLoadRect (gathered m d L (m (rLoc d)) (⟨4, by decide⟩ : Fin 8))) (View.readAt (Elt F) (b5).view (Rect.unit (s := S64x64) (k0_off82 k) S1x16.size (k0_off82_inb k)).toLoadRect (gathered m d L (m (gLoc d)) (⟨4, by decide⟩ : Fin 8)))
      (fun _ => rfl) (fun _ => rfl) (fun _ => rfl) (fun _ => rfl))
    hfo

set_option maxHeartbeats 4000000 in
/-- One trip of chunk 6's compute loop: row `k` of the result scratch is filled with the specification's row. -/
theorem compute_region_t22 (k : Fin k0_t22_loop.trips) (v1 : BitVec 32) :
    computeInv0 m d L (⟨6, by decide⟩ : Fin 8) k.val ()
      ⊢ wp frame (wpE (defs₀ (F := F)) 𝒱₀ (thr d L) none) Set.univ
          (k0_t22_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨6, by decide⟩ : Fin 8) (k.val + 1) acc) := by
  unfold k0_t22_body
  rw [k0_part13_eq_skeleton, k0_part14_eq_skeleton]
  unfold k0_part13_skel k0_part14_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t22_abs.2.1
  exact row_done (b7).view fo (outChunk m d L (⟨6, by decide⟩ : Fin 8)) k.val 112 48 96 32 80 16 64 0 (by intro j hj; omega)
    (k0_off124 k) (k0_off123 k) (k0_off121 k) (k0_off120 k) (k0_off118 k) (k0_off117 k) (k0_off115 k) (k0_off114 k)
    (k0_off124_inb k) (k0_off123_inb k) (k0_off121_inb k) (k0_off120_inb k) (k0_off118_inb k) (k0_off117_inb k) (k0_off115_inb k) (k0_off114_inb k)
    (k0_off124_eq k) (k0_off123_eq k) (k0_off121_eq k) (k0_off120_eq k) (k0_off118_eq k) (k0_off117_eq k) (k0_off115_eq k) (k0_off114_eq k)
    _ _ _ _ _ _ _ _
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 48 hk (by omega)
      (k0_off123 k) (k0_off124 k) (k0_off124 k) (k0_off125 k) (k0_off125 k) (k0_off123_inb k) (k0_off124_inb k) (k0_off124_inb k) (k0_off125_inb k) (k0_off125_inb k)
      (k0_off123_eq k) (k0_off124_eq k) (k0_off124_eq k) (k0_off125_eq k) (k0_off125_eq k)
      (View.readAt (Elt F) (b1).view (Rect.unit (s := S64x128) (k0_off123 k) S1x16.size (k0_off123_inb k)).toLoadRect (embChunk m d L (⟨6, by decide⟩ : Fin 8))) (View.readAt (Elt F) (b1).view (Rect.unit (s := S64x128) (k0_off124 k) S1x16.size (k0_off124_inb k)).toLoadRect (embChunk m d L (⟨6, by decide⟩ : Fin 8)))
      (View.readAt (Elt F) (b3).view (Rect.unit (s := S64x64) (k0_off125 k) S1x16.size (k0_off125_inb k)).toLoadRect (gathered m d L (m (rLoc d)) (⟨6, by decide⟩ : Fin 8))) (View.readAt (Elt F) (b5).view (Rect.unit (s := S64x64) (k0_off125 k) S1x16.size (k0_off125_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 48 hk (by omega)
      (k0_off123 k) (k0_off124 k) (k0_off123 k) (k0_off125 k) (k0_off125 k) (k0_off123_inb k) (k0_off124_inb k) (k0_off123_inb k) (k0_off125_inb k) (k0_off125_inb k)
      (k0_off123_eq k) (k0_off124_eq k) (k0_off123_eq k) (k0_off125_eq k) (k0_off125_eq k)
      (View.readAt (Elt F) (b1).view (Rect.unit (s := S64x128) (k0_off123 k) S1x16.size (k0_off123_inb k)).toLoadRect (embChunk m d L (⟨6, by decide⟩ : Fin 8))) (View.readAt (Elt F) (b1).view (Rect.unit (s := S64x128) (k0_off124 k) S1x16.size (k0_off124_inb k)).toLoadRect (embChunk m d L (⟨6, by decide⟩ : Fin 8)))
      (View.readAt (Elt F) (b3).view (Rect.unit (s := S64x64) (k0_off125 k) S1x16.size (k0_off125_inb k)).toLoadRect (gathered m d L (m (rLoc d)) (⟨6, by decide⟩ : Fin 8))) (View.readAt (Elt F) (b5).view (Rect.unit (s := S64x64) (k0_off125 k) S1x16.size (k0_off125_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 32 hk (by omega)
      (k0_off120 k) (k0_off121 k) (k0_off121 k) (k0_off122 k) (k0_off122 k) (k0_off120_inb k) (k0_off121_inb k) (k0_off121_inb k) (k0_off122_inb k) (k0_off122_inb k)
      (k0_off120_eq k) (k0_off121_eq k) (k0_off121_eq k) (k0_off122_eq k) (k0_off122_eq k)
      (View.readAt (Elt F) (b1).view (Rect.unit (s := S64x128) (k0_off120 k) S1x16.size (k0_off120_inb k)).toLoadRect (embChunk m d L (⟨6, by decide⟩ : Fin 8))) (View.readAt (Elt F) (b1).view (Rect.unit (s := S64x128) (k0_off121 k) S1x16.size (k0_off121_inb k)).toLoadRect (embChunk m d L (⟨6, by decide⟩ : Fin 8)))
      (View.readAt (Elt F) (b3).view (Rect.unit (s := S64x64) (k0_off122 k) S1x16.size (k0_off122_inb k)).toLoadRect (gathered m d L (m (rLoc d)) (⟨6, by decide⟩ : Fin 8))) (View.readAt (Elt F) (b5).view (Rect.unit (s := S64x64) (k0_off122 k) S1x16.size (k0_off122_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 32 hk (by omega)
      (k0_off120 k) (k0_off121 k) (k0_off120 k) (k0_off122 k) (k0_off122 k) (k0_off120_inb k) (k0_off121_inb k) (k0_off120_inb k) (k0_off122_inb k) (k0_off122_inb k)
      (k0_off120_eq k) (k0_off121_eq k) (k0_off120_eq k) (k0_off122_eq k) (k0_off122_eq k)
      (View.readAt (Elt F) (b1).view (Rect.unit (s := S64x128) (k0_off120 k) S1x16.size (k0_off120_inb k)).toLoadRect (embChunk m d L (⟨6, by decide⟩ : Fin 8))) (View.readAt (Elt F) (b1).view (Rect.unit (s := S64x128) (k0_off121 k) S1x16.size (k0_off121_inb k)).toLoadRect (embChunk m d L (⟨6, by decide⟩ : Fin 8)))
      (View.readAt (Elt F) (b3).view (Rect.unit (s := S64x64) (k0_off122 k) S1x16.size (k0_off122_inb k)).toLoadRect (gathered m d L (m (rLoc d)) (⟨6, by decide⟩ : Fin 8))) (View.readAt (Elt F) (b5).view (Rect.unit (s := S64x64) (k0_off122 k) S1x16.size (k0_off122_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 16 hk (by omega)
      (k0_off117 k) (k0_off118 k) (k0_off118 k) (k0_off119 k) (k0_off119 k) (k0_off117_inb k) (k0_off118_inb k) (k0_off118_inb k) (k0_off119_inb k) (k0_off119_inb k)
      (k0_off117_eq k) (k0_off118_eq k) (k0_off118_eq k) (k0_off119_eq k) (k0_off119_eq k)
      (View.readAt (Elt F) (b1).view (Rect.unit (s := S64x128) (k0_off117 k) S1x16.size (k0_off117_inb k)).toLoadRect (embChunk m d L (⟨6, by decide⟩ : Fin 8))) (View.readAt (Elt F) (b1).view (Rect.unit (s := S64x128) (k0_off118 k) S1x16.size (k0_off118_inb k)).toLoadRect (embChunk m d L (⟨6, by decide⟩ : Fin 8)))
      (View.readAt (Elt F) (b3).view (Rect.unit (s := S64x64) (k0_off119 k) S1x16.size (k0_off119_inb k)).toLoadRect (gathered m d L (m (rLoc d)) (⟨6, by decide⟩ : Fin 8))) (View.readAt (Elt F) (b5).view (Rect.unit (s := S64x64) (k0_off119 k) S1x16.size (k0_off119_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 16 hk (by omega)
      (k0_off117 k) (k0_off118 k) (k0_off117 k) (k0_off119 k) (k0_off119 k) (k0_off117_inb k) (k0_off118_inb k) (k0_off117_inb k) (k0_off119_inb k) (k0_off119_inb k)
      (k0_off117_eq k) (k0_off118_eq k) (k0_off117_eq k) (k0_off119_eq k) (k0_off119_eq k)
      (View.readAt (Elt F) (b1).view (Rect.unit (s := S64x128) (k0_off117 k) S1x16.size (k0_off117_inb k)).toLoadRect (embChunk m d L (⟨6, by decide⟩ : Fin 8))) (View.readAt (Elt F) (b1).view (Rect.unit (s := S64x128) (k0_off118 k) S1x16.size (k0_off118_inb k)).toLoadRect (embChunk m d L (⟨6, by decide⟩ : Fin 8)))
      (View.readAt (Elt F) (b3).view (Rect.unit (s := S64x64) (k0_off119 k) S1x16.size (k0_off119_inb k)).toLoadRect (gathered m d L (m (rLoc d)) (⟨6, by decide⟩ : Fin 8))) (View.readAt (Elt F) (b5).view (Rect.unit (s := S64x64) (k0_off119 k) S1x16.size (k0_off119_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 0 hk (by omega)
      (k0_off114 k) (k0_off115 k) (k0_off115 k) (k0_off116 k) (k0_off116 k) (k0_off114_inb k) (k0_off115_inb k) (k0_off115_inb k) (k0_off116_inb k) (k0_off116_inb k)
      (k0_off114_eq k) (k0_off115_eq k) (k0_off115_eq k) (k0_off116_eq k) (k0_off116_eq k)
      (View.readAt (Elt F) (b1).view (Rect.unit (s := S64x128) (k0_off114 k) S1x16.size (k0_off114_inb k)).toLoadRect (embChunk m d L (⟨6, by decide⟩ : Fin 8))) (View.readAt (Elt F) (b1).view (Rect.unit (s := S64x128) (k0_off115 k) S1x16.size (k0_off115_inb k)).toLoadRect (embChunk m d L (⟨6, by decide⟩ : Fin 8)))
      (View.readAt (Elt F) (b3).view (Rect.unit (s := S64x64) (k0_off116 k) S1x16.size (k0_off116_inb k)).toLoadRect (gathered m d L (m (rLoc d)) (⟨6, by decide⟩ : Fin 8))) (View.readAt (Elt F) (b5).view (Rect.unit (s := S64x64) (k0_off116 k) S1x16.size (k0_off116_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 0 hk (by omega)
      (k0_off114 k) (k0_off115 k) (k0_off114 k) (k0_off116 k) (k0_off116 k) (k0_off114_inb k) (k0_off115_inb k) (k0_off114_inb k) (k0_off116_inb k) (k0_off116_inb k)
      (k0_off114_eq k) (k0_off115_eq k) (k0_off114_eq k) (k0_off116_eq k) (k0_off116_eq k)
      (View.readAt (Elt F) (b1).view (Rect.unit (s := S64x128) (k0_off114 k) S1x16.size (k0_off114_inb k)).toLoadRect (embChunk m d L (⟨6, by decide⟩ : Fin 8))) (View.readAt (Elt F) (b1).view (Rect.unit (s := S64x128) (k0_off115 k) S1x16.size (k0_off115_inb k)).toLoadRect (embChunk m d L (⟨6, by decide⟩ : Fin 8)))
      (View.readAt (Elt F) (b3).view (Rect.unit (s := S64x64) (k0_off116 k) S1x16.size (k0_off116_inb k)).toLoadRect (gathered m d L (m (rLoc d)) (⟨6, by decide⟩ : Fin 8))) (View.readAt (Elt F) (b5).view (Rect.unit (s := S64x64) (k0_off116 k) S1x16.size (k0_off116_inb k)).toLoadRect (gathered m d L (m (gLoc d)) (⟨6, by decide⟩ : Fin 8)))
      (fun _ => rfl) (fun _ => rfl) (fun _ => rfl) (fun _ => rfl))
    hfo

end Cert.Proof.KI

end
-- ==== Proof.KI.Compute1.lean ====
/-
  The compute loops of the chunks at buffer parity 1 (chunks 1, 3, 5, 7): one trip at a symbolic row `k`. The trip's
  sixteen loads read pieces of row k of the chunk of the batch and of the two gathered scratches, its eight stores
  write row k of the result scratch, eight pieces of 16 lanes; each stored piece is the specification's entries of
  that row there, and the rows below k are untouched.
-/
import proofs.«204629_g89326729822651_cont_sun_m_635_33_alg».proof.Proof.KI.Invs
import proofs.«204629_g89326729822651_cont_sun_m_635_33_alg».proof.Proof.KI.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

set_option maxHeartbeats 4000000 in
/-- One trip of chunk 1's compute loop: row `k` of the result scratch is filled with the specification's row. -/
theorem compute_region_t7 (k : Fin k0_t7_loop.trips) (v1 c0 : BitVec 32) :
    computeInv1 m d L (⟨1, by decide⟩ : Fin 8) k.val ()
      ⊢ wp frame (wpE (defs₀ (F := F)) 𝒱₀ (thr d L) none) Set.univ
          (k0_t7_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0 k ())
          (fun acc => computeInv1 m d L (⟨1, by decide⟩ : Fin 8) (k.val + 1) acc) := by
  unfold k0_t7_body
  rw [k0_part3_eq_skeleton, k0_part4_eq_skeleton]
  unfold k0_part3_skel k0_part4_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t7_abs.2.1
  exact row_done (b8).view fo (outChunk m d L (⟨1, by decide⟩ : Fin 8)) k.val 112 48 96 32 80 16 64 0 (by intro j hj; omega)
    (k0_off39 k) (k0_off38 k) (k0_off36 k) (k0_off35 k) (k0_off33 k) (k0_off32 k) (k0_off30 k) (k0_off29 k)
    (k0_off39_inb k) (k0_off38_inb k) (k0_off36_inb k) (k0_off35_inb k) (k0_off33_inb k) (k0_off32_inb k) (k0_off30_inb k) (k0_off29_inb k)
    (k0_off39_eq k) (k0_off38_eq k) (k0_off36_eq k) (k0_off35_eq k) (k0_off33_eq k) (k0_off32_eq k) (k0_off30_eq k) (k0_off29_eq k)
    _ _ _ _ _ _ _ _
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 48 hk (by omega)
      (k0_off38 k) (k0_off39 k) (k0_off39 k) (k0_off40 k) (k0_off40 k) (k0_off38_inb k) (k0_off39_inb k) (k0_off39_inb k) (k0_off40_inb k) (k0_off40_inb k)
      (k0_off38_eq k) (k0_off39_eq k) (k0_off39_eq k) (k0_off40_eq k) (k0_off40_eq k)
      (View.readAt (Elt F) (b2).view (Rect.unit (s := S64x128) (k0_off38 k) S1x16.size (k0_off38_inb k)).toLoadRect (embChunk m d L (⟨1, by decide⟩ : Fin 8))) (View.readAt (Elt F) (b2).view (Rect.unit (s := S64x128) (k0_off39 k) S1x16.size (k0_off39_inb k)).toLoadRect (embChunk m d L (⟨1, by decide⟩ : Fin 8)))
      (View.readAt (Elt F) (b4).view (Rect.unit (s := S64x64) (k0_off40 k) S1x16.size (k0_off40_inb k)).toLoadRect (gathered m d L (m (rLoc d)) (⟨1, by decide⟩ : Fin 8))) (View.readAt (Elt F) (b6).view (Rect.unit (s := S64x64) (k0_off40 k) S1x16.size (k0_off40_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 48 hk (by omega)
      (k0_off38 k) (k0_off39 k) (k0_off38 k) (k0_off40 k) (k0_off40 k) (k0_off38_inb k) (k0_off39_inb k) (k0_off38_inb k) (k0_off40_inb k) (k0_off40_inb k)
      (k0_off38_eq k) (k0_off39_eq k) (k0_off38_eq k) (k0_off40_eq k) (k0_off40_eq k)
      (View.readAt (Elt F) (b2).view (Rect.unit (s := S64x128) (k0_off38 k) S1x16.size (k0_off38_inb k)).toLoadRect (embChunk m d L (⟨1, by decide⟩ : Fin 8))) (View.readAt (Elt F) (b2).view (Rect.unit (s := S64x128) (k0_off39 k) S1x16.size (k0_off39_inb k)).toLoadRect (embChunk m d L (⟨1, by decide⟩ : Fin 8)))
      (View.readAt (Elt F) (b4).view (Rect.unit (s := S64x64) (k0_off40 k) S1x16.size (k0_off40_inb k)).toLoadRect (gathered m d L (m (rLoc d)) (⟨1, by decide⟩ : Fin 8))) (View.readAt (Elt F) (b6).view (Rect.unit (s := S64x64) (k0_off40 k) S1x16.size (k0_off40_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 32 hk (by omega)
      (k0_off35 k) (k0_off36 k) (k0_off36 k) (k0_off37 k) (k0_off37 k) (k0_off35_inb k) (k0_off36_inb k) (k0_off36_inb k) (k0_off37_inb k) (k0_off37_inb k)
      (k0_off35_eq k) (k0_off36_eq k) (k0_off36_eq k) (k0_off37_eq k) (k0_off37_eq k)
      (View.readAt (Elt F) (b2).view (Rect.unit (s := S64x128) (k0_off35 k) S1x16.size (k0_off35_inb k)).toLoadRect (embChunk m d L (⟨1, by decide⟩ : Fin 8))) (View.readAt (Elt F) (b2).view (Rect.unit (s := S64x128) (k0_off36 k) S1x16.size (k0_off36_inb k)).toLoadRect (embChunk m d L (⟨1, by decide⟩ : Fin 8)))
      (View.readAt (Elt F) (b4).view (Rect.unit (s := S64x64) (k0_off37 k) S1x16.size (k0_off37_inb k)).toLoadRect (gathered m d L (m (rLoc d)) (⟨1, by decide⟩ : Fin 8))) (View.readAt (Elt F) (b6).view (Rect.unit (s := S64x64) (k0_off37 k) S1x16.size (k0_off37_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 32 hk (by omega)
      (k0_off35 k) (k0_off36 k) (k0_off35 k) (k0_off37 k) (k0_off37 k) (k0_off35_inb k) (k0_off36_inb k) (k0_off35_inb k) (k0_off37_inb k) (k0_off37_inb k)
      (k0_off35_eq k) (k0_off36_eq k) (k0_off35_eq k) (k0_off37_eq k) (k0_off37_eq k)
      (View.readAt (Elt F) (b2).view (Rect.unit (s := S64x128) (k0_off35 k) S1x16.size (k0_off35_inb k)).toLoadRect (embChunk m d L (⟨1, by decide⟩ : Fin 8))) (View.readAt (Elt F) (b2).view (Rect.unit (s := S64x128) (k0_off36 k) S1x16.size (k0_off36_inb k)).toLoadRect (embChunk m d L (⟨1, by decide⟩ : Fin 8)))
      (View.readAt (Elt F) (b4).view (Rect.unit (s := S64x64) (k0_off37 k) S1x16.size (k0_off37_inb k)).toLoadRect (gathered m d L (m (rLoc d)) (⟨1, by decide⟩ : Fin 8))) (View.readAt (Elt F) (b6).view (Rect.unit (s := S64x64) (k0_off37 k) S1x16.size (k0_off37_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 16 hk (by omega)
      (k0_off32 k) (k0_off33 k) (k0_off33 k) (k0_off34 k) (k0_off34 k) (k0_off32_inb k) (k0_off33_inb k) (k0_off33_inb k) (k0_off34_inb k) (k0_off34_inb k)
      (k0_off32_eq k) (k0_off33_eq k) (k0_off33_eq k) (k0_off34_eq k) (k0_off34_eq k)
      (View.readAt (Elt F) (b2).view (Rect.unit (s := S64x128) (k0_off32 k) S1x16.size (k0_off32_inb k)).toLoadRect (embChunk m d L (⟨1, by decide⟩ : Fin 8))) (View.readAt (Elt F) (b2).view (Rect.unit (s := S64x128) (k0_off33 k) S1x16.size (k0_off33_inb k)).toLoadRect (embChunk m d L (⟨1, by decide⟩ : Fin 8)))
      (View.readAt (Elt F) (b4).view (Rect.unit (s := S64x64) (k0_off34 k) S1x16.size (k0_off34_inb k)).toLoadRect (gathered m d L (m (rLoc d)) (⟨1, by decide⟩ : Fin 8))) (View.readAt (Elt F) (b6).view (Rect.unit (s := S64x64) (k0_off34 k) S1x16.size (k0_off34_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 16 hk (by omega)
      (k0_off32 k) (k0_off33 k) (k0_off32 k) (k0_off34 k) (k0_off34 k) (k0_off32_inb k) (k0_off33_inb k) (k0_off32_inb k) (k0_off34_inb k) (k0_off34_inb k)
      (k0_off32_eq k) (k0_off33_eq k) (k0_off32_eq k) (k0_off34_eq k) (k0_off34_eq k)
      (View.readAt (Elt F) (b2).view (Rect.unit (s := S64x128) (k0_off32 k) S1x16.size (k0_off32_inb k)).toLoadRect (embChunk m d L (⟨1, by decide⟩ : Fin 8))) (View.readAt (Elt F) (b2).view (Rect.unit (s := S64x128) (k0_off33 k) S1x16.size (k0_off33_inb k)).toLoadRect (embChunk m d L (⟨1, by decide⟩ : Fin 8)))
      (View.readAt (Elt F) (b4).view (Rect.unit (s := S64x64) (k0_off34 k) S1x16.size (k0_off34_inb k)).toLoadRect (gathered m d L (m (rLoc d)) (⟨1, by decide⟩ : Fin 8))) (View.readAt (Elt F) (b6).view (Rect.unit (s := S64x64) (k0_off34 k) S1x16.size (k0_off34_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 0 hk (by omega)
      (k0_off29 k) (k0_off30 k) (k0_off30 k) (k0_off31 k) (k0_off31 k) (k0_off29_inb k) (k0_off30_inb k) (k0_off30_inb k) (k0_off31_inb k) (k0_off31_inb k)
      (k0_off29_eq k) (k0_off30_eq k) (k0_off30_eq k) (k0_off31_eq k) (k0_off31_eq k)
      (View.readAt (Elt F) (b2).view (Rect.unit (s := S64x128) (k0_off29 k) S1x16.size (k0_off29_inb k)).toLoadRect (embChunk m d L (⟨1, by decide⟩ : Fin 8))) (View.readAt (Elt F) (b2).view (Rect.unit (s := S64x128) (k0_off30 k) S1x16.size (k0_off30_inb k)).toLoadRect (embChunk m d L (⟨1, by decide⟩ : Fin 8)))
      (View.readAt (Elt F) (b4).view (Rect.unit (s := S64x64) (k0_off31 k) S1x16.size (k0_off31_inb k)).toLoadRect (gathered m d L (m (rLoc d)) (⟨1, by decide⟩ : Fin 8))) (View.readAt (Elt F) (b6).view (Rect.unit (s := S64x64) (k0_off31 k) S1x16.size (k0_off31_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 0 hk (by omega)
      (k0_off29 k) (k0_off30 k) (k0_off29 k) (k0_off31 k) (k0_off31 k) (k0_off29_inb k) (k0_off30_inb k) (k0_off29_inb k) (k0_off31_inb k) (k0_off31_inb k)
      (k0_off29_eq k) (k0_off30_eq k) (k0_off29_eq k) (k0_off31_eq k) (k0_off31_eq k)
      (View.readAt (Elt F) (b2).view (Rect.unit (s := S64x128) (k0_off29 k) S1x16.size (k0_off29_inb k)).toLoadRect (embChunk m d L (⟨1, by decide⟩ : Fin 8))) (View.readAt (Elt F) (b2).view (Rect.unit (s := S64x128) (k0_off30 k) S1x16.size (k0_off30_inb k)).toLoadRect (embChunk m d L (⟨1, by decide⟩ : Fin 8)))
      (View.readAt (Elt F) (b4).view (Rect.unit (s := S64x64) (k0_off31 k) S1x16.size (k0_off31_inb k)).toLoadRect (gathered m d L (m (rLoc d)) (⟨1, by decide⟩ : Fin 8))) (View.readAt (Elt F) (b6).view (Rect.unit (s := S64x64) (k0_off31 k) S1x16.size (k0_off31_inb k)).toLoadRect (gathered m d L (m (gLoc d)) (⟨1, by decide⟩ : Fin 8)))
      (fun _ => rfl) (fun _ => rfl) (fun _ => rfl) (fun _ => rfl))
    hfo

set_option maxHeartbeats 4000000 in
/-- One trip of chunk 3's compute loop: row `k` of the result scratch is filled with the specification's row. -/
theorem compute_region_t13 (k : Fin k0_t13_loop.trips) (v1 : BitVec 32) :
    computeInv1 m d L (⟨3, by decide⟩ : Fin 8) k.val ()
      ⊢ wp frame (wpE (defs₀ (F := F)) 𝒱₀ (thr d L) none) Set.univ
          (k0_t13_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv1 m d L (⟨3, by decide⟩ : Fin 8) (k.val + 1) acc) := by
  unfold k0_t13_body
  rw [k0_part7_eq_skeleton, k0_part8_eq_skeleton]
  unfold k0_part7_skel k0_part8_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t13_abs.2.1
  exact row_done (b8).view fo (outChunk m d L (⟨3, by decide⟩ : Fin 8)) k.val 112 48 96 32 80 16 64 0 (by intro j hj; omega)
    (k0_off73 k) (k0_off72 k) (k0_off70 k) (k0_off69 k) (k0_off67 k) (k0_off66 k) (k0_off64 k) (k0_off63 k)
    (k0_off73_inb k) (k0_off72_inb k) (k0_off70_inb k) (k0_off69_inb k) (k0_off67_inb k) (k0_off66_inb k) (k0_off64_inb k) (k0_off63_inb k)
    (k0_off73_eq k) (k0_off72_eq k) (k0_off70_eq k) (k0_off69_eq k) (k0_off67_eq k) (k0_off66_eq k) (k0_off64_eq k) (k0_off63_eq k)
    _ _ _ _ _ _ _ _
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 48 hk (by omega)
      (k0_off72 k) (k0_off73 k) (k0_off73 k) (k0_off74 k) (k0_off74 k) (k0_off72_inb k) (k0_off73_inb k) (k0_off73_inb k) (k0_off74_inb k) (k0_off74_inb k)
      (k0_off72_eq k) (k0_off73_eq k) (k0_off73_eq k) (k0_off74_eq k) (k0_off74_eq k)
      (View.readAt (Elt F) (b2).view (Rect.unit (s := S64x128) (k0_off72 k) S1x16.size (k0_off72_inb k)).toLoadRect (embChunk m d L (⟨3, by decide⟩ : Fin 8))) (View.readAt (Elt F) (b2).view (Rect.unit (s := S64x128) (k0_off73 k) S1x16.size (k0_off73_inb k)).toLoadRect (embChunk m d L (⟨3, by decide⟩ : Fin 8)))
      (View.readAt (Elt F) (b4).view (Rect.unit (s := S64x64) (k0_off74 k) S1x16.size (k0_off74_inb k)).toLoadRect (gathered m d L (m (rLoc d)) (⟨3, by decide⟩ : Fin 8))) (View.readAt (Elt F) (b6).view (Rect.unit (s := S64x64) (k0_off74 k) S1x16.size (k0_off74_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 48 hk (by omega)
      (k0_off72 k) (k0_off73 k) (k0_off72 k) (k0_off74 k) (k0_off74 k) (k0_off72_inb k) (k0_off73_inb k) (k0_off72_inb k) (k0_off74_inb k) (k0_off74_inb k)
      (k0_off72_eq k) (k0_off73_eq k) (k0_off72_eq k) (k0_off74_eq k) (k0_off74_eq k)
      (View.readAt (Elt F) (b2).view (Rect.unit (s := S64x128) (k0_off72 k) S1x16.size (k0_off72_inb k)).toLoadRect (embChunk m d L (⟨3, by decide⟩ : Fin 8))) (View.readAt (Elt F) (b2).view (Rect.unit (s := S64x128) (k0_off73 k) S1x16.size (k0_off73_inb k)).toLoadRect (embChunk m d L (⟨3, by decide⟩ : Fin 8)))
      (View.readAt (Elt F) (b4).view (Rect.unit (s := S64x64) (k0_off74 k) S1x16.size (k0_off74_inb k)).toLoadRect (gathered m d L (m (rLoc d)) (⟨3, by decide⟩ : Fin 8))) (View.readAt (Elt F) (b6).view (Rect.unit (s := S64x64) (k0_off74 k) S1x16.size (k0_off74_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 32 hk (by omega)
      (k0_off69 k) (k0_off70 k) (k0_off70 k) (k0_off71 k) (k0_off71 k) (k0_off69_inb k) (k0_off70_inb k) (k0_off70_inb k) (k0_off71_inb k) (k0_off71_inb k)
      (k0_off69_eq k) (k0_off70_eq k) (k0_off70_eq k) (k0_off71_eq k) (k0_off71_eq k)
      (View.readAt (Elt F) (b2).view (Rect.unit (s := S64x128) (k0_off69 k) S1x16.size (k0_off69_inb k)).toLoadRect (embChunk m d L (⟨3, by decide⟩ : Fin 8))) (View.readAt (Elt F) (b2).view (Rect.unit (s := S64x128) (k0_off70 k) S1x16.size (k0_off70_inb k)).toLoadRect (embChunk m d L (⟨3, by decide⟩ : Fin 8)))
      (View.readAt (Elt F) (b4).view (Rect.unit (s := S64x64) (k0_off71 k) S1x16.size (k0_off71_inb k)).toLoadRect (gathered m d L (m (rLoc d)) (⟨3, by decide⟩ : Fin 8))) (View.readAt (Elt F) (b6).view (Rect.unit (s := S64x64) (k0_off71 k) S1x16.size (k0_off71_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 32 hk (by omega)
      (k0_off69 k) (k0_off70 k) (k0_off69 k) (k0_off71 k) (k0_off71 k) (k0_off69_inb k) (k0_off70_inb k) (k0_off69_inb k) (k0_off71_inb k) (k0_off71_inb k)
      (k0_off69_eq k) (k0_off70_eq k) (k0_off69_eq k) (k0_off71_eq k) (k0_off71_eq k)
      (View.readAt (Elt F) (b2).view (Rect.unit (s := S64x128) (k0_off69 k) S1x16.size (k0_off69_inb k)).toLoadRect (embChunk m d L (⟨3, by decide⟩ : Fin 8))) (View.readAt (Elt F) (b2).view (Rect.unit (s := S64x128) (k0_off70 k) S1x16.size (k0_off70_inb k)).toLoadRect (embChunk m d L (⟨3, by decide⟩ : Fin 8)))
      (View.readAt (Elt F) (b4).view (Rect.unit (s := S64x64) (k0_off71 k) S1x16.size (k0_off71_inb k)).toLoadRect (gathered m d L (m (rLoc d)) (⟨3, by decide⟩ : Fin 8))) (View.readAt (Elt F) (b6).view (Rect.unit (s := S64x64) (k0_off71 k) S1x16.size (k0_off71_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 16 hk (by omega)
      (k0_off66 k) (k0_off67 k) (k0_off67 k) (k0_off68 k) (k0_off68 k) (k0_off66_inb k) (k0_off67_inb k) (k0_off67_inb k) (k0_off68_inb k) (k0_off68_inb k)
      (k0_off66_eq k) (k0_off67_eq k) (k0_off67_eq k) (k0_off68_eq k) (k0_off68_eq k)
      (View.readAt (Elt F) (b2).view (Rect.unit (s := S64x128) (k0_off66 k) S1x16.size (k0_off66_inb k)).toLoadRect (embChunk m d L (⟨3, by decide⟩ : Fin 8))) (View.readAt (Elt F) (b2).view (Rect.unit (s := S64x128) (k0_off67 k) S1x16.size (k0_off67_inb k)).toLoadRect (embChunk m d L (⟨3, by decide⟩ : Fin 8)))
      (View.readAt (Elt F) (b4).view (Rect.unit (s := S64x64) (k0_off68 k) S1x16.size (k0_off68_inb k)).toLoadRect (gathered m d L (m (rLoc d)) (⟨3, by decide⟩ : Fin 8))) (View.readAt (Elt F) (b6).view (Rect.unit (s := S64x64) (k0_off68 k) S1x16.size (k0_off68_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 16 hk (by omega)
      (k0_off66 k) (k0_off67 k) (k0_off66 k) (k0_off68 k) (k0_off68 k) (k0_off66_inb k) (k0_off67_inb k) (k0_off66_inb k) (k0_off68_inb k) (k0_off68_inb k)
      (k0_off66_eq k) (k0_off67_eq k) (k0_off66_eq k) (k0_off68_eq k) (k0_off68_eq k)
      (View.readAt (Elt F) (b2).view (Rect.unit (s := S64x128) (k0_off66 k) S1x16.size (k0_off66_inb k)).toLoadRect (embChunk m d L (⟨3, by decide⟩ : Fin 8))) (View.readAt (Elt F) (b2).view (Rect.unit (s := S64x128) (k0_off67 k) S1x16.size (k0_off67_inb k)).toLoadRect (embChunk m d L (⟨3, by decide⟩ : Fin 8)))
      (View.readAt (Elt F) (b4).view (Rect.unit (s := S64x64) (k0_off68 k) S1x16.size (k0_off68_inb k)).toLoadRect (gathered m d L (m (rLoc d)) (⟨3, by decide⟩ : Fin 8))) (View.readAt (Elt F) (b6).view (Rect.unit (s := S64x64) (k0_off68 k) S1x16.size (k0_off68_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 0 hk (by omega)
      (k0_off63 k) (k0_off64 k) (k0_off64 k) (k0_off65 k) (k0_off65 k) (k0_off63_inb k) (k0_off64_inb k) (k0_off64_inb k) (k0_off65_inb k) (k0_off65_inb k)
      (k0_off63_eq k) (k0_off64_eq k) (k0_off64_eq k) (k0_off65_eq k) (k0_off65_eq k)
      (View.readAt (Elt F) (b2).view (Rect.unit (s := S64x128) (k0_off63 k) S1x16.size (k0_off63_inb k)).toLoadRect (embChunk m d L (⟨3, by decide⟩ : Fin 8))) (View.readAt (Elt F) (b2).view (Rect.unit (s := S64x128) (k0_off64 k) S1x16.size (k0_off64_inb k)).toLoadRect (embChunk m d L (⟨3, by decide⟩ : Fin 8)))
      (View.readAt (Elt F) (b4).view (Rect.unit (s := S64x64) (k0_off65 k) S1x16.size (k0_off65_inb k)).toLoadRect (gathered m d L (m (rLoc d)) (⟨3, by decide⟩ : Fin 8))) (View.readAt (Elt F) (b6).view (Rect.unit (s := S64x64) (k0_off65 k) S1x16.size (k0_off65_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 0 hk (by omega)
      (k0_off63 k) (k0_off64 k) (k0_off63 k) (k0_off65 k) (k0_off65 k) (k0_off63_inb k) (k0_off64_inb k) (k0_off63_inb k) (k0_off65_inb k) (k0_off65_inb k)
      (k0_off63_eq k) (k0_off64_eq k) (k0_off63_eq k) (k0_off65_eq k) (k0_off65_eq k)
      (View.readAt (Elt F) (b2).view (Rect.unit (s := S64x128) (k0_off63 k) S1x16.size (k0_off63_inb k)).toLoadRect (embChunk m d L (⟨3, by decide⟩ : Fin 8))) (View.readAt (Elt F) (b2).view (Rect.unit (s := S64x128) (k0_off64 k) S1x16.size (k0_off64_inb k)).toLoadRect (embChunk m d L (⟨3, by decide⟩ : Fin 8)))
      (View.readAt (Elt F) (b4).view (Rect.unit (s := S64x64) (k0_off65 k) S1x16.size (k0_off65_inb k)).toLoadRect (gathered m d L (m (rLoc d)) (⟨3, by decide⟩ : Fin 8))) (View.readAt (Elt F) (b6).view (Rect.unit (s := S64x64) (k0_off65 k) S1x16.size (k0_off65_inb k)).toLoadRect (gathered m d L (m (gLoc d)) (⟨3, by decide⟩ : Fin 8)))
      (fun _ => rfl) (fun _ => rfl) (fun _ => rfl) (fun _ => rfl))
    hfo

set_option maxHeartbeats 4000000 in
/-- One trip of chunk 5's compute loop: row `k` of the result scratch is filled with the specification's row. -/
theorem compute_region_t19 (k : Fin k0_t19_loop.trips) (v1 : BitVec 32) :
    computeInv1 m d L (⟨5, by decide⟩ : Fin 8) k.val ()
      ⊢ wp frame (wpE (defs₀ (F := F)) 𝒱₀ (thr d L) none) Set.univ
          (k0_t19_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv1 m d L (⟨5, by decide⟩ : Fin 8) (k.val + 1) acc) := by
  unfold k0_t19_body
  rw [k0_part11_eq_skeleton, k0_part12_eq_skeleton]
  unfold k0_part11_skel k0_part12_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t19_abs.2.1
  exact row_done (b8).view fo (outChunk m d L (⟨5, by decide⟩ : Fin 8)) k.val 112 48 96 32 80 16 64 0 (by intro j hj; omega)
    (k0_off107 k) (k0_off106 k) (k0_off104 k) (k0_off103 k) (k0_off101 k) (k0_off100 k) (k0_off98 k) (k0_off97 k)
    (k0_off107_inb k) (k0_off106_inb k) (k0_off104_inb k) (k0_off103_inb k) (k0_off101_inb k) (k0_off100_inb k) (k0_off98_inb k) (k0_off97_inb k)
    (k0_off107_eq k) (k0_off106_eq k) (k0_off104_eq k) (k0_off103_eq k) (k0_off101_eq k) (k0_off100_eq k) (k0_off98_eq k) (k0_off97_eq k)
    _ _ _ _ _ _ _ _
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 48 hk (by omega)
      (k0_off106 k) (k0_off107 k) (k0_off107 k) (k0_off108 k) (k0_off108 k) (k0_off106_inb k) (k0_off107_inb k) (k0_off107_inb k) (k0_off108_inb k) (k0_off108_inb k)
      (k0_off106_eq k) (k0_off107_eq k) (k0_off107_eq k) (k0_off108_eq k) (k0_off108_eq k)
      (View.readAt (Elt F) (b2).view (Rect.unit (s := S64x128) (k0_off106 k) S1x16.size (k0_off106_inb k)).toLoadRect (embChunk m d L (⟨5, by decide⟩ : Fin 8))) (View.readAt (Elt F) (b2).view (Rect.unit (s := S64x128) (k0_off107 k) S1x16.size (k0_off107_inb k)).toLoadRect (embChunk m d L (⟨5, by decide⟩ : Fin 8)))
      (View.readAt (Elt F) (b4).view (Rect.unit (s := S64x64) (k0_off108 k) S1x16.size (k0_off108_inb k)).toLoadRect (gathered m d L (m (rLoc d)) (⟨5, by decide⟩ : Fin 8))) (View.readAt (Elt F) (b6).view (Rect.unit (s := S64x64) (k0_off108 k) S1x16.size (k0_off108_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 48 hk (by omega)
      (k0_off106 k) (k0_off107 k) (k0_off106 k) (k0_off108 k) (k0_off108 k) (k0_off106_inb k) (k0_off107_inb k) (k0_off106_inb k) (k0_off108_inb k) (k0_off108_inb k)
      (k0_off106_eq k) (k0_off107_eq k) (k0_off106_eq k) (k0_off108_eq k) (k0_off108_eq k)
      (View.readAt (Elt F) (b2).view (Rect.unit (s := S64x128) (k0_off106 k) S1x16.size (k0_off106_inb k)).toLoadRect (embChunk m d L (⟨5, by decide⟩ : Fin 8))) (View.readAt (Elt F) (b2).view (Rect.unit (s := S64x128) (k0_off107 k) S1x16.size (k0_off107_inb k)).toLoadRect (embChunk m d L (⟨5, by decide⟩ : Fin 8)))
      (View.readAt (Elt F) (b4).view (Rect.unit (s := S64x64) (k0_off108 k) S1x16.size (k0_off108_inb k)).toLoadRect (gathered m d L (m (rLoc d)) (⟨5, by decide⟩ : Fin 8))) (View.readAt (Elt F) (b6).view (Rect.unit (s := S64x64) (k0_off108 k) S1x16.size (k0_off108_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 32 hk (by omega)
      (k0_off103 k) (k0_off104 k) (k0_off104 k) (k0_off105 k) (k0_off105 k) (k0_off103_inb k) (k0_off104_inb k) (k0_off104_inb k) (k0_off105_inb k) (k0_off105_inb k)
      (k0_off103_eq k) (k0_off104_eq k) (k0_off104_eq k) (k0_off105_eq k) (k0_off105_eq k)
      (View.readAt (Elt F) (b2).view (Rect.unit (s := S64x128) (k0_off103 k) S1x16.size (k0_off103_inb k)).toLoadRect (embChunk m d L (⟨5, by decide⟩ : Fin 8))) (View.readAt (Elt F) (b2).view (Rect.unit (s := S64x128) (k0_off104 k) S1x16.size (k0_off104_inb k)).toLoadRect (embChunk m d L (⟨5, by decide⟩ : Fin 8)))
      (View.readAt (Elt F) (b4).view (Rect.unit (s := S64x64) (k0_off105 k) S1x16.size (k0_off105_inb k)).toLoadRect (gathered m d L (m (rLoc d)) (⟨5, by decide⟩ : Fin 8))) (View.readAt (Elt F) (b6).view (Rect.unit (s := S64x64) (k0_off105 k) S1x16.size (k0_off105_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 32 hk (by omega)
      (k0_off103 k) (k0_off104 k) (k0_off103 k) (k0_off105 k) (k0_off105 k) (k0_off103_inb k) (k0_off104_inb k) (k0_off103_inb k) (k0_off105_inb k) (k0_off105_inb k)
      (k0_off103_eq k) (k0_off104_eq k) (k0_off103_eq k) (k0_off105_eq k) (k0_off105_eq k)
      (View.readAt (Elt F) (b2).view (Rect.unit (s := S64x128) (k0_off103 k) S1x16.size (k0_off103_inb k)).toLoadRect (embChunk m d L (⟨5, by decide⟩ : Fin 8))) (View.readAt (Elt F) (b2).view (Rect.unit (s := S64x128) (k0_off104 k) S1x16.size (k0_off104_inb k)).toLoadRect (embChunk m d L (⟨5, by decide⟩ : Fin 8)))
      (View.readAt (Elt F) (b4).view (Rect.unit (s := S64x64) (k0_off105 k) S1x16.size (k0_off105_inb k)).toLoadRect (gathered m d L (m (rLoc d)) (⟨5, by decide⟩ : Fin 8))) (View.readAt (Elt F) (b6).view (Rect.unit (s := S64x64) (k0_off105 k) S1x16.size (k0_off105_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 16 hk (by omega)
      (k0_off100 k) (k0_off101 k) (k0_off101 k) (k0_off102 k) (k0_off102 k) (k0_off100_inb k) (k0_off101_inb k) (k0_off101_inb k) (k0_off102_inb k) (k0_off102_inb k)
      (k0_off100_eq k) (k0_off101_eq k) (k0_off101_eq k) (k0_off102_eq k) (k0_off102_eq k)
      (View.readAt (Elt F) (b2).view (Rect.unit (s := S64x128) (k0_off100 k) S1x16.size (k0_off100_inb k)).toLoadRect (embChunk m d L (⟨5, by decide⟩ : Fin 8))) (View.readAt (Elt F) (b2).view (Rect.unit (s := S64x128) (k0_off101 k) S1x16.size (k0_off101_inb k)).toLoadRect (embChunk m d L (⟨5, by decide⟩ : Fin 8)))
      (View.readAt (Elt F) (b4).view (Rect.unit (s := S64x64) (k0_off102 k) S1x16.size (k0_off102_inb k)).toLoadRect (gathered m d L (m (rLoc d)) (⟨5, by decide⟩ : Fin 8))) (View.readAt (Elt F) (b6).view (Rect.unit (s := S64x64) (k0_off102 k) S1x16.size (k0_off102_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 16 hk (by omega)
      (k0_off100 k) (k0_off101 k) (k0_off100 k) (k0_off102 k) (k0_off102 k) (k0_off100_inb k) (k0_off101_inb k) (k0_off100_inb k) (k0_off102_inb k) (k0_off102_inb k)
      (k0_off100_eq k) (k0_off101_eq k) (k0_off100_eq k) (k0_off102_eq k) (k0_off102_eq k)
      (View.readAt (Elt F) (b2).view (Rect.unit (s := S64x128) (k0_off100 k) S1x16.size (k0_off100_inb k)).toLoadRect (embChunk m d L (⟨5, by decide⟩ : Fin 8))) (View.readAt (Elt F) (b2).view (Rect.unit (s := S64x128) (k0_off101 k) S1x16.size (k0_off101_inb k)).toLoadRect (embChunk m d L (⟨5, by decide⟩ : Fin 8)))
      (View.readAt (Elt F) (b4).view (Rect.unit (s := S64x64) (k0_off102 k) S1x16.size (k0_off102_inb k)).toLoadRect (gathered m d L (m (rLoc d)) (⟨5, by decide⟩ : Fin 8))) (View.readAt (Elt F) (b6).view (Rect.unit (s := S64x64) (k0_off102 k) S1x16.size (k0_off102_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 0 hk (by omega)
      (k0_off97 k) (k0_off98 k) (k0_off98 k) (k0_off99 k) (k0_off99 k) (k0_off97_inb k) (k0_off98_inb k) (k0_off98_inb k) (k0_off99_inb k) (k0_off99_inb k)
      (k0_off97_eq k) (k0_off98_eq k) (k0_off98_eq k) (k0_off99_eq k) (k0_off99_eq k)
      (View.readAt (Elt F) (b2).view (Rect.unit (s := S64x128) (k0_off97 k) S1x16.size (k0_off97_inb k)).toLoadRect (embChunk m d L (⟨5, by decide⟩ : Fin 8))) (View.readAt (Elt F) (b2).view (Rect.unit (s := S64x128) (k0_off98 k) S1x16.size (k0_off98_inb k)).toLoadRect (embChunk m d L (⟨5, by decide⟩ : Fin 8)))
      (View.readAt (Elt F) (b4).view (Rect.unit (s := S64x64) (k0_off99 k) S1x16.size (k0_off99_inb k)).toLoadRect (gathered m d L (m (rLoc d)) (⟨5, by decide⟩ : Fin 8))) (View.readAt (Elt F) (b6).view (Rect.unit (s := S64x64) (k0_off99 k) S1x16.size (k0_off99_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 0 hk (by omega)
      (k0_off97 k) (k0_off98 k) (k0_off97 k) (k0_off99 k) (k0_off99 k) (k0_off97_inb k) (k0_off98_inb k) (k0_off97_inb k) (k0_off99_inb k) (k0_off99_inb k)
      (k0_off97_eq k) (k0_off98_eq k) (k0_off97_eq k) (k0_off99_eq k) (k0_off99_eq k)
      (View.readAt (Elt F) (b2).view (Rect.unit (s := S64x128) (k0_off97 k) S1x16.size (k0_off97_inb k)).toLoadRect (embChunk m d L (⟨5, by decide⟩ : Fin 8))) (View.readAt (Elt F) (b2).view (Rect.unit (s := S64x128) (k0_off98 k) S1x16.size (k0_off98_inb k)).toLoadRect (embChunk m d L (⟨5, by decide⟩ : Fin 8)))
      (View.readAt (Elt F) (b4).view (Rect.unit (s := S64x64) (k0_off99 k) S1x16.size (k0_off99_inb k)).toLoadRect (gathered m d L (m (rLoc d)) (⟨5, by decide⟩ : Fin 8))) (View.readAt (Elt F) (b6).view (Rect.unit (s := S64x64) (k0_off99 k) S1x16.size (k0_off99_inb k)).toLoadRect (gathered m d L (m (gLoc d)) (⟨5, by decide⟩ : Fin 8)))
      (fun _ => rfl) (fun _ => rfl) (fun _ => rfl) (fun _ => rfl))
    hfo

set_option maxHeartbeats 4000000 in
/-- One trip of chunk 7's compute loop: row `k` of the result scratch is filled with the specification's row. -/
theorem compute_region_t24 (k : Fin k0_t24_loop.trips)  :
    computeInv1 m d L (⟨7, by decide⟩ : Fin 8) k.val ()
      ⊢ wp frame (wpE (defs₀ (F := F)) 𝒱₀ (thr d L) none) Set.univ
          (k0_t24_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0  k ())
          (fun acc => computeInv1 m d L (⟨7, by decide⟩ : Fin 8) (k.val + 1) acc) := by
  unfold k0_t24_body
  rw [k0_part15_eq_skeleton, k0_part16_eq_skeleton]
  unfold k0_part15_skel k0_part16_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t24_abs.2.1
  exact row_done (b8).view fo (outChunk m d L (⟨7, by decide⟩ : Fin 8)) k.val 112 48 96 32 80 16 64 0 (by intro j hj; omega)
    (k0_off137 k) (k0_off136 k) (k0_off134 k) (k0_off133 k) (k0_off131 k) (k0_off130 k) (k0_off128 k) (k0_off127 k)
    (k0_off137_inb k) (k0_off136_inb k) (k0_off134_inb k) (k0_off133_inb k) (k0_off131_inb k) (k0_off130_inb k) (k0_off128_inb k) (k0_off127_inb k)
    (k0_off137_eq k) (k0_off136_eq k) (k0_off134_eq k) (k0_off133_eq k) (k0_off131_eq k) (k0_off130_eq k) (k0_off128_eq k) (k0_off127_eq k)
    _ _ _ _ _ _ _ _
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 48 hk (by omega)
      (k0_off136 k) (k0_off137 k) (k0_off137 k) (k0_off138 k) (k0_off138 k) (k0_off136_inb k) (k0_off137_inb k) (k0_off137_inb k) (k0_off138_inb k) (k0_off138_inb k)
      (k0_off136_eq k) (k0_off137_eq k) (k0_off137_eq k) (k0_off138_eq k) (k0_off138_eq k)
      (View.readAt (Elt F) (b2).view (Rect.unit (s := S64x128) (k0_off136 k) S1x16.size (k0_off136_inb k)).toLoadRect (embChunk m d L (⟨7, by decide⟩ : Fin 8))) (View.readAt (Elt F) (b2).view (Rect.unit (s := S64x128) (k0_off137 k) S1x16.size (k0_off137_inb k)).toLoadRect (embChunk m d L (⟨7, by decide⟩ : Fin 8)))
      (View.readAt (Elt F) (b4).view (Rect.unit (s := S64x64) (k0_off138 k) S1x16.size (k0_off138_inb k)).toLoadRect (gathered m d L (m (rLoc d)) (⟨7, by decide⟩ : Fin 8))) (View.readAt (Elt F) (b6).view (Rect.unit (s := S64x64) (k0_off138 k) S1x16.size (k0_off138_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 48 hk (by omega)
      (k0_off136 k) (k0_off137 k) (k0_off136 k) (k0_off138 k) (k0_off138 k) (k0_off136_inb k) (k0_off137_inb k) (k0_off136_inb k) (k0_off138_inb k) (k0_off138_inb k)
      (k0_off136_eq k) (k0_off137_eq k) (k0_off136_eq k) (k0_off138_eq k) (k0_off138_eq k)
      (View.readAt (Elt F) (b2).view (Rect.unit (s := S64x128) (k0_off136 k) S1x16.size (k0_off136_inb k)).toLoadRect (embChunk m d L (⟨7, by decide⟩ : Fin 8))) (View.readAt (Elt F) (b2).view (Rect.unit (s := S64x128) (k0_off137 k) S1x16.size (k0_off137_inb k)).toLoadRect (embChunk m d L (⟨7, by decide⟩ : Fin 8)))
      (View.readAt (Elt F) (b4).view (Rect.unit (s := S64x64) (k0_off138 k) S1x16.size (k0_off138_inb k)).toLoadRect (gathered m d L (m (rLoc d)) (⟨7, by decide⟩ : Fin 8))) (View.readAt (Elt F) (b6).view (Rect.unit (s := S64x64) (k0_off138 k) S1x16.size (k0_off138_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 32 hk (by omega)
      (k0_off133 k) (k0_off134 k) (k0_off134 k) (k0_off135 k) (k0_off135 k) (k0_off133_inb k) (k0_off134_inb k) (k0_off134_inb k) (k0_off135_inb k) (k0_off135_inb k)
      (k0_off133_eq k) (k0_off134_eq k) (k0_off134_eq k) (k0_off135_eq k) (k0_off135_eq k)
      (View.readAt (Elt F) (b2).view (Rect.unit (s := S64x128) (k0_off133 k) S1x16.size (k0_off133_inb k)).toLoadRect (embChunk m d L (⟨7, by decide⟩ : Fin 8))) (View.readAt (Elt F) (b2).view (Rect.unit (s := S64x128) (k0_off134 k) S1x16.size (k0_off134_inb k)).toLoadRect (embChunk m d L (⟨7, by decide⟩ : Fin 8)))
      (View.readAt (Elt F) (b4).view (Rect.unit (s := S64x64) (k0_off135 k) S1x16.size (k0_off135_inb k)).toLoadRect (gathered m d L (m (rLoc d)) (⟨7, by decide⟩ : Fin 8))) (View.readAt (Elt F) (b6).view (Rect.unit (s := S64x64) (k0_off135 k) S1x16.size (k0_off135_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 32 hk (by omega)
      (k0_off133 k) (k0_off134 k) (k0_off133 k) (k0_off135 k) (k0_off135 k) (k0_off133_inb k) (k0_off134_inb k) (k0_off133_inb k) (k0_off135_inb k) (k0_off135_inb k)
      (k0_off133_eq k) (k0_off134_eq k) (k0_off133_eq k) (k0_off135_eq k) (k0_off135_eq k)
      (View.readAt (Elt F) (b2).view (Rect.unit (s := S64x128) (k0_off133 k) S1x16.size (k0_off133_inb k)).toLoadRect (embChunk m d L (⟨7, by decide⟩ : Fin 8))) (View.readAt (Elt F) (b2).view (Rect.unit (s := S64x128) (k0_off134 k) S1x16.size (k0_off134_inb k)).toLoadRect (embChunk m d L (⟨7, by decide⟩ : Fin 8)))
      (View.readAt (Elt F) (b4).view (Rect.unit (s := S64x64) (k0_off135 k) S1x16.size (k0_off135_inb k)).toLoadRect (gathered m d L (m (rLoc d)) (⟨7, by decide⟩ : Fin 8))) (View.readAt (Elt F) (b6).view (Rect.unit (s := S64x64) (k0_off135 k) S1x16.size (k0_off135_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 16 hk (by omega)
      (k0_off130 k) (k0_off131 k) (k0_off131 k) (k0_off132 k) (k0_off132 k) (k0_off130_inb k) (k0_off131_inb k) (k0_off131_inb k) (k0_off132_inb k) (k0_off132_inb k)
      (k0_off130_eq k) (k0_off131_eq k) (k0_off131_eq k) (k0_off132_eq k) (k0_off132_eq k)
      (View.readAt (Elt F) (b2).view (Rect.unit (s := S64x128) (k0_off130 k) S1x16.size (k0_off130_inb k)).toLoadRect (embChunk m d L (⟨7, by decide⟩ : Fin 8))) (View.readAt (Elt F) (b2).view (Rect.unit (s := S64x128) (k0_off131 k) S1x16.size (k0_off131_inb k)).toLoadRect (embChunk m d L (⟨7, by decide⟩ : Fin 8)))
      (View.readAt (Elt F) (b4).view (Rect.unit (s := S64x64) (k0_off132 k) S1x16.size (k0_off132_inb k)).toLoadRect (gathered m d L (m (rLoc d)) (⟨7, by decide⟩ : Fin 8))) (View.readAt (Elt F) (b6).view (Rect.unit (s := S64x64) (k0_off132 k) S1x16.size (k0_off132_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 16 hk (by omega)
      (k0_off130 k) (k0_off131 k) (k0_off130 k) (k0_off132 k) (k0_off132 k) (k0_off130_inb k) (k0_off131_inb k) (k0_off130_inb k) (k0_off132_inb k) (k0_off132_inb k)
      (k0_off130_eq k) (k0_off131_eq k) (k0_off130_eq k) (k0_off132_eq k) (k0_off132_eq k)
      (View.readAt (Elt F) (b2).view (Rect.unit (s := S64x128) (k0_off130 k) S1x16.size (k0_off130_inb k)).toLoadRect (embChunk m d L (⟨7, by decide⟩ : Fin 8))) (View.readAt (Elt F) (b2).view (Rect.unit (s := S64x128) (k0_off131 k) S1x16.size (k0_off131_inb k)).toLoadRect (embChunk m d L (⟨7, by decide⟩ : Fin 8)))
      (View.readAt (Elt F) (b4).view (Rect.unit (s := S64x64) (k0_off132 k) S1x16.size (k0_off132_inb k)).toLoadRect (gathered m d L (m (rLoc d)) (⟨7, by decide⟩ : Fin 8))) (View.readAt (Elt F) (b6).view (Rect.unit (s := S64x64) (k0_off132 k) S1x16.size (k0_off132_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 0 hk (by omega)
      (k0_off127 k) (k0_off128 k) (k0_off128 k) (k0_off129 k) (k0_off129 k) (k0_off127_inb k) (k0_off128_inb k) (k0_off128_inb k) (k0_off129_inb k) (k0_off129_inb k)
      (k0_off127_eq k) (k0_off128_eq k) (k0_off128_eq k) (k0_off129_eq k) (k0_off129_eq k)
      (View.readAt (Elt F) (b2).view (Rect.unit (s := S64x128) (k0_off127 k) S1x16.size (k0_off127_inb k)).toLoadRect (embChunk m d L (⟨7, by decide⟩ : Fin 8))) (View.readAt (Elt F) (b2).view (Rect.unit (s := S64x128) (k0_off128 k) S1x16.size (k0_off128_inb k)).toLoadRect (embChunk m d L (⟨7, by decide⟩ : Fin 8)))
      (View.readAt (Elt F) (b4).view (Rect.unit (s := S64x64) (k0_off129 k) S1x16.size (k0_off129_inb k)).toLoadRect (gathered m d L (m (rLoc d)) (⟨7, by decide⟩ : Fin 8))) (View.readAt (Elt F) (b6).view (Rect.unit (s := S64x64) (k0_off129 k) S1x16.size (k0_off129_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 0 hk (by omega)
      (k0_off127 k) (k0_off128 k) (k0_off127 k) (k0_off129 k) (k0_off129 k) (k0_off127_inb k) (k0_off128_inb k) (k0_off127_inb k) (k0_off129_inb k) (k0_off129_inb k)
      (k0_off127_eq k) (k0_off128_eq k) (k0_off127_eq k) (k0_off129_eq k) (k0_off129_eq k)
      (View.readAt (Elt F) (b2).view (Rect.unit (s := S64x128) (k0_off127 k) S1x16.size (k0_off127_inb k)).toLoadRect (embChunk m d L (⟨7, by decide⟩ : Fin 8))) (View.readAt (Elt F) (b2).view (Rect.unit (s := S64x128) (k0_off128 k) S1x16.size (k0_off128_inb k)).toLoadRect (embChunk m d L (⟨7, by decide⟩ : Fin 8)))
      (View.readAt (Elt F) (b4).view (Rect.unit (s := S64x64) (k0_off129 k) S1x16.size (k0_off129_inb k)).toLoadRect (gathered m d L (m (rLoc d)) (⟨7, by decide⟩ : Fin 8))) (View.readAt (Elt F) (b6).view (Rect.unit (s := S64x64) (k0_off129 k) S1x16.size (k0_off129_inb k)).toLoadRect (gathered m d L (m (gLoc d)) (⟨7, by decide⟩ : Fin 8)))
      (fun _ => rfl) (fun _ => rfl) (fun _ => rfl) (fun _ => rfl))
    hfo

end Cert.Proof.KI

end
-- ==== Proof.KI.Post.lean ====
/-
  The tile's epilogue: what the tile holds by name at the end of its run — its share of the batch and of the row
  numbers, the two halves of its share of each table, its eight chunks of the result at the specification's function,
  its scratch buffers at whatever they hold, its semaphores at zero and what it owes — is the task's postcondition.
-/
import proofs.«204629_g89326729822651_cont_sun_m_635_33_alg».proof.Proof.KI.Landing
import proofs.«204629_g89326729822651_cont_sun_m_635_33_alg».proof.Proof.KI.Own

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ)
variable (d : Dev nD) (L : grid0.Coords)
variable [FloatOps F]

/-- The resources at the end of the tile's run, reassembled into the task's postcondition. -/
theorem tile_post (hF : (K (F := F)).Facts) (O : CellTallies nD τ sig (HIx 1)) (W : Waits sig (HIx 1)) :
    iprop(((eW).view.loc (thr d L) ↦{tq (cL L) (sL L)} m (eLoc d)) ∗ ((iW).view.loc (thr d L) ↦{tq (cL L) (sL L)} m (iLoc d))
        ∗ ((rW).view.loc (thr d L) ↦{(tq (cL L) (sL L)).left} m (rLoc d)) ∗ ((rW).view.loc (thr d L) ↦{(tq (cL L) (sL L)).right} m (rLoc d))
        ∗ ((gW).view.loc (thr d L) ↦{(tq (cL L) (sL L)).left} m (gLoc d)) ∗ ((gW).view.loc (thr d L) ↦{(tq (cL L) (sL L)).right} m (gLoc d))
        ∗ (oLoc d ↦[chunkSet (cL L) (sL L) 0]{fullShare} Gm m d) ∗ (oLoc d ↦[chunkSet (cL L) (sL L) 1]{fullShare} Gm m d) ∗ (oLoc d ↦[chunkSet (cL L) (sL L) 2]{fullShare} Gm m d) ∗ (oLoc d ↦[chunkSet (cL L) (sL L) 3]{fullShare} Gm m d) ∗ (oLoc d ↦[chunkSet (cL L) (sL L) 4]{fullShare} Gm m d) ∗ (oLoc d ↦[chunkSet (cL L) (sL L) 5]{fullShare} Gm m d) ∗ (oLoc d ↦[chunkSet (cL L) (sL L) 6]{fullShare} Gm m d) ∗ (oLoc d ↦[chunkSet (cL L) (sL L) 7]{fullShare} Gm m d)
        ∗ (∃ f, (b0).view.loc (thr d L) ↦{fullShare} f) ∗ (∃ f, (b1).view.loc (thr d L) ↦{fullShare} f) ∗ (∃ f, (b2).view.loc (thr d L) ↦{fullShare} f) ∗ (∃ f, (b3).view.loc (thr d L) ↦{fullShare} f) ∗ (∃ f, (b4).view.loc (thr d L) ↦{fullShare} f) ∗ (∃ f, (b5).view.loc (thr d L) ↦{fullShare} f) ∗ (∃ f, (b6).view.loc (thr d L) ↦{fullShare} f) ∗ (∃ f, (b7).view.loc (thr d L) ↦{fullShare} f) ∗ (∃ f, (b8).view.loc (thr d L) ↦{fullShare} f)
        ∗ (bigSep (restRefs L) fun b => iprop(∃ f, ((d, b) : Loc nD τ sig) ↦{fullShare} f))
        ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
        ∗ (bigSep (restCells d L) fun g => semVal g 0)
        ∗ (∃ W', ⌜∀ p ∈ W', p ∈ W ∨ p.2 = none⌝ ∗ owes (thr d L) O W'))
      ⊢ iprop(tileIn m d (cL L) (sL L) (Gm m d)
          ∗ scopedBufs (V d (cV L) (jV L)) ∗ scopedSems0 (V d (cV L) (jV L))
          ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileIn argsAt
  rw [chunks_split d L (Gm m d)]
  show iprop((eLoc d ↦{tq (cL L) (sL L)} m (eLoc d)) ∗ (iLoc d ↦{tq (cL L) (sL L)} m (iLoc d))
        ∗ (rLoc d ↦{(tq (cL L) (sL L)).left} m (rLoc d)) ∗ (rLoc d ↦{(tq (cL L) (sL L)).right} m (rLoc d))
        ∗ (gLoc d ↦{(tq (cL L) (sL L)).left} m (gLoc d)) ∗ (gLoc d ↦{(tq (cL L) (sL L)).right} m (gLoc d))
        ∗ (oLoc d ↦[chunkSet (cL L) (sL L) 0]{fullShare} Gm m d) ∗ (oLoc d ↦[chunkSet (cL L) (sL L) 1]{fullShare} Gm m d) ∗ (oLoc d ↦[chunkSet (cL L) (sL L) 2]{fullShare} Gm m d) ∗ (oLoc d ↦[chunkSet (cL L) (sL L) 3]{fullShare} Gm m d) ∗ (oLoc d ↦[chunkSet (cL L) (sL L) 4]{fullShare} Gm m d) ∗ (oLoc d ↦[chunkSet (cL L) (sL L) 5]{fullShare} Gm m d) ∗ (oLoc d ↦[chunkSet (cL L) (sL L) 6]{fullShare} Gm m d) ∗ (oLoc d ↦[chunkSet (cL L) (sL L) 7]{fullShare} Gm m d)
        ∗ (∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
        ∗ (bigSep (restRefs L) fun b => iprop(∃ f, ((d, b) : Loc nD τ sig) ↦{fullShare} f))
        ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
        ∗ (bigSep (restCells d L) fun g => semVal g 0)
        ∗ (∃ W', ⌜∀ p ∈ W', p ∈ W ∨ p.2 = none⌝ ∗ owes (V d (cV L) (jV L)) O W')) ⊢ _
  iintro ⟨He, Hi, Hrl, Hrr, Hgl, Hgr, Hc0, Hc1, Hc2, Hc3, Hc4, Hc5, Hc6, Hc7, Hb0, Hb1, Hb2, Hb3, Hb4, Hb5, Hb6, Hb7, Hb8, Hrest,
    Hs1, Hs2, Hs3, Hs4, Hs5, Hs6, Hs7, Hs8, Hs9, Hcells, HO⟩
  ihave Hr := (pointsTo_share (ℓ := rLoc d) (I := Finset.univ) (f := m (rLoc d)) (PosShare.mem_left_op_right (tq (cL L) (sL L)))).2 $$ [Hrl Hrr]
  · isplitl [Hrl]; · iexact Hrl
    iexact Hrr
  ihave Hg := (pointsTo_share (ℓ := gLoc d) (I := Finset.univ) (f := m (gLoc d)) (PosShare.mem_left_op_right (tq (cL L) (sL L)))).2 $$ [Hgl Hgr]
  · isplitl [Hgl]; · iexact Hgl
    iexact Hgr
  isplitl [He Hi Hr Hg Hc0 Hc1 Hc2 Hc3 Hc4 Hc5 Hc6 Hc7]
  · isplitl [He Hi Hr Hg]
    · isplitl [He]; · iexact He
      isplitl [Hi]; · iexact Hi
      isplitl [Hr]; · iexact Hr
      iexact Hg
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
  isplitl [Hb0 Hb1 Hb2 Hb3 Hb4 Hb5 Hb6 Hb7 Hb8 Hrest]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact Hrest
  isplitl [Hs1 Hs2 Hs3 Hs4 Hs5 Hs6 Hs7 Hs8 Hs9 Hcells]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hcells
  iexact HO

end Cert.Proof.KI

end
-- ==== Proof.KI.Body.lean ====
/-
  The task of one tile, run from the launch's resources to its post: the row numbers fetched, then for each of the
  eight chunks the chunk of the batch fetched and its 128 row gathers started (one batch per table on one semaphore),
  all of them waited for, the 64 complex products computed into the result scratch and that copied out to the chunk of
  the result — two chunks in flight at a time on two sets of buffers. Between loops the copies and their waits are
  single transfers; each loop is run by its invariant.
-/
import proofs.«204629_g89326729822651_cont_sun_m_635_33_alg».proof.Proof.KI.BodyLemmas
import proofs.«204629_g89326729822651_cont_sun_m_635_33_alg».proof.Proof.KI.Fire
import proofs.«204629_g89326729822651_cont_sun_m_635_33_alg».proof.Proof.KI.Drain
import proofs.«204629_g89326729822651_cont_sun_m_635_33_alg».proof.Proof.KI.Compute0
import proofs.«204629_g89326729822651_cont_sun_m_635_33_alg».proof.Proof.KI.Compute1
import proofs.«204629_g89326729822651_cont_sun_m_635_33_alg».proof.Proof.KI.Post

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg0_scv : Memref Cert.KernelIdeal.sig Kind.scVector Space.hbm Cert.KernelIdeal.S16384x128 EltTy.f32)
local notation "iW" => (Memref.whole Cert.KernelIdeal.main_arg1_scv : Memref Cert.KernelIdeal.sig Kind.scVector Space.hbm Cert.KernelIdeal.S16384 EltTy.i32)
local notation "rW" => (Memref.whole Cert.KernelIdeal.main_arg2_scv : Memref Cert.KernelIdeal.sig Kind.scVector Space.hbm Cert.KernelIdeal.S1000000x64 EltTy.f32)
local notation "gW" => (Memref.whole Cert.KernelIdeal.main_arg3_scv : Memref Cert.KernelIdeal.sig Kind.scVector Space.hbm Cert.KernelIdeal.S1000000x64 EltTy.f32)
local notation "oW" => (Memref.whole Cert.KernelIdeal.main_v0_scv : Memref Cert.KernelIdeal.sig Kind.scVector Space.hbm Cert.KernelIdeal.S16384x128 EltTy.f32)
local notation "b0" => (Memref.whole Cert.KernelIdeal.cc0_scratch0 : Memref Cert.KernelIdeal.sig Kind.scVector Space.vmem Cert.KernelIdeal.S528 EltTy.i32)
local notation "b1" => (Memref.whole Cert.KernelIdeal.cc0_scratch1 : Memref Cert.KernelIdeal.sig Kind.scVector Space.vmem Cert.KernelIdeal.S64x128 EltTy.f32)
local notation "b2" => (Memref.whole Cert.KernelIdeal.cc0_scratch2 : Memref Cert.KernelIdeal.sig Kind.scVector Space.vmem Cert.KernelIdeal.S64x128 EltTy.f32)
local notation "b3" => (Memref.whole Cert.KernelIdeal.cc0_scratch3 : Memref Cert.KernelIdeal.sig Kind.scVector Space.vmem Cert.KernelIdeal.S64x64 EltTy.f32)
local notation "b4" => (Memref.whole Cert.KernelIdeal.cc0_scratch4 : Memref Cert.KernelIdeal.sig Kind.scVector Space.vmem Cert.KernelIdeal.S64x64 EltTy.f32)
local notation "b5" => (Memref.whole Cert.KernelIdeal.cc0_scratch5 : Memref Cert.KernelIdeal.sig Kind.scVector Space.vmem Cert.KernelIdeal.S64x64 EltTy.f32)
local notation "b6" => (Memref.whole Cert.KernelIdeal.cc0_scratch6 : Memref Cert.KernelIdeal.sig Kind.scVector Space.vmem Cert.KernelIdeal.S64x64 EltTy.f32)
local notation "b7" => (Memref.whole Cert.KernelIdeal.cc0_scratch7 : Memref Cert.KernelIdeal.sig Kind.scVector Space.vmem Cert.KernelIdeal.S64x128 EltTy.f32)
local notation "b8" => (Memref.whole Cert.KernelIdeal.cc0_scratch8 : Memref Cert.KernelIdeal.sig Kind.scVector Space.vmem Cert.KernelIdeal.S64x128 EltTy.f32)

variable (m : (ℓ : Loc nD τ sig) → Buf (Elt F) ℓ) (ρ : Dev nD → PrngReg)
variable [FloatOps F] [∀ e, Nonempty (Elt F e)]

/-- The kernel's function at the grid point `L`, on the whole arrays and the tile's scratch, as the body table passes them. -/
abbrev bodyAt (L : grid0.Coords) : Prog (TpuEff nD τ sig (Elt F) Λ₀ (.scVector ((L 0).castLE hcore0) ((L 1).castLE hsub0))) PUnit :=
  cc0__body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _) (Memref.whole main_v0_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16 cc0_scoped0

set_option maxHeartbeats 16000000 in
/-- The task on vector subcore `(L 0, L 1)` of device `d`: from its share of the arguments and its eight chunks of the
    result at their launch contents, it ends with the chunks at the specification's function. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp
        ∗ tileIn m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tileIn m d (cL L) (sL L) (Gm m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold bodyAt
  simp only [cc0__body_eq_skeleton]; unfold cc0__body_skel
  simp only [k0_part17_eq_skeleton]; unfold k0_part17_skel
  iintro ⟨#Hlv, -, ⟨⟨Hem, Hix, Hre, Him⟩, Hch⟩, Hsb, Hss, HO⟩
  ihave Hsb := (Entails.of_eq (((K (F := F)).scopedBufs_V hF d (cV L) (jV L)).trans (ownBufs_V (F := F) d L))) $$ Hsb
  icases Hsb with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩
  ihave Hss := (Entails.of_eq ((SparseCore.Cfg.scopedSems0_V (Val := Elt F) d (cV L) (jV L)).trans (ownSems0_V (F := F) d L))) $$ Hss
  icases Hss with ⟨Hs9, Hs10, Hs11, Hs12, Hs13, Hs14, Hs15, Hs16, Hsc, Hsems⟩
  ihave Hmw := (show levAts (K (F := F)).L (K (F := F)).lev ⊢ Transfers.MayWaits (thr d L) (default : HIx 1) O from
    (K (F := F)).mayWaits_none (thr := (thr d L)) hO) $$ Hlv
  have hW0 : ∀ p ∈ W, p ∈ W ∨ p.2 = none := fun p hp => .inl hp
  ihave Hem := (Entails.of_eq (pts_e (F := F) d L _ _).symm) $$ Hem
  ihave Hix := (Entails.of_eq (pts_i (F := F) d L _ _).symm) $$ Hix
  ihave Hre := (Entails.of_eq (pts_r (F := F) d L _ _).symm) $$ Hre
  ihave Him := (Entails.of_eq (pts_g (F := F) d L _ _).symm) $$ Him
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  ihave Hb8 := (Entails.of_eq (pts_b8 (F := F) d L _).symm) $$ Hb8
  ihave Hre := (pointsTo_share (PosShare.mem_left_op_right (tq (cL L) (sL L)))).1 $$ Hre
  icases Hre with ⟨Hre0, Hre1⟩
  ihave Him := (pointsTo_share (PosShare.mem_left_op_right (tq (cL L) (sL L)))).1 $$ Him
  icases Him with ⟨Him0, Him1⟩
  ihave Hch := (Entails.of_eq (chunks_split (F := F) d L _)) $$ Hch
  icases Hch with ⟨Hc0, Hc1, Hc2, Hc3, Hc4, Hc5, Hc6, Hc7⟩
  ihave Hc0 := (Entails.of_eq (pts_c0 (F := F) d L _).symm) $$ Hc0
  ihave Hc1 := (Entails.of_eq (pts_c1 (F := F) d L _).symm) $$ Hc1
  ihave Hc2 := (Entails.of_eq (pts_c2 (F := F) d L _).symm) $$ Hc2
  ihave Hc3 := (Entails.of_eq (pts_c3 (F := F) d L _).symm) $$ Hc3
  ihave Hc4 := (Entails.of_eq (pts_c4 (F := F) d L _).symm) $$ Hc4
  ihave Hc5 := (Entails.of_eq (pts_c5 (F := F) d L _).symm) $$ Hc5
  ihave Hc6 := (Entails.of_eq (pts_c6 (F := F) d L _).symm) $$ Hc6
  ihave Hc7 := (Entails.of_eq (pts_c7 (F := F) d L _).symm) $$ Hc7
  sl_exec
  have hI : IdxHolds m d L ((b0).view.writes (Elt F) f0 [⟨Rect.unit (s := S528) ![0] S512.size inb_S528_S512_0, tile_body.sl.dma0 m d L⟩]) :=
    idx_landed m d L f0 (show k0_off1 L = ![R0 L] from by rw [k0_off1_eq L]; rfl) (k0_off1_inb L) (tile_body.sl.dma0 m d L) rfl
  try sl_rw [bind_assoc]
  -- chunk 0: start its gathers
  imod (fire_entry0 m d L (⟨0, lt8_0⟩ : Fin 8) ((tq (cL L) (sL L)).left) _ f3 f5) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨0, lt8_0⟩ : Fin 8) ((tq (cL L) (sL L)).left) _ f3 f5) $$ [HI]
  case region => intro k acc; exact fire_region_t1 m d L hpre _ _ hI f3 f5  k
  · iexact HI
  iintro %acc HI
  ihave HI := (fire_exit0' m d L (⟨0, lt8_0⟩ : Fin 8) ((tq (cL L) (sL L)).left) _ f3 f5 _ trips_t1 _) $$ HI
  icases HI with ⟨Hb0, HB0, Hrem0⟩
  sl_exec
  try sl_rw [bind_assoc]
  -- chunk 1: start its gathers
  imod (fire_entry1 m d L (⟨1, lt8_1⟩ : Fin 8) ((tq (cL L) (sL L)).right) _ f4 f6) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨1, lt8_1⟩ : Fin 8) ((tq (cL L) (sL L)).right) _ f4 f6) $$ [HI]
  case region => intro k acc; exact fire_region_t2 m d L hpre _ _ hI f4 f6  k
  · iexact HI
  iintro %acc HI
  ihave HI := (fire_exit1' m d L (⟨1, lt8_1⟩ : Fin 8) ((tq (cL L) (sL L)).right) _ f4 f6 _ trips_t2 _) $$ HI
  icases HI with ⟨Hb0, HB1, Hrem1⟩
  sl_exec
  try sl_rw [bind_assoc]
  -- chunk 0: wait for its gathers
  sl_for (drainInv0 m d L (⟨0, lt8_0⟩ : Fin 8) ((tq (cL L) (sL L)).left) O W) $$ [HO HB0]
  case region => intro k acc; exact drain_region_t3 m d L _ O W k _ _
  · iapply (drain_entryX0 m d L (⟨0, lt8_0⟩ : Fin 8) ((tq (cL L) (sL L)).left) O W)
    isplitr; · iexact Hmw
    isplitl [HO]
    · iexists _; isplitr
      swap; · iexact HO
      ipureintro; repeat (first | exact hW0 | refine okW_ins _ ?_)
    iexact HB0
  iintro %acc HI
  ihave HI := (drain_exit0' m d L (⟨0, lt8_0⟩ : Fin 8) ((tq (cL L) (sL L)).left) O W _ trips_t3 _) $$ HI
  icases HI with ⟨⟨%W1, %hW1, HO⟩, HDR, HDI, Hs11, Hs13⟩
  ihave HJ := (deliv_join0 m d L (⟨0, lt8_0⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  try sl_rw [bind_assoc]
  -- chunk 0: the products
  ihave Hb1 := (Entails.of_eq (congrArg (fun f => ((b1).view.loc (thr d L) ↦{fullShare} f : sProp 𝕄))
      (emb_landed1 m d L (⟨0, lt8_0⟩ : Fin 8) _ (hoff2 L (⟨0, lt8_0⟩ : Fin 8)) (k0_off2_inb L (⟨0, lt8_0⟩ : Fin 8)) (tile_body.sl.dma0_1 m d L) rfl))) $$ Hb1
  sl_for (computeInv0 m d L (⟨0, lt8_0⟩ : Fin 8)) $$ [Hb1 Hb3 Hb5 Hb7]
  case region => intro k acc; exact compute_region_t4 m d L k _ _
  · iapply (compute_entry0 m d L (⟨0, lt8_0⟩ : Fin 8) _)
    isplitl [Hb1]; · iexact Hb1
    isplitl [Hb3]; · iexact Hb3
    isplitl [Hb5]; · iexact Hb5
    iexact Hb7
  iintro %acc HI
  ihave HI := (compute_exit0' m d L (⟨0, lt8_0⟩ : Fin 8) _ trips_t4 _) $$ HI
  icases HI with ⟨Hb1, Hb3, Hb5, Hb7⟩
  sl_exec
  try sl_rw [bind_assoc]
  -- chunk 2: start its gathers
  imod (fire_entry0 m d L (⟨2, lt8_2⟩ : Fin 8) ((tq (cL L) (sL L)).left) _ (gathered m d L (m (rLoc d)) (⟨0, lt8_0⟩ : Fin 8)) (gathered m d L (m (gLoc d)) (⟨0, lt8_0⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨2, lt8_2⟩ : Fin 8) ((tq (cL L) (sL L)).left) _ (gathered m d L (m (rLoc d)) (⟨0, lt8_0⟩ : Fin 8)) (gathered m d L (m (gLoc d)) (⟨0, lt8_0⟩ : Fin 8))) $$ [HI]
  case region => intro k acc; exact fire_region_t5 m d L hpre _ _ hI (gathered m d L (m (rLoc d)) (⟨0, lt8_0⟩ : Fin 8)) (gathered m d L (m (gLoc d)) (⟨0, lt8_0⟩ : Fin 8)) _ _ k
  · iexact HI
  iintro %acc HI
  ihave HI := (fire_exit0' m d L (⟨2, lt8_2⟩ : Fin 8) ((tq (cL L) (sL L)).left) _ (gathered m d L (m (rLoc d)) (⟨0, lt8_0⟩ : Fin 8)) (gathered m d L (m (gLoc d)) (⟨0, lt8_0⟩ : Fin 8)) _ trips_t5 _) $$ HI
  icases HI with ⟨Hb0, HB0, Hrem0⟩
  sl_exec
  try sl_rw [bind_assoc]
  -- chunk 1: wait for its gathers
  sl_for (drainInv1 m d L (⟨1, lt8_1⟩ : Fin 8) ((tq (cL L) (sL L)).right) O W) $$ [HO HB1]
  case region => intro k acc; exact drain_region_t6 m d L _ O W k _ _
  · iapply (drain_entryX1 m d L (⟨1, lt8_1⟩ : Fin 8) ((tq (cL L) (sL L)).right) O W)
    isplitr; · iexact Hmw
    isplitl [HO]
    · iexists _; isplitr
      swap; · iexact HO
      ipureintro; repeat (first | exact hW1 | refine okW_ins _ ?_)
    iexact HB1
  iintro %acc HI
  ihave HI := (drain_exit1' m d L (⟨1, lt8_1⟩ : Fin 8) ((tq (cL L) (sL L)).right) O W _ trips_t6 _) $$ HI
  icases HI with ⟨⟨%W2, %hW2, HO⟩, HDR, HDI, Hs12, Hs14⟩
  ihave HJ := (deliv_join1 m d L (⟨1, lt8_1⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  try sl_rw [bind_assoc]
  -- chunk 1: the products
  ihave Hb2 := (Entails.of_eq (congrArg (fun f => ((b2).view.loc (thr d L) ↦{fullShare} f : sProp 𝕄))
      (emb_landed2 m d L (⟨1, lt8_1⟩ : Fin 8) _ (hoff2 L (⟨1, lt8_1⟩ : Fin 8)) (k0_off2_inb L (⟨1, lt8_1⟩ : Fin 8)) (tile_body.sl.dma0_2 m d L) rfl))) $$ Hb2
  sl_for (computeInv1 m d L (⟨1, lt8_1⟩ : Fin 8)) $$ [Hb2 Hb4 Hb6 Hb8]
  case region => intro k acc; exact compute_region_t7 m d L k _ _
  · iapply (compute_entry1 m d L (⟨1, lt8_1⟩ : Fin 8) _)
    isplitl [Hb2]; · iexact Hb2
    isplitl [Hb4]; · iexact Hb4
    isplitl [Hb6]; · iexact Hb6
    iexact Hb8
  iintro %acc HI
  ihave HI := (compute_exit1' m d L (⟨1, lt8_1⟩ : Fin 8) _ trips_t7 _) $$ HI
  icases HI with ⟨Hb2, Hb4, Hb6, Hb8⟩
  sl_exec
  try sl_rw [bind_assoc]
  -- chunk 3: start its gathers
  imod (fire_entry1 m d L (⟨3, lt8_3⟩ : Fin 8) ((tq (cL L) (sL L)).right) _ (gathered m d L (m (rLoc d)) (⟨1, lt8_1⟩ : Fin 8)) (gathered m d L (m (gLoc d)) (⟨1, lt8_1⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨3, lt8_3⟩ : Fin 8) ((tq (cL L) (sL L)).right) _ (gathered m d L (m (rLoc d)) (⟨1, lt8_1⟩ : Fin 8)) (gathered m d L (m (gLoc d)) (⟨1, lt8_1⟩ : Fin 8))) $$ [HI]
  case region => intro k acc; exact fire_region_t8 m d L hpre _ _ hI (gathered m d L (m (rLoc d)) (⟨1, lt8_1⟩ : Fin 8)) (gathered m d L (m (gLoc d)) (⟨1, lt8_1⟩ : Fin 8)) _ k
  · iexact HI
  iintro %acc HI
  ihave HI := (fire_exit1' m d L (⟨3, lt8_3⟩ : Fin 8) ((tq (cL L) (sL L)).right) _ (gathered m d L (m (rLoc d)) (⟨1, lt8_1⟩ : Fin 8)) (gathered m d L (m (gLoc d)) (⟨1, lt8_1⟩ : Fin 8)) _ trips_t8 _) $$ HI
  icases HI with ⟨Hb0, HB1, Hrem1⟩
  sl_exec
  try sl_rw [bind_assoc]
  -- chunk 2: wait for its gathers
  sl_for (drainInv0 m d L (⟨2, lt8_2⟩ : Fin 8) ((tq (cL L) (sL L)).left) O W) $$ [HO HB0]
  case region => intro k acc; exact drain_region_t9 m d L _ O W k _
  · iapply (drain_entryX0 m d L (⟨2, lt8_2⟩ : Fin 8) ((tq (cL L) (sL L)).left) O W)
    isplitr; · iexact Hmw
    isplitl [HO]
    · iexists _; isplitr
      swap; · iexact HO
      ipureintro; repeat (first | exact hW2 | refine okW_ins _ ?_)
    iexact HB0
  iintro %acc HI
  ihave HI := (drain_exit0' m d L (⟨2, lt8_2⟩ : Fin 8) ((tq (cL L) (sL L)).left) O W _ trips_t9 _) $$ HI
  icases HI with ⟨⟨%W3, %hW3, HO⟩, HDR, HDI, Hs11, Hs13⟩
  ihave HJ := (deliv_join0 m d L (⟨2, lt8_2⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 2: the products
  ihave Hb1 := (Entails.of_eq (congrArg (fun f => ((b1).view.loc (thr d L) ↦{fullShare} f : sProp 𝕄))
      (emb_landed1 m d L (⟨2, lt8_2⟩ : Fin 8) _ (hoff2 L (⟨2, lt8_2⟩ : Fin 8)) (k0_off2_inb L (⟨2, lt8_2⟩ : Fin 8)) (tile_body.sl.dma0_4 m d L) rfl))) $$ Hb1
  sl_for (computeInv0 m d L (⟨2, lt8_2⟩ : Fin 8)) $$ [Hb1 Hb3 Hb5 Hb7]
  case region => intro k acc; exact compute_region_t10 m d L k _
  · iapply (compute_entry0 m d L (⟨2, lt8_2⟩ : Fin 8) _)
    isplitl [Hb1]; · iexact Hb1
    isplitl [Hb3]; · iexact Hb3
    isplitl [Hb5]; · iexact Hb5
    iexact Hb7
  iintro %acc HI
  ihave HI := (compute_exit0' m d L (⟨2, lt8_2⟩ : Fin 8) _ trips_t10 _) $$ HI
  icases HI with ⟨Hb1, Hb3, Hb5, Hb7⟩
  sl_exec
  try sl_rw [bind_assoc]
  -- chunk 4: start its gathers
  imod (fire_entry0 m d L (⟨4, lt8_4⟩ : Fin 8) ((tq (cL L) (sL L)).left) _ (gathered m d L (m (rLoc d)) (⟨2, lt8_2⟩ : Fin 8)) (gathered m d L (m (gLoc d)) (⟨2, lt8_2⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨4, lt8_4⟩ : Fin 8) ((tq (cL L) (sL L)).left) _ (gathered m d L (m (rLoc d)) (⟨2, lt8_2⟩ : Fin 8)) (gathered m d L (m (gLoc d)) (⟨2, lt8_2⟩ : Fin 8))) $$ [HI]
  case region => intro k acc; exact fire_region_t11 m d L hpre _ _ hI (gathered m d L (m (rLoc d)) (⟨2, lt8_2⟩ : Fin 8)) (gathered m d L (m (gLoc d)) (⟨2, lt8_2⟩ : Fin 8)) _ k
  · iexact HI
  iintro %acc HI
  ihave HI := (fire_exit0' m d L (⟨4, lt8_4⟩ : Fin 8) ((tq (cL L) (sL L)).left) _ (gathered m d L (m (rLoc d)) (⟨2, lt8_2⟩ : Fin 8)) (gathered m d L (m (gLoc d)) (⟨2, lt8_2⟩ : Fin 8)) _ trips_t11 _) $$ HI
  icases HI with ⟨Hb0, HB0, Hrem0⟩
  sl_exec
  try sl_rw [bind_assoc]
  -- chunk 3: wait for its gathers
  sl_for (drainInv1 m d L (⟨3, lt8_3⟩ : Fin 8) ((tq (cL L) (sL L)).right) O W) $$ [HO HB1]
  case region => intro k acc; exact drain_region_t12 m d L _ O W k _
  · iapply (drain_entryX1 m d L (⟨3, lt8_3⟩ : Fin 8) ((tq (cL L) (sL L)).right) O W)
    isplitr; · iexact Hmw
    isplitl [HO]
    · iexists _; isplitr
      swap; · iexact HO
      ipureintro; repeat (first | exact hW3 | refine okW_ins _ ?_)
    iexact HB1
  iintro %acc HI
  ihave HI := (drain_exit1' m d L (⟨3, lt8_3⟩ : Fin 8) ((tq (cL L) (sL L)).right) O W _ trips_t12 _) $$ HI
  icases HI with ⟨⟨%W4, %hW4, HO⟩, HDR, HDI, Hs12, Hs14⟩
  ihave HJ := (deliv_join1 m d L (⟨3, lt8_3⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 3: the products
  ihave Hb2 := (Entails.of_eq (congrArg (fun f => ((b2).view.loc (thr d L) ↦{fullShare} f : sProp 𝕄))
      (emb_landed2 m d L (⟨3, lt8_3⟩ : Fin 8) _ (hoff2 L (⟨3, lt8_3⟩ : Fin 8)) (k0_off2_inb L (⟨3, lt8_3⟩ : Fin 8)) (tile_body.sl.dma0_6 m d L) rfl))) $$ Hb2
  sl_for (computeInv1 m d L (⟨3, lt8_3⟩ : Fin 8)) $$ [Hb2 Hb4 Hb6 Hb8]
  case region => intro k acc; exact compute_region_t13 m d L k _
  · iapply (compute_entry1 m d L (⟨3, lt8_3⟩ : Fin 8) _)
    isplitl [Hb2]; · iexact Hb2
    isplitl [Hb4]; · iexact Hb4
    isplitl [Hb6]; · iexact Hb6
    iexact Hb8
  iintro %acc HI
  ihave HI := (compute_exit1' m d L (⟨3, lt8_3⟩ : Fin 8) _ trips_t13 _) $$ HI
  icases HI with ⟨Hb2, Hb4, Hb6, Hb8⟩
  sl_exec
  try sl_rw [bind_assoc]
  -- chunk 5: start its gathers
  imod (fire_entry1 m d L (⟨5, lt8_5⟩ : Fin 8) ((tq (cL L) (sL L)).right) _ (gathered m d L (m (rLoc d)) (⟨3, lt8_3⟩ : Fin 8)) (gathered m d L (m (gLoc d)) (⟨3, lt8_3⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨5, lt8_5⟩ : Fin 8) ((tq (cL L) (sL L)).right) _ (gathered m d L (m (rLoc d)) (⟨3, lt8_3⟩ : Fin 8)) (gathered m d L (m (gLoc d)) (⟨3, lt8_3⟩ : Fin 8))) $$ [HI]
  case region => intro k acc; exact fire_region_t14 m d L hpre _ _ hI (gathered m d L (m (rLoc d)) (⟨3, lt8_3⟩ : Fin 8)) (gathered m d L (m (gLoc d)) (⟨3, lt8_3⟩ : Fin 8)) _ k
  · iexact HI
  iintro %acc HI
  ihave HI := (fire_exit1' m d L (⟨5, lt8_5⟩ : Fin 8) ((tq (cL L) (sL L)).right) _ (gathered m d L (m (rLoc d)) (⟨3, lt8_3⟩ : Fin 8)) (gathered m d L (m (gLoc d)) (⟨3, lt8_3⟩ : Fin 8)) _ trips_t14 _) $$ HI
  icases HI with ⟨Hb0, HB1, Hrem1⟩
  sl_exec
  try sl_rw [bind_assoc]
  -- chunk 4: wait for its gathers
  sl_for (drainInv0 m d L (⟨4, lt8_4⟩ : Fin 8) ((tq (cL L) (sL L)).left) O W) $$ [HO HB0]
  case region => intro k acc; exact drain_region_t15 m d L _ O W k _
  · iapply (drain_entryX0 m d L (⟨4, lt8_4⟩ : Fin 8) ((tq (cL L) (sL L)).left) O W)
    isplitr; · iexact Hmw
    isplitl [HO]
    · iexists _; isplitr
      swap; · iexact HO
      ipureintro; repeat (first | exact hW4 | refine okW_ins _ ?_)
    iexact HB0
  iintro %acc HI
  ihave HI := (drain_exit0' m d L (⟨4, lt8_4⟩ : Fin 8) ((tq (cL L) (sL L)).left) O W _ trips_t15 _) $$ HI
  icases HI with ⟨⟨%W5, %hW5, HO⟩, HDR, HDI, Hs11, Hs13⟩
  ihave HJ := (deliv_join0 m d L (⟨4, lt8_4⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 4: the products
  ihave Hb1 := (Entails.of_eq (congrArg (fun f => ((b1).view.loc (thr d L) ↦{fullShare} f : sProp 𝕄))
      (emb_landed1 m d L (⟨4, lt8_4⟩ : Fin 8) _ (hoff2 L (⟨4, lt8_4⟩ : Fin 8)) (k0_off2_inb L (⟨4, lt8_4⟩ : Fin 8)) (tile_body.sl.dma0_8 m d L) rfl))) $$ Hb1
  sl_for (computeInv0 m d L (⟨4, lt8_4⟩ : Fin 8)) $$ [Hb1 Hb3 Hb5 Hb7]
  case region => intro k acc; exact compute_region_t16 m d L k _
  · iapply (compute_entry0 m d L (⟨4, lt8_4⟩ : Fin 8) _)
    isplitl [Hb1]; · iexact Hb1
    isplitl [Hb3]; · iexact Hb3
    isplitl [Hb5]; · iexact Hb5
    iexact Hb7
  iintro %acc HI
  ihave HI := (compute_exit0' m d L (⟨4, lt8_4⟩ : Fin 8) _ trips_t16 _) $$ HI
  icases HI with ⟨Hb1, Hb3, Hb5, Hb7⟩
  sl_exec
  try sl_rw [bind_assoc]
  -- chunk 6: start its gathers
  imod (fire_entry0 m d L (⟨6, lt8_6⟩ : Fin 8) ((tq (cL L) (sL L)).left) _ (gathered m d L (m (rLoc d)) (⟨4, lt8_4⟩ : Fin 8)) (gathered m d L (m (gLoc d)) (⟨4, lt8_4⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨6, lt8_6⟩ : Fin 8) ((tq (cL L) (sL L)).left) _ (gathered m d L (m (rLoc d)) (⟨4, lt8_4⟩ : Fin 8)) (gathered m d L (m (gLoc d)) (⟨4, lt8_4⟩ : Fin 8))) $$ [HI]
  case region => intro k acc; exact fire_region_t17 m d L hpre _ _ hI (gathered m d L (m (rLoc d)) (⟨4, lt8_4⟩ : Fin 8)) (gathered m d L (m (gLoc d)) (⟨4, lt8_4⟩ : Fin 8)) _ k
  · iexact HI
  iintro %acc HI
  ihave HI := (fire_exit0' m d L (⟨6, lt8_6⟩ : Fin 8) ((tq (cL L) (sL L)).left) _ (gathered m d L (m (rLoc d)) (⟨4, lt8_4⟩ : Fin 8)) (gathered m d L (m (gLoc d)) (⟨4, lt8_4⟩ : Fin 8)) _ trips_t17 _) $$ HI
  icases HI with ⟨Hb0, HB0, Hrem0⟩
  sl_exec
  try sl_rw [bind_assoc]
  -- chunk 5: wait for its gathers
  sl_for (drainInv1 m d L (⟨5, lt8_5⟩ : Fin 8) ((tq (cL L) (sL L)).right) O W) $$ [HO HB1]
  case region => intro k acc; exact drain_region_t18 m d L _ O W k _
  · iapply (drain_entryX1 m d L (⟨5, lt8_5⟩ : Fin 8) ((tq (cL L) (sL L)).right) O W)
    isplitr; · iexact Hmw
    isplitl [HO]
    · iexists _; isplitr
      swap; · iexact HO
      ipureintro; repeat (first | exact hW5 | refine okW_ins _ ?_)
    iexact HB1
  iintro %acc HI
  ihave HI := (drain_exit1' m d L (⟨5, lt8_5⟩ : Fin 8) ((tq (cL L) (sL L)).right) O W _ trips_t18 _) $$ HI
  icases HI with ⟨⟨%W6, %hW6, HO⟩, HDR, HDI, Hs12, Hs14⟩
  ihave HJ := (deliv_join1 m d L (⟨5, lt8_5⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 5: the products
  ihave Hb2 := (Entails.of_eq (congrArg (fun f => ((b2).view.loc (thr d L) ↦{fullShare} f : sProp 𝕄))
      (emb_landed2 m d L (⟨5, lt8_5⟩ : Fin 8) _ (hoff2 L (⟨5, lt8_5⟩ : Fin 8)) (k0_off2_inb L (⟨5, lt8_5⟩ : Fin 8)) (tile_body.sl.dma0_10 m d L) rfl))) $$ Hb2
  sl_for (computeInv1 m d L (⟨5, lt8_5⟩ : Fin 8)) $$ [Hb2 Hb4 Hb6 Hb8]
  case region => intro k acc; exact compute_region_t19 m d L k _
  · iapply (compute_entry1 m d L (⟨5, lt8_5⟩ : Fin 8) _)
    isplitl [Hb2]; · iexact Hb2
    isplitl [Hb4]; · iexact Hb4
    isplitl [Hb6]; · iexact Hb6
    iexact Hb8
  iintro %acc HI
  ihave HI := (compute_exit1' m d L (⟨5, lt8_5⟩ : Fin 8) _ trips_t19 _) $$ HI
  icases HI with ⟨Hb2, Hb4, Hb6, Hb8⟩
  sl_exec
  try sl_rw [bind_assoc]
  -- chunk 7: start its gathers
  imod (fire_entry1 m d L (⟨7, lt8_7⟩ : Fin 8) ((tq (cL L) (sL L)).right) _ (gathered m d L (m (rLoc d)) (⟨5, lt8_5⟩ : Fin 8)) (gathered m d L (m (gLoc d)) (⟨5, lt8_5⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨7, lt8_7⟩ : Fin 8) ((tq (cL L) (sL L)).right) _ (gathered m d L (m (rLoc d)) (⟨5, lt8_5⟩ : Fin 8)) (gathered m d L (m (gLoc d)) (⟨5, lt8_5⟩ : Fin 8))) $$ [HI]
  case region => intro k acc; exact fire_region_t20 m d L hpre _ _ hI (gathered m d L (m (rLoc d)) (⟨5, lt8_5⟩ : Fin 8)) (gathered m d L (m (gLoc d)) (⟨5, lt8_5⟩ : Fin 8)) _ k
  · iexact HI
  iintro %acc HI
  ihave HI := (fire_exit1' m d L (⟨7, lt8_7⟩ : Fin 8) ((tq (cL L) (sL L)).right) _ (gathered m d L (m (rLoc d)) (⟨5, lt8_5⟩ : Fin 8)) (gathered m d L (m (gLoc d)) (⟨5, lt8_5⟩ : Fin 8)) _ trips_t20 _) $$ HI
  icases HI with ⟨Hb0, HB1, Hrem1⟩
  sl_exec
  try sl_rw [bind_assoc]
  -- chunk 6: wait for its gathers
  sl_for (drainInv0 m d L (⟨6, lt8_6⟩ : Fin 8) ((tq (cL L) (sL L)).left) O W) $$ [HO HB0]
  case region => intro k acc; exact drain_region_t21 m d L _ O W k _
  · iapply (drain_entryX0 m d L (⟨6, lt8_6⟩ : Fin 8) ((tq (cL L) (sL L)).left) O W)
    isplitr; · iexact Hmw
    isplitl [HO]
    · iexists _; isplitr
      swap; · iexact HO
      ipureintro; repeat (first | exact hW6 | refine okW_ins _ ?_)
    iexact HB0
  iintro %acc HI
  ihave HI := (drain_exit0' m d L (⟨6, lt8_6⟩ : Fin 8) ((tq (cL L) (sL L)).left) O W _ trips_t21 _) $$ HI
  icases HI with ⟨⟨%W7, %hW7, HO⟩, HDR, HDI, Hs11, Hs13⟩
  ihave HJ := (deliv_join0 m d L (⟨6, lt8_6⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 6: the products
  ihave Hb1 := (Entails.of_eq (congrArg (fun f => ((b1).view.loc (thr d L) ↦{fullShare} f : sProp 𝕄))
      (emb_landed1 m d L (⟨6, lt8_6⟩ : Fin 8) _ (hoff2 L (⟨6, lt8_6⟩ : Fin 8)) (k0_off2_inb L (⟨6, lt8_6⟩ : Fin 8)) (tile_body.sl.dma0_12 m d L) rfl))) $$ Hb1
  sl_for (computeInv0 m d L (⟨6, lt8_6⟩ : Fin 8)) $$ [Hb1 Hb3 Hb5 Hb7]
  case region => intro k acc; exact compute_region_t22 m d L k _
  · iapply (compute_entry0 m d L (⟨6, lt8_6⟩ : Fin 8) _)
    isplitl [Hb1]; · iexact Hb1
    isplitl [Hb3]; · iexact Hb3
    isplitl [Hb5]; · iexact Hb5
    iexact Hb7
  iintro %acc HI
  ihave HI := (compute_exit0' m d L (⟨6, lt8_6⟩ : Fin 8) _ trips_t22 _) $$ HI
  icases HI with ⟨Hb1, Hb3, Hb5, Hb7⟩
  sl_exec
  try sl_rw [bind_assoc]
  -- chunk 7: wait for its gathers
  sl_for (drainInv1 m d L (⟨7, lt8_7⟩ : Fin 8) ((tq (cL L) (sL L)).right) O W) $$ [HO HB1]
  case region => intro k acc; exact drain_region_t23 m d L _ O W k
  · iapply (drain_entryX1 m d L (⟨7, lt8_7⟩ : Fin 8) ((tq (cL L) (sL L)).right) O W)
    isplitr; · iexact Hmw
    isplitl [HO]
    · iexists _; isplitr
      swap; · iexact HO
      ipureintro; repeat (first | exact hW7 | refine okW_ins _ ?_)
    iexact HB1
  iintro %acc HI
  ihave HI := (drain_exit1' m d L (⟨7, lt8_7⟩ : Fin 8) ((tq (cL L) (sL L)).right) O W _ trips_t23 _) $$ HI
  icases HI with ⟨⟨%W8, %hW8, HO⟩, HDR, HDI, Hs12, Hs14⟩
  ihave HJ := (deliv_join1 m d L (⟨7, lt8_7⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 7: the products
  ihave Hb2 := (Entails.of_eq (congrArg (fun f => ((b2).view.loc (thr d L) ↦{fullShare} f : sProp 𝕄))
      (emb_landed2 m d L (⟨7, lt8_7⟩ : Fin 8) _ (hoff2 L (⟨7, lt8_7⟩ : Fin 8)) (k0_off2_inb L (⟨7, lt8_7⟩ : Fin 8)) (tile_body.sl.dma0_14 m d L) rfl))) $$ Hb2
  sl_for (computeInv1 m d L (⟨7, lt8_7⟩ : Fin 8)) $$ [Hb2 Hb4 Hb6 Hb8]
  case region => intro k acc; exact compute_region_t24 m d L k
  · iapply (compute_entry1 m d L (⟨7, lt8_7⟩ : Fin 8) _)
    isplitl [Hb2]; · iexact Hb2
    isplitl [Hb4]; · iexact Hb4
    isplitl [Hb6]; · iexact Hb6
    iexact Hb8
  iintro %acc HI
  ihave HI := (compute_exit1' m d L (⟨7, lt8_7⟩ : Fin 8) _ trips_t24 _) $$ HI
  icases HI with ⟨Hb2, Hb4, Hb6, Hb8⟩
  sl_exec
  ihave Hc0 := (Entails.of_eq (out_landed7J m d L (⟨0, lt8_0⟩ : Fin 8) (hoff2 L (⟨0, lt8_0⟩ : Fin 8)) (k0_off2_inb L (⟨0, lt8_0⟩ : Fin 8)) (tile_body.sl.dma0_3 m d L) rfl)) $$ Hc0
  ihave Hc1 := (Entails.of_eq (out_landed8J m d L (⟨1, lt8_1⟩ : Fin 8) (hoff2 L (⟨1, lt8_1⟩ : Fin 8)) (k0_off2_inb L (⟨1, lt8_1⟩ : Fin 8)) (tile_body.sl.dma0_5 m d L) rfl)) $$ Hc1
  ihave Hc2 := (Entails.of_eq (out_landed7J m d L (⟨2, lt8_2⟩ : Fin 8) (hoff2 L (⟨2, lt8_2⟩ : Fin 8)) (k0_off2_inb L (⟨2, lt8_2⟩ : Fin 8)) (tile_body.sl.dma0_7 m d L) rfl)) $$ Hc2
  ihave Hc3 := (Entails.of_eq (out_landed8J m d L (⟨3, lt8_3⟩ : Fin 8) (hoff2 L (⟨3, lt8_3⟩ : Fin 8)) (k0_off2_inb L (⟨3, lt8_3⟩ : Fin 8)) (tile_body.sl.dma0_9 m d L) rfl)) $$ Hc3
  ihave Hc4 := (Entails.of_eq (out_landed7J m d L (⟨4, lt8_4⟩ : Fin 8) (hoff2 L (⟨4, lt8_4⟩ : Fin 8)) (k0_off2_inb L (⟨4, lt8_4⟩ : Fin 8)) (tile_body.sl.dma0_11 m d L) rfl)) $$ Hc4
  ihave Hc5 := (Entails.of_eq (out_landed8J m d L (⟨5, lt8_5⟩ : Fin 8) (hoff2 L (⟨5, lt8_5⟩ : Fin 8)) (k0_off2_inb L (⟨5, lt8_5⟩ : Fin 8)) (tile_body.sl.dma0_13 m d L) rfl)) $$ Hc5
  ihave Hc6 := (Entails.of_eq (out_landed7W m d L (⟨6, lt8_6⟩ : Fin 8) (m (oLoc d)) (hoff2 L (⟨6, lt8_6⟩ : Fin 8)) (k0_off2_inb L (⟨6, lt8_6⟩ : Fin 8)) (tile_body.sl.dma0_15 m d L) rfl)) $$ Hc6
  ihave Hc7 := (Entails.of_eq (out_landed8W m d L (⟨7, lt8_7⟩ : Fin 8) (m (oLoc d)) (hoff2 L (⟨7, lt8_7⟩ : Fin 8)) (k0_off2_inb L (⟨7, lt8_7⟩ : Fin 8)) (tile_body.sl.dma0_16 m d L) rfl)) $$ Hc7
  sl_step
  iapply (tile_post m d L hF O W)
  isplitl [Hem]; · iexact Hem
  isplitl [Hix]; · iexact Hix
  isplitl [Hre0]; · iexact Hre0
  isplitl [Hre1]; · iexact Hre1
  isplitl [Him0]; · iexact Him0
  isplitl [Him1]; · iexact Him1
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexists _; iexact Hb7
  isplitl [Hb8]; · iexists _; iexact Hb8
  isplitl [Hbufs]; · iexact Hbufs
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hsc]; · iexact Hsc
  isplitl [Hsems]; · iexact Hsems
  iexists _; isplitr
  swap; · iexact HO
  ipureintro; repeat (first | exact hW8 | refine okW_ins _ ?_)

end Cert.Proof.KI

end
-- ==== Proof.KI.Launch.lean ====
/-
  The launch, first part: one tile's task as the launch theorem asks for it. The body table's entry for a vector
  subcore is the kernel function at the grid point the subcore's coordinates name; the task proved at a symbolic grid
  point is the obligation at every tile of the call.
-/
import proofs.«204629_g89326729822651_cont_sun_m_635_33_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
/-- The body table's entry for a vector subcore: the kernel function at the subcore's grid point, if the grid holds it. -/
theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit m ρ [FloatOps F] in
/-- A wait list that grew only by waits at no call is one that grew only by waits at no call or at this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every tile of the call. -/
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

/-! ## A SparseCore's operands among its tiles -/

omit m ρ [FloatOps F] in
/-- A `bigSep` over the call's tiles is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m ρ [FloatOps F] in
/-- A SparseCore's share of an array is its sixteen tiles' shares, together. -/
theorem pts_tiles {ℓ : Loc nD τ sig} (f : Buf (Elt F) ℓ) (c : Fin 2) :
    (ℓ ↦{cq c} f : sProp 𝕄) = bigSep Finset.univ fun s : Fin 16 => ℓ ↦{tq c s} f :=
  pointsTo_leaves Finset.univ f 4 (cq c)

omit ρ [FloatOps F] in
/-- The four arguments at a SparseCore's share are the four arguments at each tile's share, together. -/
theorem args_tiles (d : Dev nD) (c : Fin 2) :
    argsAt m d (cq c) = bigSep Finset.univ fun s : Fin 16 => argsAt m d (tq c s) := by
  unfold argsAt
  rw [bigSep_sep', bigSep_sep', bigSep_sep',
    pts_tiles (m (eLoc d)) c, pts_tiles (m (iLoc d)) c, pts_tiles (m (rLoc d)) c, pts_tiles (m (gLoc d)) c]

omit ρ in
theorem P_st (d : Dev nD) (c : Fin ((K (F := F)).nCore 0)) : (P m).st 0 d c = coreIn m d (Fin.cast nCore_zero c) (m (oLoc d)) := rfl
omit ρ in
theorem P_dn (d : Dev nD) (c : Fin ((K (F := F)).nCore 0)) : (P m).dn 0 d c = coreIn m d (Fin.cast nCore_zero c) (Gm m d) := rfl
omit ρ in
theorem P_go (d : Dev nD) (c : Fin ((K (F := F)).nCore 0)) (i : Fin ((K (F := F)).nSub 0)) :
    (P m).go 0 d c i = tileIn m d (Fin.cast nCore_zero c) (Fin.cast nSub_zero i) (m (oLoc d)) := rfl
omit ρ in
theorem P_td (d : Dev nD) (c : Fin ((K (F := F)).nCore 0)) (i : Fin ((K (F := F)).nSub 0)) :
    (P m).td 0 d c i = tileIn m d (Fin.cast nCore_zero c) (Fin.cast nSub_zero i) (Gm m d) := rfl

omit ρ in
/-- What a SparseCore holds at the result contents `f` is what its sixteen tiles hold, together. -/
theorem coreIn_tiles (d : Dev nD) (c : Fin 2) (f : Buf (Elt F) (oLoc d)) :
    coreIn m d c f = bigSep Finset.univ fun i : Fin ((K (F := F)).nSub 0) => tileIn m d c (Fin.cast nSub_zero i) f := by
  rw [bigSep_tasks (F := F) (fun s => tileIn m d c s f)]
  unfold coreIn tileIn
  rw [bigSep_sep', ← args_tiles]

omit ρ in
/-- The call's operands for a SparseCore split into its tiles' and the tiles' results join into its own. -/
theorem vecSplit : (K (F := F)).VecSplit' (P m) 0 := by
  intro d c
  simp only [P_st, P_dn, P_go, P_td]
  rw [coreIn_tiles, coreIn_tiles]
  iintro H; imodintro
  isplitl [H]; · iexact H
  iintro H; iexact H

end Cert.Proof.KI

end
-- ==== Proof.KI.Cover.lean ====
/-
  The result array's chunks: the 2 × 16 × 8 chunks of 64 rows are pairwise disjoint and cover the array — chunk
  (c, s, k) is rows 64·g … 64·g + 63 for g = 16·s + 8·c + k, and (c, s, k) ↦ g is a bijection onto the numbers below
  256 — so the array whole is its chunks together.
-/
import proofs.«204629_g89326729822651_cont_sun_m_635_33_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

omit m ρ in
theorem chunkSet_eq (c : Fin 2) (s : Fin 16) (k : Fin 8) : chunkSet c s k = (chunkRect c s k).set := by
  show ((View.whole (main_v0_scv : Ref sig .scVector)).slice (chunkRect c s k)).set = _
  rw [View.set_slice]; exact Finset.map_refl

omit m ρ in
/-- An index is in chunk `(c, s, k)` when its row is one of the chunk's 64. -/
theorem mem_chunkSet {c : Fin 2} {s : Fin 16} {k : Fin 8} {i : S16384x128.Idx} :
    i ∈ chunkSet c s k ↔ 1024 * s.val + 512 * c.val + 64 * k.val ≤ (i 0).val ∧ (i 0).val < 1024 * s.val + 512 * c.val + 64 * k.val + 64 := by
  rw [chunkSet_eq, Rect.mem_set_unit]
  constructor
  · intro h; have h0 := h 0; simpa using h0
  · intro h a
    have h1 : (i 1).val < 128 := (i 1).isLt
    fin_cases a
    · simpa using h
    · simpa using h1

/-- The chunks' index: SparseCore, tile, chunk of the tile. -/
abbrev CIx : Type := Fin 2 × Fin 16 × Fin 8

omit m ρ in
theorem chunks_disjoint : ∀ p ∈ (Finset.univ : Finset CIx), ∀ p' ∈ (Finset.univ : Finset CIx), p ≠ p' →
    Disjoint (chunkSet p.1 p.2.1 p.2.2) (chunkSet p'.1 p'.2.1 p'.2.2) := by
  rintro ⟨c, s, k⟩ - ⟨c', s', k'⟩ - h
  refine Finset.disjoint_left.mpr fun i hi hi' => h ?_
  obtain ⟨h1, h2⟩ := (mem_chunkSet (c := c) (s := s) (k := k)).mp hi
  obtain ⟨h1', h2'⟩ := (mem_chunkSet (c := c') (s := s') (k := k')).mp hi'
  have := c.isLt; have := s.isLt; have := k.isLt; have := c'.isLt; have := s'.isLt; have := k'.isLt
  refine Prod.ext (Fin.ext ?_) (Prod.ext (Fin.ext ?_) (Fin.ext ?_)) <;> simp only <;> omega

omit m ρ in
theorem chunks_cover : (Finset.univ : Finset CIx).biUnion (fun p => chunkSet p.1 p.2.1 p.2.2) = Finset.univ := by
  ext i
  simp only [Finset.mem_biUnion, Finset.mem_univ, true_and, iff_true]
  have hi : (i 0).val < 16384 := (i 0).isLt
  refine ⟨(⟨(i 0).val / 64 % 16 / 8, by omega⟩, ⟨(i 0).val / 64 / 16, by omega⟩, ⟨(i 0).val / 64 % 8, by omega⟩), mem_chunkSet.mpr ⟨?_, ?_⟩⟩ <;>
    simp only <;> omega

omit m ρ in
/-- The result array whole is its chunks, together: per SparseCore, per tile, the tile's eight. -/
theorem oPts_chunks (d : Dev nD) (f : Buf (Elt F) (oLoc d)) :
    (oLoc d ↦{fullShare} f : sProp 𝕄) = bigSep Finset.univ fun c : Fin 2 => bigSep Finset.univ fun s : Fin 16 => chunksAt d c s f := by
  have h : (oLoc d ↦[(Finset.univ : Finset CIx).biUnion fun p => chunkSet p.1 p.2.1 p.2.2]{fullShare} f : sProp 𝕄)
      = bigSep (Finset.univ : Finset CIx) fun p => oLoc d ↦[chunkSet p.1 p.2.1 p.2.2]{fullShare} f :=
    pointsTo_biUnion (ℓ := oLoc d) Finset.univ (fun p : CIx => chunkSet p.1 p.2.1 p.2.2) chunks_disjoint
  rw [chunks_cover] at h
  refine h.trans ?_
  rw [bigSep_univ_prod]
  refine bigSep_congr fun c _ => ?_
  rw [bigSep_univ_prod]

end Cert.Proof.KI

end
-- ==== Proof.KI.Run.lean ====
/-
  The launch, second part: the launch element of the ghost state, @main on the TensorCore — the whole arrays dealt to
  the two SparseCores before the call (the arguments by halves of the full share, the result array by its chunks) and
  joined back after it, the result array then whole at the specification's function of the arguments —, how the final
  memory reads the claim, and the program's run.
-/
import proofs.«204629_g89326729822651_cont_sun_m_635_33_alg».proof.Proof.KI.Launch
import proofs.«204629_g89326729822651_cont_sun_m_635_33_alg».proof.Proof.KI.Cover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element of the ghost state -/

def u₀ : UU := (initOf (K (F := F)).hsCells (K (F := F)).hsToks, 1)

omit m ρ [FloatOps F] in
theorem bigSep_emp' {I : Type} (s : Finset I) : (bigSep s fun _ => iprop(emp)) = (iprop(emp) : sProp 𝕄) := bigSep_emp_const s

omit ρ in
/-- The launch element is the handshakes' rounds; the transfers' counters, at their unit, are dropped. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The whole arrays and the two SparseCores' holdings -/

omit m ρ [FloatOps F] in
/-- The full share of an array is the two SparseCores' shares, together. -/
theorem pts_cores {ℓ : Loc nD τ sig} (f : Buf (Elt F) ℓ) :
    (ℓ ↦{fullShare} f : sProp 𝕄) = bigSep Finset.univ fun c : Fin 2 => ℓ ↦{cq c} f :=
  pointsTo_leaves Finset.univ f 1 fullShare

omit ρ in
/-- What the two SparseCores hold, together, is the four arguments and the result array, whole. -/
theorem cores_whole (d : Dev nD) (f : Buf (Elt F) (oLoc d)) :
    (bigSep Finset.univ fun c : Fin 2 => coreIn m d c f) = iprop(argsAt m d fullShare ∗ oLoc d ↦{fullShare} f) := by
  unfold coreIn argsAt
  rw [bigSep_sep', bigSep_sep', bigSep_sep', bigSep_sep', ← oPts_chunks,
    ← pts_cores (m (eLoc d)), ← pts_cores (m (iLoc d)), ← pts_cores (m (rLoc d)), ← pts_cores (m (gLoc d))]

omit ρ in
theorem st0_eq (d : Dev nD) :
    (bigSep Finset.univ fun c : Fin ((K (F := F)).nCore 0) => (P m).st 0 d c) = iprop(argsAt m d fullShare ∗ oLoc d ↦{fullShare} m (oLoc d)) := by
  show (bigSep (Finset.univ : Finset (Fin 2)) fun c => coreIn m d c (m (oLoc d))) = _
  exact cores_whole m d _
omit ρ in
theorem dn0_eq (d : Dev nD) :
    (bigSep Finset.univ fun c : Fin ((K (F := F)).nCore 0) => (P m).dn 0 d c) = iprop(argsAt m d fullShare ∗ oLoc d ↦{fullShare} Gm m d) := by
  show (bigSep (Finset.univ : Finset (Fin 2)) fun c => coreIn m d c (Gm m d)) = _
  exact cores_whole m d _

/-! ## @main on the TensorCore -/

omit m ρ [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (iLoc d ↦{fullShare} W main_arg1) ∗ (rLoc d ↦{fullShare} W main_arg2)
      ∗ (gLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What @main ends with: the four arguments at their launch contents, the result at the specification's function. -/
abbrev FIN (d : Dev nD) : sProp 𝕄 := iprop(argsAt m d fullShare ∗ oLoc d ↦{fullShare} Gm m d)

/-- @main on device `d`'s TensorCore: the one call, from the five arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨He, Hi, Hr, Hg, Ho⟩, -, -⟩, -⟩
  iapply ((K (F := F)).wp_run (D (F := F)) 𝒱 (EH := EH) (P := P m) κ d 0) $$ [Hst He Hi Hr Hg Ho]
  isplitr; · iexact Hctx
  isplitl [Hst]; · iexact Hst
  isplitl [He Hi Hr Hg Ho]
  · rw [st0_eq]
    isplitr [Ho]
    · isplitl [He]; · iexact He
      isplitl [Hi]; · iexact Hi
      isplitl [Hr]; · iexact Hr
      iexact Hg
    · iexact Ho
  iintro ⟨Hst, Hdn⟩
  ihave Hdn' := (Entails.of_eq (dn0_eq m d)) $$ Hdn
  imodintro
  isplitl [Hst]; · iexact Hst
  iexact Hdn'

/-! ## The final memory -/

def fq (d : Dev nD) (s' : Phys nD τ sig (Elt F)) : Prop :=
  s'.mem.mem (oLoc d) = Gm m d ∧ s'.mem.mem (eLoc d) = m (eLoc d) ∧ s'.mem.mem (iLoc d) = m (iLoc d) ∧ s'.mem.mem (rLoc d) = m (rLoc d)
    ∧ s'.mem.mem (gLoc d) = m (gLoc d)

set_option maxRecDepth 16384 in
omit ρ in
theorem hfin (d : Dev nD) (s' : Phys nD τ sig (Elt F)) : iprop(FIN m d ∗ SI s') ⊢ (⌜fq m d s'⌝ : sProp 𝕄) := by
  iintro ⟨⟨⟨He, Hi, Hr, Hg⟩, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h3, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h4, HSI, -⟩
  ihave H := (SI_pointsTo_agree (st := s') (ℓ := oLoc d) (I := Finset.univ) (q := fullShare) (f := Gm m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the program from the launch memory `m` ends, with the result array at the
    specification's function of the four arguments and the arguments unchanged. -/
theorem run_main [∀ e, Nonempty (Elt F e)] (hpre : PreOK m) :
    θ_run (Cert.KernelIdeal.defs (F := F)) (Cert.KernelIdeal.threads (F := F)) ⟨m, fun _ => 0, ρ⟩
      (fun r => ∀ c : Dev nD, r.2.mem (oLoc c) = Gm m c ∧ r.2.mem (eLoc c) = m (eLoc c) ∧ r.2.mem (iLoc c) = m (iLoc c)
        ∧ r.2.mem (rLoc c) = m (rLoc c) ∧ r.2.mem (gLoc c) = m (gLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = Gm m c ∧ r.2.mem (eLoc c) = m (eLoc c) ∧ r.2.mem (iLoc c) = m (iLoc c)
        ∧ r.2.mem (rLoc c) = m (rLoc c) ∧ r.2.mem (gLoc c) = m (gLoc c)) (fun _ h => h)

end Cert.Proof.KI

end
-- ==== Proof.KI.Pre.lean ====
/-
  The certificate's precondition gives what the proof asks of the launch memory. The precondition is one bit: the
  conjunction of "every entry of the three float inputs is finite" and "0 ≤ w ≤ 999999, signed, for every row-number
  word w". Only the last conjunct is used: a word that is nonnegative read signed is its own value read as a natural
  number, and that value is at most 999999. Nothing here depends on the float instance.
-/
import proofs.«204629_g89326729822651_cont_sun_m_635_33_alg».proof.Pre_input_domain
import proofs.«204629_g89326729822651_cont_sun_m_635_33_alg».proof.Proof.Gen.Pre_input_domain
import proofs.«204629_g89326729822651_cont_sun_m_635_33_alg».proof.Proof.KI.Common
import Idealize.ShloMosaic.Lib.ReduceAll

noncomputable section

namespace Cert.Proof.KI

open Cert.KernelIdeal Cert.KernelIdeal.Gen

open Idealize.ShloMosaic

variable {F : FTy → Type} [FloatOps F]

/-- A word between 0 and 999999, read signed, is below a million read as a natural number. -/
theorem toNat_lt_of_signed_range (v : BitVec 32) (h0 : IntOp.cmpi .sge v 0#32 = 1#1) (h1 : IntOp.cmpi .sle v 999999#32 = 1#1) :
    v.toNat < 1000000 := by
  rw [IntOp.cmpi_sge] at h0
  rw [IntOp.cmpi_sle] at h1
  rw [show (0#32 : BitVec 32).toInt = 0 from by decide] at h0
  rw [show (999999#32 : BitVec 32).toInt = 999999 from by decide] at h1
  rw [BitVec.toInt_eq_toNat_cond] at h0 h1
  split at h0 <;> omega

/-- The precondition, all ones on every device, puts every row-number word below a million. -/
theorem ok_of_pre [Cert.Pre_input_domain.Facts] (m : (ℓ : Loc nD τ sig) → Buf (Elt F) ℓ)
    (h : ∀ c : Dev nD, Cert.Pre_input_domain.fn (F := F) (m (eLoc c)) (m (iLoc c)) (m (rLoc c)) (m (gLoc c)) = (fun _ => 1#1)) : PreOK m := by
  intro d j
  have e := congrFun (h d) (fun a => a.elim0)
  simp only [Cert.Pre_input_domain.fn, Cert.Pre_input_domain.fn_part1] at e
  have e2 := (IntOp.andi_eq_one.mp e).2
  have e3 := Host.reduce_andi_all _ _ _ _ _ e2 j
  obtain ⟨h0, h1⟩ := IntOp.andi_eq_one.mp e3
  exact toNat_lt_of_signed_range _ h0 h1

end Cert.Proof.KI

end
-- ==== Proof.KB.Common.lean ====
/-
  The setting shared by the kernel's frame and value proof: the program as the launch theorem sees it, the ghost
  state (the launch handshakes' rounds beside the transfers' counters), the arrays as locations of a device, how the
  call's operands are divided — every read-only array by SHARES (one half per SparseCore, a sixteenth of that per
  tile), the result array by CHUNKS of 64 rows (tile (c, s) owns rows 1024·s + 512·c + 64·k …, k < 8) — and what
  the handshakes carry: on the way in the result array at its launch contents, on the way back at the
  specification's function of the launch contents of the four arguments.
-/
import proofs.«204629_g89326729822651_cont_sun_m_635_33_alg».proof.Kernel
import proofs.«204629_g89326729822651_cont_sun_m_635_33_alg».proof.Proof.Gen.Kernel
import proofs.«204629_g89326729822651_cont_sun_m_635_33_alg».proof.Proof.Gen.Kernel.Skeleton
import proofs.«204629_g89326729822651_cont_sun_m_635_33_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The batch, the row numbers, the two tables (the arguments) and the result, as locations of device `d`. -/
abbrev eLoc (d : Dev nD) : Loc nD τ sig := (SparseCore.T d).loc main_arg0
abbrev iLoc (d : Dev nD) : Loc nD τ sig := (SparseCore.T d).loc main_arg1
abbrev rLoc (d : Dev nD) : Loc nD τ sig := (SparseCore.T d).loc main_arg2
abbrev gLoc (d : Dev nD) : Loc nD τ sig := (SparseCore.T d).loc main_arg3
abbrev oLoc (d : Dev nD) : Loc nD τ sig := (SparseCore.T d).loc main_v0

/-! ## Shares: a share halved `n` times has `2 ^ n` leaves -/

/-- Leaf `i` of the depth-`n` halving of the share `q`: the left half holds the first `2 ^ (n - 1)` leaves. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by have h2 : 2 ^ (n + 1) = 2 ^ n * 2 := Nat.pow_succ _ _; have := i.isLt; omega⟩

/-- The leaves of depth `n + 1` are those of the two halves, side by side. -/
def halves (n : ℕ) : Fin (2 ^ n) ⊕ Fin (2 ^ n) ≃ Fin (2 ^ (n + 1)) := finSumFinEquiv.trans (finCongr (by have h2 : 2 ^ (n + 1) = 2 ^ n * 2 := Nat.pow_succ _ _; omega))

omit m ρ in
theorem halves_inl (n : ℕ) (i : Fin (2 ^ n)) : (halves n (Sum.inl i)).val = i.val := by simp [halves]
omit m ρ in
theorem halves_inr (n : ℕ) (i : Fin (2 ^ n)) : (halves n (Sum.inr i)).val = 2 ^ n + i.val := by simp [halves]; omega

omit m ρ in
theorem leaf_inl (n : ℕ) (q : PosShare TreeShare) (i : Fin (2 ^ n)) : leaf (n + 1) q (halves n (Sum.inl i)) = leaf n q.left i := by
  have h : (halves n (Sum.inl i)).val < 2 ^ n := by rw [halves_inl]; exact i.isLt
  have e : (⟨(halves n (Sum.inl i)).val, h⟩ : Fin (2 ^ n)) = i := Fin.ext (halves_inl n i)
  rw [leaf, dif_pos h, e]
omit m ρ in
theorem leaf_inr (n : ℕ) (q : PosShare TreeShare) (i : Fin (2 ^ n)) : leaf (n + 1) q (halves n (Sum.inr i)) = leaf n q.right i := by
  have h : ¬ (halves n (Sum.inr i)).val < 2 ^ n := by rw [halves_inr]; omega
  have e : (⟨(halves n (Sum.inr i)).val - 2 ^ n, by have := (halves n (Sum.inr i)).isLt; have h2 : 2 ^ (n + 1) = 2 ^ n * 2 := Nat.pow_succ _ _; omega⟩ : Fin (2 ^ n)) = i :=
    Fin.ext (by simp only [halves_inr]; omega)
  rw [leaf, dif_neg h, e]

omit m ρ in
/-- A points-to at a share is the points-to at each of its leaves, together. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and tile `(c, s)`'s. -/
abbrev cq (c : Fin 2) : PosShare TreeShare := leaf 1 fullShare c
abbrev tq (c : Fin 2) (s : Fin 16) : PosShare TreeShare := leaf 4 (cq c) s

/-! ## The result array's chunks: 64 rows each, eight to a tile -/

omit m ρ in
theorem chunk_inb (c : Fin 2) (s : Fin 16) (k : Fin 8) :
    ∀ a, (![1024 * s.val + 512 * c.val + 64 * k.val, 0] : Fin 2 → Nat) a + S64x128.size a ≤ S16384x128.size a := by
  have := c.isLt; have := s.isLt; have := k.isLt
  intro a; fin_cases a <;> simp <;> omega

abbrev chunkRect (c : Fin 2) (s : Fin 16) (k : Fin 8) : Rect S16384x128 :=
  Rect.unit (s := S16384x128) ![1024 * s.val + 512 * c.val + 64 * k.val, 0] S64x128.size (chunk_inb c s k)
abbrev chunkSet (c : Fin 2) (s : Fin 16) (k : Fin 8) : Finset S16384x128.Idx :=
  ((Memref.whole main_v0_scv : Memref sig .scVector .hbm S16384x128 .f32).view.slice (chunkRect c s k)).set

variable [FloatOps F]

/-! ## The result, and what the handshakes carry -/

/-- The specification's function of the four arguments' launch contents. -/
def Gm (d : Dev nD) : Buf (Elt F) (oLoc d) := Cert.Spec.G (F := F) (m (eLoc d)) (m (iLoc d)) (m (rLoc d)) (m (gLoc d))

/-- The four arguments at share `q`, at their launch contents. -/
abbrev argsAt (d : Dev nD) (q : PosShare TreeShare) : sProp 𝕄 :=
  iprop((eLoc d ↦{q} m (eLoc d)) ∗ (iLoc d ↦{q} m (iLoc d)) ∗ (rLoc d ↦{q} m (rLoc d)) ∗ (gLoc d ↦{q} m (gLoc d)))

/-- Tile `(c, s)`'s eight chunks of the result array, holding `f`. -/
abbrev chunksAt (d : Dev nD) (c : Fin 2) (s : Fin 16) (f : Buf (Elt F) (oLoc d)) : sProp 𝕄 :=
  bigSep Finset.univ fun k : Fin 8 => oLoc d ↦[chunkSet c s k]{fullShare} f

/-- What a tile is handed and hands back: its share of the arguments, its chunks of the result at `f`. -/
abbrev tileIn (d : Dev nD) (c : Fin 2) (s : Fin 16) (f : Buf (Elt F) (oLoc d)) : sProp 𝕄 :=
  iprop(argsAt m d (tq c s) ∗ chunksAt d c s f)
/-- What a SparseCore is handed and hands back. -/
abbrev coreIn (d : Dev nD) (c : Fin 2) (f : Buf (Elt F) (oLoc d)) : sProp 𝕄 :=
  iprop(argsAt m d (cq c) ∗ bigSep Finset.univ fun s : Fin 16 => chunksAt d c s f)

/-- The one call's payloads: in, the result array at its launch contents; back, at the specification's function. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (Gm m d)
  go := fun q d c i => match q with | 0 => tileIn m d (Fin.cast nCore_zero c) (Fin.cast nSub_zero i) (m (oLoc d))
  td := fun q d c i => match q with | 0 => tileIn m d (Fin.cast nCore_zero c) (Fin.cast nSub_zero i) (Gm m d)
  x := fun _ _ => iprop(emp)

instance P_storable : (P (F := F) m).IsStorable where
  st q d c := match q with
    | 0 => (inferInstance : BI.Storable (upEmb : UEmb _ 𝕄) (coreIn m d (Fin.cast nCore_zero c) (m (oLoc d))))
  dn q d c := match q with
    | 0 => (inferInstance : BI.Storable (upEmb : UEmb _ 𝕄) (coreIn m d (Fin.cast nCore_zero c) (Gm m d)))
  go q d c i := match q with
    | 0 => (inferInstance : BI.Storable (upEmb : UEmb _ 𝕄) (tileIn m d (Fin.cast nCore_zero c) (Fin.cast nSub_zero i) (m (oLoc d))))
  td q d c i := match q with
    | 0 => (inferInstance : BI.Storable (upEmb : UEmb _ 𝕄) (tileIn m d (Fin.cast nCore_zero c) (Fin.cast nSub_zero i) (Gm m d)))

/-- What the proof asks of the launch memory: every row number names a row of the tables. -/
def PreOK : Prop := ∀ (d : Dev nD) (j : S16384.Idx), (m (iLoc d) j).toNat < 1000000

/-! ## A tile's coordinates -/

abbrev cV (L : grid0.Coords) : Fin τ.nSC := (L 0).castLE hcore0
abbrev jV (L : grid0.Coords) : Fin τ.nSub := (L 1).castLE hsub0
omit m ρ [FloatOps F] in
theorem bound_zero : grid0.bound 0 = 2 := rfl
omit m ρ [FloatOps F] in
theorem bound_one : grid0.bound 1 = 16 := rfl
abbrev cL (L : grid0.Coords) : Fin 2 := Fin.cast bound_zero (L 0)
abbrev sL (L : grid0.Coords) : Fin 16 := Fin.cast bound_one (L 1)

end Cert.Proof.KB

end
-- ==== Proof.KB.Own.lean ====
/-
  A tile's own semaphores and scratch buffers, named one by one: the nine DMA semaphores (all at zero) and the nine
  scratch buffers (each at some contents) are split off the collections the launch hands the tile.
-/
import proofs.«204629_g89326729822651_cont_sun_m_635_33_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The cell of DMA semaphore `sm` on the tile at `L`. -/
abbrev cellOf (sm : DmaSem sig) : GSem nD τ sig := (V d (cV L) (jV L), SemLoc.dma sm)

theorem cellOf_ne {a b : DmaSem sig} (h : a ≠ b) : cellOf d L a ≠ cellOf d L b :=
  fun e => h (SemLoc.dma.inj (Prod.mk.inj e).2)

theorem cellOf_mem (sm : DmaSem sig) (h : (SemLoc.dma sm : SemLoc sig).isScoped .scVector = true) :
    cellOf d L sm ∈ ownCells (V d (cV L) (jV L)) := (mem_ownCells (g := cellOf d L sm)).mpr ⟨rfl, h⟩

/-- The scratch buffer `b` of the tile at `L`, as a buffer of the device. -/
abbrev refOf (b : Ref sig .scVector) : DevRef τ sig := (Proc.scVector (cV L) (jV L)).devRef b

theorem refOf_ne {a b : Ref sig .scVector} (h : a ≠ b) : refOf L a ≠ refOf L b :=
  fun e => h (Proc.devRef_injective _ e)

theorem refOf_mem (b : Ref sig .scVector) (h : (refOf L b).owner = Owner.proc (Proc.scVector (cV L) (jV L))) : refOf L b ∈ ownRefs (τ := τ) (sig := sig) (.scVector (cV L) (jV L)) :=
  SparseCore.Cfg.mem_ownRefs_of_owner (p := Proc.scVector (cV L) (jV L)) (b := refOf L b) h

/-- What is left of the tile's own cells once the nine DMA semaphores are named. -/
abbrev restCells : Finset (GSem nD τ sig) :=
  ((((((((((ownCells (V d (cV L) (jV L))).erase (cellOf d L cc0_scratch9.sem)).erase (cellOf d L cc0_scratch10.sem)).erase (cellOf d L cc0_scratch11.sem)).erase (cellOf d L cc0_scratch12.sem)).erase (cellOf d L cc0_scratch13.sem)).erase (cellOf d L cc0_scratch14.sem)).erase (cellOf d L cc0_scratch15.sem)).erase (cellOf d L cc0_scratch16.sem)).erase (cellOf d L cc0_scoped0.sem))

theorem ownSems0_V :
    (ownSems0 (V d (cV L) (jV L)) : sProp 𝕄)
      = iprop(semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
          ∗ bigSep (restCells d L) fun g => semVal g 0) := by
  unfold SparseCore.Cfg.ownSems0 restCells
  rw [SparseCore.bigSep_erase' (cellOf_mem d L cc0_scratch9.sem (by decide)),
    SparseCore.bigSep_erase' (Finset.mem_erase.mpr ⟨cellOf_ne d L (by decide), cellOf_mem d L cc0_scratch10.sem (by decide)⟩),
    SparseCore.bigSep_erase' (Finset.mem_erase.mpr ⟨cellOf_ne d L (by decide), Finset.mem_erase.mpr ⟨cellOf_ne d L (by decide), cellOf_mem d L cc0_scratch11.sem (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_mem d L cc0_scratch12.sem (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch13.sem (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch14.sem (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch15.sem (by decide)⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scratch16.sem (by decide)⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc0_scoped0.sem (by decide)⟩⟩⟩⟩⟩⟩⟩⟩)]

/-- What is left of the tile's own buffers once the nine scratch buffers are named. -/
abbrev restRefs : Finset (DevRef τ sig) :=
  ((((((((((ownRefs (τ := τ) (sig := sig) (.scVector (cV L) (jV L))).erase (refOf L cc0_scratch0)).erase (refOf L cc0_scratch1)).erase (refOf L cc0_scratch2)).erase (refOf L cc0_scratch3)).erase (refOf L cc0_scratch4)).erase (refOf L cc0_scratch5)).erase (refOf L cc0_scratch6)).erase (refOf L cc0_scratch7)).erase (refOf L cc0_scratch8))

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep (restRefs L) fun b => iprop(∃ f, ((d, b) : Loc nD τ sig) ↦{fullShare} f)) := by
  unfold SparseCore.Cfg.ownBufs restRefs
  rw [SparseCore.bigSep_erase' (refOf_mem L cc0_scratch0 rfl),
    SparseCore.bigSep_erase' (Finset.mem_erase.mpr ⟨refOf_ne L (by decide), refOf_mem L cc0_scratch1 rfl⟩),
    SparseCore.bigSep_erase' (Finset.mem_erase.mpr ⟨refOf_ne L (by decide), Finset.mem_erase.mpr ⟨refOf_ne L (by decide), refOf_mem L cc0_scratch2 rfl⟩⟩),
    SparseCore.bigSep_erase' (Finset.mem_erase.mpr ⟨refOf_ne L (by decide), Finset.mem_erase.mpr ⟨refOf_ne L (by decide), Finset.mem_erase.mpr ⟨refOf_ne L (by decide), refOf_mem L cc0_scratch3 rfl⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch4 rfl⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch5 rfl⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch6 rfl⟩⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch7 rfl⟩⟩⟩⟩⟩⟩⟩),
    SparseCore.bigSep_erase' (Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), Finset.mem_erase.mpr ⟨refOf_ne L (by decide), refOf_mem L cc0_scratch8 rfl⟩⟩⟩⟩⟩⟩⟩⟩)]

end Cert.Proof.KB

end
-- ==== Proof.KB.Rows.lean ====
import proofs.«204629_g89326729822651_cont_sun_m_635_33_alg».proof.Proof.KB.Own

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)

/-! ## The tile, its rows of the batch, the table rows they name -/

/-- The tile's thread. -/
abbrev thr : Thread nD τ := V d (cV L) (jV L)

/-- The tile's first batch row. -/
def R0 : ℕ := 1024 * (L 1).val + 512 * (L 0).val

omit m d in
theorem R0_le : R0 L + 512 ≤ 16384 := by
  have h1 : (L 1).val < 16 := (L 1).isLt
  have h0 : (L 0).val < 2 := (L 0).isLt
  unfold R0; omega

/-- Batch row `R0 + j`, for `j < 512`. -/
def rowN (j : Fin 512) : Fin 16384 := ⟨R0 L + j.val, by have := R0_le L; have := j.isLt; omega⟩

/-- The row-number word of the tile's `j`-th batch row. -/
def idxW (j : Fin 512) : BitVec 32 := m (iLoc d) (ValueIdx.ix1 (rowN L j))

/-- The table row that word names (under the precondition, its value). -/
def tRowOf (j : Fin 512) : Fin 1000000 := Cert.Spec.rowOf (idxW m d L j)

/-- Position `i` of chunk `c` among the tile's 512 rows. -/
def posOf (c : Fin 8) (i : Fin 64) : Fin 512 := ⟨64 * c.val + i.val, by have := c.isLt; have := i.isLt; omega⟩

/-- The index scratch holds the tile's 512 row numbers in its first 512 words. -/
def IdxHolds (fI : Buf (Elt F) ((thr d L).loc cc0_scratch0)) : Prop :=
  ∀ j : Fin 512, fI (ValueIdx.ix1 (⟨j.val, by have := j.isLt; omega⟩ : Fin 528)) = idxW m d L j

/-! ## Rows of a 64 × 64 scratch, rows of a table -/

omit m d L in
theorem row_inb (t : Fin 64) : ∀ a, (![t.val, 0] : Fin 2 → Nat) a + S1x64.size a ≤ S64x64.size a := by
  have := t.isLt; intro a; fin_cases a <;> simp <;> omega
/-- Row `t` of a 64 × 64 scratch. -/
abbrev rowRect (t : Fin 64) : Rect S64x64 := Rect.unit (s := S64x64) ![t.val, 0] S1x64.size (row_inb t)

omit m d L in
theorem trow_inb (r : Fin 1000000) : ∀ a, (![r.val, 0] : Fin 2 → Nat) a + S1x64.size a ≤ S1000000x64.size a := by
  have := r.isLt; intro a; fin_cases a <;> simp <;> omega
/-- Row `r` of a table. -/
abbrev trowRect (r : Fin 1000000) : Rect S1000000x64 := Rect.unit (s := S1000000x64) ![r.val, 0] S1x64.size (trow_inb r)

/-- Row `t` of the scratch `b3`, as a set of its indices (the four 64 × 64 scratches have the same index type). -/
abbrev rowSet (t : Fin 64) : Finset S64x64.Idx := ((b3).view.slice (rowRect t)).set
/-- Row `r` of a table, as a set of its indices. -/
abbrev trowSet (r : Fin 1000000) : Finset S1000000x64.Idx := ((rW).view.slice (trowRect r)).set

/-- One row's transfer credit. -/
abbrev NR : ℕ := ((b3).slice (rowRect 0) (fun _ => rfl)).view.amount (SemLoc.dma (sig := sig) cc0_scratch11.sem)

/-! ## What a chunk's gathers leave: row `i` of the scratch is the named row of the table -/

variable [FloatOps F]

/-- The gathered rows of a table `tb` for chunk `c`: entry (i, k) is the table at (the row batch row 64c + i names, k). -/
def gathered (tb : S1000000x64.Idx → F .f32) (c : Fin 8) : S64x64.Idx → F .f32 := fun y =>
  tb (ValueIdx.ix2 (tRowOf m d L (posOf c ⟨(y 0).val, ValueIdx.idx2_lt0 y⟩)) (⟨(y 1).val, ValueIdx.idx2_lt1 y⟩ : Fin 64))

/-- The batch rows of chunk `c`: entry (i, j) is the batch at (row 64c + i of the tile, j). -/
def embChunk (c : Fin 8) : S64x128.Idx → F .f32 := fun y =>
  (m (eLoc d) : S16384x128.Idx → F .f32) (ValueIdx.ix2 (rowN L (posOf c ⟨(y 0).val, ValueIdx.idx2_lt0 y⟩)) (⟨(y 1).val, ValueIdx.idx2_lt1 y⟩ : Fin 128))

/-- The result rows of chunk `c`: entry (i, j) is the specification at (row 64c + i of the tile, j). -/
def outChunk (c : Fin 8) : S64x128.Idx → F .f32 := fun y =>
  (Gm m d : S16384x128.Idx → F .f32) (ValueIdx.ix2 (rowN L (posOf c ⟨(y 0).val, ValueIdx.idx2_lt0 y⟩)) (⟨(y 1).val, ValueIdx.idx2_lt1 y⟩ : Fin 128))

/-! ## The two buffer sets (chunks alternate between them) and a batch's deliveries

Parity 0 gathers into scratches 3 (real parts) and 5 (imaginary parts) on semaphores 11 and 13; parity 1 into scratches 4
and 6 on semaphores 12 and 14. A chunk's 64 row copies from one table are one batch on one semaphore; copy `t` delivers
row `t` of the scratch at the gathered contents and gives back the share of the table row it read. Copy `t` of a batch
working with the share `q` of a table uses that share's leaf `t` (of 64): two batch rows may name one table row. -/

abbrev lq (q : PosShare TreeShare) (t : Fin 64) : PosShare TreeShare := leaf 6 q t

/-- Parity 0, real parts. -/
def DR0 (c : Fin 8) (q : PosShare TreeShare) (t : Fin 64) : sProp 𝕄 :=
  iprop(((thr d L).loc cc0_scratch3 ↦[rowSet t]{fullShare} gathered m d L (m (rLoc d)) c)
    ∗ (rLoc d ↦[trowSet (tRowOf m d L (posOf c t))]{lq q t} m (rLoc d)))
/-- Parity 0, imaginary parts. -/
def DI0 (c : Fin 8) (q : PosShare TreeShare) (t : Fin 64) : sProp 𝕄 :=
  iprop(((thr d L).loc cc0_scratch5 ↦[rowSet t]{fullShare} gathered m d L (m (gLoc d)) c)
    ∗ (gLoc d ↦[trowSet (tRowOf m d L (posOf c t))]{lq q t} m (gLoc d)))
/-- Parity 1, real parts. -/
def DR1 (c : Fin 8) (q : PosShare TreeShare) (t : Fin 64) : sProp 𝕄 :=
  iprop(((thr d L).loc cc0_scratch4 ↦[rowSet t]{fullShare} gathered m d L (m (rLoc d)) c)
    ∗ (rLoc d ↦[trowSet (tRowOf m d L (posOf c t))]{lq q t} m (rLoc d)))
/-- Parity 1, imaginary parts. -/
def DI1 (c : Fin 8) (q : PosShare TreeShare) (t : Fin 64) : sProp 𝕄 :=
  iprop(((thr d L).loc cc0_scratch6 ↦[rowSet t]{fullShare} gathered m d L (m (gLoc d)) c)
    ∗ (gLoc d ↦[trowSet (tRowOf m d L (posOf c t))]{lq q t} m (gLoc d)))

instance DR0_storable (c : Fin 8) (q : PosShare TreeShare) (t : Fin 64) : BI.Storable (upEmb : UEmb _ 𝕄) (DR0 m d L c q t) := by unfold DR0; infer_instance
instance DI0_storable (c : Fin 8) (q : PosShare TreeShare) (t : Fin 64) : BI.Storable (upEmb : UEmb _ 𝕄) (DI0 m d L c q t) := by unfold DI0; infer_instance
instance DR1_storable (c : Fin 8) (q : PosShare TreeShare) (t : Fin 64) : BI.Storable (upEmb : UEmb _ 𝕄) (DR1 m d L c q t) := by unfold DR1; infer_instance
instance DI1_storable (c : Fin 8) (q : PosShare TreeShare) (t : Fin 64) : BI.Storable (upEmb : UEmb _ 𝕄) (DI1 m d L c q t) := by unfold DI1; infer_instance

/-- What copy `t` leaves outside the table row it reads, of its leaf of the two tables' shares: kept until the batch is drained. -/
def remOf (c : Fin 8) (q : PosShare TreeShare) (t : Fin 64) : sProp 𝕄 :=
  iprop((rLoc d ↦[Finset.univ \ trowSet (tRowOf m d L (posOf c t))]{lq q t} m (rLoc d))
    ∗ (gLoc d ↦[Finset.univ \ trowSet (tRowOf m d L (posOf c t))]{lq q t} m (gLoc d)))

/-- The two batches of a chunk at parity 0, with `k` copies issued and `u` units consumed. -/
abbrev batches0 (c : Fin 8) (q : PosShare TreeShare) (k u : ℕ) : sProp 𝕄 :=
  iprop(Transfers.Batch countersEmb (thr d L) (.dma cc0_scratch11.sem) (default : HIx 1) NR (DR0 m d L c q) k u
    ∗ Transfers.Batch countersEmb (thr d L) (.dma cc0_scratch13.sem) (default : HIx 1) NR (DI0 m d L c q) k u)
/-- The two batches of a chunk at parity 1. -/
abbrev batches1 (c : Fin 8) (q : PosShare TreeShare) (k u : ℕ) : sProp 𝕄 :=
  iprop(Transfers.Batch countersEmb (thr d L) (.dma cc0_scratch12.sem) (default : HIx 1) NR (DR1 m d L c q) k u
    ∗ Transfers.Batch countersEmb (thr d L) (.dma cc0_scratch14.sem) (default : HIx 1) NR (DI1 m d L c q) k u)

end Cert.Proof.KB

end
-- ==== Proof.KB.Invs.lean ====
import proofs.«204629_g89326729822651_cont_sun_m_635_33_alg».proof.Proof.KB.Rows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

/-! ## Parity 0 -/

/-- Issuing a chunk's gathers, before copy `k`: the index scratch, the two batches with `k` issued, for each copy still
    to issue its leaf of the tables' shares and its row of the two scratches, for each copy issued what it left of its leaf. -/
def fireInv0 (c : Fin 8) (q : PosShare TreeShare) (fI : Buf (Elt F) ((thr d L).loc cc0_scratch0))
    (fr : Buf (Elt F) ((thr d L).loc cc0_scratch3)) (fi : Buf (Elt F) ((thr d L).loc cc0_scratch5)) (k : ℕ) (_ : PUnit) : sProp 𝕄 :=
  iprop(((b0).view.loc (thr d L) ↦{fullShare} fI)
    ∗ batches0 m d L c q k 0
    ∗ (bigSep (Transfers.pending (n := 64) k) fun t => iprop((rLoc d ↦{lq q t} m (rLoc d)) ∗ (gLoc d ↦{lq q t} m (gLoc d))
        ∗ ((thr d L).loc cc0_scratch3 ↦[rowSet t]{fullShare} fr) ∗ ((thr d L).loc cc0_scratch5 ↦[rowSet t]{fullShare} fi)))
    ∗ bigSep (Transfers.issued (m := 64) k) (remOf m d L c q))

/-- Draining a chunk's gathers, after `k` waits on each of the two semaphores: while `k < 64` the two batches with
    `k` rows' units consumed; at 64 every delivery and the two counters at zero. The waits are recorded beside what the
    tile owes the launch. -/
def drainInv0 (c : Fin 8) (q : PosShare TreeShare) (O : CellTallies nD τ sig (HIx 1)) (W : Waits sig (HIx 1)) (k : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ (if k < 64 then batches0 m d L c q 64 (k * NR)
       else iprop(bigSep Finset.univ (DR0 m d L c q) ∗ bigSep Finset.univ (DI0 m d L c q)
          ∗ semVal (thr d L, SemLoc.dma cc0_scratch11.sem) 0 ∗ semVal (thr d L, SemLoc.dma cc0_scratch13.sem) 0)))

/-- Computing a chunk, before row `k`: the chunk of the batch, the gathered rows of the two tables, and the result
    scratch whose rows below `k` already hold the specification's. -/
def computeInv0 (c : Fin 8) (k : ℕ) (_ : PUnit) : sProp 𝕄 :=
  iprop(((b1).view.loc (thr d L) ↦{fullShare} embChunk m d L c)
    ∗ ((b3).view.loc (thr d L) ↦{fullShare} gathered m d L (m (rLoc d)) c)
    ∗ ((b5).view.loc (thr d L) ↦{fullShare} gathered m d L (m (gLoc d)) c)
    ∗ ∃ fo : S64x128.Idx → F .f32, ((b7).view.loc (thr d L) ↦{fullShare} fo)
        ∗ ⌜∀ y : S64x128.Idx, (y 0).val < k → fo y = outChunk m d L c y⌝)

/-! ## Parity 1 -/

/-- Issuing a chunk's gathers, before copy `k`: the index scratch, the two batches with `k` issued, for each copy still
    to issue its leaf of the tables' shares and its row of the two scratches, for each copy issued what it left of its leaf. -/
def fireInv1 (c : Fin 8) (q : PosShare TreeShare) (fI : Buf (Elt F) ((thr d L).loc cc0_scratch0))
    (fr : Buf (Elt F) ((thr d L).loc cc0_scratch4)) (fi : Buf (Elt F) ((thr d L).loc cc0_scratch6)) (k : ℕ) (_ : PUnit) : sProp 𝕄 :=
  iprop(((b0).view.loc (thr d L) ↦{fullShare} fI)
    ∗ batches1 m d L c q k 0
    ∗ (bigSep (Transfers.pending (n := 64) k) fun t => iprop((rLoc d ↦{lq q t} m (rLoc d)) ∗ (gLoc d ↦{lq q t} m (gLoc d))
        ∗ ((thr d L).loc cc0_scratch4 ↦[rowSet t]{fullShare} fr) ∗ ((thr d L).loc cc0_scratch6 ↦[rowSet t]{fullShare} fi)))
    ∗ bigSep (Transfers.issued (m := 64) k) (remOf m d L c q))

/-- Draining a chunk's gathers, after `k` waits on each of the two semaphores: while `k < 64` the two batches with
    `k` rows' units consumed; at 64 every delivery and the two counters at zero. The waits are recorded beside what the
    tile owes the launch. -/
def drainInv1 (c : Fin 8) (q : PosShare TreeShare) (O : CellTallies nD τ sig (HIx 1)) (W : Waits sig (HIx 1)) (k : ℕ) (_ : PUnit) : sProp 𝕄 :=
  iprop(Transfers.MayWaits (thr d L) (default : HIx 1) O
    ∗ (∃ W', ⌜∀ p ∈ W', p ∈ W ∨ p.2 = none⌝ ∗ owes (thr d L) O W')
    ∗ (if k < 64 then batches1 m d L c q 64 (k * NR)
       else iprop(bigSep Finset.univ (DR1 m d L c q) ∗ bigSep Finset.univ (DI1 m d L c q)
          ∗ semVal (thr d L, SemLoc.dma cc0_scratch12.sem) 0 ∗ semVal (thr d L, SemLoc.dma cc0_scratch14.sem) 0)))

/-- Computing a chunk, before row `k`: the chunk of the batch, the gathered rows of the two tables, and the result
    scratch whose rows below `k` already hold the specification's. -/
def computeInv1 (c : Fin 8) (k : ℕ) (_ : PUnit) : sProp 𝕄 :=
  iprop(((b2).view.loc (thr d L) ↦{fullShare} embChunk m d L c)
    ∗ ((b4).view.loc (thr d L) ↦{fullShare} gathered m d L (m (rLoc d)) c)
    ∗ ((b6).view.loc (thr d L) ↦{fullShare} gathered m d L (m (gLoc d)) c)
    ∗ ∃ fo : S64x128.Idx → F .f32, ((b8).view.loc (thr d L) ↦{fullShare} fo)
        ∗ ⌜∀ y : S64x128.Idx, (y 0).val < k → fo y = outChunk m d L c y⌝)

end Cert.Proof.KB

end
-- ==== Proof.KB.Join.lean ====
/-
  Joining what a drained chunk's row copies hand back.

  A 64 × 64 scratch whole is its 64 rows, together; a points-to at a share is the points-to at the share's 64 leaves,
  together. Copy `t` of a chunk delivers row `t` of a scratch and gives back, at leaf `t` of the table's share, the
  table row it read; what that leaf holds outside that row was kept aside. All 64 copies of the two tables' batches
  together with what was kept aside are therefore the two scratches whole at the gathered rows and the two tables at
  the share the chunk started from.
-/
import proofs.«204629_g89326729822651_cont_sun_m_635_33_alg».proof.Proof.KB.Invs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)

/-! ## A scratch's rows -/

omit m d L in
theorem rowSet_eq (t : Fin 64) : rowSet t = (rowRect t).set := by
  show ((View.whole (cc0_scratch3 : Ref sig .scVector)).slice (rowRect t)).set = _
  rw [View.set_slice]; exact Finset.map_refl

omit m d L in
/-- An index is in row `t` when its first coordinate is `t`. -/
theorem mem_rowSet {t : Fin 64} {i : S64x64.Idx} : i ∈ rowSet t ↔ (i 0).val = t.val := by
  rw [rowSet_eq, Rect.mem_set_unit]
  constructor
  · intro h
    have h0 : t.val ≤ (i 0).val ∧ (i 0).val < t.val + 1 := h 0
    omega
  · intro h a
    have h1 : (i 1).val < 64 := (i 1).isLt
    match a with
    | ⟨0, _⟩ => show t.val ≤ (i 0).val ∧ (i 0).val < t.val + 1; omega
    | ⟨1, _⟩ => show 0 ≤ (i 1).val ∧ (i 1).val < 0 + 64; omega

omit m d L in
theorem rows_disjoint : ∀ t ∈ (Finset.univ : Finset (Fin 64)), ∀ t' ∈ (Finset.univ : Finset (Fin 64)), t ≠ t' →
    Disjoint (rowSet t) (rowSet t') := by
  intro t _ t' _ h
  exact Finset.disjoint_left.mpr fun i hi hi' => h (Fin.ext ((mem_rowSet.mp hi).symm.trans (mem_rowSet.mp hi')))

omit m d L in
theorem rows_cover : (Finset.univ : Finset (Fin 64)).biUnion rowSet = Finset.univ := by
  ext i
  simp only [Finset.mem_biUnion, Finset.mem_univ, true_and, iff_true]
  exact ⟨⟨(i 0).val, (i 0).isLt⟩, mem_rowSet.mpr rfl⟩

omit m in
/-- A buffer whole is a pairwise disjoint, covering family of its parts, together. -/
theorem parts_split {T : Type} [Fintype T] (ℓ : Loc nD τ sig) (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f : Buf (Elt F) ℓ) :
    (ℓ ↦{q} f : sProp 𝕄) = bigSep Finset.univ fun t : T => ℓ ↦[K t]{q} f := by
  have h : (ℓ ↦[(Finset.univ : Finset T).biUnion K]{q} f : sProp 𝕄) = bigSep (Finset.univ : Finset T) fun t => ℓ ↦[K t]{q} f :=
    pointsTo_biUnion (ℓ := ℓ) Finset.univ K hd
  rw [hc] at h
  exact h

omit m in
/-- THE ROWS OF A SCRATCH: each of the four 64 × 64 scratches whole is its 64 rows, together. -/
theorem rows_split3 (f : Buf (Elt F) ((thr d L).loc cc0_scratch3)) :
    ((thr d L).loc cc0_scratch3 ↦{fullShare} f : sProp 𝕄) = bigSep Finset.univ fun t : Fin 64 => (thr d L).loc cc0_scratch3 ↦[rowSet t]{fullShare} f :=
  parts_split ((thr d L).loc cc0_scratch3) rowSet rows_disjoint rows_cover fullShare f
omit m in
@[inherit_doc rows_split3]
theorem rows_split4 (f : Buf (Elt F) ((thr d L).loc cc0_scratch4)) :
    ((thr d L).loc cc0_scratch4 ↦{fullShare} f : sProp 𝕄) = bigSep Finset.univ fun t : Fin 64 => (thr d L).loc cc0_scratch4 ↦[rowSet t]{fullShare} f :=
  parts_split ((thr d L).loc cc0_scratch4) rowSet rows_disjoint rows_cover fullShare f
omit m in
@[inherit_doc rows_split3]
theorem rows_split5 (f : Buf (Elt F) ((thr d L).loc cc0_scratch5)) :
    ((thr d L).loc cc0_scratch5 ↦{fullShare} f : sProp 𝕄) = bigSep Finset.univ fun t : Fin 64 => (thr d L).loc cc0_scratch5 ↦[rowSet t]{fullShare} f :=
  parts_split ((thr d L).loc cc0_scratch5) rowSet rows_disjoint rows_cover fullShare f
omit m in
@[inherit_doc rows_split3]
theorem rows_split6 (f : Buf (Elt F) ((thr d L).loc cc0_scratch6)) :
    ((thr d L).loc cc0_scratch6 ↦{fullShare} f : sProp 𝕄) = bigSep Finset.univ fun t : Fin 64 => (thr d L).loc cc0_scratch6 ↦[rowSet t]{fullShare} f :=
  parts_split ((thr d L).loc cc0_scratch6) rowSet rows_disjoint rows_cover fullShare f

/-! ## A share's 64 leaves -/

omit m d L in
/-- THE LEAVES OF A SHARE: a points-to at a share is the points-to at each of its 64 leaves, together. -/
theorem leaves64 (ℓ : Loc nD τ sig) (I : Finset (Idx ℓ)) (f : Buf (Elt F) ℓ) (q : PosShare TreeShare) :
    (ℓ ↦[I]{q} f : sProp 𝕄) = bigSep Finset.univ fun t : Fin 64 => ℓ ↦[I]{lq q t} f :=
  pointsTo_leaves I f 6 q

omit m d L in
/-- Copy `t`'s part `K t` of a buffer at leaf `t`, for every `t`, together with what each leaf holds outside its part:
    the buffer at the share. -/
theorem leaves_join (ℓ : Loc nD τ sig) (f : Buf (Elt F) ℓ) (q : PosShare TreeShare) (K : Fin 64 → Finset (Idx ℓ)) :
    (iprop(bigSep Finset.univ (fun t : Fin 64 => ℓ ↦[K t]{lq q t} f) ∗ bigSep Finset.univ (fun t : Fin 64 => ℓ ↦[Finset.univ \ K t]{lq q t} f)) : sProp 𝕄)
      = (ℓ ↦{q} f : sProp 𝕄) := by
  refine (bigSep_sep Finset.univ (fun t : Fin 64 => (ℓ ↦[K t]{lq q t} f : sProp 𝕄)) (fun t : Fin 64 => (ℓ ↦[Finset.univ \ K t]{lq q t} f : sProp 𝕄))).symm.trans ?_
  rw [leaves64 ℓ Finset.univ f q]
  refine bigSep_congr fun t _ => ?_
  have h : (ℓ ↦[Finset.univ]{lq q t} f : sProp 𝕄) ⊣⊢ iprop((ℓ ↦[K t]{lq q t} f) ∗ ℓ ↦[Finset.univ \ K t]{lq q t} f) :=
    pointsTo_split_subset (Finset.subset_univ (K t))
  exact (BI.equiv_iff.mp ⟨h.1, h.2⟩).symm

variable [FloatOps F]

/-! ## A drained chunk's deliveries, joined -/

/-- Parity 0: the 64 deliveries of each table's batch and what was kept aside are the two scratches whole at the
    gathered rows and the two tables at the chunk's share. -/
theorem deliv_join0 (c : Fin 8) (q : PosShare TreeShare) :
    iprop(bigSep Finset.univ (DR0 m d L c q) ∗ bigSep Finset.univ (DI0 m d L c q) ∗ bigSep Finset.univ (remOf m d L c q))
      ⊢ iprop(((b3).view.loc (thr d L) ↦{fullShare} gathered m d L (m (rLoc d)) c)
          ∗ ((b5).view.loc (thr d L) ↦{fullShare} gathered m d L (m (gLoc d)) c)
          ∗ ((rW).view.loc (thr d L) ↦{q} m (rLoc d)) ∗ ((gW).view.loc (thr d L) ↦{q} m (gLoc d))) := by
  have eR : bigSep Finset.univ (DR0 m d L c q)
      = iprop(bigSep Finset.univ (fun t : Fin 64 => (thr d L).loc cc0_scratch3 ↦[rowSet t]{fullShare} gathered m d L (m (rLoc d)) c)
          ∗ bigSep Finset.univ (fun t : Fin 64 => rLoc d ↦[trowSet (tRowOf m d L (posOf c t))]{lq q t} m (rLoc d))) :=
    (bigSep_congr fun t _ => by unfold DR0; rfl).trans (bigSep_sep _ _ _)
  have eI : bigSep Finset.univ (DI0 m d L c q)
      = iprop(bigSep Finset.univ (fun t : Fin 64 => (thr d L).loc cc0_scratch5 ↦[rowSet t]{fullShare} gathered m d L (m (gLoc d)) c)
          ∗ bigSep Finset.univ (fun t : Fin 64 => gLoc d ↦[trowSet (tRowOf m d L (posOf c t))]{lq q t} m (gLoc d))) :=
    (bigSep_congr fun t _ => by unfold DI0; rfl).trans (bigSep_sep _ _ _)
  have eM : bigSep Finset.univ (remOf m d L c q)
      = iprop(bigSep Finset.univ (fun t : Fin 64 => rLoc d ↦[Finset.univ \ trowSet (tRowOf m d L (posOf c t))]{lq q t} m (rLoc d))
          ∗ bigSep Finset.univ (fun t : Fin 64 => gLoc d ↦[Finset.univ \ trowSet (tRowOf m d L (posOf c t))]{lq q t} m (gLoc d))) :=
    (bigSep_congr fun t _ => by unfold remOf; rfl).trans (bigSep_sep _ _ _)
  rw [eR, eI, eM]
  iintro ⟨⟨H3, HR1⟩, ⟨H5, HG1⟩, HR2, HG2⟩
  isplitl [H3]; · iapply (Entails.of_eq (rows_split3 d L _).symm); iexact H3
  isplitl [H5]; · iapply (Entails.of_eq (rows_split5 d L _).symm); iexact H5
  isplitl [HR1 HR2]
  · iapply (Entails.of_eq (leaves_join (rLoc d) (m (rLoc d)) q fun t => trowSet (tRowOf m d L (posOf c t))))
    isplitl [HR1] <;> iassumption
  · iapply (Entails.of_eq (leaves_join (gLoc d) (m (gLoc d)) q fun t => trowSet (tRowOf m d L (posOf c t))))
    isplitl [HG1] <;> iassumption

/-- Parity 1: the 64 deliveries of each table's batch and what was kept aside are the two scratches whole at the
    gathered rows and the two tables at the chunk's share. -/
theorem deliv_join1 (c : Fin 8) (q : PosShare TreeShare) :
    iprop(bigSep Finset.univ (DR1 m d L c q) ∗ bigSep Finset.univ (DI1 m d L c q) ∗ bigSep Finset.univ (remOf m d L c q))
      ⊢ iprop(((b4).view.loc (thr d L) ↦{fullShare} gathered m d L (m (rLoc d)) c)
          ∗ ((b6).view.loc (thr d L) ↦{fullShare} gathered m d L (m (gLoc d)) c)
          ∗ ((rW).view.loc (thr d L) ↦{q} m (rLoc d)) ∗ ((gW).view.loc (thr d L) ↦{q} m (gLoc d))) := by
  have eR : bigSep Finset.univ (DR1 m d L c q)
      = iprop(bigSep Finset.univ (fun t : Fin 64 => (thr d L).loc cc0_scratch4 ↦[rowSet t]{fullShare} gathered m d L (m (rLoc d)) c)
          ∗ bigSep Finset.univ (fun t : Fin 64 => rLoc d ↦[trowSet (tRowOf m d L (posOf c t))]{lq q t} m (rLoc d))) :=
    (bigSep_congr fun t _ => by unfold DR1; rfl).trans (bigSep_sep _ _ _)
  have eI : bigSep Finset.univ (DI1 m d L c q)
      = iprop(bigSep Finset.univ (fun t : Fin 64 => (thr d L).loc cc0_scratch6 ↦[rowSet t]{fullShare} gathered m d L (m (gLoc d)) c)
          ∗ bigSep Finset.univ (fun t : Fin 64 => gLoc d ↦[trowSet (tRowOf m d L (posOf c t))]{lq q t} m (gLoc d))) :=
    (bigSep_congr fun t _ => by unfold DI1; rfl).trans (bigSep_sep _ _ _)
  have eM : bigSep Finset.univ (remOf m d L c q)
      = iprop(bigSep Finset.univ (fun t : Fin 64 => rLoc d ↦[Finset.univ \ trowSet (tRowOf m d L (posOf c t))]{lq q t} m (rLoc d))
          ∗ bigSep Finset.univ (fun t : Fin 64 => gLoc d ↦[Finset.univ \ trowSet (tRowOf m d L (posOf c t))]{lq q t} m (gLoc d))) :=
    (bigSep_congr fun t _ => by unfold remOf; rfl).trans (bigSep_sep _ _ _)
  rw [eR, eI, eM]
  iintro ⟨⟨H4, HR1⟩, ⟨H6, HG1⟩, HR2, HG2⟩
  isplitl [H4]; · iapply (Entails.of_eq (rows_split4 d L _).symm); iexact H4
  isplitl [H6]; · iapply (Entails.of_eq (rows_split6 d L _).symm); iexact H6
  isplitl [HR1 HR2]
  · iapply (Entails.of_eq (leaves_join (rLoc d) (m (rLoc d)) q fun t => trowSet (tRowOf m d L (posOf c t))))
    isplitl [HR1] <;> iassumption
  · iapply (Entails.of_eq (leaves_join (gLoc d) (m (gLoc d)) q fun t => trowSet (tRowOf m d L (posOf c t))))
    isplitl [HG1] <;> iassumption

end Cert.Proof.KB

end
-- ==== Proof.KB.Edges.lean ====
/-
  The loop invariants at their ends: what the tile holds when a loop is entered gives the invariant at trip 0, and the
  invariant after the last trip gives what the run goes on with. Pure separation logic: no program step.
-/
import proofs.«204629_g89326729822651_cont_sun_m_635_33_alg».proof.Proof.KB.Invs
import proofs.«204629_g89326729822651_cont_sun_m_635_33_alg».proof.Proof.KB.Join

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

/-! ## Parity 0 -/

omit [FloatOps F] in
/-- Entering the issue loop: the two batches allocated from their counters at zero, the tables' shares cut into the 64
    copies' leaves and the two scratches into their rows, nothing issued yet. -/
theorem fire_entry0 (c : Fin 8) (q : PosShare TreeShare) (fI : Buf (Elt F) ((thr d L).loc cc0_scratch0))
    (fr : Buf (Elt F) ((thr d L).loc cc0_scratch3)) (fi : Buf (Elt F) ((thr d L).loc cc0_scratch5)) :
    iprop(((b0).view.loc (thr d L) ↦{fullShare} fI) ∗ ((rW).view.loc (thr d L) ↦{q} m (rLoc d)) ∗ ((gW).view.loc (thr d L) ↦{q} m (gLoc d))
        ∗ ((b3).view.loc (thr d L) ↦{fullShare} fr) ∗ ((b5).view.loc (thr d L) ↦{fullShare} fi)
        ∗ semVal (thr d L, SemLoc.dma cc0_scratch11.sem) 0 ∗ semVal (thr d L, SemLoc.dma cc0_scratch13.sem) 0)
      ⊢ |={Set.univ}=> fireInv0 m d L c q fI fr fi 0 () := by
  unfold fireInv0
  rw [Transfers.pending_zero, Transfers.issued_zero, bigSep_empty, bigSep_sep', bigSep_sep', bigSep_sep',
    ← leaves64 (rLoc d) Finset.univ (m (rLoc d)) q, ← leaves64 (gLoc d) Finset.univ (m (gLoc d)) q, ← rows_split3 d L fr, ← rows_split5 d L fi]
  show iprop(((b0).view.loc (thr d L) ↦{fullShare} fI) ∗ (rLoc d ↦{q} m (rLoc d)) ∗ (gLoc d ↦{q} m (gLoc d))
        ∗ ((thr d L).loc cc0_scratch3 ↦{fullShare} fr) ∗ ((thr d L).loc cc0_scratch5 ↦{fullShare} fi)
        ∗ semVal (thr d L, SemLoc.dma cc0_scratch11.sem) 0 ∗ semVal (thr d L, SemLoc.dma cc0_scratch13.sem) 0) ⊢ _
  iintro ⟨HI, Hr, Hg, H3, H5, Hs1, Hs2⟩
  imod (Transfers.batch_alloc' countersEmb (thr d L) (default : HIx 1) NR (DR0 m d L c q) (sm := .dma cc0_scratch11.sem) (E := Set.univ)) $$ Hs1 with HB1
  imod (Transfers.batch_alloc' countersEmb (thr d L) (default : HIx 1) NR (DI0 m d L c q) (sm := .dma cc0_scratch13.sem) (E := Set.univ)) $$ Hs2 with HB2
  imodintro
  isplitl [HI]; · iexact HI
  isplitl [HB1 HB2]
  · isplitl [HB1]; · iexact HB1
    iexact HB2
  isplitl [Hr Hg H3 H5]
  · isplitl [Hr]; · iexact Hr
    isplitl [Hg]; · iexact Hg
    isplitl [H3]; · iexact H3
    iexact H5
  iempintro

omit [FloatOps F] in
/-- Leaving the issue loop: every copy issued, what each left of its leaf kept for the drain. -/
theorem fire_exit0 (c : Fin 8) (q : PosShare TreeShare) (fI : Buf (Elt F) ((thr d L).loc cc0_scratch0))
    (fr : Buf (Elt F) ((thr d L).loc cc0_scratch3)) (fi : Buf (Elt F) ((thr d L).loc cc0_scratch5)) :
    fireInv0 m d L c q fI fr fi 64 ()
      ⊢ iprop(((b0).view.loc (thr d L) ↦{fullShare} fI) ∗ batches0 m d L c q 64 0 ∗ bigSep Finset.univ (remOf m d L c q)) := by
  unfold fireInv0
  rw [Transfers.issued_all (m := 64) (k := 64) rfl]
  iintro ⟨HI, HB, -, Hrem⟩
  isplitl [HI]; · iexact HI
  isplitl [HB]; · iexact HB
  iexact Hrem

omit [FloatOps F] in
/-- Entering the drain loop: nothing consumed yet. -/
theorem drain_entry0 (c : Fin 8) (q : PosShare TreeShare) (O : CellTallies nD τ sig (HIx 1)) (W W' : Waits sig (HIx 1))
    (hW : ∀ p ∈ W', p ∈ W ∨ p.2 = none) :
    iprop(Transfers.MayWaits (thr d L) (default : HIx 1) O ∗ owes (thr d L) O W' ∗ batches0 m d L c q 64 0)
      ⊢ drainInv0 m d L c q O W 0 () := by
  unfold drainInv0
  rw [if_pos (show (0 : ℕ) < 64 by decide), Nat.zero_mul]
  iintro ⟨Hmw, HO, HB⟩
  isplitl [Hmw]; · iexact Hmw
  isplitl [HO]
  · iexists W'; isplitr
    · ipureintro; exact hW
    · iexact HO
  iexact HB

omit [FloatOps F] in
/-- Leaving the drain loop: every delivery in hand, the two counters at zero. -/
theorem drain_exit0 (c : Fin 8) (q : PosShare TreeShare) (O : CellTallies nD τ sig (HIx 1)) (W : Waits sig (HIx 1)) :
    drainInv0 m d L c q O W 64 ()
      ⊢ iprop((∃ W', ⌜∀ p ∈ W', p ∈ W ∨ p.2 = none⌝ ∗ owes (thr d L) O W') ∗ bigSep Finset.univ (DR0 m d L c q) ∗ bigSep Finset.univ (DI0 m d L c q)
          ∗ semVal (thr d L, SemLoc.dma cc0_scratch11.sem) 0 ∗ semVal (thr d L, SemLoc.dma cc0_scratch13.sem) 0) := by
  unfold drainInv0
  rw [if_neg (show ¬ (64 : ℕ) < 64 by decide)]
  iintro ⟨-, HO, HD⟩
  isplitl [HO]; · iexact HO
  iexact HD

/-- Entering the compute loop: no row done yet. -/
theorem compute_entry0 (c : Fin 8) (fo : S64x128.Idx → F .f32) :
    iprop(((b1).view.loc (thr d L) ↦{fullShare} embChunk m d L c) ∗ ((b3).view.loc (thr d L) ↦{fullShare} gathered m d L (m (rLoc d)) c)
        ∗ ((b5).view.loc (thr d L) ↦{fullShare} gathered m d L (m (gLoc d)) c) ∗ ((b7).view.loc (thr d L) ↦{fullShare} fo))
      ⊢ computeInv0 m d L c 0 () := by
  unfold computeInv0
  iintro ⟨H1, H3, H5, H7⟩
  isplitl [H1]; · iexact H1
  isplitl [H3]; · iexact H3
  isplitl [H5]; · iexact H5
  iexists fo
  isplitl [H7]; · iexact H7
  ipureintro
  exact fun y hy => absurd hy (Nat.not_lt_zero _)

/-- Leaving the compute loop: every row done, the result scratch holds the chunk of the specification. -/
theorem compute_exit0 (c : Fin 8) :
    computeInv0 m d L c 64 ()
      ⊢ iprop(((b1).view.loc (thr d L) ↦{fullShare} embChunk m d L c) ∗ ((b3).view.loc (thr d L) ↦{fullShare} gathered m d L (m (rLoc d)) c)
          ∗ ((b5).view.loc (thr d L) ↦{fullShare} gathered m d L (m (gLoc d)) c) ∗ ((b7).view.loc (thr d L) ↦{fullShare} outChunk m d L c)) := by
  unfold computeInv0
  iintro ⟨H1, H3, H5, %fo, H7, %hfo⟩
  have e : fo = outChunk m d L c := funext fun y => hfo y (ValueIdx.idx2_lt0 y)
  subst e
  isplitl [H1]; · iexact H1
  isplitl [H3]; · iexact H3
  isplitl [H5]; · iexact H5
  iexact H7

/-! ## Parity 1 -/

omit [FloatOps F] in
/-- Entering the issue loop: the two batches allocated from their counters at zero, the tables' shares cut into the 64
    copies' leaves and the two scratches into their rows, nothing issued yet. -/
theorem fire_entry1 (c : Fin 8) (q : PosShare TreeShare) (fI : Buf (Elt F) ((thr d L).loc cc0_scratch0))
    (fr : Buf (Elt F) ((thr d L).loc cc0_scratch4)) (fi : Buf (Elt F) ((thr d L).loc cc0_scratch6)) :
    iprop(((b0).view.loc (thr d L) ↦{fullShare} fI) ∗ ((rW).view.loc (thr d L) ↦{q} m (rLoc d)) ∗ ((gW).view.loc (thr d L) ↦{q} m (gLoc d))
        ∗ ((b4).view.loc (thr d L) ↦{fullShare} fr) ∗ ((b6).view.loc (thr d L) ↦{fullShare} fi)
        ∗ semVal (thr d L, SemLoc.dma cc0_scratch12.sem) 0 ∗ semVal (thr d L, SemLoc.dma cc0_scratch14.sem) 0)
      ⊢ |={Set.univ}=> fireInv1 m d L c q fI fr fi 0 () := by
  unfold fireInv1
  rw [Transfers.pending_zero, Transfers.issued_zero, bigSep_empty, bigSep_sep', bigSep_sep', bigSep_sep',
    ← leaves64 (rLoc d) Finset.univ (m (rLoc d)) q, ← leaves64 (gLoc d) Finset.univ (m (gLoc d)) q, ← rows_split4 d L fr, ← rows_split6 d L fi]
  show iprop(((b0).view.loc (thr d L) ↦{fullShare} fI) ∗ (rLoc d ↦{q} m (rLoc d)) ∗ (gLoc d ↦{q} m (gLoc d))
        ∗ ((thr d L).loc cc0_scratch4 ↦{fullShare} fr) ∗ ((thr d L).loc cc0_scratch6 ↦{fullShare} fi)
        ∗ semVal (thr d L, SemLoc.dma cc0_scratch12.sem) 0 ∗ semVal (thr d L, SemLoc.dma cc0_scratch14.sem) 0) ⊢ _
  iintro ⟨HI, Hr, Hg, H3, H5, Hs1, Hs2⟩
  imod (Transfers.batch_alloc' countersEmb (thr d L) (default : HIx 1) NR (DR1 m d L c q) (sm := .dma cc0_scratch12.sem) (E := Set.univ)) $$ Hs1 with HB1
  imod (Transfers.batch_alloc' countersEmb (thr d L) (default : HIx 1) NR (DI1 m d L c q) (sm := .dma cc0_scratch14.sem) (E := Set.univ)) $$ Hs2 with HB2
  imodintro
  isplitl [HI]; · iexact HI
  isplitl [HB1 HB2]
  · isplitl [HB1]; · iexact HB1
    iexact HB2
  isplitl [Hr Hg H3 H5]
  · isplitl [Hr]; · iexact Hr
    isplitl [Hg]; · iexact Hg
    isplitl [H3]; · iexact H3
    iexact H5
  iempintro

omit [FloatOps F] in
/-- Leaving the issue loop: every copy issued, what each left of its leaf kept for the drain. -/
theorem fire_exit1 (c : Fin 8) (q : PosShare TreeShare) (fI : Buf (Elt F) ((thr d L).loc cc0_scratch0))
    (fr : Buf (Elt F) ((thr d L).loc cc0_scratch4)) (fi : Buf (Elt F) ((thr d L).loc cc0_scratch6)) :
    fireInv1 m d L c q fI fr fi 64 ()
      ⊢ iprop(((b0).view.loc (thr d L) ↦{fullShare} fI) ∗ batches1 m d L c q 64 0 ∗ bigSep Finset.univ (remOf m d L c q)) := by
  unfold fireInv1
  rw [Transfers.issued_all (m := 64) (k := 64) rfl]
  iintro ⟨HI, HB, -, Hrem⟩
  isplitl [HI]; · iexact HI
  isplitl [HB]; · iexact HB
  iexact Hrem

omit [FloatOps F] in
/-- Entering the drain loop: nothing consumed yet. -/
theorem drain_entry1 (c : Fin 8) (q : PosShare TreeShare) (O : CellTallies nD τ sig (HIx 1)) (W W' : Waits sig (HIx 1))
    (hW : ∀ p ∈ W', p ∈ W ∨ p.2 = none) :
    iprop(Transfers.MayWaits (thr d L) (default : HIx 1) O ∗ owes (thr d L) O W' ∗ batches1 m d L c q 64 0)
      ⊢ drainInv1 m d L c q O W 0 () := by
  unfold drainInv1
  rw [if_pos (show (0 : ℕ) < 64 by decide), Nat.zero_mul]
  iintro ⟨Hmw, HO, HB⟩
  isplitl [Hmw]; · iexact Hmw
  isplitl [HO]
  · iexists W'; isplitr
    · ipureintro; exact hW
    · iexact HO
  iexact HB

omit [FloatOps F] in
/-- Leaving the drain loop: every delivery in hand, the two counters at zero. -/
theorem drain_exit1 (c : Fin 8) (q : PosShare TreeShare) (O : CellTallies nD τ sig (HIx 1)) (W : Waits sig (HIx 1)) :
    drainInv1 m d L c q O W 64 ()
      ⊢ iprop((∃ W', ⌜∀ p ∈ W', p ∈ W ∨ p.2 = none⌝ ∗ owes (thr d L) O W') ∗ bigSep Finset.univ (DR1 m d L c q) ∗ bigSep Finset.univ (DI1 m d L c q)
          ∗ semVal (thr d L, SemLoc.dma cc0_scratch12.sem) 0 ∗ semVal (thr d L, SemLoc.dma cc0_scratch14.sem) 0) := by
  unfold drainInv1
  rw [if_neg (show ¬ (64 : ℕ) < 64 by decide)]
  iintro ⟨-, HO, HD⟩
  isplitl [HO]; · iexact HO
  iexact HD

/-- Entering the compute loop: no row done yet. -/
theorem compute_entry1 (c : Fin 8) (fo : S64x128.Idx → F .f32) :
    iprop(((b2).view.loc (thr d L) ↦{fullShare} embChunk m d L c) ∗ ((b4).view.loc (thr d L) ↦{fullShare} gathered m d L (m (rLoc d)) c)
        ∗ ((b6).view.loc (thr d L) ↦{fullShare} gathered m d L (m (gLoc d)) c) ∗ ((b8).view.loc (thr d L) ↦{fullShare} fo))
      ⊢ computeInv1 m d L c 0 () := by
  unfold computeInv1
  iintro ⟨H1, H3, H5, H7⟩
  isplitl [H1]; · iexact H1
  isplitl [H3]; · iexact H3
  isplitl [H5]; · iexact H5
  iexists fo
  isplitl [H7]; · iexact H7
  ipureintro
  exact fun y hy => absurd hy (Nat.not_lt_zero _)

/-- Leaving the compute loop: every row done, the result scratch holds the chunk of the specification. -/
theorem compute_exit1 (c : Fin 8) :
    computeInv1 m d L c 64 ()
      ⊢ iprop(((b2).view.loc (thr d L) ↦{fullShare} embChunk m d L c) ∗ ((b4).view.loc (thr d L) ↦{fullShare} gathered m d L (m (rLoc d)) c)
          ∗ ((b6).view.loc (thr d L) ↦{fullShare} gathered m d L (m (gLoc d)) c) ∗ ((b8).view.loc (thr d L) ↦{fullShare} outChunk m d L c)) := by
  unfold computeInv1
  iintro ⟨H1, H3, H5, %fo, H7, %hfo⟩
  have e : fo = outChunk m d L c := funext fun y => hfo y (ValueIdx.idx2_lt0 y)
  subst e
  isplitl [H1]; · iexact H1
  isplitl [H3]; · iexact H3
  isplitl [H5]; · iexact H5
  iexact H7

end Cert.Proof.KB

end
-- ==== Proof.KB.Landing.lean ====
/-
  What a plain copy leaves where it lands. The copy's payload is the source slice read off the source's contents;
  the destination after the copy is that payload written through the destination's view. Entry by entry:
  the index scratch's first 512 words are the tile's 512 row numbers; a batch scratch holds the chunk's 64 batch rows;
  the result array's chunk, after the result scratch at the chunk of the specification has been copied out, holds the
  specification's function there. And a tile's eight chunks, one by one.
-/
import proofs.«204629_g89326729822651_cont_sun_m_635_33_alg».proof.Proof.KB.Invs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

open Idealize.ShloMosaic.ValueIdx

/-! ## The index scratch -/

/-- After the 512-word copy into its first 512 words, word `j` of the index scratch is the tile's `j`-th row number. -/
theorem idx_landed (f0 : Buf (Elt F) ((thr d L).loc cc0_scratch0)) {off : Fin 1 → Nat} (hoff : off = ![R0 L])
    (inb : ∀ a, off a + S512.size a ≤ S16384.size a) (pay : S512.Idx → BitVec 32)
    (hpay : pay = ((iW).slice (Rect.unit (s := S16384) off S512.size inb) (fun _ => rfl)).view.read (Elt F) (m (iLoc d))) :
    IdxHolds m d L ((b0).view.writes (Elt F) f0 [⟨Rect.unit (s := S528) ![0] S512.size inb_S528_S512_0, pay⟩]) := by
  subst hoff hpay
  intro j
  have e1 : (ix1 (⟨j.val, by have := j.isLt; omega⟩ : Fin 528) : S528.Idx)
      = (Rect.unit (s := S528) ![0] S512.size inb_S528_S512_0).emb (ix1 j) := by
    funext a; apply Fin.ext
    match a with
    | ⟨0, _⟩ => show j.val = 0 + 1 * j.val; omega
  rw [e1]
  refine (View.read_writes_cons_emb (b0).view f0 (Rect.unit (s := S528) ![0] S512.size inb_S528_S512_0) _ [] (ix1 j)).trans ?_
  unfold idxW
  show (m (iLoc d)) _ = (m (iLoc d)) _
  congr 1
  funext a; apply Fin.ext
  match a with
  | ⟨0, _⟩ => show R0 L + 1 * j.val = R0 L + j.val; omega

/-! ## The batch scratches -/

/-- Entry `y` of the batch's 64 rows from row `R0 + 64 c` on is the chunk's. -/
theorem chunk_read (c : Fin 8) (inb : ∀ a, (![R0 L + 64 * c.val, 0] : Fin 2 → ℕ) a + S64x128.size a ≤ S16384x128.size a) :
    ((eW).slice (Rect.unit (s := S16384x128) ![R0 L + 64 * c.val, 0] S64x128.size inb) (fun _ => rfl)).view.read (Elt F) (m (eLoc d))
      = embChunk m d L c := by
  funext y
  unfold embChunk
  show (m (eLoc d)) _ = (m (eLoc d)) _
  congr 1
  funext a; apply Fin.ext
  match a with
  | ⟨0, _⟩ => show R0 L + 64 * c.val + 1 * (y 0).val = R0 L + (64 * c.val + (y 0).val); omega
  | ⟨1, _⟩ => show 0 + 1 * (y 1).val = (y 1).val; omega

/-- After the chunk's copy, the parity-0 batch scratch holds the chunk's 64 batch rows. -/
theorem emb_landed1 (c : Fin 8) (f1 : Buf (Elt F) ((thr d L).loc cc0_scratch1)) {off : Fin 2 → Nat} (hoff : off = ![R0 L + 64 * c.val, 0])
    (inb : ∀ a, off a + S64x128.size a ≤ S16384x128.size a) (pay : S64x128.Idx → F .f32)
    (hpay : pay = ((eW).slice (Rect.unit (s := S16384x128) off S64x128.size inb) (fun _ => rfl)).view.read (Elt F) (m (eLoc d))) :
    View.write (Elt F) (b1).view f1 pay Finset.univ = embChunk m d L c := by
  subst hoff hpay
  rw [chunk_read]
  exact View.write_whole_univ (Val := Elt F) cc0_scratch1 f1 _

/-- After the chunk's copy, the parity-1 batch scratch holds the chunk's 64 batch rows. -/
theorem emb_landed2 (c : Fin 8) (f1 : Buf (Elt F) ((thr d L).loc cc0_scratch2)) {off : Fin 2 → Nat} (hoff : off = ![R0 L + 64 * c.val, 0])
    (inb : ∀ a, off a + S64x128.size a ≤ S16384x128.size a) (pay : S64x128.Idx → F .f32)
    (hpay : pay = ((eW).slice (Rect.unit (s := S16384x128) off S64x128.size inb) (fun _ => rfl)).view.read (Elt F) (m (eLoc d))) :
    View.write (Elt F) (b2).view f1 pay Finset.univ = embChunk m d L c := by
  subst hoff hpay
  rw [chunk_read]
  exact View.write_whole_univ (Val := Elt F) cc0_scratch2 f1 _

/-! ## The result array's chunks -/

omit m d [FloatOps F] in
/-- The 64 rows of the result array from row `R0 + 64 k` on are the tile's chunk `k`. -/
theorem set_chunk (k : Fin 8) {off : Fin 2 → Nat} (hoff : off = ![R0 L + 64 * k.val, 0]) (inb : ∀ a, off a + S64x128.size a ≤ S16384x128.size a) :
    ((oW).slice (Rect.unit (s := S16384x128) off S64x128.size inb) (fun _ => rfl)).view.set = chunkSet (cL L) (sL L) k := by
  subst hoff; rfl

/-- On the chunk, the chunk of the specification written through the chunk's view is the specification's function. -/
theorem out_written (k : Fin 8) (g : Buf (Elt F) (oLoc d)) (inb : ∀ a, (![R0 L + 64 * k.val, 0] : Fin 2 → ℕ) a + S64x128.size a ≤ S16384x128.size a) :
    ∀ i ∈ chunkSet (cL L) (sL L) k,
      View.write (Elt F) ((oW).slice (Rect.unit (s := S16384x128) ![R0 L + 64 * k.val, 0] S64x128.size inb) (fun _ => rfl)).view g (outChunk m d L k) Finset.univ i
        = Gm m d i := by
  intro i hi
  rw [← set_chunk L k rfl inb] at hi
  obtain ⟨y, -, rfl⟩ := Finset.mem_map.mp hi
  rw [View.write_emb_of_mem _ _ (Finset.mem_univ y)]
  unfold outChunk
  show (Gm m d) _ = (Gm m d) _
  congr 1
  funext a; apply Fin.ext
  match a with
  | ⟨0, _⟩ => show R0 L + (64 * k.val + (y 0).val) = R0 L + 64 * k.val + 1 * (y 0).val; omega
  | ⟨1, _⟩ => show (y 1).val = 0 + 1 * (y 1).val; omega

/-- After the parity-0 result scratch, at the chunk of the specification, has been copied out, the result array's
    chunk holds the specification's function. -/
theorem out_landed7 (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        View.write (Elt F) ((oW).slice (Rect.unit (s := S16384x128) off S64x128.size inb) (fun _ => rfl)).view g pay Finset.univ : sProp 𝕄)
      = (oLoc d ↦[chunkSet (cL L) (sL L) k]{fullShare} Gm m d) := by
  subst hoff hpay
  rw [set_chunk L k rfl inb]
  exact pointsTo_congr (out_written m d L k g inb)

/-- The same for the parity-1 result scratch. -/
theorem out_landed8 (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        View.write (Elt F) ((oW).slice (Rect.unit (s := S16384x128) off S64x128.size inb) (fun _ => rfl)).view g pay Finset.univ : sProp 𝕄)
      = (oLoc d ↦[chunkSet (cL L) (sL L) k]{fullShare} Gm m d) := by
  subst hoff hpay
  rw [set_chunk L k rfl inb]
  exact pointsTo_congr (out_written m d L k g inb)

/-- The same with the chunk restated as one listed write, covering the slice, over arbitrary prior contents: on the
    chunk the prior contents do not matter. -/
theorem out_landed7J [∀ e, Nonempty (Elt F e)] (k : Fin 8) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) ((oW).slice (Rect.unit (s := S16384x128) off S64x128.size inb) (fun _ => rfl)).view.junk
          [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view ((oW).slice (Rect.unit (s := S16384x128) off S64x128.size inb) (fun _ => rfl)).view.junk [] pay
  exact (congrArg (fun g => (oLoc d ↦[((oW).slice (Rect.unit (s := S16384x128) off S64x128.size inb) (fun _ => rfl)).view.set]{fullShare} g : sProp 𝕄)) e.symm).trans
    (out_landed7 m d L k ((oW).slice (Rect.unit (s := S16384x128) off S64x128.size inb) (fun _ => rfl)).view.junk hoff inb pay hpay)

/-- The same with the chunk restated as one listed write, covering the slice, over arbitrary prior contents: on the
    chunk the prior contents do not matter. -/
theorem out_landed8J [∀ e, Nonempty (Elt F e)] (k : Fin 8) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) ((oW).slice (Rect.unit (s := S16384x128) off S64x128.size inb) (fun _ => rfl)).view.junk
          [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view ((oW).slice (Rect.unit (s := S16384x128) off S64x128.size inb) (fun _ => rfl)).view.junk [] pay
  exact (congrArg (fun g => (oLoc d ↦[((oW).slice (Rect.unit (s := S16384x128) off S64x128.size inb) (fun _ => rfl)).view.set]{fullShare} g : sProp 𝕄)) e.symm).trans
    (out_landed8 m d L k ((oW).slice (Rect.unit (s := S16384x128) off S64x128.size inb) (fun _ => rfl)).view.junk hoff inb pay hpay)

omit m [FloatOps F] in
/-- A tile's eight chunks, one by one. -/
theorem chunks_split (f : Buf (Elt F) (oLoc d)) :
    (chunksAt d (cL L) (sL L) f : sProp 𝕄)
      = iprop((oLoc d ↦[chunkSet (cL L) (sL L) 0]{fullShare} f) ∗ (oLoc d ↦[chunkSet (cL L) (sL L) 1]{fullShare} f)
          ∗ (oLoc d ↦[chunkSet (cL L) (sL L) 2]{fullShare} f) ∗ (oLoc d ↦[chunkSet (cL L) (sL L) 3]{fullShare} f)
          ∗ (oLoc d ↦[chunkSet (cL L) (sL L) 4]{fullShare} f) ∗ (oLoc d ↦[chunkSet (cL L) (sL L) 5]{fullShare} f)
          ∗ (oLoc d ↦[chunkSet (cL L) (sL L) 6]{fullShare} f) ∗ (oLoc d ↦[chunkSet (cL L) (sL L) 7]{fullShare} f)) :=
  Idealize.SL.BI.bigSep_univ_eq_bigSepL [0, 1, 2, 3, 4, 5, 6, 7] (by decide) (by decide)
    (fun k : Fin 8 => (oLoc d ↦[chunkSet (cL L) (sL L) k]{fullShare} f : sProp 𝕄))

end Cert.Proof.KB

end
-- ==== Proof.KB.BodyLemmas.lean ====
/-
  Small facts the tile's run uses between its loops: each array and scratch restated as the program addresses it, each
  result chunk as the program slices it, the closed form of the chunks' offsets, and the bookkeeping of the waits
  recorded beside what the tile owes the launch (every wait the tile makes is at the launch's index `none`).
-/
import proofs.«204629_g89326729822651_cont_sun_m_635_33_alg».proof.Proof.KB.Edges
import proofs.«204629_g89326729822651_cont_sun_m_635_33_alg».proof.Proof.KB.Landing

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)

section Pts
theorem pts_e (q : PosShare TreeShare) (f : Buf (Elt F) (eLoc d)) : ((eW).view.loc (thr d L) ↦{q} f : sProp 𝕄) = eLoc d ↦{q} f := rfl
theorem pts_i (q : PosShare TreeShare) (f : Buf (Elt F) (iLoc d)) : ((iW).view.loc (thr d L) ↦{q} f : sProp 𝕄) = iLoc d ↦{q} f := rfl
theorem pts_r (q : PosShare TreeShare) (f : Buf (Elt F) (rLoc d)) : ((rW).view.loc (thr d L) ↦{q} f : sProp 𝕄) = rLoc d ↦{q} f := rfl
theorem pts_g (q : PosShare TreeShare) (f : Buf (Elt F) (gLoc d)) : ((gW).view.loc (thr d L) ↦{q} f : sProp 𝕄) = gLoc d ↦{q} f := rfl
theorem pts_b0 (f : Buf (Elt F) ((thr d L).loc cc0_scratch0)) : ((b0).view.loc (thr d L) ↦{fullShare} f : sProp 𝕄) = (thr d L).loc cc0_scratch0 ↦{fullShare} f := rfl
theorem pts_b1 (f : Buf (Elt F) ((thr d L).loc cc0_scratch1)) : ((b1).view.loc (thr d L) ↦{fullShare} f : sProp 𝕄) = (thr d L).loc cc0_scratch1 ↦{fullShare} f := rfl
theorem pts_b2 (f : Buf (Elt F) ((thr d L).loc cc0_scratch2)) : ((b2).view.loc (thr d L) ↦{fullShare} f : sProp 𝕄) = (thr d L).loc cc0_scratch2 ↦{fullShare} f := rfl
theorem pts_b3 (f : Buf (Elt F) ((thr d L).loc cc0_scratch3)) : ((b3).view.loc (thr d L) ↦{fullShare} f : sProp 𝕄) = (thr d L).loc cc0_scratch3 ↦{fullShare} f := rfl
theorem pts_b4 (f : Buf (Elt F) ((thr d L).loc cc0_scratch4)) : ((b4).view.loc (thr d L) ↦{fullShare} f : sProp 𝕄) = (thr d L).loc cc0_scratch4 ↦{fullShare} f := rfl
theorem pts_b5 (f : Buf (Elt F) ((thr d L).loc cc0_scratch5)) : ((b5).view.loc (thr d L) ↦{fullShare} f : sProp 𝕄) = (thr d L).loc cc0_scratch5 ↦{fullShare} f := rfl
theorem pts_b6 (f : Buf (Elt F) ((thr d L).loc cc0_scratch6)) : ((b6).view.loc (thr d L) ↦{fullShare} f : sProp 𝕄) = (thr d L).loc cc0_scratch6 ↦{fullShare} f := rfl
theorem pts_b7 (f : Buf (Elt F) ((thr d L).loc cc0_scratch7)) : ((b7).view.loc (thr d L) ↦{fullShare} f : sProp 𝕄) = (thr d L).loc cc0_scratch7 ↦{fullShare} f := rfl
theorem pts_b8 (f : Buf (Elt F) ((thr d L).loc cc0_scratch8)) : ((b8).view.loc (thr d L) ↦{fullShare} f : sProp 𝕄) = (thr d L).loc cc0_scratch8 ↦{fullShare} f := rfl
end Pts

theorem lt8_0 : (0 : ℕ) < 8 := by decide
theorem lt8_1 : (1 : ℕ) < 8 := by decide
theorem lt8_2 : (2 : ℕ) < 8 := by decide
theorem lt8_3 : (3 : ℕ) < 8 := by decide
theorem lt8_4 : (4 : ℕ) < 8 := by decide
theorem lt8_5 : (5 : ℕ) < 8 := by decide
theorem lt8_6 : (6 : ℕ) < 8 := by decide
theorem lt8_7 : (7 : ℕ) < 8 := by decide

/-- The offsets of chunk `k` of the tile, as the program computes them, in closed form. -/
theorem hoff2 (k : Fin 8) : k0_off2 L (BitVec.ofNat 32 (64 * k.val)) = ![R0 L + 64 * k.val, 0] := by
  rw [k0_off2_eq L k]; rfl

/-- Result chunk 0 of the tile, held by exactly the elements of the program's slice of it. -/
theorem pts_c0 (f : Buf (Elt F) (oLoc d)) :
    ((((oW).slice (Rect.unit (s := S16384x128) (k0_off2 L 0#32) S64x128.size (k0_off2_inb L 0)) (fun _ => rfl)).view.loc (thr d L))
        ↦[((oW).slice (Rect.unit (s := S16384x128) (k0_off2 L 0#32) S64x128.size (k0_off2_inb L 0)) (fun _ => rfl)).view.set]{fullShare} f : sProp 𝕄)
      = (oLoc d ↦[chunkSet (cL L) (sL L) 0]{fullShare} f) := by
  exact congrArg (fun S => (oLoc d ↦[S]{fullShare} f : sProp 𝕄)) (set_chunk L 0 (hoff2 L 0) (k0_off2_inb L 0))

/-- Result chunk 1 of the tile, held by exactly the elements of the program's slice of it. -/
theorem pts_c1 (f : Buf (Elt F) (oLoc d)) :
    ((((oW).slice (Rect.unit (s := S16384x128) (k0_off2 L 64#32) S64x128.size (k0_off2_inb L 1)) (fun _ => rfl)).view.loc (thr d L))
        ↦[((oW).slice (Rect.unit (s := S16384x128) (k0_off2 L 64#32) S64x128.size (k0_off2_inb L 1)) (fun _ => rfl)).view.set]{fullShare} f : sProp 𝕄)
      = (oLoc d ↦[chunkSet (cL L) (sL L) 1]{fullShare} f) := by
  exact congrArg (fun S => (oLoc d ↦[S]{fullShare} f : sProp 𝕄)) (set_chunk L 1 (hoff2 L 1) (k0_off2_inb L 1))

/-- Result chunk 2 of the tile, held by exactly the elements of the program's slice of it. -/
theorem pts_c2 (f : Buf (Elt F) (oLoc d)) :
    ((((oW).slice (Rect.unit (s := S16384x128) (k0_off2 L 128#32) S64x128.size (k0_off2_inb L 2)) (fun _ => rfl)).view.loc (thr d L))
        ↦[((oW).slice (Rect.unit (s := S16384x128) (k0_off2 L 128#32) S64x128.size (k0_off2_inb L 2)) (fun _ => rfl)).view.set]{fullShare} f : sProp 𝕄)
      = (oLoc d ↦[chunkSet (cL L) (sL L) 2]{fullShare} f) := by
  exact congrArg (fun S => (oLoc d ↦[S]{fullShare} f : sProp 𝕄)) (set_chunk L 2 (hoff2 L 2) (k0_off2_inb L 2))

/-- Result chunk 3 of the tile, held by exactly the elements of the program's slice of it. -/
theorem pts_c3 (f : Buf (Elt F) (oLoc d)) :
    ((((oW).slice (Rect.unit (s := S16384x128) (k0_off2 L 192#32) S64x128.size (k0_off2_inb L 3)) (fun _ => rfl)).view.loc (thr d L))
        ↦[((oW).slice (Rect.unit (s := S16384x128) (k0_off2 L 192#32) S64x128.size (k0_off2_inb L 3)) (fun _ => rfl)).view.set]{fullShare} f : sProp 𝕄)
      = (oLoc d ↦[chunkSet (cL L) (sL L) 3]{fullShare} f) := by
  exact congrArg (fun S => (oLoc d ↦[S]{fullShare} f : sProp 𝕄)) (set_chunk L 3 (hoff2 L 3) (k0_off2_inb L 3))

/-- Result chunk 4 of the tile, held by exactly the elements of the program's slice of it. -/
theorem pts_c4 (f : Buf (Elt F) (oLoc d)) :
    ((((oW).slice (Rect.unit (s := S16384x128) (k0_off2 L 256#32) S64x128.size (k0_off2_inb L 4)) (fun _ => rfl)).view.loc (thr d L))
        ↦[((oW).slice (Rect.unit (s := S16384x128) (k0_off2 L 256#32) S64x128.size (k0_off2_inb L 4)) (fun _ => rfl)).view.set]{fullShare} f : sProp 𝕄)
      = (oLoc d ↦[chunkSet (cL L) (sL L) 4]{fullShare} f) := by
  exact congrArg (fun S => (oLoc d ↦[S]{fullShare} f : sProp 𝕄)) (set_chunk L 4 (hoff2 L 4) (k0_off2_inb L 4))

/-- Result chunk 5 of the tile, held by exactly the elements of the program's slice of it. -/
theorem pts_c5 (f : Buf (Elt F) (oLoc d)) :
    ((((oW).slice (Rect.unit (s := S16384x128) (k0_off2 L 320#32) S64x128.size (k0_off2_inb L 5)) (fun _ => rfl)).view.loc (thr d L))
        ↦[((oW).slice (Rect.unit (s := S16384x128) (k0_off2 L 320#32) S64x128.size (k0_off2_inb L 5)) (fun _ => rfl)).view.set]{fullShare} f : sProp 𝕄)
      = (oLoc d ↦[chunkSet (cL L) (sL L) 5]{fullShare} f) := by
  exact congrArg (fun S => (oLoc d ↦[S]{fullShare} f : sProp 𝕄)) (set_chunk L 5 (hoff2 L 5) (k0_off2_inb L 5))

/-- Result chunk 6 of the tile, held by exactly the elements of the program's slice of it. -/
theorem pts_c6 (f : Buf (Elt F) (oLoc d)) :
    ((((oW).slice (Rect.unit (s := S16384x128) (k0_off2 L 384#32) S64x128.size (k0_off2_inb L 6)) (fun _ => rfl)).view.loc (thr d L))
        ↦[((oW).slice (Rect.unit (s := S16384x128) (k0_off2 L 384#32) S64x128.size (k0_off2_inb L 6)) (fun _ => rfl)).view.set]{fullShare} f : sProp 𝕄)
      = (oLoc d ↦[chunkSet (cL L) (sL L) 6]{fullShare} f) := by
  exact congrArg (fun S => (oLoc d ↦[S]{fullShare} f : sProp 𝕄)) (set_chunk L 6 (hoff2 L 6) (k0_off2_inb L 6))

/-- Result chunk 7 of the tile, held by exactly the elements of the program's slice of it. -/
theorem pts_c7 (f : Buf (Elt F) (oLoc d)) :
    ((((oW).slice (Rect.unit (s := S16384x128) (k0_off2 L 448#32) S64x128.size (k0_off2_inb L 7)) (fun _ => rfl)).view.loc (thr d L))
        ↦[((oW).slice (Rect.unit (s := S16384x128) (k0_off2 L 448#32) S64x128.size (k0_off2_inb L 7)) (fun _ => rfl)).view.set]{fullShare} f : sProp 𝕄)
      = (oLoc d ↦[chunkSet (cL L) (sL L) 7]{fullShare} f) := by
  exact congrArg (fun S => (oLoc d ↦[S]{fullShare} f : sProp 𝕄)) (set_chunk L 7 (hoff2 L 7) (k0_off2_inb L 7))

/-- A wait at the launch's index `none` keeps the recorded waits within what the launch allows. -/
theorem okW_ins {W Wc : Waits sig (HIx 1)} (s : SemLoc sig) (h : ∀ p ∈ Wc, p ∈ W ∨ p.2 = none) :
    ∀ p ∈ insert (s, (default : HIx 1)) Wc, p ∈ W ∨ p.2 = none := by
  intro p hp
  rcases Finset.mem_insert.mp hp with rfl | hp
  · exact .inr rfl
  · exact h p hp

variable [FloatOps F]

/-- The drain invariant's entry from the packed record of waits. -/
theorem drain_entryX0 (c : Fin 8) (q : PosShare TreeShare) (O : CellTallies nD τ sig (HIx 1)) (W : Waits sig (HIx 1)) :
    iprop(Transfers.MayWaits (thr d L) (default : HIx 1) O ∗ (∃ W', ⌜∀ p ∈ W', p ∈ W ∨ p.2 = none⌝ ∗ owes (thr d L) O W') ∗ batches0 m d L c q 64 0)
      ⊢ drainInv0 m d L c q O W 0 () := by
  iintro ⟨Hmw, ⟨%W', %hW, HO⟩, HB⟩
  iapply (drain_entry0 m d L c q O W W' hW)
  isplitl [Hmw]; · iexact Hmw
  isplitl [HO]; · iexact HO
  iexact HB
theorem drain_entryX1 (c : Fin 8) (q : PosShare TreeShare) (O : CellTallies nD τ sig (HIx 1)) (W : Waits sig (HIx 1)) :
    iprop(Transfers.MayWaits (thr d L) (default : HIx 1) O ∗ (∃ W', ⌜∀ p ∈ W', p ∈ W ∨ p.2 = none⌝ ∗ owes (thr d L) O W') ∗ batches1 m d L c q 64 0)
      ⊢ drainInv1 m d L c q O W 0 () := by
  iintro ⟨Hmw, ⟨%W', %hW, HO⟩, HB⟩
  iapply (drain_entry1 m d L c q O W W' hW)
  isplitl [Hmw]; · iexact Hmw
  isplitl [HO]; · iexact HO
  iexact HB

/-- The three exits at any trip count equal to 64 and any unit. -/
theorem fire_exit0' (c : Fin 8) (q : PosShare TreeShare) (fI : Buf (Elt F) ((thr d L).loc cc0_scratch0))
    (fr : Buf (Elt F) ((thr d L).loc cc0_scratch3)) (fi : Buf (Elt F) ((thr d L).loc cc0_scratch5)) (n : ℕ) (hn : n = 64) (a : PUnit) :
    fireInv0 m d L c q fI fr fi n a
      ⊢ iprop(((b0).view.loc (thr d L) ↦{fullShare} fI) ∗ batches0 m d L c q 64 0 ∗ bigSep Finset.univ (remOf m d L c q)) := by
  subst hn; cases a; exact fire_exit0 m d L c q fI fr fi
theorem drain_exit0' (c : Fin 8) (q : PosShare TreeShare) (O : CellTallies nD τ sig (HIx 1)) (W : Waits sig (HIx 1)) (n : ℕ) (hn : n = 64) (a : PUnit) :
    drainInv0 m d L c q O W n a
      ⊢ iprop((∃ W', ⌜∀ p ∈ W', p ∈ W ∨ p.2 = none⌝ ∗ owes (thr d L) O W') ∗ bigSep Finset.univ (DR0 m d L c q) ∗ bigSep Finset.univ (DI0 m d L c q)
          ∗ semVal (thr d L, SemLoc.dma cc0_scratch11.sem) 0 ∗ semVal (thr d L, SemLoc.dma cc0_scratch13.sem) 0) := by
  subst hn; cases a; exact drain_exit0 m d L c q O W
theorem compute_exit0' (c : Fin 8) (n : ℕ) (hn : n = 64) (a : PUnit) :
    computeInv0 m d L c n a
      ⊢ iprop(((b1).view.loc (thr d L) ↦{fullShare} embChunk m d L c) ∗ ((b3).view.loc (thr d L) ↦{fullShare} gathered m d L (m (rLoc d)) c)
          ∗ ((b5).view.loc (thr d L) ↦{fullShare} gathered m d L (m (gLoc d)) c) ∗ ((b7).view.loc (thr d L) ↦{fullShare} outChunk m d L c)) := by
  subst hn; cases a; exact compute_exit0 m d L c

/-- The three exits at any trip count equal to 64 and any unit. -/
theorem fire_exit1' (c : Fin 8) (q : PosShare TreeShare) (fI : Buf (Elt F) ((thr d L).loc cc0_scratch0))
    (fr : Buf (Elt F) ((thr d L).loc cc0_scratch4)) (fi : Buf (Elt F) ((thr d L).loc cc0_scratch6)) (n : ℕ) (hn : n = 64) (a : PUnit) :
    fireInv1 m d L c q fI fr fi n a
      ⊢ iprop(((b0).view.loc (thr d L) ↦{fullShare} fI) ∗ batches1 m d L c q 64 0 ∗ bigSep Finset.univ (remOf m d L c q)) := by
  subst hn; cases a; exact fire_exit1 m d L c q fI fr fi
theorem drain_exit1' (c : Fin 8) (q : PosShare TreeShare) (O : CellTallies nD τ sig (HIx 1)) (W : Waits sig (HIx 1)) (n : ℕ) (hn : n = 64) (a : PUnit) :
    drainInv1 m d L c q O W n a
      ⊢ iprop((∃ W', ⌜∀ p ∈ W', p ∈ W ∨ p.2 = none⌝ ∗ owes (thr d L) O W') ∗ bigSep Finset.univ (DR1 m d L c q) ∗ bigSep Finset.univ (DI1 m d L c q)
          ∗ semVal (thr d L, SemLoc.dma cc0_scratch12.sem) 0 ∗ semVal (thr d L, SemLoc.dma cc0_scratch14.sem) 0) := by
  subst hn; cases a; exact drain_exit1 m d L c q O W
theorem compute_exit1' (c : Fin 8) (n : ℕ) (hn : n = 64) (a : PUnit) :
    computeInv1 m d L c n a
      ⊢ iprop(((b2).view.loc (thr d L) ↦{fullShare} embChunk m d L c) ∗ ((b4).view.loc (thr d L) ↦{fullShare} gathered m d L (m (rLoc d)) c)
          ∗ ((b6).view.loc (thr d L) ↦{fullShare} gathered m d L (m (gLoc d)) c) ∗ ((b8).view.loc (thr d L) ↦{fullShare} outChunk m d L c)) := by
  subst hn; cases a; exact compute_exit1 m d L c

/-- A result chunk left as one listed write covering the slice over any prior contents: on the chunk it holds the
    specification's function (the prior contents lie outside what the points-to speaks of). -/
theorem out_landed7W (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b7).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) g [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view g [] pay
  exact (congrArg (fun g => (oLoc d ↦[((oW).slice (Rect.unit (s := S16384x128) off S64x128.size inb) (fun _ => rfl)).view.set]{fullShare} g : sProp 𝕄)) e.symm).trans
    (out_landed7 m d L k g hoff inb pay hpay)

/-- A result chunk left as one listed write covering the slice over any prior contents: on the chunk it holds the
    specification's function (the prior contents lie outside what the points-to speaks of). -/
theorem out_landed8W (k : Fin 8) (g : Buf (Elt F) (oLoc d)) {off : Fin 2 → Nat} (hoff : off = ![R0 L + 64 * k.val, 0])
    (inb : ∀ a, off a + S64x128.size a ≤ S16384x128.size a) (pay : S64x128.Idx → F .f32)
    (hpay : pay = (b8).view.read (Elt F) (outChunk m d L k)) :
    (oLoc d ↦[((oW).slice (Rect.unit (s := S16384x128) off S64x128.size inb) (fun _ => rfl)).view.set]{fullShare}
        ((oW).slice (Rect.unit (s := S16384x128) off S64x128.size inb) (fun _ => rfl)).view.writes (Elt F) g [⟨Rect.whole (Rect.unit (s := S16384x128) off S64x128.size inb).shape, pay⟩] : sProp 𝕄)
      = (oLoc d ↦[chunkSet (cL L) (sL L) k]{fullShare} Gm m d) := by
  have e := View.write_univ_eq_writes_whole (Val := Elt F) ((oW).slice (Rect.unit (s := S16384x128) off S64x128.size inb) (fun _ => rfl)).view g [] pay
  exact (congrArg (fun g => (oLoc d ↦[((oW).slice (Rect.unit (s := S16384x128) off S64x128.size inb) (fun _ => rfl)).view.set]{fullShare} g : sProp 𝕄)) e.symm).trans
    (out_landed8 m d L k g hoff inb pay hpay)

/-! Every loop of the body has 64 trips. -/
theorem trips_t1 : Scf.trips k0_t1_loop.lb k0_t1_loop.ub k0_t1_loop.st = 64 := by decide +kernel
theorem trips_t2 : Scf.trips k0_t2_loop.lb k0_t2_loop.ub k0_t2_loop.st = 64 := by decide +kernel
theorem trips_t3 : Scf.trips k0_t3_loop.lb k0_t3_loop.ub k0_t3_loop.st = 64 := by decide +kernel
theorem trips_t4 : Scf.trips k0_t4_loop.lb k0_t4_loop.ub k0_t4_loop.st = 64 := by decide +kernel
theorem trips_t5 : Scf.trips k0_t5_loop.lb k0_t5_loop.ub k0_t5_loop.st = 64 := by decide +kernel
theorem trips_t6 : Scf.trips k0_t6_loop.lb k0_t6_loop.ub k0_t6_loop.st = 64 := by decide +kernel
theorem trips_t7 : Scf.trips k0_t7_loop.lb k0_t7_loop.ub k0_t7_loop.st = 64 := by decide +kernel
theorem trips_t8 : Scf.trips k0_t8_loop.lb k0_t8_loop.ub k0_t8_loop.st = 64 := by decide +kernel
theorem trips_t9 : Scf.trips k0_t9_loop.lb k0_t9_loop.ub k0_t9_loop.st = 64 := by decide +kernel
theorem trips_t10 : Scf.trips k0_t10_loop.lb k0_t10_loop.ub k0_t10_loop.st = 64 := by decide +kernel
theorem trips_t11 : Scf.trips k0_t11_loop.lb k0_t11_loop.ub k0_t11_loop.st = 64 := by decide +kernel
theorem trips_t12 : Scf.trips k0_t12_loop.lb k0_t12_loop.ub k0_t12_loop.st = 64 := by decide +kernel
theorem trips_t13 : Scf.trips k0_t13_loop.lb k0_t13_loop.ub k0_t13_loop.st = 64 := by decide +kernel
theorem trips_t14 : Scf.trips k0_t14_loop.lb k0_t14_loop.ub k0_t14_loop.st = 64 := by decide +kernel
theorem trips_t15 : Scf.trips k0_t15_loop.lb k0_t15_loop.ub k0_t15_loop.st = 64 := by decide +kernel
theorem trips_t16 : Scf.trips k0_t16_loop.lb k0_t16_loop.ub k0_t16_loop.st = 64 := by decide +kernel
theorem trips_t17 : Scf.trips k0_t17_loop.lb k0_t17_loop.ub k0_t17_loop.st = 64 := by decide +kernel
theorem trips_t18 : Scf.trips k0_t18_loop.lb k0_t18_loop.ub k0_t18_loop.st = 64 := by decide +kernel
theorem trips_t19 : Scf.trips k0_t19_loop.lb k0_t19_loop.ub k0_t19_loop.st = 64 := by decide +kernel
theorem trips_t20 : Scf.trips k0_t20_loop.lb k0_t20_loop.ub k0_t20_loop.st = 64 := by decide +kernel
theorem trips_t21 : Scf.trips k0_t21_loop.lb k0_t21_loop.ub k0_t21_loop.st = 64 := by decide +kernel
theorem trips_t22 : Scf.trips k0_t22_loop.lb k0_t22_loop.ub k0_t22_loop.st = 64 := by decide +kernel
theorem trips_t23 : Scf.trips k0_t23_loop.lb k0_t23_loop.ub k0_t23_loop.st = 64 := by decide +kernel
theorem trips_t24 : Scf.trips k0_t24_loop.lb k0_t24_loop.ub k0_t24_loop.st = 64 := by decide +kernel

end Cert.Proof.KB

end
-- ==== Proof.KB.FireLemmas.lean ====
/-
  Facts about one row copy of a chunk's gathers: the row of the scratch and the row of the table as the program
  slices them are the rows the batch's deliveries speak of, and what the copy delivers — the scratch row rewritten
  with the table row read — is the delivery stated for it: on that row the rewritten contents are the gathered
  function (entry (t, k) is the table at (the row the t-th batch row names, k)).
-/
import proofs.«204629_g89326729822651_cont_sun_m_635_33_alg».proof.Proof.KB.Invs
import Idealize.ShloMosaic.Lib.Pipeline.Value
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

/-- A rule applied by hand leaves its continuation applied to the returned value. -/
theorem ret_bind' {E : Type → Type} {α β : Type} (a : α) (k : α → Prog E β) : (Prog.ret a).bind k = k a := rfl

theorem set_row_b3 (t : Fin 64) {off : Fin 2 → Nat} (h : off = ![t.val, 0]) (inb : ∀ a, off a + S1x64.size a ≤ S64x64.size a) :
    ((b3).slice (Rect.unit (s := S64x64) off S1x64.size inb) (fun _ => rfl)).view.set = rowSet t := by
  subst h; rfl

theorem set_row_b4 (t : Fin 64) {off : Fin 2 → Nat} (h : off = ![t.val, 0]) (inb : ∀ a, off a + S1x64.size a ≤ S64x64.size a) :
    ((b4).slice (Rect.unit (s := S64x64) off S1x64.size inb) (fun _ => rfl)).view.set = rowSet t := by
  subst h; rfl

theorem set_row_b5 (t : Fin 64) {off : Fin 2 → Nat} (h : off = ![t.val, 0]) (inb : ∀ a, off a + S1x64.size a ≤ S64x64.size a) :
    ((b5).slice (Rect.unit (s := S64x64) off S1x64.size inb) (fun _ => rfl)).view.set = rowSet t := by
  subst h; rfl

theorem set_row_b6 (t : Fin 64) {off : Fin 2 → Nat} (h : off = ![t.val, 0]) (inb : ∀ a, off a + S1x64.size a ≤ S64x64.size a) :
    ((b6).slice (Rect.unit (s := S64x64) off S1x64.size inb) (fun _ => rfl)).view.set = rowSet t := by
  subst h; rfl

theorem set_trow_r (r : Fin 1000000) {off : Fin 2 → Nat} (h : off = ![r.val, 0]) (inb : ∀ a, off a + S1x64.size a ≤ S1000000x64.size a) :
    ((rW).slice (Rect.unit (s := S1000000x64) off S1x64.size inb) (fun _ => rfl)).view.set = trowSet r := by
  subst h; rfl

theorem set_trow_g (r : Fin 1000000) {off : Fin 2 → Nat} (h : off = ![r.val, 0]) (inb : ∀ a, off a + S1x64.size a ≤ S1000000x64.size a) :
    ((gW).slice (Rect.unit (s := S1000000x64) off S1x64.size inb) (fun _ => rfl)).view.set = trowSet r := by
  subst h; rfl

theorem deliv_R0 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch3)) :
    iprop(((((b3).slice (Rect.unit (s := S64x64) offD S1x64.size inbD) (fun _ => rfl)).view.loc (thr d L))
            ↦[((b3).slice (Rect.unit (s := S64x64) offD S1x64.size inbD) (fun _ => rfl)).view.set]{fullShare}
              (((b3).slice (Rect.unit (s := S64x64) offD S1x64.size inbD) (fun _ => rfl)).view.write (Elt F) fd
                (ReadAs.same.apply (((rW).slice (Rect.unit (s := S1000000x64) offS S1x64.size inbS) (fun _ => rfl)).view.read (Elt F) (m (rLoc d)))) Finset.univ))
        ∗ ((((rW).slice (Rect.unit (s := S1000000x64) offS S1x64.size inbS) (fun _ => rfl)).view.loc (thr d L))
            ↦[((rW).slice (Rect.unit (s := S1000000x64) offS S1x64.size inbS) (fun _ => rfl)).view.set]{lq q t} m (rLoc d)))
      ⊢ DR0 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DR0
  rw [set_row_b3 t hoffD inbD, set_trow_r (tRowOf m d L (posOf c t)) hoffS' inbS]
  subst hoffD
  have h : ∀ i ∈ rowSet t,
      (View.write (Elt F) ((b3).slice (Rect.unit (s := S64x64) ![t.val, 0] S1x64.size inbD) (fun _ => rfl)).view fd
        (ReadAs.same.apply (View.read (Elt F) ((rW).slice (Rect.unit (s := S1000000x64) offS S1x64.size inbS) (fun _ => rfl)).view (m (rLoc d)))) Finset.univ) i
        = gathered m d L (m (rLoc d)) c i := by
    intro i hi
    obtain ⟨y, rfl⟩ := View.exists_emb_of_mem_set ((b3).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (rLoc d)) _ = (m (rLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_I0 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch5)) :
    iprop(((((b5).slice (Rect.unit (s := S64x64) offD S1x64.size inbD) (fun _ => rfl)).view.loc (thr d L))
            ↦[((b5).slice (Rect.unit (s := S64x64) offD S1x64.size inbD) (fun _ => rfl)).view.set]{fullShare}
              (((b5).slice (Rect.unit (s := S64x64) offD S1x64.size inbD) (fun _ => rfl)).view.write (Elt F) fd
                (ReadAs.same.apply (((gW).slice (Rect.unit (s := S1000000x64) offS S1x64.size inbS) (fun _ => rfl)).view.read (Elt F) (m (gLoc d)))) Finset.univ))
        ∗ ((((gW).slice (Rect.unit (s := S1000000x64) offS S1x64.size inbS) (fun _ => rfl)).view.loc (thr d L))
            ↦[((gW).slice (Rect.unit (s := S1000000x64) offS S1x64.size inbS) (fun _ => rfl)).view.set]{lq q t} m (gLoc d)))
      ⊢ DI0 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DI0
  rw [set_row_b5 t hoffD inbD, set_trow_g (tRowOf m d L (posOf c t)) hoffS' inbS]
  subst hoffD
  have h : ∀ i ∈ rowSet t,
      (View.write (Elt F) ((b5).slice (Rect.unit (s := S64x64) ![t.val, 0] S1x64.size inbD) (fun _ => rfl)).view fd
        (ReadAs.same.apply (View.read (Elt F) ((gW).slice (Rect.unit (s := S1000000x64) offS S1x64.size inbS) (fun _ => rfl)).view (m (gLoc d)))) Finset.univ) i
        = gathered m d L (m (gLoc d)) c i := by
    intro i hi
    obtain ⟨y, rfl⟩ := View.exists_emb_of_mem_set ((b5).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (gLoc d)) _ = (m (gLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_R1 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch4)) :
    iprop(((((b4).slice (Rect.unit (s := S64x64) offD S1x64.size inbD) (fun _ => rfl)).view.loc (thr d L))
            ↦[((b4).slice (Rect.unit (s := S64x64) offD S1x64.size inbD) (fun _ => rfl)).view.set]{fullShare}
              (((b4).slice (Rect.unit (s := S64x64) offD S1x64.size inbD) (fun _ => rfl)).view.write (Elt F) fd
                (ReadAs.same.apply (((rW).slice (Rect.unit (s := S1000000x64) offS S1x64.size inbS) (fun _ => rfl)).view.read (Elt F) (m (rLoc d)))) Finset.univ))
        ∗ ((((rW).slice (Rect.unit (s := S1000000x64) offS S1x64.size inbS) (fun _ => rfl)).view.loc (thr d L))
            ↦[((rW).slice (Rect.unit (s := S1000000x64) offS S1x64.size inbS) (fun _ => rfl)).view.set]{lq q t} m (rLoc d)))
      ⊢ DR1 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DR1
  rw [set_row_b4 t hoffD inbD, set_trow_r (tRowOf m d L (posOf c t)) hoffS' inbS]
  subst hoffD
  have h : ∀ i ∈ rowSet t,
      (View.write (Elt F) ((b4).slice (Rect.unit (s := S64x64) ![t.val, 0] S1x64.size inbD) (fun _ => rfl)).view fd
        (ReadAs.same.apply (View.read (Elt F) ((rW).slice (Rect.unit (s := S1000000x64) offS S1x64.size inbS) (fun _ => rfl)).view (m (rLoc d)))) Finset.univ) i
        = gathered m d L (m (rLoc d)) c i := by
    intro i hi
    obtain ⟨y, rfl⟩ := View.exists_emb_of_mem_set ((b4).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (rLoc d)) _ = (m (rLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

theorem deliv_I1 (c : Fin 8) (q : PosShare TreeShare) (t : Fin 64) (v : BitVec 32) (hv : v = idxW m d L (posOf c t)) (hlt : v.toNat < 1000000)
    {offD : Fin 2 → Nat} (hoffD : offD = ![t.val, 0]) (inbD : ∀ a, offD a + S1x64.size a ≤ S64x64.size a)
    {offS : Fin 2 → Nat} (hoffS : offS = ![v.toNat, 0]) (inbS : ∀ a, offS a + S1x64.size a ≤ S1000000x64.size a)
    (fd : Buf (Elt F) ((thr d L).loc cc0_scratch6)) :
    iprop(((((b6).slice (Rect.unit (s := S64x64) offD S1x64.size inbD) (fun _ => rfl)).view.loc (thr d L))
            ↦[((b6).slice (Rect.unit (s := S64x64) offD S1x64.size inbD) (fun _ => rfl)).view.set]{fullShare}
              (((b6).slice (Rect.unit (s := S64x64) offD S1x64.size inbD) (fun _ => rfl)).view.write (Elt F) fd
                (ReadAs.same.apply (((gW).slice (Rect.unit (s := S1000000x64) offS S1x64.size inbS) (fun _ => rfl)).view.read (Elt F) (m (gLoc d)))) Finset.univ))
        ∗ ((((gW).slice (Rect.unit (s := S1000000x64) offS S1x64.size inbS) (fun _ => rfl)).view.loc (thr d L))
            ↦[((gW).slice (Rect.unit (s := S1000000x64) offS S1x64.size inbS) (fun _ => rfl)).view.set]{lq q t} m (gLoc d)))
      ⊢ DI1 m d L c q t := by
  have hr : (tRowOf m d L (posOf c t)).val = v.toNat := by
    unfold tRowOf; rw [← hv]; exact Cert.Spec.rowOf_val_of_lt hlt
  have hoffS' : offS = ![(tRowOf m d L (posOf c t)).val, 0] := by rw [hr]; exact hoffS
  unfold DI1
  rw [set_row_b6 t hoffD inbD, set_trow_g (tRowOf m d L (posOf c t)) hoffS' inbS]
  subst hoffD
  have h : ∀ i ∈ rowSet t,
      (View.write (Elt F) ((b6).slice (Rect.unit (s := S64x64) ![t.val, 0] S1x64.size inbD) (fun _ => rfl)).view fd
        (ReadAs.same.apply (View.read (Elt F) ((gW).slice (Rect.unit (s := S1000000x64) offS S1x64.size inbS) (fun _ => rfl)).view (m (gLoc d)))) Finset.univ) i
        = gathered m d L (m (gLoc d)) c i := by
    intro i hi
    obtain ⟨y, rfl⟩ := View.exists_emb_of_mem_set ((b6).slice (Rect.unit (s := S64x64) ![t.val, 0] S1x64.size inbD) (fun _ => rfl)).view hi
    rw [View.write_emb_of_mem _ _ (Finset.mem_univ y)]
    subst hoffS'
    have hy0 : (y 0).val = 0 := Nat.lt_one_iff.mp (y 0).isLt
    unfold gathered
    show (m (gLoc d)) _ = (m (gLoc d)) _
    congr 1
    funext a
    apply Fin.ext
    fin_cases a
    · have e : ∀ (n : ℕ) (hn : n < 64), n = t.val → (tRowOf m d L (posOf c ⟨n, hn⟩)).val = (tRowOf m d L (posOf c t)).val := by
        intro n hn e; subst e; rfl
      refine Eq.trans (b := (tRowOf m d L (posOf c t)).val) ?_ ?_
      · show (tRowOf m d L (posOf c t)).val + 1 * (y 0).val = _; omega
      · exact (e _ _ (by show t.val + 1 * (y 0).val = t.val; omega)).symm
    · rfl
  iintro ⟨H1, H2⟩
  isplitl [H1]
  · iapply (Entails.of_eq (pointsTo_congr h)); iexact H1
  · iexact H2

/-- The table row the program slices at the loaded word is the row the batch row names. -/
theorem trow_of_word_r (c : Fin 8) (t : Fin 64) (v : BitVec 32) (hv : v = idxW m d L (posOf c t)) (hlt : v.toNat < 1000000)
    {offS : Fin 2 → Nat} (hoffS : offS = ![v.toNat, 0]) (inbS : ∀ a, offS a + S1x64.size a ≤ S1000000x64.size a) :
    ((rW).slice (Rect.unit (s := S1000000x64) offS S1x64.size inbS) (fun _ => rfl)).view.set = trowSet (tRowOf m d L (posOf c t)) := by
  have hr : (tRowOf m d L (posOf c t)).val = v.toNat := by
    unfold tRowOf; rw [← hv]; exact Cert.Spec.rowOf_val_of_lt hlt
  exact set_trow_r (tRowOf m d L (posOf c t)) (by rw [hr]; exact hoffS) inbS

/-- The table row the program slices at the loaded word is the row the batch row names. -/
theorem trow_of_word_g (c : Fin 8) (t : Fin 64) (v : BitVec 32) (hv : v = idxW m d L (posOf c t)) (hlt : v.toNat < 1000000)
    {offS : Fin 2 → Nat} (hoffS : offS = ![v.toNat, 0]) (inbS : ∀ a, offS a + S1x64.size a ≤ S1000000x64.size a) :
    ((gW).slice (Rect.unit (s := S1000000x64) offS S1x64.size inbS) (fun _ => rfl)).view.set = trowSet (tRowOf m d L (posOf c t)) := by
  have hr : (tRowOf m d L (posOf c t)).val = v.toNat := by
    unfold tRowOf; rw [← hv]; exact Cert.Spec.rowOf_val_of_lt hlt
  exact set_trow_g (tRowOf m d L (posOf c t)) (by rw [hr]; exact hoffS) inbS

/-- A word below a million passes the program's check of the table row it names. -/
theorem chk_of_lt (v : BitVec 32) (hlt : v.toNat < 1000000) : ∀ a, (![v.toNat, 0] : Fin 2 → Nat) a + S1x64.size a ≤ S1000000x64.size a := by
  intro a; fin_cases a
  · show v.toNat + 1 ≤ 1000000; omega
  · show 0 + 64 ≤ 64; omega

end Cert.Proof.KB

end
-- ==== Proof.KB.Fire.lean ====
/-
  The issue loops of the eight chunks, one trip at a symbolic row `k`: the chunk's `k`-th row number is loaded from
  the index scratch, is in range, and names the table row both copies read; each copy is the `k`-th of its batch.
-/
import proofs.«204629_g89326729822651_cont_sun_m_635_33_alg».proof.Proof.KB.FireLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

set_option maxHeartbeats 4000000 in
/-- Trip `k` of chunk 0's issue loop: the word loaded is the chunk's `k`-th row number, in range by the
    precondition; the two row copies are the batches' `k`-th, each delivering what the batch states for it. -/
theorem fire_region_t1 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (k : Fin k0_t1_loop.trips) :
    fireInv0 m d L (⟨0, by decide⟩ : Fin 8) q fI fr fi k.val ()
      ⊢ wp frame (wpE (defs₀ (F := F)) 𝒱₀ (thr d L) none) Set.univ
          (k0_t1_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => fireInv0 m d L (⟨0, by decide⟩ : Fin 8) q fI fr fi (k.val + 1) acc) := by
  have hk : k.val < 64 := lt_of_lt_of_le k.isLt k0_t1_abs.2.1
  unfold k0_t1_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t1.sl.v128 d L fI k = idxW m d L (posOf (⟨0, by decide⟩ : Fin 8) ⟨k.val, hk⟩) := by
    refine Eq.trans ?_ (hI (posOf (⟨0, by decide⟩ : Fin 8) ⟨k.val, hk⟩))
    unfold fire_region_t1.sl.v128 k0_pay187 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off3_eq k
    fin_cases a
    show (k0_off3 k) 0 + 1 * 0 = 64 * 0 + k.val
    rw [h3]; show k.val + 1 * 0 = _; omega
  have hlt : (fire_region_t1.sl.v128 d L fI k).toNat < 1000000 := by
    rw [hv]; exact hpre d _
  have hchk : k0_chk1 (fire_region_t1.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off5 (fire_region_t1.sl.v128 d L fI k)) S1x64.size (k0_off5_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off6 k) S1x64.size (k0_off6_inb k)) (fun _ => rfl)).view.loc (thr d L)
          ↦[((b3).slice (Rect.unit (s := S64x64) (k0_off6 k) S1x64.size (k0_off6_inb k)) (fun _ => rfl)).view.set]{fullShare} fr
      from by rw [set_row_b3 ⟨k.val, hk⟩ (k0_off6_eq k) (k0_off6_inb k)])) $$ Hdr
  sl_exec
  iapply (Transfers.wp_dmaBatch countersEmb 𝒱₀ (thr d L) none
      (src := (rW).slice (Rect.unit (s := S1000000x64) (k0_off5 (fire_region_t1.sl.v128 d L fI k)) S1x64.size (k0_off5_inb _ hchk)) (fun _ => rfl))
      (dst := (b3).slice (Rect.unit (s := S64x64) (k0_off6 k) S1x64.size (k0_off6_inb k)) (fun _ => rfl))
      (default : HIx 1) NR rfl subset_rfl (D := DR0 m d L (⟨0, by decide⟩ : Fin 8) q) (j := k.val) (u := 0) hk (Nat.zero_le _)
      (deliv_R0 m d L (⟨0, by decide⟩ : Fin 8) q ⟨k.val, hk⟩ _ hv hlt (k0_off6_eq k) (k0_off6_inb k) rfl (k0_off5_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off5 (fire_region_t1.sl.v128 d L fI k)) S1x64.size (k0_off5_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off6 k) S1x64.size (k0_off6_inb k)) (fun _ => rfl)).view.loc (thr d L)
          ↦[((b5).slice (Rect.unit (s := S64x64) (k0_off6 k) S1x64.size (k0_off6_inb k)) (fun _ => rfl)).view.set]{fullShare} fi
      from by rw [set_row_b5 ⟨k.val, hk⟩ (k0_off6_eq k) (k0_off6_inb k)])) $$ Hdi
  iapply (Transfers.wp_dmaBatch countersEmb 𝒱₀ (thr d L) none
      (src := (gW).slice (Rect.unit (s := S1000000x64) (k0_off5 (fire_region_t1.sl.v128 d L fI k)) S1x64.size (k0_off5_inb _ hchk)) (fun _ => rfl))
      (dst := (b5).slice (Rect.unit (s := S64x64) (k0_off6 k) S1x64.size (k0_off6_inb k)) (fun _ => rfl))
      (default : HIx 1) NR rfl subset_rfl (D := DI0 m d L (⟨0, by decide⟩ : Fin 8) q) (j := k.val) (u := 0) hk (Nat.zero_le _)
      (deliv_I0 m d L (⟨0, by decide⟩ : Fin 8) q ⟨k.val, hk⟩ _ hv hlt (k0_off6_eq k) (k0_off6_inb k) rfl (k0_off5_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨0, by decide⟩ : Fin 8) q)
      = iprop(remOf m d L (⟨0, by decide⟩ : Fin 8) q ⟨k.val, hk⟩ ∗ bigSep (Transfers.issued (m := 64) k.val) (remOf m d L (⟨0, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨0, by decide⟩ : Fin 8) ⟨k.val, hk⟩ _ hv hlt rfl (k0_off5_inb _ hchk)
    have eG := trow_of_word_g m d L (⟨0, by decide⟩ : Fin 8) ⟨k.val, hk⟩ _ hv hlt rfl (k0_off5_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 1's issue loop: the word loaded is the (64·1 + k)-th, i.e. the chunk's `k`-th row number, in range by the
    precondition; the two row copies are the batches' `k`-th, each delivering what the batch states for it. -/
theorem fire_region_t2 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (k : Fin k0_t2_loop.trips) :
    fireInv1 m d L (⟨1, by decide⟩ : Fin 8) q fI fr fi k.val ()
      ⊢ wp frame (wpE (defs₀ (F := F)) 𝒱₀ (thr d L) none) Set.univ
          (k0_t2_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => fireInv1 m d L (⟨1, by decide⟩ : Fin 8) q fI fr fi (k.val + 1) acc) := by
  have hk : k.val < 64 := lt_of_lt_of_le k.isLt k0_t2_abs.2.1
  unfold k0_t2_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t2.sl.v128 d L fI k = idxW m d L (posOf (⟨1, by decide⟩ : Fin 8) ⟨k.val, hk⟩) := by
    refine Eq.trans ?_ (hI (posOf (⟨1, by decide⟩ : Fin 8) ⟨k.val, hk⟩))
    unfold fire_region_t2.sl.v128 k0_pay188 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off7_eq k
    fin_cases a
    show (k0_off7 k) 0 + 1 * 0 = 64 * 1 + k.val
    rw [h3]; show k.val + 64 + 1 * 0 = _; omega
  have hlt : (fire_region_t2.sl.v128 d L fI k).toNat < 1000000 := by
    rw [hv]; exact hpre d _
  have hchk : k0_chk2 (fire_region_t2.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off9 (fire_region_t2.sl.v128 d L fI k)) S1x64.size (k0_off9_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off10 k) S1x64.size (k0_off10_inb k)) (fun _ => rfl)).view.loc (thr d L)
          ↦[((b4).slice (Rect.unit (s := S64x64) (k0_off10 k) S1x64.size (k0_off10_inb k)) (fun _ => rfl)).view.set]{fullShare} fr
      from by rw [set_row_b4 ⟨k.val, hk⟩ (k0_off10_eq k) (k0_off10_inb k)])) $$ Hdr
  sl_exec
  iapply (Transfers.wp_dmaBatch countersEmb 𝒱₀ (thr d L) none
      (src := (rW).slice (Rect.unit (s := S1000000x64) (k0_off9 (fire_region_t2.sl.v128 d L fI k)) S1x64.size (k0_off9_inb _ hchk)) (fun _ => rfl))
      (dst := (b4).slice (Rect.unit (s := S64x64) (k0_off10 k) S1x64.size (k0_off10_inb k)) (fun _ => rfl))
      (default : HIx 1) NR rfl subset_rfl (D := DR1 m d L (⟨1, by decide⟩ : Fin 8) q) (j := k.val) (u := 0) hk (Nat.zero_le _)
      (deliv_R1 m d L (⟨1, by decide⟩ : Fin 8) q ⟨k.val, hk⟩ _ hv hlt (k0_off10_eq k) (k0_off10_inb k) rfl (k0_off9_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off9 (fire_region_t2.sl.v128 d L fI k)) S1x64.size (k0_off9_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off10 k) S1x64.size (k0_off10_inb k)) (fun _ => rfl)).view.loc (thr d L)
          ↦[((b6).slice (Rect.unit (s := S64x64) (k0_off10 k) S1x64.size (k0_off10_inb k)) (fun _ => rfl)).view.set]{fullShare} fi
      from by rw [set_row_b6 ⟨k.val, hk⟩ (k0_off10_eq k) (k0_off10_inb k)])) $$ Hdi
  iapply (Transfers.wp_dmaBatch countersEmb 𝒱₀ (thr d L) none
      (src := (gW).slice (Rect.unit (s := S1000000x64) (k0_off9 (fire_region_t2.sl.v128 d L fI k)) S1x64.size (k0_off9_inb _ hchk)) (fun _ => rfl))
      (dst := (b6).slice (Rect.unit (s := S64x64) (k0_off10 k) S1x64.size (k0_off10_inb k)) (fun _ => rfl))
      (default : HIx 1) NR rfl subset_rfl (D := DI1 m d L (⟨1, by decide⟩ : Fin 8) q) (j := k.val) (u := 0) hk (Nat.zero_le _)
      (deliv_I1 m d L (⟨1, by decide⟩ : Fin 8) q ⟨k.val, hk⟩ _ hv hlt (k0_off10_eq k) (k0_off10_inb k) rfl (k0_off9_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨1, by decide⟩ : Fin 8) q)
      = iprop(remOf m d L (⟨1, by decide⟩ : Fin 8) q ⟨k.val, hk⟩ ∗ bigSep (Transfers.issued (m := 64) k.val) (remOf m d L (⟨1, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨1, by decide⟩ : Fin 8) ⟨k.val, hk⟩ _ hv hlt rfl (k0_off9_inb _ hchk)
    have eG := trow_of_word_g m d L (⟨1, by decide⟩ : Fin 8) ⟨k.val, hk⟩ _ hv hlt rfl (k0_off9_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 2's issue loop: the word loaded is the (64·2 + k)-th, i.e. the chunk's `k`-th row number, in range by the
    precondition; the two row copies are the batches' `k`-th, each delivering what the batch states for it. -/
theorem fire_region_t5 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (c0_i32_18 : BitVec 32) (k : Fin k0_t5_loop.trips) :
    fireInv0 m d L (⟨2, by decide⟩ : Fin 8) q fI fr fi k.val ()
      ⊢ wp frame (wpE (defs₀ (F := F)) 𝒱₀ (thr d L) none) Set.univ
          (k0_t5_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => fireInv0 m d L (⟨2, by decide⟩ : Fin 8) q fI fr fi (k.val + 1) acc) := by
  have hk : k.val < 64 := lt_of_lt_of_le k.isLt k0_t5_abs.2.1
  unfold k0_t5_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t5.sl.v128 d L fI k = idxW m d L (posOf (⟨2, by decide⟩ : Fin 8) ⟨k.val, hk⟩) := by
    refine Eq.trans ?_ (hI (posOf (⟨2, by decide⟩ : Fin 8) ⟨k.val, hk⟩))
    unfold fire_region_t5.sl.v128 k0_pay191 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off24_eq k
    fin_cases a
    show (k0_off24 k) 0 + 1 * 0 = 64 * 2 + k.val
    rw [h3]; show k.val + 128 + 1 * 0 = _; omega
  have hlt : (fire_region_t5.sl.v128 d L fI k).toNat < 1000000 := by
    rw [hv]; exact hpre d _
  have hchk : k0_chk3 (fire_region_t5.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off26 (fire_region_t5.sl.v128 d L fI k)) S1x64.size (k0_off26_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off27 k) S1x64.size (k0_off27_inb k)) (fun _ => rfl)).view.loc (thr d L)
          ↦[((b3).slice (Rect.unit (s := S64x64) (k0_off27 k) S1x64.size (k0_off27_inb k)) (fun _ => rfl)).view.set]{fullShare} fr
      from by rw [set_row_b3 ⟨k.val, hk⟩ (k0_off27_eq k) (k0_off27_inb k)])) $$ Hdr
  sl_exec
  iapply (Transfers.wp_dmaBatch countersEmb 𝒱₀ (thr d L) none
      (src := (rW).slice (Rect.unit (s := S1000000x64) (k0_off26 (fire_region_t5.sl.v128 d L fI k)) S1x64.size (k0_off26_inb _ hchk)) (fun _ => rfl))
      (dst := (b3).slice (Rect.unit (s := S64x64) (k0_off27 k) S1x64.size (k0_off27_inb k)) (fun _ => rfl))
      (default : HIx 1) NR rfl subset_rfl (D := DR0 m d L (⟨2, by decide⟩ : Fin 8) q) (j := k.val) (u := 0) hk (Nat.zero_le _)
      (deliv_R0 m d L (⟨2, by decide⟩ : Fin 8) q ⟨k.val, hk⟩ _ hv hlt (k0_off27_eq k) (k0_off27_inb k) rfl (k0_off26_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off26 (fire_region_t5.sl.v128 d L fI k)) S1x64.size (k0_off26_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off27 k) S1x64.size (k0_off27_inb k)) (fun _ => rfl)).view.loc (thr d L)
          ↦[((b5).slice (Rect.unit (s := S64x64) (k0_off27 k) S1x64.size (k0_off27_inb k)) (fun _ => rfl)).view.set]{fullShare} fi
      from by rw [set_row_b5 ⟨k.val, hk⟩ (k0_off27_eq k) (k0_off27_inb k)])) $$ Hdi
  iapply (Transfers.wp_dmaBatch countersEmb 𝒱₀ (thr d L) none
      (src := (gW).slice (Rect.unit (s := S1000000x64) (k0_off26 (fire_region_t5.sl.v128 d L fI k)) S1x64.size (k0_off26_inb _ hchk)) (fun _ => rfl))
      (dst := (b5).slice (Rect.unit (s := S64x64) (k0_off27 k) S1x64.size (k0_off27_inb k)) (fun _ => rfl))
      (default : HIx 1) NR rfl subset_rfl (D := DI0 m d L (⟨2, by decide⟩ : Fin 8) q) (j := k.val) (u := 0) hk (Nat.zero_le _)
      (deliv_I0 m d L (⟨2, by decide⟩ : Fin 8) q ⟨k.val, hk⟩ _ hv hlt (k0_off27_eq k) (k0_off27_inb k) rfl (k0_off26_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨2, by decide⟩ : Fin 8) q)
      = iprop(remOf m d L (⟨2, by decide⟩ : Fin 8) q ⟨k.val, hk⟩ ∗ bigSep (Transfers.issued (m := 64) k.val) (remOf m d L (⟨2, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨2, by decide⟩ : Fin 8) ⟨k.val, hk⟩ _ hv hlt rfl (k0_off26_inb _ hchk)
    have eG := trow_of_word_g m d L (⟨2, by decide⟩ : Fin 8) ⟨k.val, hk⟩ _ hv hlt rfl (k0_off26_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 3's issue loop: the word loaded is the (64·3 + k)-th, i.e. the chunk's `k`-th row number, in range by the
    precondition; the two row copies are the batches' `k`-th, each delivering what the batch states for it. -/
theorem fire_region_t8 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t8_loop.trips) :
    fireInv1 m d L (⟨3, by decide⟩ : Fin 8) q fI fr fi k.val ()
      ⊢ wp frame (wpE (defs₀ (F := F)) 𝒱₀ (thr d L) none) Set.univ
          (k0_t8_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨3, by decide⟩ : Fin 8) q fI fr fi (k.val + 1) acc) := by
  have hk : k.val < 64 := lt_of_lt_of_le k.isLt k0_t8_abs.2.1
  unfold k0_t8_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t8.sl.v128 d L fI k = idxW m d L (posOf (⟨3, by decide⟩ : Fin 8) ⟨k.val, hk⟩) := by
    refine Eq.trans ?_ (hI (posOf (⟨3, by decide⟩ : Fin 8) ⟨k.val, hk⟩))
    unfold fire_region_t8.sl.v128 k0_pay194 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off41_eq k
    fin_cases a
    show (k0_off41 k) 0 + 1 * 0 = 64 * 3 + k.val
    rw [h3]; show k.val + 192 + 1 * 0 = _; omega
  have hlt : (fire_region_t8.sl.v128 d L fI k).toNat < 1000000 := by
    rw [hv]; exact hpre d _
  have hchk : k0_chk4 (fire_region_t8.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off43 (fire_region_t8.sl.v128 d L fI k)) S1x64.size (k0_off43_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off44 k) S1x64.size (k0_off44_inb k)) (fun _ => rfl)).view.loc (thr d L)
          ↦[((b4).slice (Rect.unit (s := S64x64) (k0_off44 k) S1x64.size (k0_off44_inb k)) (fun _ => rfl)).view.set]{fullShare} fr
      from by rw [set_row_b4 ⟨k.val, hk⟩ (k0_off44_eq k) (k0_off44_inb k)])) $$ Hdr
  sl_exec
  iapply (Transfers.wp_dmaBatch countersEmb 𝒱₀ (thr d L) none
      (src := (rW).slice (Rect.unit (s := S1000000x64) (k0_off43 (fire_region_t8.sl.v128 d L fI k)) S1x64.size (k0_off43_inb _ hchk)) (fun _ => rfl))
      (dst := (b4).slice (Rect.unit (s := S64x64) (k0_off44 k) S1x64.size (k0_off44_inb k)) (fun _ => rfl))
      (default : HIx 1) NR rfl subset_rfl (D := DR1 m d L (⟨3, by decide⟩ : Fin 8) q) (j := k.val) (u := 0) hk (Nat.zero_le _)
      (deliv_R1 m d L (⟨3, by decide⟩ : Fin 8) q ⟨k.val, hk⟩ _ hv hlt (k0_off44_eq k) (k0_off44_inb k) rfl (k0_off43_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off43 (fire_region_t8.sl.v128 d L fI k)) S1x64.size (k0_off43_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off44 k) S1x64.size (k0_off44_inb k)) (fun _ => rfl)).view.loc (thr d L)
          ↦[((b6).slice (Rect.unit (s := S64x64) (k0_off44 k) S1x64.size (k0_off44_inb k)) (fun _ => rfl)).view.set]{fullShare} fi
      from by rw [set_row_b6 ⟨k.val, hk⟩ (k0_off44_eq k) (k0_off44_inb k)])) $$ Hdi
  iapply (Transfers.wp_dmaBatch countersEmb 𝒱₀ (thr d L) none
      (src := (gW).slice (Rect.unit (s := S1000000x64) (k0_off43 (fire_region_t8.sl.v128 d L fI k)) S1x64.size (k0_off43_inb _ hchk)) (fun _ => rfl))
      (dst := (b6).slice (Rect.unit (s := S64x64) (k0_off44 k) S1x64.size (k0_off44_inb k)) (fun _ => rfl))
      (default : HIx 1) NR rfl subset_rfl (D := DI1 m d L (⟨3, by decide⟩ : Fin 8) q) (j := k.val) (u := 0) hk (Nat.zero_le _)
      (deliv_I1 m d L (⟨3, by decide⟩ : Fin 8) q ⟨k.val, hk⟩ _ hv hlt (k0_off44_eq k) (k0_off44_inb k) rfl (k0_off43_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨3, by decide⟩ : Fin 8) q)
      = iprop(remOf m d L (⟨3, by decide⟩ : Fin 8) q ⟨k.val, hk⟩ ∗ bigSep (Transfers.issued (m := 64) k.val) (remOf m d L (⟨3, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨3, by decide⟩ : Fin 8) ⟨k.val, hk⟩ _ hv hlt rfl (k0_off43_inb _ hchk)
    have eG := trow_of_word_g m d L (⟨3, by decide⟩ : Fin 8) ⟨k.val, hk⟩ _ hv hlt rfl (k0_off43_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 4's issue loop: the word loaded is the (64·4 + k)-th, i.e. the chunk's `k`-th row number, in range by the
    precondition; the two row copies are the batches' `k`-th, each delivering what the batch states for it. -/
theorem fire_region_t11 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (k : Fin k0_t11_loop.trips) :
    fireInv0 m d L (⟨4, by decide⟩ : Fin 8) q fI fr fi k.val ()
      ⊢ wp frame (wpE (defs₀ (F := F)) 𝒱₀ (thr d L) none) Set.univ
          (k0_t11_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv0 m d L (⟨4, by decide⟩ : Fin 8) q fI fr fi (k.val + 1) acc) := by
  have hk : k.val < 64 := lt_of_lt_of_le k.isLt k0_t11_abs.2.1
  unfold k0_t11_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t11.sl.v128 d L fI k = idxW m d L (posOf (⟨4, by decide⟩ : Fin 8) ⟨k.val, hk⟩) := by
    refine Eq.trans ?_ (hI (posOf (⟨4, by decide⟩ : Fin 8) ⟨k.val, hk⟩))
    unfold fire_region_t11.sl.v128 k0_pay197 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off58_eq k
    fin_cases a
    show (k0_off58 k) 0 + 1 * 0 = 64 * 4 + k.val
    rw [h3]; show k.val + 256 + 1 * 0 = _; omega
  have hlt : (fire_region_t11.sl.v128 d L fI k).toNat < 1000000 := by
    rw [hv]; exact hpre d _
  have hchk : k0_chk5 (fire_region_t11.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off60 (fire_region_t11.sl.v128 d L fI k)) S1x64.size (k0_off60_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off61 k) S1x64.size (k0_off61_inb k)) (fun _ => rfl)).view.loc (thr d L)
          ↦[((b3).slice (Rect.unit (s := S64x64) (k0_off61 k) S1x64.size (k0_off61_inb k)) (fun _ => rfl)).view.set]{fullShare} fr
      from by rw [set_row_b3 ⟨k.val, hk⟩ (k0_off61_eq k) (k0_off61_inb k)])) $$ Hdr
  sl_exec
  iapply (Transfers.wp_dmaBatch countersEmb 𝒱₀ (thr d L) none
      (src := (rW).slice (Rect.unit (s := S1000000x64) (k0_off60 (fire_region_t11.sl.v128 d L fI k)) S1x64.size (k0_off60_inb _ hchk)) (fun _ => rfl))
      (dst := (b3).slice (Rect.unit (s := S64x64) (k0_off61 k) S1x64.size (k0_off61_inb k)) (fun _ => rfl))
      (default : HIx 1) NR rfl subset_rfl (D := DR0 m d L (⟨4, by decide⟩ : Fin 8) q) (j := k.val) (u := 0) hk (Nat.zero_le _)
      (deliv_R0 m d L (⟨4, by decide⟩ : Fin 8) q ⟨k.val, hk⟩ _ hv hlt (k0_off61_eq k) (k0_off61_inb k) rfl (k0_off60_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off60 (fire_region_t11.sl.v128 d L fI k)) S1x64.size (k0_off60_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off61 k) S1x64.size (k0_off61_inb k)) (fun _ => rfl)).view.loc (thr d L)
          ↦[((b5).slice (Rect.unit (s := S64x64) (k0_off61 k) S1x64.size (k0_off61_inb k)) (fun _ => rfl)).view.set]{fullShare} fi
      from by rw [set_row_b5 ⟨k.val, hk⟩ (k0_off61_eq k) (k0_off61_inb k)])) $$ Hdi
  iapply (Transfers.wp_dmaBatch countersEmb 𝒱₀ (thr d L) none
      (src := (gW).slice (Rect.unit (s := S1000000x64) (k0_off60 (fire_region_t11.sl.v128 d L fI k)) S1x64.size (k0_off60_inb _ hchk)) (fun _ => rfl))
      (dst := (b5).slice (Rect.unit (s := S64x64) (k0_off61 k) S1x64.size (k0_off61_inb k)) (fun _ => rfl))
      (default : HIx 1) NR rfl subset_rfl (D := DI0 m d L (⟨4, by decide⟩ : Fin 8) q) (j := k.val) (u := 0) hk (Nat.zero_le _)
      (deliv_I0 m d L (⟨4, by decide⟩ : Fin 8) q ⟨k.val, hk⟩ _ hv hlt (k0_off61_eq k) (k0_off61_inb k) rfl (k0_off60_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨4, by decide⟩ : Fin 8) q)
      = iprop(remOf m d L (⟨4, by decide⟩ : Fin 8) q ⟨k.val, hk⟩ ∗ bigSep (Transfers.issued (m := 64) k.val) (remOf m d L (⟨4, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨4, by decide⟩ : Fin 8) ⟨k.val, hk⟩ _ hv hlt rfl (k0_off60_inb _ hchk)
    have eG := trow_of_word_g m d L (⟨4, by decide⟩ : Fin 8) ⟨k.val, hk⟩ _ hv hlt rfl (k0_off60_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 5's issue loop: the word loaded is the (64·5 + k)-th, i.e. the chunk's `k`-th row number, in range by the
    precondition; the two row copies are the batches' `k`-th, each delivering what the batch states for it. -/
theorem fire_region_t14 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t14_loop.trips) :
    fireInv1 m d L (⟨5, by decide⟩ : Fin 8) q fI fr fi k.val ()
      ⊢ wp frame (wpE (defs₀ (F := F)) 𝒱₀ (thr d L) none) Set.univ
          (k0_t14_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨5, by decide⟩ : Fin 8) q fI fr fi (k.val + 1) acc) := by
  have hk : k.val < 64 := lt_of_lt_of_le k.isLt k0_t14_abs.2.1
  unfold k0_t14_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t14.sl.v128 d L fI k = idxW m d L (posOf (⟨5, by decide⟩ : Fin 8) ⟨k.val, hk⟩) := by
    refine Eq.trans ?_ (hI (posOf (⟨5, by decide⟩ : Fin 8) ⟨k.val, hk⟩))
    unfold fire_region_t14.sl.v128 k0_pay200 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off75_eq k
    fin_cases a
    show (k0_off75 k) 0 + 1 * 0 = 64 * 5 + k.val
    rw [h3]; show k.val + 320 + 1 * 0 = _; omega
  have hlt : (fire_region_t14.sl.v128 d L fI k).toNat < 1000000 := by
    rw [hv]; exact hpre d _
  have hchk : k0_chk6 (fire_region_t14.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off77 (fire_region_t14.sl.v128 d L fI k)) S1x64.size (k0_off77_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off78 k) S1x64.size (k0_off78_inb k)) (fun _ => rfl)).view.loc (thr d L)
          ↦[((b4).slice (Rect.unit (s := S64x64) (k0_off78 k) S1x64.size (k0_off78_inb k)) (fun _ => rfl)).view.set]{fullShare} fr
      from by rw [set_row_b4 ⟨k.val, hk⟩ (k0_off78_eq k) (k0_off78_inb k)])) $$ Hdr
  sl_exec
  iapply (Transfers.wp_dmaBatch countersEmb 𝒱₀ (thr d L) none
      (src := (rW).slice (Rect.unit (s := S1000000x64) (k0_off77 (fire_region_t14.sl.v128 d L fI k)) S1x64.size (k0_off77_inb _ hchk)) (fun _ => rfl))
      (dst := (b4).slice (Rect.unit (s := S64x64) (k0_off78 k) S1x64.size (k0_off78_inb k)) (fun _ => rfl))
      (default : HIx 1) NR rfl subset_rfl (D := DR1 m d L (⟨5, by decide⟩ : Fin 8) q) (j := k.val) (u := 0) hk (Nat.zero_le _)
      (deliv_R1 m d L (⟨5, by decide⟩ : Fin 8) q ⟨k.val, hk⟩ _ hv hlt (k0_off78_eq k) (k0_off78_inb k) rfl (k0_off77_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off77 (fire_region_t14.sl.v128 d L fI k)) S1x64.size (k0_off77_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off78 k) S1x64.size (k0_off78_inb k)) (fun _ => rfl)).view.loc (thr d L)
          ↦[((b6).slice (Rect.unit (s := S64x64) (k0_off78 k) S1x64.size (k0_off78_inb k)) (fun _ => rfl)).view.set]{fullShare} fi
      from by rw [set_row_b6 ⟨k.val, hk⟩ (k0_off78_eq k) (k0_off78_inb k)])) $$ Hdi
  iapply (Transfers.wp_dmaBatch countersEmb 𝒱₀ (thr d L) none
      (src := (gW).slice (Rect.unit (s := S1000000x64) (k0_off77 (fire_region_t14.sl.v128 d L fI k)) S1x64.size (k0_off77_inb _ hchk)) (fun _ => rfl))
      (dst := (b6).slice (Rect.unit (s := S64x64) (k0_off78 k) S1x64.size (k0_off78_inb k)) (fun _ => rfl))
      (default : HIx 1) NR rfl subset_rfl (D := DI1 m d L (⟨5, by decide⟩ : Fin 8) q) (j := k.val) (u := 0) hk (Nat.zero_le _)
      (deliv_I1 m d L (⟨5, by decide⟩ : Fin 8) q ⟨k.val, hk⟩ _ hv hlt (k0_off78_eq k) (k0_off78_inb k) rfl (k0_off77_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨5, by decide⟩ : Fin 8) q)
      = iprop(remOf m d L (⟨5, by decide⟩ : Fin 8) q ⟨k.val, hk⟩ ∗ bigSep (Transfers.issued (m := 64) k.val) (remOf m d L (⟨5, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨5, by decide⟩ : Fin 8) ⟨k.val, hk⟩ _ hv hlt rfl (k0_off77_inb _ hchk)
    have eG := trow_of_word_g m d L (⟨5, by decide⟩ : Fin 8) ⟨k.val, hk⟩ _ hv hlt rfl (k0_off77_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 6's issue loop: the word loaded is the (64·6 + k)-th, i.e. the chunk's `k`-th row number, in range by the
    precondition; the two row copies are the batches' `k`-th, each delivering what the batch states for it. -/
theorem fire_region_t17 (hpre : PreOK m) (q : PosShare TreeShare) (fI : Buf (Elt F) ((thr d L).loc cc0_scratch0)) (hI : IdxHolds m d L fI)
    (fr : Buf (Elt F) ((thr d L).loc cc0_scratch3)) (fi : Buf (Elt F) ((thr d L).loc cc0_scratch5)) (v1 : BitVec 32) (k : Fin k0_t17_loop.trips) :
    fireInv0 m d L (⟨6, by decide⟩ : Fin 8) q fI fr fi k.val ()
      ⊢ wp frame (wpE (defs₀ (F := F)) 𝒱₀ (thr d L) none) Set.univ
          (k0_t17_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv0 m d L (⟨6, by decide⟩ : Fin 8) q fI fr fi (k.val + 1) acc) := by
  have hk : k.val < 64 := lt_of_lt_of_le k.isLt k0_t17_abs.2.1
  unfold k0_t17_body
  unfold fireInv0
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t17.sl.v128 d L fI k = idxW m d L (posOf (⟨6, by decide⟩ : Fin 8) ⟨k.val, hk⟩) := by
    refine Eq.trans ?_ (hI (posOf (⟨6, by decide⟩ : Fin 8) ⟨k.val, hk⟩))
    unfold fire_region_t17.sl.v128 k0_pay203 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off92_eq k
    fin_cases a
    show (k0_off92 k) 0 + 1 * 0 = 64 * 6 + k.val
    rw [h3]; show k.val + 384 + 1 * 0 = _; omega
  have hlt : (fire_region_t17.sl.v128 d L fI k).toNat < 1000000 := by
    rw [hv]; exact hpre d _
  have hchk : k0_chk7 (fire_region_t17.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off94 (fire_region_t17.sl.v128 d L fI k)) S1x64.size (k0_off94_inb _ hchk)) (fun _ => rfl)).view.set)).1 $$ Hr
  icases Hr2 with ⟨Hrs, Hrr⟩
  ihave Hdr' := (Entails.of_eq (show ((thr d L).loc cc0_scratch3 ↦[rowSet ⟨k.val, hk⟩]{fullShare} fr : sProp 𝕄)
      = ((b3).slice (Rect.unit (s := S64x64) (k0_off95 k) S1x64.size (k0_off95_inb k)) (fun _ => rfl)).view.loc (thr d L)
          ↦[((b3).slice (Rect.unit (s := S64x64) (k0_off95 k) S1x64.size (k0_off95_inb k)) (fun _ => rfl)).view.set]{fullShare} fr
      from by rw [set_row_b3 ⟨k.val, hk⟩ (k0_off95_eq k) (k0_off95_inb k)])) $$ Hdr
  sl_exec
  iapply (Transfers.wp_dmaBatch countersEmb 𝒱₀ (thr d L) none
      (src := (rW).slice (Rect.unit (s := S1000000x64) (k0_off94 (fire_region_t17.sl.v128 d L fI k)) S1x64.size (k0_off94_inb _ hchk)) (fun _ => rfl))
      (dst := (b3).slice (Rect.unit (s := S64x64) (k0_off95 k) S1x64.size (k0_off95_inb k)) (fun _ => rfl))
      (default : HIx 1) NR rfl subset_rfl (D := DR0 m d L (⟨6, by decide⟩ : Fin 8) q) (j := k.val) (u := 0) hk (Nat.zero_le _)
      (deliv_R0 m d L (⟨6, by decide⟩ : Fin 8) q ⟨k.val, hk⟩ _ hv hlt (k0_off95_eq k) (k0_off95_inb k) rfl (k0_off94_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off94 (fire_region_t17.sl.v128 d L fI k)) S1x64.size (k0_off94_inb _ hchk)) (fun _ => rfl)).view.set)).1 $$ Hg
  icases Hg2 with ⟨Hgs, Hgr⟩
  ihave Hdi' := (Entails.of_eq (show ((thr d L).loc cc0_scratch5 ↦[rowSet ⟨k.val, hk⟩]{fullShare} fi : sProp 𝕄)
      = ((b5).slice (Rect.unit (s := S64x64) (k0_off95 k) S1x64.size (k0_off95_inb k)) (fun _ => rfl)).view.loc (thr d L)
          ↦[((b5).slice (Rect.unit (s := S64x64) (k0_off95 k) S1x64.size (k0_off95_inb k)) (fun _ => rfl)).view.set]{fullShare} fi
      from by rw [set_row_b5 ⟨k.val, hk⟩ (k0_off95_eq k) (k0_off95_inb k)])) $$ Hdi
  iapply (Transfers.wp_dmaBatch countersEmb 𝒱₀ (thr d L) none
      (src := (gW).slice (Rect.unit (s := S1000000x64) (k0_off94 (fire_region_t17.sl.v128 d L fI k)) S1x64.size (k0_off94_inb _ hchk)) (fun _ => rfl))
      (dst := (b5).slice (Rect.unit (s := S64x64) (k0_off95 k) S1x64.size (k0_off95_inb k)) (fun _ => rfl))
      (default : HIx 1) NR rfl subset_rfl (D := DI0 m d L (⟨6, by decide⟩ : Fin 8) q) (j := k.val) (u := 0) hk (Nat.zero_le _)
      (deliv_I0 m d L (⟨6, by decide⟩ : Fin 8) q ⟨k.val, hk⟩ _ hv hlt (k0_off95_eq k) (k0_off95_inb k) rfl (k0_off94_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨6, by decide⟩ : Fin 8) q)
      = iprop(remOf m d L (⟨6, by decide⟩ : Fin 8) q ⟨k.val, hk⟩ ∗ bigSep (Transfers.issued (m := 64) k.val) (remOf m d L (⟨6, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨6, by decide⟩ : Fin 8) ⟨k.val, hk⟩ _ hv hlt rfl (k0_off94_inb _ hchk)
    have eG := trow_of_word_g m d L (⟨6, by decide⟩ : Fin 8) ⟨k.val, hk⟩ _ hv hlt rfl (k0_off94_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

set_option maxHeartbeats 4000000 in
/-- Trip `k` of chunk 7's issue loop: the word loaded is the (64·7 + k)-th, i.e. the chunk's `k`-th row number, in range by the
    precondition; the two row copies are the batches' `k`-th, each delivering what the batch states for it. -/
theorem fire_region_t20 (hpre : PreOK m) (q : PosShare TreeShare) (fI : Buf (Elt F) ((thr d L).loc cc0_scratch0)) (hI : IdxHolds m d L fI)
    (fr : Buf (Elt F) ((thr d L).loc cc0_scratch4)) (fi : Buf (Elt F) ((thr d L).loc cc0_scratch6)) (v1 : BitVec 32) (k : Fin k0_t20_loop.trips) :
    fireInv1 m d L (⟨7, by decide⟩ : Fin 8) q fI fr fi k.val ()
      ⊢ wp frame (wpE (defs₀ (F := F)) 𝒱₀ (thr d L) none) Set.univ
          (k0_t20_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => fireInv1 m d L (⟨7, by decide⟩ : Fin 8) q fI fr fi (k.val + 1) acc) := by
  have hk : k.val < 64 := lt_of_lt_of_le k.isLt k0_t20_abs.2.1
  unfold k0_t20_body
  unfold fireInv1
  iintro ⟨Hb0, ⟨HBr, HBi⟩, Hpend, Hiss⟩
  ihave Hp := (Entails.of_eq (Transfers.bigSep_pending_step _ k.val hk)) $$ Hpend
  icases Hp with ⟨⟨Hr, Hg, Hdr, Hdi⟩, Hpend⟩
  sl_exec
  have hv : fire_region_t20.sl.v128 d L fI k = idxW m d L (posOf (⟨7, by decide⟩ : Fin 8) ⟨k.val, hk⟩) := by
    refine Eq.trans ?_ (hI (posOf (⟨7, by decide⟩ : Fin 8) ⟨k.val, hk⟩))
    unfold fire_region_t20.sl.v128 k0_pay206 extractAt
    dsimp only
    rw [shapeCast_self]
    rw [extractStridedSlice_apply ![0] _ slices_S16_o0_S1 _ (ValueIdx.ix1 (0 : Fin 16)) (by intro a; fin_cases a; rfl)]
    rw [View.readAt_apply, View.read_apply]
    show fI _ = fI _
    congr 1
    funext a
    apply Fin.ext
    have h3 := k0_off109_eq k
    fin_cases a
    show (k0_off109 k) 0 + 1 * 0 = 64 * 7 + k.val
    rw [h3]; show k.val + 448 + 1 * 0 = _; omega
  have hlt : (fire_region_t20.sl.v128 d L fI k).toNat < 1000000 := by
    rw [hv]; exact hpre d _
  have hchk : k0_chk8 (fire_region_t20.sl.v128 d L fI k) := chk_of_lt _ hlt
  rw [wp_assume_of _ _ _ _ hchk]
  -- the real parts' row
  ihave Hr2 := (pointsTo_split_subset (q := lq q ⟨k.val, hk⟩) (f := m (rLoc d)) (S := Finset.univ)
    (Finset.subset_univ ((rW).slice (Rect.unit (s := S1000000x64) (k0_off111 (fire_region_t20.sl.v128 d L fI k)) S1x64.size (k0_off111_inb _ hchk)) (fun _ => rfl)).view.set)).1 $$ Hr
  icases Hr2 with ⟨Hrs, Hrr⟩
  ihave Hdr' := (Entails.of_eq (show ((thr d L).loc cc0_scratch4 ↦[rowSet ⟨k.val, hk⟩]{fullShare} fr : sProp 𝕄)
      = ((b4).slice (Rect.unit (s := S64x64) (k0_off112 k) S1x64.size (k0_off112_inb k)) (fun _ => rfl)).view.loc (thr d L)
          ↦[((b4).slice (Rect.unit (s := S64x64) (k0_off112 k) S1x64.size (k0_off112_inb k)) (fun _ => rfl)).view.set]{fullShare} fr
      from by rw [set_row_b4 ⟨k.val, hk⟩ (k0_off112_eq k) (k0_off112_inb k)])) $$ Hdr
  sl_exec
  iapply (Transfers.wp_dmaBatch countersEmb 𝒱₀ (thr d L) none
      (src := (rW).slice (Rect.unit (s := S1000000x64) (k0_off111 (fire_region_t20.sl.v128 d L fI k)) S1x64.size (k0_off111_inb _ hchk)) (fun _ => rfl))
      (dst := (b4).slice (Rect.unit (s := S64x64) (k0_off112 k) S1x64.size (k0_off112_inb k)) (fun _ => rfl))
      (default : HIx 1) NR rfl subset_rfl (D := DR1 m d L (⟨7, by decide⟩ : Fin 8) q) (j := k.val) (u := 0) hk (Nat.zero_le _)
      (deliv_R1 m d L (⟨7, by decide⟩ : Fin 8) q ⟨k.val, hk⟩ _ hv hlt (k0_off112_eq k) (k0_off112_inb k) rfl (k0_off111_inb _ hchk) fr)) $$ [Hrs Hdr' HBr]
  · isplitl [Hrs]; · iexact Hrs
    isplitl [Hdr']; · iexact Hdr'
    iexact HBr
  iintro HBr
  simp only [ret_bind']
  -- the imaginary parts' row
  ihave Hg2 := (pointsTo_split_subset (q := lq q ⟨k.val, hk⟩) (f := m (gLoc d)) (S := Finset.univ)
    (Finset.subset_univ ((gW).slice (Rect.unit (s := S1000000x64) (k0_off111 (fire_region_t20.sl.v128 d L fI k)) S1x64.size (k0_off111_inb _ hchk)) (fun _ => rfl)).view.set)).1 $$ Hg
  icases Hg2 with ⟨Hgs, Hgr⟩
  ihave Hdi' := (Entails.of_eq (show ((thr d L).loc cc0_scratch6 ↦[rowSet ⟨k.val, hk⟩]{fullShare} fi : sProp 𝕄)
      = ((b6).slice (Rect.unit (s := S64x64) (k0_off112 k) S1x64.size (k0_off112_inb k)) (fun _ => rfl)).view.loc (thr d L)
          ↦[((b6).slice (Rect.unit (s := S64x64) (k0_off112 k) S1x64.size (k0_off112_inb k)) (fun _ => rfl)).view.set]{fullShare} fi
      from by rw [set_row_b6 ⟨k.val, hk⟩ (k0_off112_eq k) (k0_off112_inb k)])) $$ Hdi
  iapply (Transfers.wp_dmaBatch countersEmb 𝒱₀ (thr d L) none
      (src := (gW).slice (Rect.unit (s := S1000000x64) (k0_off111 (fire_region_t20.sl.v128 d L fI k)) S1x64.size (k0_off111_inb _ hchk)) (fun _ => rfl))
      (dst := (b6).slice (Rect.unit (s := S64x64) (k0_off112 k) S1x64.size (k0_off112_inb k)) (fun _ => rfl))
      (default : HIx 1) NR rfl subset_rfl (D := DI1 m d L (⟨7, by decide⟩ : Fin 8) q) (j := k.val) (u := 0) hk (Nat.zero_le _)
      (deliv_I1 m d L (⟨7, by decide⟩ : Fin 8) q ⟨k.val, hk⟩ _ hv hlt (k0_off112_eq k) (k0_off112_inb k) rfl (k0_off111_inb _ hchk) fi)) $$ [Hgs Hdi' HBi]
  · isplitl [Hgs]; · iexact Hgs
    isplitl [Hdi']; · iexact Hdi'
    iexact HBi
  iintro HBi
  simp only [ret_bind']
  sl_step
  isplitl [Hb0]; · iexact Hb0
  isplitl [HBr HBi]
  · isplitl [HBr]; · iexact HBr
    iexact HBi
  isplitl [Hpend]; · iexact Hpend
  have hins : bigSep (Transfers.issued (m := 64) (k.val + 1)) (remOf m d L (⟨7, by decide⟩ : Fin 8) q)
      = iprop(remOf m d L (⟨7, by decide⟩ : Fin 8) q ⟨k.val, hk⟩ ∗ bigSep (Transfers.issued (m := 64) k.val) (remOf m d L (⟨7, by decide⟩ : Fin 8) q)) := by
    rw [Transfers.issued_succ hk]
    exact bigSep_insert (Transfers.not_mem_issued hk)
  iapply (Entails.of_eq hins.symm)
  isplitl [Hrr Hgr]
  · unfold remOf
    have eR := trow_of_word_r m d L (⟨7, by decide⟩ : Fin 8) ⟨k.val, hk⟩ _ hv hlt rfl (k0_off111_inb _ hchk)
    have eG := trow_of_word_g m d L (⟨7, by decide⟩ : Fin 8) ⟨k.val, hk⟩ _ hv hlt rfl (k0_off111_inb _ hchk)
    isplitl [Hrr]
    · iapply (Entails.of_eq (congrArg (fun S => (rLoc d ↦[Finset.univ \ S]{lq q ⟨k.val, hk⟩} m (rLoc d) : sProp 𝕄)) eR)); iexact Hrr
    · iapply (Entails.of_eq (congrArg (fun S => (gLoc d ↦[Finset.univ \ S]{lq q ⟨k.val, hk⟩} m (gLoc d) : sProp 𝕄)) eG)); iexact Hgr
  · iexact Hiss

end Cert.Proof.KB

end
-- ==== Proof.KB.Drain.lean ====
/-
  Draining a chunk's row copies.

  A chunk's 64 row copies from one table are one batch on one semaphore; the drain is a counted loop of 64 trips, each
  waiting one row's credit on each of the chunk's two semaphores. A wait that is not a batch's last consumes one row's
  units and returns nothing; the last returns every delivery and leaves the counter at zero. One trip therefore takes
  the two batches from `k` rows' units consumed to `k + 1`, and at the 64th to all deliveries.
-/
import proofs.«204629_g89326729822651_cont_sun_m_635_33_alg».proof.Proof.KB.Invs
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

/-- A rule applied by hand leaves its continuation applied to the returned value. -/
theorem ret_bind' {E : Type → Type} {α β : Type} (a : α) (k : α → Prog E β) : (Prog.ret a).bind k = k a := rfl

omit [FloatOps F] in
theorem units_lt {k N : ℕ} (hN : 0 < N) (hk : k + 1 < 64) : k * N + N < N * 64 := by nlinarith
omit [FloatOps F] in
theorem units_eq {k N : ℕ} (hk : ¬ k + 1 < 64) (hk' : k < 64) : k * N + N = N * 64 := by
  obtain rfl : k = 63 := by omega
  omega
omit [FloatOps F] in
theorem units_succ (k N : ℕ) : k * N + N = (k + 1) * N := (Nat.succ_mul k N).symm

omit m in
/-- ONE TRIP OF A DRAIN: two waits of one row's credit, one on each of the chunk's two semaphores, from the two batches
    with `k` rows' units consumed. -/
theorem drain_trip (semA semB : DmaSem sig) (DA DB : Fin 64 → sProp 𝕄)
    (srcA : Memref sig .scVector .hbm S1x64 .f32) (dstA : Memref sig .scVector .vmem S1x64 .f32)
    (srcB : Memref sig .scVector .hbm S1x64 .f32) (dstB : Memref sig .scVector .vmem S1x64 .f32)
    (hsA : srcA.view.WordExact) (hdA : dstA.view.WordExact) (hsB : srcB.view.WordExact) (hdB : dstB.view.WordExact)
    (hA : dstA.view.dmaCredit = NR) (hB : dstB.view.dmaCredit = NR)
    (O : CellTallies nD τ sig (HIx 1)) (W : Waits sig (HIx 1)) (k : ℕ) (hk : k < 64) :
    iprop(Transfers.MayWaits (thr d L) (default : HIx 1) O
        ∗ (∃ W', ⌜∀ p ∈ W', p ∈ W ∨ p.2 = none⌝ ∗ owes (thr d L) O W')
        ∗ iprop(Transfers.Batch countersEmb (thr d L) (.dma semA) (default : HIx 1) NR DA 64 (k * NR)
          ∗ Transfers.Batch countersEmb (thr d L) (.dma semB) (default : HIx 1) NR DB 64 (k * NR)))
      ⊢ wp frame (wpE (defs₀ (F := F)) 𝒱₀ (thr d L) none) Set.univ
          (do
            Prog.lift (.waitDma2 semA srcA dstA hsA hdA)
            Prog.lift (.waitDma2 semB srcB dstB hsB hdB)
            pure ⟨⟩ : Prog (TpuEff nD τ sig (Elt F) Λ₀ (.scVector ((L 0).castLE hcore0) ((L 1).castLE hsub0))) Unit)
          (fun _ => iprop(Transfers.MayWaits (thr d L) (default : HIx 1) O
            ∗ (∃ W', ⌜∀ p ∈ W', p ∈ W ∨ p.2 = none⌝ ∗ owes (thr d L) O W')
            ∗ (if k + 1 < 64 then iprop(Transfers.Batch countersEmb (thr d L) (.dma semA) (default : HIx 1) NR DA 64 ((k + 1) * NR)
                  ∗ Transfers.Batch countersEmb (thr d L) (.dma semB) (default : HIx 1) NR DB 64 ((k + 1) * NR))
               else iprop(bigSep Finset.univ DA ∗ bigSep Finset.univ DB
                  ∗ semVal (thr d L, SemLoc.dma semA) 0 ∗ semVal (thr d L, SemLoc.dma semB) 0)))) := by
  have hNR : 0 < NR := View.dmaCredit_pos _ (by decide)
  iintro ⟨#Hmw, ⟨%W', %hW', HO⟩, HBA, HBB⟩
  have hWW : ∀ p ∈ insert (SemLoc.dma semB, (default : HIx 1)) (insert (SemLoc.dma semA, (default : HIx 1)) W'), p ∈ W ∨ p.2 = none := by
    intro p hp
    rcases Finset.mem_insert.1 hp with rfl | hp
    · exact Or.inr rfl
    rcases Finset.mem_insert.1 hp with rfl | hp
    · exact Or.inr rfl
    exact hW' p hp
  by_cases hlast : k + 1 < 64
  · iapply (Transfers.wp_waitBatchO countersEmb 𝒱₀ (thr d L) none (default : HIx 1) hA (D := DA) (u := k * NR) (units_lt hNR hlast) (O := O) (W := W')) $$ [HBA HO]
    · isplitl [HBA]; · iexact HBA
      isplitl [HO]; · iexact HO
      iapply (Transfers.MayWaits.elim (SemLoc.dma semA)) $$ Hmw
    iintro ⟨HBA, HO⟩
    simp only [ret_bind']
    iapply (Transfers.wp_waitBatchO countersEmb 𝒱₀ (thr d L) none (default : HIx 1) hB (D := DB) (u := k * NR) (units_lt hNR hlast) (O := O) (W := insert (SemLoc.dma semA, (default : HIx 1)) W')) $$ [HBB HO]
    · isplitl [HBB]; · iexact HBB
      isplitl [HO]; · iexact HO
      iapply (Transfers.MayWaits.elim (SemLoc.dma semB)) $$ Hmw
    iintro ⟨HBB, HO⟩
    simp only [ret_bind']
    sl_step
    rw [if_pos hlast, ← units_succ]
    isplitr; · iexact Hmw
    isplitl [HO]; · iexists _; isplitr; · ipureintro; exact hWW
                    iexact HO
    isplitl [HBA]; · iexact HBA
    iexact HBB
  · iapply (Transfers.wp_waitBatchLastO countersEmb 𝒱₀ (thr d L) none (default : HIx 1) hA hNR (D := DA) (u := k * NR) (units_eq hlast hk) (O := O) (W := W')) $$ [HBA HO]
    · isplitl [HBA]; · iexact HBA
      isplitl [HO]; · iexact HO
      iapply (Transfers.MayWaits.elim (SemLoc.dma semA)) $$ Hmw
    iintro ⟨HDA, HvA, HO⟩
    simp only [ret_bind']
    iapply (Transfers.wp_waitBatchLastO countersEmb 𝒱₀ (thr d L) none (default : HIx 1) hB hNR (D := DB) (u := k * NR) (units_eq hlast hk) (O := O) (W := insert (SemLoc.dma semA, (default : HIx 1)) W')) $$ [HBB HO]
    · isplitl [HBB]; · iexact HBB
      isplitl [HO]; · iexact HO
      iapply (Transfers.MayWaits.elim (SemLoc.dma semB)) $$ Hmw
    iintro ⟨HDB, HvB, HO⟩
    simp only [ret_bind']
    sl_step
    rw [if_neg hlast]
    isplitr; · iexact Hmw
    isplitl [HO]; · iexists _; isplitr; · ipureintro; exact hWW
                    iexact HO
    isplitl [HDA]; · iexact HDA
    isplitl [HDB]; · iexact HDB
    isplitl [HvA]; · iexact HvA
    iexact HvB

/-! ## One row's credit

A wait names a row of a scratch; whichever row of whichever of the four 64 × 64 scratches, its credit is one row's. -/

omit m d L [FloatOps F] in
theorem credit3 (off : Fin 2 → Nat) (inb : ∀ a, off a + S1x64.size a ≤ S64x64.size a) :
    ((b3).slice (Rect.unit (s := S64x64) off S1x64.size inb) (fun _ => rfl)).view.dmaCredit = NR := rfl
omit m d L [FloatOps F] in
theorem credit4 (off : Fin 2 → Nat) (inb : ∀ a, off a + S1x64.size a ≤ S64x64.size a) :
    ((b4).slice (Rect.unit (s := S64x64) off S1x64.size inb) (fun _ => rfl)).view.dmaCredit = NR := rfl
omit m d L [FloatOps F] in
theorem credit5 (off : Fin 2 → Nat) (inb : ∀ a, off a + S1x64.size a ≤ S64x64.size a) :
    ((b5).slice (Rect.unit (s := S64x64) off S1x64.size inb) (fun _ => rfl)).view.dmaCredit = NR := rfl
omit m d L [FloatOps F] in
theorem credit6 (off : Fin 2 → Nat) (inb : ∀ a, off a + S1x64.size a ≤ S64x64.size a) :
    ((b6).slice (Rect.unit (s := S64x64) off S1x64.size inb) (fun _ => rfl)).view.dmaCredit = NR := rfl

/-! ## The eight drain loops -/

/-- One trip of the drain of chunk 0: the invariant after `k` trips gives the invariant after `k + 1`. -/
theorem drain_region_t3 (q : PosShare TreeShare) (O : CellTallies nD τ sig (HIx 1)) (W : Waits sig (HIx 1)) (k : Fin k0_t3_loop.trips) (v1 c0_i32_18 : BitVec 32) :
    drainInv0 m d L (⟨0, by decide⟩ : Fin 8) q O W k.val ()
      ⊢ wp frame (wpE (defs₀ (F := F)) 𝒱₀ (thr d L) none) Set.univ
          (k0_t3_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => drainInv0 m d L (⟨0, by decide⟩ : Fin 8) q O W (k.val + 1) acc) := by
  have hk : k.val < 64 := lt_of_lt_of_le k.isLt k0_t3_abs.2.1
  unfold drainInv0 k0_t3_body
  rw [if_pos hk]
  exact drain_trip (F := F) d L cc0_scratch11.sem cc0_scratch13.sem (DR0 m d L (⟨0, by decide⟩ : Fin 8) q) (DI0 m d L (⟨0, by decide⟩ : Fin 8) q)
    ((rW).slice (Rect.unit (s := S1000000x64) ![0, 0] S1x64.size inb_S1000000x64_S1x64_0_0) (fun _ => rfl))
    ((b3).slice (Rect.unit (s := S64x64) (k0_off11 k) S1x64.size (k0_off11_inb k)) (fun _ => rfl))
    ((gW).slice (Rect.unit (s := S1000000x64) ![0, 0] S1x64.size inb_S1000000x64_S1x64_0_0) (fun _ => rfl))
    ((b5).slice (Rect.unit (s := S64x64) (k0_off11 k) S1x64.size (k0_off11_inb k)) (fun _ => rfl))
    (View.wordExact_bits rfl) (View.wordExact_bits rfl) (View.wordExact_bits rfl) (View.wordExact_bits rfl)
    (credit3 _ _) (credit5 _ _) O W k.val hk

/-- One trip of the drain of chunk 1: the invariant after `k` trips gives the invariant after `k + 1`. -/
theorem drain_region_t6 (q : PosShare TreeShare) (O : CellTallies nD τ sig (HIx 1)) (W : Waits sig (HIx 1)) (k : Fin k0_t6_loop.trips) (v1 c0_i32_18 : BitVec 32) :
    drainInv1 m d L (⟨1, by decide⟩ : Fin 8) q O W k.val ()
      ⊢ wp frame (wpE (defs₀ (F := F)) 𝒱₀ (thr d L) none) Set.univ
          (k0_t6_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0_i32_18 k ())
          (fun acc => drainInv1 m d L (⟨1, by decide⟩ : Fin 8) q O W (k.val + 1) acc) := by
  have hk : k.val < 64 := lt_of_lt_of_le k.isLt k0_t6_abs.2.1
  unfold drainInv1 k0_t6_body
  rw [if_pos hk]
  exact drain_trip (F := F) d L cc0_scratch12.sem cc0_scratch14.sem (DR1 m d L (⟨1, by decide⟩ : Fin 8) q) (DI1 m d L (⟨1, by decide⟩ : Fin 8) q)
    ((rW).slice (Rect.unit (s := S1000000x64) ![0, 0] S1x64.size inb_S1000000x64_S1x64_0_0) (fun _ => rfl))
    ((b4).slice (Rect.unit (s := S64x64) (k0_off28 k) S1x64.size (k0_off28_inb k)) (fun _ => rfl))
    ((gW).slice (Rect.unit (s := S1000000x64) ![0, 0] S1x64.size inb_S1000000x64_S1x64_0_0) (fun _ => rfl))
    ((b6).slice (Rect.unit (s := S64x64) (k0_off28 k) S1x64.size (k0_off28_inb k)) (fun _ => rfl))
    (View.wordExact_bits rfl) (View.wordExact_bits rfl) (View.wordExact_bits rfl) (View.wordExact_bits rfl)
    (credit4 _ _) (credit6 _ _) O W k.val hk

/-- One trip of the drain of chunk 2: the invariant after `k` trips gives the invariant after `k + 1`. -/
theorem drain_region_t9 (q : PosShare TreeShare) (O : CellTallies nD τ sig (HIx 1)) (W : Waits sig (HIx 1)) (k : Fin k0_t9_loop.trips) (v1 : BitVec 32) :
    drainInv0 m d L (⟨2, by decide⟩ : Fin 8) q O W k.val ()
      ⊢ wp frame (wpE (defs₀ (F := F)) 𝒱₀ (thr d L) none) Set.univ
          (k0_t9_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨2, by decide⟩ : Fin 8) q O W (k.val + 1) acc) := by
  have hk : k.val < 64 := lt_of_lt_of_le k.isLt k0_t9_abs.2.1
  unfold drainInv0 k0_t9_body
  rw [if_pos hk]
  exact drain_trip (F := F) d L cc0_scratch11.sem cc0_scratch13.sem (DR0 m d L (⟨2, by decide⟩ : Fin 8) q) (DI0 m d L (⟨2, by decide⟩ : Fin 8) q)
    ((rW).slice (Rect.unit (s := S1000000x64) ![0, 0] S1x64.size inb_S1000000x64_S1x64_0_0) (fun _ => rfl))
    ((b3).slice (Rect.unit (s := S64x64) (k0_off45 k) S1x64.size (k0_off45_inb k)) (fun _ => rfl))
    ((gW).slice (Rect.unit (s := S1000000x64) ![0, 0] S1x64.size inb_S1000000x64_S1x64_0_0) (fun _ => rfl))
    ((b5).slice (Rect.unit (s := S64x64) (k0_off45 k) S1x64.size (k0_off45_inb k)) (fun _ => rfl))
    (View.wordExact_bits rfl) (View.wordExact_bits rfl) (View.wordExact_bits rfl) (View.wordExact_bits rfl)
    (credit3 _ _) (credit5 _ _) O W k.val hk

/-- One trip of the drain of chunk 3: the invariant after `k` trips gives the invariant after `k + 1`. -/
theorem drain_region_t12 (q : PosShare TreeShare) (O : CellTallies nD τ sig (HIx 1)) (W : Waits sig (HIx 1)) (k : Fin k0_t12_loop.trips) (v1 : BitVec 32) :
    drainInv1 m d L (⟨3, by decide⟩ : Fin 8) q O W k.val ()
      ⊢ wp frame (wpE (defs₀ (F := F)) 𝒱₀ (thr d L) none) Set.univ
          (k0_t12_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv1 m d L (⟨3, by decide⟩ : Fin 8) q O W (k.val + 1) acc) := by
  have hk : k.val < 64 := lt_of_lt_of_le k.isLt k0_t12_abs.2.1
  unfold drainInv1 k0_t12_body
  rw [if_pos hk]
  exact drain_trip (F := F) d L cc0_scratch12.sem cc0_scratch14.sem (DR1 m d L (⟨3, by decide⟩ : Fin 8) q) (DI1 m d L (⟨3, by decide⟩ : Fin 8) q)
    ((rW).slice (Rect.unit (s := S1000000x64) ![0, 0] S1x64.size inb_S1000000x64_S1x64_0_0) (fun _ => rfl))
    ((b4).slice (Rect.unit (s := S64x64) (k0_off62 k) S1x64.size (k0_off62_inb k)) (fun _ => rfl))
    ((gW).slice (Rect.unit (s := S1000000x64) ![0, 0] S1x64.size inb_S1000000x64_S1x64_0_0) (fun _ => rfl))
    ((b6).slice (Rect.unit (s := S64x64) (k0_off62 k) S1x64.size (k0_off62_inb k)) (fun _ => rfl))
    (View.wordExact_bits rfl) (View.wordExact_bits rfl) (View.wordExact_bits rfl) (View.wordExact_bits rfl)
    (credit4 _ _) (credit6 _ _) O W k.val hk

/-- One trip of the drain of chunk 4: the invariant after `k` trips gives the invariant after `k + 1`. -/
theorem drain_region_t15 (q : PosShare TreeShare) (O : CellTallies nD τ sig (HIx 1)) (W : Waits sig (HIx 1)) (k : Fin k0_t15_loop.trips) (v1 : BitVec 32) :
    drainInv0 m d L (⟨4, by decide⟩ : Fin 8) q O W k.val ()
      ⊢ wp frame (wpE (defs₀ (F := F)) 𝒱₀ (thr d L) none) Set.univ
          (k0_t15_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨4, by decide⟩ : Fin 8) q O W (k.val + 1) acc) := by
  have hk : k.val < 64 := lt_of_lt_of_le k.isLt k0_t15_abs.2.1
  unfold drainInv0 k0_t15_body
  rw [if_pos hk]
  exact drain_trip (F := F) d L cc0_scratch11.sem cc0_scratch13.sem (DR0 m d L (⟨4, by decide⟩ : Fin 8) q) (DI0 m d L (⟨4, by decide⟩ : Fin 8) q)
    ((rW).slice (Rect.unit (s := S1000000x64) ![0, 0] S1x64.size inb_S1000000x64_S1x64_0_0) (fun _ => rfl))
    ((b3).slice (Rect.unit (s := S64x64) (k0_off79 k) S1x64.size (k0_off79_inb k)) (fun _ => rfl))
    ((gW).slice (Rect.unit (s := S1000000x64) ![0, 0] S1x64.size inb_S1000000x64_S1x64_0_0) (fun _ => rfl))
    ((b5).slice (Rect.unit (s := S64x64) (k0_off79 k) S1x64.size (k0_off79_inb k)) (fun _ => rfl))
    (View.wordExact_bits rfl) (View.wordExact_bits rfl) (View.wordExact_bits rfl) (View.wordExact_bits rfl)
    (credit3 _ _) (credit5 _ _) O W k.val hk

/-- One trip of the drain of chunk 5: the invariant after `k` trips gives the invariant after `k + 1`. -/
theorem drain_region_t18 (q : PosShare TreeShare) (O : CellTallies nD τ sig (HIx 1)) (W : Waits sig (HIx 1)) (k : Fin k0_t18_loop.trips) (v1 : BitVec 32) :
    drainInv1 m d L (⟨5, by decide⟩ : Fin 8) q O W k.val ()
      ⊢ wp frame (wpE (defs₀ (F := F)) 𝒱₀ (thr d L) none) Set.univ
          (k0_t18_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv1 m d L (⟨5, by decide⟩ : Fin 8) q O W (k.val + 1) acc) := by
  have hk : k.val < 64 := lt_of_lt_of_le k.isLt k0_t18_abs.2.1
  unfold drainInv1 k0_t18_body
  rw [if_pos hk]
  exact drain_trip (F := F) d L cc0_scratch12.sem cc0_scratch14.sem (DR1 m d L (⟨5, by decide⟩ : Fin 8) q) (DI1 m d L (⟨5, by decide⟩ : Fin 8) q)
    ((rW).slice (Rect.unit (s := S1000000x64) ![0, 0] S1x64.size inb_S1000000x64_S1x64_0_0) (fun _ => rfl))
    ((b4).slice (Rect.unit (s := S64x64) (k0_off96 k) S1x64.size (k0_off96_inb k)) (fun _ => rfl))
    ((gW).slice (Rect.unit (s := S1000000x64) ![0, 0] S1x64.size inb_S1000000x64_S1x64_0_0) (fun _ => rfl))
    ((b6).slice (Rect.unit (s := S64x64) (k0_off96 k) S1x64.size (k0_off96_inb k)) (fun _ => rfl))
    (View.wordExact_bits rfl) (View.wordExact_bits rfl) (View.wordExact_bits rfl) (View.wordExact_bits rfl)
    (credit4 _ _) (credit6 _ _) O W k.val hk

/-- One trip of the drain of chunk 6: the invariant after `k` trips gives the invariant after `k + 1`. -/
theorem drain_region_t21 (q : PosShare TreeShare) (O : CellTallies nD τ sig (HIx 1)) (W : Waits sig (HIx 1)) (k : Fin k0_t21_loop.trips) (v1 : BitVec 32) :
    drainInv0 m d L (⟨6, by decide⟩ : Fin 8) q O W k.val ()
      ⊢ wp frame (wpE (defs₀ (F := F)) 𝒱₀ (thr d L) none) Set.univ
          (k0_t21_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => drainInv0 m d L (⟨6, by decide⟩ : Fin 8) q O W (k.val + 1) acc) := by
  have hk : k.val < 64 := lt_of_lt_of_le k.isLt k0_t21_abs.2.1
  unfold drainInv0 k0_t21_body
  rw [if_pos hk]
  exact drain_trip (F := F) d L cc0_scratch11.sem cc0_scratch13.sem (DR0 m d L (⟨6, by decide⟩ : Fin 8) q) (DI0 m d L (⟨6, by decide⟩ : Fin 8) q)
    ((rW).slice (Rect.unit (s := S1000000x64) ![0, 0] S1x64.size inb_S1000000x64_S1x64_0_0) (fun _ => rfl))
    ((b3).slice (Rect.unit (s := S64x64) (k0_off113 k) S1x64.size (k0_off113_inb k)) (fun _ => rfl))
    ((gW).slice (Rect.unit (s := S1000000x64) ![0, 0] S1x64.size inb_S1000000x64_S1x64_0_0) (fun _ => rfl))
    ((b5).slice (Rect.unit (s := S64x64) (k0_off113 k) S1x64.size (k0_off113_inb k)) (fun _ => rfl))
    (View.wordExact_bits rfl) (View.wordExact_bits rfl) (View.wordExact_bits rfl) (View.wordExact_bits rfl)
    (credit3 _ _) (credit5 _ _) O W k.val hk

/-- One trip of the drain of chunk 7: the invariant after `k` trips gives the invariant after `k + 1`. -/
theorem drain_region_t23 (q : PosShare TreeShare) (O : CellTallies nD τ sig (HIx 1)) (W : Waits sig (HIx 1)) (k : Fin k0_t23_loop.trips) :
    drainInv1 m d L (⟨7, by decide⟩ : Fin 8) q O W k.val ()
      ⊢ wp frame (wpE (defs₀ (F := F)) 𝒱₀ (thr d L) none) Set.univ
          (k0_t23_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 k ())
          (fun acc => drainInv1 m d L (⟨7, by decide⟩ : Fin 8) q O W (k.val + 1) acc) := by
  have hk : k.val < 64 := lt_of_lt_of_le k.isLt k0_t23_abs.2.1
  unfold drainInv1 k0_t23_body
  rw [if_pos hk]
  exact drain_trip (F := F) d L cc0_scratch12.sem cc0_scratch14.sem (DR1 m d L (⟨7, by decide⟩ : Fin 8) q) (DI1 m d L (⟨7, by decide⟩ : Fin 8) q)
    ((rW).slice (Rect.unit (s := S1000000x64) ![0, 0] S1x64.size inb_S1000000x64_S1x64_0_0) (fun _ => rfl))
    ((b4).slice (Rect.unit (s := S64x64) (k0_off126 k) S1x64.size (k0_off126_inb k)) (fun _ => rfl))
    ((gW).slice (Rect.unit (s := S1000000x64) ![0, 0] S1x64.size inb_S1000000x64_S1x64_0_0) (fun _ => rfl))
    ((b6).slice (Rect.unit (s := S64x64) (k0_off126 k) S1x64.size (k0_off126_inb k)) (fun _ => rfl))
    (View.wordExact_bits rfl) (View.wordExact_bits rfl) (View.wordExact_bits rfl) (View.wordExact_bits rfl)
    (credit4 _ _) (credit6 _ _) O W k.val hk

end Cert.Proof.KB

end
-- ==== Proof.KB.ComputeLib.lean ====
/-
  One row of the product, piece by piece. A trip of a compute loop stores eight pieces of 16 lanes into row k of the
  result scratch: at columns j0 .. j0 + 15 the real parts e[k, j]·re[k, j] − e[k, 64 + j]·im[k, j] and at columns
  64 + j0 .. the imaginary parts e[k, j]·im[k, j] + e[k, 64 + j]·re[k, j]. Read through the scratches' contents as
  functions of the launch memory these are the specification's entries of the chunk's row k; the eight pieces cover the
  row, and rows below k are left as they were.
-/
import proofs.«204629_g89326729822651_cont_sun_m_635_33_alg».proof.Proof.KB.Rows
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

open Idealize.ShloMosaic.ValueIdx

/-! ## The two payloads, at an index -/

omit m d L in
/-- The real-part payload of one piece, from the four loaded pieces. -/
def payRe (a b c d : S1x16.Idx → F .f32) : S1x16.Idx → F .f32 :=
  shapeCast S1x16 (subf (mulf (shapeCast S16 a shapeCasts_S1x16_S16) (shapeCast S16 c shapeCasts_S1x16_S16))
    (mulf (shapeCast S16 b shapeCasts_S1x16_S16) (shapeCast S16 d shapeCasts_S1x16_S16))) shapeCasts_S16_S1x16
omit m d L in
/-- The imaginary-part payload of one piece. -/
def payIm (a b c d : S1x16.Idx → F .f32) : S1x16.Idx → F .f32 :=
  shapeCast S1x16 (addf (mulf (shapeCast S16 a shapeCasts_S1x16_S16) (shapeCast S16 d shapeCasts_S1x16_S16))
    (mulf (shapeCast S16 b shapeCasts_S1x16_S16) (shapeCast S16 c shapeCasts_S1x16_S16))) shapeCasts_S16_S1x16

omit m d L in
theorem payRe_apply (a b c d : S1x16.Idx → F .f32) (x : S1x16.Idx) :
    payRe a b c d x = FloatOps.subf (FloatOps.mulf (a x) (c x)) (FloatOps.mulf (b x) (d x)) := by
  unfold payRe
  show FloatOps.subf (FloatOps.mulf (a (Shape.reshapeEquiv _ (Shape.reshapeEquiv _ x))) (c (Shape.reshapeEquiv _ (Shape.reshapeEquiv _ x))))
      (FloatOps.mulf (b (Shape.reshapeEquiv _ (Shape.reshapeEquiv _ x))) (d (Shape.reshapeEquiv _ (Shape.reshapeEquiv _ x)))) = _
  simp only [Shape.reshapeEquiv_reshapeEquiv, Shape.reshapeEquiv_self]
omit m d L in
theorem payIm_apply (a b c d : S1x16.Idx → F .f32) (x : S1x16.Idx) :
    payIm a b c d x = FloatOps.addf (FloatOps.mulf (a x) (d x)) (FloatOps.mulf (b x) (c x)) := by
  unfold payIm
  show FloatOps.addf (FloatOps.mulf (a (Shape.reshapeEquiv _ (Shape.reshapeEquiv _ x))) (d (Shape.reshapeEquiv _ (Shape.reshapeEquiv _ x))))
      (FloatOps.mulf (b (Shape.reshapeEquiv _ (Shape.reshapeEquiv _ x))) (c (Shape.reshapeEquiv _ (Shape.reshapeEquiv _ x)))) = _
  simp only [Shape.reshapeEquiv_reshapeEquiv, Shape.reshapeEquiv_self]

/-! ## Indices by their coordinates -/

omit m d L [FloatOps F] in
/-- A function of a rank-2 index depends on the two coordinates' values only. -/
theorem apply_idx2_congr {α : Type} {n0 n1 : ℕ} (G : (⟨2, ![n0, n1]⟩ : Shape).Idx → α) (y y' : (⟨2, ![n0, n1]⟩ : Shape).Idx)
    (h0 : (y 0).val = (y' 0).val) (h1 : (y 1).val = (y' 1).val) : G y = G y' := by
  congr 1; funext a
  match a with
  | ⟨0, _⟩ => exact Fin.ext h0
  | ⟨1, _⟩ => exact Fin.ext h1

/-! ## The specification's entries of a chunk through the scratches' contents -/

omit [FloatOps F] in
theorem posOf_eta (c : Fin 8) (i : Fin 64) (h : i.val < 64) : posOf c ⟨i.val, h⟩ = posOf c i := rfl

/-- Column `j < 64` of row `i` of the chunk's result: the real part. -/
theorem outChunk_lo (c : Fin 8) (i j : Fin 64) :
    outChunk m d L c (ix2 i (⟨j.val, by omega⟩ : Fin 128))
      = FloatOps.subf (FloatOps.mulf (embChunk m d L c (ix2 i (⟨j.val, by omega⟩ : Fin 128))) (gathered m d L (m (rLoc d)) c (ix2 i j)))
          (FloatOps.mulf (embChunk m d L c (ix2 i (⟨64 + j.val, by omega⟩ : Fin 128))) (gathered m d L (m (gLoc d)) c (ix2 i j))) := by
  unfold outChunk Gm
  exact Cert.Spec.G_lo _ _ _ _ (rowN L (posOf c i)) j

/-- Column `64 + j` of row `i` of the chunk's result: the imaginary part. -/
theorem outChunk_hi (c : Fin 8) (i j : Fin 64) :
    outChunk m d L c (ix2 i (⟨64 + j.val, by omega⟩ : Fin 128))
      = FloatOps.addf (FloatOps.mulf (embChunk m d L c (ix2 i (⟨j.val, by omega⟩ : Fin 128))) (gathered m d L (m (gLoc d)) c (ix2 i j)))
          (FloatOps.mulf (embChunk m d L c (ix2 i (⟨64 + j.val, by omega⟩ : Fin 128))) (gathered m d L (m (rLoc d)) c (ix2 i j))) := by
  unfold outChunk Gm
  exact Cert.Spec.G_hi _ _ _ _ (rowN L (posOf c i)) j

/-! ## A loaded or stored piece of 16 lanes of row `r` at column `c` -/

omit m d L [FloatOps F] in
/-- Entry `x` of the piece of 1 × 16 at `(r, c)` is the array's entry `(r, c + x)`. -/
theorem at_unit {α : Type} {n0 n1 : ℕ} (G : (⟨2, ![n0, n1]⟩ : Shape).Idx → α) (r c : ℕ)
    (inb : ∀ a, (![r, c] : Fin 2 → ℕ) a + S1x16.size a ≤ (⟨2, ![n0, n1]⟩ : Shape).size a) (x : S1x16.Idx)
    (i : Fin n0) (j : Fin n1) (hi : i.val = r) (hj : j.val = c + (x 1).val) :
    G ((Rect.unit (s := ⟨2, ![n0, n1]⟩) ![r, c] S1x16.size inb).emb x) = G (ix2 i j) := by
  have hx0 : (x 0).val < 1 := (x 0).isLt
  refine apply_idx2_congr G _ _ ?_ ?_
  · show r + 1 * (x 0).val = i.val
    omega
  · show c + 1 * (x 1).val = j.val
    omega

omit m d L in
/-- The real-part piece at column `col` of row `k`: from the four loaded pieces, the result's entries there. -/
theorem piece_re (E : S64x128.Idx → F .f32) (R I : S64x64.Idx → F .f32) (out : S64x128.Idx → F .f32)
    (hlo : ∀ (i j : Fin 64), out (ix2 i (⟨j.val, by omega⟩ : Fin 128))
      = FloatOps.subf (FloatOps.mulf (E (ix2 i (⟨j.val, by omega⟩ : Fin 128))) (R (ix2 i j)))
          (FloatOps.mulf (E (ix2 i (⟨64 + j.val, by omega⟩ : Fin 128))) (I (ix2 i j))))
    (k col : ℕ) (hk : k < 64) (hcol : col + 16 ≤ 64)
    (oEl oEh oO oR oI : Fin 2 → ℕ)
    (inbEl : ∀ a, oEl a + S1x16.size a ≤ S64x128.size a) (inbEh : ∀ a, oEh a + S1x16.size a ≤ S64x128.size a)
    (inbO : ∀ a, oO a + S1x16.size a ≤ S64x128.size a)
    (inbR : ∀ a, oR a + S1x16.size a ≤ S64x64.size a) (inbI : ∀ a, oI a + S1x16.size a ≤ S64x64.size a)
    (eEl : oEl = ![k, col]) (eEh : oEh = ![k, 64 + col]) (eO : oO = ![k, col]) (eR : oR = ![k, col]) (eI : oI = ![k, col])
    (a b c e : S1x16.Idx → F .f32)
    (ha : ∀ x, a x = E ((Rect.unit (s := S64x128) oEl S1x16.size inbEl).emb x))
    (hb : ∀ x, b x = E ((Rect.unit (s := S64x128) oEh S1x16.size inbEh).emb x))
    (hc : ∀ x, c x = R ((Rect.unit (s := S64x64) oR S1x16.size inbR).emb x))
    (he : ∀ x, e x = I ((Rect.unit (s := S64x64) oI S1x16.size inbI).emb x)) :
    ∀ x, payRe a b c e x = out ((Rect.unit (s := S64x128) oO S1x16.size inbO).emb x) := by
  subst eEl eEh eO eR eI
  intro x
  have hx1 : (x 1).val < 16 := (x 1).isLt
  rw [payRe_apply, ha, hb, hc, he,
    at_unit E k col _ x ⟨k, hk⟩ (⟨(⟨col + (x 1).val, by omega⟩ : Fin 64).val, by omega⟩ : Fin 128) rfl rfl,
    at_unit E k (64 + col) _ x ⟨k, hk⟩ (⟨64 + (⟨col + (x 1).val, by omega⟩ : Fin 64).val, by omega⟩ : Fin 128) rfl (by show 64 + (col + (x 1).val) = _; omega),
    at_unit R k col _ x ⟨k, hk⟩ (⟨col + (x 1).val, by omega⟩ : Fin 64) rfl rfl,
    at_unit I k col _ x ⟨k, hk⟩ (⟨col + (x 1).val, by omega⟩ : Fin 64) rfl rfl,
    at_unit out k col _ x ⟨k, hk⟩ (⟨(⟨col + (x 1).val, by omega⟩ : Fin 64).val, by omega⟩ : Fin 128) rfl rfl]
  exact (hlo ⟨k, hk⟩ ⟨col + (x 1).val, by omega⟩).symm

omit m d L in
/-- The imaginary-part piece at column `64 + col` of row `k`. -/
theorem piece_im (E : S64x128.Idx → F .f32) (R I : S64x64.Idx → F .f32) (out : S64x128.Idx → F .f32)
    (hhi : ∀ (i j : Fin 64), out (ix2 i (⟨64 + j.val, by omega⟩ : Fin 128))
      = FloatOps.addf (FloatOps.mulf (E (ix2 i (⟨j.val, by omega⟩ : Fin 128))) (I (ix2 i j)))
          (FloatOps.mulf (E (ix2 i (⟨64 + j.val, by omega⟩ : Fin 128))) (R (ix2 i j))))
    (k col : ℕ) (hk : k < 64) (hcol : col + 16 ≤ 64)
    (oEl oEh oO oR oI : Fin 2 → ℕ)
    (inbEl : ∀ a, oEl a + S1x16.size a ≤ S64x128.size a) (inbEh : ∀ a, oEh a + S1x16.size a ≤ S64x128.size a)
    (inbO : ∀ a, oO a + S1x16.size a ≤ S64x128.size a)
    (inbR : ∀ a, oR a + S1x16.size a ≤ S64x64.size a) (inbI : ∀ a, oI a + S1x16.size a ≤ S64x64.size a)
    (eEl : oEl = ![k, col]) (eEh : oEh = ![k, 64 + col]) (eO : oO = ![k, 64 + col]) (eR : oR = ![k, col]) (eI : oI = ![k, col])
    (a b c e : S1x16.Idx → F .f32)
    (ha : ∀ x, a x = E ((Rect.unit (s := S64x128) oEl S1x16.size inbEl).emb x))
    (hb : ∀ x, b x = E ((Rect.unit (s := S64x128) oEh S1x16.size inbEh).emb x))
    (hc : ∀ x, c x = R ((Rect.unit (s := S64x64) oR S1x16.size inbR).emb x))
    (he : ∀ x, e x = I ((Rect.unit (s := S64x64) oI S1x16.size inbI).emb x)) :
    ∀ x, payIm a b c e x = out ((Rect.unit (s := S64x128) oO S1x16.size inbO).emb x) := by
  subst eEl eEh eO eR eI
  intro x
  have hx1 : (x 1).val < 16 := (x 1).isLt
  rw [payIm_apply, ha, hb, hc, he,
    at_unit E k col _ x ⟨k, hk⟩ (⟨(⟨col + (x 1).val, by omega⟩ : Fin 64).val, by omega⟩ : Fin 128) rfl rfl,
    at_unit E k (64 + col) _ x ⟨k, hk⟩ (⟨64 + (⟨col + (x 1).val, by omega⟩ : Fin 64).val, by omega⟩ : Fin 128) rfl (by show 64 + (col + (x 1).val) = _; omega),
    at_unit R k col _ x ⟨k, hk⟩ (⟨col + (x 1).val, by omega⟩ : Fin 64) rfl rfl,
    at_unit I k col _ x ⟨k, hk⟩ (⟨col + (x 1).val, by omega⟩ : Fin 64) rfl rfl,
    at_unit out k (64 + col) _ x ⟨k, hk⟩ (⟨64 + (⟨col + (x 1).val, by omega⟩ : Fin 64).val, by omega⟩ : Fin 128) rfl (by show 64 + (col + (x 1).val) = _; omega)]
  exact (hhi ⟨k, hk⟩ ⟨col + (x 1).val, by omega⟩).symm

/-! ## Eight pieces of row `k`: the rows below stay, row `k` is covered -/

omit m d L [FloatOps F] in
/-- After eight pieces of 1 × 16 written into row `k` at columns that cover 0 .. 127, each holding `out` there,
    over contents that hold `out` on the rows below `k`, the contents hold `out` on the rows below `k + 1`. -/
theorem row_done {sg : RefSig} {κ : Kind} {sp : Space} (v : View sg κ sp S64x128 .f32) (fo : v.ty.Contents (Elt F)) (out : S64x128.Idx → F .f32) (k : ℕ)
    (c1 c2 c3 c4 c5 c6 c7 c8 : ℕ)
    (hcov : ∀ j < 128, (c1 ≤ j ∧ j < c1 + 16) ∨ (c2 ≤ j ∧ j < c2 + 16) ∨ (c3 ≤ j ∧ j < c3 + 16) ∨ (c4 ≤ j ∧ j < c4 + 16)
      ∨ (c5 ≤ j ∧ j < c5 + 16) ∨ (c6 ≤ j ∧ j < c6 + 16) ∨ (c7 ≤ j ∧ j < c7 + 16) ∨ (c8 ≤ j ∧ j < c8 + 16))
    (o1 o2 o3 o4 o5 o6 o7 o8 : Fin 2 → ℕ)
    (i1 : ∀ a, o1 a + S1x16.size a ≤ S64x128.size a) (i2 : ∀ a, o2 a + S1x16.size a ≤ S64x128.size a)
    (i3 : ∀ a, o3 a + S1x16.size a ≤ S64x128.size a) (i4 : ∀ a, o4 a + S1x16.size a ≤ S64x128.size a)
    (i5 : ∀ a, o5 a + S1x16.size a ≤ S64x128.size a) (i6 : ∀ a, o6 a + S1x16.size a ≤ S64x128.size a)
    (i7 : ∀ a, o7 a + S1x16.size a ≤ S64x128.size a) (i8 : ∀ a, o8 a + S1x16.size a ≤ S64x128.size a)
    (e1 : o1 = ![k, c1]) (e2 : o2 = ![k, c2]) (e3 : o3 = ![k, c3]) (e4 : o4 = ![k, c4])
    (e5 : o5 = ![k, c5]) (e6 : o6 = ![k, c6]) (e7 : o7 = ![k, c7]) (e8 : o8 = ![k, c8])
    (w1 : (Rect.unit (s := S64x128) o1 S1x16.size i1).shape.Idx → F .f32) (w2 : (Rect.unit (s := S64x128) o2 S1x16.size i2).shape.Idx → F .f32)
    (w3 : (Rect.unit (s := S64x128) o3 S1x16.size i3).shape.Idx → F .f32) (w4 : (Rect.unit (s := S64x128) o4 S1x16.size i4).shape.Idx → F .f32)
    (w5 : (Rect.unit (s := S64x128) o5 S1x16.size i5).shape.Idx → F .f32) (w6 : (Rect.unit (s := S64x128) o6 S1x16.size i6).shape.Idx → F .f32)
    (w7 : (Rect.unit (s := S64x128) o7 S1x16.size i7).shape.Idx → F .f32) (w8 : (Rect.unit (s := S64x128) o8 S1x16.size i8).shape.Idx → F .f32)
    (h1 : ∀ x, w1 x = out ((Rect.unit (s := S64x128) o1 S1x16.size i1).emb x)) (h2 : ∀ x, w2 x = out ((Rect.unit (s := S64x128) o2 S1x16.size i2).emb x))
    (h3 : ∀ x, w3 x = out ((Rect.unit (s := S64x128) o3 S1x16.size i3).emb x)) (h4 : ∀ x, w4 x = out ((Rect.unit (s := S64x128) o4 S1x16.size i4).emb x))
    (h5 : ∀ x, w5 x = out ((Rect.unit (s := S64x128) o5 S1x16.size i5).emb x)) (h6 : ∀ x, w6 x = out ((Rect.unit (s := S64x128) o6 S1x16.size i6).emb x))
    (h7 : ∀ x, w7 x = out ((Rect.unit (s := S64x128) o7 S1x16.size i7).emb x)) (h8 : ∀ x, w8 x = out ((Rect.unit (s := S64x128) o8 S1x16.size i8).emb x))
    (hprev : ∀ y : S64x128.Idx, (y 0).val < k → v.read (Elt F) fo y = out y) :
    ∀ y : S64x128.Idx, (y 0).val < k + 1 →
      v.read (Elt F) (v.writes (Elt F) fo [⟨Rect.unit (s := S64x128) o1 S1x16.size i1, w1⟩, ⟨Rect.unit (s := S64x128) o2 S1x16.size i2, w2⟩,
        ⟨Rect.unit (s := S64x128) o3 S1x16.size i3, w3⟩, ⟨Rect.unit (s := S64x128) o4 S1x16.size i4, w4⟩,
        ⟨Rect.unit (s := S64x128) o5 S1x16.size i5, w5⟩, ⟨Rect.unit (s := S64x128) o6 S1x16.size i6, w6⟩,
        ⟨Rect.unit (s := S64x128) o7 S1x16.size i7, w7⟩, ⟨Rect.unit (s := S64x128) o8 S1x16.size i8, w8⟩]) y = out y := by
  subst e1 e2 e3 e4 e5 e6 e7 e8
  intro y hy
  have hy1 : (y 1).val < 128 := (y 1).isLt
  have hmem : ∀ (c : ℕ) (inb : ∀ a, (![k, c] : Fin 2 → ℕ) a + S1x16.size a ≤ S64x128.size a),
      y ∈ (Rect.unit (s := S64x128) ![k, c] S1x16.size inb).set ↔ (y 0).val = k ∧ c ≤ (y 1).val ∧ (y 1).val < c + 16 := by
    intro c inb
    rw [Rect.mem_set_unit]
    constructor
    · intro h
      have h0 := h 0; have h1 := h 1
      simp at h0 h1
      omega
    · intro h a
      match a with
      | ⟨0, _⟩ => simp; omega
      | ⟨1, _⟩ => simp; omega
  by_cases hlt : (y 0).val < k
  · rw [View.read_writes_apply_of_forall_not_mem]
    · exact hprev y hlt
    · intro p hp
      simp only [List.mem_cons, List.not_mem_nil, or_false] at hp
      rcases hp with rfl | rfl | rfl | rfl | rfl | rfl | rfl | rfl <;> (rw [hmem]; omega)
  · refine View.read_writes_apply_of_pieces v fo out _ ?_ y ?_
    · intro p hp
      simp only [List.mem_cons, List.not_mem_nil, or_false] at hp
      rcases hp with rfl | rfl | rfl | rfl | rfl | rfl | rfl | rfl
      · exact h1
      · exact h2
      · exact h3
      · exact h4
      · exact h5
      · exact h6
      · exact h7
      · exact h8
    · have hk : (y 0).val = k := by omega
      rcases hcov (y 1).val hy1 with h | h | h | h | h | h | h | h
      · exact ⟨_, List.mem_cons_self, (hmem c1 i1).mpr ⟨hk, h⟩⟩
      · exact ⟨_, List.mem_cons_of_mem _ List.mem_cons_self, (hmem c2 i2).mpr ⟨hk, h⟩⟩
      · exact ⟨_, List.mem_cons_of_mem _ (List.mem_cons_of_mem _ List.mem_cons_self), (hmem c3 i3).mpr ⟨hk, h⟩⟩
      · exact ⟨_, List.mem_cons_of_mem _ (List.mem_cons_of_mem _ (List.mem_cons_of_mem _ List.mem_cons_self)), (hmem c4 i4).mpr ⟨hk, h⟩⟩
      · exact ⟨_, List.mem_cons_of_mem _ (List.mem_cons_of_mem _ (List.mem_cons_of_mem _ (List.mem_cons_of_mem _ List.mem_cons_self))), (hmem c5 i5).mpr ⟨hk, h⟩⟩
      · exact ⟨_, List.mem_cons_of_mem _ (List.mem_cons_of_mem _ (List.mem_cons_of_mem _ (List.mem_cons_of_mem _ (List.mem_cons_of_mem _ List.mem_cons_self)))), (hmem c6 i6).mpr ⟨hk, h⟩⟩
      · exact ⟨_, List.mem_cons_of_mem _ (List.mem_cons_of_mem _ (List.mem_cons_of_mem _ (List.mem_cons_of_mem _ (List.mem_cons_of_mem _ (List.mem_cons_of_mem _ List.mem_cons_self))))), (hmem c7 i7).mpr ⟨hk, h⟩⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (hmem c8 i8).mpr ⟨hk, h⟩⟩

end Cert.Proof.KB

end
-- ==== Proof.KB.Compute0.lean ====
/-
  The compute loops of the chunks at buffer parity 0 (chunks 0, 2, 4, 6): one trip at a symbolic row `k`. The trip's
  sixteen loads read pieces of row k of the chunk of the batch and of the two gathered scratches, its eight stores
  write row k of the result scratch, eight pieces of 16 lanes; each stored piece is the specification's entries of
  that row there, and the rows below k are untouched.
-/
import proofs.«204629_g89326729822651_cont_sun_m_635_33_alg».proof.Proof.KB.Invs
import proofs.«204629_g89326729822651_cont_sun_m_635_33_alg».proof.Proof.KB.ComputeLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

set_option maxHeartbeats 4000000 in
/-- One trip of chunk 0's compute loop: row `k` of the result scratch is filled with the specification's row. -/
theorem compute_region_t4 (k : Fin k0_t4_loop.trips) (v1 c0 : BitVec 32) :
    computeInv0 m d L (⟨0, by decide⟩ : Fin 8) k.val ()
      ⊢ wp frame (wpE (defs₀ (F := F)) 𝒱₀ (thr d L) none) Set.univ
          (k0_t4_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0 k ())
          (fun acc => computeInv0 m d L (⟨0, by decide⟩ : Fin 8) (k.val + 1) acc) := by
  unfold k0_t4_body
  rw [k0_part1_eq_skeleton, k0_part2_eq_skeleton]
  unfold k0_part1_skel k0_part2_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t4_abs.2.1
  exact row_done (b7).view fo (outChunk m d L (⟨0, by decide⟩ : Fin 8)) k.val 112 48 96 32 80 16 64 0 (by intro j hj; omega)
    (k0_off22 k) (k0_off21 k) (k0_off19 k) (k0_off18 k) (k0_off16 k) (k0_off15 k) (k0_off13 k) (k0_off12 k)
    (k0_off22_inb k) (k0_off21_inb k) (k0_off19_inb k) (k0_off18_inb k) (k0_off16_inb k) (k0_off15_inb k) (k0_off13_inb k) (k0_off12_inb k)
    (k0_off22_eq k) (k0_off21_eq k) (k0_off19_eq k) (k0_off18_eq k) (k0_off16_eq k) (k0_off15_eq k) (k0_off13_eq k) (k0_off12_eq k)
    _ _ _ _ _ _ _ _
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 48 hk (by omega)
      (k0_off21 k) (k0_off22 k) (k0_off22 k) (k0_off23 k) (k0_off23 k) (k0_off21_inb k) (k0_off22_inb k) (k0_off22_inb k) (k0_off23_inb k) (k0_off23_inb k)
      (k0_off21_eq k) (k0_off22_eq k) (k0_off22_eq k) (k0_off23_eq k) (k0_off23_eq k)
      (View.readAt (Elt F) (b1).view (Rect.unit (s := S64x128) (k0_off21 k) S1x16.size (k0_off21_inb k)).toLoadRect (embChunk m d L (⟨0, by decide⟩ : Fin 8))) (View.readAt (Elt F) (b1).view (Rect.unit (s := S64x128) (k0_off22 k) S1x16.size (k0_off22_inb k)).toLoadRect (embChunk m d L (⟨0, by decide⟩ : Fin 8)))
      (View.readAt (Elt F) (b3).view (Rect.unit (s := S64x64) (k0_off23 k) S1x16.size (k0_off23_inb k)).toLoadRect (gathered m d L (m (rLoc d)) (⟨0, by decide⟩ : Fin 8))) (View.readAt (Elt F) (b5).view (Rect.unit (s := S64x64) (k0_off23 k) S1x16.size (k0_off23_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 48 hk (by omega)
      (k0_off21 k) (k0_off22 k) (k0_off21 k) (k0_off23 k) (k0_off23 k) (k0_off21_inb k) (k0_off22_inb k) (k0_off21_inb k) (k0_off23_inb k) (k0_off23_inb k)
      (k0_off21_eq k) (k0_off22_eq k) (k0_off21_eq k) (k0_off23_eq k) (k0_off23_eq k)
      (View.readAt (Elt F) (b1).view (Rect.unit (s := S64x128) (k0_off21 k) S1x16.size (k0_off21_inb k)).toLoadRect (embChunk m d L (⟨0, by decide⟩ : Fin 8))) (View.readAt (Elt F) (b1).view (Rect.unit (s := S64x128) (k0_off22 k) S1x16.size (k0_off22_inb k)).toLoadRect (embChunk m d L (⟨0, by decide⟩ : Fin 8)))
      (View.readAt (Elt F) (b3).view (Rect.unit (s := S64x64) (k0_off23 k) S1x16.size (k0_off23_inb k)).toLoadRect (gathered m d L (m (rLoc d)) (⟨0, by decide⟩ : Fin 8))) (View.readAt (Elt F) (b5).view (Rect.unit (s := S64x64) (k0_off23 k) S1x16.size (k0_off23_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 32 hk (by omega)
      (k0_off18 k) (k0_off19 k) (k0_off19 k) (k0_off20 k) (k0_off20 k) (k0_off18_inb k) (k0_off19_inb k) (k0_off19_inb k) (k0_off20_inb k) (k0_off20_inb k)
      (k0_off18_eq k) (k0_off19_eq k) (k0_off19_eq k) (k0_off20_eq k) (k0_off20_eq k)
      (View.readAt (Elt F) (b1).view (Rect.unit (s := S64x128) (k0_off18 k) S1x16.size (k0_off18_inb k)).toLoadRect (embChunk m d L (⟨0, by decide⟩ : Fin 8))) (View.readAt (Elt F) (b1).view (Rect.unit (s := S64x128) (k0_off19 k) S1x16.size (k0_off19_inb k)).toLoadRect (embChunk m d L (⟨0, by decide⟩ : Fin 8)))
      (View.readAt (Elt F) (b3).view (Rect.unit (s := S64x64) (k0_off20 k) S1x16.size (k0_off20_inb k)).toLoadRect (gathered m d L (m (rLoc d)) (⟨0, by decide⟩ : Fin 8))) (View.readAt (Elt F) (b5).view (Rect.unit (s := S64x64) (k0_off20 k) S1x16.size (k0_off20_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 32 hk (by omega)
      (k0_off18 k) (k0_off19 k) (k0_off18 k) (k0_off20 k) (k0_off20 k) (k0_off18_inb k) (k0_off19_inb k) (k0_off18_inb k) (k0_off20_inb k) (k0_off20_inb k)
      (k0_off18_eq k) (k0_off19_eq k) (k0_off18_eq k) (k0_off20_eq k) (k0_off20_eq k)
      (View.readAt (Elt F) (b1).view (Rect.unit (s := S64x128) (k0_off18 k) S1x16.size (k0_off18_inb k)).toLoadRect (embChunk m d L (⟨0, by decide⟩ : Fin 8))) (View.readAt (Elt F) (b1).view (Rect.unit (s := S64x128) (k0_off19 k) S1x16.size (k0_off19_inb k)).toLoadRect (embChunk m d L (⟨0, by decide⟩ : Fin 8)))
      (View.readAt (Elt F) (b3).view (Rect.unit (s := S64x64) (k0_off20 k) S1x16.size (k0_off20_inb k)).toLoadRect (gathered m d L (m (rLoc d)) (⟨0, by decide⟩ : Fin 8))) (View.readAt (Elt F) (b5).view (Rect.unit (s := S64x64) (k0_off20 k) S1x16.size (k0_off20_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 16 hk (by omega)
      (k0_off15 k) (k0_off16 k) (k0_off16 k) (k0_off17 k) (k0_off17 k) (k0_off15_inb k) (k0_off16_inb k) (k0_off16_inb k) (k0_off17_inb k) (k0_off17_inb k)
      (k0_off15_eq k) (k0_off16_eq k) (k0_off16_eq k) (k0_off17_eq k) (k0_off17_eq k)
      (View.readAt (Elt F) (b1).view (Rect.unit (s := S64x128) (k0_off15 k) S1x16.size (k0_off15_inb k)).toLoadRect (embChunk m d L (⟨0, by decide⟩ : Fin 8))) (View.readAt (Elt F) (b1).view (Rect.unit (s := S64x128) (k0_off16 k) S1x16.size (k0_off16_inb k)).toLoadRect (embChunk m d L (⟨0, by decide⟩ : Fin 8)))
      (View.readAt (Elt F) (b3).view (Rect.unit (s := S64x64) (k0_off17 k) S1x16.size (k0_off17_inb k)).toLoadRect (gathered m d L (m (rLoc d)) (⟨0, by decide⟩ : Fin 8))) (View.readAt (Elt F) (b5).view (Rect.unit (s := S64x64) (k0_off17 k) S1x16.size (k0_off17_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 16 hk (by omega)
      (k0_off15 k) (k0_off16 k) (k0_off15 k) (k0_off17 k) (k0_off17 k) (k0_off15_inb k) (k0_off16_inb k) (k0_off15_inb k) (k0_off17_inb k) (k0_off17_inb k)
      (k0_off15_eq k) (k0_off16_eq k) (k0_off15_eq k) (k0_off17_eq k) (k0_off17_eq k)
      (View.readAt (Elt F) (b1).view (Rect.unit (s := S64x128) (k0_off15 k) S1x16.size (k0_off15_inb k)).toLoadRect (embChunk m d L (⟨0, by decide⟩ : Fin 8))) (View.readAt (Elt F) (b1).view (Rect.unit (s := S64x128) (k0_off16 k) S1x16.size (k0_off16_inb k)).toLoadRect (embChunk m d L (⟨0, by decide⟩ : Fin 8)))
      (View.readAt (Elt F) (b3).view (Rect.unit (s := S64x64) (k0_off17 k) S1x16.size (k0_off17_inb k)).toLoadRect (gathered m d L (m (rLoc d)) (⟨0, by decide⟩ : Fin 8))) (View.readAt (Elt F) (b5).view (Rect.unit (s := S64x64) (k0_off17 k) S1x16.size (k0_off17_inb k)).toLoadRect (gathered m d L (m (gLoc d)) (⟨0, by decide⟩ : Fin 8)))
      (fun _ => rfl) (fun _ => rfl) (fun _ => rfl) (fun _ => rfl))
    (piece_im (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_hi m d L (⟨0, by decide⟩ : Fin 8)) k.val 0 hk (by omega)
      (k0_off12 k) (k0_off13 k) (k0_off13 k) (k0_off14 k) (k0_off14 k) (k0_off12_inb k) (k0_off13_inb k) (k0_off13_inb k) (k0_off14_inb k) (k0_off14_inb k)
      (k0_off12_eq k) (k0_off13_eq k) (k0_off13_eq k) (k0_off14_eq k) (k0_off14_eq k)
      (View.readAt (Elt F) (b1).view (Rect.unit (s := S64x128) (k0_off12 k) S1x16.size (k0_off12_inb k)).toLoadRect (embChunk m d L (⟨0, by decide⟩ : Fin 8))) (View.readAt (Elt F) (b1).view (Rect.unit (s := S64x128) (k0_off13 k) S1x16.size (k0_off13_inb k)).toLoadRect (embChunk m d L (⟨0, by decide⟩ : Fin 8)))
      (View.readAt (Elt F) (b3).view (Rect.unit (s := S64x64) (k0_off14 k) S1x16.size (k0_off14_inb k)).toLoadRect (gathered m d L (m (rLoc d)) (⟨0, by decide⟩ : Fin 8))) (View.readAt (Elt F) (b5).view (Rect.unit (s := S64x64) (k0_off14 k) S1x16.size (k0_off14_inb k)).toLoadRect (gathered m d L (m (gLoc d)) (⟨0, by decide⟩ : Fin 8)))
      (fun _ => rfl) (fun _ => rfl) (fun _ => rfl) (fun _ => rfl))
    (piece_re (embChunk m d L (⟨0, by decide⟩ : Fin 8)) (gathered m d L (m (rLoc d)) (⟨0, by decide⟩ : Fin 8)) (gathered m d L (m (gLoc d)) (⟨0, by decide⟩ : Fin 8)) (outChunk m d L (⟨0, by decide⟩ : Fin 8)) (outChunk_lo m d L (⟨0, by decide⟩ : Fin 8)) k.val 0 hk (by omega)
      (k0_off12 k) (k0_off13 k) (k0_off12 k) (k0_off14 k) (k0_off14 k) (k0_off12_inb k) (k0_off13_inb k) (k0_off12_inb k) (k0_off14_inb k) (k0_off14_inb k)
      (k0_off12_eq k) (k0_off13_eq k) (k0_off12_eq k) (k0_off14_eq k) (k0_off14_eq k)
      (View.readAt (Elt F) (b1).view (Rect.unit (s := S64x128) (k0_off12 k) S1x16.size (k0_off12_inb k)).toLoadRect (embChunk m d L (⟨0, by decide⟩ : Fin 8))) (View.readAt (Elt F) (b1).view (Rect.unit (s := S64x128) (k0_off13 k) S1x16.size (k0_off13_inb k)).toLoadRect (embChunk m d L (⟨0, by decide⟩ : Fin 8)))
      (View.readAt (Elt F) (b3).view (Rect.unit (s := S64x64) (k0_off14 k) S1x16.size (k0_off14_inb k)).toLoadRect (gathered m d L (m (rLoc d)) (⟨0, by decide⟩ : Fin 8))) (View.readAt (Elt F) (b5).view (Rect.unit (s := S64x64) (k0_off14 k) S1x16.size (k0_off14_inb k)).toLoadRect (gathered m d L (m (gLoc d)) (⟨0, by decide⟩ : Fin 8)))
      (fun _ => rfl) (fun _ => rfl) (fun _ => rfl) (fun _ => rfl))
    hfo

set_option maxHeartbeats 4000000 in
/-- One trip of chunk 2's compute loop: row `k` of the result scratch is filled with the specification's row. -/
theorem compute_region_t10 (k : Fin k0_t10_loop.trips) (v1 : BitVec 32) :
    computeInv0 m d L (⟨2, by decide⟩ : Fin 8) k.val ()
      ⊢ wp frame (wpE (defs₀ (F := F)) 𝒱₀ (thr d L) none) Set.univ
          (k0_t10_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨2, by decide⟩ : Fin 8) (k.val + 1) acc) := by
  unfold k0_t10_body
  rw [k0_part5_eq_skeleton, k0_part6_eq_skeleton]
  unfold k0_part5_skel k0_part6_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t10_abs.2.1
  exact row_done (b7).view fo (outChunk m d L (⟨2, by decide⟩ : Fin 8)) k.val 112 48 96 32 80 16 64 0 (by intro j hj; omega)
    (k0_off56 k) (k0_off55 k) (k0_off53 k) (k0_off52 k) (k0_off50 k) (k0_off49 k) (k0_off47 k) (k0_off46 k)
    (k0_off56_inb k) (k0_off55_inb k) (k0_off53_inb k) (k0_off52_inb k) (k0_off50_inb k) (k0_off49_inb k) (k0_off47_inb k) (k0_off46_inb k)
    (k0_off56_eq k) (k0_off55_eq k) (k0_off53_eq k) (k0_off52_eq k) (k0_off50_eq k) (k0_off49_eq k) (k0_off47_eq k) (k0_off46_eq k)
    _ _ _ _ _ _ _ _
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 48 hk (by omega)
      (k0_off55 k) (k0_off56 k) (k0_off56 k) (k0_off57 k) (k0_off57 k) (k0_off55_inb k) (k0_off56_inb k) (k0_off56_inb k) (k0_off57_inb k) (k0_off57_inb k)
      (k0_off55_eq k) (k0_off56_eq k) (k0_off56_eq k) (k0_off57_eq k) (k0_off57_eq k)
      (View.readAt (Elt F) (b1).view (Rect.unit (s := S64x128) (k0_off55 k) S1x16.size (k0_off55_inb k)).toLoadRect (embChunk m d L (⟨2, by decide⟩ : Fin 8))) (View.readAt (Elt F) (b1).view (Rect.unit (s := S64x128) (k0_off56 k) S1x16.size (k0_off56_inb k)).toLoadRect (embChunk m d L (⟨2, by decide⟩ : Fin 8)))
      (View.readAt (Elt F) (b3).view (Rect.unit (s := S64x64) (k0_off57 k) S1x16.size (k0_off57_inb k)).toLoadRect (gathered m d L (m (rLoc d)) (⟨2, by decide⟩ : Fin 8))) (View.readAt (Elt F) (b5).view (Rect.unit (s := S64x64) (k0_off57 k) S1x16.size (k0_off57_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 48 hk (by omega)
      (k0_off55 k) (k0_off56 k) (k0_off55 k) (k0_off57 k) (k0_off57 k) (k0_off55_inb k) (k0_off56_inb k) (k0_off55_inb k) (k0_off57_inb k) (k0_off57_inb k)
      (k0_off55_eq k) (k0_off56_eq k) (k0_off55_eq k) (k0_off57_eq k) (k0_off57_eq k)
      (View.readAt (Elt F) (b1).view (Rect.unit (s := S64x128) (k0_off55 k) S1x16.size (k0_off55_inb k)).toLoadRect (embChunk m d L (⟨2, by decide⟩ : Fin 8))) (View.readAt (Elt F) (b1).view (Rect.unit (s := S64x128) (k0_off56 k) S1x16.size (k0_off56_inb k)).toLoadRect (embChunk m d L (⟨2, by decide⟩ : Fin 8)))
      (View.readAt (Elt F) (b3).view (Rect.unit (s := S64x64) (k0_off57 k) S1x16.size (k0_off57_inb k)).toLoadRect (gathered m d L (m (rLoc d)) (⟨2, by decide⟩ : Fin 8))) (View.readAt (Elt F) (b5).view (Rect.unit (s := S64x64) (k0_off57 k) S1x16.size (k0_off57_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 32 hk (by omega)
      (k0_off52 k) (k0_off53 k) (k0_off53 k) (k0_off54 k) (k0_off54 k) (k0_off52_inb k) (k0_off53_inb k) (k0_off53_inb k) (k0_off54_inb k) (k0_off54_inb k)
      (k0_off52_eq k) (k0_off53_eq k) (k0_off53_eq k) (k0_off54_eq k) (k0_off54_eq k)
      (View.readAt (Elt F) (b1).view (Rect.unit (s := S64x128) (k0_off52 k) S1x16.size (k0_off52_inb k)).toLoadRect (embChunk m d L (⟨2, by decide⟩ : Fin 8))) (View.readAt (Elt F) (b1).view (Rect.unit (s := S64x128) (k0_off53 k) S1x16.size (k0_off53_inb k)).toLoadRect (embChunk m d L (⟨2, by decide⟩ : Fin 8)))
      (View.readAt (Elt F) (b3).view (Rect.unit (s := S64x64) (k0_off54 k) S1x16.size (k0_off54_inb k)).toLoadRect (gathered m d L (m (rLoc d)) (⟨2, by decide⟩ : Fin 8))) (View.readAt (Elt F) (b5).view (Rect.unit (s := S64x64) (k0_off54 k) S1x16.size (k0_off54_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 32 hk (by omega)
      (k0_off52 k) (k0_off53 k) (k0_off52 k) (k0_off54 k) (k0_off54 k) (k0_off52_inb k) (k0_off53_inb k) (k0_off52_inb k) (k0_off54_inb k) (k0_off54_inb k)
      (k0_off52_eq k) (k0_off53_eq k) (k0_off52_eq k) (k0_off54_eq k) (k0_off54_eq k)
      (View.readAt (Elt F) (b1).view (Rect.unit (s := S64x128) (k0_off52 k) S1x16.size (k0_off52_inb k)).toLoadRect (embChunk m d L (⟨2, by decide⟩ : Fin 8))) (View.readAt (Elt F) (b1).view (Rect.unit (s := S64x128) (k0_off53 k) S1x16.size (k0_off53_inb k)).toLoadRect (embChunk m d L (⟨2, by decide⟩ : Fin 8)))
      (View.readAt (Elt F) (b3).view (Rect.unit (s := S64x64) (k0_off54 k) S1x16.size (k0_off54_inb k)).toLoadRect (gathered m d L (m (rLoc d)) (⟨2, by decide⟩ : Fin 8))) (View.readAt (Elt F) (b5).view (Rect.unit (s := S64x64) (k0_off54 k) S1x16.size (k0_off54_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 16 hk (by omega)
      (k0_off49 k) (k0_off50 k) (k0_off50 k) (k0_off51 k) (k0_off51 k) (k0_off49_inb k) (k0_off50_inb k) (k0_off50_inb k) (k0_off51_inb k) (k0_off51_inb k)
      (k0_off49_eq k) (k0_off50_eq k) (k0_off50_eq k) (k0_off51_eq k) (k0_off51_eq k)
      (View.readAt (Elt F) (b1).view (Rect.unit (s := S64x128) (k0_off49 k) S1x16.size (k0_off49_inb k)).toLoadRect (embChunk m d L (⟨2, by decide⟩ : Fin 8))) (View.readAt (Elt F) (b1).view (Rect.unit (s := S64x128) (k0_off50 k) S1x16.size (k0_off50_inb k)).toLoadRect (embChunk m d L (⟨2, by decide⟩ : Fin 8)))
      (View.readAt (Elt F) (b3).view (Rect.unit (s := S64x64) (k0_off51 k) S1x16.size (k0_off51_inb k)).toLoadRect (gathered m d L (m (rLoc d)) (⟨2, by decide⟩ : Fin 8))) (View.readAt (Elt F) (b5).view (Rect.unit (s := S64x64) (k0_off51 k) S1x16.size (k0_off51_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 16 hk (by omega)
      (k0_off49 k) (k0_off50 k) (k0_off49 k) (k0_off51 k) (k0_off51 k) (k0_off49_inb k) (k0_off50_inb k) (k0_off49_inb k) (k0_off51_inb k) (k0_off51_inb k)
      (k0_off49_eq k) (k0_off50_eq k) (k0_off49_eq k) (k0_off51_eq k) (k0_off51_eq k)
      (View.readAt (Elt F) (b1).view (Rect.unit (s := S64x128) (k0_off49 k) S1x16.size (k0_off49_inb k)).toLoadRect (embChunk m d L (⟨2, by decide⟩ : Fin 8))) (View.readAt (Elt F) (b1).view (Rect.unit (s := S64x128) (k0_off50 k) S1x16.size (k0_off50_inb k)).toLoadRect (embChunk m d L (⟨2, by decide⟩ : Fin 8)))
      (View.readAt (Elt F) (b3).view (Rect.unit (s := S64x64) (k0_off51 k) S1x16.size (k0_off51_inb k)).toLoadRect (gathered m d L (m (rLoc d)) (⟨2, by decide⟩ : Fin 8))) (View.readAt (Elt F) (b5).view (Rect.unit (s := S64x64) (k0_off51 k) S1x16.size (k0_off51_inb k)).toLoadRect (gathered m d L (m (gLoc d)) (⟨2, by decide⟩ : Fin 8)))
      (fun _ => rfl) (fun _ => rfl) (fun _ => rfl) (fun _ => rfl))
    (piece_im (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_hi m d L (⟨2, by decide⟩ : Fin 8)) k.val 0 hk (by omega)
      (k0_off46 k) (k0_off47 k) (k0_off47 k) (k0_off48 k) (k0_off48 k) (k0_off46_inb k) (k0_off47_inb k) (k0_off47_inb k) (k0_off48_inb k) (k0_off48_inb k)
      (k0_off46_eq k) (k0_off47_eq k) (k0_off47_eq k) (k0_off48_eq k) (k0_off48_eq k)
      (View.readAt (Elt F) (b1).view (Rect.unit (s := S64x128) (k0_off46 k) S1x16.size (k0_off46_inb k)).toLoadRect (embChunk m d L (⟨2, by decide⟩ : Fin 8))) (View.readAt (Elt F) (b1).view (Rect.unit (s := S64x128) (k0_off47 k) S1x16.size (k0_off47_inb k)).toLoadRect (embChunk m d L (⟨2, by decide⟩ : Fin 8)))
      (View.readAt (Elt F) (b3).view (Rect.unit (s := S64x64) (k0_off48 k) S1x16.size (k0_off48_inb k)).toLoadRect (gathered m d L (m (rLoc d)) (⟨2, by decide⟩ : Fin 8))) (View.readAt (Elt F) (b5).view (Rect.unit (s := S64x64) (k0_off48 k) S1x16.size (k0_off48_inb k)).toLoadRect (gathered m d L (m (gLoc d)) (⟨2, by decide⟩ : Fin 8)))
      (fun _ => rfl) (fun _ => rfl) (fun _ => rfl) (fun _ => rfl))
    (piece_re (embChunk m d L (⟨2, by decide⟩ : Fin 8)) (gathered m d L (m (rLoc d)) (⟨2, by decide⟩ : Fin 8)) (gathered m d L (m (gLoc d)) (⟨2, by decide⟩ : Fin 8)) (outChunk m d L (⟨2, by decide⟩ : Fin 8)) (outChunk_lo m d L (⟨2, by decide⟩ : Fin 8)) k.val 0 hk (by omega)
      (k0_off46 k) (k0_off47 k) (k0_off46 k) (k0_off48 k) (k0_off48 k) (k0_off46_inb k) (k0_off47_inb k) (k0_off46_inb k) (k0_off48_inb k) (k0_off48_inb k)
      (k0_off46_eq k) (k0_off47_eq k) (k0_off46_eq k) (k0_off48_eq k) (k0_off48_eq k)
      (View.readAt (Elt F) (b1).view (Rect.unit (s := S64x128) (k0_off46 k) S1x16.size (k0_off46_inb k)).toLoadRect (embChunk m d L (⟨2, by decide⟩ : Fin 8))) (View.readAt (Elt F) (b1).view (Rect.unit (s := S64x128) (k0_off47 k) S1x16.size (k0_off47_inb k)).toLoadRect (embChunk m d L (⟨2, by decide⟩ : Fin 8)))
      (View.readAt (Elt F) (b3).view (Rect.unit (s := S64x64) (k0_off48 k) S1x16.size (k0_off48_inb k)).toLoadRect (gathered m d L (m (rLoc d)) (⟨2, by decide⟩ : Fin 8))) (View.readAt (Elt F) (b5).view (Rect.unit (s := S64x64) (k0_off48 k) S1x16.size (k0_off48_inb k)).toLoadRect (gathered m d L (m (gLoc d)) (⟨2, by decide⟩ : Fin 8)))
      (fun _ => rfl) (fun _ => rfl) (fun _ => rfl) (fun _ => rfl))
    hfo

set_option maxHeartbeats 4000000 in
/-- One trip of chunk 4's compute loop: row `k` of the result scratch is filled with the specification's row. -/
theorem compute_region_t16 (k : Fin k0_t16_loop.trips) (v1 : BitVec 32) :
    computeInv0 m d L (⟨4, by decide⟩ : Fin 8) k.val ()
      ⊢ wp frame (wpE (defs₀ (F := F)) 𝒱₀ (thr d L) none) Set.univ
          (k0_t16_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨4, by decide⟩ : Fin 8) (k.val + 1) acc) := by
  unfold k0_t16_body
  rw [k0_part9_eq_skeleton, k0_part10_eq_skeleton]
  unfold k0_part9_skel k0_part10_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t16_abs.2.1
  exact row_done (b7).view fo (outChunk m d L (⟨4, by decide⟩ : Fin 8)) k.val 112 48 96 32 80 16 64 0 (by intro j hj; omega)
    (k0_off90 k) (k0_off89 k) (k0_off87 k) (k0_off86 k) (k0_off84 k) (k0_off83 k) (k0_off81 k) (k0_off80 k)
    (k0_off90_inb k) (k0_off89_inb k) (k0_off87_inb k) (k0_off86_inb k) (k0_off84_inb k) (k0_off83_inb k) (k0_off81_inb k) (k0_off80_inb k)
    (k0_off90_eq k) (k0_off89_eq k) (k0_off87_eq k) (k0_off86_eq k) (k0_off84_eq k) (k0_off83_eq k) (k0_off81_eq k) (k0_off80_eq k)
    _ _ _ _ _ _ _ _
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 48 hk (by omega)
      (k0_off89 k) (k0_off90 k) (k0_off90 k) (k0_off91 k) (k0_off91 k) (k0_off89_inb k) (k0_off90_inb k) (k0_off90_inb k) (k0_off91_inb k) (k0_off91_inb k)
      (k0_off89_eq k) (k0_off90_eq k) (k0_off90_eq k) (k0_off91_eq k) (k0_off91_eq k)
      (View.readAt (Elt F) (b1).view (Rect.unit (s := S64x128) (k0_off89 k) S1x16.size (k0_off89_inb k)).toLoadRect (embChunk m d L (⟨4, by decide⟩ : Fin 8))) (View.readAt (Elt F) (b1).view (Rect.unit (s := S64x128) (k0_off90 k) S1x16.size (k0_off90_inb k)).toLoadRect (embChunk m d L (⟨4, by decide⟩ : Fin 8)))
      (View.readAt (Elt F) (b3).view (Rect.unit (s := S64x64) (k0_off91 k) S1x16.size (k0_off91_inb k)).toLoadRect (gathered m d L (m (rLoc d)) (⟨4, by decide⟩ : Fin 8))) (View.readAt (Elt F) (b5).view (Rect.unit (s := S64x64) (k0_off91 k) S1x16.size (k0_off91_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 48 hk (by omega)
      (k0_off89 k) (k0_off90 k) (k0_off89 k) (k0_off91 k) (k0_off91 k) (k0_off89_inb k) (k0_off90_inb k) (k0_off89_inb k) (k0_off91_inb k) (k0_off91_inb k)
      (k0_off89_eq k) (k0_off90_eq k) (k0_off89_eq k) (k0_off91_eq k) (k0_off91_eq k)
      (View.readAt (Elt F) (b1).view (Rect.unit (s := S64x128) (k0_off89 k) S1x16.size (k0_off89_inb k)).toLoadRect (embChunk m d L (⟨4, by decide⟩ : Fin 8))) (View.readAt (Elt F) (b1).view (Rect.unit (s := S64x128) (k0_off90 k) S1x16.size (k0_off90_inb k)).toLoadRect (embChunk m d L (⟨4, by decide⟩ : Fin 8)))
      (View.readAt (Elt F) (b3).view (Rect.unit (s := S64x64) (k0_off91 k) S1x16.size (k0_off91_inb k)).toLoadRect (gathered m d L (m (rLoc d)) (⟨4, by decide⟩ : Fin 8))) (View.readAt (Elt F) (b5).view (Rect.unit (s := S64x64) (k0_off91 k) S1x16.size (k0_off91_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 32 hk (by omega)
      (k0_off86 k) (k0_off87 k) (k0_off87 k) (k0_off88 k) (k0_off88 k) (k0_off86_inb k) (k0_off87_inb k) (k0_off87_inb k) (k0_off88_inb k) (k0_off88_inb k)
      (k0_off86_eq k) (k0_off87_eq k) (k0_off87_eq k) (k0_off88_eq k) (k0_off88_eq k)
      (View.readAt (Elt F) (b1).view (Rect.unit (s := S64x128) (k0_off86 k) S1x16.size (k0_off86_inb k)).toLoadRect (embChunk m d L (⟨4, by decide⟩ : Fin 8))) (View.readAt (Elt F) (b1).view (Rect.unit (s := S64x128) (k0_off87 k) S1x16.size (k0_off87_inb k)).toLoadRect (embChunk m d L (⟨4, by decide⟩ : Fin 8)))
      (View.readAt (Elt F) (b3).view (Rect.unit (s := S64x64) (k0_off88 k) S1x16.size (k0_off88_inb k)).toLoadRect (gathered m d L (m (rLoc d)) (⟨4, by decide⟩ : Fin 8))) (View.readAt (Elt F) (b5).view (Rect.unit (s := S64x64) (k0_off88 k) S1x16.size (k0_off88_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 32 hk (by omega)
      (k0_off86 k) (k0_off87 k) (k0_off86 k) (k0_off88 k) (k0_off88 k) (k0_off86_inb k) (k0_off87_inb k) (k0_off86_inb k) (k0_off88_inb k) (k0_off88_inb k)
      (k0_off86_eq k) (k0_off87_eq k) (k0_off86_eq k) (k0_off88_eq k) (k0_off88_eq k)
      (View.readAt (Elt F) (b1).view (Rect.unit (s := S64x128) (k0_off86 k) S1x16.size (k0_off86_inb k)).toLoadRect (embChunk m d L (⟨4, by decide⟩ : Fin 8))) (View.readAt (Elt F) (b1).view (Rect.unit (s := S64x128) (k0_off87 k) S1x16.size (k0_off87_inb k)).toLoadRect (embChunk m d L (⟨4, by decide⟩ : Fin 8)))
      (View.readAt (Elt F) (b3).view (Rect.unit (s := S64x64) (k0_off88 k) S1x16.size (k0_off88_inb k)).toLoadRect (gathered m d L (m (rLoc d)) (⟨4, by decide⟩ : Fin 8))) (View.readAt (Elt F) (b5).view (Rect.unit (s := S64x64) (k0_off88 k) S1x16.size (k0_off88_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 16 hk (by omega)
      (k0_off83 k) (k0_off84 k) (k0_off84 k) (k0_off85 k) (k0_off85 k) (k0_off83_inb k) (k0_off84_inb k) (k0_off84_inb k) (k0_off85_inb k) (k0_off85_inb k)
      (k0_off83_eq k) (k0_off84_eq k) (k0_off84_eq k) (k0_off85_eq k) (k0_off85_eq k)
      (View.readAt (Elt F) (b1).view (Rect.unit (s := S64x128) (k0_off83 k) S1x16.size (k0_off83_inb k)).toLoadRect (embChunk m d L (⟨4, by decide⟩ : Fin 8))) (View.readAt (Elt F) (b1).view (Rect.unit (s := S64x128) (k0_off84 k) S1x16.size (k0_off84_inb k)).toLoadRect (embChunk m d L (⟨4, by decide⟩ : Fin 8)))
      (View.readAt (Elt F) (b3).view (Rect.unit (s := S64x64) (k0_off85 k) S1x16.size (k0_off85_inb k)).toLoadRect (gathered m d L (m (rLoc d)) (⟨4, by decide⟩ : Fin 8))) (View.readAt (Elt F) (b5).view (Rect.unit (s := S64x64) (k0_off85 k) S1x16.size (k0_off85_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 16 hk (by omega)
      (k0_off83 k) (k0_off84 k) (k0_off83 k) (k0_off85 k) (k0_off85 k) (k0_off83_inb k) (k0_off84_inb k) (k0_off83_inb k) (k0_off85_inb k) (k0_off85_inb k)
      (k0_off83_eq k) (k0_off84_eq k) (k0_off83_eq k) (k0_off85_eq k) (k0_off85_eq k)
      (View.readAt (Elt F) (b1).view (Rect.unit (s := S64x128) (k0_off83 k) S1x16.size (k0_off83_inb k)).toLoadRect (embChunk m d L (⟨4, by decide⟩ : Fin 8))) (View.readAt (Elt F) (b1).view (Rect.unit (s := S64x128) (k0_off84 k) S1x16.size (k0_off84_inb k)).toLoadRect (embChunk m d L (⟨4, by decide⟩ : Fin 8)))
      (View.readAt (Elt F) (b3).view (Rect.unit (s := S64x64) (k0_off85 k) S1x16.size (k0_off85_inb k)).toLoadRect (gathered m d L (m (rLoc d)) (⟨4, by decide⟩ : Fin 8))) (View.readAt (Elt F) (b5).view (Rect.unit (s := S64x64) (k0_off85 k) S1x16.size (k0_off85_inb k)).toLoadRect (gathered m d L (m (gLoc d)) (⟨4, by decide⟩ : Fin 8)))
      (fun _ => rfl) (fun _ => rfl) (fun _ => rfl) (fun _ => rfl))
    (piece_im (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_hi m d L (⟨4, by decide⟩ : Fin 8)) k.val 0 hk (by omega)
      (k0_off80 k) (k0_off81 k) (k0_off81 k) (k0_off82 k) (k0_off82 k) (k0_off80_inb k) (k0_off81_inb k) (k0_off81_inb k) (k0_off82_inb k) (k0_off82_inb k)
      (k0_off80_eq k) (k0_off81_eq k) (k0_off81_eq k) (k0_off82_eq k) (k0_off82_eq k)
      (View.readAt (Elt F) (b1).view (Rect.unit (s := S64x128) (k0_off80 k) S1x16.size (k0_off80_inb k)).toLoadRect (embChunk m d L (⟨4, by decide⟩ : Fin 8))) (View.readAt (Elt F) (b1).view (Rect.unit (s := S64x128) (k0_off81 k) S1x16.size (k0_off81_inb k)).toLoadRect (embChunk m d L (⟨4, by decide⟩ : Fin 8)))
      (View.readAt (Elt F) (b3).view (Rect.unit (s := S64x64) (k0_off82 k) S1x16.size (k0_off82_inb k)).toLoadRect (gathered m d L (m (rLoc d)) (⟨4, by decide⟩ : Fin 8))) (View.readAt (Elt F) (b5).view (Rect.unit (s := S64x64) (k0_off82 k) S1x16.size (k0_off82_inb k)).toLoadRect (gathered m d L (m (gLoc d)) (⟨4, by decide⟩ : Fin 8)))
      (fun _ => rfl) (fun _ => rfl) (fun _ => rfl) (fun _ => rfl))
    (piece_re (embChunk m d L (⟨4, by decide⟩ : Fin 8)) (gathered m d L (m (rLoc d)) (⟨4, by decide⟩ : Fin 8)) (gathered m d L (m (gLoc d)) (⟨4, by decide⟩ : Fin 8)) (outChunk m d L (⟨4, by decide⟩ : Fin 8)) (outChunk_lo m d L (⟨4, by decide⟩ : Fin 8)) k.val 0 hk (by omega)
      (k0_off80 k) (k0_off81 k) (k0_off80 k) (k0_off82 k) (k0_off82 k) (k0_off80_inb k) (k0_off81_inb k) (k0_off80_inb k) (k0_off82_inb k) (k0_off82_inb k)
      (k0_off80_eq k) (k0_off81_eq k) (k0_off80_eq k) (k0_off82_eq k) (k0_off82_eq k)
      (View.readAt (Elt F) (b1).view (Rect.unit (s := S64x128) (k0_off80 k) S1x16.size (k0_off80_inb k)).toLoadRect (embChunk m d L (⟨4, by decide⟩ : Fin 8))) (View.readAt (Elt F) (b1).view (Rect.unit (s := S64x128) (k0_off81 k) S1x16.size (k0_off81_inb k)).toLoadRect (embChunk m d L (⟨4, by decide⟩ : Fin 8)))
      (View.readAt (Elt F) (b3).view (Rect.unit (s := S64x64) (k0_off82 k) S1x16.size (k0_off82_inb k)).toLoadRect (gathered m d L (m (rLoc d)) (⟨4, by decide⟩ : Fin 8))) (View.readAt (Elt F) (b5).view (Rect.unit (s := S64x64) (k0_off82 k) S1x16.size (k0_off82_inb k)).toLoadRect (gathered m d L (m (gLoc d)) (⟨4, by decide⟩ : Fin 8)))
      (fun _ => rfl) (fun _ => rfl) (fun _ => rfl) (fun _ => rfl))
    hfo

set_option maxHeartbeats 4000000 in
/-- One trip of chunk 6's compute loop: row `k` of the result scratch is filled with the specification's row. -/
theorem compute_region_t22 (k : Fin k0_t22_loop.trips) (v1 : BitVec 32) :
    computeInv0 m d L (⟨6, by decide⟩ : Fin 8) k.val ()
      ⊢ wp frame (wpE (defs₀ (F := F)) 𝒱₀ (thr d L) none) Set.univ
          (k0_t22_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv0 m d L (⟨6, by decide⟩ : Fin 8) (k.val + 1) acc) := by
  unfold k0_t22_body
  rw [k0_part13_eq_skeleton, k0_part14_eq_skeleton]
  unfold k0_part13_skel k0_part14_skel
  unfold computeInv0
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t22_abs.2.1
  exact row_done (b7).view fo (outChunk m d L (⟨6, by decide⟩ : Fin 8)) k.val 112 48 96 32 80 16 64 0 (by intro j hj; omega)
    (k0_off124 k) (k0_off123 k) (k0_off121 k) (k0_off120 k) (k0_off118 k) (k0_off117 k) (k0_off115 k) (k0_off114 k)
    (k0_off124_inb k) (k0_off123_inb k) (k0_off121_inb k) (k0_off120_inb k) (k0_off118_inb k) (k0_off117_inb k) (k0_off115_inb k) (k0_off114_inb k)
    (k0_off124_eq k) (k0_off123_eq k) (k0_off121_eq k) (k0_off120_eq k) (k0_off118_eq k) (k0_off117_eq k) (k0_off115_eq k) (k0_off114_eq k)
    _ _ _ _ _ _ _ _
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 48 hk (by omega)
      (k0_off123 k) (k0_off124 k) (k0_off124 k) (k0_off125 k) (k0_off125 k) (k0_off123_inb k) (k0_off124_inb k) (k0_off124_inb k) (k0_off125_inb k) (k0_off125_inb k)
      (k0_off123_eq k) (k0_off124_eq k) (k0_off124_eq k) (k0_off125_eq k) (k0_off125_eq k)
      (View.readAt (Elt F) (b1).view (Rect.unit (s := S64x128) (k0_off123 k) S1x16.size (k0_off123_inb k)).toLoadRect (embChunk m d L (⟨6, by decide⟩ : Fin 8))) (View.readAt (Elt F) (b1).view (Rect.unit (s := S64x128) (k0_off124 k) S1x16.size (k0_off124_inb k)).toLoadRect (embChunk m d L (⟨6, by decide⟩ : Fin 8)))
      (View.readAt (Elt F) (b3).view (Rect.unit (s := S64x64) (k0_off125 k) S1x16.size (k0_off125_inb k)).toLoadRect (gathered m d L (m (rLoc d)) (⟨6, by decide⟩ : Fin 8))) (View.readAt (Elt F) (b5).view (Rect.unit (s := S64x64) (k0_off125 k) S1x16.size (k0_off125_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 48 hk (by omega)
      (k0_off123 k) (k0_off124 k) (k0_off123 k) (k0_off125 k) (k0_off125 k) (k0_off123_inb k) (k0_off124_inb k) (k0_off123_inb k) (k0_off125_inb k) (k0_off125_inb k)
      (k0_off123_eq k) (k0_off124_eq k) (k0_off123_eq k) (k0_off125_eq k) (k0_off125_eq k)
      (View.readAt (Elt F) (b1).view (Rect.unit (s := S64x128) (k0_off123 k) S1x16.size (k0_off123_inb k)).toLoadRect (embChunk m d L (⟨6, by decide⟩ : Fin 8))) (View.readAt (Elt F) (b1).view (Rect.unit (s := S64x128) (k0_off124 k) S1x16.size (k0_off124_inb k)).toLoadRect (embChunk m d L (⟨6, by decide⟩ : Fin 8)))
      (View.readAt (Elt F) (b3).view (Rect.unit (s := S64x64) (k0_off125 k) S1x16.size (k0_off125_inb k)).toLoadRect (gathered m d L (m (rLoc d)) (⟨6, by decide⟩ : Fin 8))) (View.readAt (Elt F) (b5).view (Rect.unit (s := S64x64) (k0_off125 k) S1x16.size (k0_off125_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 32 hk (by omega)
      (k0_off120 k) (k0_off121 k) (k0_off121 k) (k0_off122 k) (k0_off122 k) (k0_off120_inb k) (k0_off121_inb k) (k0_off121_inb k) (k0_off122_inb k) (k0_off122_inb k)
      (k0_off120_eq k) (k0_off121_eq k) (k0_off121_eq k) (k0_off122_eq k) (k0_off122_eq k)
      (View.readAt (Elt F) (b1).view (Rect.unit (s := S64x128) (k0_off120 k) S1x16.size (k0_off120_inb k)).toLoadRect (embChunk m d L (⟨6, by decide⟩ : Fin 8))) (View.readAt (Elt F) (b1).view (Rect.unit (s := S64x128) (k0_off121 k) S1x16.size (k0_off121_inb k)).toLoadRect (embChunk m d L (⟨6, by decide⟩ : Fin 8)))
      (View.readAt (Elt F) (b3).view (Rect.unit (s := S64x64) (k0_off122 k) S1x16.size (k0_off122_inb k)).toLoadRect (gathered m d L (m (rLoc d)) (⟨6, by decide⟩ : Fin 8))) (View.readAt (Elt F) (b5).view (Rect.unit (s := S64x64) (k0_off122 k) S1x16.size (k0_off122_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 32 hk (by omega)
      (k0_off120 k) (k0_off121 k) (k0_off120 k) (k0_off122 k) (k0_off122 k) (k0_off120_inb k) (k0_off121_inb k) (k0_off120_inb k) (k0_off122_inb k) (k0_off122_inb k)
      (k0_off120_eq k) (k0_off121_eq k) (k0_off120_eq k) (k0_off122_eq k) (k0_off122_eq k)
      (View.readAt (Elt F) (b1).view (Rect.unit (s := S64x128) (k0_off120 k) S1x16.size (k0_off120_inb k)).toLoadRect (embChunk m d L (⟨6, by decide⟩ : Fin 8))) (View.readAt (Elt F) (b1).view (Rect.unit (s := S64x128) (k0_off121 k) S1x16.size (k0_off121_inb k)).toLoadRect (embChunk m d L (⟨6, by decide⟩ : Fin 8)))
      (View.readAt (Elt F) (b3).view (Rect.unit (s := S64x64) (k0_off122 k) S1x16.size (k0_off122_inb k)).toLoadRect (gathered m d L (m (rLoc d)) (⟨6, by decide⟩ : Fin 8))) (View.readAt (Elt F) (b5).view (Rect.unit (s := S64x64) (k0_off122 k) S1x16.size (k0_off122_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 16 hk (by omega)
      (k0_off117 k) (k0_off118 k) (k0_off118 k) (k0_off119 k) (k0_off119 k) (k0_off117_inb k) (k0_off118_inb k) (k0_off118_inb k) (k0_off119_inb k) (k0_off119_inb k)
      (k0_off117_eq k) (k0_off118_eq k) (k0_off118_eq k) (k0_off119_eq k) (k0_off119_eq k)
      (View.readAt (Elt F) (b1).view (Rect.unit (s := S64x128) (k0_off117 k) S1x16.size (k0_off117_inb k)).toLoadRect (embChunk m d L (⟨6, by decide⟩ : Fin 8))) (View.readAt (Elt F) (b1).view (Rect.unit (s := S64x128) (k0_off118 k) S1x16.size (k0_off118_inb k)).toLoadRect (embChunk m d L (⟨6, by decide⟩ : Fin 8)))
      (View.readAt (Elt F) (b3).view (Rect.unit (s := S64x64) (k0_off119 k) S1x16.size (k0_off119_inb k)).toLoadRect (gathered m d L (m (rLoc d)) (⟨6, by decide⟩ : Fin 8))) (View.readAt (Elt F) (b5).view (Rect.unit (s := S64x64) (k0_off119 k) S1x16.size (k0_off119_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 16 hk (by omega)
      (k0_off117 k) (k0_off118 k) (k0_off117 k) (k0_off119 k) (k0_off119 k) (k0_off117_inb k) (k0_off118_inb k) (k0_off117_inb k) (k0_off119_inb k) (k0_off119_inb k)
      (k0_off117_eq k) (k0_off118_eq k) (k0_off117_eq k) (k0_off119_eq k) (k0_off119_eq k)
      (View.readAt (Elt F) (b1).view (Rect.unit (s := S64x128) (k0_off117 k) S1x16.size (k0_off117_inb k)).toLoadRect (embChunk m d L (⟨6, by decide⟩ : Fin 8))) (View.readAt (Elt F) (b1).view (Rect.unit (s := S64x128) (k0_off118 k) S1x16.size (k0_off118_inb k)).toLoadRect (embChunk m d L (⟨6, by decide⟩ : Fin 8)))
      (View.readAt (Elt F) (b3).view (Rect.unit (s := S64x64) (k0_off119 k) S1x16.size (k0_off119_inb k)).toLoadRect (gathered m d L (m (rLoc d)) (⟨6, by decide⟩ : Fin 8))) (View.readAt (Elt F) (b5).view (Rect.unit (s := S64x64) (k0_off119 k) S1x16.size (k0_off119_inb k)).toLoadRect (gathered m d L (m (gLoc d)) (⟨6, by decide⟩ : Fin 8)))
      (fun _ => rfl) (fun _ => rfl) (fun _ => rfl) (fun _ => rfl))
    (piece_im (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_hi m d L (⟨6, by decide⟩ : Fin 8)) k.val 0 hk (by omega)
      (k0_off114 k) (k0_off115 k) (k0_off115 k) (k0_off116 k) (k0_off116 k) (k0_off114_inb k) (k0_off115_inb k) (k0_off115_inb k) (k0_off116_inb k) (k0_off116_inb k)
      (k0_off114_eq k) (k0_off115_eq k) (k0_off115_eq k) (k0_off116_eq k) (k0_off116_eq k)
      (View.readAt (Elt F) (b1).view (Rect.unit (s := S64x128) (k0_off114 k) S1x16.size (k0_off114_inb k)).toLoadRect (embChunk m d L (⟨6, by decide⟩ : Fin 8))) (View.readAt (Elt F) (b1).view (Rect.unit (s := S64x128) (k0_off115 k) S1x16.size (k0_off115_inb k)).toLoadRect (embChunk m d L (⟨6, by decide⟩ : Fin 8)))
      (View.readAt (Elt F) (b3).view (Rect.unit (s := S64x64) (k0_off116 k) S1x16.size (k0_off116_inb k)).toLoadRect (gathered m d L (m (rLoc d)) (⟨6, by decide⟩ : Fin 8))) (View.readAt (Elt F) (b5).view (Rect.unit (s := S64x64) (k0_off116 k) S1x16.size (k0_off116_inb k)).toLoadRect (gathered m d L (m (gLoc d)) (⟨6, by decide⟩ : Fin 8)))
      (fun _ => rfl) (fun _ => rfl) (fun _ => rfl) (fun _ => rfl))
    (piece_re (embChunk m d L (⟨6, by decide⟩ : Fin 8)) (gathered m d L (m (rLoc d)) (⟨6, by decide⟩ : Fin 8)) (gathered m d L (m (gLoc d)) (⟨6, by decide⟩ : Fin 8)) (outChunk m d L (⟨6, by decide⟩ : Fin 8)) (outChunk_lo m d L (⟨6, by decide⟩ : Fin 8)) k.val 0 hk (by omega)
      (k0_off114 k) (k0_off115 k) (k0_off114 k) (k0_off116 k) (k0_off116 k) (k0_off114_inb k) (k0_off115_inb k) (k0_off114_inb k) (k0_off116_inb k) (k0_off116_inb k)
      (k0_off114_eq k) (k0_off115_eq k) (k0_off114_eq k) (k0_off116_eq k) (k0_off116_eq k)
      (View.readAt (Elt F) (b1).view (Rect.unit (s := S64x128) (k0_off114 k) S1x16.size (k0_off114_inb k)).toLoadRect (embChunk m d L (⟨6, by decide⟩ : Fin 8))) (View.readAt (Elt F) (b1).view (Rect.unit (s := S64x128) (k0_off115 k) S1x16.size (k0_off115_inb k)).toLoadRect (embChunk m d L (⟨6, by decide⟩ : Fin 8)))
      (View.readAt (Elt F) (b3).view (Rect.unit (s := S64x64) (k0_off116 k) S1x16.size (k0_off116_inb k)).toLoadRect (gathered m d L (m (rLoc d)) (⟨6, by decide⟩ : Fin 8))) (View.readAt (Elt F) (b5).view (Rect.unit (s := S64x64) (k0_off116 k) S1x16.size (k0_off116_inb k)).toLoadRect (gathered m d L (m (gLoc d)) (⟨6, by decide⟩ : Fin 8)))
      (fun _ => rfl) (fun _ => rfl) (fun _ => rfl) (fun _ => rfl))
    hfo

end Cert.Proof.KB

end
-- ==== Proof.KB.Compute1.lean ====
/-
  The compute loops of the chunks at buffer parity 1 (chunks 1, 3, 5, 7): one trip at a symbolic row `k`. The trip's
  sixteen loads read pieces of row k of the chunk of the batch and of the two gathered scratches, its eight stores
  write row k of the result scratch, eight pieces of 16 lanes; each stored piece is the specification's entries of
  that row there, and the rows below k are untouched.
-/
import proofs.«204629_g89326729822651_cont_sun_m_635_33_alg».proof.Proof.KB.Invs
import proofs.«204629_g89326729822651_cont_sun_m_635_33_alg».proof.Proof.KB.ComputeLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

set_option maxHeartbeats 4000000 in
/-- One trip of chunk 1's compute loop: row `k` of the result scratch is filled with the specification's row. -/
theorem compute_region_t7 (k : Fin k0_t7_loop.trips) (v1 c0 : BitVec 32) :
    computeInv1 m d L (⟨1, by decide⟩ : Fin 8) k.val ()
      ⊢ wp frame (wpE (defs₀ (F := F)) 𝒱₀ (thr d L) none) Set.univ
          (k0_t7_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 c0 k ())
          (fun acc => computeInv1 m d L (⟨1, by decide⟩ : Fin 8) (k.val + 1) acc) := by
  unfold k0_t7_body
  rw [k0_part3_eq_skeleton, k0_part4_eq_skeleton]
  unfold k0_part3_skel k0_part4_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t7_abs.2.1
  exact row_done (b8).view fo (outChunk m d L (⟨1, by decide⟩ : Fin 8)) k.val 112 48 96 32 80 16 64 0 (by intro j hj; omega)
    (k0_off39 k) (k0_off38 k) (k0_off36 k) (k0_off35 k) (k0_off33 k) (k0_off32 k) (k0_off30 k) (k0_off29 k)
    (k0_off39_inb k) (k0_off38_inb k) (k0_off36_inb k) (k0_off35_inb k) (k0_off33_inb k) (k0_off32_inb k) (k0_off30_inb k) (k0_off29_inb k)
    (k0_off39_eq k) (k0_off38_eq k) (k0_off36_eq k) (k0_off35_eq k) (k0_off33_eq k) (k0_off32_eq k) (k0_off30_eq k) (k0_off29_eq k)
    _ _ _ _ _ _ _ _
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 48 hk (by omega)
      (k0_off38 k) (k0_off39 k) (k0_off39 k) (k0_off40 k) (k0_off40 k) (k0_off38_inb k) (k0_off39_inb k) (k0_off39_inb k) (k0_off40_inb k) (k0_off40_inb k)
      (k0_off38_eq k) (k0_off39_eq k) (k0_off39_eq k) (k0_off40_eq k) (k0_off40_eq k)
      (View.readAt (Elt F) (b2).view (Rect.unit (s := S64x128) (k0_off38 k) S1x16.size (k0_off38_inb k)).toLoadRect (embChunk m d L (⟨1, by decide⟩ : Fin 8))) (View.readAt (Elt F) (b2).view (Rect.unit (s := S64x128) (k0_off39 k) S1x16.size (k0_off39_inb k)).toLoadRect (embChunk m d L (⟨1, by decide⟩ : Fin 8)))
      (View.readAt (Elt F) (b4).view (Rect.unit (s := S64x64) (k0_off40 k) S1x16.size (k0_off40_inb k)).toLoadRect (gathered m d L (m (rLoc d)) (⟨1, by decide⟩ : Fin 8))) (View.readAt (Elt F) (b6).view (Rect.unit (s := S64x64) (k0_off40 k) S1x16.size (k0_off40_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 48 hk (by omega)
      (k0_off38 k) (k0_off39 k) (k0_off38 k) (k0_off40 k) (k0_off40 k) (k0_off38_inb k) (k0_off39_inb k) (k0_off38_inb k) (k0_off40_inb k) (k0_off40_inb k)
      (k0_off38_eq k) (k0_off39_eq k) (k0_off38_eq k) (k0_off40_eq k) (k0_off40_eq k)
      (View.readAt (Elt F) (b2).view (Rect.unit (s := S64x128) (k0_off38 k) S1x16.size (k0_off38_inb k)).toLoadRect (embChunk m d L (⟨1, by decide⟩ : Fin 8))) (View.readAt (Elt F) (b2).view (Rect.unit (s := S64x128) (k0_off39 k) S1x16.size (k0_off39_inb k)).toLoadRect (embChunk m d L (⟨1, by decide⟩ : Fin 8)))
      (View.readAt (Elt F) (b4).view (Rect.unit (s := S64x64) (k0_off40 k) S1x16.size (k0_off40_inb k)).toLoadRect (gathered m d L (m (rLoc d)) (⟨1, by decide⟩ : Fin 8))) (View.readAt (Elt F) (b6).view (Rect.unit (s := S64x64) (k0_off40 k) S1x16.size (k0_off40_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 32 hk (by omega)
      (k0_off35 k) (k0_off36 k) (k0_off36 k) (k0_off37 k) (k0_off37 k) (k0_off35_inb k) (k0_off36_inb k) (k0_off36_inb k) (k0_off37_inb k) (k0_off37_inb k)
      (k0_off35_eq k) (k0_off36_eq k) (k0_off36_eq k) (k0_off37_eq k) (k0_off37_eq k)
      (View.readAt (Elt F) (b2).view (Rect.unit (s := S64x128) (k0_off35 k) S1x16.size (k0_off35_inb k)).toLoadRect (embChunk m d L (⟨1, by decide⟩ : Fin 8))) (View.readAt (Elt F) (b2).view (Rect.unit (s := S64x128) (k0_off36 k) S1x16.size (k0_off36_inb k)).toLoadRect (embChunk m d L (⟨1, by decide⟩ : Fin 8)))
      (View.readAt (Elt F) (b4).view (Rect.unit (s := S64x64) (k0_off37 k) S1x16.size (k0_off37_inb k)).toLoadRect (gathered m d L (m (rLoc d)) (⟨1, by decide⟩ : Fin 8))) (View.readAt (Elt F) (b6).view (Rect.unit (s := S64x64) (k0_off37 k) S1x16.size (k0_off37_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 32 hk (by omega)
      (k0_off35 k) (k0_off36 k) (k0_off35 k) (k0_off37 k) (k0_off37 k) (k0_off35_inb k) (k0_off36_inb k) (k0_off35_inb k) (k0_off37_inb k) (k0_off37_inb k)
      (k0_off35_eq k) (k0_off36_eq k) (k0_off35_eq k) (k0_off37_eq k) (k0_off37_eq k)
      (View.readAt (Elt F) (b2).view (Rect.unit (s := S64x128) (k0_off35 k) S1x16.size (k0_off35_inb k)).toLoadRect (embChunk m d L (⟨1, by decide⟩ : Fin 8))) (View.readAt (Elt F) (b2).view (Rect.unit (s := S64x128) (k0_off36 k) S1x16.size (k0_off36_inb k)).toLoadRect (embChunk m d L (⟨1, by decide⟩ : Fin 8)))
      (View.readAt (Elt F) (b4).view (Rect.unit (s := S64x64) (k0_off37 k) S1x16.size (k0_off37_inb k)).toLoadRect (gathered m d L (m (rLoc d)) (⟨1, by decide⟩ : Fin 8))) (View.readAt (Elt F) (b6).view (Rect.unit (s := S64x64) (k0_off37 k) S1x16.size (k0_off37_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 16 hk (by omega)
      (k0_off32 k) (k0_off33 k) (k0_off33 k) (k0_off34 k) (k0_off34 k) (k0_off32_inb k) (k0_off33_inb k) (k0_off33_inb k) (k0_off34_inb k) (k0_off34_inb k)
      (k0_off32_eq k) (k0_off33_eq k) (k0_off33_eq k) (k0_off34_eq k) (k0_off34_eq k)
      (View.readAt (Elt F) (b2).view (Rect.unit (s := S64x128) (k0_off32 k) S1x16.size (k0_off32_inb k)).toLoadRect (embChunk m d L (⟨1, by decide⟩ : Fin 8))) (View.readAt (Elt F) (b2).view (Rect.unit (s := S64x128) (k0_off33 k) S1x16.size (k0_off33_inb k)).toLoadRect (embChunk m d L (⟨1, by decide⟩ : Fin 8)))
      (View.readAt (Elt F) (b4).view (Rect.unit (s := S64x64) (k0_off34 k) S1x16.size (k0_off34_inb k)).toLoadRect (gathered m d L (m (rLoc d)) (⟨1, by decide⟩ : Fin 8))) (View.readAt (Elt F) (b6).view (Rect.unit (s := S64x64) (k0_off34 k) S1x16.size (k0_off34_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 16 hk (by omega)
      (k0_off32 k) (k0_off33 k) (k0_off32 k) (k0_off34 k) (k0_off34 k) (k0_off32_inb k) (k0_off33_inb k) (k0_off32_inb k) (k0_off34_inb k) (k0_off34_inb k)
      (k0_off32_eq k) (k0_off33_eq k) (k0_off32_eq k) (k0_off34_eq k) (k0_off34_eq k)
      (View.readAt (Elt F) (b2).view (Rect.unit (s := S64x128) (k0_off32 k) S1x16.size (k0_off32_inb k)).toLoadRect (embChunk m d L (⟨1, by decide⟩ : Fin 8))) (View.readAt (Elt F) (b2).view (Rect.unit (s := S64x128) (k0_off33 k) S1x16.size (k0_off33_inb k)).toLoadRect (embChunk m d L (⟨1, by decide⟩ : Fin 8)))
      (View.readAt (Elt F) (b4).view (Rect.unit (s := S64x64) (k0_off34 k) S1x16.size (k0_off34_inb k)).toLoadRect (gathered m d L (m (rLoc d)) (⟨1, by decide⟩ : Fin 8))) (View.readAt (Elt F) (b6).view (Rect.unit (s := S64x64) (k0_off34 k) S1x16.size (k0_off34_inb k)).toLoadRect (gathered m d L (m (gLoc d)) (⟨1, by decide⟩ : Fin 8)))
      (fun _ => rfl) (fun _ => rfl) (fun _ => rfl) (fun _ => rfl))
    (piece_im (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_hi m d L (⟨1, by decide⟩ : Fin 8)) k.val 0 hk (by omega)
      (k0_off29 k) (k0_off30 k) (k0_off30 k) (k0_off31 k) (k0_off31 k) (k0_off29_inb k) (k0_off30_inb k) (k0_off30_inb k) (k0_off31_inb k) (k0_off31_inb k)
      (k0_off29_eq k) (k0_off30_eq k) (k0_off30_eq k) (k0_off31_eq k) (k0_off31_eq k)
      (View.readAt (Elt F) (b2).view (Rect.unit (s := S64x128) (k0_off29 k) S1x16.size (k0_off29_inb k)).toLoadRect (embChunk m d L (⟨1, by decide⟩ : Fin 8))) (View.readAt (Elt F) (b2).view (Rect.unit (s := S64x128) (k0_off30 k) S1x16.size (k0_off30_inb k)).toLoadRect (embChunk m d L (⟨1, by decide⟩ : Fin 8)))
      (View.readAt (Elt F) (b4).view (Rect.unit (s := S64x64) (k0_off31 k) S1x16.size (k0_off31_inb k)).toLoadRect (gathered m d L (m (rLoc d)) (⟨1, by decide⟩ : Fin 8))) (View.readAt (Elt F) (b6).view (Rect.unit (s := S64x64) (k0_off31 k) S1x16.size (k0_off31_inb k)).toLoadRect (gathered m d L (m (gLoc d)) (⟨1, by decide⟩ : Fin 8)))
      (fun _ => rfl) (fun _ => rfl) (fun _ => rfl) (fun _ => rfl))
    (piece_re (embChunk m d L (⟨1, by decide⟩ : Fin 8)) (gathered m d L (m (rLoc d)) (⟨1, by decide⟩ : Fin 8)) (gathered m d L (m (gLoc d)) (⟨1, by decide⟩ : Fin 8)) (outChunk m d L (⟨1, by decide⟩ : Fin 8)) (outChunk_lo m d L (⟨1, by decide⟩ : Fin 8)) k.val 0 hk (by omega)
      (k0_off29 k) (k0_off30 k) (k0_off29 k) (k0_off31 k) (k0_off31 k) (k0_off29_inb k) (k0_off30_inb k) (k0_off29_inb k) (k0_off31_inb k) (k0_off31_inb k)
      (k0_off29_eq k) (k0_off30_eq k) (k0_off29_eq k) (k0_off31_eq k) (k0_off31_eq k)
      (View.readAt (Elt F) (b2).view (Rect.unit (s := S64x128) (k0_off29 k) S1x16.size (k0_off29_inb k)).toLoadRect (embChunk m d L (⟨1, by decide⟩ : Fin 8))) (View.readAt (Elt F) (b2).view (Rect.unit (s := S64x128) (k0_off30 k) S1x16.size (k0_off30_inb k)).toLoadRect (embChunk m d L (⟨1, by decide⟩ : Fin 8)))
      (View.readAt (Elt F) (b4).view (Rect.unit (s := S64x64) (k0_off31 k) S1x16.size (k0_off31_inb k)).toLoadRect (gathered m d L (m (rLoc d)) (⟨1, by decide⟩ : Fin 8))) (View.readAt (Elt F) (b6).view (Rect.unit (s := S64x64) (k0_off31 k) S1x16.size (k0_off31_inb k)).toLoadRect (gathered m d L (m (gLoc d)) (⟨1, by decide⟩ : Fin 8)))
      (fun _ => rfl) (fun _ => rfl) (fun _ => rfl) (fun _ => rfl))
    hfo

set_option maxHeartbeats 4000000 in
/-- One trip of chunk 3's compute loop: row `k` of the result scratch is filled with the specification's row. -/
theorem compute_region_t13 (k : Fin k0_t13_loop.trips) (v1 : BitVec 32) :
    computeInv1 m d L (⟨3, by decide⟩ : Fin 8) k.val ()
      ⊢ wp frame (wpE (defs₀ (F := F)) 𝒱₀ (thr d L) none) Set.univ
          (k0_t13_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv1 m d L (⟨3, by decide⟩ : Fin 8) (k.val + 1) acc) := by
  unfold k0_t13_body
  rw [k0_part7_eq_skeleton, k0_part8_eq_skeleton]
  unfold k0_part7_skel k0_part8_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t13_abs.2.1
  exact row_done (b8).view fo (outChunk m d L (⟨3, by decide⟩ : Fin 8)) k.val 112 48 96 32 80 16 64 0 (by intro j hj; omega)
    (k0_off73 k) (k0_off72 k) (k0_off70 k) (k0_off69 k) (k0_off67 k) (k0_off66 k) (k0_off64 k) (k0_off63 k)
    (k0_off73_inb k) (k0_off72_inb k) (k0_off70_inb k) (k0_off69_inb k) (k0_off67_inb k) (k0_off66_inb k) (k0_off64_inb k) (k0_off63_inb k)
    (k0_off73_eq k) (k0_off72_eq k) (k0_off70_eq k) (k0_off69_eq k) (k0_off67_eq k) (k0_off66_eq k) (k0_off64_eq k) (k0_off63_eq k)
    _ _ _ _ _ _ _ _
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 48 hk (by omega)
      (k0_off72 k) (k0_off73 k) (k0_off73 k) (k0_off74 k) (k0_off74 k) (k0_off72_inb k) (k0_off73_inb k) (k0_off73_inb k) (k0_off74_inb k) (k0_off74_inb k)
      (k0_off72_eq k) (k0_off73_eq k) (k0_off73_eq k) (k0_off74_eq k) (k0_off74_eq k)
      (View.readAt (Elt F) (b2).view (Rect.unit (s := S64x128) (k0_off72 k) S1x16.size (k0_off72_inb k)).toLoadRect (embChunk m d L (⟨3, by decide⟩ : Fin 8))) (View.readAt (Elt F) (b2).view (Rect.unit (s := S64x128) (k0_off73 k) S1x16.size (k0_off73_inb k)).toLoadRect (embChunk m d L (⟨3, by decide⟩ : Fin 8)))
      (View.readAt (Elt F) (b4).view (Rect.unit (s := S64x64) (k0_off74 k) S1x16.size (k0_off74_inb k)).toLoadRect (gathered m d L (m (rLoc d)) (⟨3, by decide⟩ : Fin 8))) (View.readAt (Elt F) (b6).view (Rect.unit (s := S64x64) (k0_off74 k) S1x16.size (k0_off74_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 48 hk (by omega)
      (k0_off72 k) (k0_off73 k) (k0_off72 k) (k0_off74 k) (k0_off74 k) (k0_off72_inb k) (k0_off73_inb k) (k0_off72_inb k) (k0_off74_inb k) (k0_off74_inb k)
      (k0_off72_eq k) (k0_off73_eq k) (k0_off72_eq k) (k0_off74_eq k) (k0_off74_eq k)
      (View.readAt (Elt F) (b2).view (Rect.unit (s := S64x128) (k0_off72 k) S1x16.size (k0_off72_inb k)).toLoadRect (embChunk m d L (⟨3, by decide⟩ : Fin 8))) (View.readAt (Elt F) (b2).view (Rect.unit (s := S64x128) (k0_off73 k) S1x16.size (k0_off73_inb k)).toLoadRect (embChunk m d L (⟨3, by decide⟩ : Fin 8)))
      (View.readAt (Elt F) (b4).view (Rect.unit (s := S64x64) (k0_off74 k) S1x16.size (k0_off74_inb k)).toLoadRect (gathered m d L (m (rLoc d)) (⟨3, by decide⟩ : Fin 8))) (View.readAt (Elt F) (b6).view (Rect.unit (s := S64x64) (k0_off74 k) S1x16.size (k0_off74_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 32 hk (by omega)
      (k0_off69 k) (k0_off70 k) (k0_off70 k) (k0_off71 k) (k0_off71 k) (k0_off69_inb k) (k0_off70_inb k) (k0_off70_inb k) (k0_off71_inb k) (k0_off71_inb k)
      (k0_off69_eq k) (k0_off70_eq k) (k0_off70_eq k) (k0_off71_eq k) (k0_off71_eq k)
      (View.readAt (Elt F) (b2).view (Rect.unit (s := S64x128) (k0_off69 k) S1x16.size (k0_off69_inb k)).toLoadRect (embChunk m d L (⟨3, by decide⟩ : Fin 8))) (View.readAt (Elt F) (b2).view (Rect.unit (s := S64x128) (k0_off70 k) S1x16.size (k0_off70_inb k)).toLoadRect (embChunk m d L (⟨3, by decide⟩ : Fin 8)))
      (View.readAt (Elt F) (b4).view (Rect.unit (s := S64x64) (k0_off71 k) S1x16.size (k0_off71_inb k)).toLoadRect (gathered m d L (m (rLoc d)) (⟨3, by decide⟩ : Fin 8))) (View.readAt (Elt F) (b6).view (Rect.unit (s := S64x64) (k0_off71 k) S1x16.size (k0_off71_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 32 hk (by omega)
      (k0_off69 k) (k0_off70 k) (k0_off69 k) (k0_off71 k) (k0_off71 k) (k0_off69_inb k) (k0_off70_inb k) (k0_off69_inb k) (k0_off71_inb k) (k0_off71_inb k)
      (k0_off69_eq k) (k0_off70_eq k) (k0_off69_eq k) (k0_off71_eq k) (k0_off71_eq k)
      (View.readAt (Elt F) (b2).view (Rect.unit (s := S64x128) (k0_off69 k) S1x16.size (k0_off69_inb k)).toLoadRect (embChunk m d L (⟨3, by decide⟩ : Fin 8))) (View.readAt (Elt F) (b2).view (Rect.unit (s := S64x128) (k0_off70 k) S1x16.size (k0_off70_inb k)).toLoadRect (embChunk m d L (⟨3, by decide⟩ : Fin 8)))
      (View.readAt (Elt F) (b4).view (Rect.unit (s := S64x64) (k0_off71 k) S1x16.size (k0_off71_inb k)).toLoadRect (gathered m d L (m (rLoc d)) (⟨3, by decide⟩ : Fin 8))) (View.readAt (Elt F) (b6).view (Rect.unit (s := S64x64) (k0_off71 k) S1x16.size (k0_off71_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 16 hk (by omega)
      (k0_off66 k) (k0_off67 k) (k0_off67 k) (k0_off68 k) (k0_off68 k) (k0_off66_inb k) (k0_off67_inb k) (k0_off67_inb k) (k0_off68_inb k) (k0_off68_inb k)
      (k0_off66_eq k) (k0_off67_eq k) (k0_off67_eq k) (k0_off68_eq k) (k0_off68_eq k)
      (View.readAt (Elt F) (b2).view (Rect.unit (s := S64x128) (k0_off66 k) S1x16.size (k0_off66_inb k)).toLoadRect (embChunk m d L (⟨3, by decide⟩ : Fin 8))) (View.readAt (Elt F) (b2).view (Rect.unit (s := S64x128) (k0_off67 k) S1x16.size (k0_off67_inb k)).toLoadRect (embChunk m d L (⟨3, by decide⟩ : Fin 8)))
      (View.readAt (Elt F) (b4).view (Rect.unit (s := S64x64) (k0_off68 k) S1x16.size (k0_off68_inb k)).toLoadRect (gathered m d L (m (rLoc d)) (⟨3, by decide⟩ : Fin 8))) (View.readAt (Elt F) (b6).view (Rect.unit (s := S64x64) (k0_off68 k) S1x16.size (k0_off68_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 16 hk (by omega)
      (k0_off66 k) (k0_off67 k) (k0_off66 k) (k0_off68 k) (k0_off68 k) (k0_off66_inb k) (k0_off67_inb k) (k0_off66_inb k) (k0_off68_inb k) (k0_off68_inb k)
      (k0_off66_eq k) (k0_off67_eq k) (k0_off66_eq k) (k0_off68_eq k) (k0_off68_eq k)
      (View.readAt (Elt F) (b2).view (Rect.unit (s := S64x128) (k0_off66 k) S1x16.size (k0_off66_inb k)).toLoadRect (embChunk m d L (⟨3, by decide⟩ : Fin 8))) (View.readAt (Elt F) (b2).view (Rect.unit (s := S64x128) (k0_off67 k) S1x16.size (k0_off67_inb k)).toLoadRect (embChunk m d L (⟨3, by decide⟩ : Fin 8)))
      (View.readAt (Elt F) (b4).view (Rect.unit (s := S64x64) (k0_off68 k) S1x16.size (k0_off68_inb k)).toLoadRect (gathered m d L (m (rLoc d)) (⟨3, by decide⟩ : Fin 8))) (View.readAt (Elt F) (b6).view (Rect.unit (s := S64x64) (k0_off68 k) S1x16.size (k0_off68_inb k)).toLoadRect (gathered m d L (m (gLoc d)) (⟨3, by decide⟩ : Fin 8)))
      (fun _ => rfl) (fun _ => rfl) (fun _ => rfl) (fun _ => rfl))
    (piece_im (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_hi m d L (⟨3, by decide⟩ : Fin 8)) k.val 0 hk (by omega)
      (k0_off63 k) (k0_off64 k) (k0_off64 k) (k0_off65 k) (k0_off65 k) (k0_off63_inb k) (k0_off64_inb k) (k0_off64_inb k) (k0_off65_inb k) (k0_off65_inb k)
      (k0_off63_eq k) (k0_off64_eq k) (k0_off64_eq k) (k0_off65_eq k) (k0_off65_eq k)
      (View.readAt (Elt F) (b2).view (Rect.unit (s := S64x128) (k0_off63 k) S1x16.size (k0_off63_inb k)).toLoadRect (embChunk m d L (⟨3, by decide⟩ : Fin 8))) (View.readAt (Elt F) (b2).view (Rect.unit (s := S64x128) (k0_off64 k) S1x16.size (k0_off64_inb k)).toLoadRect (embChunk m d L (⟨3, by decide⟩ : Fin 8)))
      (View.readAt (Elt F) (b4).view (Rect.unit (s := S64x64) (k0_off65 k) S1x16.size (k0_off65_inb k)).toLoadRect (gathered m d L (m (rLoc d)) (⟨3, by decide⟩ : Fin 8))) (View.readAt (Elt F) (b6).view (Rect.unit (s := S64x64) (k0_off65 k) S1x16.size (k0_off65_inb k)).toLoadRect (gathered m d L (m (gLoc d)) (⟨3, by decide⟩ : Fin 8)))
      (fun _ => rfl) (fun _ => rfl) (fun _ => rfl) (fun _ => rfl))
    (piece_re (embChunk m d L (⟨3, by decide⟩ : Fin 8)) (gathered m d L (m (rLoc d)) (⟨3, by decide⟩ : Fin 8)) (gathered m d L (m (gLoc d)) (⟨3, by decide⟩ : Fin 8)) (outChunk m d L (⟨3, by decide⟩ : Fin 8)) (outChunk_lo m d L (⟨3, by decide⟩ : Fin 8)) k.val 0 hk (by omega)
      (k0_off63 k) (k0_off64 k) (k0_off63 k) (k0_off65 k) (k0_off65 k) (k0_off63_inb k) (k0_off64_inb k) (k0_off63_inb k) (k0_off65_inb k) (k0_off65_inb k)
      (k0_off63_eq k) (k0_off64_eq k) (k0_off63_eq k) (k0_off65_eq k) (k0_off65_eq k)
      (View.readAt (Elt F) (b2).view (Rect.unit (s := S64x128) (k0_off63 k) S1x16.size (k0_off63_inb k)).toLoadRect (embChunk m d L (⟨3, by decide⟩ : Fin 8))) (View.readAt (Elt F) (b2).view (Rect.unit (s := S64x128) (k0_off64 k) S1x16.size (k0_off64_inb k)).toLoadRect (embChunk m d L (⟨3, by decide⟩ : Fin 8)))
      (View.readAt (Elt F) (b4).view (Rect.unit (s := S64x64) (k0_off65 k) S1x16.size (k0_off65_inb k)).toLoadRect (gathered m d L (m (rLoc d)) (⟨3, by decide⟩ : Fin 8))) (View.readAt (Elt F) (b6).view (Rect.unit (s := S64x64) (k0_off65 k) S1x16.size (k0_off65_inb k)).toLoadRect (gathered m d L (m (gLoc d)) (⟨3, by decide⟩ : Fin 8)))
      (fun _ => rfl) (fun _ => rfl) (fun _ => rfl) (fun _ => rfl))
    hfo

set_option maxHeartbeats 4000000 in
/-- One trip of chunk 5's compute loop: row `k` of the result scratch is filled with the specification's row. -/
theorem compute_region_t19 (k : Fin k0_t19_loop.trips) (v1 : BitVec 32) :
    computeInv1 m d L (⟨5, by decide⟩ : Fin 8) k.val ()
      ⊢ wp frame (wpE (defs₀ (F := F)) 𝒱₀ (thr d L) none) Set.univ
          (k0_t19_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0 v1 k ())
          (fun acc => computeInv1 m d L (⟨5, by decide⟩ : Fin 8) (k.val + 1) acc) := by
  unfold k0_t19_body
  rw [k0_part11_eq_skeleton, k0_part12_eq_skeleton]
  unfold k0_part11_skel k0_part12_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t19_abs.2.1
  exact row_done (b8).view fo (outChunk m d L (⟨5, by decide⟩ : Fin 8)) k.val 112 48 96 32 80 16 64 0 (by intro j hj; omega)
    (k0_off107 k) (k0_off106 k) (k0_off104 k) (k0_off103 k) (k0_off101 k) (k0_off100 k) (k0_off98 k) (k0_off97 k)
    (k0_off107_inb k) (k0_off106_inb k) (k0_off104_inb k) (k0_off103_inb k) (k0_off101_inb k) (k0_off100_inb k) (k0_off98_inb k) (k0_off97_inb k)
    (k0_off107_eq k) (k0_off106_eq k) (k0_off104_eq k) (k0_off103_eq k) (k0_off101_eq k) (k0_off100_eq k) (k0_off98_eq k) (k0_off97_eq k)
    _ _ _ _ _ _ _ _
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 48 hk (by omega)
      (k0_off106 k) (k0_off107 k) (k0_off107 k) (k0_off108 k) (k0_off108 k) (k0_off106_inb k) (k0_off107_inb k) (k0_off107_inb k) (k0_off108_inb k) (k0_off108_inb k)
      (k0_off106_eq k) (k0_off107_eq k) (k0_off107_eq k) (k0_off108_eq k) (k0_off108_eq k)
      (View.readAt (Elt F) (b2).view (Rect.unit (s := S64x128) (k0_off106 k) S1x16.size (k0_off106_inb k)).toLoadRect (embChunk m d L (⟨5, by decide⟩ : Fin 8))) (View.readAt (Elt F) (b2).view (Rect.unit (s := S64x128) (k0_off107 k) S1x16.size (k0_off107_inb k)).toLoadRect (embChunk m d L (⟨5, by decide⟩ : Fin 8)))
      (View.readAt (Elt F) (b4).view (Rect.unit (s := S64x64) (k0_off108 k) S1x16.size (k0_off108_inb k)).toLoadRect (gathered m d L (m (rLoc d)) (⟨5, by decide⟩ : Fin 8))) (View.readAt (Elt F) (b6).view (Rect.unit (s := S64x64) (k0_off108 k) S1x16.size (k0_off108_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 48 hk (by omega)
      (k0_off106 k) (k0_off107 k) (k0_off106 k) (k0_off108 k) (k0_off108 k) (k0_off106_inb k) (k0_off107_inb k) (k0_off106_inb k) (k0_off108_inb k) (k0_off108_inb k)
      (k0_off106_eq k) (k0_off107_eq k) (k0_off106_eq k) (k0_off108_eq k) (k0_off108_eq k)
      (View.readAt (Elt F) (b2).view (Rect.unit (s := S64x128) (k0_off106 k) S1x16.size (k0_off106_inb k)).toLoadRect (embChunk m d L (⟨5, by decide⟩ : Fin 8))) (View.readAt (Elt F) (b2).view (Rect.unit (s := S64x128) (k0_off107 k) S1x16.size (k0_off107_inb k)).toLoadRect (embChunk m d L (⟨5, by decide⟩ : Fin 8)))
      (View.readAt (Elt F) (b4).view (Rect.unit (s := S64x64) (k0_off108 k) S1x16.size (k0_off108_inb k)).toLoadRect (gathered m d L (m (rLoc d)) (⟨5, by decide⟩ : Fin 8))) (View.readAt (Elt F) (b6).view (Rect.unit (s := S64x64) (k0_off108 k) S1x16.size (k0_off108_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 32 hk (by omega)
      (k0_off103 k) (k0_off104 k) (k0_off104 k) (k0_off105 k) (k0_off105 k) (k0_off103_inb k) (k0_off104_inb k) (k0_off104_inb k) (k0_off105_inb k) (k0_off105_inb k)
      (k0_off103_eq k) (k0_off104_eq k) (k0_off104_eq k) (k0_off105_eq k) (k0_off105_eq k)
      (View.readAt (Elt F) (b2).view (Rect.unit (s := S64x128) (k0_off103 k) S1x16.size (k0_off103_inb k)).toLoadRect (embChunk m d L (⟨5, by decide⟩ : Fin 8))) (View.readAt (Elt F) (b2).view (Rect.unit (s := S64x128) (k0_off104 k) S1x16.size (k0_off104_inb k)).toLoadRect (embChunk m d L (⟨5, by decide⟩ : Fin 8)))
      (View.readAt (Elt F) (b4).view (Rect.unit (s := S64x64) (k0_off105 k) S1x16.size (k0_off105_inb k)).toLoadRect (gathered m d L (m (rLoc d)) (⟨5, by decide⟩ : Fin 8))) (View.readAt (Elt F) (b6).view (Rect.unit (s := S64x64) (k0_off105 k) S1x16.size (k0_off105_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 32 hk (by omega)
      (k0_off103 k) (k0_off104 k) (k0_off103 k) (k0_off105 k) (k0_off105 k) (k0_off103_inb k) (k0_off104_inb k) (k0_off103_inb k) (k0_off105_inb k) (k0_off105_inb k)
      (k0_off103_eq k) (k0_off104_eq k) (k0_off103_eq k) (k0_off105_eq k) (k0_off105_eq k)
      (View.readAt (Elt F) (b2).view (Rect.unit (s := S64x128) (k0_off103 k) S1x16.size (k0_off103_inb k)).toLoadRect (embChunk m d L (⟨5, by decide⟩ : Fin 8))) (View.readAt (Elt F) (b2).view (Rect.unit (s := S64x128) (k0_off104 k) S1x16.size (k0_off104_inb k)).toLoadRect (embChunk m d L (⟨5, by decide⟩ : Fin 8)))
      (View.readAt (Elt F) (b4).view (Rect.unit (s := S64x64) (k0_off105 k) S1x16.size (k0_off105_inb k)).toLoadRect (gathered m d L (m (rLoc d)) (⟨5, by decide⟩ : Fin 8))) (View.readAt (Elt F) (b6).view (Rect.unit (s := S64x64) (k0_off105 k) S1x16.size (k0_off105_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 16 hk (by omega)
      (k0_off100 k) (k0_off101 k) (k0_off101 k) (k0_off102 k) (k0_off102 k) (k0_off100_inb k) (k0_off101_inb k) (k0_off101_inb k) (k0_off102_inb k) (k0_off102_inb k)
      (k0_off100_eq k) (k0_off101_eq k) (k0_off101_eq k) (k0_off102_eq k) (k0_off102_eq k)
      (View.readAt (Elt F) (b2).view (Rect.unit (s := S64x128) (k0_off100 k) S1x16.size (k0_off100_inb k)).toLoadRect (embChunk m d L (⟨5, by decide⟩ : Fin 8))) (View.readAt (Elt F) (b2).view (Rect.unit (s := S64x128) (k0_off101 k) S1x16.size (k0_off101_inb k)).toLoadRect (embChunk m d L (⟨5, by decide⟩ : Fin 8)))
      (View.readAt (Elt F) (b4).view (Rect.unit (s := S64x64) (k0_off102 k) S1x16.size (k0_off102_inb k)).toLoadRect (gathered m d L (m (rLoc d)) (⟨5, by decide⟩ : Fin 8))) (View.readAt (Elt F) (b6).view (Rect.unit (s := S64x64) (k0_off102 k) S1x16.size (k0_off102_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 16 hk (by omega)
      (k0_off100 k) (k0_off101 k) (k0_off100 k) (k0_off102 k) (k0_off102 k) (k0_off100_inb k) (k0_off101_inb k) (k0_off100_inb k) (k0_off102_inb k) (k0_off102_inb k)
      (k0_off100_eq k) (k0_off101_eq k) (k0_off100_eq k) (k0_off102_eq k) (k0_off102_eq k)
      (View.readAt (Elt F) (b2).view (Rect.unit (s := S64x128) (k0_off100 k) S1x16.size (k0_off100_inb k)).toLoadRect (embChunk m d L (⟨5, by decide⟩ : Fin 8))) (View.readAt (Elt F) (b2).view (Rect.unit (s := S64x128) (k0_off101 k) S1x16.size (k0_off101_inb k)).toLoadRect (embChunk m d L (⟨5, by decide⟩ : Fin 8)))
      (View.readAt (Elt F) (b4).view (Rect.unit (s := S64x64) (k0_off102 k) S1x16.size (k0_off102_inb k)).toLoadRect (gathered m d L (m (rLoc d)) (⟨5, by decide⟩ : Fin 8))) (View.readAt (Elt F) (b6).view (Rect.unit (s := S64x64) (k0_off102 k) S1x16.size (k0_off102_inb k)).toLoadRect (gathered m d L (m (gLoc d)) (⟨5, by decide⟩ : Fin 8)))
      (fun _ => rfl) (fun _ => rfl) (fun _ => rfl) (fun _ => rfl))
    (piece_im (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_hi m d L (⟨5, by decide⟩ : Fin 8)) k.val 0 hk (by omega)
      (k0_off97 k) (k0_off98 k) (k0_off98 k) (k0_off99 k) (k0_off99 k) (k0_off97_inb k) (k0_off98_inb k) (k0_off98_inb k) (k0_off99_inb k) (k0_off99_inb k)
      (k0_off97_eq k) (k0_off98_eq k) (k0_off98_eq k) (k0_off99_eq k) (k0_off99_eq k)
      (View.readAt (Elt F) (b2).view (Rect.unit (s := S64x128) (k0_off97 k) S1x16.size (k0_off97_inb k)).toLoadRect (embChunk m d L (⟨5, by decide⟩ : Fin 8))) (View.readAt (Elt F) (b2).view (Rect.unit (s := S64x128) (k0_off98 k) S1x16.size (k0_off98_inb k)).toLoadRect (embChunk m d L (⟨5, by decide⟩ : Fin 8)))
      (View.readAt (Elt F) (b4).view (Rect.unit (s := S64x64) (k0_off99 k) S1x16.size (k0_off99_inb k)).toLoadRect (gathered m d L (m (rLoc d)) (⟨5, by decide⟩ : Fin 8))) (View.readAt (Elt F) (b6).view (Rect.unit (s := S64x64) (k0_off99 k) S1x16.size (k0_off99_inb k)).toLoadRect (gathered m d L (m (gLoc d)) (⟨5, by decide⟩ : Fin 8)))
      (fun _ => rfl) (fun _ => rfl) (fun _ => rfl) (fun _ => rfl))
    (piece_re (embChunk m d L (⟨5, by decide⟩ : Fin 8)) (gathered m d L (m (rLoc d)) (⟨5, by decide⟩ : Fin 8)) (gathered m d L (m (gLoc d)) (⟨5, by decide⟩ : Fin 8)) (outChunk m d L (⟨5, by decide⟩ : Fin 8)) (outChunk_lo m d L (⟨5, by decide⟩ : Fin 8)) k.val 0 hk (by omega)
      (k0_off97 k) (k0_off98 k) (k0_off97 k) (k0_off99 k) (k0_off99 k) (k0_off97_inb k) (k0_off98_inb k) (k0_off97_inb k) (k0_off99_inb k) (k0_off99_inb k)
      (k0_off97_eq k) (k0_off98_eq k) (k0_off97_eq k) (k0_off99_eq k) (k0_off99_eq k)
      (View.readAt (Elt F) (b2).view (Rect.unit (s := S64x128) (k0_off97 k) S1x16.size (k0_off97_inb k)).toLoadRect (embChunk m d L (⟨5, by decide⟩ : Fin 8))) (View.readAt (Elt F) (b2).view (Rect.unit (s := S64x128) (k0_off98 k) S1x16.size (k0_off98_inb k)).toLoadRect (embChunk m d L (⟨5, by decide⟩ : Fin 8)))
      (View.readAt (Elt F) (b4).view (Rect.unit (s := S64x64) (k0_off99 k) S1x16.size (k0_off99_inb k)).toLoadRect (gathered m d L (m (rLoc d)) (⟨5, by decide⟩ : Fin 8))) (View.readAt (Elt F) (b6).view (Rect.unit (s := S64x64) (k0_off99 k) S1x16.size (k0_off99_inb k)).toLoadRect (gathered m d L (m (gLoc d)) (⟨5, by decide⟩ : Fin 8)))
      (fun _ => rfl) (fun _ => rfl) (fun _ => rfl) (fun _ => rfl))
    hfo

set_option maxHeartbeats 4000000 in
/-- One trip of chunk 7's compute loop: row `k` of the result scratch is filled with the specification's row. -/
theorem compute_region_t24 (k : Fin k0_t24_loop.trips)  :
    computeInv1 m d L (⟨7, by decide⟩ : Fin 8) k.val ()
      ⊢ wp frame (wpE (defs₀ (F := F)) 𝒱₀ (thr d L) none) Set.univ
          (k0_t24_body (F := F) L eW (Memref.isWhole_whole _) iW (Memref.isWhole_whole _) rW (Memref.isWhole_whole _) gW (Memref.isWhole_whole _) oW (Memref.isWhole_whole _)
              b0 (Memref.isWhole_whole _) b1 (Memref.isWhole_whole _) b2 (Memref.isWhole_whole _) b3 (Memref.isWhole_whole _) b4 (Memref.isWhole_whole _) b5 (Memref.isWhole_whole _)
              b6 (Memref.isWhole_whole _) b7 (Memref.isWhole_whole _) b8 (Memref.isWhole_whole _)
              cc0_scratch9 cc0_scratch10 cc0_scratch11 cc0_scratch12 cc0_scratch13 cc0_scratch14 cc0_scratch15 cc0_scratch16 cc0_scoped0  k ())
          (fun acc => computeInv1 m d L (⟨7, by decide⟩ : Fin 8) (k.val + 1) acc) := by
  unfold k0_t24_body
  rw [k0_part15_eq_skeleton, k0_part16_eq_skeleton]
  unfold k0_part15_skel k0_part16_skel
  unfold computeInv1
  iintro ⟨He, Hr, Hi, %fo, Ho, %hfo⟩
  sl_exec
  sl_step
  isplitl [He]; · iexact He
  isplitl [Hr]; · iexact Hr
  isplitl [Hi]; · iexact Hi
  iexists _
  isplitl [Ho]; · iexact Ho
  ipureintro
  have hk : k.val < 64 := lt_of_lt_of_le k.isLt k0_t24_abs.2.1
  exact row_done (b8).view fo (outChunk m d L (⟨7, by decide⟩ : Fin 8)) k.val 112 48 96 32 80 16 64 0 (by intro j hj; omega)
    (k0_off137 k) (k0_off136 k) (k0_off134 k) (k0_off133 k) (k0_off131 k) (k0_off130 k) (k0_off128 k) (k0_off127 k)
    (k0_off137_inb k) (k0_off136_inb k) (k0_off134_inb k) (k0_off133_inb k) (k0_off131_inb k) (k0_off130_inb k) (k0_off128_inb k) (k0_off127_inb k)
    (k0_off137_eq k) (k0_off136_eq k) (k0_off134_eq k) (k0_off133_eq k) (k0_off131_eq k) (k0_off130_eq k) (k0_off128_eq k) (k0_off127_eq k)
    _ _ _ _ _ _ _ _
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 48 hk (by omega)
      (k0_off136 k) (k0_off137 k) (k0_off137 k) (k0_off138 k) (k0_off138 k) (k0_off136_inb k) (k0_off137_inb k) (k0_off137_inb k) (k0_off138_inb k) (k0_off138_inb k)
      (k0_off136_eq k) (k0_off137_eq k) (k0_off137_eq k) (k0_off138_eq k) (k0_off138_eq k)
      (View.readAt (Elt F) (b2).view (Rect.unit (s := S64x128) (k0_off136 k) S1x16.size (k0_off136_inb k)).toLoadRect (embChunk m d L (⟨7, by decide⟩ : Fin 8))) (View.readAt (Elt F) (b2).view (Rect.unit (s := S64x128) (k0_off137 k) S1x16.size (k0_off137_inb k)).toLoadRect (embChunk m d L (⟨7, by decide⟩ : Fin 8)))
      (View.readAt (Elt F) (b4).view (Rect.unit (s := S64x64) (k0_off138 k) S1x16.size (k0_off138_inb k)).toLoadRect (gathered m d L (m (rLoc d)) (⟨7, by decide⟩ : Fin 8))) (View.readAt (Elt F) (b6).view (Rect.unit (s := S64x64) (k0_off138 k) S1x16.size (k0_off138_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 48 hk (by omega)
      (k0_off136 k) (k0_off137 k) (k0_off136 k) (k0_off138 k) (k0_off138 k) (k0_off136_inb k) (k0_off137_inb k) (k0_off136_inb k) (k0_off138_inb k) (k0_off138_inb k)
      (k0_off136_eq k) (k0_off137_eq k) (k0_off136_eq k) (k0_off138_eq k) (k0_off138_eq k)
      (View.readAt (Elt F) (b2).view (Rect.unit (s := S64x128) (k0_off136 k) S1x16.size (k0_off136_inb k)).toLoadRect (embChunk m d L (⟨7, by decide⟩ : Fin 8))) (View.readAt (Elt F) (b2).view (Rect.unit (s := S64x128) (k0_off137 k) S1x16.size (k0_off137_inb k)).toLoadRect (embChunk m d L (⟨7, by decide⟩ : Fin 8)))
      (View.readAt (Elt F) (b4).view (Rect.unit (s := S64x64) (k0_off138 k) S1x16.size (k0_off138_inb k)).toLoadRect (gathered m d L (m (rLoc d)) (⟨7, by decide⟩ : Fin 8))) (View.readAt (Elt F) (b6).view (Rect.unit (s := S64x64) (k0_off138 k) S1x16.size (k0_off138_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 32 hk (by omega)
      (k0_off133 k) (k0_off134 k) (k0_off134 k) (k0_off135 k) (k0_off135 k) (k0_off133_inb k) (k0_off134_inb k) (k0_off134_inb k) (k0_off135_inb k) (k0_off135_inb k)
      (k0_off133_eq k) (k0_off134_eq k) (k0_off134_eq k) (k0_off135_eq k) (k0_off135_eq k)
      (View.readAt (Elt F) (b2).view (Rect.unit (s := S64x128) (k0_off133 k) S1x16.size (k0_off133_inb k)).toLoadRect (embChunk m d L (⟨7, by decide⟩ : Fin 8))) (View.readAt (Elt F) (b2).view (Rect.unit (s := S64x128) (k0_off134 k) S1x16.size (k0_off134_inb k)).toLoadRect (embChunk m d L (⟨7, by decide⟩ : Fin 8)))
      (View.readAt (Elt F) (b4).view (Rect.unit (s := S64x64) (k0_off135 k) S1x16.size (k0_off135_inb k)).toLoadRect (gathered m d L (m (rLoc d)) (⟨7, by decide⟩ : Fin 8))) (View.readAt (Elt F) (b6).view (Rect.unit (s := S64x64) (k0_off135 k) S1x16.size (k0_off135_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 32 hk (by omega)
      (k0_off133 k) (k0_off134 k) (k0_off133 k) (k0_off135 k) (k0_off135 k) (k0_off133_inb k) (k0_off134_inb k) (k0_off133_inb k) (k0_off135_inb k) (k0_off135_inb k)
      (k0_off133_eq k) (k0_off134_eq k) (k0_off133_eq k) (k0_off135_eq k) (k0_off135_eq k)
      (View.readAt (Elt F) (b2).view (Rect.unit (s := S64x128) (k0_off133 k) S1x16.size (k0_off133_inb k)).toLoadRect (embChunk m d L (⟨7, by decide⟩ : Fin 8))) (View.readAt (Elt F) (b2).view (Rect.unit (s := S64x128) (k0_off134 k) S1x16.size (k0_off134_inb k)).toLoadRect (embChunk m d L (⟨7, by decide⟩ : Fin 8)))
      (View.readAt (Elt F) (b4).view (Rect.unit (s := S64x64) (k0_off135 k) S1x16.size (k0_off135_inb k)).toLoadRect (gathered m d L (m (rLoc d)) (⟨7, by decide⟩ : Fin 8))) (View.readAt (Elt F) (b6).view (Rect.unit (s := S64x64) (k0_off135 k) S1x16.size (k0_off135_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 16 hk (by omega)
      (k0_off130 k) (k0_off131 k) (k0_off131 k) (k0_off132 k) (k0_off132 k) (k0_off130_inb k) (k0_off131_inb k) (k0_off131_inb k) (k0_off132_inb k) (k0_off132_inb k)
      (k0_off130_eq k) (k0_off131_eq k) (k0_off131_eq k) (k0_off132_eq k) (k0_off132_eq k)
      (View.readAt (Elt F) (b2).view (Rect.unit (s := S64x128) (k0_off130 k) S1x16.size (k0_off130_inb k)).toLoadRect (embChunk m d L (⟨7, by decide⟩ : Fin 8))) (View.readAt (Elt F) (b2).view (Rect.unit (s := S64x128) (k0_off131 k) S1x16.size (k0_off131_inb k)).toLoadRect (embChunk m d L (⟨7, by decide⟩ : Fin 8)))
      (View.readAt (Elt F) (b4).view (Rect.unit (s := S64x64) (k0_off132 k) S1x16.size (k0_off132_inb k)).toLoadRect (gathered m d L (m (rLoc d)) (⟨7, by decide⟩ : Fin 8))) (View.readAt (Elt F) (b6).view (Rect.unit (s := S64x64) (k0_off132 k) S1x16.size (k0_off132_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 16 hk (by omega)
      (k0_off130 k) (k0_off131 k) (k0_off130 k) (k0_off132 k) (k0_off132 k) (k0_off130_inb k) (k0_off131_inb k) (k0_off130_inb k) (k0_off132_inb k) (k0_off132_inb k)
      (k0_off130_eq k) (k0_off131_eq k) (k0_off130_eq k) (k0_off132_eq k) (k0_off132_eq k)
      (View.readAt (Elt F) (b2).view (Rect.unit (s := S64x128) (k0_off130 k) S1x16.size (k0_off130_inb k)).toLoadRect (embChunk m d L (⟨7, by decide⟩ : Fin 8))) (View.readAt (Elt F) (b2).view (Rect.unit (s := S64x128) (k0_off131 k) S1x16.size (k0_off131_inb k)).toLoadRect (embChunk m d L (⟨7, by decide⟩ : Fin 8)))
      (View.readAt (Elt F) (b4).view (Rect.unit (s := S64x64) (k0_off132 k) S1x16.size (k0_off132_inb k)).toLoadRect (gathered m d L (m (rLoc d)) (⟨7, by decide⟩ : Fin 8))) (View.readAt (Elt F) (b6).view (Rect.unit (s := S64x64) (k0_off132 k) S1x16.size (k0_off132_inb k)).toLoadRect (gathered m d L (m (gLoc d)) (⟨7, by decide⟩ : Fin 8)))
      (fun _ => rfl) (fun _ => rfl) (fun _ => rfl) (fun _ => rfl))
    (piece_im (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_hi m d L (⟨7, by decide⟩ : Fin 8)) k.val 0 hk (by omega)
      (k0_off127 k) (k0_off128 k) (k0_off128 k) (k0_off129 k) (k0_off129 k) (k0_off127_inb k) (k0_off128_inb k) (k0_off128_inb k) (k0_off129_inb k) (k0_off129_inb k)
      (k0_off127_eq k) (k0_off128_eq k) (k0_off128_eq k) (k0_off129_eq k) (k0_off129_eq k)
      (View.readAt (Elt F) (b2).view (Rect.unit (s := S64x128) (k0_off127 k) S1x16.size (k0_off127_inb k)).toLoadRect (embChunk m d L (⟨7, by decide⟩ : Fin 8))) (View.readAt (Elt F) (b2).view (Rect.unit (s := S64x128) (k0_off128 k) S1x16.size (k0_off128_inb k)).toLoadRect (embChunk m d L (⟨7, by decide⟩ : Fin 8)))
      (View.readAt (Elt F) (b4).view (Rect.unit (s := S64x64) (k0_off129 k) S1x16.size (k0_off129_inb k)).toLoadRect (gathered m d L (m (rLoc d)) (⟨7, by decide⟩ : Fin 8))) (View.readAt (Elt F) (b6).view (Rect.unit (s := S64x64) (k0_off129 k) S1x16.size (k0_off129_inb k)).toLoadRect (gathered m d L (m (gLoc d)) (⟨7, by decide⟩ : Fin 8)))
      (fun _ => rfl) (fun _ => rfl) (fun _ => rfl) (fun _ => rfl))
    (piece_re (embChunk m d L (⟨7, by decide⟩ : Fin 8)) (gathered m d L (m (rLoc d)) (⟨7, by decide⟩ : Fin 8)) (gathered m d L (m (gLoc d)) (⟨7, by decide⟩ : Fin 8)) (outChunk m d L (⟨7, by decide⟩ : Fin 8)) (outChunk_lo m d L (⟨7, by decide⟩ : Fin 8)) k.val 0 hk (by omega)
      (k0_off127 k) (k0_off128 k) (k0_off127 k) (k0_off129 k) (k0_off129 k) (k0_off127_inb k) (k0_off128_inb k) (k0_off127_inb k) (k0_off129_inb k) (k0_off129_inb k)
      (k0_off127_eq k) (k0_off128_eq k) (k0_off127_eq k) (k0_off129_eq k) (k0_off129_eq k)
      (View.readAt (Elt F) (b2).view (Rect.unit (s := S64x128) (k0_off127 k) S1x16.size (k0_off127_inb k)).toLoadRect (embChunk m d L (⟨7, by decide⟩ : Fin 8))) (View.readAt (Elt F) (b2).view (Rect.unit (s := S64x128) (k0_off128 k) S1x16.size (k0_off128_inb k)).toLoadRect (embChunk m d L (⟨7, by decide⟩ : Fin 8)))
      (View.readAt (Elt F) (b4).view (Rect.unit (s := S64x64) (k0_off129 k) S1x16.size (k0_off129_inb k)).toLoadRect (gathered m d L (m (rLoc d)) (⟨7, by decide⟩ : Fin 8))) (View.readAt (Elt F) (b6).view (Rect.unit (s := S64x64) (k0_off129 k) S1x16.size (k0_off129_inb k)).toLoadRect (gathered m d L (m (gLoc d)) (⟨7, by decide⟩ : Fin 8)))
      (fun _ => rfl) (fun _ => rfl) (fun _ => rfl) (fun _ => rfl))
    hfo

end Cert.Proof.KB

end
-- ==== Proof.KB.Post.lean ====
/-
  The tile's epilogue: what the tile holds by name at the end of its run — its share of the batch and of the row
  numbers, the two halves of its share of each table, its eight chunks of the result at the specification's function,
  its scratch buffers at whatever they hold, its semaphores at zero and what it owes — is the task's postcondition.
-/
import proofs.«204629_g89326729822651_cont_sun_m_635_33_alg».proof.Proof.KB.Landing
import proofs.«204629_g89326729822651_cont_sun_m_635_33_alg».proof.Proof.KB.Own

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ)
variable (d : Dev nD) (L : grid0.Coords)
variable [FloatOps F]

/-- The resources at the end of the tile's run, reassembled into the task's postcondition. -/
theorem tile_post (hF : (K (F := F)).Facts) (O : CellTallies nD τ sig (HIx 1)) (W : Waits sig (HIx 1)) :
    iprop(((eW).view.loc (thr d L) ↦{tq (cL L) (sL L)} m (eLoc d)) ∗ ((iW).view.loc (thr d L) ↦{tq (cL L) (sL L)} m (iLoc d))
        ∗ ((rW).view.loc (thr d L) ↦{(tq (cL L) (sL L)).left} m (rLoc d)) ∗ ((rW).view.loc (thr d L) ↦{(tq (cL L) (sL L)).right} m (rLoc d))
        ∗ ((gW).view.loc (thr d L) ↦{(tq (cL L) (sL L)).left} m (gLoc d)) ∗ ((gW).view.loc (thr d L) ↦{(tq (cL L) (sL L)).right} m (gLoc d))
        ∗ (oLoc d ↦[chunkSet (cL L) (sL L) 0]{fullShare} Gm m d) ∗ (oLoc d ↦[chunkSet (cL L) (sL L) 1]{fullShare} Gm m d) ∗ (oLoc d ↦[chunkSet (cL L) (sL L) 2]{fullShare} Gm m d) ∗ (oLoc d ↦[chunkSet (cL L) (sL L) 3]{fullShare} Gm m d) ∗ (oLoc d ↦[chunkSet (cL L) (sL L) 4]{fullShare} Gm m d) ∗ (oLoc d ↦[chunkSet (cL L) (sL L) 5]{fullShare} Gm m d) ∗ (oLoc d ↦[chunkSet (cL L) (sL L) 6]{fullShare} Gm m d) ∗ (oLoc d ↦[chunkSet (cL L) (sL L) 7]{fullShare} Gm m d)
        ∗ (∃ f, (b0).view.loc (thr d L) ↦{fullShare} f) ∗ (∃ f, (b1).view.loc (thr d L) ↦{fullShare} f) ∗ (∃ f, (b2).view.loc (thr d L) ↦{fullShare} f) ∗ (∃ f, (b3).view.loc (thr d L) ↦{fullShare} f) ∗ (∃ f, (b4).view.loc (thr d L) ↦{fullShare} f) ∗ (∃ f, (b5).view.loc (thr d L) ↦{fullShare} f) ∗ (∃ f, (b6).view.loc (thr d L) ↦{fullShare} f) ∗ (∃ f, (b7).view.loc (thr d L) ↦{fullShare} f) ∗ (∃ f, (b8).view.loc (thr d L) ↦{fullShare} f)
        ∗ (bigSep (restRefs L) fun b => iprop(∃ f, ((d, b) : Loc nD τ sig) ↦{fullShare} f))
        ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
        ∗ (bigSep (restCells d L) fun g => semVal g 0)
        ∗ (∃ W', ⌜∀ p ∈ W', p ∈ W ∨ p.2 = none⌝ ∗ owes (thr d L) O W'))
      ⊢ iprop(tileIn m d (cL L) (sL L) (Gm m d)
          ∗ scopedBufs (V d (cV L) (jV L)) ∗ scopedSems0 (V d (cV L) (jV L))
          ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileIn argsAt
  rw [chunks_split d L (Gm m d)]
  show iprop((eLoc d ↦{tq (cL L) (sL L)} m (eLoc d)) ∗ (iLoc d ↦{tq (cL L) (sL L)} m (iLoc d))
        ∗ (rLoc d ↦{(tq (cL L) (sL L)).left} m (rLoc d)) ∗ (rLoc d ↦{(tq (cL L) (sL L)).right} m (rLoc d))
        ∗ (gLoc d ↦{(tq (cL L) (sL L)).left} m (gLoc d)) ∗ (gLoc d ↦{(tq (cL L) (sL L)).right} m (gLoc d))
        ∗ (oLoc d ↦[chunkSet (cL L) (sL L) 0]{fullShare} Gm m d) ∗ (oLoc d ↦[chunkSet (cL L) (sL L) 1]{fullShare} Gm m d) ∗ (oLoc d ↦[chunkSet (cL L) (sL L) 2]{fullShare} Gm m d) ∗ (oLoc d ↦[chunkSet (cL L) (sL L) 3]{fullShare} Gm m d) ∗ (oLoc d ↦[chunkSet (cL L) (sL L) 4]{fullShare} Gm m d) ∗ (oLoc d ↦[chunkSet (cL L) (sL L) 5]{fullShare} Gm m d) ∗ (oLoc d ↦[chunkSet (cL L) (sL L) 6]{fullShare} Gm m d) ∗ (oLoc d ↦[chunkSet (cL L) (sL L) 7]{fullShare} Gm m d)
        ∗ (∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
        ∗ (bigSep (restRefs L) fun b => iprop(∃ f, ((d, b) : Loc nD τ sig) ↦{fullShare} f))
        ∗ semVal (cellOf d L cc0_scratch9.sem) 0 ∗ semVal (cellOf d L cc0_scratch10.sem) 0 ∗ semVal (cellOf d L cc0_scratch11.sem) 0 ∗ semVal (cellOf d L cc0_scratch12.sem) 0 ∗ semVal (cellOf d L cc0_scratch13.sem) 0 ∗ semVal (cellOf d L cc0_scratch14.sem) 0 ∗ semVal (cellOf d L cc0_scratch15.sem) 0 ∗ semVal (cellOf d L cc0_scratch16.sem) 0 ∗ semVal (cellOf d L cc0_scoped0.sem) 0
        ∗ (bigSep (restCells d L) fun g => semVal g 0)
        ∗ (∃ W', ⌜∀ p ∈ W', p ∈ W ∨ p.2 = none⌝ ∗ owes (V d (cV L) (jV L)) O W')) ⊢ _
  iintro ⟨He, Hi, Hrl, Hrr, Hgl, Hgr, Hc0, Hc1, Hc2, Hc3, Hc4, Hc5, Hc6, Hc7, Hb0, Hb1, Hb2, Hb3, Hb4, Hb5, Hb6, Hb7, Hb8, Hrest,
    Hs1, Hs2, Hs3, Hs4, Hs5, Hs6, Hs7, Hs8, Hs9, Hcells, HO⟩
  ihave Hr := (pointsTo_share (ℓ := rLoc d) (I := Finset.univ) (f := m (rLoc d)) (PosShare.mem_left_op_right (tq (cL L) (sL L)))).2 $$ [Hrl Hrr]
  · isplitl [Hrl]; · iexact Hrl
    iexact Hrr
  ihave Hg := (pointsTo_share (ℓ := gLoc d) (I := Finset.univ) (f := m (gLoc d)) (PosShare.mem_left_op_right (tq (cL L) (sL L)))).2 $$ [Hgl Hgr]
  · isplitl [Hgl]; · iexact Hgl
    iexact Hgr
  isplitl [He Hi Hr Hg Hc0 Hc1 Hc2 Hc3 Hc4 Hc5 Hc6 Hc7]
  · isplitl [He Hi Hr Hg]
    · isplitl [He]; · iexact He
      isplitl [Hi]; · iexact Hi
      isplitl [Hr]; · iexact Hr
      iexact Hg
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
  isplitl [Hb0 Hb1 Hb2 Hb3 Hb4 Hb5 Hb6 Hb7 Hb8 Hrest]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact Hrest
  isplitl [Hs1 Hs2 Hs3 Hs4 Hs5 Hs6 Hs7 Hs8 Hs9 Hcells]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hcells
  iexact HO

end Cert.Proof.KB

end
-- ==== Proof.KB.Body.lean ====
/-
  The task of one tile, run from the launch's resources to its post: the row numbers fetched, then for each of the
  eight chunks the chunk of the batch fetched and its 128 row gathers started (one batch per table on one semaphore),
  all of them waited for, the 64 complex products computed into the result scratch and that copied out to the chunk of
  the result — two chunks in flight at a time on two sets of buffers. Between loops the copies and their waits are
  single transfers; each loop is run by its invariant.
-/
import proofs.«204629_g89326729822651_cont_sun_m_635_33_alg».proof.Proof.KB.BodyLemmas
import proofs.«204629_g89326729822651_cont_sun_m_635_33_alg».proof.Proof.KB.Fire
import proofs.«204629_g89326729822651_cont_sun_m_635_33_alg».proof.Proof.KB.Drain
import proofs.«204629_g89326729822651_cont_sun_m_635_33_alg».proof.Proof.KB.Compute0
import proofs.«204629_g89326729822651_cont_sun_m_635_33_alg».proof.Proof.KB.Compute1
import proofs.«204629_g89326729822651_cont_sun_m_635_33_alg».proof.Proof.KB.Post

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg0_scv : Memref Cert.Kernel.sig Kind.scVector Space.hbm Cert.Kernel.S16384x128 EltTy.f32)
local notation "iW" => (Memref.whole Cert.Kernel.main_arg1_scv : Memref Cert.Kernel.sig Kind.scVector Space.hbm Cert.Kernel.S16384 EltTy.i32)
local notation "rW" => (Memref.whole Cert.Kernel.main_arg2_scv : Memref Cert.Kernel.sig Kind.scVector Space.hbm Cert.Kernel.S1000000x64 EltTy.f32)
local notation "gW" => (Memref.whole Cert.Kernel.main_arg3_scv : Memref Cert.Kernel.sig Kind.scVector Space.hbm Cert.Kernel.S1000000x64 EltTy.f32)
local notation "oW" => (Memref.whole Cert.Kernel.main_v0_scv : Memref Cert.Kernel.sig Kind.scVector Space.hbm Cert.Kernel.S16384x128 EltTy.f32)
local notation "b0" => (Memref.whole Cert.Kernel.cc0_scratch0 : Memref Cert.Kernel.sig Kind.scVector Space.vmem Cert.Kernel.S528 EltTy.i32)
local notation "b1" => (Memref.whole Cert.Kernel.cc0_scratch1 : Memref Cert.Kernel.sig Kind.scVector Space.vmem Cert.Kernel.S64x128 EltTy.f32)
local notation "b2" => (Memref.whole Cert.Kernel.cc0_scratch2 : Memref Cert.Kernel.sig Kind.scVector Space.vmem Cert.Kernel.S64x128 EltTy.f32)
local notation "b3" => (Memref.whole Cert.Kernel.cc0_scratch3 : Memref Cert.Kernel.sig Kind.scVector Space.vmem Cert.Kernel.S64x64 EltTy.f32)
local notation "b4" => (Memref.whole Cert.Kernel.cc0_scratch4 : Memref Cert.Kernel.sig Kind.scVector Space.vmem Cert.Kernel.S64x64 EltTy.f32)
local notation "b5" => (Memref.whole Cert.Kernel.cc0_scratch5 : Memref Cert.Kernel.sig Kind.scVector Space.vmem Cert.Kernel.S64x64 EltTy.f32)
local notation "b6" => (Memref.whole Cert.Kernel.cc0_scratch6 : Memref Cert.Kernel.sig Kind.scVector Space.vmem Cert.Kernel.S64x64 EltTy.f32)
local notation "b7" => (Memref.whole Cert.Kernel.cc0_scratch7 : Memref Cert.Kernel.sig Kind.scVector Space.vmem Cert.Kernel.S64x128 EltTy.f32)
local notation "b8" => (Memref.whole Cert.Kernel.cc0_scratch8 : Memref Cert.Kernel.sig Kind.scVector Space.vmem Cert.Kernel.S64x128 EltTy.f32)

variable (m : (ℓ : Loc nD τ sig) → Buf (Elt F) ℓ) (ρ : Dev nD → PrngReg)
variable [FloatOps F] [∀ e, Nonempty (Elt F e)]

/-- The kernel's function at the grid point `L`, on the whole arrays and the tile's scratch, as the body table passes them. -/
abbrev bodyAt (L : grid0.Coords) : Prog (TpuEff nD τ sig (Elt F) Λ₀ (.scVector ((L 0).castLE hcore0) ((L 1).castLE hsub0))) PUnit :=
  cc0__body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _) (Memref.whole main_v0_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16 cc0_scoped0

set_option maxHeartbeats 16000000 in
/-- The task on vector subcore `(L 0, L 1)` of device `d`: from its share of the arguments and its eight chunks of the
    result at their launch contents, it ends with the chunks at the specification's function. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp
        ∗ tileIn m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tileIn m d (cL L) (sL L) (Gm m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold bodyAt
  simp only [cc0__body_eq_skeleton]; unfold cc0__body_skel
  simp only [k0_part17_eq_skeleton]; unfold k0_part17_skel
  iintro ⟨#Hlv, -, ⟨⟨Hem, Hix, Hre, Him⟩, Hch⟩, Hsb, Hss, HO⟩
  ihave Hsb := (Entails.of_eq (((K (F := F)).scopedBufs_V hF d (cV L) (jV L)).trans (ownBufs_V (F := F) d L))) $$ Hsb
  icases Hsb with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩
  ihave Hss := (Entails.of_eq ((SparseCore.Cfg.scopedSems0_V (Val := Elt F) d (cV L) (jV L)).trans (ownSems0_V (F := F) d L))) $$ Hss
  icases Hss with ⟨Hs9, Hs10, Hs11, Hs12, Hs13, Hs14, Hs15, Hs16, Hsc, Hsems⟩
  ihave Hmw := (show levAts (K (F := F)).L (K (F := F)).lev ⊢ Transfers.MayWaits (thr d L) (default : HIx 1) O from
    (K (F := F)).mayWaits_none (thr := (thr d L)) hO) $$ Hlv
  have hW0 : ∀ p ∈ W, p ∈ W ∨ p.2 = none := fun p hp => .inl hp
  ihave Hem := (Entails.of_eq (pts_e (F := F) d L _ _).symm) $$ Hem
  ihave Hix := (Entails.of_eq (pts_i (F := F) d L _ _).symm) $$ Hix
  ihave Hre := (Entails.of_eq (pts_r (F := F) d L _ _).symm) $$ Hre
  ihave Him := (Entails.of_eq (pts_g (F := F) d L _ _).symm) $$ Him
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  ihave Hb8 := (Entails.of_eq (pts_b8 (F := F) d L _).symm) $$ Hb8
  ihave Hre := (pointsTo_share (PosShare.mem_left_op_right (tq (cL L) (sL L)))).1 $$ Hre
  icases Hre with ⟨Hre0, Hre1⟩
  ihave Him := (pointsTo_share (PosShare.mem_left_op_right (tq (cL L) (sL L)))).1 $$ Him
  icases Him with ⟨Him0, Him1⟩
  ihave Hch := (Entails.of_eq (chunks_split (F := F) d L _)) $$ Hch
  icases Hch with ⟨Hc0, Hc1, Hc2, Hc3, Hc4, Hc5, Hc6, Hc7⟩
  ihave Hc0 := (Entails.of_eq (pts_c0 (F := F) d L _).symm) $$ Hc0
  ihave Hc1 := (Entails.of_eq (pts_c1 (F := F) d L _).symm) $$ Hc1
  ihave Hc2 := (Entails.of_eq (pts_c2 (F := F) d L _).symm) $$ Hc2
  ihave Hc3 := (Entails.of_eq (pts_c3 (F := F) d L _).symm) $$ Hc3
  ihave Hc4 := (Entails.of_eq (pts_c4 (F := F) d L _).symm) $$ Hc4
  ihave Hc5 := (Entails.of_eq (pts_c5 (F := F) d L _).symm) $$ Hc5
  ihave Hc6 := (Entails.of_eq (pts_c6 (F := F) d L _).symm) $$ Hc6
  ihave Hc7 := (Entails.of_eq (pts_c7 (F := F) d L _).symm) $$ Hc7
  sl_exec
  have hI : IdxHolds m d L ((b0).view.writes (Elt F) f0 [⟨Rect.unit (s := S528) ![0] S512.size inb_S528_S512_0, tile_body.sl.dma0 m d L⟩]) :=
    idx_landed m d L f0 (show k0_off1 L = ![R0 L] from by rw [k0_off1_eq L]; rfl) (k0_off1_inb L) (tile_body.sl.dma0 m d L) rfl
  try sl_rw [bind_assoc]
  -- chunk 0: start its gathers
  imod (fire_entry0 m d L (⟨0, lt8_0⟩ : Fin 8) ((tq (cL L) (sL L)).left) _ f3 f5) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨0, lt8_0⟩ : Fin 8) ((tq (cL L) (sL L)).left) _ f3 f5) $$ [HI]
  case region => intro k acc; exact fire_region_t1 m d L hpre _ _ hI f3 f5  k
  · iexact HI
  iintro %acc HI
  ihave HI := (fire_exit0' m d L (⟨0, lt8_0⟩ : Fin 8) ((tq (cL L) (sL L)).left) _ f3 f5 _ trips_t1 _) $$ HI
  icases HI with ⟨Hb0, HB0, Hrem0⟩
  sl_exec
  try sl_rw [bind_assoc]
  -- chunk 1: start its gathers
  imod (fire_entry1 m d L (⟨1, lt8_1⟩ : Fin 8) ((tq (cL L) (sL L)).right) _ f4 f6) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨1, lt8_1⟩ : Fin 8) ((tq (cL L) (sL L)).right) _ f4 f6) $$ [HI]
  case region => intro k acc; exact fire_region_t2 m d L hpre _ _ hI f4 f6  k
  · iexact HI
  iintro %acc HI
  ihave HI := (fire_exit1' m d L (⟨1, lt8_1⟩ : Fin 8) ((tq (cL L) (sL L)).right) _ f4 f6 _ trips_t2 _) $$ HI
  icases HI with ⟨Hb0, HB1, Hrem1⟩
  sl_exec
  try sl_rw [bind_assoc]
  -- chunk 0: wait for its gathers
  sl_for (drainInv0 m d L (⟨0, lt8_0⟩ : Fin 8) ((tq (cL L) (sL L)).left) O W) $$ [HO HB0]
  case region => intro k acc; exact drain_region_t3 m d L _ O W k _ _
  · iapply (drain_entryX0 m d L (⟨0, lt8_0⟩ : Fin 8) ((tq (cL L) (sL L)).left) O W)
    isplitr; · iexact Hmw
    isplitl [HO]
    · iexists _; isplitr
      swap; · iexact HO
      ipureintro; repeat (first | exact hW0 | refine okW_ins _ ?_)
    iexact HB0
  iintro %acc HI
  ihave HI := (drain_exit0' m d L (⟨0, lt8_0⟩ : Fin 8) ((tq (cL L) (sL L)).left) O W _ trips_t3 _) $$ HI
  icases HI with ⟨⟨%W1, %hW1, HO⟩, HDR, HDI, Hs11, Hs13⟩
  ihave HJ := (deliv_join0 m d L (⟨0, lt8_0⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  try sl_rw [bind_assoc]
  -- chunk 0: the products
  ihave Hb1 := (Entails.of_eq (congrArg (fun f => ((b1).view.loc (thr d L) ↦{fullShare} f : sProp 𝕄))
      (emb_landed1 m d L (⟨0, lt8_0⟩ : Fin 8) _ (hoff2 L (⟨0, lt8_0⟩ : Fin 8)) (k0_off2_inb L (⟨0, lt8_0⟩ : Fin 8)) (tile_body.sl.dma0_1 m d L) rfl))) $$ Hb1
  sl_for (computeInv0 m d L (⟨0, lt8_0⟩ : Fin 8)) $$ [Hb1 Hb3 Hb5 Hb7]
  case region => intro k acc; exact compute_region_t4 m d L k _ _
  · iapply (compute_entry0 m d L (⟨0, lt8_0⟩ : Fin 8) _)
    isplitl [Hb1]; · iexact Hb1
    isplitl [Hb3]; · iexact Hb3
    isplitl [Hb5]; · iexact Hb5
    iexact Hb7
  iintro %acc HI
  ihave HI := (compute_exit0' m d L (⟨0, lt8_0⟩ : Fin 8) _ trips_t4 _) $$ HI
  icases HI with ⟨Hb1, Hb3, Hb5, Hb7⟩
  sl_exec
  try sl_rw [bind_assoc]
  -- chunk 2: start its gathers
  imod (fire_entry0 m d L (⟨2, lt8_2⟩ : Fin 8) ((tq (cL L) (sL L)).left) _ (gathered m d L (m (rLoc d)) (⟨0, lt8_0⟩ : Fin 8)) (gathered m d L (m (gLoc d)) (⟨0, lt8_0⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨2, lt8_2⟩ : Fin 8) ((tq (cL L) (sL L)).left) _ (gathered m d L (m (rLoc d)) (⟨0, lt8_0⟩ : Fin 8)) (gathered m d L (m (gLoc d)) (⟨0, lt8_0⟩ : Fin 8))) $$ [HI]
  case region => intro k acc; exact fire_region_t5 m d L hpre _ _ hI (gathered m d L (m (rLoc d)) (⟨0, lt8_0⟩ : Fin 8)) (gathered m d L (m (gLoc d)) (⟨0, lt8_0⟩ : Fin 8)) _ _ k
  · iexact HI
  iintro %acc HI
  ihave HI := (fire_exit0' m d L (⟨2, lt8_2⟩ : Fin 8) ((tq (cL L) (sL L)).left) _ (gathered m d L (m (rLoc d)) (⟨0, lt8_0⟩ : Fin 8)) (gathered m d L (m (gLoc d)) (⟨0, lt8_0⟩ : Fin 8)) _ trips_t5 _) $$ HI
  icases HI with ⟨Hb0, HB0, Hrem0⟩
  sl_exec
  try sl_rw [bind_assoc]
  -- chunk 1: wait for its gathers
  sl_for (drainInv1 m d L (⟨1, lt8_1⟩ : Fin 8) ((tq (cL L) (sL L)).right) O W) $$ [HO HB1]
  case region => intro k acc; exact drain_region_t6 m d L _ O W k _ _
  · iapply (drain_entryX1 m d L (⟨1, lt8_1⟩ : Fin 8) ((tq (cL L) (sL L)).right) O W)
    isplitr; · iexact Hmw
    isplitl [HO]
    · iexists _; isplitr
      swap; · iexact HO
      ipureintro; repeat (first | exact hW1 | refine okW_ins _ ?_)
    iexact HB1
  iintro %acc HI
  ihave HI := (drain_exit1' m d L (⟨1, lt8_1⟩ : Fin 8) ((tq (cL L) (sL L)).right) O W _ trips_t6 _) $$ HI
  icases HI with ⟨⟨%W2, %hW2, HO⟩, HDR, HDI, Hs12, Hs14⟩
  ihave HJ := (deliv_join1 m d L (⟨1, lt8_1⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  try sl_rw [bind_assoc]
  -- chunk 1: the products
  ihave Hb2 := (Entails.of_eq (congrArg (fun f => ((b2).view.loc (thr d L) ↦{fullShare} f : sProp 𝕄))
      (emb_landed2 m d L (⟨1, lt8_1⟩ : Fin 8) _ (hoff2 L (⟨1, lt8_1⟩ : Fin 8)) (k0_off2_inb L (⟨1, lt8_1⟩ : Fin 8)) (tile_body.sl.dma0_2 m d L) rfl))) $$ Hb2
  sl_for (computeInv1 m d L (⟨1, lt8_1⟩ : Fin 8)) $$ [Hb2 Hb4 Hb6 Hb8]
  case region => intro k acc; exact compute_region_t7 m d L k _ _
  · iapply (compute_entry1 m d L (⟨1, lt8_1⟩ : Fin 8) _)
    isplitl [Hb2]; · iexact Hb2
    isplitl [Hb4]; · iexact Hb4
    isplitl [Hb6]; · iexact Hb6
    iexact Hb8
  iintro %acc HI
  ihave HI := (compute_exit1' m d L (⟨1, lt8_1⟩ : Fin 8) _ trips_t7 _) $$ HI
  icases HI with ⟨Hb2, Hb4, Hb6, Hb8⟩
  sl_exec
  try sl_rw [bind_assoc]
  -- chunk 3: start its gathers
  imod (fire_entry1 m d L (⟨3, lt8_3⟩ : Fin 8) ((tq (cL L) (sL L)).right) _ (gathered m d L (m (rLoc d)) (⟨1, lt8_1⟩ : Fin 8)) (gathered m d L (m (gLoc d)) (⟨1, lt8_1⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨3, lt8_3⟩ : Fin 8) ((tq (cL L) (sL L)).right) _ (gathered m d L (m (rLoc d)) (⟨1, lt8_1⟩ : Fin 8)) (gathered m d L (m (gLoc d)) (⟨1, lt8_1⟩ : Fin 8))) $$ [HI]
  case region => intro k acc; exact fire_region_t8 m d L hpre _ _ hI (gathered m d L (m (rLoc d)) (⟨1, lt8_1⟩ : Fin 8)) (gathered m d L (m (gLoc d)) (⟨1, lt8_1⟩ : Fin 8)) _ k
  · iexact HI
  iintro %acc HI
  ihave HI := (fire_exit1' m d L (⟨3, lt8_3⟩ : Fin 8) ((tq (cL L) (sL L)).right) _ (gathered m d L (m (rLoc d)) (⟨1, lt8_1⟩ : Fin 8)) (gathered m d L (m (gLoc d)) (⟨1, lt8_1⟩ : Fin 8)) _ trips_t8 _) $$ HI
  icases HI with ⟨Hb0, HB1, Hrem1⟩
  sl_exec
  try sl_rw [bind_assoc]
  -- chunk 2: wait for its gathers
  sl_for (drainInv0 m d L (⟨2, lt8_2⟩ : Fin 8) ((tq (cL L) (sL L)).left) O W) $$ [HO HB0]
  case region => intro k acc; exact drain_region_t9 m d L _ O W k _
  · iapply (drain_entryX0 m d L (⟨2, lt8_2⟩ : Fin 8) ((tq (cL L) (sL L)).left) O W)
    isplitr; · iexact Hmw
    isplitl [HO]
    · iexists _; isplitr
      swap; · iexact HO
      ipureintro; repeat (first | exact hW2 | refine okW_ins _ ?_)
    iexact HB0
  iintro %acc HI
  ihave HI := (drain_exit0' m d L (⟨2, lt8_2⟩ : Fin 8) ((tq (cL L) (sL L)).left) O W _ trips_t9 _) $$ HI
  icases HI with ⟨⟨%W3, %hW3, HO⟩, HDR, HDI, Hs11, Hs13⟩
  ihave HJ := (deliv_join0 m d L (⟨2, lt8_2⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 2: the products
  ihave Hb1 := (Entails.of_eq (congrArg (fun f => ((b1).view.loc (thr d L) ↦{fullShare} f : sProp 𝕄))
      (emb_landed1 m d L (⟨2, lt8_2⟩ : Fin 8) _ (hoff2 L (⟨2, lt8_2⟩ : Fin 8)) (k0_off2_inb L (⟨2, lt8_2⟩ : Fin 8)) (tile_body.sl.dma0_4 m d L) rfl))) $$ Hb1
  sl_for (computeInv0 m d L (⟨2, lt8_2⟩ : Fin 8)) $$ [Hb1 Hb3 Hb5 Hb7]
  case region => intro k acc; exact compute_region_t10 m d L k _
  · iapply (compute_entry0 m d L (⟨2, lt8_2⟩ : Fin 8) _)
    isplitl [Hb1]; · iexact Hb1
    isplitl [Hb3]; · iexact Hb3
    isplitl [Hb5]; · iexact Hb5
    iexact Hb7
  iintro %acc HI
  ihave HI := (compute_exit0' m d L (⟨2, lt8_2⟩ : Fin 8) _ trips_t10 _) $$ HI
  icases HI with ⟨Hb1, Hb3, Hb5, Hb7⟩
  sl_exec
  try sl_rw [bind_assoc]
  -- chunk 4: start its gathers
  imod (fire_entry0 m d L (⟨4, lt8_4⟩ : Fin 8) ((tq (cL L) (sL L)).left) _ (gathered m d L (m (rLoc d)) (⟨2, lt8_2⟩ : Fin 8)) (gathered m d L (m (gLoc d)) (⟨2, lt8_2⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨4, lt8_4⟩ : Fin 8) ((tq (cL L) (sL L)).left) _ (gathered m d L (m (rLoc d)) (⟨2, lt8_2⟩ : Fin 8)) (gathered m d L (m (gLoc d)) (⟨2, lt8_2⟩ : Fin 8))) $$ [HI]
  case region => intro k acc; exact fire_region_t11 m d L hpre _ _ hI (gathered m d L (m (rLoc d)) (⟨2, lt8_2⟩ : Fin 8)) (gathered m d L (m (gLoc d)) (⟨2, lt8_2⟩ : Fin 8)) _ k
  · iexact HI
  iintro %acc HI
  ihave HI := (fire_exit0' m d L (⟨4, lt8_4⟩ : Fin 8) ((tq (cL L) (sL L)).left) _ (gathered m d L (m (rLoc d)) (⟨2, lt8_2⟩ : Fin 8)) (gathered m d L (m (gLoc d)) (⟨2, lt8_2⟩ : Fin 8)) _ trips_t11 _) $$ HI
  icases HI with ⟨Hb0, HB0, Hrem0⟩
  sl_exec
  try sl_rw [bind_assoc]
  -- chunk 3: wait for its gathers
  sl_for (drainInv1 m d L (⟨3, lt8_3⟩ : Fin 8) ((tq (cL L) (sL L)).right) O W) $$ [HO HB1]
  case region => intro k acc; exact drain_region_t12 m d L _ O W k _
  · iapply (drain_entryX1 m d L (⟨3, lt8_3⟩ : Fin 8) ((tq (cL L) (sL L)).right) O W)
    isplitr; · iexact Hmw
    isplitl [HO]
    · iexists _; isplitr
      swap; · iexact HO
      ipureintro; repeat (first | exact hW3 | refine okW_ins _ ?_)
    iexact HB1
  iintro %acc HI
  ihave HI := (drain_exit1' m d L (⟨3, lt8_3⟩ : Fin 8) ((tq (cL L) (sL L)).right) O W _ trips_t12 _) $$ HI
  icases HI with ⟨⟨%W4, %hW4, HO⟩, HDR, HDI, Hs12, Hs14⟩
  ihave HJ := (deliv_join1 m d L (⟨3, lt8_3⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 3: the products
  ihave Hb2 := (Entails.of_eq (congrArg (fun f => ((b2).view.loc (thr d L) ↦{fullShare} f : sProp 𝕄))
      (emb_landed2 m d L (⟨3, lt8_3⟩ : Fin 8) _ (hoff2 L (⟨3, lt8_3⟩ : Fin 8)) (k0_off2_inb L (⟨3, lt8_3⟩ : Fin 8)) (tile_body.sl.dma0_6 m d L) rfl))) $$ Hb2
  sl_for (computeInv1 m d L (⟨3, lt8_3⟩ : Fin 8)) $$ [Hb2 Hb4 Hb6 Hb8]
  case region => intro k acc; exact compute_region_t13 m d L k _
  · iapply (compute_entry1 m d L (⟨3, lt8_3⟩ : Fin 8) _)
    isplitl [Hb2]; · iexact Hb2
    isplitl [Hb4]; · iexact Hb4
    isplitl [Hb6]; · iexact Hb6
    iexact Hb8
  iintro %acc HI
  ihave HI := (compute_exit1' m d L (⟨3, lt8_3⟩ : Fin 8) _ trips_t13 _) $$ HI
  icases HI with ⟨Hb2, Hb4, Hb6, Hb8⟩
  sl_exec
  try sl_rw [bind_assoc]
  -- chunk 5: start its gathers
  imod (fire_entry1 m d L (⟨5, lt8_5⟩ : Fin 8) ((tq (cL L) (sL L)).right) _ (gathered m d L (m (rLoc d)) (⟨3, lt8_3⟩ : Fin 8)) (gathered m d L (m (gLoc d)) (⟨3, lt8_3⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨5, lt8_5⟩ : Fin 8) ((tq (cL L) (sL L)).right) _ (gathered m d L (m (rLoc d)) (⟨3, lt8_3⟩ : Fin 8)) (gathered m d L (m (gLoc d)) (⟨3, lt8_3⟩ : Fin 8))) $$ [HI]
  case region => intro k acc; exact fire_region_t14 m d L hpre _ _ hI (gathered m d L (m (rLoc d)) (⟨3, lt8_3⟩ : Fin 8)) (gathered m d L (m (gLoc d)) (⟨3, lt8_3⟩ : Fin 8)) _ k
  · iexact HI
  iintro %acc HI
  ihave HI := (fire_exit1' m d L (⟨5, lt8_5⟩ : Fin 8) ((tq (cL L) (sL L)).right) _ (gathered m d L (m (rLoc d)) (⟨3, lt8_3⟩ : Fin 8)) (gathered m d L (m (gLoc d)) (⟨3, lt8_3⟩ : Fin 8)) _ trips_t14 _) $$ HI
  icases HI with ⟨Hb0, HB1, Hrem1⟩
  sl_exec
  try sl_rw [bind_assoc]
  -- chunk 4: wait for its gathers
  sl_for (drainInv0 m d L (⟨4, lt8_4⟩ : Fin 8) ((tq (cL L) (sL L)).left) O W) $$ [HO HB0]
  case region => intro k acc; exact drain_region_t15 m d L _ O W k _
  · iapply (drain_entryX0 m d L (⟨4, lt8_4⟩ : Fin 8) ((tq (cL L) (sL L)).left) O W)
    isplitr; · iexact Hmw
    isplitl [HO]
    · iexists _; isplitr
      swap; · iexact HO
      ipureintro; repeat (first | exact hW4 | refine okW_ins _ ?_)
    iexact HB0
  iintro %acc HI
  ihave HI := (drain_exit0' m d L (⟨4, lt8_4⟩ : Fin 8) ((tq (cL L) (sL L)).left) O W _ trips_t15 _) $$ HI
  icases HI with ⟨⟨%W5, %hW5, HO⟩, HDR, HDI, Hs11, Hs13⟩
  ihave HJ := (deliv_join0 m d L (⟨4, lt8_4⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 4: the products
  ihave Hb1 := (Entails.of_eq (congrArg (fun f => ((b1).view.loc (thr d L) ↦{fullShare} f : sProp 𝕄))
      (emb_landed1 m d L (⟨4, lt8_4⟩ : Fin 8) _ (hoff2 L (⟨4, lt8_4⟩ : Fin 8)) (k0_off2_inb L (⟨4, lt8_4⟩ : Fin 8)) (tile_body.sl.dma0_8 m d L) rfl))) $$ Hb1
  sl_for (computeInv0 m d L (⟨4, lt8_4⟩ : Fin 8)) $$ [Hb1 Hb3 Hb5 Hb7]
  case region => intro k acc; exact compute_region_t16 m d L k _
  · iapply (compute_entry0 m d L (⟨4, lt8_4⟩ : Fin 8) _)
    isplitl [Hb1]; · iexact Hb1
    isplitl [Hb3]; · iexact Hb3
    isplitl [Hb5]; · iexact Hb5
    iexact Hb7
  iintro %acc HI
  ihave HI := (compute_exit0' m d L (⟨4, lt8_4⟩ : Fin 8) _ trips_t16 _) $$ HI
  icases HI with ⟨Hb1, Hb3, Hb5, Hb7⟩
  sl_exec
  try sl_rw [bind_assoc]
  -- chunk 6: start its gathers
  imod (fire_entry0 m d L (⟨6, lt8_6⟩ : Fin 8) ((tq (cL L) (sL L)).left) _ (gathered m d L (m (rLoc d)) (⟨4, lt8_4⟩ : Fin 8)) (gathered m d L (m (gLoc d)) (⟨4, lt8_4⟩ : Fin 8))) $$ [Hb0 Hre0 Him0 Hb3 Hb5 Hs11 Hs13] with HI
  · isplitl [Hb0]; · iexact Hb0
    isplitl [Hre0]; · iexact Hre0
    isplitl [Him0]; · iexact Him0
    isplitl [Hb3]; · iexact Hb3
    isplitl [Hb5]; · iexact Hb5
    isplitl [Hs11]; · iexact Hs11
    iexact Hs13
  sl_for (fireInv0 m d L (⟨6, lt8_6⟩ : Fin 8) ((tq (cL L) (sL L)).left) _ (gathered m d L (m (rLoc d)) (⟨4, lt8_4⟩ : Fin 8)) (gathered m d L (m (gLoc d)) (⟨4, lt8_4⟩ : Fin 8))) $$ [HI]
  case region => intro k acc; exact fire_region_t17 m d L hpre _ _ hI (gathered m d L (m (rLoc d)) (⟨4, lt8_4⟩ : Fin 8)) (gathered m d L (m (gLoc d)) (⟨4, lt8_4⟩ : Fin 8)) _ k
  · iexact HI
  iintro %acc HI
  ihave HI := (fire_exit0' m d L (⟨6, lt8_6⟩ : Fin 8) ((tq (cL L) (sL L)).left) _ (gathered m d L (m (rLoc d)) (⟨4, lt8_4⟩ : Fin 8)) (gathered m d L (m (gLoc d)) (⟨4, lt8_4⟩ : Fin 8)) _ trips_t17 _) $$ HI
  icases HI with ⟨Hb0, HB0, Hrem0⟩
  sl_exec
  try sl_rw [bind_assoc]
  -- chunk 5: wait for its gathers
  sl_for (drainInv1 m d L (⟨5, lt8_5⟩ : Fin 8) ((tq (cL L) (sL L)).right) O W) $$ [HO HB1]
  case region => intro k acc; exact drain_region_t18 m d L _ O W k _
  · iapply (drain_entryX1 m d L (⟨5, lt8_5⟩ : Fin 8) ((tq (cL L) (sL L)).right) O W)
    isplitr; · iexact Hmw
    isplitl [HO]
    · iexists _; isplitr
      swap; · iexact HO
      ipureintro; repeat (first | exact hW5 | refine okW_ins _ ?_)
    iexact HB1
  iintro %acc HI
  ihave HI := (drain_exit1' m d L (⟨5, lt8_5⟩ : Fin 8) ((tq (cL L) (sL L)).right) O W _ trips_t18 _) $$ HI
  icases HI with ⟨⟨%W6, %hW6, HO⟩, HDR, HDI, Hs12, Hs14⟩
  ihave HJ := (deliv_join1 m d L (⟨5, lt8_5⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 5: the products
  ihave Hb2 := (Entails.of_eq (congrArg (fun f => ((b2).view.loc (thr d L) ↦{fullShare} f : sProp 𝕄))
      (emb_landed2 m d L (⟨5, lt8_5⟩ : Fin 8) _ (hoff2 L (⟨5, lt8_5⟩ : Fin 8)) (k0_off2_inb L (⟨5, lt8_5⟩ : Fin 8)) (tile_body.sl.dma0_10 m d L) rfl))) $$ Hb2
  sl_for (computeInv1 m d L (⟨5, lt8_5⟩ : Fin 8)) $$ [Hb2 Hb4 Hb6 Hb8]
  case region => intro k acc; exact compute_region_t19 m d L k _
  · iapply (compute_entry1 m d L (⟨5, lt8_5⟩ : Fin 8) _)
    isplitl [Hb2]; · iexact Hb2
    isplitl [Hb4]; · iexact Hb4
    isplitl [Hb6]; · iexact Hb6
    iexact Hb8
  iintro %acc HI
  ihave HI := (compute_exit1' m d L (⟨5, lt8_5⟩ : Fin 8) _ trips_t19 _) $$ HI
  icases HI with ⟨Hb2, Hb4, Hb6, Hb8⟩
  sl_exec
  try sl_rw [bind_assoc]
  -- chunk 7: start its gathers
  imod (fire_entry1 m d L (⟨7, lt8_7⟩ : Fin 8) ((tq (cL L) (sL L)).right) _ (gathered m d L (m (rLoc d)) (⟨5, lt8_5⟩ : Fin 8)) (gathered m d L (m (gLoc d)) (⟨5, lt8_5⟩ : Fin 8))) $$ [Hb0 Hre1 Him1 Hb4 Hb6 Hs12 Hs14] with HI
  · isplitl [Hb0]; · iexact Hb0
    isplitl [Hre1]; · iexact Hre1
    isplitl [Him1]; · iexact Him1
    isplitl [Hb4]; · iexact Hb4
    isplitl [Hb6]; · iexact Hb6
    isplitl [Hs12]; · iexact Hs12
    iexact Hs14
  sl_for (fireInv1 m d L (⟨7, lt8_7⟩ : Fin 8) ((tq (cL L) (sL L)).right) _ (gathered m d L (m (rLoc d)) (⟨5, lt8_5⟩ : Fin 8)) (gathered m d L (m (gLoc d)) (⟨5, lt8_5⟩ : Fin 8))) $$ [HI]
  case region => intro k acc; exact fire_region_t20 m d L hpre _ _ hI (gathered m d L (m (rLoc d)) (⟨5, lt8_5⟩ : Fin 8)) (gathered m d L (m (gLoc d)) (⟨5, lt8_5⟩ : Fin 8)) _ k
  · iexact HI
  iintro %acc HI
  ihave HI := (fire_exit1' m d L (⟨7, lt8_7⟩ : Fin 8) ((tq (cL L) (sL L)).right) _ (gathered m d L (m (rLoc d)) (⟨5, lt8_5⟩ : Fin 8)) (gathered m d L (m (gLoc d)) (⟨5, lt8_5⟩ : Fin 8)) _ trips_t20 _) $$ HI
  icases HI with ⟨Hb0, HB1, Hrem1⟩
  sl_exec
  try sl_rw [bind_assoc]
  -- chunk 6: wait for its gathers
  sl_for (drainInv0 m d L (⟨6, lt8_6⟩ : Fin 8) ((tq (cL L) (sL L)).left) O W) $$ [HO HB0]
  case region => intro k acc; exact drain_region_t21 m d L _ O W k _
  · iapply (drain_entryX0 m d L (⟨6, lt8_6⟩ : Fin 8) ((tq (cL L) (sL L)).left) O W)
    isplitr; · iexact Hmw
    isplitl [HO]
    · iexists _; isplitr
      swap; · iexact HO
      ipureintro; repeat (first | exact hW6 | refine okW_ins _ ?_)
    iexact HB0
  iintro %acc HI
  ihave HI := (drain_exit0' m d L (⟨6, lt8_6⟩ : Fin 8) ((tq (cL L) (sL L)).left) O W _ trips_t21 _) $$ HI
  icases HI with ⟨⟨%W7, %hW7, HO⟩, HDR, HDI, Hs11, Hs13⟩
  ihave HJ := (deliv_join0 m d L (⟨6, lt8_6⟩ : Fin 8) ((tq (cL L) (sL L)).left)) $$ [HDR HDI Hrem0]
  · isplitl [HDR]; · iexact HDR
    isplitl [HDI]; · iexact HDI
    iexact Hrem0
  icases HJ with ⟨Hb3, Hb5, Hre0, Him0⟩
  sl_exec
  try sl_rw [bind_assoc]
  -- chunk 6: the products
  ihave Hb1 := (Entails.of_eq (congrArg (fun f => ((b1).view.loc (thr d L) ↦{fullShare} f : sProp 𝕄))
      (emb_landed1 m d L (⟨6, lt8_6⟩ : Fin 8) _ (hoff2 L (⟨6, lt8_6⟩ : Fin 8)) (k0_off2_inb L (⟨6, lt8_6⟩ : Fin 8)) (tile_body.sl.dma0_12 m d L) rfl))) $$ Hb1
  sl_for (computeInv0 m d L (⟨6, lt8_6⟩ : Fin 8)) $$ [Hb1 Hb3 Hb5 Hb7]
  case region => intro k acc; exact compute_region_t22 m d L k _
  · iapply (compute_entry0 m d L (⟨6, lt8_6⟩ : Fin 8) _)
    isplitl [Hb1]; · iexact Hb1
    isplitl [Hb3]; · iexact Hb3
    isplitl [Hb5]; · iexact Hb5
    iexact Hb7
  iintro %acc HI
  ihave HI := (compute_exit0' m d L (⟨6, lt8_6⟩ : Fin 8) _ trips_t22 _) $$ HI
  icases HI with ⟨Hb1, Hb3, Hb5, Hb7⟩
  sl_exec
  try sl_rw [bind_assoc]
  -- chunk 7: wait for its gathers
  sl_for (drainInv1 m d L (⟨7, lt8_7⟩ : Fin 8) ((tq (cL L) (sL L)).right) O W) $$ [HO HB1]
  case region => intro k acc; exact drain_region_t23 m d L _ O W k
  · iapply (drain_entryX1 m d L (⟨7, lt8_7⟩ : Fin 8) ((tq (cL L) (sL L)).right) O W)
    isplitr; · iexact Hmw
    isplitl [HO]
    · iexists _; isplitr
      swap; · iexact HO
      ipureintro; repeat (first | exact hW7 | refine okW_ins _ ?_)
    iexact HB1
  iintro %acc HI
  ihave HI := (drain_exit1' m d L (⟨7, lt8_7⟩ : Fin 8) ((tq (cL L) (sL L)).right) O W _ trips_t23 _) $$ HI
  icases HI with ⟨⟨%W8, %hW8, HO⟩, HDR, HDI, Hs12, Hs14⟩
  ihave HJ := (deliv_join1 m d L (⟨7, lt8_7⟩ : Fin 8) ((tq (cL L) (sL L)).right)) $$ [HDR HDI Hrem1]
  · isplitl [HDR]; · iexact HDR
    isplitl [HDI]; · iexact HDI
    iexact Hrem1
  icases HJ with ⟨Hb4, Hb6, Hre1, Him1⟩
  sl_exec
  try sl_rw [bind_assoc]
  -- chunk 7: the products
  ihave Hb2 := (Entails.of_eq (congrArg (fun f => ((b2).view.loc (thr d L) ↦{fullShare} f : sProp 𝕄))
      (emb_landed2 m d L (⟨7, lt8_7⟩ : Fin 8) _ (hoff2 L (⟨7, lt8_7⟩ : Fin 8)) (k0_off2_inb L (⟨7, lt8_7⟩ : Fin 8)) (tile_body.sl.dma0_14 m d L) rfl))) $$ Hb2
  sl_for (computeInv1 m d L (⟨7, lt8_7⟩ : Fin 8)) $$ [Hb2 Hb4 Hb6 Hb8]
  case region => intro k acc; exact compute_region_t24 m d L k
  · iapply (compute_entry1 m d L (⟨7, lt8_7⟩ : Fin 8) _)
    isplitl [Hb2]; · iexact Hb2
    isplitl [Hb4]; · iexact Hb4
    isplitl [Hb6]; · iexact Hb6
    iexact Hb8
  iintro %acc HI
  ihave HI := (compute_exit1' m d L (⟨7, lt8_7⟩ : Fin 8) _ trips_t24 _) $$ HI
  icases HI with ⟨Hb2, Hb4, Hb6, Hb8⟩
  sl_exec
  ihave Hc0 := (Entails.of_eq (out_landed7J m d L (⟨0, lt8_0⟩ : Fin 8) (hoff2 L (⟨0, lt8_0⟩ : Fin 8)) (k0_off2_inb L (⟨0, lt8_0⟩ : Fin 8)) (tile_body.sl.dma0_3 m d L) rfl)) $$ Hc0
  ihave Hc1 := (Entails.of_eq (out_landed8J m d L (⟨1, lt8_1⟩ : Fin 8) (hoff2 L (⟨1, lt8_1⟩ : Fin 8)) (k0_off2_inb L (⟨1, lt8_1⟩ : Fin 8)) (tile_body.sl.dma0_5 m d L) rfl)) $$ Hc1
  ihave Hc2 := (Entails.of_eq (out_landed7J m d L (⟨2, lt8_2⟩ : Fin 8) (hoff2 L (⟨2, lt8_2⟩ : Fin 8)) (k0_off2_inb L (⟨2, lt8_2⟩ : Fin 8)) (tile_body.sl.dma0_7 m d L) rfl)) $$ Hc2
  ihave Hc3 := (Entails.of_eq (out_landed8J m d L (⟨3, lt8_3⟩ : Fin 8) (hoff2 L (⟨3, lt8_3⟩ : Fin 8)) (k0_off2_inb L (⟨3, lt8_3⟩ : Fin 8)) (tile_body.sl.dma0_9 m d L) rfl)) $$ Hc3
  ihave Hc4 := (Entails.of_eq (out_landed7J m d L (⟨4, lt8_4⟩ : Fin 8) (hoff2 L (⟨4, lt8_4⟩ : Fin 8)) (k0_off2_inb L (⟨4, lt8_4⟩ : Fin 8)) (tile_body.sl.dma0_11 m d L) rfl)) $$ Hc4
  ihave Hc5 := (Entails.of_eq (out_landed8J m d L (⟨5, lt8_5⟩ : Fin 8) (hoff2 L (⟨5, lt8_5⟩ : Fin 8)) (k0_off2_inb L (⟨5, lt8_5⟩ : Fin 8)) (tile_body.sl.dma0_13 m d L) rfl)) $$ Hc5
  ihave Hc6 := (Entails.of_eq (out_landed7W m d L (⟨6, lt8_6⟩ : Fin 8) (m (oLoc d)) (hoff2 L (⟨6, lt8_6⟩ : Fin 8)) (k0_off2_inb L (⟨6, lt8_6⟩ : Fin 8)) (tile_body.sl.dma0_15 m d L) rfl)) $$ Hc6
  ihave Hc7 := (Entails.of_eq (out_landed8W m d L (⟨7, lt8_7⟩ : Fin 8) (m (oLoc d)) (hoff2 L (⟨7, lt8_7⟩ : Fin 8)) (k0_off2_inb L (⟨7, lt8_7⟩ : Fin 8)) (tile_body.sl.dma0_16 m d L) rfl)) $$ Hc7
  sl_step
  iapply (tile_post m d L hF O W)
  isplitl [Hem]; · iexact Hem
  isplitl [Hix]; · iexact Hix
  isplitl [Hre0]; · iexact Hre0
  isplitl [Hre1]; · iexact Hre1
  isplitl [Him0]; · iexact Him0
  isplitl [Him1]; · iexact Him1
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexists _; iexact Hb7
  isplitl [Hb8]; · iexists _; iexact Hb8
  isplitl [Hbufs]; · iexact Hbufs
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hsc]; · iexact Hsc
  isplitl [Hsems]; · iexact Hsems
  iexists _; isplitr
  swap; · iexact HO
  ipureintro; repeat (first | exact hW8 | refine okW_ins _ ?_)

end Cert.Proof.KB

end
-- ==== Proof.KB.Launch.lean ====
/-
  The launch, first part: one tile's task as the launch theorem asks for it. The body table's entry for a vector
  subcore is the kernel function at the grid point the subcore's coordinates name; the task proved at a symbolic grid
  point is the obligation at every tile of the call.
-/
import proofs.«204629_g89326729822651_cont_sun_m_635_33_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

omit m ρ in
/-- The body table's entry for a vector subcore: the kernel function at the subcore's grid point, if the grid holds it. -/
theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit m ρ [FloatOps F] in
/-- A wait list that grew only by waits at no call is one that grew only by waits at no call or at this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every tile of the call. -/
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

/-! ## A SparseCore's operands among its tiles -/

omit m ρ [FloatOps F] in
/-- A `bigSep` over the call's tiles is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m ρ [FloatOps F] in
/-- A SparseCore's share of an array is its sixteen tiles' shares, together. -/
theorem pts_tiles {ℓ : Loc nD τ sig} (f : Buf (Elt F) ℓ) (c : Fin 2) :
    (ℓ ↦{cq c} f : sProp 𝕄) = bigSep Finset.univ fun s : Fin 16 => ℓ ↦{tq c s} f :=
  pointsTo_leaves Finset.univ f 4 (cq c)

omit ρ [FloatOps F] in
/-- The four arguments at a SparseCore's share are the four arguments at each tile's share, together. -/
theorem args_tiles (d : Dev nD) (c : Fin 2) :
    argsAt m d (cq c) = bigSep Finset.univ fun s : Fin 16 => argsAt m d (tq c s) := by
  unfold argsAt
  rw [bigSep_sep', bigSep_sep', bigSep_sep',
    pts_tiles (m (eLoc d)) c, pts_tiles (m (iLoc d)) c, pts_tiles (m (rLoc d)) c, pts_tiles (m (gLoc d)) c]

omit ρ in
theorem P_st (d : Dev nD) (c : Fin ((K (F := F)).nCore 0)) : (P m).st 0 d c = coreIn m d (Fin.cast nCore_zero c) (m (oLoc d)) := rfl
omit ρ in
theorem P_dn (d : Dev nD) (c : Fin ((K (F := F)).nCore 0)) : (P m).dn 0 d c = coreIn m d (Fin.cast nCore_zero c) (Gm m d) := rfl
omit ρ in
theorem P_go (d : Dev nD) (c : Fin ((K (F := F)).nCore 0)) (i : Fin ((K (F := F)).nSub 0)) :
    (P m).go 0 d c i = tileIn m d (Fin.cast nCore_zero c) (Fin.cast nSub_zero i) (m (oLoc d)) := rfl
omit ρ in
theorem P_td (d : Dev nD) (c : Fin ((K (F := F)).nCore 0)) (i : Fin ((K (F := F)).nSub 0)) :
    (P m).td 0 d c i = tileIn m d (Fin.cast nCore_zero c) (Fin.cast nSub_zero i) (Gm m d) := rfl

omit ρ in
/-- What a SparseCore holds at the result contents `f` is what its sixteen tiles hold, together. -/
theorem coreIn_tiles (d : Dev nD) (c : Fin 2) (f : Buf (Elt F) (oLoc d)) :
    coreIn m d c f = bigSep Finset.univ fun i : Fin ((K (F := F)).nSub 0) => tileIn m d c (Fin.cast nSub_zero i) f := by
  rw [bigSep_tasks (F := F) (fun s => tileIn m d c s f)]
  unfold coreIn tileIn
  rw [bigSep_sep', ← args_tiles]

omit ρ in
/-- The call's operands for a SparseCore split into its tiles' and the tiles' results join into its own. -/
theorem vecSplit : (K (F := F)).VecSplit' (P m) 0 := by
  intro d c
  simp only [P_st, P_dn, P_go, P_td]
  rw [coreIn_tiles, coreIn_tiles]
  iintro H; imodintro
  isplitl [H]; · iexact H
  iintro H; iexact H

end Cert.Proof.KB

end
-- ==== Proof.KB.Cover.lean ====
/-
  The result array's chunks: the 2 × 16 × 8 chunks of 64 rows are pairwise disjoint and cover the array — chunk
  (c, s, k) is rows 64·g … 64·g + 63 for g = 16·s + 8·c + k, and (c, s, k) ↦ g is a bijection onto the numbers below
  256 — so the array whole is its chunks together.
-/
import proofs.«204629_g89326729822651_cont_sun_m_635_33_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

omit m ρ in
theorem chunkSet_eq (c : Fin 2) (s : Fin 16) (k : Fin 8) : chunkSet c s k = (chunkRect c s k).set := by
  show ((View.whole (main_v0_scv : Ref sig .scVector)).slice (chunkRect c s k)).set = _
  rw [View.set_slice]; exact Finset.map_refl

omit m ρ in
/-- An index is in chunk `(c, s, k)` when its row is one of the chunk's 64. -/
theorem mem_chunkSet {c : Fin 2} {s : Fin 16} {k : Fin 8} {i : S16384x128.Idx} :
    i ∈ chunkSet c s k ↔ 1024 * s.val + 512 * c.val + 64 * k.val ≤ (i 0).val ∧ (i 0).val < 1024 * s.val + 512 * c.val + 64 * k.val + 64 := by
  rw [chunkSet_eq, Rect.mem_set_unit]
  constructor
  · intro h; have h0 := h 0; simpa using h0
  · intro h a
    have h1 : (i 1).val < 128 := (i 1).isLt
    fin_cases a
    · simpa using h
    · simpa using h1

/-- The chunks' index: SparseCore, tile, chunk of the tile. -/
abbrev CIx : Type := Fin 2 × Fin 16 × Fin 8

omit m ρ in
theorem chunks_disjoint : ∀ p ∈ (Finset.univ : Finset CIx), ∀ p' ∈ (Finset.univ : Finset CIx), p ≠ p' →
    Disjoint (chunkSet p.1 p.2.1 p.2.2) (chunkSet p'.1 p'.2.1 p'.2.2) := by
  rintro ⟨c, s, k⟩ - ⟨c', s', k'⟩ - h
  refine Finset.disjoint_left.mpr fun i hi hi' => h ?_
  obtain ⟨h1, h2⟩ := (mem_chunkSet (c := c) (s := s) (k := k)).mp hi
  obtain ⟨h1', h2'⟩ := (mem_chunkSet (c := c') (s := s') (k := k')).mp hi'
  have := c.isLt; have := s.isLt; have := k.isLt; have := c'.isLt; have := s'.isLt; have := k'.isLt
  refine Prod.ext (Fin.ext ?_) (Prod.ext (Fin.ext ?_) (Fin.ext ?_)) <;> simp only <;> omega

omit m ρ in
theorem chunks_cover : (Finset.univ : Finset CIx).biUnion (fun p => chunkSet p.1 p.2.1 p.2.2) = Finset.univ := by
  ext i
  simp only [Finset.mem_biUnion, Finset.mem_univ, true_and, iff_true]
  have hi : (i 0).val < 16384 := (i 0).isLt
  refine ⟨(⟨(i 0).val / 64 % 16 / 8, by omega⟩, ⟨(i 0).val / 64 / 16, by omega⟩, ⟨(i 0).val / 64 % 8, by omega⟩), mem_chunkSet.mpr ⟨?_, ?_⟩⟩ <;>
    simp only <;> omega

omit m ρ in
/-- The result array whole is its chunks, together: per SparseCore, per tile, the tile's eight. -/
theorem oPts_chunks (d : Dev nD) (f : Buf (Elt F) (oLoc d)) :
    (oLoc d ↦{fullShare} f : sProp 𝕄) = bigSep Finset.univ fun c : Fin 2 => bigSep Finset.univ fun s : Fin 16 => chunksAt d c s f := by
  have h : (oLoc d ↦[(Finset.univ : Finset CIx).biUnion fun p => chunkSet p.1 p.2.1 p.2.2]{fullShare} f : sProp 𝕄)
      = bigSep (Finset.univ : Finset CIx) fun p => oLoc d ↦[chunkSet p.1 p.2.1 p.2.2]{fullShare} f :=
    pointsTo_biUnion (ℓ := oLoc d) Finset.univ (fun p : CIx => chunkSet p.1 p.2.1 p.2.2) chunks_disjoint
  rw [chunks_cover] at h
  refine h.trans ?_
  rw [bigSep_univ_prod]
  refine bigSep_congr fun c _ => ?_
  rw [bigSep_univ_prod]

end Cert.Proof.KB

end
-- ==== Proof.KB.Run.lean ====
/-
  The launch, second part: the launch element of the ghost state, @main on the TensorCore — the whole arrays dealt to
  the two SparseCores before the call (the arguments by halves of the full share, the result array by its chunks) and
  joined back after it, the result array then whole at the specification's function of the arguments —, how the final
  memory reads the claim, and the program's run.
-/
import proofs.«204629_g89326729822651_cont_sun_m_635_33_alg».proof.Proof.KB.Launch
import proofs.«204629_g89326729822651_cont_sun_m_635_33_alg».proof.Proof.KB.Cover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element of the ghost state -/

def u₀ : UU := (initOf (K (F := F)).hsCells (K (F := F)).hsToks, 1)

omit m ρ [FloatOps F] in
theorem bigSep_emp' {I : Type} (s : Finset I) : (bigSep s fun _ => iprop(emp)) = (iprop(emp) : sProp 𝕄) := bigSep_emp_const s

omit ρ in
/-- The launch element is the handshakes' rounds; the transfers' counters, at their unit, are dropped. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The whole arrays and the two SparseCores' holdings -/

omit m ρ [FloatOps F] in
/-- The full share of an array is the two SparseCores' shares, together. -/
theorem pts_cores {ℓ : Loc nD τ sig} (f : Buf (Elt F) ℓ) :
    (ℓ ↦{fullShare} f : sProp 𝕄) = bigSep Finset.univ fun c : Fin 2 => ℓ ↦{cq c} f :=
  pointsTo_leaves Finset.univ f 1 fullShare

omit ρ in
/-- What the two SparseCores hold, together, is the four arguments and the result array, whole. -/
theorem cores_whole (d : Dev nD) (f : Buf (Elt F) (oLoc d)) :
    (bigSep Finset.univ fun c : Fin 2 => coreIn m d c f) = iprop(argsAt m d fullShare ∗ oLoc d ↦{fullShare} f) := by
  unfold coreIn argsAt
  rw [bigSep_sep', bigSep_sep', bigSep_sep', bigSep_sep', ← oPts_chunks,
    ← pts_cores (m (eLoc d)), ← pts_cores (m (iLoc d)), ← pts_cores (m (rLoc d)), ← pts_cores (m (gLoc d))]

omit ρ in
theorem st0_eq (d : Dev nD) :
    (bigSep Finset.univ fun c : Fin ((K (F := F)).nCore 0) => (P m).st 0 d c) = iprop(argsAt m d fullShare ∗ oLoc d ↦{fullShare} m (oLoc d)) := by
  show (bigSep (Finset.univ : Finset (Fin 2)) fun c => coreIn m d c (m (oLoc d))) = _
  exact cores_whole m d _
omit ρ in
theorem dn0_eq (d : Dev nD) :
    (bigSep Finset.univ fun c : Fin ((K (F := F)).nCore 0) => (P m).dn 0 d c) = iprop(argsAt m d fullShare ∗ oLoc d ↦{fullShare} Gm m d) := by
  show (bigSep (Finset.univ : Finset (Fin 2)) fun c => coreIn m d c (Gm m d)) = _
  exact cores_whole m d _

/-! ## @main on the TensorCore -/

omit m ρ [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (iLoc d ↦{fullShare} W main_arg1) ∗ (rLoc d ↦{fullShare} W main_arg2)
      ∗ (gLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What @main ends with: the four arguments at their launch contents, the result at the specification's function. -/
abbrev FIN (d : Dev nD) : sProp 𝕄 := iprop(argsAt m d fullShare ∗ oLoc d ↦{fullShare} Gm m d)

/-- @main on device `d`'s TensorCore: the one call, from the five arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨He, Hi, Hr, Hg, Ho⟩, -, -⟩, -⟩
  iapply ((K (F := F)).wp_run (D (F := F)) 𝒱 (EH := EH) (P := P m) κ d 0) $$ [Hst He Hi Hr Hg Ho]
  isplitr; · iexact Hctx
  isplitl [Hst]; · iexact Hst
  isplitl [He Hi Hr Hg Ho]
  · rw [st0_eq]
    isplitr [Ho]
    · isplitl [He]; · iexact He
      isplitl [Hi]; · iexact Hi
      isplitl [Hr]; · iexact Hr
      iexact Hg
    · iexact Ho
  iintro ⟨Hst, Hdn⟩
  ihave Hdn' := (Entails.of_eq (dn0_eq m d)) $$ Hdn
  imodintro
  isplitl [Hst]; · iexact Hst
  iexact Hdn'

/-! ## The final memory -/

def fq (d : Dev nD) (s' : Phys nD τ sig (Elt F)) : Prop :=
  s'.mem.mem (oLoc d) = Gm m d ∧ s'.mem.mem (eLoc d) = m (eLoc d) ∧ s'.mem.mem (iLoc d) = m (iLoc d) ∧ s'.mem.mem (rLoc d) = m (rLoc d)
    ∧ s'.mem.mem (gLoc d) = m (gLoc d)

set_option maxRecDepth 16384 in
omit ρ in
theorem hfin (d : Dev nD) (s' : Phys nD τ sig (Elt F)) : iprop(FIN m d ∗ SI s') ⊢ (⌜fq m d s'⌝ : sProp 𝕄) := by
  iintro ⟨⟨⟨He, Hi, Hr, Hg⟩, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h3, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h4, HSI, -⟩
  ihave H := (SI_pointsTo_agree (st := s') (ℓ := oLoc d) (I := Finset.univ) (q := fullShare) (f := Gm m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the program from the launch memory `m` ends, with the result array at the
    specification's function of the four arguments and the arguments unchanged. -/
theorem run_main [∀ e, Nonempty (Elt F e)] (hpre : PreOK m) :
    θ_run (Cert.Kernel.defs (F := F)) (Cert.Kernel.threads (F := F)) ⟨m, fun _ => 0, ρ⟩
      (fun r => ∀ c : Dev nD, r.2.mem (oLoc c) = Gm m c ∧ r.2.mem (eLoc c) = m (eLoc c) ∧ r.2.mem (iLoc c) = m (iLoc c)
        ∧ r.2.mem (rLoc c) = m (rLoc c) ∧ r.2.mem (gLoc c) = m (gLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = Gm m c ∧ r.2.mem (eLoc c) = m (eLoc c) ∧ r.2.mem (iLoc c) = m (iLoc c)
        ∧ r.2.mem (rLoc c) = m (rLoc c) ∧ r.2.mem (gLoc c) = m (gLoc c)) (fun _ h => h)

end Cert.Proof.KB

end
-- ==== Proof.KB.Pre.lean ====
/-
  The certificate's precondition gives what the proof asks of the launch memory. The precondition is one bit: the
  conjunction of "every entry of the three float inputs is finite" and "0 ≤ w ≤ 999999, signed, for every row-number
  word w". Only the last conjunct is used: a word that is nonnegative read signed is its own value read as a natural
  number, and that value is at most 999999. Nothing here depends on the float instance.
-/
import proofs.«204629_g89326729822651_cont_sun_m_635_33_alg».proof.Pre_input_domain
import proofs.«204629_g89326729822651_cont_sun_m_635_33_alg».proof.Proof.Gen.Pre_input_domain
import proofs.«204629_g89326729822651_cont_sun_m_635_33_alg».proof.Proof.KB.Common
import Idealize.ShloMosaic.Lib.ReduceAll

noncomputable section

namespace Cert.Proof.KB

open Cert.Kernel Cert.Kernel.Gen

open Idealize.ShloMosaic

variable {F : FTy → Type} [FloatOps F]

/-- A word between 0 and 999999, read signed, is below a million read as a natural number. -/
theorem toNat_lt_of_signed_range (v : BitVec 32) (h0 : IntOp.cmpi .sge v 0#32 = 1#1) (h1 : IntOp.cmpi .sle v 999999#32 = 1#1) :
    v.toNat < 1000000 := by
  rw [IntOp.cmpi_sge] at h0
  rw [IntOp.cmpi_sle] at h1
  rw [show (0#32 : BitVec 32).toInt = 0 from by decide] at h0
  rw [show (999999#32 : BitVec 32).toInt = 999999 from by decide] at h1
  rw [BitVec.toInt_eq_toNat_cond] at h0 h1
  split at h0 <;> omega

/-- The precondition, all ones on every device, puts every row-number word below a million. -/
theorem ok_of_pre [Cert.Pre_input_domain.Facts] (m : (ℓ : Loc nD τ sig) → Buf (Elt F) ℓ)
    (h : ∀ c : Dev nD, Cert.Pre_input_domain.fn (F := F) (m (eLoc c)) (m (iLoc c)) (m (rLoc c)) (m (gLoc c)) = (fun _ => 1#1)) : PreOK m := by
  intro d j
  have e := congrFun (h d) (fun a => a.elim0)
  simp only [Cert.Pre_input_domain.fn, Cert.Pre_input_domain.fn_part1] at e
  have e2 := (IntOp.andi_eq_one.mp e).2
  have e3 := Host.reduce_andi_all _ _ _ _ _ e2 j
  obtain ⟨h0, h1⟩ := IntOp.andi_eq_one.mp e3
  exact toNat_lt_of_signed_range _ h0 h1

end Cert.Proof.KB

end
-- ==== Proof.RefRun.lean ====
/-
  The reference program's @main as one straight line of its fifty-seven host operations, and its run.

  The program calls the row-lookup function twice (once per table) and each of those calls the three-way
  selection function once; a call means the callee's body run on the call's own buffers, so @main is the two
  bodies' operations (twenty-three each: the index normalisation, the in-range mask, the row gather and the
  fill selection) followed by its own eleven (two column slices, four products, a difference, a sum, the
  concatenation). Every weakly fair execution of that line terminates, and each buffer ends at the fold of
  the operations' results over the launch contents.
-/
import proofs.«204629_g89326729822651_cont_sun_m_635_33_alg».proof.ReferenceIdeal
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, the calls unfolded: the first table's lookup, the second table's lookup,
    then @main's own eleven. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    unary main_arg0 main_v2 ((extractStridedSlice S16384x64 ![0, 0] · slices_S16384x128_S16384x64_0_0) : (⟨S16384x128, .f32⟩ : BufTy).Contents (Elt F) → (⟨S16384x64, .f32⟩ : BufTy).Contents (Elt F)),
    unary main_arg0 main_v3 ((extractStridedSlice S16384x64 ![0, 64] · slices_S16384x128_S16384x64_0_64) : (⟨S16384x128, .f32⟩ : BufTy).Contents (Elt F) → (⟨S16384x64, .f32⟩ : BufTy).Contents (Elt F)),
    binary main_v2 main_v0 main_v4 (mulf : (⟨S16384x64, .f32⟩ : BufTy).Contents (Elt F) → (⟨S16384x64, .f32⟩ : BufTy).Contents (Elt F) → (⟨S16384x64, .f32⟩ : BufTy).Contents (Elt F)),
    binary main_v3 main_v1 main_v5 (mulf : (⟨S16384x64, .f32⟩ : BufTy).Contents (Elt F) → (⟨S16384x64, .f32⟩ : BufTy).Contents (Elt F) → (⟨S16384x64, .f32⟩ : BufTy).Contents (Elt F)),
    binary main_v4 main_v5 main_v6 (subf : (⟨S16384x64, .f32⟩ : BufTy).Contents (Elt F) → (⟨S16384x64, .f32⟩ : BufTy).Contents (Elt F) → (⟨S16384x64, .f32⟩ : BufTy).Contents (Elt F)),
    binary main_v2 main_v1 main_v7 (mulf : (⟨S16384x64, .f32⟩ : BufTy).Contents (Elt F) → (⟨S16384x64, .f32⟩ : BufTy).Contents (Elt F) → (⟨S16384x64, .f32⟩ : BufTy).Contents (Elt F)),
    binary main_v3 main_v0 main_v8 (mulf : (⟨S16384x64, .f32⟩ : BufTy).Contents (Elt F) → (⟨S16384x64, .f32⟩ : BufTy).Contents (Elt F) → (⟨S16384x64, .f32⟩ : BufTy).Contents (Elt F)),
    binary main_v7 main_v8 main_v9 (addf : (⟨S16384x64, .f32⟩ : BufTy).Contents (Elt F) → (⟨S16384x64, .f32⟩ : BufTy).Contents (Elt F) → (⟨S16384x64, .f32⟩ : BufTy).Contents (Elt F)),
    binary main_v6 main_v9 main_v10 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)) ]

set_option maxRecDepth 2048 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., binary_bufs_sub .., binary_bufs_sub .., binary_bufs_sub .., binary_bufs_sub .., binary_bufs_sub .., binary_bufs_sub ..⟩

/-- From any memory with zero counters: every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerm.lean ====
/-
  The reference's result as one term of its four arguments.

  The row lookup, as the program spells it: the row numbers with a million added where they read negative; that
  column of numbers tested against 0 and 999999, the two tests joined and reduced along the unit axis; the table's
  rows gathered at the (clamped) numbers; and a selection between the gathered row and a fill constant by the test.
  The result: the batch's two column halves multiplied against the two lookups as a complex product, real parts
  beside imaginary parts. The fold of @main's operations at the result buffer is this term of the launch contents
  of the argument buffers, and the argument buffers are not written.
-/
import proofs.«204629_g89326729822651_cont_sun_m_635_33_alg».proof.Proof.RefRun

noncomputable section

namespace Cert.Proof.Ref

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The row numbers normalised: a million added where the number reads negative. -/
def normIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The normalised row numbers as a column. -/
def colIdx (idx : IVec S16384 32) : IVec S16384x1 32 :=
  broadcastInDim S16384x1 ![0] bcast_S16384_S16384x1_0 (normIdx idx)

/-- Per row: is the normalised number between 0 and 999999? -/
def inBounds (idx : IVec S16384 32) : IVec S16384 1 :=
  Host.reduce IntOp.andi
    (andi (cmpi .sge (colIdx idx) (broadcastInDim S16384x1 ![] bcast_S_S16384x1 (constantI S_ 32 0#32)))
      (cmpi .sle (colIdx idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The lookup: the table's rows at the row numbers, the fill constant where a number is out of bounds. -/
def take (tbl : FVec F S1000000x64 .f32) (idx : IVec S16384 32) : FVec F S16384x64 .f32 :=
  select (broadcastInDim S16384x64 ![0] bcast_S16384_S16384x64_0 (inBounds idx))
    (Host.gather gather_S1000000x64_S16384x1_S16384x64_1_0_n_n_0_1_164 tbl (colIdx idx))
    (broadcastInDim S16384x64 ![] bcast_S_S16384x64 (constant S_ .f32 0x7FC00000#32))

/-- The batch's real half (columns 0..63) and imaginary half (columns 64..127). -/
def loHalf (emb : FVec F S16384x128 .f32) : FVec F S16384x64 .f32 :=
  extractStridedSlice S16384x64 ![0, 0] emb slices_S16384x128_S16384x64_0_0
@[inherit_doc loHalf]
def hiHalf (emb : FVec F S16384x128 .f32) : FVec F S16384x64 .f32 :=
  extractStridedSlice S16384x64 ![0, 64] emb slices_S16384x128_S16384x64_0_64

/-- The result: real parts beside imaginary parts of the entrywise complex product. -/
def out (emb : FVec F S16384x128 .f32) (idx : IVec S16384 32) (re im : FVec F S1000000x64 .f32) : FVec F S16384x128 .f32 :=
  concatenate S16384x128 1
    [⟨S16384x64, subf (mulf (loHalf emb) (take re idx)) (mulf (hiHalf emb) (take im idx))⟩,
     ⟨S16384x64, addf (mulf (loHalf emb) (take im idx)) (mulf (hiHalf emb) (take re idx))⟩]
    concatenates_S16384x64_S16384x64_S16384x128_d1

attribute [local irreducible] Host.reduce Host.gather concatenate extractStridedSlice broadcastInDim in
set_option maxRecDepth 8192 in
set_option maxHeartbeats 800000 in
/-- The fold at the result buffer is `out` of the argument buffers' contents, by computation: each operation's
    result decides whether the buffer read is the one it writes. -/
theorem out_eq (V : Valuation τ sig (Elt F)) :
    after (ops (F := F)) V (main_v10 : DevRef τ sig)
      = out (F := F) (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after (ops (F := F)) V (main_arg0 : DevRef τ sig) = V (main_arg0 : DevRef τ sig) := by
  simp only [after_cons, after_nil]
  rfl

theorem arg1_eq (V : Valuation τ sig (Elt F)) :
    after (ops (F := F)) V (main_arg1 : DevRef τ sig) = V (main_arg1 : DevRef τ sig) := by
  simp only [after_cons, after_nil]
  rfl

theorem arg2_eq (V : Valuation τ sig (Elt F)) :
    after (ops (F := F)) V (main_arg2 : DevRef τ sig) = V (main_arg2 : DevRef τ sig) := by
  simp only [after_cons, after_nil]
  rfl

theorem arg3_eq (V : Valuation τ sig (Elt F)) :
    after (ops (F := F)) V (main_arg3 : DevRef τ sig) = V (main_arg3 : DevRef τ sig) := by
  simp only [after_cons, after_nil]
  rfl

/-- From any memory with zero counters: every weakly fair execution of @main terminates with the result buffer at
    `out` of the argument buffers' launch contents and the argument buffers unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (out_eq _), (h c main_arg0).trans (arg0_eq _),
      (h c main_arg1).trans (arg1_eq _), (h c main_arg2).trans (arg2_eq _), (h c main_arg3).trans (arg3_eq _)⟩)
    (run_main m ρ)

end Cert.Proof.Ref

end
-- ==== Proof.RefPre.lean ====
/-
  The index range the precondition grants.

  The precondition is one bit: every float input finite, and every row number between 0 and 999999 as a signed word,
  all of it reduced with "and". Read back at one row number: the word is nonnegative when read signed and at most
  999999, so read unsigned it is below a million, its signed and unsigned readings agree, and it is not negative.
-/
import proofs.«204629_g89326729822651_cont_sun_m_635_33_alg».proof.Pre_input_domain
import Idealize.ShloMosaic.Lib.ReduceAll
import Idealize.ShloMosaic.Lib.ValueIdx

noncomputable section

namespace Cert.Proof.Ref

open Idealize.ShloMosaic Idealize.ShloMosaic.ValueIdx

/-- What the precondition says of one row number. -/
structure InRange (w : BitVec 32) : Prop where
  /-- read signed, the word is not below zero -/
  nonneg : 0 ≤ w.toInt
  /-- read signed, the word is at most 999999 -/
  le : w.toInt ≤ 999999

namespace InRange

variable {w : BitVec 32}

theorem toNat_lt (h : InRange w) : w.toNat < 1000000 := by
  have h0 := h.nonneg
  have h1 := h.le
  have h32 := w.isLt
  unfold BitVec.toInt at h0 h1
  split at h0 <;> omega

theorem toInt_eq (h : InRange w) : w.toInt = (w.toNat : Int) := by
  have h0 := h.nonneg
  have h32 := w.isLt
  unfold BitVec.toInt at h0 ⊢
  split at h0
  · rename_i hlt; rw [if_pos hlt]
  · omega

theorem toInt_toNat (h : InRange w) : w.toInt.toNat = w.toNat := by
  rw [h.toInt_eq]; exact Int.toNat_natCast _

/-- The word is not negative: the comparison "below zero, signed" fails. -/
theorem slt_zero (h : InRange w) : IntOp.cmpi .slt w 0#32 = 0#1 := by
  refine eq_zero_of_ne_one fun e => ?_
  have := IntOp.cmpi_slt.1 e
  have h0 := h.nonneg
  rw [show (0#32 : BitVec 32).toInt = 0 from by decide] at this
  omega

/-- The comparison "at least zero, signed" holds. -/
theorem sge_zero (h : InRange w) : IntOp.cmpi .sge w 0#32 = 1#1 :=
  IntOp.cmpi_sge.2 (by rw [show (0#32 : BitVec 32).toInt = 0 from by decide]; exact h.nonneg)

/-- The comparison "at most 999999, signed" holds. -/
theorem sle_max (h : InRange w) : IntOp.cmpi .sle w 999999#32 = 1#1 :=
  IntOp.cmpi_sle.2 (by rw [show (999999#32 : BitVec 32).toInt = 999999 from by decide]; exact h.le)

end InRange

instance : Subsingleton Cert.Pre_input_domain.S_.Idx := ⟨fun a b => funext fun d => d.elim0⟩

/-- THE PRECONDITION DECODED at one row number. -/
theorem inRange_of_pre [Cert.Pre_input_domain.Facts] {F : FTy → Type} [FloatOps F]
    (a0 : FVec F Cert.Pre_input_domain.S16384x128 .f32) (a1 : IVec Cert.Pre_input_domain.S16384 32)
    (a2 a3 : FVec F Cert.Pre_input_domain.S1000000x64 .f32)
    (h : Cert.Pre_input_domain.fn (F := F) a0 a1 a2 a3 = fun _ => 1#1) (i : Cert.Pre_input_domain.S16384.Idx) :
    InRange (a1 i) := by
  have e := congrFun h ix0
  unfold Cert.Pre_input_domain.fn Cert.Pre_input_domain.fn_part1 at e
  dsimp only at e
  have e2 := (IntOp.andi_eq_one.1 e).2
  have e3 := Host.reduce_andi_all _ _ _ _ _ e2 i
  obtain ⟨hge, hle⟩ := IntOp.andi_eq_one.1 e3
  have h0 : (0#32 : BitVec 32).toInt ≤ (a1 i).toInt := IntOp.cmpi_sge.1 hge
  have h1 : (a1 i).toInt ≤ (999999#32 : BitVec 32).toInt := IntOp.cmpi_sle.1 hle
  rw [show (0#32 : BitVec 32).toInt = 0 from by decide] at h0
  rw [show (999999#32 : BitVec 32).toInt = 999999 from by decide] at h1
  exact ⟨h0, h1⟩

end Cert.Proof.Ref

end
-- ==== Proof.RefGather.lean ====
/-
  A row lookup read at an index.

  `table[rows]` of a two-axis table at a column of row numbers lowers to a gather whose start index has one
  component, naming the table's first axis, which is collapsed; the second axis is copied whole. Result element
  (t, j) is the table at row `rows[t, 0]` — read as a signed integer and clamped into the table — and column j.
-/
import Idealize.ShloMosaic.PureOps
import Idealize.ShloMosaic.Lib.ValueIdx

noncomputable section

namespace Cert.Proof.Ref

open Idealize.ShloMosaic Idealize.ShloMosaic.ValueIdx

variable {α : Type}

/-- The dimension numbers of a row lookup: table `[N, C]`, row numbers `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW LOOKUP READ AT `(t, j)`: the table at the row number `rows[t, 0]`, read signed and clamped into
    `[0, N − 1]`, and column `j`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (rows : IVec ⟨2, ![R, 1]⟩ w) (t : Fin R) (j : Fin C) :
    Host.gather (rowDims N R C wf) x rows (ix2 t j)
      = x (ix2 (⟨min (rows (ix2 t (⟨0, Nat.one_pos⟩ : Fin 1))).toInt.toNat (N - 1), by omega⟩ : Fin N) j) := by
  unfold Host.gather
  refine congrArg x (funext fun a => Fin.ext ?_)
  show (rowDims N R C wf).start (ix2 t j) rows a + (rowDims N R C wf).batchCoord (ix2 t j) a
      + (rowDims N R C wf).offCoord (ix2 t j) a = _
  rw [GatherDims.batchCoord_eq_zero _ _ _ List.not_mem_nil, Nat.add_zero]
  have h10 : (1 : Fin 2) ∉ ([0] : List (Fin 2)) := fun h => absurd (List.mem_singleton.1 h) (by decide)
  match a with
  | ⟨0, _⟩ =>
    show (rowDims N R C wf).start (ix2 t j) rows (0 : Fin 2) + (rowDims N R C wf).offCoord (ix2 t j) (0 : Fin 2)
      = min (rows (ix2 t (⟨0, Nat.one_pos⟩ : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N R C wf).startIndexMap from List.mem_singleton.mpr rfl)]
    have hsi : (rowDims N R C wf).siIdx (ix2 t j) ⟨List.idxOf (0 : Fin 2) (rowDims N R C wf).startIndexMap,
        List.idxOf_lt_length_iff.2 (List.mem_singleton.mpr rfl)⟩ = ix2 t (⟨0, Nat.one_pos⟩ : Fin 1) := by
      funext b; refine Fin.ext ?_
      match b with
      | ⟨0, _⟩ => rfl
      | ⟨1, _⟩ => rfl
    rw [hsi]
    rfl
  | ⟨1, _⟩ =>
    have hs : (rowDims N R C wf).start (ix2 t j) rows (1 : Fin 2) = 0 := by
      unfold GatherDims.start
      rw [dif_neg (show (1 : Fin 2) ∉ (rowDims N R C wf).startIndexMap from h10)]
    have ho : (rowDims N R C wf).offCoord (ix2 t j) (1 : Fin 2) = j.val := by
      unfold GatherDims.offCoord
      rw [dif_pos (show (1 : Fin 2) ∈ (rowDims N R C wf).sKept from (GatherDims.mem_sKept _ _).2 ⟨h10, List.not_mem_nil⟩)]
      rfl
    show (rowDims N R C wf).start (ix2 t j) rows (1 : Fin 2) + (rowDims N R C wf).offCoord (ix2 t j) (1 : Fin 2) = j.val
    rw [hs, ho, Nat.zero_add]

end Cert.Proof.Ref

end
-- ==== Proof.RefRead.lean ====
/-
  The reference's result term is the specification's function, index by index.

  Under the index range (every row number nonnegative read signed, and at most 999999): the normalisation leaves a
  row number as it is; the in-bounds test is 1 on every row; the gather's clamp is the identity, so the gathered row
  is the table's row at the number read unsigned; and the selection takes the gathered row, never the fill. The two
  column slices read the batch at columns k and 64 + k, and the concatenation's two halves are the real and the
  imaginary part of the product.
-/
import proofs.«204629_g89326729822651_cont_sun_m_635_33_alg».proof.Proof.RefTerm
import proofs.«204629_g89326729822651_cont_sun_m_635_33_alg».proof.Proof.RefPre
import proofs.«204629_g89326729822651_cont_sun_m_635_33_alg».proof.Proof.RefGather
import proofs.«204629_g89326729822651_cont_sun_m_635_33_alg».proof.Proof.Spec
import Idealize.ShloMosaic.Lib.Pipeline.Value

noncomputable section

namespace Cert.Proof.Ref

open Cert.ReferenceIdeal Idealize.ShloMosaic Idealize.ShloMosaic.ValueIdx
open Cert.ReferenceIdeal.Facts₀ Cert.ReferenceIdeal.Facts

variable {F : FTy → Type} [FloatOps F] [Cert.ReferenceIdeal.Facts]

/-- A left fold by "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

section Index
variable (idx : IVec S16384 32) (hidx : ∀ i, InRange (idx i))
include hidx

/-- A row number in range is left as it is. -/
theorem normIdx_apply (i : S16384.Idx) : normIdx idx i = idx i := by
  show Scalar.select (IntOp.cmpi .slt (idx i) 0#32) (IntOp.addi (idx i) 1000000#32) (idx i) = idx i
  rw [(hidx i).slt_zero, select_zero]

/-- The column of row numbers at (n, 0) is row number n. -/
theorem colIdx_apply (n : Fin 16384) (z : Fin 1) : colIdx idx (ix2 n z) = idx (ix1 n) := by
  unfold colIdx
  rw [broadcastInDim_apply _ _ _ (ix2 n z) (ix1 n) (fun a => by match a with | ⟨0, _⟩ => rfl)]
  exact normIdx_apply idx hidx _

/-- Every row passes the in-bounds test. -/
theorem inBounds_apply (j : S16384.Idx) : inBounds idx j = 1#1 := by
  unfold inBounds
  rw [Host.reduce_eq_foldl]
  refine foldl_andi_ones _ _ fun i _ => ?_
  obtain ⟨n, z, rfl⟩ : ∃ (n : Fin 16384) (z : Fin 1), i = ix2 n z := ⟨i 0, i 1, eq_ix2 i⟩
  show IntOp.andi (IntOp.cmpi .sge (colIdx idx (ix2 n z)) 0#32) (IntOp.cmpi .sle (colIdx idx (ix2 n z)) 999999#32) = 1#1
  rw [colIdx_apply idx hidx, (hidx _).sge_zero, (hidx _).sle_max]
  decide

/-- THE LOOKUP READ AT (n, k): the table's row at row number n, column k. -/
theorem take_apply (tbl : FVec F S1000000x64 .f32) (n : Fin 16384) (k : Fin 64) :
    take tbl idx (ix2 n k) = tbl (ix2 (Cert.Spec.rowOf (idx (ix1 n))) k) := by
  unfold take
  rw [select_apply,
    broadcastInDim_apply _ _ _ (ix2 n k) (ix1 n) (fun a => by match a with | ⟨0, _⟩ => rfl),
    inBounds_apply idx hidx, select_one]
  refine (gather_row_apply (N := 1000000) (R := 16384) (C := 64) (by decide)
    gather_S1000000x64_S16384x1_S16384x64_1_0_n_n_0_1_164_wf tbl (colIdx idx) n k).trans ?_
  refine congrArg tbl (congrArg (fun r : Fin 1000000 => ix2 r k) (Fin.ext ?_))
  show min (colIdx idx (ix2 n (⟨0, Nat.one_pos⟩ : Fin 1))).toInt.toNat (1000000 - 1) = (Cert.Spec.rowOf (idx (ix1 n))).val
  have h := hidx (ix1 n)
  rw [colIdx_apply idx hidx, h.toInt_toNat, Cert.Spec.rowOf_val_of_lt h.toNat_lt]
  have := h.toNat_lt
  omega

end Index

/-- The batch's real half at (n, k) is the batch at column k. -/
theorem loHalf_apply (emb : FVec F S16384x128 .f32) (n : Fin 16384) (k : Fin 64) :
    loHalf emb (ix2 n k) = Cert.Spec.eRe emb n k := by
  unfold loHalf Cert.Spec.eRe
  exact extractStridedSlice_apply _ _ _ (ix2 n k) (ix2 n (⟨k.val, by omega⟩ : Fin 128)) fun a => by
    match a with
    | ⟨0, _⟩ => show n.val = 0 + n.val; omega
    | ⟨1, _⟩ => show k.val = 0 + k.val; omega

/-- The batch's imaginary half at (n, k) is the batch at column 64 + k. -/
theorem hiHalf_apply (emb : FVec F S16384x128 .f32) (n : Fin 16384) (k : Fin 64) :
    hiHalf emb (ix2 n k) = Cert.Spec.eIm emb n k := by
  unfold hiHalf Cert.Spec.eIm
  exact extractStridedSlice_apply _ _ _ (ix2 n k) (ix2 n (⟨64 + k.val, by omega⟩ : Fin 128)) fun a => by
    match a with
    | ⟨0, _⟩ => show n.val = 0 + n.val; omega
    | ⟨1, _⟩ => show 64 + k.val = 64 + k.val; rfl

/-- THE REFERENCE IS THE SPECIFICATION, under the index range. -/
theorem out_eq_G (emb : FVec F S16384x128 .f32) (idx : IVec S16384 32) (re im : FVec F S1000000x64 .f32)
    (hidx : ∀ i, InRange (idx i)) : out emb idx re im = Cert.Spec.G emb idx re im := by
  funext i
  obtain ⟨n, c, rfl⟩ : ∃ (n : Fin 16384) (c : Fin 128), i = ix2 n c := ⟨i 0, i 1, eq_ix2 i⟩
  unfold out
  by_cases hc : c.val < 64
  · refine Eq.trans ?_ (Cert.Spec.G_lo emb idx re im n ⟨c.val, hc⟩).symm
    rw [concatenate_pair_apply_left (t := S16384x128) (s₁ := S16384x64) (s₂ := S16384x64) (1 : Fin 2) _ _ _ (ix2 n c) rfl
      (ix2 n (⟨c.val, hc⟩ : Fin 64) : S16384x64.Idx) (fun b => by
      match b with
      | ⟨0, _⟩ => rfl
      | ⟨1, _⟩ => rfl)]
    show FloatOps.subf (FloatOps.mulf (loHalf emb (ix2 n ⟨c.val, hc⟩)) (take re idx (ix2 n ⟨c.val, hc⟩)))
        (FloatOps.mulf (hiHalf emb (ix2 n ⟨c.val, hc⟩)) (take im idx (ix2 n ⟨c.val, hc⟩))) = _
    rw [loHalf_apply, hiHalf_apply, take_apply idx hidx, take_apply idx hidx]
    rfl
  · have hc2 : c.val - 64 < 64 := by have := c.isLt; omega
    have e : (ix2 n c : S16384x128.Idx) = ix2 n (⟨64 + (⟨c.val - 64, hc2⟩ : Fin 64).val, by omega⟩ : Fin 128) := by
      refine congrArg (ix2 n) (Fin.ext ?_)
      show c.val = 64 + (c.val - 64)
      omega
    refine Eq.trans ?_ ((congrArg (Cert.Spec.G emb idx re im) e).trans (Cert.Spec.G_hi emb idx re im n ⟨c.val - 64, hc2⟩)).symm
    rw [concatenate_pair_apply_right (t := S16384x128) (s₁ := S16384x64) (s₂ := S16384x64) (1 : Fin 2) _ _ _ (ix2 n c) rfl rfl
      (ix2 n (⟨c.val - 64, hc2⟩ : Fin 64) : S16384x64.Idx)
      (fun b hb => by
        match b with
        | ⟨0, _⟩ => rfl
        | ⟨1, _⟩ => exact absurd rfl hb)
      (by show (c.val - 64) + 64 = c.val; omega)]
    show FloatOps.addf (FloatOps.mulf (loHalf emb (ix2 n ⟨c.val - 64, hc2⟩)) (take im idx (ix2 n ⟨c.val - 64, hc2⟩)))
        (FloatOps.mulf (hiHalf emb (ix2 n ⟨c.val - 64, hc2⟩)) (take re idx (ix2 n ⟨c.val - 64, hc2⟩))) = _
    rw [loHalf_apply, hiHalf_apply, take_apply idx hidx, take_apply idx hidx]
    rfl

end Cert.Proof.Ref

end
-- ==== Proof.Ref.lean ====
/-
  The reference's run, stated against the specification.

  Every weakly fair execution of the reference terminates, faulting nowhere; it leaves its four arguments as they
  were, and — the precondition granting that every row number lies between 0 and 999999 — its result array is the
  specification's function of them.
-/
import proofs.«204629_g89326729822651_cont_sun_m_635_33_alg».proof.Defs
import proofs.«204629_g89326729822651_cont_sun_m_635_33_alg».proof.Proof.RefRead

noncomputable section

namespace Cert.Proof.Ref
open Idealize.ShloMosaic Idealize.SL.Sem
/-- The reference's run: it ends, faults nowhere, leaves its four arguments unchanged, and its result array is the specification's function of them. -/
theorem run [hR : Cert.ReferenceIdeal.Facts] [hP : Cert.Pre_input_domain.Facts]
    (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = Cert.Spec.G (F := Ideal) (m ((c.tc : Thread _ _).loc Cert.ReferenceIdeal.main_arg0)) (m ((c.tc : Thread _ _).loc Cert.ReferenceIdeal.main_arg1))
                (m ((c.tc : Thread _ _).loc Cert.ReferenceIdeal.main_arg2)) (m ((c.tc : Thread _ _).loc Cert.ReferenceIdeal.main_arg3))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run (Cert.ReferenceIdeal.defs (F := Ideal)) _ _).mono
    (fun _ h c => ⟨(h c).1.trans (out_eq_G (F := Ideal) _ _ _ _ fun i => inRange_of_pre (F := Ideal) _ _ _ _ (hpre c) i), (h c).2⟩)
    (run_out (F := Ideal) m ρ)
end Cert.Proof.Ref

end
-- ==== Proof.lean ====
/-
  The proof of `Cert.Claim`: the three frames, the idealization's ledger, and the equality of the idealized kernel
  and the idealized reference.

  THE FUNCTION. Row n of the batch, read as 64 complex numbers (real parts in columns 0..63, imaginary parts in columns
  64..127), is multiplied entry by entry by the complex vector whose real and imaginary parts are row idx[n] of the two
  tables (Proof/Spec.lean, `Cert.Spec.G`, stated for any float instance).

  THE KERNEL. Each of the 32 vector subcores owns 512 rows of the batch in eight chunks of 64: it copies its row
  numbers, and per chunk copies the batch rows in, starts one row copy per table and per row on two semaphores, waits
  for all 128 of them, multiplies, and copies the result chunk out, the next chunk's copies in flight meanwhile on the
  other pair of buffers and semaphores. Its run (Proof/KI/Run.lean for the idealized program, Proof/KB/Run.lean for
  the word-level program, each for any float instance) is stated with the strongest post: every
  weakly fair execution of all 35 threads terminates, faulting nowhere, with the result array at `G` of the four
  arguments' launch contents and the arguments unchanged. It needs of the launch memory only that every row number
  names a row of the tables, which the precondition grants (Proof/KI/Pre.lean).

  THE REFERENCE. Its run (Proof/Ref.lean, from the straight line of its fifty-seven host operations) ends with its
  result array at the same `G` of its arguments, under the same precondition: the row numbers being in range, the
  index normalisation is the identity, the in-bounds mask is all ones and the gather's clamp does nothing.

  THE FIVE CONJUNCTS. Each frame is its program's run with the result dropped. The idealization rewrote no operation,
  so its ledger is empty. For the equality, from memories that agree on the arguments both results are `G` of the
  same four arrays: the kernel's by its run, the reference's by its run at arguments rewritten along the agreement
  (which also carries the precondition over).
-/
import proofs.«204629_g89326729822651_cont_sun_m_635_33_alg».proof.Defs
import proofs.«204629_g89326729822651_cont_sun_m_635_33_alg».proof.Proof.Gen.Kernel
import proofs.«204629_g89326729822651_cont_sun_m_635_33_alg».proof.Proof.Gen.KernelIdeal
import proofs.«204629_g89326729822651_cont_sun_m_635_33_alg».proof.Proof.Gen.ReferenceIdeal
import proofs.«204629_g89326729822651_cont_sun_m_635_33_alg».proof.Proof.Gen.Pre_input_domain
import proofs.«204629_g89326729822651_cont_sun_m_635_33_alg».proof.Proof.KI.Run
import proofs.«204629_g89326729822651_cont_sun_m_635_33_alg».proof.Proof.KI.Pre
import proofs.«204629_g89326729822651_cont_sun_m_635_33_alg».proof.Proof.KB.Run
import proofs.«204629_g89326729822651_cont_sun_m_635_33_alg».proof.Proof.KB.Pre
import proofs.«204629_g89326729822651_cont_sun_m_635_33_alg».proof.Proof.Ref
import Idealize.ShloMosaic.Adequacy
import Idealize.ShloMosaic.Init

noncomputable section

namespace Cert.Proof

open Idealize.ShloMosaic Idealize.SL.Sem

/-- The word-level kernel runs and leaves its arguments unchanged: its run, the result dropped. -/
theorem frame_kernel : Cert.frame_Kernel := fun m ρ hpre =>
  (θ_run (Cert.Kernel.defs (F := Bits)) _ _).mono (fun _ h c => (h c).2)
    (Cert.Proof.KB.run_main (F := Bits) m ρ (Cert.Proof.KB.ok_of_pre (F := Bits) m hpre))

/-- The idealized kernel runs and leaves its arguments unchanged: its run, the result dropped. -/
theorem frame_kernelIdeal : Cert.frame_KernelIdeal := fun m ρ hpre =>
  (θ_run (Cert.KernelIdeal.defs (F := Ideal)) _ _).mono (fun _ h c => (h c).2)
    (Cert.Proof.KI.run_main (F := Ideal) m ρ (Cert.Proof.KI.ok_of_pre (F := Ideal) m hpre))

/-- The idealized reference runs and leaves its arguments unchanged: its run, the result dropped. -/
theorem frame_referenceIdeal : Cert.frame_ReferenceIdeal := fun m ρ hpre =>
  (θ_run (Cert.ReferenceIdeal.defs (F := Ideal)) _ _).mono (fun _ h c => (h c).2) (Cert.Proof.Ref.run m ρ hpre)

/-- The idealization rewrote no operation: nothing to restate. -/
theorem preserves : Cert.preserves_Kernel_KernelIdeal := trivial

/-- At the ideal instance, from memories that agree on the four arguments, the kernel's result array and the
    reference's are the specification's function of the same arrays. -/
theorem algebraic : Cert.algebraic_KernelIdeal_ReferenceIdeal := by
  intro m ρ m' ρ' hpre hagree
  -- the reference's precondition is the kernel's, its arrays rewritten along the agreement
  have hpre' : Cert.Pre_ReferenceIdeal m' := fun c => by
    have h := hpre c
    rw [← (hagree c).1, ← (hagree c).2.1, ← (hagree c).2.2.1, ← (hagree c).2.2.2] at h
    exact h
  refine ⟨fun c => Cert.Proof.KI.Gm m c,
    Cert.Proof.KI.run_main (F := Ideal) m ρ (Cert.Proof.KI.ok_of_pre (F := Ideal) m hpre), ?_⟩
  refine (θ_run (Cert.ReferenceIdeal.defs (F := Ideal)) _ _).mono (fun _ h c => ⟨(h c).1.trans ?_, (h c).2⟩)
    (Cert.Proof.Ref.run m' ρ' hpre')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, preserves, algebraic⟩

end Cert.Proof

end
